-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v366)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v366) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v409) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S128x128 : Shape := ⟨2, ![128, 128]⟩
abbrev S256x1 : Shape := ⟨2, ![256, 1]⟩
abbrev S2x524288 : Shape := ⟨2, ![2, 524288]⟩
abbrev S2x2048 : Shape := ⟨2, ![2, 2048]⟩
abbrev S128 : Shape := ⟨1, ![128]⟩
abbrev S7x15 : Shape := ⟨2, ![7, 15]⟩
abbrev S15 : Shape := ⟨1, ![15]⟩
abbrev S15x1 : Shape := ⟨2, ![15, 1]⟩
abbrev S1 : Shape := ⟨1, ![1]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_
  bcast_S_S128 : S_.BroadcastsInDim S128 (![] : Fin 0 → Fin S128.rank)
  reducesTo_S128_S_d0 : S128.ReducesTo [0] S_
  bcast_S_S7x15 : S_.BroadcastsInDim S7x15 (![] : Fin 0 → Fin S7x15.rank)
  reducesTo_S7x15_S_d0_1 : S7x15.ReducesTo [0, 1] S_
  bcast_S_S15 : S_.BroadcastsInDim S15 (![] : Fin 0 → Fin S15.rank)
  reducesTo_S15_S_d0 : S15.ReducesTo [0] S_
  bcast_S_S15x1 : S_.BroadcastsInDim S15x1 (![] : Fin 0 → Fin S15x1.rank)
  reducesTo_S15x1_S_d0_1 : S15x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S15x1 .f32) (main_arg10 : FVec F S1 .f32) (main_v33 : IVec S_ 1) : IVec S_ 1 :=
  let main_v34 : FVec F S15x1 .f32 := Host.absf main_arg9
  let main_cst_12 : FVec F S_ .f32 := constant S_ .f32 0x7F800000#32
  let main_v35 : FVec F S15x1 .f32 := broadcastInDim S15x1 ![] bcast_S_S15x1 main_cst_12
  let main_v36 : IVec S15x1 1 := cmpf .olt main_v34 main_v35
  let main_c_13 : IVec S_ 1 := constantI S_ 1 1#1
  let main_v37 : IVec S_ 1 := (fun x v => Host.reduce IntOp.andi x v reducesTo_S15x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S7x15 .f32) (main_arg8 : FVec F S15 .f32) (main_arg9 : FVec F S15x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S7x15 .f32 := Host.absf main_arg7
  let main_cst_8 : FVec F S_ .f32 := constant S_ .f32 0x7F800000#32
  let main_v25 : FVec F S7x15 .f32 := broadcastInDim S7x15 ![] bcast_S_S7x15 main_cst_8
  let main_v26 : IVec S7x15 1 := cmpf .olt main_v24 main_v25
  let main_c_9 : IVec S_ 1 := constantI S_ 1 1#1
  let main_v27 : IVec S_ 1 := (fun x v => Host.reduce IntOp.andi x v reducesTo_S7x15_S_d0_1 h_S_) main_v26 main_c_9
  let main_v28 : IVec S_ 1 := andi main_v23 main_v27
  let main_v29 : FVec F S15 .f32 := Host.absf main_arg8
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg9 main_arg10 main_v33

def fn {F : FTy → Type} [FloatOps F] (main_arg0 : FVec F S32768x128 .f32) (main_arg1 : FVec F S128x128 .f32) (main_arg2 : FVec F S256x1 .f32) (main_arg3 : IVec S2x524288 32) (main_arg4 : IVec S2x2048 32) (main_arg5 : FVec F S128x128 .f32) (main_arg6 : FVec F S128 .f32) (main_arg7 : FVec F S7x15 .f32) (main_arg8 : FVec F S15 .f32) (main_arg9 : FVec F S15x1 .f32) (main_arg10 : FVec F S1 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S32768x128 : Shape := ⟨2, ![32768, 128]⟩
abbrev S128x128 : Shape := ⟨2, ![128, 128]⟩
abbrev S256x1 : Shape := ⟨2, ![256, 1]⟩
abbrev S2x524288 : Shape := ⟨2, ![2, 524288]⟩
abbrev S2x2048 : Shape := ⟨2, ![2, 2048]⟩
abbrev S128 : Shape := ⟨1, ![128]⟩
abbrev S7x15 : Shape := ⟨2, ![7, 15]⟩
abbrev S15 : Shape := ⟨1, ![15]⟩
abbrev S15x1 : Shape := ⟨2, ![15, 1]⟩
abbrev S1 : Shape := ⟨1, ![1]⟩
abbrev S32768 : Shape := ⟨1, ![32768]⟩
abbrev S1x524288 : Shape := ⟨2, ![1, 524288]⟩
abbrev S524288 : Shape := ⟨1, ![524288]⟩
abbrev S557056 : Shape := ⟨1, ![557056]⟩
abbrev S_ : Shape := ⟨0, ![]⟩
abbrev S557056x1 : Shape := ⟨2, ![557056, 1]⟩
abbrev S1x2048 : Shape := ⟨2, ![1, 2048]⟩
abbrev S2048 : Shape := ⟨1, ![2048]⟩
abbrev S2176 : Shape := ⟨1, ![2176]⟩
abbrev S2176x1 : Shape := ⟨2, ![2176, 1]⟩
abbrev S4096x128 : Shape := ⟨2, ![4096, 128]⟩
abbrev S557056x128 : Shape := ⟨2, ![557056, 128]⟩
abbrev S1x128 : Shape := ⟨2, ![1, 128]⟩
abbrev S256x128 : Shape := ⟨2, ![256, 128]⟩
abbrev S32x128 : Shape := ⟨2, ![32, 128]⟩
abbrev S32x128x128 : Shape := ⟨3, ![32, 128, 128]⟩
abbrev S1x128x128 : Shape := ⟨3, ![1, 128, 128]⟩
abbrev S32 : Shape := ⟨1, ![32]⟩
abbrev S32x1 : Shape := ⟨2, ![32, 1]⟩
abbrev S256 : Shape := ⟨1, ![256]⟩
abbrev S2176x128 : Shape := ⟨2, ![2176, 128]⟩
abbrev S256x7 : Shape := ⟨2, ![256, 7]⟩
abbrev S7 : Shape := ⟨1, ![7]⟩
abbrev S1x7 : Shape := ⟨2, ![1, 7]⟩
abbrev S256x15 : Shape := ⟨2, ![256, 15]⟩
abbrev S1x15 : Shape := ⟨2, ![1, 15]⟩
abbrev S1x1 : Shape := ⟨2, ![1, 1]⟩

abbrev nBuf : Space → Nat
  | .hbm => 550
  | .vmem => 91
  | .smem => 0
  | _ => 0

abbrev hbmTy0_0 (i : Nat) : BufTy := match i % 128 with
  | 0 => ⟨S32768x128, .f32⟩
  | 1 => ⟨S128x128, .f32⟩
  | 2 => ⟨S256x1, .f32⟩
  | 3 => ⟨S2x524288, .i32⟩
  | 4 => ⟨S2x2048, .i32⟩
  | 5 => ⟨S128x128, .f32⟩
  | 6 => ⟨S128, .f32⟩
  | 7 => ⟨S7x15, .f32⟩
  | 8 => ⟨S15, .f32⟩
  | 9 => ⟨S15x1, .f32⟩
  | 10 => ⟨S1, .f32⟩
  | 11 => ⟨S32768, .i32⟩
  | 12 => ⟨S1x524288, .i32⟩
  | 13 => ⟨S524288, .i32⟩
  | 14 => ⟨S557056, .i32⟩
  | 15 => ⟨S1x524288, .i32⟩
  | 16 => ⟨S524288, .i32⟩
  | 17 => ⟨S557056, .i32⟩
  | 18 => ⟨S_, .f32⟩
  | 19 => ⟨S557056, .f32⟩
  | 20 => ⟨S_, .f32⟩
  | 21 => ⟨S32768, .f32⟩
  | 22 => ⟨S557056x1, .i32⟩
  | 23 => ⟨S32768, .f32⟩
  | 24 => ⟨S_, .f32⟩
  | 25 => ⟨S32768, .f32⟩
  | 26 => ⟨S32768, .i1⟩
  | 27 => ⟨S32768, .f32⟩
  | 28 => ⟨S_, .f32⟩
  | 29 => ⟨S_, .f32⟩
  | 30 => ⟨S32768, .f32⟩
  | 31 => ⟨S32768, .f32⟩
  | 32 => ⟨S_, .i32⟩
  | 33 => ⟨S557056, .i32⟩
  | 34 => ⟨S557056, .i1⟩
  | 35 => ⟨S_, .i32⟩
  | 36 => ⟨S557056, .i32⟩
  | 37 => ⟨S557056, .i32⟩
  | 38 => ⟨S557056, .i32⟩
  | 39 => ⟨S557056x1, .i32⟩
  | 40 => ⟨S557056, .f32⟩
  | 41 => ⟨S_, .i32⟩
  | 42 => ⟨S557056, .i32⟩
  | 43 => ⟨S557056, .i1⟩
  | 44 => ⟨S_, .i32⟩
  | 45 => ⟨S557056, .i32⟩
  | 46 => ⟨S557056, .i32⟩
  | 47 => ⟨S557056, .i32⟩
  | 48 => ⟨S557056x1, .i32⟩
  | 49 => ⟨S557056, .f32⟩
  | 50 => ⟨S557056, .f32⟩
  | 51 => ⟨S128, .i32⟩
  | 52 => ⟨S1x2048, .i32⟩
  | 53 => ⟨S2048, .i32⟩
  | 54 => ⟨S2176, .i32⟩
  | 55 => ⟨S1x2048, .i32⟩
  | 56 => ⟨S2048, .i32⟩
  | 57 => ⟨S2176, .i32⟩
  | 58 => ⟨S_, .f32⟩
  | 59 => ⟨S2176, .f32⟩
  | 60 => ⟨S_, .f32⟩
  | 61 => ⟨S128, .f32⟩
  | 62 => ⟨S2176x1, .i32⟩
  | 63 => ⟨S128, .f32⟩
  | 64 => ⟨S_, .f32⟩
  | 65 => ⟨S128, .f32⟩
  | 66 => ⟨S128, .i1⟩
  | 67 => ⟨S128, .f32⟩
  | 68 => ⟨S_, .f32⟩
  | 69 => ⟨S_, .f32⟩
  | 70 => ⟨S128, .f32⟩
  | 71 => ⟨S128, .f32⟩
  | 72 => ⟨S_, .i32⟩
  | 73 => ⟨S2176, .i32⟩
  | 74 => ⟨S2176, .i1⟩
  | 75 => ⟨S_, .i32⟩
  | 76 => ⟨S2176, .i32⟩
  | 77 => ⟨S2176, .i32⟩
  | 78 => ⟨S2176, .i32⟩
  | 79 => ⟨S2176x1, .i32⟩
  | 80 => ⟨S2176, .f32⟩
  | 81 => ⟨S_, .i32⟩
  | 82 => ⟨S2176, .i32⟩
  | 83 => ⟨S2176, .i1⟩
  | 84 => ⟨S_, .i32⟩
  | 85 => ⟨S2176, .i32⟩
  | 86 => ⟨S2176, .i32⟩
  | 87 => ⟨S2176, .i32⟩
  | 88 => ⟨S2176x1, .i32⟩
  | 89 => ⟨S2176, .f32⟩
  | 90 => ⟨S2176, .f32⟩
  | 91 => ⟨S128x128, .i32⟩
  | 92 => ⟨S128x128, .i32⟩
  | 93 => ⟨S_, .i32⟩
  | 94 => ⟨S128x128, .i32⟩
  | 95 => ⟨S128x128, .i32⟩
  | 96 => ⟨S128x128, .i1⟩
  | 97 => ⟨S128x128, .f32⟩
  | 98 => ⟨S32768x128, .f32⟩
  | 99 => ⟨S_, .i32⟩
  | 100 => ⟨S557056, .i32⟩
  | 101 => ⟨S557056, .i1⟩
  | 102 => ⟨S_, .i32⟩
  | 103 => ⟨S557056, .i32⟩
  | 104 => ⟨S557056, .i32⟩
  | 105 => ⟨S557056, .i32⟩
  | 106 => ⟨S557056x1, .i32⟩
  | 107 => ⟨S557056x128, .f32⟩
  | 108 => ⟨S557056x1, .f32⟩
  | 109 => ⟨S557056x128, .f32⟩
  | 110 => ⟨S557056x128, .f32⟩
  | 111 => ⟨S_, .f32⟩
  | 112 => ⟨S32768x128, .f32⟩
  | 113 => ⟨S557056x1, .i32⟩
  | 114 => ⟨S32768x128, .f32⟩
  | 115 => ⟨S1x128, .f32⟩
  | 116 => ⟨S32768x128, .f32⟩
  | 117 => ⟨S256x128, .f32⟩
  | 118 => ⟨S256x1, .f32⟩
  | 119 => ⟨S256, .f32⟩
  | 120 => ⟨S128x128, .f32⟩
  | 121 => ⟨S_, .i32⟩
  | 122 => ⟨S2176, .i32⟩
  | 123 => ⟨S2176, .i1⟩
  | 124 => ⟨S_, .i32⟩
  | 125 => ⟨S2176, .i32⟩
  | 126 => ⟨S2176, .i32⟩
  | 127 => ⟨S2176, .i32⟩
  | _ => ⟨S32768x128, .f32⟩

abbrev hbmTy0_1 (i : Nat) : BufTy := match i % 128 with
  | 0 => ⟨S2176x1, .i32⟩
  | 1 => ⟨S2176x128, .f32⟩
  | 2 => ⟨S2176x1, .f32⟩
  | 3 => ⟨S2176x128, .f32⟩
  | 4 => ⟨S2176x128, .f32⟩
  | 5 => ⟨S_, .f32⟩
  | 6 => ⟨S128x128, .f32⟩
  | 7 => ⟨S2176x1, .i32⟩
  | 8 => ⟨S128x128, .f32⟩
  | 9 => ⟨S1x128, .f32⟩
  | 10 => ⟨S128x128, .f32⟩
  | 11 => ⟨S128x128, .f32⟩
  | 12 => ⟨S128x128, .i32⟩
  | 13 => ⟨S128x128, .i32⟩
  | 14 => ⟨S_, .i32⟩
  | 15 => ⟨S128x128, .i32⟩
  | 16 => ⟨S128x128, .i32⟩
  | 17 => ⟨S128x128, .i1⟩
  | 18 => ⟨S_, .f32⟩
  | 19 => ⟨S128x128, .f32⟩
  | 20 => ⟨S128x128, .f32⟩
  | 21 => ⟨S_, .f32⟩
  | 22 => ⟨S_, .f32⟩
  | 23 => ⟨S32768x128, .f32⟩
  | 24 => ⟨S_, .i32⟩
  | 25 => ⟨S557056, .i32⟩
  | 26 => ⟨S557056, .i1⟩
  | 27 => ⟨S_, .i32⟩
  | 28 => ⟨S557056, .i32⟩
  | 29 => ⟨S557056, .i32⟩
  | 30 => ⟨S557056, .i32⟩
  | 31 => ⟨S557056x1, .i32⟩
  | 32 => ⟨S557056x128, .f32⟩
  | 33 => ⟨S557056x1, .f32⟩
  | 34 => ⟨S557056x128, .f32⟩
  | 35 => ⟨S557056x128, .f32⟩
  | 36 => ⟨S_, .f32⟩
  | 37 => ⟨S32768x128, .f32⟩
  | 38 => ⟨S557056x1, .i32⟩
  | 39 => ⟨S32768x128, .f32⟩
  | 40 => ⟨S1x128, .f32⟩
  | 41 => ⟨S32768x128, .f32⟩
  | 42 => ⟨S256x128, .f32⟩
  | 43 => ⟨S256x1, .f32⟩
  | 44 => ⟨S256, .f32⟩
  | 45 => ⟨S128x128, .f32⟩
  | 46 => ⟨S_, .i32⟩
  | 47 => ⟨S2176, .i32⟩
  | 48 => ⟨S2176, .i1⟩
  | 49 => ⟨S_, .i32⟩
  | 50 => ⟨S2176, .i32⟩
  | 51 => ⟨S2176, .i32⟩
  | 52 => ⟨S2176, .i32⟩
  | 53 => ⟨S2176x1, .i32⟩
  | 54 => ⟨S2176x128, .f32⟩
  | 55 => ⟨S2176x1, .f32⟩
  | 56 => ⟨S2176x128, .f32⟩
  | 57 => ⟨S2176x128, .f32⟩
  | 58 => ⟨S_, .f32⟩
  | 59 => ⟨S128x128, .f32⟩
  | 60 => ⟨S2176x1, .i32⟩
  | 61 => ⟨S128x128, .f32⟩
  | 62 => ⟨S1x128, .f32⟩
  | 63 => ⟨S128x128, .f32⟩
  | 64 => ⟨S128x128, .f32⟩
  | 65 => ⟨S128x128, .i32⟩
  | 66 => ⟨S128x128, .i32⟩
  | 67 => ⟨S_, .i32⟩
  | 68 => ⟨S128x128, .i32⟩
  | 69 => ⟨S128x128, .i32⟩
  | 70 => ⟨S128x128, .i1⟩
  | 71 => ⟨S_, .f32⟩
  | 72 => ⟨S128x128, .f32⟩
  | 73 => ⟨S128x128, .f32⟩
  | 74 => ⟨S_, .f32⟩
  | 75 => ⟨S_, .f32⟩
  | 76 => ⟨S32768x128, .f32⟩
  | 77 => ⟨S_, .i32⟩
  | 78 => ⟨S557056, .i32⟩
  | 79 => ⟨S557056, .i1⟩
  | 80 => ⟨S_, .i32⟩
  | 81 => ⟨S557056, .i32⟩
  | 82 => ⟨S557056, .i32⟩
  | 83 => ⟨S557056, .i32⟩
  | 84 => ⟨S557056x1, .i32⟩
  | 85 => ⟨S557056x128, .f32⟩
  | 86 => ⟨S557056x1, .f32⟩
  | 87 => ⟨S557056x128, .f32⟩
  | 88 => ⟨S557056x128, .f32⟩
  | 89 => ⟨S_, .f32⟩
  | 90 => ⟨S32768x128, .f32⟩
  | 91 => ⟨S557056x1, .i32⟩
  | 92 => ⟨S32768x128, .f32⟩
  | 93 => ⟨S1x128, .f32⟩
  | 94 => ⟨S32768x128, .f32⟩
  | 95 => ⟨S256x128, .f32⟩
  | 96 => ⟨S256x1, .f32⟩
  | 97 => ⟨S256, .f32⟩
  | 98 => ⟨S128x128, .f32⟩
  | 99 => ⟨S_, .i32⟩
  | 100 => ⟨S2176, .i32⟩
  | 101 => ⟨S2176, .i1⟩
  | 102 => ⟨S_, .i32⟩
  | 103 => ⟨S2176, .i32⟩
  | 104 => ⟨S2176, .i32⟩
  | 105 => ⟨S2176, .i32⟩
  | 106 => ⟨S2176x1, .i32⟩
  | 107 => ⟨S2176x128, .f32⟩
  | 108 => ⟨S2176x1, .f32⟩
  | 109 => ⟨S2176x128, .f32⟩
  | 110 => ⟨S2176x128, .f32⟩
  | 111 => ⟨S_, .f32⟩
  | 112 => ⟨S128x128, .f32⟩
  | 113 => ⟨S2176x1, .i32⟩
  | 114 => ⟨S128x128, .f32⟩
  | 115 => ⟨S1x128, .f32⟩
  | 116 => ⟨S128x128, .f32⟩
  | 117 => ⟨S128x128, .f32⟩
  | 118 => ⟨S128x128, .i32⟩
  | 119 => ⟨S128x128, .i32⟩
  | 120 => ⟨S_, .i32⟩
  | 121 => ⟨S128x128, .i32⟩
  | 122 => ⟨S128x128, .i32⟩
  | 123 => ⟨S128x128, .i1⟩
  | 124 => ⟨S_, .f32⟩
  | 125 => ⟨S128x128, .f32⟩
  | 126 => ⟨S128x128, .f32⟩
  | 127 => ⟨S_, .f32⟩
  | _ => ⟨S32768x128, .f32⟩

abbrev hbmTy0_2 (i : Nat) : BufTy := match i % 128 with
  | 0 => ⟨S_, .f32⟩
  | 1 => ⟨S32768x128, .f32⟩
  | 2 => ⟨S_, .i32⟩
  | 3 => ⟨S557056, .i32⟩
  | 4 => ⟨S557056, .i1⟩
  | 5 => ⟨S_, .i32⟩
  | 6 => ⟨S557056, .i32⟩
  | 7 => ⟨S557056, .i32⟩
  | 8 => ⟨S557056, .i32⟩
  | 9 => ⟨S557056x1, .i32⟩
  | 10 => ⟨S557056x128, .f32⟩
  | 11 => ⟨S557056x1, .f32⟩
  | 12 => ⟨S557056x128, .f32⟩
  | 13 => ⟨S557056x128, .f32⟩
  | 14 => ⟨S_, .f32⟩
  | 15 => ⟨S32768x128, .f32⟩
  | 16 => ⟨S557056x1, .i32⟩
  | 17 => ⟨S32768x128, .f32⟩
  | 18 => ⟨S1x128, .f32⟩
  | 19 => ⟨S32768x128, .f32⟩
  | 20 => ⟨S256x128, .f32⟩
  | 21 => ⟨S256x1, .f32⟩
  | 22 => ⟨S256, .f32⟩
  | 23 => ⟨S128x128, .f32⟩
  | 24 => ⟨S_, .i32⟩
  | 25 => ⟨S2176, .i32⟩
  | 26 => ⟨S2176, .i1⟩
  | 27 => ⟨S_, .i32⟩
  | 28 => ⟨S2176, .i32⟩
  | 29 => ⟨S2176, .i32⟩
  | 30 => ⟨S2176, .i32⟩
  | 31 => ⟨S2176x1, .i32⟩
  | 32 => ⟨S2176x128, .f32⟩
  | 33 => ⟨S2176x1, .f32⟩
  | 34 => ⟨S2176x128, .f32⟩
  | 35 => ⟨S2176x128, .f32⟩
  | 36 => ⟨S_, .f32⟩
  | 37 => ⟨S128x128, .f32⟩
  | 38 => ⟨S2176x1, .i32⟩
  | 39 => ⟨S128x128, .f32⟩
  | 40 => ⟨S1x128, .f32⟩
  | 41 => ⟨S128x128, .f32⟩
  | 42 => ⟨S128x128, .f32⟩
  | 43 => ⟨S128x128, .i32⟩
  | 44 => ⟨S128x128, .i32⟩
  | 45 => ⟨S_, .i32⟩
  | 46 => ⟨S128x128, .i32⟩
  | 47 => ⟨S128x128, .i32⟩
  | 48 => ⟨S128x128, .i1⟩
  | 49 => ⟨S_, .f32⟩
  | 50 => ⟨S128x128, .f32⟩
  | 51 => ⟨S128x128, .f32⟩
  | 52 => ⟨S_, .f32⟩
  | 53 => ⟨S_, .f32⟩
  | 54 => ⟨S32768x128, .f32⟩
  | 55 => ⟨S_, .i32⟩
  | 56 => ⟨S557056, .i32⟩
  | 57 => ⟨S557056, .i1⟩
  | 58 => ⟨S_, .i32⟩
  | 59 => ⟨S557056, .i32⟩
  | 60 => ⟨S557056, .i32⟩
  | 61 => ⟨S557056, .i32⟩
  | 62 => ⟨S557056x1, .i32⟩
  | 63 => ⟨S557056x128, .f32⟩
  | 64 => ⟨S557056x1, .f32⟩
  | 65 => ⟨S557056x128, .f32⟩
  | 66 => ⟨S557056x128, .f32⟩
  | 67 => ⟨S_, .f32⟩
  | 68 => ⟨S32768x128, .f32⟩
  | 69 => ⟨S557056x1, .i32⟩
  | 70 => ⟨S32768x128, .f32⟩
  | 71 => ⟨S1x128, .f32⟩
  | 72 => ⟨S32768x128, .f32⟩
  | 73 => ⟨S256x128, .f32⟩
  | 74 => ⟨S256x1, .f32⟩
  | 75 => ⟨S256, .f32⟩
  | 76 => ⟨S128x128, .f32⟩
  | 77 => ⟨S_, .i32⟩
  | 78 => ⟨S2176, .i32⟩
  | 79 => ⟨S2176, .i1⟩
  | 80 => ⟨S_, .i32⟩
  | 81 => ⟨S2176, .i32⟩
  | 82 => ⟨S2176, .i32⟩
  | 83 => ⟨S2176, .i32⟩
  | 84 => ⟨S2176x1, .i32⟩
  | 85 => ⟨S2176x128, .f32⟩
  | 86 => ⟨S2176x1, .f32⟩
  | 87 => ⟨S2176x128, .f32⟩
  | 88 => ⟨S2176x128, .f32⟩
  | 89 => ⟨S_, .f32⟩
  | 90 => ⟨S128x128, .f32⟩
  | 91 => ⟨S2176x1, .i32⟩
  | 92 => ⟨S128x128, .f32⟩
  | 93 => ⟨S1x128, .f32⟩
  | 94 => ⟨S128x128, .f32⟩
  | 95 => ⟨S128x128, .f32⟩
  | 96 => ⟨S128x128, .i32⟩
  | 97 => ⟨S128x128, .i32⟩
  | 98 => ⟨S_, .i32⟩
  | 99 => ⟨S128x128, .i32⟩
  | 100 => ⟨S128x128, .i32⟩
  | 101 => ⟨S128x128, .i1⟩
  | 102 => ⟨S_, .f32⟩
  | 103 => ⟨S128x128, .f32⟩
  | 104 => ⟨S128x128, .f32⟩
  | 105 => ⟨S_, .f32⟩
  | 106 => ⟨S_, .f32⟩
  | 107 => ⟨S32768x128, .f32⟩
  | 108 => ⟨S_, .i32⟩
  | 109 => ⟨S557056, .i32⟩
  | 110 => ⟨S557056, .i1⟩
  | 111 => ⟨S_, .i32⟩
  | 112 => ⟨S557056, .i32⟩
  | 113 => ⟨S557056, .i32⟩
  | 114 => ⟨S557056, .i32⟩
  | 115 => ⟨S557056x1, .i32⟩
  | 116 => ⟨S557056x128, .f32⟩
  | 117 => ⟨S557056x1, .f32⟩
  | 118 => ⟨S557056x128, .f32⟩
  | 119 => ⟨S557056x128, .f32⟩
  | 120 => ⟨S_, .f32⟩
  | 121 => ⟨S32768x128, .f32⟩
  | 122 => ⟨S557056x1, .i32⟩
  | 123 => ⟨S32768x128, .f32⟩
  | 124 => ⟨S1x128, .f32⟩
  | 125 => ⟨S32768x128, .f32⟩
  | 126 => ⟨S256x128, .f32⟩
  | 127 => ⟨S256x1, .f32⟩
  | _ => ⟨S32768x128, .f32⟩

abbrev hbmTy0_3 (i : Nat) : BufTy := match i % 128 with
  | 0 => ⟨S256, .f32⟩
  | 1 => ⟨S128x128, .f32⟩
  | 2 => ⟨S_, .i32⟩
  | 3 => ⟨S2176, .i32⟩
  | 4 => ⟨S2176, .i1⟩
  | 5 => ⟨S_, .i32⟩
  | 6 => ⟨S2176, .i32⟩
  | 7 => ⟨S2176, .i32⟩
  | 8 => ⟨S2176, .i32⟩
  | 9 => ⟨S2176x1, .i32⟩
  | 10 => ⟨S2176x128, .f32⟩
  | 11 => ⟨S2176x1, .f32⟩
  | 12 => ⟨S2176x128, .f32⟩
  | 13 => ⟨S2176x128, .f32⟩
  | 14 => ⟨S_, .f32⟩
  | 15 => ⟨S128x128, .f32⟩
  | 16 => ⟨S2176x1, .i32⟩
  | 17 => ⟨S128x128, .f32⟩
  | 18 => ⟨S1x128, .f32⟩
  | 19 => ⟨S128x128, .f32⟩
  | 20 => ⟨S128x128, .f32⟩
  | 21 => ⟨S128x128, .i32⟩
  | 22 => ⟨S128x128, .i32⟩
  | 23 => ⟨S_, .i32⟩
  | 24 => ⟨S128x128, .i32⟩
  | 25 => ⟨S128x128, .i32⟩
  | 26 => ⟨S128x128, .i1⟩
  | 27 => ⟨S_, .f32⟩
  | 28 => ⟨S128x128, .f32⟩
  | 29 => ⟨S128x128, .f32⟩
  | 30 => ⟨S_, .f32⟩
  | 31 => ⟨S_, .f32⟩
  | 32 => ⟨S32768x128, .f32⟩
  | 33 => ⟨S_, .i32⟩
  | 34 => ⟨S557056, .i32⟩
  | 35 => ⟨S557056, .i1⟩
  | 36 => ⟨S_, .i32⟩
  | 37 => ⟨S557056, .i32⟩
  | 38 => ⟨S557056, .i32⟩
  | 39 => ⟨S557056, .i32⟩
  | 40 => ⟨S557056x1, .i32⟩
  | 41 => ⟨S557056x128, .f32⟩
  | 42 => ⟨S557056x1, .f32⟩
  | 43 => ⟨S557056x128, .f32⟩
  | 44 => ⟨S557056x128, .f32⟩
  | 45 => ⟨S_, .f32⟩
  | 46 => ⟨S32768x128, .f32⟩
  | 47 => ⟨S557056x1, .i32⟩
  | 48 => ⟨S32768x128, .f32⟩
  | 49 => ⟨S1x128, .f32⟩
  | 50 => ⟨S32768x128, .f32⟩
  | 51 => ⟨S256x128, .f32⟩
  | 52 => ⟨S256x1, .f32⟩
  | 53 => ⟨S256, .f32⟩
  | 54 => ⟨S128x128, .f32⟩
  | 55 => ⟨S_, .i32⟩
  | 56 => ⟨S2176, .i32⟩
  | 57 => ⟨S2176, .i1⟩
  | 58 => ⟨S_, .i32⟩
  | 59 => ⟨S2176, .i32⟩
  | 60 => ⟨S2176, .i32⟩
  | 61 => ⟨S2176, .i32⟩
  | 62 => ⟨S2176x1, .i32⟩
  | 63 => ⟨S2176x128, .f32⟩
  | 64 => ⟨S2176x1, .f32⟩
  | 65 => ⟨S2176x128, .f32⟩
  | 66 => ⟨S2176x128, .f32⟩
  | 67 => ⟨S_, .f32⟩
  | 68 => ⟨S128x128, .f32⟩
  | 69 => ⟨S2176x1, .i32⟩
  | 70 => ⟨S128x128, .f32⟩
  | 71 => ⟨S1x128, .f32⟩
  | 72 => ⟨S128x128, .f32⟩
  | 73 => ⟨S128x128, .f32⟩
  | 74 => ⟨S128x128, .i32⟩
  | 75 => ⟨S128x128, .i32⟩
  | 76 => ⟨S_, .i32⟩
  | 77 => ⟨S128x128, .i32⟩
  | 78 => ⟨S128x128, .i32⟩
  | 79 => ⟨S128x128, .i1⟩
  | 80 => ⟨S_, .f32⟩
  | 81 => ⟨S128x128, .f32⟩
  | 82 => ⟨S128x128, .f32⟩
  | 83 => ⟨S_, .f32⟩
  | 84 => ⟨S_, .f32⟩
  | 85 => ⟨S256x1, .f32⟩
  | 86 => ⟨S256x1, .f32⟩
  | 87 => ⟨S256x1, .f32⟩
  | 88 => ⟨S256x1, .f32⟩
  | 89 => ⟨S256x1, .f32⟩
  | 90 => ⟨S256x1, .f32⟩
  | 91 => ⟨S256x1, .f32⟩
  | 92 => ⟨S256x7, .f32⟩
  | 93 => ⟨S1, .f32⟩
  | 94 => ⟨S1, .f32⟩
  | 95 => ⟨S1, .f32⟩
  | 96 => ⟨S1, .f32⟩
  | 97 => ⟨S1, .f32⟩
  | 98 => ⟨S1, .f32⟩
  | 99 => ⟨S1, .f32⟩
  | 100 => ⟨S7, .f32⟩
  | 101 => ⟨S1x7, .f32⟩
  | 102 => ⟨S256x7, .f32⟩
  | 103 => ⟨S256x7, .f32⟩
  | 104 => ⟨S_, .f32⟩
  | 105 => ⟨S256x1, .f32⟩
  | 106 => ⟨S256x1, .f32⟩
  | 107 => ⟨S_, .f32⟩
  | 108 => ⟨S256x1, .f32⟩
  | 109 => ⟨S256x1, .f32⟩
  | 110 => ⟨S256x7, .f32⟩
  | 111 => ⟨S256x7, .f32⟩
  | 112 => ⟨S_, .f32⟩
  | 113 => ⟨S7, .f32⟩
  | 114 => ⟨S1x7, .f32⟩
  | 115 => ⟨S_, .f32⟩
  | 116 => ⟨S1x7, .f32⟩
  | 117 => ⟨S1x7, .f32⟩
  | 118 => ⟨S_, .i32⟩
  | 119 => ⟨S_, .f32⟩
  | 120 => ⟨S7, .f32⟩
  | 121 => ⟨S1x7, .f32⟩
  | 122 => ⟨S_, .f32⟩
  | 123 => ⟨S1x7, .f32⟩
  | 124 => ⟨S1x7, .f32⟩
  | 125 => ⟨S256x7, .f32⟩
  | 126 => ⟨S256x7, .f32⟩
  | 127 => ⟨S256x7, .f32⟩
  | _ => ⟨S32768x128, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S7, .f32⟩
  | 5 => ⟨S1x7, .f32⟩
  | 6 => ⟨S1x7, .f32⟩
  | 7 => ⟨S1x7, .f32⟩
  | 8 => ⟨S_, .f32⟩
  | 9 => ⟨S_, .i1⟩
  | 10 => ⟨S_, .f32⟩
  | 11 => ⟨S_, .f32⟩
  | 12 => ⟨S1x7, .f32⟩
  | 13 => ⟨S1x7, .f32⟩
  | 14 => ⟨S1x7, .f32⟩
  | 15 => ⟨S256x7, .f32⟩
  | 16 => ⟨S256x7, .f32⟩
  | 17 => ⟨S256x7, .f32⟩
  | 18 => ⟨S256x7, .f32⟩
  | 19 => ⟨S256x15, .f32⟩
  | 20 => ⟨S1x15, .f32⟩
  | 21 => ⟨S256x15, .f32⟩
  | 22 => ⟨S256x15, .f32⟩
  | 23 => ⟨S_, .f32⟩
  | 24 => ⟨S256x15, .f32⟩
  | 25 => ⟨S256x15, .f32⟩
  | 26 => ⟨S256x1, .f32⟩
  | 27 => ⟨S1x1, .f32⟩
  | 28 => ⟨S256x1, .f32⟩
  | 29 => ⟨S256x1, .f32⟩
  | 30 => ⟨S256x1, .f32⟩
  | 31 => ⟨S256x1, .f32⟩
  | 32 => ⟨S_, .f32⟩
  | 33 => ⟨S256x1, .f32⟩
  | 34 => ⟨S256x1, .f32⟩
  | 35 => ⟨S_, .f32⟩
  | 36 => ⟨S256x1, .f32⟩
  | 37 => ⟨S256x1, .f32⟩
  | _ => ⟨S32768x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S128x128, .f32⟩
  | .local _ .vmem, ⟨9, _⟩ => ⟨S4096x128, .f32⟩
  | .local _ .vmem, ⟨10, _⟩ => ⟨S4096x128, .f32⟩
  | .local _ .vmem, ⟨11, _⟩ => ⟨S32x128, .f32⟩
  | .local _ .vmem, ⟨12, _⟩ => ⟨S32x128, .f32⟩
  | .local _ .vmem, ⟨13, _⟩ => ⟨S4096x128, .f32⟩
  | .local _ .vmem, ⟨14, _⟩ => ⟨S4096x128, .f32⟩
  | .local _ .vmem, ⟨15, _⟩ => ⟨S128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S1x128, .f32⟩
  | .local _ .vmem, ⟨21, _⟩ => ⟨S128x128, .f32⟩
  | .local _ .vmem, ⟨22, _⟩ => ⟨S4096x128, .f32⟩
  | .local _ .vmem, ⟨23, _⟩ => ⟨S4096x128, .f32⟩
  | .local _ .vmem, ⟨24, _⟩ => ⟨S32x128, .f32⟩
  | .local _ .vmem, ⟨25, _⟩ => ⟨S32x128, .f32⟩
  | .local _ .vmem, ⟨26, _⟩ => ⟨S4096x128, .f32⟩
  | .local _ .vmem, ⟨27, _⟩ => ⟨S4096x128, .f32⟩
  | .local _ .vmem, ⟨28, _⟩ => ⟨S128x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S1x128, .f32⟩
  | .local _ .vmem, ⟨34, _⟩ => ⟨S128x128, .f32⟩
  | .local _ .vmem, ⟨35, _⟩ => ⟨S4096x128, .f32⟩
  | .local _ .vmem, ⟨36, _⟩ => ⟨S4096x128, .f32⟩
  | .local _ .vmem, ⟨37, _⟩ => ⟨S32x128, .f32⟩
  | .local _ .vmem, ⟨38, _⟩ => ⟨S32x128, .f32⟩
  | .local _ .vmem, ⟨39, _⟩ => ⟨S4096x128, .f32⟩
  | .local _ .vmem, ⟨40, _⟩ => ⟨S4096x128, .f32⟩
  | .local _ .vmem, ⟨41, _⟩ => ⟨S128x128, .f32⟩
  | .local _ .vmem, ⟨42, _⟩ => ⟨S4096x128, .f32⟩
  | .local _ .vmem, ⟨43, _⟩ => ⟨S4096x128, .f32⟩
  | .local _ .vmem, ⟨44, _⟩ => ⟨S4096x128, .f32⟩
  | .local _ .vmem, ⟨45, _⟩ => ⟨S4096x128, .f32⟩
  | .local _ .vmem, ⟨46, _⟩ => ⟨S1x128, .f32⟩
  | .local _ .vmem, ⟨47, _⟩ => ⟨S128x128, .f32⟩
  | .local _ .vmem, ⟨48, _⟩ => ⟨S4096x128, .f32⟩
  | .local _ .vmem, ⟨49, _⟩ => ⟨S4096x128, .f32⟩
  | .local _ .vmem, ⟨50, _⟩ => ⟨S32x128, .f32⟩
  | .local _ .vmem, ⟨51, _⟩ => ⟨S32x128, .f32⟩
  | .local _ .vmem, ⟨52, _⟩ => ⟨S4096x128, .f32⟩
  | .local _ .vmem, ⟨53, _⟩ => ⟨S4096x128, .f32⟩
  | .local _ .vmem, ⟨54, _⟩ => ⟨S128x128, .f32⟩
  | .local _ .vmem, ⟨55, _⟩ => ⟨S4096x128, .f32⟩
  | .local _ .vmem, ⟨56, _⟩ => ⟨S4096x128, .f32⟩
  | .local _ .vmem, ⟨57, _⟩ => ⟨S4096x128, .f32⟩
  | .local _ .vmem, ⟨58, _⟩ => ⟨S4096x128, .f32⟩
  | .local _ .vmem, ⟨59, _⟩ => ⟨S1x128, .f32⟩
  | .local _ .vmem, ⟨60, _⟩ => ⟨S128x128, .f32⟩
  | .local _ .vmem, ⟨61, _⟩ => ⟨S4096x128, .f32⟩
  | .local _ .vmem, ⟨62, _⟩ => ⟨S4096x128, .f32⟩
  | .local _ .vmem, ⟨63, _⟩ => ⟨S32x128, .f32⟩
  | .local _ .vmem, ⟨64, _⟩ => ⟨S32x128, .f32⟩
  | .local _ .vmem, ⟨65, _⟩ => ⟨S4096x128, .f32⟩
  | .local _ .vmem, ⟨66, _⟩ => ⟨S4096x128, .f32⟩
  | .local _ .vmem, ⟨67, _⟩ => ⟨S128x128, .f32⟩
  | .local _ .vmem, ⟨68, _⟩ => ⟨S4096x128, .f32⟩
  | .local _ .vmem, ⟨69, _⟩ => ⟨S4096x128, .f32⟩
  | .local _ .vmem, ⟨70, _⟩ => ⟨S4096x128, .f32⟩
  | .local _ .vmem, ⟨71, _⟩ => ⟨S4096x128, .f32⟩
  | .local _ .vmem, ⟨72, _⟩ => ⟨S1x128, .f32⟩
  | .local _ .vmem, ⟨73, _⟩ => ⟨S128x128, .f32⟩
  | .local _ .vmem, ⟨74, _⟩ => ⟨S4096x128, .f32⟩
  | .local _ .vmem, ⟨75, _⟩ => ⟨S4096x128, .f32⟩
  | .local _ .vmem, ⟨76, _⟩ => ⟨S32x128, .f32⟩
  | .local _ .vmem, ⟨77, _⟩ => ⟨S32x128, .f32⟩
  | .local _ .vmem, ⟨78, _⟩ => ⟨S4096x128, .f32⟩
  | .local _ .vmem, ⟨79, _⟩ => ⟨S4096x128, .f32⟩
  | .local _ .vmem, ⟨80, _⟩ => ⟨S128x128, .f32⟩
  | .local _ .vmem, ⟨81, _⟩ => ⟨S4096x128, .f32⟩
  | .local _ .vmem, ⟨82, _⟩ => ⟨S4096x128, .f32⟩
  | .local _ .vmem, ⟨83, _⟩ => ⟨S4096x128, .f32⟩
  | .local _ .vmem, ⟨84, _⟩ => ⟨S4096x128, .f32⟩
  | .local _ .vmem, ⟨85, _⟩ => ⟨S1x128, .f32⟩
  | .local _ .vmem, ⟨86, _⟩ => ⟨S128x128, .f32⟩
  | .local _ .vmem, ⟨87, _⟩ => ⟨S4096x128, .f32⟩
  | .local _ .vmem, ⟨88, _⟩ => ⟨S4096x128, .f32⟩
  | .local _ .vmem, ⟨89, _⟩ => ⟨S32x128, .f32⟩
  | .local _ .vmem, ⟨90, _⟩ => ⟨S32x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81_0 : Ref sig .tc := ⟨.hbm, 116, rfl⟩
abbrev main_v81_1 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_18 : Ref sig .tc := ⟨.hbm, 121, rfl⟩
abbrev main_v85 : Ref sig .tc := ⟨.hbm, 122, rfl⟩
abbrev main_v86 : Ref sig .tc := ⟨.hbm, 123, rfl⟩
abbrev main_c_19 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call2_v0 : Ref sig .tc := ⟨.hbm, 140, rfl⟩
abbrev main_call2_v1 : Ref sig .tc := ⟨.hbm, 141, rfl⟩
abbrev main_call2_c : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_cst : Ref sig .tc := ⟨.hbm, 146, rfl⟩
abbrev main_call2_v5 : Ref sig .tc := ⟨.hbm, 147, rfl⟩
abbrev main_call2_v6 : Ref sig .tc := ⟨.hbm, 148, rfl⟩
abbrev main_call2_cst_0 : Ref sig .tc := ⟨.hbm, 149, rfl⟩
abbrev main_v101 : Ref sig .tc := ⟨.hbm, 150, rfl⟩
abbrev main_v102 : Ref sig .tc := ⟨.hbm, 151, rfl⟩
abbrev main_c_21 : Ref sig .tc := ⟨.hbm, 152, rfl⟩
abbrev main_v103 : Ref sig .tc := ⟨.hbm, 153, rfl⟩
abbrev main_v104 : Ref sig .tc := ⟨.hbm, 154, rfl⟩
abbrev main_c_22 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_23 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117_0 : Ref sig .tc := ⟨.hbm, 169, rfl⟩
abbrev main_v117_1 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_c_24 : Ref sig .tc := ⟨.hbm, 174, rfl⟩
abbrev main_v121 : Ref sig .tc := ⟨.hbm, 175, rfl⟩
abbrev main_v122 : Ref sig .tc := ⟨.hbm, 176, rfl⟩
abbrev main_c_25 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_26 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_call3_v0 : Ref sig .tc := ⟨.hbm, 193, rfl⟩
abbrev main_call3_v1 : Ref sig .tc := ⟨.hbm, 194, rfl⟩
abbrev main_call3_c : Ref sig .tc := ⟨.hbm, 195, rfl⟩
abbrev main_call3_v2 : Ref sig .tc := ⟨.hbm, 196, rfl⟩
abbrev main_call3_v3 : Ref sig .tc := ⟨.hbm, 197, rfl⟩
abbrev main_call3_v4 : Ref sig .tc := ⟨.hbm, 198, rfl⟩
abbrev main_call3_cst : Ref sig .tc := ⟨.hbm, 199, rfl⟩
abbrev main_call3_v5 : Ref sig .tc := ⟨.hbm, 200, rfl⟩
abbrev main_call3_v6 : Ref sig .tc := ⟨.hbm, 201, rfl⟩
abbrev main_call3_cst_0 : Ref sig .tc := ⟨.hbm, 202, rfl⟩
abbrev main_v137 : Ref sig .tc := ⟨.hbm, 203, rfl⟩
abbrev main_v138 : Ref sig .tc := ⟨.hbm, 204, rfl⟩
abbrev main_c_27 : Ref sig .tc := ⟨.hbm, 205, rfl⟩
abbrev main_v139 : Ref sig .tc := ⟨.hbm, 206, rfl⟩
abbrev main_v140 : Ref sig .tc := ⟨.hbm, 207, rfl⟩
abbrev main_c_28 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_29 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153_0 : Ref sig .tc := ⟨.hbm, 222, rfl⟩
abbrev main_v153_1 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_c_30 : Ref sig .tc := ⟨.hbm, 227, rfl⟩
abbrev main_v157 : Ref sig .tc := ⟨.hbm, 228, rfl⟩
abbrev main_v158 : Ref sig .tc := ⟨.hbm, 229, rfl⟩
abbrev main_c_31 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_cst_32 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_call4_v0 : Ref sig .tc := ⟨.hbm, 246, rfl⟩
abbrev main_call4_v1 : Ref sig .tc := ⟨.hbm, 247, rfl⟩
abbrev main_call4_c : Ref sig .tc := ⟨.hbm, 248, rfl⟩
abbrev main_call4_v2 : Ref sig .tc := ⟨.hbm, 249, rfl⟩
abbrev main_call4_v3 : Ref sig .tc := ⟨.hbm, 250, rfl⟩
abbrev main_call4_v4 : Ref sig .tc := ⟨.hbm, 251, rfl⟩
abbrev main_call4_cst : Ref sig .tc := ⟨.hbm, 252, rfl⟩
abbrev main_call4_v5 : Ref sig .tc := ⟨.hbm, 253, rfl⟩
abbrev main_call4_v6 : Ref sig .tc := ⟨.hbm, 254, rfl⟩
abbrev main_call4_cst_0 : Ref sig .tc := ⟨.hbm, 255, rfl⟩
abbrev main_v173 : Ref sig .tc := ⟨.hbm, 256, rfl⟩
abbrev main_v174 : Ref sig .tc := ⟨.hbm, 257, rfl⟩
abbrev main_c_33 : Ref sig .tc := ⟨.hbm, 258, rfl⟩
abbrev main_v175 : Ref sig .tc := ⟨.hbm, 259, rfl⟩
abbrev main_v176 : Ref sig .tc := ⟨.hbm, 260, rfl⟩
abbrev main_c_34 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_cst_35 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189_0 : Ref sig .tc := ⟨.hbm, 275, rfl⟩
abbrev main_v189_1 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_c_36 : Ref sig .tc := ⟨.hbm, 280, rfl⟩
abbrev main_v193 : Ref sig .tc := ⟨.hbm, 281, rfl⟩
abbrev main_v194 : Ref sig .tc := ⟨.hbm, 282, rfl⟩
abbrev main_c_37 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_cst_38 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_call5_v0 : Ref sig .tc := ⟨.hbm, 299, rfl⟩
abbrev main_call5_v1 : Ref sig .tc := ⟨.hbm, 300, rfl⟩
abbrev main_call5_c : Ref sig .tc := ⟨.hbm, 301, rfl⟩
abbrev main_call5_v2 : Ref sig .tc := ⟨.hbm, 302, rfl⟩
abbrev main_call5_v3 : Ref sig .tc := ⟨.hbm, 303, rfl⟩
abbrev main_call5_v4 : Ref sig .tc := ⟨.hbm, 304, rfl⟩
abbrev main_call5_cst : Ref sig .tc := ⟨.hbm, 305, rfl⟩
abbrev main_call5_v5 : Ref sig .tc := ⟨.hbm, 306, rfl⟩
abbrev main_call5_v6 : Ref sig .tc := ⟨.hbm, 307, rfl⟩
abbrev main_call5_cst_0 : Ref sig .tc := ⟨.hbm, 308, rfl⟩
abbrev main_v209 : Ref sig .tc := ⟨.hbm, 309, rfl⟩
abbrev main_v210 : Ref sig .tc := ⟨.hbm, 310, rfl⟩
abbrev main_c_39 : Ref sig .tc := ⟨.hbm, 311, rfl⟩
abbrev main_v211 : Ref sig .tc := ⟨.hbm, 312, rfl⟩
abbrev main_v212 : Ref sig .tc := ⟨.hbm, 313, rfl⟩
abbrev main_c_40 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_cst_41 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225_0 : Ref sig .tc := ⟨.hbm, 328, rfl⟩
abbrev main_v225_1 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_c_42 : Ref sig .tc := ⟨.hbm, 333, rfl⟩
abbrev main_v229 : Ref sig .tc := ⟨.hbm, 334, rfl⟩
abbrev main_v230 : Ref sig .tc := ⟨.hbm, 335, rfl⟩
abbrev main_c_43 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_cst_44 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_call6_v0 : Ref sig .tc := ⟨.hbm, 352, rfl⟩
abbrev main_call6_v1 : Ref sig .tc := ⟨.hbm, 353, rfl⟩
abbrev main_call6_c : Ref sig .tc := ⟨.hbm, 354, rfl⟩
abbrev main_call6_v2 : Ref sig .tc := ⟨.hbm, 355, rfl⟩
abbrev main_call6_v3 : Ref sig .tc := ⟨.hbm, 356, rfl⟩
abbrev main_call6_v4 : Ref sig .tc := ⟨.hbm, 357, rfl⟩
abbrev main_call6_cst : Ref sig .tc := ⟨.hbm, 358, rfl⟩
abbrev main_call6_v5 : Ref sig .tc := ⟨.hbm, 359, rfl⟩
abbrev main_call6_v6 : Ref sig .tc := ⟨.hbm, 360, rfl⟩
abbrev main_call6_cst_0 : Ref sig .tc := ⟨.hbm, 361, rfl⟩
abbrev main_v245 : Ref sig .tc := ⟨.hbm, 362, rfl⟩
abbrev main_v246 : Ref sig .tc := ⟨.hbm, 363, rfl⟩
abbrev main_c_45 : Ref sig .tc := ⟨.hbm, 364, rfl⟩
abbrev main_v247 : Ref sig .tc := ⟨.hbm, 365, rfl⟩
abbrev main_v248 : Ref sig .tc := ⟨.hbm, 366, rfl⟩
abbrev main_c_46 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_cst_47 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_v261_0 : Ref sig .tc := ⟨.hbm, 381, rfl⟩
abbrev main_v261_1 : Ref sig .tc := ⟨.hbm, 382, rfl⟩
abbrev main_v262 : Ref sig .tc := ⟨.hbm, 383, rfl⟩
abbrev main_v263 : Ref sig .tc := ⟨.hbm, 384, rfl⟩
abbrev main_v264 : Ref sig .tc := ⟨.hbm, 385, rfl⟩
abbrev main_c_48 : Ref sig .tc := ⟨.hbm, 386, rfl⟩
abbrev main_v265 : Ref sig .tc := ⟨.hbm, 387, rfl⟩
abbrev main_v266 : Ref sig .tc := ⟨.hbm, 388, rfl⟩
abbrev main_c_49 : Ref sig .tc := ⟨.hbm, 389, rfl⟩
abbrev main_v267 : Ref sig .tc := ⟨.hbm, 390, rfl⟩
abbrev main_v268 : Ref sig .tc := ⟨.hbm, 391, rfl⟩
abbrev main_v269 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_cst_50 : Ref sig .tc := ⟨.hbm, 398, rfl⟩
abbrev main_v275 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_call7_v0 : Ref sig .tc := ⟨.hbm, 405, rfl⟩
abbrev main_call7_v1 : Ref sig .tc := ⟨.hbm, 406, rfl⟩
abbrev main_call7_c : Ref sig .tc := ⟨.hbm, 407, rfl⟩
abbrev main_call7_v2 : Ref sig .tc := ⟨.hbm, 408, rfl⟩
abbrev main_call7_v3 : Ref sig .tc := ⟨.hbm, 409, rfl⟩
abbrev main_call7_v4 : Ref sig .tc := ⟨.hbm, 410, rfl⟩
abbrev main_call7_cst : Ref sig .tc := ⟨.hbm, 411, rfl⟩
abbrev main_call7_v5 : Ref sig .tc := ⟨.hbm, 412, rfl⟩
abbrev main_call7_v6 : Ref sig .tc := ⟨.hbm, 413, rfl⟩
abbrev main_call7_cst_0 : Ref sig .tc := ⟨.hbm, 414, rfl⟩
abbrev main_v281 : Ref sig .tc := ⟨.hbm, 415, rfl⟩
abbrev main_v282 : Ref sig .tc := ⟨.hbm, 416, rfl⟩
abbrev main_c_51 : Ref sig .tc := ⟨.hbm, 417, rfl⟩
abbrev main_v283 : Ref sig .tc := ⟨.hbm, 418, rfl⟩
abbrev main_v284 : Ref sig .tc := ⟨.hbm, 419, rfl⟩
abbrev main_c_52 : Ref sig .tc := ⟨.hbm, 420, rfl⟩
abbrev main_v285 : Ref sig .tc := ⟨.hbm, 421, rfl⟩
abbrev main_v286 : Ref sig .tc := ⟨.hbm, 422, rfl⟩
abbrev main_v287 : Ref sig .tc := ⟨.hbm, 423, rfl⟩
abbrev main_v288 : Ref sig .tc := ⟨.hbm, 424, rfl⟩
abbrev main_v289 : Ref sig .tc := ⟨.hbm, 425, rfl⟩
abbrev main_v290 : Ref sig .tc := ⟨.hbm, 426, rfl⟩
abbrev main_v291 : Ref sig .tc := ⟨.hbm, 427, rfl⟩
abbrev main_v292 : Ref sig .tc := ⟨.hbm, 428, rfl⟩
abbrev main_cst_53 : Ref sig .tc := ⟨.hbm, 429, rfl⟩
abbrev main_v293 : Ref sig .tc := ⟨.hbm, 430, rfl⟩
abbrev main_v294 : Ref sig .tc := ⟨.hbm, 431, rfl⟩
abbrev main_v295 : Ref sig .tc := ⟨.hbm, 432, rfl⟩
abbrev main_v296 : Ref sig .tc := ⟨.hbm, 433, rfl⟩
abbrev main_v297_0 : Ref sig .tc := ⟨.hbm, 434, rfl⟩
abbrev main_v297_1 : Ref sig .tc := ⟨.hbm, 435, rfl⟩
abbrev main_v298 : Ref sig .tc := ⟨.hbm, 436, rfl⟩
abbrev main_v299 : Ref sig .tc := ⟨.hbm, 437, rfl⟩
abbrev main_v300 : Ref sig .tc := ⟨.hbm, 438, rfl⟩
abbrev main_c_54 : Ref sig .tc := ⟨.hbm, 439, rfl⟩
abbrev main_v301 : Ref sig .tc := ⟨.hbm, 440, rfl⟩
abbrev main_v302 : Ref sig .tc := ⟨.hbm, 441, rfl⟩
abbrev main_c_55 : Ref sig .tc := ⟨.hbm, 442, rfl⟩
abbrev main_v303 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_v310 : Ref sig .tc := ⟨.hbm, 450, rfl⟩
abbrev main_cst_56 : Ref sig .tc := ⟨.hbm, 451, rfl⟩
abbrev main_v311 : Ref sig .tc := ⟨.hbm, 452, rfl⟩
abbrev main_v312 : Ref sig .tc := ⟨.hbm, 453, rfl⟩
abbrev main_v313 : Ref sig .tc := ⟨.hbm, 454, rfl⟩
abbrev main_v314 : Ref sig .tc := ⟨.hbm, 455, rfl⟩
abbrev main_v315 : Ref sig .tc := ⟨.hbm, 456, rfl⟩
abbrev main_v316 : Ref sig .tc := ⟨.hbm, 457, rfl⟩
abbrev main_call8_v0 : Ref sig .tc := ⟨.hbm, 458, rfl⟩
abbrev main_call8_v1 : Ref sig .tc := ⟨.hbm, 459, rfl⟩
abbrev main_call8_c : Ref sig .tc := ⟨.hbm, 460, rfl⟩
abbrev main_call8_v2 : Ref sig .tc := ⟨.hbm, 461, rfl⟩
abbrev main_call8_v3 : Ref sig .tc := ⟨.hbm, 462, rfl⟩
abbrev main_call8_v4 : Ref sig .tc := ⟨.hbm, 463, rfl⟩
abbrev main_call8_cst : Ref sig .tc := ⟨.hbm, 464, rfl⟩
abbrev main_call8_v5 : Ref sig .tc := ⟨.hbm, 465, rfl⟩
abbrev main_call8_v6 : Ref sig .tc := ⟨.hbm, 466, rfl⟩
abbrev main_call8_cst_0 : Ref sig .tc := ⟨.hbm, 467, rfl⟩
abbrev main_v317 : Ref sig .tc := ⟨.hbm, 468, rfl⟩
abbrev main_v318 : Ref sig .tc := ⟨.hbm, 469, rfl⟩
abbrev main_v319 : Ref sig .tc := ⟨.hbm, 470, rfl⟩
abbrev main_v320 : Ref sig .tc := ⟨.hbm, 471, rfl⟩
abbrev main_v321 : Ref sig .tc := ⟨.hbm, 472, rfl⟩
abbrev main_v322 : Ref sig .tc := ⟨.hbm, 473, rfl⟩
abbrev main_v323 : Ref sig .tc := ⟨.hbm, 474, rfl⟩
abbrev main_v324 : Ref sig .tc := ⟨.hbm, 475, rfl⟩
abbrev main_v325 : Ref sig .tc := ⟨.hbm, 476, rfl⟩
abbrev main_v326 : Ref sig .tc := ⟨.hbm, 477, rfl⟩
abbrev main_v327 : Ref sig .tc := ⟨.hbm, 478, rfl⟩
abbrev main_v328 : Ref sig .tc := ⟨.hbm, 479, rfl⟩
abbrev main_v329 : Ref sig .tc := ⟨.hbm, 480, rfl⟩
abbrev main_v330 : Ref sig .tc := ⟨.hbm, 481, rfl⟩
abbrev main_v331 : Ref sig .tc := ⟨.hbm, 482, rfl⟩
abbrev main_v332 : Ref sig .tc := ⟨.hbm, 483, rfl⟩
abbrev main_v333 : Ref sig .tc := ⟨.hbm, 484, rfl⟩
abbrev main_v334 : Ref sig .tc := ⟨.hbm, 485, rfl⟩
abbrev main_v335 : Ref sig .tc := ⟨.hbm, 486, rfl⟩
abbrev main_v336 : Ref sig .tc := ⟨.hbm, 487, rfl⟩
abbrev main_cst_57 : Ref sig .tc := ⟨.hbm, 488, rfl⟩
abbrev main_v337 : Ref sig .tc := ⟨.hbm, 489, rfl⟩
abbrev main_v338 : Ref sig .tc := ⟨.hbm, 490, rfl⟩
abbrev main_cst_58 : Ref sig .tc := ⟨.hbm, 491, rfl⟩
abbrev main_v339 : Ref sig .tc := ⟨.hbm, 492, rfl⟩
abbrev main_v340 : Ref sig .tc := ⟨.hbm, 493, rfl⟩
abbrev main_v341 : Ref sig .tc := ⟨.hbm, 494, rfl⟩
abbrev main_v342 : Ref sig .tc := ⟨.hbm, 495, rfl⟩
abbrev main_cst_59 : Ref sig .tc := ⟨.hbm, 496, rfl⟩
abbrev main_v343 : Ref sig .tc := ⟨.hbm, 497, rfl⟩
abbrev main_v344 : Ref sig .tc := ⟨.hbm, 498, rfl⟩
abbrev main_cst_60 : Ref sig .tc := ⟨.hbm, 499, rfl⟩
abbrev main_v345 : Ref sig .tc := ⟨.hbm, 500, rfl⟩
abbrev main_v346 : Ref sig .tc := ⟨.hbm, 501, rfl⟩
abbrev main_c_61 : Ref sig .tc := ⟨.hbm, 502, rfl⟩
abbrev main_call9_call0_cst : Ref sig .tc := ⟨.hbm, 503, rfl⟩
abbrev main_call9_call0_v0 : Ref sig .tc := ⟨.hbm, 504, rfl⟩
abbrev main_call9_call0_v1 : Ref sig .tc := ⟨.hbm, 505, rfl⟩
abbrev main_call9_call0_cst_0 : Ref sig .tc := ⟨.hbm, 506, rfl⟩
abbrev main_call9_call0_v2 : Ref sig .tc := ⟨.hbm, 507, rfl⟩
abbrev main_call9_call0_v3 : Ref sig .tc := ⟨.hbm, 508, rfl⟩
abbrev main_call9_call0_v4 : Ref sig .tc := ⟨.hbm, 509, rfl⟩
abbrev main_call9_call0_v5 : Ref sig .tc := ⟨.hbm, 510, rfl⟩
abbrev main_call9_call0_v6 : Ref sig .tc := ⟨.hbm, 511, rfl⟩
abbrev main_call9_call0_v7 : Ref sig .tc := ⟨.hbm, 512, rfl⟩
abbrev main_call9_call0_cst_1 : Ref sig .tc := ⟨.hbm, 513, rfl⟩
abbrev main_call9_call0_v8 : Ref sig .tc := ⟨.hbm, 514, rfl⟩
abbrev main_call9_call0_cst_2 : Ref sig .tc := ⟨.hbm, 515, rfl⟩
abbrev main_call9_call0_v9 : Ref sig .tc := ⟨.hbm, 516, rfl⟩
abbrev main_call9_call0_v10 : Ref sig .tc := ⟨.hbm, 517, rfl⟩
abbrev main_call9_call0_v11 : Ref sig .tc := ⟨.hbm, 518, rfl⟩
abbrev main_call9_call0_v12 : Ref sig .tc := ⟨.hbm, 519, rfl⟩
abbrev main_call9_call0_cst_3 : Ref sig .tc := ⟨.hbm, 520, rfl⟩
abbrev main_call9_call0_v13 : Ref sig .tc := ⟨.hbm, 521, rfl⟩
abbrev main_call9_call0_cst_4 : Ref sig .tc := ⟨.hbm, 522, rfl⟩
abbrev main_call9_call0_call0_v0 : Ref sig .tc := ⟨.hbm, 523, rfl⟩
abbrev main_call9_call0_call0_v1 : Ref sig .tc := ⟨.hbm, 524, rfl⟩
abbrev main_call9_v0 : Ref sig .tc := ⟨.hbm, 525, rfl⟩
abbrev main_v347 : Ref sig .tc := ⟨.hbm, 526, rfl⟩
abbrev main_v348 : Ref sig .tc := ⟨.hbm, 527, rfl⟩
abbrev main_v349 : Ref sig .tc := ⟨.hbm, 528, rfl⟩
abbrev main_v350 : Ref sig .tc := ⟨.hbm, 529, rfl⟩
abbrev main_v351 : Ref sig .tc := ⟨.hbm, 530, rfl⟩
abbrev main_v352 : Ref sig .tc := ⟨.hbm, 531, rfl⟩
abbrev main_v353 : Ref sig .tc := ⟨.hbm, 532, rfl⟩
abbrev main_v354 : Ref sig .tc := ⟨.hbm, 533, rfl⟩
abbrev main_v355 : Ref sig .tc := ⟨.hbm, 534, rfl⟩
abbrev main_call10_cst : Ref sig .tc := ⟨.hbm, 535, rfl⟩
abbrev main_call10_v0 : Ref sig .tc := ⟨.hbm, 536, rfl⟩
abbrev main_v356 : Ref sig .tc := ⟨.hbm, 537, rfl⟩
abbrev main_v357 : Ref sig .tc := ⟨.hbm, 538, rfl⟩
abbrev main_v358 : Ref sig .tc := ⟨.hbm, 539, rfl⟩
abbrev main_v359 : Ref sig .tc := ⟨.hbm, 540, rfl⟩
abbrev main_v360 : Ref sig .tc := ⟨.hbm, 541, rfl⟩
abbrev main_v361 : Ref sig .tc := ⟨.hbm, 542, rfl⟩
abbrev main_v362 : Ref sig .tc := ⟨.hbm, 543, rfl⟩
abbrev main_cst_62 : Ref sig .tc := ⟨.hbm, 544, rfl⟩
abbrev main_v363 : Ref sig .tc := ⟨.hbm, 545, rfl⟩
abbrev main_v364 : Ref sig .tc := ⟨.hbm, 546, rfl⟩
abbrev main_cst_63 : Ref sig .tc := ⟨.hbm, 547, rfl⟩
abbrev main_v365 : Ref sig .tc := ⟨.hbm, 548, rfl⟩
abbrev main_v366 : Ref sig .tc := ⟨.hbm, 549, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc5_stg4_0 : Ref sig .tc := ⟨.vmem, 37, rfl⟩
abbrev cc5_stg4_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg3_1 : Ref sig .tc := ⟨.vmem, 49, rfl⟩
abbrev cc7_stg4_0 : Ref sig .tc := ⟨.vmem, 50, rfl⟩
abbrev cc7_stg4_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg3_0 : Ref sig .tc := ⟨.vmem, 61, rfl⟩
abbrev cc9_stg3_1 : Ref sig .tc := ⟨.vmem, 62, rfl⟩
abbrev cc9_stg4_0 : Ref sig .tc := ⟨.vmem, 63, rfl⟩
abbrev cc9_stg4_1 : Ref sig .tc := ⟨.vmem, 64, rfl⟩
abbrev cc10_stg0_0 : Ref sig .tc := ⟨.vmem, 65, rfl⟩
abbrev cc10_stg0_1 : Ref sig .tc := ⟨.vmem, 66, rfl⟩
abbrev cc10_stg1_0 : Ref sig .tc := ⟨.vmem, 67, rfl⟩
abbrev cc10_stg2_0 : Ref sig .tc := ⟨.vmem, 68, rfl⟩
abbrev cc10_stg2_1 : Ref sig .tc := ⟨.vmem, 69, rfl⟩
abbrev cc11_stg0_0 : Ref sig .tc := ⟨.vmem, 70, rfl⟩
abbrev cc11_stg0_1 : Ref sig .tc := ⟨.vmem, 71, rfl⟩
abbrev cc11_stg1_0 : Ref sig .tc := ⟨.vmem, 72, rfl⟩
abbrev cc11_stg2_0 : Ref sig .tc := ⟨.vmem, 73, rfl⟩
abbrev cc11_stg3_0 : Ref sig .tc := ⟨.vmem, 74, rfl⟩
abbrev cc11_stg3_1 : Ref sig .tc := ⟨.vmem, 75, rfl⟩
abbrev cc11_stg4_0 : Ref sig .tc := ⟨.vmem, 76, rfl⟩
abbrev cc11_stg4_1 : Ref sig .tc := ⟨.vmem, 77, rfl⟩
abbrev cc12_stg0_0 : Ref sig .tc := ⟨.vmem, 78, rfl⟩
abbrev cc12_stg0_1 : Ref sig .tc := ⟨.vmem, 79, rfl⟩
abbrev cc12_stg1_0 : Ref sig .tc := ⟨.vmem, 80, rfl⟩
abbrev cc12_stg2_0 : Ref sig .tc := ⟨.vmem, 81, rfl⟩
abbrev cc12_stg2_1 : Ref sig .tc := ⟨.vmem, 82, rfl⟩
abbrev cc13_stg0_0 : Ref sig .tc := ⟨.vmem, 83, rfl⟩
abbrev cc13_stg0_1 : Ref sig .tc := ⟨.vmem, 84, rfl⟩
abbrev cc13_stg1_0 : Ref sig .tc := ⟨.vmem, 85, rfl⟩
abbrev cc13_stg2_0 : Ref sig .tc := ⟨.vmem, 86, rfl⟩
abbrev cc13_stg3_0 : Ref sig .tc := ⟨.vmem, 87, rfl⟩
abbrev cc13_stg3_1 : Ref sig .tc := ⟨.vmem, 88, rfl⟩
abbrev cc13_stg4_0 : Ref sig .tc := ⟨.vmem, 89, rfl⟩
abbrev cc13_stg4_1 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36
abbrev cc5_sem4_0 : DmaSem sig := 37
abbrev cc5_sem4_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem3_1 : DmaSem sig := 49
abbrev cc7_sem4_0 : DmaSem sig := 50
abbrev cc7_sem4_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc9_sem0_0 : DmaSem sig := 57
abbrev cc9_sem0_1 : DmaSem sig := 58
abbrev cc9_sem1_0 : DmaSem sig := 59
abbrev cc9_sem2_0 : DmaSem sig := 60
abbrev cc9_sem3_0 : DmaSem sig := 61
abbrev cc9_sem3_1 : DmaSem sig := 62
abbrev cc9_sem4_0 : DmaSem sig := 63
abbrev cc9_sem4_1 : DmaSem sig := 64
abbrev cc10_sem0_0 : DmaSem sig := 65
abbrev cc10_sem0_1 : DmaSem sig := 66
abbrev cc10_sem1_0 : DmaSem sig := 67
abbrev cc10_sem2_0 : DmaSem sig := 68
abbrev cc10_sem2_1 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem3_0 : DmaSem sig := 74
abbrev cc11_sem3_1 : DmaSem sig := 75
abbrev cc11_sem4_0 : DmaSem sig := 76
abbrev cc11_sem4_1 : DmaSem sig := 77
abbrev cc12_sem0_0 : DmaSem sig := 78
abbrev cc12_sem0_1 : DmaSem sig := 79
abbrev cc12_sem1_0 : DmaSem sig := 80
abbrev cc12_sem2_0 : DmaSem sig := 81
abbrev cc12_sem2_1 : DmaSem sig := 82
abbrev cc13_sem0_0 : DmaSem sig := 83
abbrev cc13_sem0_1 : DmaSem sig := 84
abbrev cc13_sem1_0 : DmaSem sig := 85
abbrev cc13_sem2_0 : DmaSem sig := 86
abbrev cc13_sem3_0 : DmaSem sig := 87
abbrev cc13_sem3_1 : DmaSem sig := 88
abbrev cc13_sem4_0 : DmaSem sig := 89
abbrev cc13_sem4_1 : DmaSem sig := 90

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S32x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S32x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4096x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4096x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S32x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S4096x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4096x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S32x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4096x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S4096x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4096x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S32x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S4096x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S4096x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S32x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

class Facts₀ : Prop where
  slices_S2x524288_S1x524288_0_0 : S2x524288.Slices ![0, 0] S1x524288
  shapeCasts_S1x524288_S524288 : S1x524288.ShapeCasts S524288
  concatenates_S524288_S32768_S557056_d0 : Shape.Concatenates [S524288, S32768] S557056 0
  slices_S2x524288_S1x524288_1_0 : S2x524288.Slices ![1, 0] S1x524288
  bcast_S_S557056 : S_.BroadcastsInDim S557056 (![] : Fin 0 → Fin S557056.rank)
  bcast_S_S32768 : S_.BroadcastsInDim S32768 (![] : Fin 0 → Fin S32768.rank)
  bcast_S557056_S557056x1_0 : S557056.BroadcastsInDim S557056x1 (![0] : Fin 1 → Fin S557056x1.rank)
  slices_S2x2048_S1x2048_0_0 : S2x2048.Slices ![0, 0] S1x2048
  shapeCasts_S1x2048_S2048 : S1x2048.ShapeCasts S2048
  concatenates_S2048_S128_S2176_d0 : Shape.Concatenates [S2048, S128] S2176 0
  slices_S2x2048_S1x2048_1_0 : S2x2048.Slices ![1, 0] S1x2048
  bcast_S_S2176 : S_.BroadcastsInDim S2176 (![] : Fin 0 → Fin S2176.rank)
  bcast_S_S128 : S_.BroadcastsInDim S128 (![] : Fin 0 → Fin S128.rank)
  bcast_S2176_S2176x1_0 : S2176.BroadcastsInDim S2176x1 (![0] : Fin 1 → Fin S2176x1.rank)
  bcast_S_S128x128 : S_.BroadcastsInDim S128x128 (![] : Fin 0 → Fin S128x128.rank)
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S557056x1_S557056x128_0_1 : S557056x1.BroadcastsInDim S557056x128 (![0, 1] : Fin 2 → Fin S557056x128.rank)
  bcast_S_S32768x128 : S_.BroadcastsInDim S32768x128 (![] : Fin 0 → Fin S32768x128.rank)
  shapeCasts_S128_S1x128 : S128.ShapeCasts S1x128
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S32x128x128 : S4096x128.ShapeCasts S32x128x128
  shapeCasts_S128x128_S128x128 : S128x128.ShapeCasts S128x128
  shapeCasts_S128x128_S1x128x128 : S128x128.ShapeCasts S1x128x128
  broadcasts_S1x128x128_S32x128x128 : S1x128x128.Broadcasts S32x128x128
  reduces_S32x128x128_S32x128 : S32x128x128.Reduces [2] S32x128
  reduces_S32x128_S32 : S32x128.Reduces [1] S32
  shapeCasts_S32_S32x1 : S32.ShapeCasts S32x1
  shapeCasts_S32x1_S32x1 : S32x1.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  slices_S256x128_S256x1_0_0 : S256x128.Slices ![0, 0] S256x1
  shapeCasts_S256x1_S256 : S256x1.ShapeCasts S256
  bcast_S2176x1_S2176x128_0_1 : S2176x1.BroadcastsInDim S2176x128 (![0, 1] : Fin 2 → Fin S2176x128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  reducesTo_S128x128_S_d0_1 : S128x128.ReducesTo [0, 1] S_
  h_S_ : 0 < S_.numel
  bcast_S256_S256x1_0 : S256.BroadcastsInDim S256x1 (![0] : Fin 1 → Fin S256x1.rank)
  concatenates_S256x1_S256x1_S256x1_S256x1_S256x1_S256x1_S256x1_S256x7_d1 : Shape.Concatenates [S256x1, S256x1, S256x1, S256x1, S256x1, S256x1, S256x1] S256x7 1
  bcast_S_S1 : S_.BroadcastsInDim S1 (![] : Fin 0 → Fin S1.rank)
  concatenates_S1_S1_S1_S1_S1_S1_S1_S7_d0 : Shape.Concatenates [S1, S1, S1, S1, S1, S1, S1] S7 0
  bcast_S7_S1x7_1 : S7.BroadcastsInDim S1x7 (![1] : Fin 1 → Fin S1x7.rank)
  bcast_S1x7_S256x7_0_1 : S1x7.BroadcastsInDim S256x7 (![0, 1] : Fin 2 → Fin S256x7.rank)
  bcast_S_S256x1 : S_.BroadcastsInDim S256x1 (![] : Fin 0 → Fin S256x1.rank)
  bcast_S256x1_S256x7_0_1 : S256x1.BroadcastsInDim S256x7 (![0, 1] : Fin 2 → Fin S256x7.rank)
  reducesTo_S256x7_S7_d0 : S256x7.ReducesTo [0] S7
  bcast_S_S1x7 : S_.BroadcastsInDim S1x7 (![] : Fin 0 → Fin S1x7.rank)
  bcast_S15_S1x15_1 : S15.BroadcastsInDim S1x15 (![1] : Fin 1 → Fin S1x15.rank)
  bcast_S1x15_S256x15_0_1 : S1x15.BroadcastsInDim S256x15 (![0, 1] : Fin 2 → Fin S256x15.rank)
  bcast_S_S256x15 : S_.BroadcastsInDim S256x15 (![] : Fin 0 → Fin S256x15.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S32768_S557056x1_S557056_n_0_0_1_wf : ScatterDims.WF S32768 S557056x1 S557056 [] [0] [0] 1
  gather_S32768_S557056x1_S557056_n_0_n_n_0_1_1_wf : GatherDims.WF S32768 S557056x1 S557056 [] [0] [] [0] [] 1 ![1]
  scatter_S128_S2176x1_S2176_n_0_0_1_wf : ScatterDims.WF S128 S2176x1 S2176 [] [0] [0] 1
  gather_S128_S2176x1_S2176_n_0_n_n_0_1_1_wf : GatherDims.WF S128 S2176x1 S2176 [] [0] [] [0] [] 1 ![1]
  dot_S4096x128_S128x128_S4096x128_1_0_0_1_n_n_wf : DotDims.WF S4096x128 S128x128 S4096x128 [1] [0] [0] [1] [] []
  gather_S32768x128_S557056x1_S557056x128_1_0_n_n_0_1_1128_wf : GatherDims.WF S32768x128 S557056x1 S557056x128 [1] [0] [] [0] [] 1 ![1, 128]
  scatter_S32768x128_S557056x1_S557056x128_1_0_0_1_wf : ScatterDims.WF S32768x128 S557056x1 S557056x128 [1] [0] [0] 1
  dot_S128x128_S128x128_S128x128_1_0_0_1_n_n_wf : DotDims.WF S128x128 S128x128 S128x128 [1] [0] [0] [1] [] []
  gather_S128x128_S2176x1_S2176x128_1_0_n_n_0_1_1128_wf : GatherDims.WF S128x128 S2176x1 S2176x128 [1] [0] [] [0] [] 1 ![1, 128]
  scatter_S128x128_S2176x1_S2176x128_1_0_0_1_wf : ScatterDims.WF S128x128 S2176x1 S2176x128 [1] [0] [0] 1
  dot_S256x7_S7x15_S256x15_1_0_0_1_n_n_wf : DotDims.WF S256x7 S7x15 S256x15 [1] [0] [0] [1] [] []
  dot_S256x15_S15x1_S256x1_1_0_0_1_n_n_wf : DotDims.WF S256x15 S15x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S32768x128.size a
  hwx0_2 : ∀ i : grid0.Coords, EltTy.bits .f32 = 32 ∨ (Rect.block (s := S32768x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S32768x128.size a
  hwx1_3 : ∀ i : grid1.Coords, EltTy.bits .f32 = 32 ∨ (Rect.block (s := S32768x128) S4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x128.size a ≤ S256x128.size a
  hwx1_4 : ∀ i : grid1.Coords, EltTy.bits .f32 = 32 ∨ (Rect.block (s := S256x128) S32x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S32768x128.size a
  hwx2_0 : ∀ i : grid2.Coords, EltTy.bits .f32 = 32 ∨ (Rect.block (s := S32768x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S32768x128.size a
  hwx2_2 : ∀ i : grid2.Coords, EltTy.bits .f32 = 32 ∨ (Rect.block (s := S32768x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S32768x128.size a
  hwx3_0 : ∀ i : grid3.Coords, EltTy.bits .f32 = 32 ∨ (Rect.block (s := S32768x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S32768x128.size a
  hwx3_3 : ∀ i : grid3.Coords, EltTy.bits .f32 = 32 ∨ (Rect.block (s := S32768x128) S4096x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S32x128.size a ≤ S256x128.size a
  hwx3_4 : ∀ i : grid3.Coords, EltTy.bits .f32 = 32 ∨ (Rect.block (s := S256x128) S32x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S32768x128.size a
  hwx4_0 : ∀ i : grid4.Coords, EltTy.bits .f32 = 32 ∨ (Rect.block (s := S32768x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S32768x128.size a
  hwx4_2 : ∀ i : grid4.Coords, EltTy.bits .f32 = 32 ∨ (Rect.block (s := S32768x128) S4096x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S32768x128.size a
  hwx5_0 : ∀ i : grid5.Coords, EltTy.bits .f32 = 32 ∨ (Rect.block (s := S32768x128) S4096x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x128.size a ≤ S32768x128.size a
  hwx5_3 : ∀ i : grid5.Coords, EltTy.bits .f32 = 32 ∨ (Rect.block (s := S32768x128) S4096x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S32x128.size a ≤ S256x128.size a
  hwx5_4 : ∀ i : grid5.Coords, EltTy.bits .f32 = 32 ∨ (Rect.block (s := S256x128) S32x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S32768x128.size a
  hwx6_0 : ∀ i : grid6.Coords, EltTy.bits .f32 = 32 ∨ (Rect.block (s := S32768x128) S4096x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x128.size a ≤ S32768x128.size a
  hwx6_2 : ∀ i : grid6.Coords, EltTy.bits .f32 = 32 ∨ (Rect.block (s := S32768x128) S4096x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x128.size a ≤ S32768x128.size a
  hwx7_0 : ∀ i : grid7.Coords, EltTy.bits .f32 = 32 ∨ (Rect.block (s := S32768x128) S4096x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4096x128.size a ≤ S32768x128.size a
  hwx7_3 : ∀ i : grid7.Coords, EltTy.bits .f32 = 32 ∨ (Rect.block (s := S32768x128) S4096x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S32x128.size a ≤ S256x128.size a
  hwx7_4 : ∀ i : grid7.Coords, EltTy.bits .f32 = 32 ∨ (Rect.block (s := S256x128) S32x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x128.size a ≤ S32768x128.size a
  hwx8_0 : ∀ i : grid8.Coords, EltTy.bits .f32 = 32 ∨ (Rect.block (s := S32768x128) S4096x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4096x128.size a ≤ S32768x128.size a
  hwx8_2 : ∀ i : grid8.Coords, EltTy.bits .f32 = 32 ∨ (Rect.block (s := S32768x128) S4096x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x128.size a ≤ S32768x128.size a
  hwx9_0 : ∀ i : grid9.Coords, EltTy.bits .f32 = 32 ∨ (Rect.block (s := S32768x128) S4096x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4096x128.size a ≤ S32768x128.size a
  hwx9_3 : ∀ i : grid9.Coords, EltTy.bits .f32 = 32 ∨ (Rect.block (s := S32768x128) S4096x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S32x128.size a ≤ S256x128.size a
  hwx9_4 : ∀ i : grid9.Coords, EltTy.bits .f32 = 32 ∨ (Rect.block (s := S256x128) S32x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x128.size a ≤ S32768x128.size a
  hwx10_0 : ∀ i : grid10.Coords, EltTy.bits .f32 = 32 ∨ (Rect.block (s := S32768x128) S4096x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4096x128.size a ≤ S32768x128.size a
  hwx10_2 : ∀ i : grid10.Coords, EltTy.bits .f32 = 32 ∨ (Rect.block (s := S32768x128) S4096x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x128.size a ≤ S32768x128.size a
  hwx11_0 : ∀ i : grid11.Coords, EltTy.bits .f32 = 32 ∨ (Rect.block (s := S32768x128) S4096x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4096x128.size a ≤ S32768x128.size a
  hwx11_3 : ∀ i : grid11.Coords, EltTy.bits .f32 = 32 ∨ (Rect.block (s := S32768x128) S4096x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S32x128.size a ≤ S256x128.size a
  hwx11_4 : ∀ i : grid11.Coords, EltTy.bits .f32 = 32 ∨ (Rect.block (s := S256x128) S32x128.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x128.size a ≤ S32768x128.size a
  hwx12_0 : ∀ i : grid12.Coords, EltTy.bits .f32 = 32 ∨ (Rect.block (s := S32768x128) S4096x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4096x128.size a ≤ S32768x128.size a
  hwx12_2 : ∀ i : grid12.Coords, EltTy.bits .f32 = 32 ∨ (Rect.block (s := S32768x128) S4096x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x128.size a ≤ S32768x128.size a
  hwx13_0 : ∀ i : grid13.Coords, EltTy.bits .f32 = 32 ∨ (Rect.block (s := S32768x128) S4096x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4096x128.size a ≤ S32768x128.size a
  hwx13_3 : ∀ i : grid13.Coords, EltTy.bits .f32 = 32 ∨ (Rect.block (s := S32768x128) S4096x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S32x128.size a ≤ S256x128.size a
  hwx13_4 : ∀ i : grid13.Coords, EltTy.bits .f32 = 32 ∨ (Rect.block (s := S256x128) S32x128.size (cc13_transform_4 i) (hinb13_4 i)).WholeWords (EltTy.packing .f32)

variable [Facts₀]

def scatter_S32768_S557056x1_S557056_n_0_0_1 : ScatterDims S32768 S557056x1 S557056 where
  updateWindowDims := []
  insertedWindowDims := [0]
  scatterDimsToOperandDims := [0]
  indexVectorDim := 1
  wf := scatter_S32768_S557056x1_S557056_n_0_0_1_wf
def gather_S32768_S557056x1_S557056_n_0_n_n_0_1_1 : GatherDims S32768 S557056x1 S557056 where
  offsetDims := []
  collapsedSliceDims := [0]
  operandBatchingDims := []
  startIndicesBatchingDims := []
  startIndexMap := [0]
  indexVectorDim := 1
  sliceSizes := ![1]
  wf := gather_S32768_S557056x1_S557056_n_0_n_n_0_1_1_wf
def scatter_S128_S2176x1_S2176_n_0_0_1 : ScatterDims S128 S2176x1 S2176 where
  updateWindowDims := []
  insertedWindowDims := [0]
  scatterDimsToOperandDims := [0]
  indexVectorDim := 1
  wf := scatter_S128_S2176x1_S2176_n_0_0_1_wf
def gather_S128_S2176x1_S2176_n_0_n_n_0_1_1 : GatherDims S128 S2176x1 S2176 where
  offsetDims := []
  collapsedSliceDims := [0]
  operandBatchingDims := []
  startIndicesBatchingDims := []
  startIndexMap := [0]
  indexVectorDim := 1
  sliceSizes := ![1]
  wf := gather_S128_S2176x1_S2176_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S32768x128_S557056x1_S557056x128_1_0_n_n_0_1_1128 : GatherDims S32768x128 S557056x1 S557056x128 where
  offsetDims := [1]
  collapsedSliceDims := [0]
  operandBatchingDims := []
  startIndicesBatchingDims := []
  startIndexMap := [0]
  indexVectorDim := 1
  sliceSizes := ![1, 128]
  wf := gather_S32768x128_S557056x1_S557056x128_1_0_n_n_0_1_1128_wf
def scatter_S32768x128_S557056x1_S557056x128_1_0_0_1 : ScatterDims S32768x128 S557056x1 S557056x128 where
  updateWindowDims := [1]
  insertedWindowDims := [0]
  scatterDimsToOperandDims := [0]
  indexVectorDim := 1
  wf := scatter_S32768x128_S557056x1_S557056x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def gather_S128x128_S2176x1_S2176x128_1_0_n_n_0_1_1128 : GatherDims S128x128 S2176x1 S2176x128 where
  offsetDims := [1]
  collapsedSliceDims := [0]
  operandBatchingDims := []
  startIndicesBatchingDims := []
  startIndexMap := [0]
  indexVectorDim := 1
  sliceSizes := ![1, 128]
  wf := gather_S128x128_S2176x1_S2176x128_1_0_n_n_0_1_1128_wf
def scatter_S128x128_S2176x1_S2176x128_1_0_0_1 : ScatterDims S128x128 S2176x1 S2176x128 where
  updateWindowDims := [1]
  insertedWindowDims := [0]
  scatterDimsToOperandDims := [0]
  indexVectorDim := 1
  wf := scatter_S128x128_S2176x1_S2176x128_1_0_0_1_wf
def dot_S256x7_S7x15_S256x15_1_0_0_1_n_n : DotDims S256x7 S7x15 S256x15 where
  lhsContracting := [1]
  rhsContracting := [0]
  lhsNonContracting := [0]
  rhsNonContracting := [1]
  lhsBatch := []
  rhsBatch := []
  wf := dot_S256x7_S7x15_S256x15_1_0_0_1_n_n_wf
def dot_S256x15_S15x1_S256x1_1_0_0_1_n_n : DotDims S256x15 S15x1 S256x1 where
  lhsContracting := [1]
  rhsContracting := [0]
  lhsNonContracting := [0]
  rhsNonContracting := [1]
  lhsBatch := []
  rhsBatch := []
  wf := dot_S256x15_S15x1_S256x1_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v79) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v81_0) S4096x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v81_1) S32x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v81_0) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v102) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v115) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v116) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v117_0) S4096x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v117_1) S32x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v117_0) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v138) S4096x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v151) S4096x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v152) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v153_0) S4096x128.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v153_1) S32x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v153_0) S4096x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v174) S4096x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v187) S4096x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v188) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v65) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v189_0) S4096x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v189_1) S32x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v189_0) S4096x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg5) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v210) S4096x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v223) S4096x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v224) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v65) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v225_0) S4096x128.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v225_1) S32x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v225_0) S4096x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg5) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v246) S4096x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v259) S4096x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v260) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v65) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v261_0) S4096x128.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v261_1) S32x128.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v261_0) S4096x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg5) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v282) S4096x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v295) S4096x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v296) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v65) S128x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v297_0) S4096x128.size cc13_transform_3 reads13_3 true false 2 stage13_3 sem13_3
    hrank13 hreads13_3 hinb13_3 nbuf13_3 (Memref.isWhole_whole _) hwx13_3 hstage13_3

abbrev win13_4 : Pipeline.Window sig grid13 :=
  Pipeline.Window.ofSpec (Memref.whole main_v297_1) S32x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

class Facts : Prop extends Facts₀ where

variable [Facts]
-- ==== ReferenceIdeal.lean ====
abbrev S32768x128 : Shape := ⟨2, ![32768, 128]⟩
abbrev S128x128 : Shape := ⟨2, ![128, 128]⟩
abbrev S256x1 : Shape := ⟨2, ![256, 1]⟩
abbrev S2x524288 : Shape := ⟨2, ![2, 524288]⟩
abbrev S2x2048 : Shape := ⟨2, ![2, 2048]⟩
abbrev S128 : Shape := ⟨1, ![128]⟩
abbrev S7x15 : Shape := ⟨2, ![7, 15]⟩
abbrev S15 : Shape := ⟨1, ![15]⟩
abbrev S15x1 : Shape := ⟨2, ![15, 1]⟩
abbrev S1 : Shape := ⟨1, ![1]⟩
abbrev S32768 : Shape := ⟨1, ![32768]⟩
abbrev S1x524288 : Shape := ⟨2, ![1, 524288]⟩
abbrev S524288 : Shape := ⟨1, ![524288]⟩
abbrev S557056 : Shape := ⟨1, ![557056]⟩
abbrev S_ : Shape := ⟨0, ![]⟩
abbrev S557056x1 : Shape := ⟨2, ![557056, 1]⟩
abbrev S1x2048 : Shape := ⟨2, ![1, 2048]⟩
abbrev S2048 : Shape := ⟨1, ![2048]⟩
abbrev S2176 : Shape := ⟨1, ![2176]⟩
abbrev S2176x1 : Shape := ⟨2, ![2176, 1]⟩
abbrev S557056x128 : Shape := ⟨2, ![557056, 128]⟩
abbrev S1x128 : Shape := ⟨2, ![1, 128]⟩
abbrev S2176x128 : Shape := ⟨2, ![2176, 128]⟩
abbrev S256x128x128 : Shape := ⟨3, ![256, 128, 128]⟩
abbrev S256 : Shape := ⟨1, ![256]⟩
abbrev S256x7 : Shape := ⟨2, ![256, 7]⟩
abbrev S7 : Shape := ⟨1, ![7]⟩
abbrev S1x7 : Shape := ⟨2, ![1, 7]⟩
abbrev S256x15 : Shape := ⟨2, ![256, 15]⟩
abbrev S1x15 : Shape := ⟨2, ![1, 15]⟩
abbrev S1x1 : Shape := ⟨2, ![1, 1]⟩

abbrev nBuf : Space → Nat
  | .hbm => 599
  | .vmem => 0
  | .smem => 0
  | _ => 0

abbrev hbmTy0_0 (i : Nat) : BufTy := match i % 128 with
  | 0 => ⟨S32768x128, .f32⟩
  | 1 => ⟨S128x128, .f32⟩
  | 2 => ⟨S256x1, .f32⟩
  | 3 => ⟨S2x524288, .i32⟩
  | 4 => ⟨S2x2048, .i32⟩
  | 5 => ⟨S128x128, .f32⟩
  | 6 => ⟨S128, .f32⟩
  | 7 => ⟨S7x15, .f32⟩
  | 8 => ⟨S15, .f32⟩
  | 9 => ⟨S15x1, .f32⟩
  | 10 => ⟨S1, .f32⟩
  | 11 => ⟨S32768, .i32⟩
  | 12 => ⟨S1x524288, .i32⟩
  | 13 => ⟨S524288, .i32⟩
  | 14 => ⟨S557056, .i32⟩
  | 15 => ⟨S1x524288, .i32⟩
  | 16 => ⟨S524288, .i32⟩
  | 17 => ⟨S557056, .i32⟩
  | 18 => ⟨S_, .f32⟩
  | 19 => ⟨S557056, .f32⟩
  | 20 => ⟨S_, .f32⟩
  | 21 => ⟨S32768, .f32⟩
  | 22 => ⟨S557056x1, .i32⟩
  | 23 => ⟨S32768, .f32⟩
  | 24 => ⟨S_, .f32⟩
  | 25 => ⟨S32768, .f32⟩
  | 26 => ⟨S32768, .i1⟩
  | 27 => ⟨S32768, .f32⟩
  | 28 => ⟨S_, .f32⟩
  | 29 => ⟨S_, .f32⟩
  | 30 => ⟨S32768, .f32⟩
  | 31 => ⟨S32768, .f32⟩
  | 32 => ⟨S_, .i32⟩
  | 33 => ⟨S557056, .i32⟩
  | 34 => ⟨S557056, .i1⟩
  | 35 => ⟨S_, .i32⟩
  | 36 => ⟨S557056, .i32⟩
  | 37 => ⟨S557056, .i32⟩
  | 38 => ⟨S557056, .i32⟩
  | 39 => ⟨S557056x1, .i32⟩
  | 40 => ⟨S557056, .f32⟩
  | 41 => ⟨S_, .i32⟩
  | 42 => ⟨S557056, .i32⟩
  | 43 => ⟨S557056, .i1⟩
  | 44 => ⟨S_, .i32⟩
  | 45 => ⟨S557056, .i32⟩
  | 46 => ⟨S557056, .i32⟩
  | 47 => ⟨S557056, .i32⟩
  | 48 => ⟨S557056x1, .i32⟩
  | 49 => ⟨S557056, .f32⟩
  | 50 => ⟨S557056, .f32⟩
  | 51 => ⟨S128, .i32⟩
  | 52 => ⟨S1x2048, .i32⟩
  | 53 => ⟨S2048, .i32⟩
  | 54 => ⟨S2176, .i32⟩
  | 55 => ⟨S1x2048, .i32⟩
  | 56 => ⟨S2048, .i32⟩
  | 57 => ⟨S2176, .i32⟩
  | 58 => ⟨S_, .f32⟩
  | 59 => ⟨S2176, .f32⟩
  | 60 => ⟨S_, .f32⟩
  | 61 => ⟨S128, .f32⟩
  | 62 => ⟨S2176x1, .i32⟩
  | 63 => ⟨S128, .f32⟩
  | 64 => ⟨S_, .f32⟩
  | 65 => ⟨S128, .f32⟩
  | 66 => ⟨S128, .i1⟩
  | 67 => ⟨S128, .f32⟩
  | 68 => ⟨S_, .f32⟩
  | 69 => ⟨S_, .f32⟩
  | 70 => ⟨S128, .f32⟩
  | 71 => ⟨S128, .f32⟩
  | 72 => ⟨S_, .i32⟩
  | 73 => ⟨S2176, .i32⟩
  | 74 => ⟨S2176, .i1⟩
  | 75 => ⟨S_, .i32⟩
  | 76 => ⟨S2176, .i32⟩
  | 77 => ⟨S2176, .i32⟩
  | 78 => ⟨S2176, .i32⟩
  | 79 => ⟨S2176x1, .i32⟩
  | 80 => ⟨S2176, .f32⟩
  | 81 => ⟨S_, .i32⟩
  | 82 => ⟨S2176, .i32⟩
  | 83 => ⟨S2176, .i1⟩
  | 84 => ⟨S_, .i32⟩
  | 85 => ⟨S2176, .i32⟩
  | 86 => ⟨S2176, .i32⟩
  | 87 => ⟨S2176, .i32⟩
  | 88 => ⟨S2176x1, .i32⟩
  | 89 => ⟨S2176, .f32⟩
  | 90 => ⟨S2176, .f32⟩
  | 91 => ⟨S32768x128, .f32⟩
  | 92 => ⟨S_, .i32⟩
  | 93 => ⟨S557056, .i32⟩
  | 94 => ⟨S557056, .i1⟩
  | 95 => ⟨S_, .i32⟩
  | 96 => ⟨S557056, .i32⟩
  | 97 => ⟨S557056, .i32⟩
  | 98 => ⟨S557056, .i32⟩
  | 99 => ⟨S557056x1, .i32⟩
  | 100 => ⟨S557056x128, .f32⟩
  | 101 => ⟨S557056x1, .f32⟩
  | 102 => ⟨S557056x128, .f32⟩
  | 103 => ⟨S557056x128, .f32⟩
  | 104 => ⟨S_, .f32⟩
  | 105 => ⟨S32768x128, .f32⟩
  | 106 => ⟨S557056x1, .i32⟩
  | 107 => ⟨S32768x128, .f32⟩
  | 108 => ⟨S1x128, .f32⟩
  | 109 => ⟨S32768x128, .f32⟩
  | 110 => ⟨S32768x128, .f32⟩
  | 111 => ⟨S128x128, .f32⟩
  | 112 => ⟨S_, .i32⟩
  | 113 => ⟨S2176, .i32⟩
  | 114 => ⟨S2176, .i1⟩
  | 115 => ⟨S_, .i32⟩
  | 116 => ⟨S2176, .i32⟩
  | 117 => ⟨S2176, .i32⟩
  | 118 => ⟨S2176, .i32⟩
  | 119 => ⟨S2176x1, .i32⟩
  | 120 => ⟨S2176x128, .f32⟩
  | 121 => ⟨S2176x1, .f32⟩
  | 122 => ⟨S2176x128, .f32⟩
  | 123 => ⟨S2176x128, .f32⟩
  | 124 => ⟨S_, .f32⟩
  | 125 => ⟨S128x128, .f32⟩
  | 126 => ⟨S2176x1, .i32⟩
  | 127 => ⟨S128x128, .f32⟩
  | _ => ⟨S32768x128, .f32⟩

abbrev hbmTy0_1 (i : Nat) : BufTy := match i % 128 with
  | 0 => ⟨S1x128, .f32⟩
  | 1 => ⟨S128x128, .f32⟩
  | 2 => ⟨S128x128, .f32⟩
  | 3 => ⟨S128x128, .i32⟩
  | 4 => ⟨S128x128, .i32⟩
  | 5 => ⟨S_, .i32⟩
  | 6 => ⟨S128x128, .i32⟩
  | 7 => ⟨S128x128, .i32⟩
  | 8 => ⟨S128x128, .i1⟩
  | 9 => ⟨S_, .f32⟩
  | 10 => ⟨S128x128, .f32⟩
  | 11 => ⟨S128x128, .f32⟩
  | 12 => ⟨S_, .f32⟩
  | 13 => ⟨S_, .f32⟩
  | 14 => ⟨S256x128x128, .f32⟩
  | 15 => ⟨S128x128, .i32⟩
  | 16 => ⟨S128x128, .i32⟩
  | 17 => ⟨S128x128, .i1⟩
  | 18 => ⟨S256x128x128, .i1⟩
  | 19 => ⟨S_, .f32⟩
  | 20 => ⟨S256x128x128, .f32⟩
  | 21 => ⟨S256x128x128, .f32⟩
  | 22 => ⟨S_, .f32⟩
  | 23 => ⟨S256, .f32⟩
  | 24 => ⟨S32768x128, .f32⟩
  | 25 => ⟨S_, .i32⟩
  | 26 => ⟨S557056, .i32⟩
  | 27 => ⟨S557056, .i1⟩
  | 28 => ⟨S_, .i32⟩
  | 29 => ⟨S557056, .i32⟩
  | 30 => ⟨S557056, .i32⟩
  | 31 => ⟨S557056, .i32⟩
  | 32 => ⟨S557056x1, .i32⟩
  | 33 => ⟨S557056x128, .f32⟩
  | 34 => ⟨S557056x1, .f32⟩
  | 35 => ⟨S557056x128, .f32⟩
  | 36 => ⟨S557056x128, .f32⟩
  | 37 => ⟨S_, .f32⟩
  | 38 => ⟨S32768x128, .f32⟩
  | 39 => ⟨S557056x1, .i32⟩
  | 40 => ⟨S32768x128, .f32⟩
  | 41 => ⟨S1x128, .f32⟩
  | 42 => ⟨S32768x128, .f32⟩
  | 43 => ⟨S32768x128, .f32⟩
  | 44 => ⟨S128x128, .f32⟩
  | 45 => ⟨S_, .i32⟩
  | 46 => ⟨S2176, .i32⟩
  | 47 => ⟨S2176, .i1⟩
  | 48 => ⟨S_, .i32⟩
  | 49 => ⟨S2176, .i32⟩
  | 50 => ⟨S2176, .i32⟩
  | 51 => ⟨S2176, .i32⟩
  | 52 => ⟨S2176x1, .i32⟩
  | 53 => ⟨S2176x128, .f32⟩
  | 54 => ⟨S2176x1, .f32⟩
  | 55 => ⟨S2176x128, .f32⟩
  | 56 => ⟨S2176x128, .f32⟩
  | 57 => ⟨S_, .f32⟩
  | 58 => ⟨S128x128, .f32⟩
  | 59 => ⟨S2176x1, .i32⟩
  | 60 => ⟨S128x128, .f32⟩
  | 61 => ⟨S1x128, .f32⟩
  | 62 => ⟨S128x128, .f32⟩
  | 63 => ⟨S128x128, .f32⟩
  | 64 => ⟨S128x128, .i32⟩
  | 65 => ⟨S128x128, .i32⟩
  | 66 => ⟨S_, .i32⟩
  | 67 => ⟨S128x128, .i32⟩
  | 68 => ⟨S128x128, .i32⟩
  | 69 => ⟨S128x128, .i1⟩
  | 70 => ⟨S_, .f32⟩
  | 71 => ⟨S128x128, .f32⟩
  | 72 => ⟨S128x128, .f32⟩
  | 73 => ⟨S_, .f32⟩
  | 74 => ⟨S_, .f32⟩
  | 75 => ⟨S256x128x128, .f32⟩
  | 76 => ⟨S128x128, .i32⟩
  | 77 => ⟨S128x128, .i32⟩
  | 78 => ⟨S128x128, .i1⟩
  | 79 => ⟨S256x128x128, .i1⟩
  | 80 => ⟨S_, .f32⟩
  | 81 => ⟨S256x128x128, .f32⟩
  | 82 => ⟨S256x128x128, .f32⟩
  | 83 => ⟨S_, .f32⟩
  | 84 => ⟨S256, .f32⟩
  | 85 => ⟨S32768x128, .f32⟩
  | 86 => ⟨S_, .i32⟩
  | 87 => ⟨S557056, .i32⟩
  | 88 => ⟨S557056, .i1⟩
  | 89 => ⟨S_, .i32⟩
  | 90 => ⟨S557056, .i32⟩
  | 91 => ⟨S557056, .i32⟩
  | 92 => ⟨S557056, .i32⟩
  | 93 => ⟨S557056x1, .i32⟩
  | 94 => ⟨S557056x128, .f32⟩
  | 95 => ⟨S557056x1, .f32⟩
  | 96 => ⟨S557056x128, .f32⟩
  | 97 => ⟨S557056x128, .f32⟩
  | 98 => ⟨S_, .f32⟩
  | 99 => ⟨S32768x128, .f32⟩
  | 100 => ⟨S557056x1, .i32⟩
  | 101 => ⟨S32768x128, .f32⟩
  | 102 => ⟨S1x128, .f32⟩
  | 103 => ⟨S32768x128, .f32⟩
  | 104 => ⟨S32768x128, .f32⟩
  | 105 => ⟨S128x128, .f32⟩
  | 106 => ⟨S_, .i32⟩
  | 107 => ⟨S2176, .i32⟩
  | 108 => ⟨S2176, .i1⟩
  | 109 => ⟨S_, .i32⟩
  | 110 => ⟨S2176, .i32⟩
  | 111 => ⟨S2176, .i32⟩
  | 112 => ⟨S2176, .i32⟩
  | 113 => ⟨S2176x1, .i32⟩
  | 114 => ⟨S2176x128, .f32⟩
  | 115 => ⟨S2176x1, .f32⟩
  | 116 => ⟨S2176x128, .f32⟩
  | 117 => ⟨S2176x128, .f32⟩
  | 118 => ⟨S_, .f32⟩
  | 119 => ⟨S128x128, .f32⟩
  | 120 => ⟨S2176x1, .i32⟩
  | 121 => ⟨S128x128, .f32⟩
  | 122 => ⟨S1x128, .f32⟩
  | 123 => ⟨S128x128, .f32⟩
  | 124 => ⟨S128x128, .f32⟩
  | 125 => ⟨S128x128, .i32⟩
  | 126 => ⟨S128x128, .i32⟩
  | 127 => ⟨S_, .i32⟩
  | _ => ⟨S32768x128, .f32⟩

abbrev hbmTy0_2 (i : Nat) : BufTy := match i % 128 with
  | 0 => ⟨S128x128, .i32⟩
  | 1 => ⟨S128x128, .i32⟩
  | 2 => ⟨S128x128, .i1⟩
  | 3 => ⟨S_, .f32⟩
  | 4 => ⟨S128x128, .f32⟩
  | 5 => ⟨S128x128, .f32⟩
  | 6 => ⟨S_, .f32⟩
  | 7 => ⟨S_, .f32⟩
  | 8 => ⟨S256x128x128, .f32⟩
  | 9 => ⟨S128x128, .i32⟩
  | 10 => ⟨S128x128, .i32⟩
  | 11 => ⟨S128x128, .i1⟩
  | 12 => ⟨S256x128x128, .i1⟩
  | 13 => ⟨S_, .f32⟩
  | 14 => ⟨S256x128x128, .f32⟩
  | 15 => ⟨S256x128x128, .f32⟩
  | 16 => ⟨S_, .f32⟩
  | 17 => ⟨S256, .f32⟩
  | 18 => ⟨S32768x128, .f32⟩
  | 19 => ⟨S_, .i32⟩
  | 20 => ⟨S557056, .i32⟩
  | 21 => ⟨S557056, .i1⟩
  | 22 => ⟨S_, .i32⟩
  | 23 => ⟨S557056, .i32⟩
  | 24 => ⟨S557056, .i32⟩
  | 25 => ⟨S557056, .i32⟩
  | 26 => ⟨S557056x1, .i32⟩
  | 27 => ⟨S557056x128, .f32⟩
  | 28 => ⟨S557056x1, .f32⟩
  | 29 => ⟨S557056x128, .f32⟩
  | 30 => ⟨S557056x128, .f32⟩
  | 31 => ⟨S_, .f32⟩
  | 32 => ⟨S32768x128, .f32⟩
  | 33 => ⟨S557056x1, .i32⟩
  | 34 => ⟨S32768x128, .f32⟩
  | 35 => ⟨S1x128, .f32⟩
  | 36 => ⟨S32768x128, .f32⟩
  | 37 => ⟨S32768x128, .f32⟩
  | 38 => ⟨S128x128, .f32⟩
  | 39 => ⟨S_, .i32⟩
  | 40 => ⟨S2176, .i32⟩
  | 41 => ⟨S2176, .i1⟩
  | 42 => ⟨S_, .i32⟩
  | 43 => ⟨S2176, .i32⟩
  | 44 => ⟨S2176, .i32⟩
  | 45 => ⟨S2176, .i32⟩
  | 46 => ⟨S2176x1, .i32⟩
  | 47 => ⟨S2176x128, .f32⟩
  | 48 => ⟨S2176x1, .f32⟩
  | 49 => ⟨S2176x128, .f32⟩
  | 50 => ⟨S2176x128, .f32⟩
  | 51 => ⟨S_, .f32⟩
  | 52 => ⟨S128x128, .f32⟩
  | 53 => ⟨S2176x1, .i32⟩
  | 54 => ⟨S128x128, .f32⟩
  | 55 => ⟨S1x128, .f32⟩
  | 56 => ⟨S128x128, .f32⟩
  | 57 => ⟨S128x128, .f32⟩
  | 58 => ⟨S128x128, .i32⟩
  | 59 => ⟨S128x128, .i32⟩
  | 60 => ⟨S_, .i32⟩
  | 61 => ⟨S128x128, .i32⟩
  | 62 => ⟨S128x128, .i32⟩
  | 63 => ⟨S128x128, .i1⟩
  | 64 => ⟨S_, .f32⟩
  | 65 => ⟨S128x128, .f32⟩
  | 66 => ⟨S128x128, .f32⟩
  | 67 => ⟨S_, .f32⟩
  | 68 => ⟨S_, .f32⟩
  | 69 => ⟨S256x128x128, .f32⟩
  | 70 => ⟨S128x128, .i32⟩
  | 71 => ⟨S128x128, .i32⟩
  | 72 => ⟨S128x128, .i1⟩
  | 73 => ⟨S256x128x128, .i1⟩
  | 74 => ⟨S_, .f32⟩
  | 75 => ⟨S256x128x128, .f32⟩
  | 76 => ⟨S256x128x128, .f32⟩
  | 77 => ⟨S_, .f32⟩
  | 78 => ⟨S256, .f32⟩
  | 79 => ⟨S32768x128, .f32⟩
  | 80 => ⟨S_, .i32⟩
  | 81 => ⟨S557056, .i32⟩
  | 82 => ⟨S557056, .i1⟩
  | 83 => ⟨S_, .i32⟩
  | 84 => ⟨S557056, .i32⟩
  | 85 => ⟨S557056, .i32⟩
  | 86 => ⟨S557056, .i32⟩
  | 87 => ⟨S557056x1, .i32⟩
  | 88 => ⟨S557056x128, .f32⟩
  | 89 => ⟨S557056x1, .f32⟩
  | 90 => ⟨S557056x128, .f32⟩
  | 91 => ⟨S557056x128, .f32⟩
  | 92 => ⟨S_, .f32⟩
  | 93 => ⟨S32768x128, .f32⟩
  | 94 => ⟨S557056x1, .i32⟩
  | 95 => ⟨S32768x128, .f32⟩
  | 96 => ⟨S1x128, .f32⟩
  | 97 => ⟨S32768x128, .f32⟩
  | 98 => ⟨S32768x128, .f32⟩
  | 99 => ⟨S128x128, .f32⟩
  | 100 => ⟨S_, .i32⟩
  | 101 => ⟨S2176, .i32⟩
  | 102 => ⟨S2176, .i1⟩
  | 103 => ⟨S_, .i32⟩
  | 104 => ⟨S2176, .i32⟩
  | 105 => ⟨S2176, .i32⟩
  | 106 => ⟨S2176, .i32⟩
  | 107 => ⟨S2176x1, .i32⟩
  | 108 => ⟨S2176x128, .f32⟩
  | 109 => ⟨S2176x1, .f32⟩
  | 110 => ⟨S2176x128, .f32⟩
  | 111 => ⟨S2176x128, .f32⟩
  | 112 => ⟨S_, .f32⟩
  | 113 => ⟨S128x128, .f32⟩
  | 114 => ⟨S2176x1, .i32⟩
  | 115 => ⟨S128x128, .f32⟩
  | 116 => ⟨S1x128, .f32⟩
  | 117 => ⟨S128x128, .f32⟩
  | 118 => ⟨S128x128, .f32⟩
  | 119 => ⟨S128x128, .i32⟩
  | 120 => ⟨S128x128, .i32⟩
  | 121 => ⟨S_, .i32⟩
  | 122 => ⟨S128x128, .i32⟩
  | 123 => ⟨S128x128, .i32⟩
  | 124 => ⟨S128x128, .i1⟩
  | 125 => ⟨S_, .f32⟩
  | 126 => ⟨S128x128, .f32⟩
  | 127 => ⟨S128x128, .f32⟩
  | _ => ⟨S32768x128, .f32⟩

abbrev hbmTy0_3 (i : Nat) : BufTy := match i % 128 with
  | 0 => ⟨S_, .f32⟩
  | 1 => ⟨S_, .f32⟩
  | 2 => ⟨S256x128x128, .f32⟩
  | 3 => ⟨S128x128, .i32⟩
  | 4 => ⟨S128x128, .i32⟩
  | 5 => ⟨S128x128, .i1⟩
  | 6 => ⟨S256x128x128, .i1⟩
  | 7 => ⟨S_, .f32⟩
  | 8 => ⟨S256x128x128, .f32⟩
  | 9 => ⟨S256x128x128, .f32⟩
  | 10 => ⟨S_, .f32⟩
  | 11 => ⟨S256, .f32⟩
  | 12 => ⟨S32768x128, .f32⟩
  | 13 => ⟨S_, .i32⟩
  | 14 => ⟨S557056, .i32⟩
  | 15 => ⟨S557056, .i1⟩
  | 16 => ⟨S_, .i32⟩
  | 17 => ⟨S557056, .i32⟩
  | 18 => ⟨S557056, .i32⟩
  | 19 => ⟨S557056, .i32⟩
  | 20 => ⟨S557056x1, .i32⟩
  | 21 => ⟨S557056x128, .f32⟩
  | 22 => ⟨S557056x1, .f32⟩
  | 23 => ⟨S557056x128, .f32⟩
  | 24 => ⟨S557056x128, .f32⟩
  | 25 => ⟨S_, .f32⟩
  | 26 => ⟨S32768x128, .f32⟩
  | 27 => ⟨S557056x1, .i32⟩
  | 28 => ⟨S32768x128, .f32⟩
  | 29 => ⟨S1x128, .f32⟩
  | 30 => ⟨S32768x128, .f32⟩
  | 31 => ⟨S32768x128, .f32⟩
  | 32 => ⟨S128x128, .f32⟩
  | 33 => ⟨S_, .i32⟩
  | 34 => ⟨S2176, .i32⟩
  | 35 => ⟨S2176, .i1⟩
  | 36 => ⟨S_, .i32⟩
  | 37 => ⟨S2176, .i32⟩
  | 38 => ⟨S2176, .i32⟩
  | 39 => ⟨S2176, .i32⟩
  | 40 => ⟨S2176x1, .i32⟩
  | 41 => ⟨S2176x128, .f32⟩
  | 42 => ⟨S2176x1, .f32⟩
  | 43 => ⟨S2176x128, .f32⟩
  | 44 => ⟨S2176x128, .f32⟩
  | 45 => ⟨S_, .f32⟩
  | 46 => ⟨S128x128, .f32⟩
  | 47 => ⟨S2176x1, .i32⟩
  | 48 => ⟨S128x128, .f32⟩
  | 49 => ⟨S1x128, .f32⟩
  | 50 => ⟨S128x128, .f32⟩
  | 51 => ⟨S128x128, .f32⟩
  | 52 => ⟨S128x128, .i32⟩
  | 53 => ⟨S128x128, .i32⟩
  | 54 => ⟨S_, .i32⟩
  | 55 => ⟨S128x128, .i32⟩
  | 56 => ⟨S128x128, .i32⟩
  | 57 => ⟨S128x128, .i1⟩
  | 58 => ⟨S_, .f32⟩
  | 59 => ⟨S128x128, .f32⟩
  | 60 => ⟨S128x128, .f32⟩
  | 61 => ⟨S_, .f32⟩
  | 62 => ⟨S_, .f32⟩
  | 63 => ⟨S256x128x128, .f32⟩
  | 64 => ⟨S128x128, .i32⟩
  | 65 => ⟨S128x128, .i32⟩
  | 66 => ⟨S128x128, .i1⟩
  | 67 => ⟨S256x128x128, .i1⟩
  | 68 => ⟨S_, .f32⟩
  | 69 => ⟨S256x128x128, .f32⟩
  | 70 => ⟨S256x128x128, .f32⟩
  | 71 => ⟨S_, .f32⟩
  | 72 => ⟨S256, .f32⟩
  | 73 => ⟨S32768x128, .f32⟩
  | 74 => ⟨S_, .i32⟩
  | 75 => ⟨S557056, .i32⟩
  | 76 => ⟨S557056, .i1⟩
  | 77 => ⟨S_, .i32⟩
  | 78 => ⟨S557056, .i32⟩
  | 79 => ⟨S557056, .i32⟩
  | 80 => ⟨S557056, .i32⟩
  | 81 => ⟨S557056x1, .i32⟩
  | 82 => ⟨S557056x128, .f32⟩
  | 83 => ⟨S557056x1, .f32⟩
  | 84 => ⟨S557056x128, .f32⟩
  | 85 => ⟨S557056x128, .f32⟩
  | 86 => ⟨S_, .f32⟩
  | 87 => ⟨S32768x128, .f32⟩
  | 88 => ⟨S557056x1, .i32⟩
  | 89 => ⟨S32768x128, .f32⟩
  | 90 => ⟨S1x128, .f32⟩
  | 91 => ⟨S32768x128, .f32⟩
  | 92 => ⟨S32768x128, .f32⟩
  | 93 => ⟨S128x128, .f32⟩
  | 94 => ⟨S_, .i32⟩
  | 95 => ⟨S2176, .i32⟩
  | 96 => ⟨S2176, .i1⟩
  | 97 => ⟨S_, .i32⟩
  | 98 => ⟨S2176, .i32⟩
  | 99 => ⟨S2176, .i32⟩
  | 100 => ⟨S2176, .i32⟩
  | 101 => ⟨S2176x1, .i32⟩
  | 102 => ⟨S2176x128, .f32⟩
  | 103 => ⟨S2176x1, .f32⟩
  | 104 => ⟨S2176x128, .f32⟩
  | 105 => ⟨S2176x128, .f32⟩
  | 106 => ⟨S_, .f32⟩
  | 107 => ⟨S128x128, .f32⟩
  | 108 => ⟨S2176x1, .i32⟩
  | 109 => ⟨S128x128, .f32⟩
  | 110 => ⟨S1x128, .f32⟩
  | 111 => ⟨S128x128, .f32⟩
  | 112 => ⟨S128x128, .f32⟩
  | 113 => ⟨S128x128, .i32⟩
  | 114 => ⟨S128x128, .i32⟩
  | 115 => ⟨S_, .i32⟩
  | 116 => ⟨S128x128, .i32⟩
  | 117 => ⟨S128x128, .i32⟩
  | 118 => ⟨S128x128, .i1⟩
  | 119 => ⟨S_, .f32⟩
  | 120 => ⟨S128x128, .f32⟩
  | 121 => ⟨S128x128, .f32⟩
  | 122 => ⟨S_, .f32⟩
  | 123 => ⟨S_, .f32⟩
  | 124 => ⟨S256x128x128, .f32⟩
  | 125 => ⟨S128x128, .i32⟩
  | 126 => ⟨S128x128, .i32⟩
  | 127 => ⟨S128x128, .i1⟩
  | _ => ⟨S32768x128, .f32⟩

abbrev hbmTy0_4 (i : Nat) : BufTy := match i % 128 with
  | 0 => ⟨S256x128x128, .i1⟩
  | 1 => ⟨S_, .f32⟩
  | 2 => ⟨S256x128x128, .f32⟩
  | 3 => ⟨S256x128x128, .f32⟩
  | 4 => ⟨S_, .f32⟩
  | 5 => ⟨S256, .f32⟩
  | 6 => ⟨S256x1, .f32⟩
  | 7 => ⟨S256x1, .f32⟩
  | 8 => ⟨S256x1, .f32⟩
  | 9 => ⟨S256x1, .f32⟩
  | 10 => ⟨S256x1, .f32⟩
  | 11 => ⟨S256x1, .f32⟩
  | 12 => ⟨S256x1, .f32⟩
  | 13 => ⟨S256x7, .f32⟩
  | 14 => ⟨S1, .f32⟩
  | 15 => ⟨S1, .f32⟩
  | 16 => ⟨S1, .f32⟩
  | 17 => ⟨S1, .f32⟩
  | 18 => ⟨S1, .f32⟩
  | 19 => ⟨S1, .f32⟩
  | 20 => ⟨S1, .f32⟩
  | 21 => ⟨S7, .f32⟩
  | 22 => ⟨S1x7, .f32⟩
  | 23 => ⟨S256x7, .f32⟩
  | 24 => ⟨S256x7, .f32⟩
  | 25 => ⟨S_, .f32⟩
  | 26 => ⟨S256x1, .f32⟩
  | 27 => ⟨S256x1, .f32⟩
  | 28 => ⟨S_, .f32⟩
  | 29 => ⟨S256x1, .f32⟩
  | 30 => ⟨S256x1, .f32⟩
  | 31 => ⟨S256x7, .f32⟩
  | 32 => ⟨S256x7, .f32⟩
  | 33 => ⟨S_, .f32⟩
  | 34 => ⟨S7, .f32⟩
  | 35 => ⟨S1x7, .f32⟩
  | 36 => ⟨S_, .f32⟩
  | 37 => ⟨S1x7, .f32⟩
  | 38 => ⟨S1x7, .f32⟩
  | 39 => ⟨S_, .i32⟩
  | 40 => ⟨S_, .f32⟩
  | 41 => ⟨S7, .f32⟩
  | 42 => ⟨S1x7, .f32⟩
  | 43 => ⟨S_, .f32⟩
  | 44 => ⟨S1x7, .f32⟩
  | 45 => ⟨S1x7, .f32⟩
  | 46 => ⟨S256x7, .f32⟩
  | 47 => ⟨S256x7, .f32⟩
  | 48 => ⟨S256x7, .f32⟩
  | 49 => ⟨S_, .f32⟩
  | 50 => ⟨S_, .f32⟩
  | 51 => ⟨S_, .f32⟩
  | 52 => ⟨S_, .f32⟩
  | 53 => ⟨S7, .f32⟩
  | 54 => ⟨S1x7, .f32⟩
  | 55 => ⟨S1x7, .f32⟩
  | 56 => ⟨S1x7, .f32⟩
  | 57 => ⟨S_, .f32⟩
  | 58 => ⟨S_, .i1⟩
  | 59 => ⟨S_, .f32⟩
  | 60 => ⟨S_, .f32⟩
  | 61 => ⟨S1x7, .f32⟩
  | 62 => ⟨S1x7, .f32⟩
  | 63 => ⟨S1x7, .f32⟩
  | 64 => ⟨S256x7, .f32⟩
  | 65 => ⟨S256x7, .f32⟩
  | 66 => ⟨S256x7, .f32⟩
  | 67 => ⟨S256x7, .f32⟩
  | 68 => ⟨S256x15, .f32⟩
  | 69 => ⟨S1x15, .f32⟩
  | 70 => ⟨S256x15, .f32⟩
  | 71 => ⟨S256x15, .f32⟩
  | 72 => ⟨S_, .f32⟩
  | 73 => ⟨S256x15, .f32⟩
  | 74 => ⟨S256x15, .f32⟩
  | 75 => ⟨S256x1, .f32⟩
  | 76 => ⟨S1x1, .f32⟩
  | 77 => ⟨S256x1, .f32⟩
  | 78 => ⟨S256x1, .f32⟩
  | 79 => ⟨S256x1, .f32⟩
  | 80 => ⟨S256x1, .f32⟩
  | 81 => ⟨S_, .f32⟩
  | 82 => ⟨S256x1, .f32⟩
  | 83 => ⟨S256x1, .f32⟩
  | 84 => ⟨S_, .f32⟩
  | 85 => ⟨S256x1, .f32⟩
  | 86 => ⟨S256x1, .f32⟩
  | _ => ⟨S32768x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_call1_v0 : Ref sig .tc := ⟨.hbm, 69, rfl⟩
abbrev main_call1_v1 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_17 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call2_v0 : Ref sig .tc := ⟨.hbm, 131, rfl⟩
abbrev main_call2_v1 : Ref sig .tc := ⟨.hbm, 132, rfl⟩
abbrev main_call2_c : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_cst : Ref sig .tc := ⟨.hbm, 137, rfl⟩
abbrev main_call2_v5 : Ref sig .tc := ⟨.hbm, 138, rfl⟩
abbrev main_call2_v6 : Ref sig .tc := ⟨.hbm, 139, rfl⟩
abbrev main_call2_cst_0 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_20 : Ref sig .tc := ⟨.hbm, 147, rfl⟩
abbrev main_v100 : Ref sig .tc := ⟨.hbm, 148, rfl⟩
abbrev main_v101 : Ref sig .tc := ⟨.hbm, 149, rfl⟩
abbrev main_cst_21 : Ref sig .tc := ⟨.hbm, 150, rfl⟩
abbrev main_v102 : Ref sig .tc := ⟨.hbm, 151, rfl⟩
abbrev main_v103 : Ref sig .tc := ⟨.hbm, 152, rfl⟩
abbrev main_c_22 : Ref sig .tc := ⟨.hbm, 153, rfl⟩
abbrev main_v104 : Ref sig .tc := ⟨.hbm, 154, rfl⟩
abbrev main_v105 : Ref sig .tc := ⟨.hbm, 155, rfl⟩
abbrev main_c_23 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_24 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_25 : Ref sig .tc := ⟨.hbm, 173, rfl⟩
abbrev main_v121 : Ref sig .tc := ⟨.hbm, 174, rfl⟩
abbrev main_v122 : Ref sig .tc := ⟨.hbm, 175, rfl⟩
abbrev main_c_26 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_27 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call3_v0 : Ref sig .tc := ⟨.hbm, 192, rfl⟩
abbrev main_call3_v1 : Ref sig .tc := ⟨.hbm, 193, rfl⟩
abbrev main_call3_c : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_cst : Ref sig .tc := ⟨.hbm, 198, rfl⟩
abbrev main_call3_v5 : Ref sig .tc := ⟨.hbm, 199, rfl⟩
abbrev main_call3_v6 : Ref sig .tc := ⟨.hbm, 200, rfl⟩
abbrev main_call3_cst_0 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_cst_28 : Ref sig .tc := ⟨.hbm, 208, rfl⟩
abbrev main_v143 : Ref sig .tc := ⟨.hbm, 209, rfl⟩
abbrev main_v144 : Ref sig .tc := ⟨.hbm, 210, rfl⟩
abbrev main_cst_29 : Ref sig .tc := ⟨.hbm, 211, rfl⟩
abbrev main_v145 : Ref sig .tc := ⟨.hbm, 212, rfl⟩
abbrev main_v146 : Ref sig .tc := ⟨.hbm, 213, rfl⟩
abbrev main_c_30 : Ref sig .tc := ⟨.hbm, 214, rfl⟩
abbrev main_v147 : Ref sig .tc := ⟨.hbm, 215, rfl⟩
abbrev main_v148 : Ref sig .tc := ⟨.hbm, 216, rfl⟩
abbrev main_c_31 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_32 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_c_33 : Ref sig .tc := ⟨.hbm, 234, rfl⟩
abbrev main_v164 : Ref sig .tc := ⟨.hbm, 235, rfl⟩
abbrev main_v165 : Ref sig .tc := ⟨.hbm, 236, rfl⟩
abbrev main_c_34 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_cst_35 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_call4_v0 : Ref sig .tc := ⟨.hbm, 253, rfl⟩
abbrev main_call4_v1 : Ref sig .tc := ⟨.hbm, 254, rfl⟩
abbrev main_call4_c : Ref sig .tc := ⟨.hbm, 255, rfl⟩
abbrev main_call4_v2 : Ref sig .tc := ⟨.hbm, 256, rfl⟩
abbrev main_call4_v3 : Ref sig .tc := ⟨.hbm, 257, rfl⟩
abbrev main_call4_v4 : Ref sig .tc := ⟨.hbm, 258, rfl⟩
abbrev main_call4_cst : Ref sig .tc := ⟨.hbm, 259, rfl⟩
abbrev main_call4_v5 : Ref sig .tc := ⟨.hbm, 260, rfl⟩
abbrev main_call4_v6 : Ref sig .tc := ⟨.hbm, 261, rfl⟩
abbrev main_call4_cst_0 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_cst_36 : Ref sig .tc := ⟨.hbm, 269, rfl⟩
abbrev main_v186 : Ref sig .tc := ⟨.hbm, 270, rfl⟩
abbrev main_v187 : Ref sig .tc := ⟨.hbm, 271, rfl⟩
abbrev main_cst_37 : Ref sig .tc := ⟨.hbm, 272, rfl⟩
abbrev main_v188 : Ref sig .tc := ⟨.hbm, 273, rfl⟩
abbrev main_v189 : Ref sig .tc := ⟨.hbm, 274, rfl⟩
abbrev main_c_38 : Ref sig .tc := ⟨.hbm, 275, rfl⟩
abbrev main_v190 : Ref sig .tc := ⟨.hbm, 276, rfl⟩
abbrev main_v191 : Ref sig .tc := ⟨.hbm, 277, rfl⟩
abbrev main_c_39 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_cst_40 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_c_41 : Ref sig .tc := ⟨.hbm, 295, rfl⟩
abbrev main_v207 : Ref sig .tc := ⟨.hbm, 296, rfl⟩
abbrev main_v208 : Ref sig .tc := ⟨.hbm, 297, rfl⟩
abbrev main_c_42 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_cst_43 : Ref sig .tc := ⟨.hbm, 307, rfl⟩
abbrev main_v217 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_call5_v0 : Ref sig .tc := ⟨.hbm, 314, rfl⟩
abbrev main_call5_v1 : Ref sig .tc := ⟨.hbm, 315, rfl⟩
abbrev main_call5_c : Ref sig .tc := ⟨.hbm, 316, rfl⟩
abbrev main_call5_v2 : Ref sig .tc := ⟨.hbm, 317, rfl⟩
abbrev main_call5_v3 : Ref sig .tc := ⟨.hbm, 318, rfl⟩
abbrev main_call5_v4 : Ref sig .tc := ⟨.hbm, 319, rfl⟩
abbrev main_call5_cst : Ref sig .tc := ⟨.hbm, 320, rfl⟩
abbrev main_call5_v5 : Ref sig .tc := ⟨.hbm, 321, rfl⟩
abbrev main_call5_v6 : Ref sig .tc := ⟨.hbm, 322, rfl⟩
abbrev main_call5_cst_0 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_cst_44 : Ref sig .tc := ⟨.hbm, 330, rfl⟩
abbrev main_v229 : Ref sig .tc := ⟨.hbm, 331, rfl⟩
abbrev main_v230 : Ref sig .tc := ⟨.hbm, 332, rfl⟩
abbrev main_cst_45 : Ref sig .tc := ⟨.hbm, 333, rfl⟩
abbrev main_v231 : Ref sig .tc := ⟨.hbm, 334, rfl⟩
abbrev main_v232 : Ref sig .tc := ⟨.hbm, 335, rfl⟩
abbrev main_c_46 : Ref sig .tc := ⟨.hbm, 336, rfl⟩
abbrev main_v233 : Ref sig .tc := ⟨.hbm, 337, rfl⟩
abbrev main_v234 : Ref sig .tc := ⟨.hbm, 338, rfl⟩
abbrev main_c_47 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_cst_48 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_c_49 : Ref sig .tc := ⟨.hbm, 356, rfl⟩
abbrev main_v250 : Ref sig .tc := ⟨.hbm, 357, rfl⟩
abbrev main_v251 : Ref sig .tc := ⟨.hbm, 358, rfl⟩
abbrev main_c_50 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_cst_51 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_call6_v0 : Ref sig .tc := ⟨.hbm, 375, rfl⟩
abbrev main_call6_v1 : Ref sig .tc := ⟨.hbm, 376, rfl⟩
abbrev main_call6_c : Ref sig .tc := ⟨.hbm, 377, rfl⟩
abbrev main_call6_v2 : Ref sig .tc := ⟨.hbm, 378, rfl⟩
abbrev main_call6_v3 : Ref sig .tc := ⟨.hbm, 379, rfl⟩
abbrev main_call6_v4 : Ref sig .tc := ⟨.hbm, 380, rfl⟩
abbrev main_call6_cst : Ref sig .tc := ⟨.hbm, 381, rfl⟩
abbrev main_call6_v5 : Ref sig .tc := ⟨.hbm, 382, rfl⟩
abbrev main_call6_v6 : Ref sig .tc := ⟨.hbm, 383, rfl⟩
abbrev main_call6_cst_0 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_cst_52 : Ref sig .tc := ⟨.hbm, 391, rfl⟩
abbrev main_v272 : Ref sig .tc := ⟨.hbm, 392, rfl⟩
abbrev main_v273 : Ref sig .tc := ⟨.hbm, 393, rfl⟩
abbrev main_cst_53 : Ref sig .tc := ⟨.hbm, 394, rfl⟩
abbrev main_v274 : Ref sig .tc := ⟨.hbm, 395, rfl⟩
abbrev main_v275 : Ref sig .tc := ⟨.hbm, 396, rfl⟩
abbrev main_c_54 : Ref sig .tc := ⟨.hbm, 397, rfl⟩
abbrev main_v276 : Ref sig .tc := ⟨.hbm, 398, rfl⟩
abbrev main_v277 : Ref sig .tc := ⟨.hbm, 399, rfl⟩
abbrev main_c_55 : Ref sig .tc := ⟨.hbm, 400, rfl⟩
abbrev main_v278 : Ref sig .tc := ⟨.hbm, 401, rfl⟩
abbrev main_v279 : Ref sig .tc := ⟨.hbm, 402, rfl⟩
abbrev main_v280 : Ref sig .tc := ⟨.hbm, 403, rfl⟩
abbrev main_v281 : Ref sig .tc := ⟨.hbm, 404, rfl⟩
abbrev main_v282 : Ref sig .tc := ⟨.hbm, 405, rfl⟩
abbrev main_v283 : Ref sig .tc := ⟨.hbm, 406, rfl⟩
abbrev main_v284 : Ref sig .tc := ⟨.hbm, 407, rfl⟩
abbrev main_v285 : Ref sig .tc := ⟨.hbm, 408, rfl⟩
abbrev main_cst_56 : Ref sig .tc := ⟨.hbm, 409, rfl⟩
abbrev main_v286 : Ref sig .tc := ⟨.hbm, 410, rfl⟩
abbrev main_v287 : Ref sig .tc := ⟨.hbm, 411, rfl⟩
abbrev main_v288 : Ref sig .tc := ⟨.hbm, 412, rfl⟩
abbrev main_v289 : Ref sig .tc := ⟨.hbm, 413, rfl⟩
abbrev main_v290 : Ref sig .tc := ⟨.hbm, 414, rfl⟩
abbrev main_v291 : Ref sig .tc := ⟨.hbm, 415, rfl⟩
abbrev main_v292 : Ref sig .tc := ⟨.hbm, 416, rfl⟩
abbrev main_c_57 : Ref sig .tc := ⟨.hbm, 417, rfl⟩
abbrev main_v293 : Ref sig .tc := ⟨.hbm, 418, rfl⟩
abbrev main_v294 : Ref sig .tc := ⟨.hbm, 419, rfl⟩
abbrev main_c_58 : Ref sig .tc := ⟨.hbm, 420, rfl⟩
abbrev main_v295 : Ref sig .tc := ⟨.hbm, 421, rfl⟩
abbrev main_v296 : Ref sig .tc := ⟨.hbm, 422, rfl⟩
abbrev main_v297 : Ref sig .tc := ⟨.hbm, 423, rfl⟩
abbrev main_v298 : Ref sig .tc := ⟨.hbm, 424, rfl⟩
abbrev main_v299 : Ref sig .tc := ⟨.hbm, 425, rfl⟩
abbrev main_v300 : Ref sig .tc := ⟨.hbm, 426, rfl⟩
abbrev main_v301 : Ref sig .tc := ⟨.hbm, 427, rfl⟩
abbrev main_v302 : Ref sig .tc := ⟨.hbm, 428, rfl⟩
abbrev main_cst_59 : Ref sig .tc := ⟨.hbm, 429, rfl⟩
abbrev main_v303 : Ref sig .tc := ⟨.hbm, 430, rfl⟩
abbrev main_v304 : Ref sig .tc := ⟨.hbm, 431, rfl⟩
abbrev main_v305 : Ref sig .tc := ⟨.hbm, 432, rfl⟩
abbrev main_v306 : Ref sig .tc := ⟨.hbm, 433, rfl⟩
abbrev main_v307 : Ref sig .tc := ⟨.hbm, 434, rfl⟩
abbrev main_v308 : Ref sig .tc := ⟨.hbm, 435, rfl⟩
abbrev main_call7_v0 : Ref sig .tc := ⟨.hbm, 436, rfl⟩
abbrev main_call7_v1 : Ref sig .tc := ⟨.hbm, 437, rfl⟩
abbrev main_call7_c : Ref sig .tc := ⟨.hbm, 438, rfl⟩
abbrev main_call7_v2 : Ref sig .tc := ⟨.hbm, 439, rfl⟩
abbrev main_call7_v3 : Ref sig .tc := ⟨.hbm, 440, rfl⟩
abbrev main_call7_v4 : Ref sig .tc := ⟨.hbm, 441, rfl⟩
abbrev main_call7_cst : Ref sig .tc := ⟨.hbm, 442, rfl⟩
abbrev main_call7_v5 : Ref sig .tc := ⟨.hbm, 443, rfl⟩
abbrev main_call7_v6 : Ref sig .tc := ⟨.hbm, 444, rfl⟩
abbrev main_call7_cst_0 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_cst_60 : Ref sig .tc := ⟨.hbm, 452, rfl⟩
abbrev main_v315 : Ref sig .tc := ⟨.hbm, 453, rfl⟩
abbrev main_v316 : Ref sig .tc := ⟨.hbm, 454, rfl⟩
abbrev main_cst_61 : Ref sig .tc := ⟨.hbm, 455, rfl⟩
abbrev main_v317 : Ref sig .tc := ⟨.hbm, 456, rfl⟩
abbrev main_v318 : Ref sig .tc := ⟨.hbm, 457, rfl⟩
abbrev main_c_62 : Ref sig .tc := ⟨.hbm, 458, rfl⟩
abbrev main_v319 : Ref sig .tc := ⟨.hbm, 459, rfl⟩
abbrev main_v320 : Ref sig .tc := ⟨.hbm, 460, rfl⟩
abbrev main_c_63 : Ref sig .tc := ⟨.hbm, 461, rfl⟩
abbrev main_v321 : Ref sig .tc := ⟨.hbm, 462, rfl⟩
abbrev main_v322 : Ref sig .tc := ⟨.hbm, 463, rfl⟩
abbrev main_v323 : Ref sig .tc := ⟨.hbm, 464, rfl⟩
abbrev main_v324 : Ref sig .tc := ⟨.hbm, 465, rfl⟩
abbrev main_v325 : Ref sig .tc := ⟨.hbm, 466, rfl⟩
abbrev main_v326 : Ref sig .tc := ⟨.hbm, 467, rfl⟩
abbrev main_v327 : Ref sig .tc := ⟨.hbm, 468, rfl⟩
abbrev main_v328 : Ref sig .tc := ⟨.hbm, 469, rfl⟩
abbrev main_cst_64 : Ref sig .tc := ⟨.hbm, 470, rfl⟩
abbrev main_v329 : Ref sig .tc := ⟨.hbm, 471, rfl⟩
abbrev main_v330 : Ref sig .tc := ⟨.hbm, 472, rfl⟩
abbrev main_v331 : Ref sig .tc := ⟨.hbm, 473, rfl⟩
abbrev main_v332 : Ref sig .tc := ⟨.hbm, 474, rfl⟩
abbrev main_v333 : Ref sig .tc := ⟨.hbm, 475, rfl⟩
abbrev main_v334 : Ref sig .tc := ⟨.hbm, 476, rfl⟩
abbrev main_v335 : Ref sig .tc := ⟨.hbm, 477, rfl⟩
abbrev main_c_65 : Ref sig .tc := ⟨.hbm, 478, rfl⟩
abbrev main_v336 : Ref sig .tc := ⟨.hbm, 479, rfl⟩
abbrev main_v337 : Ref sig .tc := ⟨.hbm, 480, rfl⟩
abbrev main_c_66 : Ref sig .tc := ⟨.hbm, 481, rfl⟩
abbrev main_v338 : Ref sig .tc := ⟨.hbm, 482, rfl⟩
abbrev main_v339 : Ref sig .tc := ⟨.hbm, 483, rfl⟩
abbrev main_v340 : Ref sig .tc := ⟨.hbm, 484, rfl⟩
abbrev main_v341 : Ref sig .tc := ⟨.hbm, 485, rfl⟩
abbrev main_v342 : Ref sig .tc := ⟨.hbm, 486, rfl⟩
abbrev main_v343 : Ref sig .tc := ⟨.hbm, 487, rfl⟩
abbrev main_v344 : Ref sig .tc := ⟨.hbm, 488, rfl⟩
abbrev main_v345 : Ref sig .tc := ⟨.hbm, 489, rfl⟩
abbrev main_cst_67 : Ref sig .tc := ⟨.hbm, 490, rfl⟩
abbrev main_v346 : Ref sig .tc := ⟨.hbm, 491, rfl⟩
abbrev main_v347 : Ref sig .tc := ⟨.hbm, 492, rfl⟩
abbrev main_v348 : Ref sig .tc := ⟨.hbm, 493, rfl⟩
abbrev main_v349 : Ref sig .tc := ⟨.hbm, 494, rfl⟩
abbrev main_v350 : Ref sig .tc := ⟨.hbm, 495, rfl⟩
abbrev main_v351 : Ref sig .tc := ⟨.hbm, 496, rfl⟩
abbrev main_call8_v0 : Ref sig .tc := ⟨.hbm, 497, rfl⟩
abbrev main_call8_v1 : Ref sig .tc := ⟨.hbm, 498, rfl⟩
abbrev main_call8_c : Ref sig .tc := ⟨.hbm, 499, rfl⟩
abbrev main_call8_v2 : Ref sig .tc := ⟨.hbm, 500, rfl⟩
abbrev main_call8_v3 : Ref sig .tc := ⟨.hbm, 501, rfl⟩
abbrev main_call8_v4 : Ref sig .tc := ⟨.hbm, 502, rfl⟩
abbrev main_call8_cst : Ref sig .tc := ⟨.hbm, 503, rfl⟩
abbrev main_call8_v5 : Ref sig .tc := ⟨.hbm, 504, rfl⟩
abbrev main_call8_v6 : Ref sig .tc := ⟨.hbm, 505, rfl⟩
abbrev main_call8_cst_0 : Ref sig .tc := ⟨.hbm, 506, rfl⟩
abbrev main_v352 : Ref sig .tc := ⟨.hbm, 507, rfl⟩
abbrev main_v353 : Ref sig .tc := ⟨.hbm, 508, rfl⟩
abbrev main_v354 : Ref sig .tc := ⟨.hbm, 509, rfl⟩
abbrev main_v355 : Ref sig .tc := ⟨.hbm, 510, rfl⟩
abbrev main_v356 : Ref sig .tc := ⟨.hbm, 511, rfl⟩
abbrev main_v357 : Ref sig .tc := ⟨.hbm, 512, rfl⟩
abbrev main_cst_68 : Ref sig .tc := ⟨.hbm, 513, rfl⟩
abbrev main_v358 : Ref sig .tc := ⟨.hbm, 514, rfl⟩
abbrev main_v359 : Ref sig .tc := ⟨.hbm, 515, rfl⟩
abbrev main_cst_69 : Ref sig .tc := ⟨.hbm, 516, rfl⟩
abbrev main_v360 : Ref sig .tc := ⟨.hbm, 517, rfl⟩
abbrev main_v361 : Ref sig .tc := ⟨.hbm, 518, rfl⟩
abbrev main_v362 : Ref sig .tc := ⟨.hbm, 519, rfl⟩
abbrev main_v363 : Ref sig .tc := ⟨.hbm, 520, rfl⟩
abbrev main_v364 : Ref sig .tc := ⟨.hbm, 521, rfl⟩
abbrev main_v365 : Ref sig .tc := ⟨.hbm, 522, rfl⟩
abbrev main_v366 : Ref sig .tc := ⟨.hbm, 523, rfl⟩
abbrev main_v367 : Ref sig .tc := ⟨.hbm, 524, rfl⟩
abbrev main_v368 : Ref sig .tc := ⟨.hbm, 525, rfl⟩
abbrev main_v369 : Ref sig .tc := ⟨.hbm, 526, rfl⟩
abbrev main_v370 : Ref sig .tc := ⟨.hbm, 527, rfl⟩
abbrev main_v371 : Ref sig .tc := ⟨.hbm, 528, rfl⟩
abbrev main_v372 : Ref sig .tc := ⟨.hbm, 529, rfl⟩
abbrev main_v373 : Ref sig .tc := ⟨.hbm, 530, rfl⟩
abbrev main_v374 : Ref sig .tc := ⟨.hbm, 531, rfl⟩
abbrev main_v375 : Ref sig .tc := ⟨.hbm, 532, rfl⟩
abbrev main_v376 : Ref sig .tc := ⟨.hbm, 533, rfl⟩
abbrev main_v377 : Ref sig .tc := ⟨.hbm, 534, rfl⟩
abbrev main_v378 : Ref sig .tc := ⟨.hbm, 535, rfl⟩
abbrev main_v379 : Ref sig .tc := ⟨.hbm, 536, rfl⟩
abbrev main_cst_70 : Ref sig .tc := ⟨.hbm, 537, rfl⟩
abbrev main_v380 : Ref sig .tc := ⟨.hbm, 538, rfl⟩
abbrev main_v381 : Ref sig .tc := ⟨.hbm, 539, rfl⟩
abbrev main_cst_71 : Ref sig .tc := ⟨.hbm, 540, rfl⟩
abbrev main_v382 : Ref sig .tc := ⟨.hbm, 541, rfl⟩
abbrev main_v383 : Ref sig .tc := ⟨.hbm, 542, rfl⟩
abbrev main_v384 : Ref sig .tc := ⟨.hbm, 543, rfl⟩
abbrev main_v385 : Ref sig .tc := ⟨.hbm, 544, rfl⟩
abbrev main_cst_72 : Ref sig .tc := ⟨.hbm, 545, rfl⟩
abbrev main_v386 : Ref sig .tc := ⟨.hbm, 546, rfl⟩
abbrev main_v387 : Ref sig .tc := ⟨.hbm, 547, rfl⟩
abbrev main_cst_73 : Ref sig .tc := ⟨.hbm, 548, rfl⟩
abbrev main_v388 : Ref sig .tc := ⟨.hbm, 549, rfl⟩
abbrev main_v389 : Ref sig .tc := ⟨.hbm, 550, rfl⟩
abbrev main_c_74 : Ref sig .tc := ⟨.hbm, 551, rfl⟩
abbrev main_call9_call0_cst : Ref sig .tc := ⟨.hbm, 552, rfl⟩
abbrev main_call9_call0_v0 : Ref sig .tc := ⟨.hbm, 553, rfl⟩
abbrev main_call9_call0_v1 : Ref sig .tc := ⟨.hbm, 554, rfl⟩
abbrev main_call9_call0_cst_0 : Ref sig .tc := ⟨.hbm, 555, rfl⟩
abbrev main_call9_call0_v2 : Ref sig .tc := ⟨.hbm, 556, rfl⟩
abbrev main_call9_call0_v3 : Ref sig .tc := ⟨.hbm, 557, rfl⟩
abbrev main_call9_call0_v4 : Ref sig .tc := ⟨.hbm, 558, rfl⟩
abbrev main_call9_call0_v5 : Ref sig .tc := ⟨.hbm, 559, rfl⟩
abbrev main_call9_call0_v6 : Ref sig .tc := ⟨.hbm, 560, rfl⟩
abbrev main_call9_call0_v7 : Ref sig .tc := ⟨.hbm, 561, rfl⟩
abbrev main_call9_call0_cst_1 : Ref sig .tc := ⟨.hbm, 562, rfl⟩
abbrev main_call9_call0_v8 : Ref sig .tc := ⟨.hbm, 563, rfl⟩
abbrev main_call9_call0_cst_2 : Ref sig .tc := ⟨.hbm, 564, rfl⟩
abbrev main_call9_call0_v9 : Ref sig .tc := ⟨.hbm, 565, rfl⟩
abbrev main_call9_call0_v10 : Ref sig .tc := ⟨.hbm, 566, rfl⟩
abbrev main_call9_call0_v11 : Ref sig .tc := ⟨.hbm, 567, rfl⟩
abbrev main_call9_call0_v12 : Ref sig .tc := ⟨.hbm, 568, rfl⟩
abbrev main_call9_call0_cst_3 : Ref sig .tc := ⟨.hbm, 569, rfl⟩
abbrev main_call9_call0_v13 : Ref sig .tc := ⟨.hbm, 570, rfl⟩
abbrev main_call9_call0_cst_4 : Ref sig .tc := ⟨.hbm, 571, rfl⟩
abbrev main_call9_call0_call0_v0 : Ref sig .tc := ⟨.hbm, 572, rfl⟩
abbrev main_call9_call0_call0_v1 : Ref sig .tc := ⟨.hbm, 573, rfl⟩
abbrev main_call9_v0 : Ref sig .tc := ⟨.hbm, 574, rfl⟩
abbrev main_v390 : Ref sig .tc := ⟨.hbm, 575, rfl⟩
abbrev main_v391 : Ref sig .tc := ⟨.hbm, 576, rfl⟩
abbrev main_v392 : Ref sig .tc := ⟨.hbm, 577, rfl⟩
abbrev main_v393 : Ref sig .tc := ⟨.hbm, 578, rfl⟩
abbrev main_v394 : Ref sig .tc := ⟨.hbm, 579, rfl⟩
abbrev main_v395 : Ref sig .tc := ⟨.hbm, 580, rfl⟩
abbrev main_v396 : Ref sig .tc := ⟨.hbm, 581, rfl⟩
abbrev main_v397 : Ref sig .tc := ⟨.hbm, 582, rfl⟩
abbrev main_v398 : Ref sig .tc := ⟨.hbm, 583, rfl⟩
abbrev main_call10_cst : Ref sig .tc := ⟨.hbm, 584, rfl⟩
abbrev main_call10_v0 : Ref sig .tc := ⟨.hbm, 585, rfl⟩
abbrev main_v399 : Ref sig .tc := ⟨.hbm, 586, rfl⟩
abbrev main_v400 : Ref sig .tc := ⟨.hbm, 587, rfl⟩
abbrev main_v401 : Ref sig .tc := ⟨.hbm, 588, rfl⟩
abbrev main_v402 : Ref sig .tc := ⟨.hbm, 589, rfl⟩
abbrev main_v403 : Ref sig .tc := ⟨.hbm, 590, rfl⟩
abbrev main_v404 : Ref sig .tc := ⟨.hbm, 591, rfl⟩
abbrev main_v405 : Ref sig .tc := ⟨.hbm, 592, rfl⟩
abbrev main_cst_75 : Ref sig .tc := ⟨.hbm, 593, rfl⟩
abbrev main_v406 : Ref sig .tc := ⟨.hbm, 594, rfl⟩
abbrev main_v407 : Ref sig .tc := ⟨.hbm, 595, rfl⟩
abbrev main_cst_76 : Ref sig .tc := ⟨.hbm, 596, rfl⟩
abbrev main_v408 : Ref sig .tc := ⟨.hbm, 597, rfl⟩
abbrev main_v409 : Ref sig .tc := ⟨.hbm, 598, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S32768_S557056_d0 : Shape.Concatenates [S524288, S32768] S557056 0
  slices_S2x524288_S1x524288_1_0 : S2x524288.Slices ![1, 0] S1x524288
  bcast_S_S557056 : S_.BroadcastsInDim S557056 (![] : Fin 0 → Fin S557056.rank)
  bcast_S_S32768 : S_.BroadcastsInDim S32768 (![] : Fin 0 → Fin S32768.rank)
  bcast_S557056_S557056x1_0 : S557056.BroadcastsInDim S557056x1 (![0] : Fin 1 → Fin S557056x1.rank)
  slices_S2x2048_S1x2048_0_0 : S2x2048.Slices ![0, 0] S1x2048
  shapeCasts_S1x2048_S2048 : S1x2048.ShapeCasts S2048
  concatenates_S2048_S128_S2176_d0 : Shape.Concatenates [S2048, S128] S2176 0
  slices_S2x2048_S1x2048_1_0 : S2x2048.Slices ![1, 0] S1x2048
  bcast_S_S2176 : S_.BroadcastsInDim S2176 (![] : Fin 0 → Fin S2176.rank)
  bcast_S_S128 : S_.BroadcastsInDim S128 (![] : Fin 0 → Fin S128.rank)
  bcast_S2176_S2176x1_0 : S2176.BroadcastsInDim S2176x1 (![0] : Fin 1 → Fin S2176x1.rank)
  bcast_S557056x1_S557056x128_0_1 : S557056x1.BroadcastsInDim S557056x128 (![0, 1] : Fin 2 → Fin S557056x128.rank)
  bcast_S_S32768x128 : S_.BroadcastsInDim S32768x128 (![] : Fin 0 → Fin S32768x128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S2176x1_S2176x128_0_1 : S2176x1.BroadcastsInDim S2176x128 (![0, 1] : Fin 2 → Fin S2176x128.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  reducesTo_S128x128_S_d0_1 : S128x128.ReducesTo [0, 1] S_
  h_S_ : 0 < S_.numel
  shapeCasts_S32768x128_S256x128x128 : S32768x128.ShapeCasts S256x128x128
  bcast_S128x128_S256x128x128_1_2 : S128x128.BroadcastsInDim S256x128x128 (![1, 2] : Fin 2 → Fin S256x128x128.rank)
  bcast_S_S256x128x128 : S_.BroadcastsInDim S256x128x128 (![] : Fin 0 → Fin S256x128x128.rank)
  reducesTo_S256x128x128_S256_d1_2 : S256x128x128.ReducesTo [1, 2] S256
  bcast_S256_S256x1_0 : S256.BroadcastsInDim S256x1 (![0] : Fin 1 → Fin S256x1.rank)
  concatenates_S256x1_S256x1_S256x1_S256x1_S256x1_S256x1_S256x1_S256x7_d1 : Shape.Concatenates [S256x1, S256x1, S256x1, S256x1, S256x1, S256x1, S256x1] S256x7 1
  bcast_S_S1 : S_.BroadcastsInDim S1 (![] : Fin 0 → Fin S1.rank)
  concatenates_S1_S1_S1_S1_S1_S1_S1_S7_d0 : Shape.Concatenates [S1, S1, S1, S1, S1, S1, S1] S7 0
  bcast_S7_S1x7_1 : S7.BroadcastsInDim S1x7 (![1] : Fin 1 → Fin S1x7.rank)
  bcast_S1x7_S256x7_0_1 : S1x7.BroadcastsInDim S256x7 (![0, 1] : Fin 2 → Fin S256x7.rank)
  bcast_S_S256x1 : S_.BroadcastsInDim S256x1 (![] : Fin 0 → Fin S256x1.rank)
  bcast_S256x1_S256x7_0_1 : S256x1.BroadcastsInDim S256x7 (![0, 1] : Fin 2 → Fin S256x7.rank)
  reducesTo_S256x7_S7_d0 : S256x7.ReducesTo [0] S7
  bcast_S_S1x7 : S_.BroadcastsInDim S1x7 (![] : Fin 0 → Fin S1x7.rank)
  bcast_S15_S1x15_1 : S15.BroadcastsInDim S1x15 (![1] : Fin 1 → Fin S1x15.rank)
  bcast_S1x15_S256x15_0_1 : S1x15.BroadcastsInDim S256x15 (![0, 1] : Fin 2 → Fin S256x15.rank)
  bcast_S_S256x15 : S_.BroadcastsInDim S256x15 (![] : Fin 0 → Fin S256x15.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S32768_S557056x1_S557056_n_0_0_1_wf : ScatterDims.WF S32768 S557056x1 S557056 [] [0] [0] 1
  gather_S32768_S557056x1_S557056_n_0_n_n_0_1_1_wf : GatherDims.WF S32768 S557056x1 S557056 [] [0] [] [0] [] 1 ![1]
  scatter_S128_S2176x1_S2176_n_0_0_1_wf : ScatterDims.WF S128 S2176x1 S2176 [] [0] [0] 1
  gather_S128_S2176x1_S2176_n_0_n_n_0_1_1_wf : GatherDims.WF S128 S2176x1 S2176 [] [0] [] [0] [] 1 ![1]
  dot_S32768x128_S128x128_S32768x128_1_0_0_1_n_n_wf : DotDims.WF S32768x128 S128x128 S32768x128 [1] [0] [0] [1] [] []
  gather_S32768x128_S557056x1_S557056x128_1_0_n_n_0_1_1128_wf : GatherDims.WF S32768x128 S557056x1 S557056x128 [1] [0] [] [0] [] 1 ![1, 128]
  scatter_S32768x128_S557056x1_S557056x128_1_0_0_1_wf : ScatterDims.WF S32768x128 S557056x1 S557056x128 [1] [0] [0] 1
  dot_S128x128_S128x128_S128x128_1_0_0_1_n_n_wf : DotDims.WF S128x128 S128x128 S128x128 [1] [0] [0] [1] [] []
  gather_S128x128_S2176x1_S2176x128_1_0_n_n_0_1_1128_wf : GatherDims.WF S128x128 S2176x1 S2176x128 [1] [0] [] [0] [] 1 ![1, 128]
  scatter_S128x128_S2176x1_S2176x128_1_0_0_1_wf : ScatterDims.WF S128x128 S2176x1 S2176x128 [1] [0] [0] 1
  dot_S256x7_S7x15_S256x15_1_0_0_1_n_n_wf : DotDims.WF S256x7 S7x15 S256x15 [1] [0] [0] [1] [] []
  dot_S256x15_S15x1_S256x1_1_0_0_1_n_n_wf : DotDims.WF S256x15 S15x1 S256x1 [1] [0] [0] [1] [] []

variable [Facts₀]

def scatter_S32768_S557056x1_S557056_n_0_0_1 : ScatterDims S32768 S557056x1 S557056 where
  updateWindowDims := []
  insertedWindowDims := [0]
  scatterDimsToOperandDims := [0]
  indexVectorDim := 1
  wf := scatter_S32768_S557056x1_S557056_n_0_0_1_wf
def gather_S32768_S557056x1_S557056_n_0_n_n_0_1_1 : GatherDims S32768 S557056x1 S557056 where
  offsetDims := []
  collapsedSliceDims := [0]
  operandBatchingDims := []
  startIndicesBatchingDims := []
  startIndexMap := [0]
  indexVectorDim := 1
  sliceSizes := ![1]
  wf := gather_S32768_S557056x1_S557056_n_0_n_n_0_1_1_wf
def scatter_S128_S2176x1_S2176_n_0_0_1 : ScatterDims S128 S2176x1 S2176 where
  updateWindowDims := []
  insertedWindowDims := [0]
  scatterDimsToOperandDims := [0]
  indexVectorDim := 1
  wf := scatter_S128_S2176x1_S2176_n_0_0_1_wf
def gather_S128_S2176x1_S2176_n_0_n_n_0_1_1 : GatherDims S128 S2176x1 S2176 where
  offsetDims := []
  collapsedSliceDims := [0]
  operandBatchingDims := []
  startIndicesBatchingDims := []
  startIndexMap := [0]
  indexVectorDim := 1
  sliceSizes := ![1]
  wf := gather_S128_S2176x1_S2176_n_0_n_n_0_1_1_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def gather_S32768x128_S557056x1_S557056x128_1_0_n_n_0_1_1128 : GatherDims S32768x128 S557056x1 S557056x128 where
  offsetDims := [1]
  collapsedSliceDims := [0]
  operandBatchingDims := []
  startIndicesBatchingDims := []
  startIndexMap := [0]
  indexVectorDim := 1
  sliceSizes := ![1, 128]
  wf := gather_S32768x128_S557056x1_S557056x128_1_0_n_n_0_1_1128_wf
def scatter_S32768x128_S557056x1_S557056x128_1_0_0_1 : ScatterDims S32768x128 S557056x1 S557056x128 where
  updateWindowDims := [1]
  insertedWindowDims := [0]
  scatterDimsToOperandDims := [0]
  indexVectorDim := 1
  wf := scatter_S32768x128_S557056x1_S557056x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def gather_S128x128_S2176x1_S2176x128_1_0_n_n_0_1_1128 : GatherDims S128x128 S2176x1 S2176x128 where
  offsetDims := [1]
  collapsedSliceDims := [0]
  operandBatchingDims := []
  startIndicesBatchingDims := []
  startIndexMap := [0]
  indexVectorDim := 1
  sliceSizes := ![1, 128]
  wf := gather_S128x128_S2176x1_S2176x128_1_0_n_n_0_1_1128_wf
def scatter_S128x128_S2176x1_S2176x128_1_0_0_1 : ScatterDims S128x128 S2176x1 S2176x128 where
  updateWindowDims := [1]
  insertedWindowDims := [0]
  scatterDimsToOperandDims := [0]
  indexVectorDim := 1
  wf := scatter_S128x128_S2176x1_S2176x128_1_0_0_1_wf
def dot_S256x7_S7x15_S256x15_1_0_0_1_n_n : DotDims S256x7 S7x15 S256x15 where
  lhsContracting := [1]
  rhsContracting := [0]
  lhsNonContracting := [0]
  rhsNonContracting := [1]
  lhsBatch := []
  rhsBatch := []
  wf := dot_S256x7_S7x15_S256x15_1_0_0_1_n_n_wf
def dot_S256x15_S15x1_S256x1_1_0_0_1_n_n : DotDims S256x15 S15x1 S256x1 where
  lhsContracting := [1]
  rhsContracting := [0]
  lhsNonContracting := [0]
  rhsNonContracting := [1]
  lhsBatch := []
  rhsBatch := []
  wf := dot_S256x15_S15x1_S256x1_1_0_0_1_n_n_wf

class Facts : Prop extends Facts₀ where

variable [Facts]
-- ==== Proof.KReg0.lean ====
/- Region 0 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the matrix product of a 4096x128 row block with the 128x128 weight, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, fetched at every point) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, one block for the whole grid, fetched only where the index is first met) holds its
    block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4096x128 := Rect.unit (s := S4096x128) ![0, 0] S4096x128.size inb_S4096x128_S4096x128_0_0
abbrev r0_1 : Rect S128x128 := Rect.unit (s := S128x128) ![0, 0] S128x128.size inb_S128x128_S128x128_0_0

/-- Window 2's buffer after the body, from the input windows' blocks: its one store. -/
def out0_2 (x0 : Vec F S4096x128 .f32) (x1 : Vec F S128x128 .f32) : Vec F S4096x128 .f32 :=
  View.canon [⟨r0_0, k0_pay1 (View.ld x0 r0_0) (View.ld x1 r0_1)⟩]

/-- The one store is the whole buffer, so it covers it. -/
theorem cover0_2 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out0_2` of the inputs'. -/
theorem sound_kernel0 (c : Dev nD) (E : Set ℕ) (i : grid0.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.KF

end
-- ==== Proof.KReg1.lean ====
/- Region 1 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the bias added to a 4096x128 row block, and the 32x128 block of traces, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block, fetched at every point) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, one block for the whole grid) holds its block at every point, fetched there or
    not: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the 128x128 identity, one block for the whole grid) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S4096x128 := Rect.unit (s := S4096x128) ![0, 0] S4096x128.size inb_S4096x128_S4096x128_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0
abbrev r1_4 : Rect S32x128 := Rect.unit (s := S32x128) ![0, 0] S32x128.size inb_S32x128_S32x128_0_0

/-- Window 3's buffer after the body, from the input windows' blocks: its one store. -/
def out1_3 (x0 : Vec F S4096x128 .f32) (x1 : Vec F S1x128 .f32) : Vec F S4096x128 .f32 :=
  View.canon [⟨r1_0, k1_pay1 (View.ld x0 r1_0) (View.ld x1 r1_1)⟩]

/-- Window 4's buffer after the body, from the input windows' blocks: its one store. -/
def out1_4 (x0 : Vec F S4096x128 .f32) (x1 : Vec F S1x128 .f32) (x2 : Vec F S128x128 .f32) : Vec F S32x128 .f32 :=
  View.canon [⟨r1_4, k1_pay2 (View.ld x0 r1_0) (View.ld x1 r1_1) (View.ld x2 r1_2)⟩]

/-- Each store is its whole buffer, so it covers it. -/
theorem cover1_3 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y
theorem cover1_4 (p0 : Vec F S32x128 .f32) (y : S32x128.Idx) :
    ∃ pc ∈ ([⟨r1_4, p0⟩] : List (View.Piece (Elt F) S32x128 .f32)), y ∈ pc.1.set :=
  View.cover_of_tiled [⟨r1_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out1_3`, `out1_4` of the inputs'. -/
theorem sound_kernel1 (c : Dev nD) (E : Set ℕ) (i : grid1.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__bias_trace_kernel i arg1 harg1 arg2 harg2 arg3 harg3 arg4 harg4 arg5 harg5) K := by
  simp only [cc1__bias_trace_kernel_eq_skeleton]; unfold cc1__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and each output's at `out1_W` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.KF

end
-- ==== Proof.KReg2.lean ====
/- Region 2 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the matrix product of a 4096x128 row block with the 128x128 weight, at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block, fetched at every point) holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight, one block for the whole grid, fetched only where the index is first met) holds its
    block at every point, fetched there or not: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S4096x128 := Rect.unit (s := S4096x128) ![0, 0] S4096x128.size inb_S4096x128_S4096x128_0_0
abbrev r2_1 : Rect S128x128 := Rect.unit (s := S128x128) ![0, 0] S128x128.size inb_S128x128_S128x128_0_0

/-- Window 2's buffer after the body, from the input windows' blocks: its one store. -/
def out2_2 (x0 : Vec F S4096x128 .f32) (x1 : Vec F S128x128 .f32) : Vec F S4096x128 .f32 :=
  View.canon [⟨r2_0, k2_pay1 (View.ld x0 r2_0) (View.ld x1 r2_1)⟩]

/-- The one store is the whole buffer, so it covers it. -/
theorem cover2_2 (p0 : Vec F S4096x128 .f32) (y : S4096x128.Idx) :
    ∃ pc ∈ ([⟨r2_0, p0⟩] : List (View.Piece (Elt F) S4096x128 .f32)), y ∈ pc.1.set :=
  View.cover_of_tiled [⟨r2_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out2_2` of the inputs'. -/
theorem sound_kernel2 (c : Dev nD) (E : Set ℕ) (i : grid2.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.KF

end
-- ==== Proof.KReg3.lean ====
/- Region 3 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: the bias added to a 4096x128 row block, and the 32x128 block of traces, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block, fetched at every point) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row, one block for the whole grid) holds its block at every point, fetched there or
    not: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the 128x128 identity, one block for the whole grid) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S4096x128 := Rect.unit (s := S4096x128) ![0, 0] S4096x128.size inb_S4096x128_S4096x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0
abbrev r3_4 : Rect S32x128 := Rect.unit (s := S32x128) ![0, 0] S32x128.size inb_S32x128_S32x128_0_0

/-- Window 3's buffer after the body, from the input windows' blocks: its one store. -/
def out3_3 (x0 : Vec F S4096x128 .f32) (x1 : Vec F S1x128 .f32) : Vec F S4096x128 .f32 :=
  View.canon [⟨r3_0, k3_pay1 (View.ld x0 r3_0) (View.ld x1 r3_1)⟩]

/-- Window 4's buffer after the body, from the input windows' blocks: its one store. -/
def out3_4 (x0 : Vec F S4096x128 .f32) (x1 : Vec F S1x128 .f32) (x2 : Vec F S128x128 .f32) : Vec F S32x128 .f32 :=
  View.canon [⟨r3_4, k3_pay2 (View.ld x0 r3_0) (View.ld x1 r3_1) (View.ld x2 r3_2)⟩]

/-- Each store is its whole buffer, so it covers it. -/
theorem cover3_3 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y
theorem cover3_4 (p0 : Vec F S32x128 .f32) (y : S32x128.Idx) :
    ∃ pc ∈ ([⟨r3_4, p0⟩] : List (View.Piece (Elt F) S32x128 .f32)), y ∈ pc.1.set :=
  View.cover_of_tiled [⟨r3_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out3_3`, `out3_4` of the inputs'. -/
theorem sound_kernel3 (c : Dev nD) (E : Set ℕ) (i : grid3.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__bias_trace_kernel i arg1 harg1 arg2 harg2 arg3 harg3 arg4 harg4 arg5 harg5) K := by
  simp only [cc3__bias_trace_kernel_eq_skeleton]; unfold cc3__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at point
    `t` each input's buffer at its block and each output's at `out3_W` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.KF

end
-- ==== Proof.KReg4.lean ====
/- Region 4 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4: the matrix product of a 4096x128 row block with the 128x128 weight, at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the row block, fetched at every point) holds its block at every point, for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weight, one block for the whole grid, fetched only where the index is first met) holds its
    block at every point, fetched there or not: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S4096x128 := Rect.unit (s := S4096x128) ![0, 0] S4096x128.size inb_S4096x128_S4096x128_0_0
abbrev r4_1 : Rect S128x128 := Rect.unit (s := S128x128) ![0, 0] S128x128.size inb_S128x128_S128x128_0_0

/-- Window 2's buffer after the body, from the input windows' blocks: its one store. -/
def out4_2 (x0 : Vec F S4096x128 .f32) (x1 : Vec F S128x128 .f32) : Vec F S4096x128 .f32 :=
  View.canon [⟨r4_0, k4_pay1 (View.ld x0 r4_0) (View.ld x1 r4_1)⟩]

/-- The one store is the whole buffer, so it covers it. -/
theorem cover4_2 (p0 : Vec F S4096x128 .f32) (y : S4096x128.Idx) :
    ∃ pc ∈ ([⟨r4_0, p0⟩] : List (View.Piece (Elt F) S4096x128 .f32)), y ∈ pc.1.set :=
  View.cover_of_tiled [⟨r4_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out4_2` of the inputs'. -/
theorem sound_kernel4 (c : Dev nD) (E : Set ℕ) (i : grid4.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point
    `t` each input's buffer at its block and the output's at `out4_2` of the input blocks; the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.KF

end
-- ==== Proof.KReg5.lean ====
/- Region 5 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5: the bias added to a 4096x128 row block, and the 32x128 block of traces, at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block, fetched at every point) holds its block at every point, for any proof data whose
    array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the bias row, one block for the whole grid) holds its block at every point, fetched there or
    not: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the 128x128 identity, one block for the whole grid) likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S4096x128 := Rect.unit (s := S4096x128) ![0, 0] S4096x128.size inb_S4096x128_S4096x128_0_0
abbrev r5_1 : Rect S1x128 := Rect.unit (s := S1x128) ![0, 0] S1x128.size inb_S1x128_S1x128_0_0
abbrev r5_2 : Rect S128x128 := Rect.unit (s := S128x128) ![0, 0] S128x128.size inb_S128x128_S128x128_0_0
abbrev r5_4 : Rect S32x128 := Rect.unit (s := S32x128) ![0, 0] S32x128.size inb_S32x128_S32x128_0_0

/-- Window 3's buffer after the body, from the input windows' blocks: its one store. -/
def out5_3 (x0 : Vec F S4096x128 .f32) (x1 : Vec F S1x128 .f32) : Vec F S4096x128 .f32 :=
  View.canon [⟨r5_0, k5_pay1 (View.ld x0 r5_0) (View.ld x1 r5_1)⟩]

/-- Window 4's buffer after the body, from the input windows' blocks: its one store. -/
def out5_4 (x0 : Vec F S4096x128 .f32) (x1 : Vec F S1x128 .f32) (x2 : Vec F S128x128 .f32) : Vec F S32x128 .f32 :=
  View.canon [⟨r5_4, k5_pay2 (View.ld x0 r5_0) (View.ld x1 r5_1) (View.ld x2 r5_2)⟩]

/-- Each store is its whole buffer, so it covers it. -/
theorem cover5_3 (p0 : Vec F S4096x128 .f32) (y : S4096x128.Idx) :
    ∃ pc ∈ ([⟨r5_0, p0⟩] : List (View.Piece (Elt F) S4096x128 .f32)), y ∈ pc.1.set :=
  View.cover_of_tiled [⟨r5_0, p0⟩] S4096x128.size (by rfl) y
theorem cover5_4 (p0 : Vec F S32x128 .f32) (y : S32x128.Idx) :
    ∃ pc ∈ ([⟨r5_4, p0⟩] : List (View.Piece (Elt F) S32x128 .f32)), y ∈ pc.1.set :=
  View.cover_of_tiled [⟨r5_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out5_3`, `out5_4` of the inputs'. -/
theorem sound_kernel5 (c : Dev nD) (E : Set ℕ) (i : grid5.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1) ∗ owns (c : Thread nD τ) arg5 fullShare (out5_4 x0 x1 x2)) -∗ K ⟨⟩))
      ⊢ wp frame (wpE (defs₀ (F := F)) Variants.none c none) E (cc5__bias_trace_kernel i arg1 harg1 arg2 harg2 arg3 harg3 arg4 harg4 arg5 harg5) K := by
  simp only [cc5__bias_trace_kernel_eq_skeleton]; unfold cc5__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at point
    `t` each input's buffer at its block and each output's at `out5_W` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.KF

end
-- ==== Proof.KReg6.lean ====
/- Region 6 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6: the matrix product of a 4096x128 row block with the 128x128 weight, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block, fetched at every point) holds its block at every point, for any proof data whose
    array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the weight, one block for the whole grid, fetched only where the index is first met) holds its
    block at every point, fetched there or not: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S4096x128 := Rect.unit (s := S4096x128) ![0, 0] S4096x128.size inb_S4096x128_S4096x128_0_0
abbrev r6_1 : Rect S128x128 := Rect.unit (s := S128x128) ![0, 0] S128x128.size inb_S128x128_S128x128_0_0

/-- Window 2's buffer after the body, from the input windows' blocks: its one store. -/
def out6_2 (x0 : Vec F S4096x128 .f32) (x1 : Vec F S128x128 .f32) : Vec F S4096x128 .f32 :=
  View.canon [⟨r6_0, k6_pay1 (View.ld x0 r6_0) (View.ld x1 r6_1)⟩]

/-- The one store is the whole buffer, so it covers it. -/
theorem cover6_2 (p0 : Vec F S4096x128 .f32) (y : S4096x128.Idx) :
    ∃ pc ∈ ([⟨r6_0, p0⟩] : List (View.Piece (Elt F) S4096x128 .f32)), y ∈ pc.1.set :=
  View.cover_of_tiled [⟨r6_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out6_2` of the inputs'. -/
theorem sound_kernel6 (c : Dev nD) (E : Set ℕ) (i : grid6.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the scoped rest and the
    generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.KF

end
-- ==== Proof.KReg7.lean ====
/- Region 7 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7: the bias added to a 4096x128 row block, and the 32x128 block of traces, at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the row block, fetched at every point) holds its block at every point, for any proof data whose
    array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row, one block for the whole grid) holds its block at every point, fetched there or
    not: unfetched, the block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the 128x128 identity, one block for the whole grid) likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S4096x128 := Rect.unit (s := S4096x128) ![0, 0] S4096x128.size inb_S4096x128_S4096x128_0_0
abbrev r7_1 : Rect S1x128 := Rect.unit (s := S1x128) ![0, 0] S1x128.size inb_S1x128_S1x128_0_0
abbrev r7_2 : Rect S128x128 := Rect.unit (s := S128x128) ![0, 0] S128x128.size inb_S128x128_S128x128_0_0
abbrev r7_4 : Rect S32x128 := Rect.unit (s := S32x128) ![0, 0] S32x128.size inb_S32x128_S32x128_0_0

/-- Window 3's buffer after the body, from the input windows' blocks: its one store. -/
def out7_3 (x0 : Vec F S4096x128 .f32) (x1 : Vec F S1x128 .f32) : Vec F S4096x128 .f32 :=
  View.canon [⟨r7_0, k7_pay1 (View.ld x0 r7_0) (View.ld x1 r7_1)⟩]

/-- Window 4's buffer after the body, from the input windows' blocks: its one store. -/
def out7_4 (x0 : Vec F S4096x128 .f32) (x1 : Vec F S1x128 .f32) (x2 : Vec F S128x128 .f32) : Vec F S32x128 .f32 :=
  View.canon [⟨r7_4, k7_pay2 (View.ld x0 r7_0) (View.ld x1 r7_1) (View.ld x2 r7_2)⟩]

/-- Each store is its whole buffer, so it covers it. -/
theorem cover7_3 (p0 : Vec F S4096x128 .f32) (y : S4096x128.Idx) :
    ∃ pc ∈ ([⟨r7_0, p0⟩] : List (View.Piece (Elt F) S4096x128 .f32)), y ∈ pc.1.set :=
  View.cover_of_tiled [⟨r7_0, p0⟩] S4096x128.size (by rfl) y
theorem cover7_4 (p0 : Vec F S32x128 .f32) (y : S32x128.Idx) :
    ∃ pc ∈ ([⟨r7_4, p0⟩] : List (View.Piece (Elt F) S32x128 .f32)), y ∈ pc.1.set :=
  View.cover_of_tiled [⟨r7_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out7_3`, `out7_4` of the inputs'. -/
theorem sound_kernel7 (c : Dev nD) (E : Set ℕ) (i : grid7.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1) ∗ owns (c : Thread nD τ) arg5 fullShare (out7_4 x0 x1 x2)) -∗ K ⟨⟩))
      ⊢ wp frame (wpE (defs₀ (F := F)) Variants.none c none) E (cc7__bias_trace_kernel i arg1 harg1 arg2 harg2 arg3 harg3 arg4 harg4 arg5 harg5) K := by
  simp only [cc7__bias_trace_kernel_eq_skeleton]; unfold cc7__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_4 _)

/-! ## The pipeline's proof data -/

/-- The proof data of pipeline 7 on core `c`: the arrays as the region finds them (`V`); after the body at point
    `t` each input's buffer at its block and each output's at `out7_W` of the input blocks; the scoped rest and the
    generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t)
    | ⟨4, _⟩ => out7_4 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) := by dsimp only [dat7]
theorem after7_4 (c : Dev nD) (t : Fin cfg7.N) : (dat7 V c).after 4 t = out7_4 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so `sound_kernel7` applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.KF

end
-- ==== Proof.KReg8.lean ====
/- Region 8 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the matrix product of a 4096x128 row block with the 128x128 weight, at the entry contents `V` -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 (the row block, fetched at every point) holds its block at every point, for any proof data whose
    array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the weight, one block for the whole grid, fetched only where the index is first met) holds its
    block at every point, fetched there or not: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S4096x128 := Rect.unit (s := S4096x128) ![0, 0] S4096x128.size inb_S4096x128_S4096x128_0_0
abbrev r8_1 : Rect S128x128 := Rect.unit (s := S128x128) ![0, 0] S128x128.size inb_S128x128_S128x128_0_0

/-- Window 2's buffer after the body, from the input windows' blocks: its one store. -/
def out8_2 (x0 : Vec F S4096x128 .f32) (x1 : Vec F S128x128 .f32) : Vec F S4096x128 .f32 :=
  View.canon [⟨r8_0, k8_pay1 (View.ld x0 r8_0) (View.ld x1 r8_1)⟩]

/-- The one store is the whole buffer, so it covers it. -/
theorem cover8_2 (p0 : Vec F S4096x128 .f32) (y : S4096x128.Idx) :
    ∃ pc ∈ ([⟨r8_0, p0⟩] : List (View.Piece (Elt F) S4096x128 .f32)), y ∈ pc.1.set :=
  View.cover_of_tiled [⟨r8_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out8_2` of the inputs'. -/
theorem sound_kernel8 (c : Dev nD) (E : Set ℕ) (i : grid8.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of pipeline 8 on core `c`: the arrays as the region finds them (`V`); after the body at point
    `t` each input's buffer at its block and the output's at `out8_2` of the input blocks; the scoped rest and the
    generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.KF

end
-- ==== Proof.KReg9.lean ====
/- Region 9 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the bias added to a 4096x128 row block, and the 32x128 block of traces, at the entry contents `V` -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row block, fetched at every point) holds its block at every point, for any proof data whose
    array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the bias row, one block for the whole grid) holds its block at every point, fetched there or
    not: unfetched, the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2 (the 128x128 identity, one block for the whole grid) likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S4096x128 := Rect.unit (s := S4096x128) ![0, 0] S4096x128.size inb_S4096x128_S4096x128_0_0
abbrev r9_1 : Rect S1x128 := Rect.unit (s := S1x128) ![0, 0] S1x128.size inb_S1x128_S1x128_0_0
abbrev r9_2 : Rect S128x128 := Rect.unit (s := S128x128) ![0, 0] S128x128.size inb_S128x128_S128x128_0_0
abbrev r9_4 : Rect S32x128 := Rect.unit (s := S32x128) ![0, 0] S32x128.size inb_S32x128_S32x128_0_0

/-- Window 3's buffer after the body, from the input windows' blocks: its one store. -/
def out9_3 (x0 : Vec F S4096x128 .f32) (x1 : Vec F S1x128 .f32) : Vec F S4096x128 .f32 :=
  View.canon [⟨r9_0, k9_pay1 (View.ld x0 r9_0) (View.ld x1 r9_1)⟩]

/-- Window 4's buffer after the body, from the input windows' blocks: its one store. -/
def out9_4 (x0 : Vec F S4096x128 .f32) (x1 : Vec F S1x128 .f32) (x2 : Vec F S128x128 .f32) : Vec F S32x128 .f32 :=
  View.canon [⟨r9_4, k9_pay2 (View.ld x0 r9_0) (View.ld x1 r9_1) (View.ld x2 r9_2)⟩]

/-- Each store is its whole buffer, so it covers it. -/
theorem cover9_3 (p0 : Vec F S4096x128 .f32) (y : S4096x128.Idx) :
    ∃ pc ∈ ([⟨r9_0, p0⟩] : List (View.Piece (Elt F) S4096x128 .f32)), y ∈ pc.1.set :=
  View.cover_of_tiled [⟨r9_0, p0⟩] S4096x128.size (by rfl) y
theorem cover9_4 (p0 : Vec F S32x128 .f32) (y : S32x128.Idx) :
    ∃ pc ∈ ([⟨r9_4, p0⟩] : List (View.Piece (Elt F) S32x128 .f32)), y ∈ pc.1.set :=
  View.cover_of_tiled [⟨r9_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out9_3`, `out9_4` of the inputs'. -/
theorem sound_kernel9 (c : Dev nD) (E : Set ℕ) (i : grid9.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1) ∗ owns (c : Thread nD τ) arg5 fullShare (out9_4 x0 x1 x2)) -∗ K ⟨⟩))
      ⊢ wp frame (wpE (defs₀ (F := F)) Variants.none c none) E (cc9__bias_trace_kernel i arg1 harg1 arg2 harg2 arg3 harg3 arg4 harg4 arg5 harg5) K := by
  simp only [cc9__bias_trace_kernel_eq_skeleton]; unfold cc9__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover9_3 _)
  iexists _; isplitr
  swap; · iexact H4
  ipureintro
  exact View.read_writes_eq_canon _ _ _ (cover9_4 _)

/-! ## The pipeline's proof data -/

/-- The proof data of pipeline 9 on core `c`: the arrays as the region finds them (`V`); after the body at point
    `t` each input's buffer at its block and each output's at `out9_W` of the input blocks; the scoped rest and the
    generator register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t)
    | ⟨4, _⟩ => out9_4 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) := by dsimp only [dat9]
theorem after9_4 (c : Dev nD) (t : Fin cfg9.N) : (dat9 V c).after 4 t = out9_4 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.KF

end
-- ==== Proof.KReg10.lean ====
/- Region 10 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the matrix product of a 4096x128 row block with the 128x128 weight, at the entry contents `V` -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 (the row block, fetched at every point) holds its block at every point, for any proof data whose
    array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the weight, one block for the whole grid, fetched only where the index is first met) holds its
    block at every point, fetched there or not: unfetched, the block index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer whole -/

abbrev r10_0 : Rect S4096x128 := Rect.unit (s := S4096x128) ![0, 0] S4096x128.size inb_S4096x128_S4096x128_0_0
abbrev r10_1 : Rect S128x128 := Rect.unit (s := S128x128) ![0, 0] S128x128.size inb_S128x128_S128x128_0_0

/-- Window 2's buffer after the body, from the input windows' blocks: its one store. -/
def out10_2 (x0 : Vec F S4096x128 .f32) (x1 : Vec F S128x128 .f32) : Vec F S4096x128 .f32 :=
  View.canon [⟨r10_0, k10_pay1 (View.ld x0 r10_0) (View.ld x1 r10_1)⟩]

/-- The one store is the whole buffer, so it covers it. -/
theorem cover10_2 (p0 : Vec F S4096x128 .f32) (y : S4096x128.Idx) :
    ∃ pc ∈ ([⟨r10_0, p0⟩] : List (View.Piece (Elt F) S4096x128 .f32)), y ∈ pc.1.set :=
  View.cover_of_tiled [⟨r10_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out10_2` of the inputs'. -/
theorem sound_kernel10 (c : Dev nD) (E : Set ℕ) (i : grid10.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__matmul_kernel i arg1 harg1 arg2 harg2 arg3 harg3) K := by
  simp only [cc10__matmul_kernel_eq_skeleton]; unfold cc10__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point
    `t` each input's buffer at its block and the output's at `out10_2` of the input blocks; the scoped rest and the
    generator register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.KF

end
-- ==== Proof.KReg11.lean ====
/- Region 11 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11: the bias added to a 4096x128 row block, and the 32x128 block of traces, at the entry contents `V` -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 (the row block, fetched at every point) holds its block at every point, for any proof data whose
    array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1 (the bias row, one block for the whole grid) holds its block at every point, fetched there or
    not: unfetched, the block index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2 (the 128x128 identity, one block for the whole grid) likewise. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev r11_0 : Rect S4096x128 := Rect.unit (s := S4096x128) ![0, 0] S4096x128.size inb_S4096x128_S4096x128_0_0
abbrev r11_1 : Rect S1x128 := Rect.unit (s := S1x128) ![0, 0] S1x128.size inb_S1x128_S1x128_0_0
abbrev r11_2 : Rect S128x128 := Rect.unit (s := S128x128) ![0, 0] S128x128.size inb_S128x128_S128x128_0_0
abbrev r11_4 : Rect S32x128 := Rect.unit (s := S32x128) ![0, 0] S32x128.size inb_S32x128_S32x128_0_0

/-- Window 3's buffer after the body, from the input windows' blocks: its one store. -/
def out11_3 (x0 : Vec F S4096x128 .f32) (x1 : Vec F S1x128 .f32) : Vec F S4096x128 .f32 :=
  View.canon [⟨r11_0, k11_pay1 (View.ld x0 r11_0) (View.ld x1 r11_1)⟩]

/-- Window 4's buffer after the body, from the input windows' blocks: its one store. -/
def out11_4 (x0 : Vec F S4096x128 .f32) (x1 : Vec F S1x128 .f32) (x2 : Vec F S128x128 .f32) : Vec F S32x128 .f32 :=
  View.canon [⟨r11_4, k11_pay2 (View.ld x0 r11_0) (View.ld x1 r11_1) (View.ld x2 r11_2)⟩]

/-- Each store is its whole buffer, so it covers it. -/
theorem cover11_3 (p0 : Vec F S4096x128 .f32) (y : S4096x128.Idx) :
    ∃ pc ∈ ([⟨r11_0, p0⟩] : List (View.Piece (Elt F) S4096x128 .f32)), y ∈ pc.1.set :=
  View.cover_of_tiled [⟨r11_0, p0⟩] S4096x128.size (by rfl) y
theorem cover11_4 (p0 : Vec F S32x128 .f32) (y : S32x128.Idx) :
    ∃ pc ∈ ([⟨r11_4, p0⟩] : List (View.Piece (Elt F) S32x128 .f32)), y ∈ pc.1.set :=
  View.cover_of_tiled [⟨r11_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out11_3`, `out11_4` of the inputs'. -/
theorem sound_kernel11 (c : Dev nD) (E : Set ℕ) (i : grid11.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1) ∗ owns (c : Thread nD τ) arg5 fullShare (out11_4 x0 x1 x2)) -∗ K ⟨⟩))
      ⊢ wp frame (wpE (defs₀ (F := F)) Variants.none c none) E (cc11__bias_trace_kernel i arg1 harg1 arg2 harg2 arg3 harg3 arg4 harg4 arg5 harg5) K := by
  simp only [cc11__bias_trace_kernel_eq_skeleton]; unfold cc11__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11_3 _)
  iexists _; isplitr
  swap; · iexact H4
  ipureintro
  exact View.read_writes_eq_canon _ _ _ (cover11_4 _)

/-! ## The pipeline's proof data -/

/-- The proof data of pipeline 11 on core `c`: the arrays as the region finds them (`V`); after the body at point
    `t` each input's buffer at its block and each output's at `out11_W` of the input blocks; the scoped rest and the
    generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t)
    | ⟨4, _⟩ => out11_4 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) := by dsimp only [dat11]
theorem after11_4 (c : Dev nD) (t : Fin cfg11.N) : (dat11 V c).after 4 t = out11_4 (iblk11 V c 0 t) (iblk11 V c 1 t) (iblk11 V c 2 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' memrefs hold their blocks, so `sound_kernel11` applies; the invariant and the
    core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.KF

end
-- ==== Proof.KReg12.lean ====
/- Region 12 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 12: the matrix product of a 4096x128 row block with the 128x128 weight, at the entry contents `V` -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the row block, fetched at every point) holds its block at every point, for any proof data whose
    array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1 (the weight, one block for the whole grid, fetched only where the index is first met) holds its
    block at every point, fetched there or not: unfetched, the block index has not moved. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S4096x128 := Rect.unit (s := S4096x128) ![0, 0] S4096x128.size inb_S4096x128_S4096x128_0_0
abbrev r12_1 : Rect S128x128 := Rect.unit (s := S128x128) ![0, 0] S128x128.size inb_S128x128_S128x128_0_0

/-- Window 2's buffer after the body, from the input windows' blocks: its one store. -/
def out12_2 (x0 : Vec F S4096x128 .f32) (x1 : Vec F S128x128 .f32) : Vec F S4096x128 .f32 :=
  View.canon [⟨r12_0, k12_pay1 (View.ld x0 r12_0) (View.ld x1 r12_1)⟩]

/-- The one store is the whole buffer, so it covers it. -/
theorem cover12_2 (p0 : Vec F S4096x128 .f32) (y : S4096x128.Idx) :
    ∃ pc ∈ ([⟨r12_0, p0⟩] : List (View.Piece (Elt F) S4096x128 .f32)), y ∈ pc.1.set :=
  View.cover_of_tiled [⟨r12_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out12_2` of the inputs'. -/
theorem sound_kernel12 (c : Dev nD) (E : Set ℕ) (i : grid12.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays as the region finds them (`V`); after the body at point
    `t` each input's buffer at its block and the output's at `out12_2` of the input blocks; the scoped rest and the
    generator register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.KF

end
-- ==== Proof.KReg13.lean ====
/- Region 13 of the kernel program, at any float model `F` and any entry contents `V`: each window's block at a point,
   what the body leaves in each output window's buffer, the body's triple, the pipeline's proof data and the body obligation.
   The modules imported from `Gen` are generated. -/
import proofs.«156722_j77687368450207_1_alg».proof.Proof.Gen.KernelIdeal.Launch
import proofs.«156722_j77687368450207_1_alg».proof.Proof.Gen.KernelIdeal.Skeleton
import proofs.«156722_j77687368450207_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 13: the bias added to a 4096x128 row block, and the 32x128 block of traces, at the entry contents `V` -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0 (the row block, fetched at every point) holds its block at every point, for any proof data whose
    array is `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1 (the bias row, one block for the whole grid) holds its block at every point, fetched there or
    not: unfetched, the block index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2 (the 128x128 identity, one block for the whole grid) likewise. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer whole -/

abbrev r13_0 : Rect S4096x128 := Rect.unit (s := S4096x128) ![0, 0] S4096x128.size inb_S4096x128_S4096x128_0_0
abbrev r13_1 : Rect S1x128 := Rect.unit (s := S1x128) ![0, 0] S1x128.size inb_S1x128_S1x128_0_0
abbrev r13_2 : Rect S128x128 := Rect.unit (s := S128x128) ![0, 0] S128x128.size inb_S128x128_S128x128_0_0
abbrev r13_4 : Rect S32x128 := Rect.unit (s := S32x128) ![0, 0] S32x128.size inb_S32x128_S32x128_0_0

/-- Window 3's buffer after the body, from the input windows' blocks: its one store. -/
def out13_3 (x0 : Vec F S4096x128 .f32) (x1 : Vec F S1x128 .f32) : Vec F S4096x128 .f32 :=
  View.canon [⟨r13_0, k13_pay1 (View.ld x0 r13_0) (View.ld x1 r13_1)⟩]

/-- Window 4's buffer after the body, from the input windows' blocks: its one store. -/
def out13_4 (x0 : Vec F S4096x128 .f32) (x1 : Vec F S1x128 .f32) (x2 : Vec F S128x128 .f32) : Vec F S32x128 .f32 :=
  View.canon [⟨r13_4, k13_pay2 (View.ld x0 r13_0) (View.ld x1 r13_1) (View.ld x2 r13_2)⟩]

/-- Each store is its whole buffer, so it covers it. -/
theorem cover13_3 (p0 : Vec F S4096x128 .f32) (y : S4096x128.Idx) :
    ∃ pc ∈ ([⟨r13_0, p0⟩] : List (View.Piece (Elt F) S4096x128 .f32)), y ∈ pc.1.set :=
  View.cover_of_tiled [⟨r13_0, p0⟩] S4096x128.size (by rfl) y
theorem cover13_4 (p0 : Vec F S32x128 .f32) (y : S32x128.Idx) :
    ∃ pc ∈ ([⟨r13_4, p0⟩] : List (View.Piece (Elt F) S32x128 .f32)), y ∈ pc.1.set :=
  View.cover_of_tiled [⟨r13_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out13_3`, `out13_4` of the inputs'. -/
theorem sound_kernel13 (c : Dev nD) (E : Set ℕ) (i : grid13.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1) ∗ owns (c : Thread nD τ) arg5 fullShare (out13_4 x0 x1 x2)) -∗ K ⟨⟩))
      ⊢ wp frame (wpE (defs₀ (F := F)) Variants.none c none) E (cc13__bias_trace_kernel i arg1 harg1 arg2 harg2 arg3 harg3 arg4 harg4 arg5 harg5) K := by
  simp only [cc13__bias_trace_kernel_eq_skeleton]; unfold cc13__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover13_3 _)
  iexists _; isplitr
  swap; · iexact H4
  ipureintro
  exact View.read_writes_eq_canon _ _ _ (cover13_4 _)

/-! ## The pipeline's proof data -/

/-- The proof data of pipeline 13 on core `c`: the arrays as the region finds them (`V`); after the body at point
    `t` each input's buffer at its block and each output's at `out13_W` of the input blocks; the scoped rest and the
    generator register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t)
    | ⟨4, _⟩ => out13_4 (iblk13 V c 0 t) (iblk13 V c 1 t) (iblk13 V c 2 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) := by dsimp only [dat13]
theorem after13_4 (c : Dev nD) (t : Fin cfg13.N) : (dat13 V c).after 4 t = out13_4 (iblk13 V c 0 t) (iblk13 V c 1 t) (iblk13 V c 2 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' memrefs hold their blocks, so `sound_kernel13` applies; the invariant and the
    core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.KF

end
-- ==== Proof.KRun.lean ====
/-
  The run of the whole program as a chain of its host stretches and its fourteen pipelined regions: the contents of
  every unscoped buffer at each boundary as a fold from the launch memory (a stretch applies its operations; a region
  replaces its output arrays by what its grid points wrote back and leaves every other buffer alone), each region as a
  segment whose body obligation is the kernel's own triple, and the end state read back: every unscoped buffer holds
  the last fold, and no step of the fold touches an argument array.
-/
import proofs.«156722_j77687368450207_1_alg».proof.Proof.KReg0
import proofs.«156722_j77687368450207_1_alg».proof.Proof.KReg1
import proofs.«156722_j77687368450207_1_alg».proof.Proof.KReg2
import proofs.«156722_j77687368450207_1_alg».proof.Proof.KReg3
import proofs.«156722_j77687368450207_1_alg».proof.Proof.KReg4
import proofs.«156722_j77687368450207_1_alg».proof.Proof.KReg5
import proofs.«156722_j77687368450207_1_alg».proof.Proof.KReg6
import proofs.«156722_j77687368450207_1_alg».proof.Proof.KReg7
import proofs.«156722_j77687368450207_1_alg».proof.Proof.KReg8
import proofs.«156722_j77687368450207_1_alg».proof.Proof.KReg9
import proofs.«156722_j77687368450207_1_alg».proof.Proof.KReg10
import proofs.«156722_j77687368450207_1_alg».proof.Proof.KReg11
import proofs.«156722_j77687368450207_1_alg».proof.Proof.KReg12
import proofs.«156722_j77687368450207_1_alg».proof.Proof.KReg13
import proofs.«156722_j77687368450207_1_alg».proof.Proof.KHostFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
theorem W1_keep (c : Dev nD) (r : Ref sig .tc) (h : r ∉ Cert.KernelIdeal.GenP.hostOps0_W) :
    W1 m ρ c (Proc.devRef .tc r) = W0 m ρ c (Proc.devRef .tc r) :=
  StableHlo.after_of_writes_sub hostOps0 _ Cert.KernelIdeal.GenP.hostOps0_writes h
/-- After the stretch `hostOps0_1`. -/
abbrev W2 : Dev nD → Valuation τ sig (Elt F) := fun c => StableHlo.after hostOps0_1 (W1 m ρ c)
theorem W2_keep (c : Dev nD) (r : Ref sig .tc) (h : r ∉ Cert.KernelIdeal.GenP.hostOps0_1_W) :
    W2 m ρ c (Proc.devRef .tc r) = W1 m ρ c (Proc.devRef .tc r) :=
  StableHlo.after_of_writes_sub hostOps0_1 _ Cert.KernelIdeal.GenP.hostOps0_1_writes h
/-- After the stretch `hostOps0_2`. -/
abbrev W3 : Dev nD → Valuation τ sig (Elt F) := fun c => StableHlo.after hostOps0_2 (W2 m ρ c)
theorem W3_keep (c : Dev nD) (r : Ref sig .tc) (h : r ∉ Cert.KernelIdeal.GenP.hostOps0_2_W) :
    W3 m ρ c (Proc.devRef .tc r) = W2 m ρ c (Proc.devRef .tc r) :=
  StableHlo.after_of_writes_sub hostOps0_2 _ Cert.KernelIdeal.GenP.hostOps0_2_writes h
/-- After the stretch `hostOps0_3`. -/
abbrev W4 : Dev nD → Valuation τ sig (Elt F) := fun c => StableHlo.after hostOps0_3 (W3 m ρ c)
theorem W4_keep (c : Dev nD) (r : Ref sig .tc) (h : r ∉ Cert.KernelIdeal.GenP.hostOps0_3_W) :
    W4 m ρ c (Proc.devRef .tc r) = W3 m ρ c (Proc.devRef .tc r) :=
  StableHlo.after_of_writes_sub hostOps0_3 _ Cert.KernelIdeal.GenP.hostOps0_3_writes h
/-- After the stretch `hostOps0_4`. -/
abbrev W5 : Dev nD → Valuation τ sig (Elt F) := fun c => StableHlo.after hostOps0_4 (W4 m ρ c)
theorem W5_keep (c : Dev nD) (r : Ref sig .tc) (h : r ∉ Cert.KernelIdeal.GenP.hostOps0_4_W) :
    W5 m ρ c (Proc.devRef .tc r) = W4 m ρ c (Proc.devRef .tc r) :=
  StableHlo.after_of_writes_sub hostOps0_4 _ Cert.KernelIdeal.GenP.hostOps0_4_writes h
/-- What region 0 is entered from, read at the TensorCore's references. -/
abbrev V5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the stretch `hostOps1`. -/
abbrev W7 : Dev nD → Valuation τ sig (Elt F) := fun c => StableHlo.after hostOps1 (W6 m ρ c)
theorem W7_keep (c : Dev nD) (r : Ref sig .tc) (h : r ∉ Cert.KernelIdeal.GenP.hostOps1_W) :
    W7 m ρ c (Proc.devRef .tc r) = W6 m ρ c (Proc.devRef .tc r) :=
  StableHlo.after_of_writes_sub hostOps1 _ Cert.KernelIdeal.GenP.hostOps1_writes h
/-- What region 1 is entered from, read at the TensorCore's references. -/
abbrev V7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the stretch `hostOps2`. -/
abbrev W9 : Dev nD → Valuation τ sig (Elt F) := fun c => StableHlo.after hostOps2 (W8 m ρ c)
theorem W9_keep (c : Dev nD) (r : Ref sig .tc) (h : r ∉ Cert.KernelIdeal.GenP.hostOps2_W) :
    W9 m ρ c (Proc.devRef .tc r) = W8 m ρ c (Proc.devRef .tc r) :=
  StableHlo.after_of_writes_sub hostOps2 _ Cert.KernelIdeal.GenP.hostOps2_writes h
/-- After the stretch `hostOps2_1`. -/
abbrev W10 : Dev nD → Valuation τ sig (Elt F) := fun c => StableHlo.after hostOps2_1 (W9 m ρ c)
theorem W10_keep (c : Dev nD) (r : Ref sig .tc) (h : r ∉ Cert.KernelIdeal.GenP.hostOps2_1_W) :
    W10 m ρ c (Proc.devRef .tc r) = W9 m ρ c (Proc.devRef .tc r) :=
  StableHlo.after_of_writes_sub hostOps2_1 _ Cert.KernelIdeal.GenP.hostOps2_1_writes h
/-- What region 2 is entered from, read at the TensorCore's references. -/
abbrev V10 : (c : Dev nD) → (b : Ref sig .tc) → Buf (Elt F) ((c : Thread nD τ).loc b) := fun c b => W10 m ρ c b
/-- At region 2's exit: its arrays at what the pipeline leaves, every other buffer as entered. -/
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
/-- After the stretch `hostOps3`. -/
abbrev W12 : Dev nD → Valuation τ sig (Elt F) := fun c => StableHlo.after hostOps3 (W11 m ρ c)
theorem W12_keep (c : Dev nD) (r : Ref sig .tc) (h : r ∉ Cert.KernelIdeal.GenP.hostOps3_W) :
    W12 m ρ c (Proc.devRef .tc r) = W11 m ρ c (Proc.devRef .tc r) :=
  StableHlo.after_of_writes_sub hostOps3 _ Cert.KernelIdeal.GenP.hostOps3_writes h
/-- What region 3 is entered from, read at the TensorCore's references. -/
abbrev V12 : (c : Dev nD) → (b : Ref sig .tc) → Buf (Elt F) ((c : Thread nD τ).loc b) := fun c b => W12 m ρ c b
/-- At region 3's exit: its arrays at what the pipeline leaves, every other buffer as entered. -/
def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
abbrev V13 : (c : Dev nD) → (b : Ref sig .tc) → Buf (Elt F) ((c : Thread nD τ).loc b) := fun c b => W13 m ρ c b
theorem hF3 (c : Dev nD) (w : Fin cfg3.W) : (dat3 (V12 m ρ) c).arrAt w cfg3.N = V13 m ρ c (Pipeline.arrRef spec3 w) :=
  (W13_arr m ρ c w).symm
theorem hrest3 (c : Dev nD) : ∀ b, b ∉ Finset.univ.image (Pipeline.arrRef spec3) → V13 m ρ c b = V12 m ρ c b :=
  fun b hb => W13_of_ne m ρ c b fun w e => hb (Finset.mem_image.mpr ⟨w, Finset.mem_univ _, e⟩)
/-- After the stretch `hostOps4`. -/
abbrev W14 : Dev nD → Valuation τ sig (Elt F) := fun c => StableHlo.after hostOps4 (W13 m ρ c)
theorem W14_keep (c : Dev nD) (r : Ref sig .tc) (h : r ∉ Cert.KernelIdeal.GenP.hostOps4_W) :
    W14 m ρ c (Proc.devRef .tc r) = W13 m ρ c (Proc.devRef .tc r) :=
  StableHlo.after_of_writes_sub hostOps4 _ Cert.KernelIdeal.GenP.hostOps4_writes h
/-- After the stretch `hostOps4_1`. -/
abbrev W15 : Dev nD → Valuation τ sig (Elt F) := fun c => StableHlo.after hostOps4_1 (W14 m ρ c)
theorem W15_keep (c : Dev nD) (r : Ref sig .tc) (h : r ∉ Cert.KernelIdeal.GenP.hostOps4_1_W) :
    W15 m ρ c (Proc.devRef .tc r) = W14 m ρ c (Proc.devRef .tc r) :=
  StableHlo.after_of_writes_sub hostOps4_1 _ Cert.KernelIdeal.GenP.hostOps4_1_writes h
/-- What region 4 is entered from, read at the TensorCore's references. -/
abbrev V15 : (c : Dev nD) → (b : Ref sig .tc) → Buf (Elt F) ((c : Thread nD τ).loc b) := fun c b => W15 m ρ c b
/-- At region 4's exit: its arrays at what the pipeline leaves, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev V16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = V16 m ρ c (Pipeline.arrRef spec4 w) :=
  (W16_arr m ρ c w).symm
theorem hrest4 (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)
/-- After the stretch `hostOps5`. -/
abbrev W17 : Dev nD → Valuation τ sig (Elt F) := fun c => StableHlo.after hostOps5 (W16 m ρ c)
theorem W17_keep (c : Dev nD) (r : Ref sig .tc) (h : r ∉ Cert.KernelIdeal.GenP.hostOps5_W) :
    W17 m ρ c (Proc.devRef .tc r) = W16 m ρ c (Proc.devRef .tc r) :=
  StableHlo.after_of_writes_sub hostOps5 _ Cert.KernelIdeal.GenP.hostOps5_writes h
/-- What region 5 is entered from, read at the TensorCore's references. -/
abbrev V17 : (c : Dev nD) → (b : Ref sig .tc) → Buf (Elt F) ((c : Thread nD τ).loc b) := fun c b => W17 m ρ c b
/-- At region 5's exit: its arrays at what the pipeline leaves, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev V18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- After the stretch `hostOps6`. -/
abbrev W19 : Dev nD → Valuation τ sig (Elt F) := fun c => StableHlo.after hostOps6 (W18 m ρ c)
theorem W19_keep (c : Dev nD) (r : Ref sig .tc) (h : r ∉ Cert.KernelIdeal.GenP.hostOps6_W) :
    W19 m ρ c (Proc.devRef .tc r) = W18 m ρ c (Proc.devRef .tc r) :=
  StableHlo.after_of_writes_sub hostOps6 _ Cert.KernelIdeal.GenP.hostOps6_writes h
/-- After the stretch `hostOps6_1`. -/
abbrev W20 : Dev nD → Valuation τ sig (Elt F) := fun c => StableHlo.after hostOps6_1 (W19 m ρ c)
theorem W20_keep (c : Dev nD) (r : Ref sig .tc) (h : r ∉ Cert.KernelIdeal.GenP.hostOps6_1_W) :
    W20 m ρ c (Proc.devRef .tc r) = W19 m ρ c (Proc.devRef .tc r) :=
  StableHlo.after_of_writes_sub hostOps6_1 _ Cert.KernelIdeal.GenP.hostOps6_1_writes h
/-- What region 6 is entered from, read at the TensorCore's references. -/
abbrev V20 : (c : Dev nD) → (b : Ref sig .tc) → Buf (Elt F) ((c : Thread nD τ).loc b) := fun c b => W20 m ρ c b
/-- At region 6's exit: its arrays at what the pipeline leaves, every other buffer as entered. -/
def W21 (c : Dev nD) : Valuation τ sig (Elt F) :=
  Pipeline.withArrays spec6 c (W20 m ρ c) fun w => (dat6 (V20 m ρ) c).arrAt w cfg6.N
theorem W21_arr (c : Dev nD) (w : Fin cfg6.W) :
    W21 m ρ c (Proc.devRef .tc (Pipeline.arrRef spec6 w)) = (dat6 (V20 m ρ) c).arrAt w cfg6.N := by
  unfold W21; exact Pipeline.withArrays_arr spec6 launch6.win.arr_inj c _ _ w
theorem W21_of_ne (c : Dev nD) (b : Ref sig .tc) (hb : ∀ w, Pipeline.arrRef spec6 w ≠ b) :
    W21 m ρ c (Proc.devRef .tc b) = W20 m ρ c (Proc.devRef .tc b) := by
  unfold W21; exact Pipeline.withArrays_of_ne spec6 c _ _ b hb
abbrev V21 : (c : Dev nD) → (b : Ref sig .tc) → Buf (Elt F) ((c : Thread nD τ).loc b) := fun c b => W21 m ρ c b
theorem hF6 (c : Dev nD) (w : Fin cfg6.W) : (dat6 (V20 m ρ) c).arrAt w cfg6.N = V21 m ρ c (Pipeline.arrRef spec6 w) :=
  (W21_arr m ρ c w).symm
theorem hrest6 (c : Dev nD) : ∀ b, b ∉ Finset.univ.image (Pipeline.arrRef spec6) → V21 m ρ c b = V20 m ρ c b :=
  fun b hb => W21_of_ne m ρ c b fun w e => hb (Finset.mem_image.mpr ⟨w, Finset.mem_univ _, e⟩)
/-- After the stretch `hostOps7`. -/
abbrev W22 : Dev nD → Valuation τ sig (Elt F) := fun c => StableHlo.after hostOps7 (W21 m ρ c)
theorem W22_keep (c : Dev nD) (r : Ref sig .tc) (h : r ∉ Cert.KernelIdeal.GenP.hostOps7_W) :
    W22 m ρ c (Proc.devRef .tc r) = W21 m ρ c (Proc.devRef .tc r) :=
  StableHlo.after_of_writes_sub hostOps7 _ Cert.KernelIdeal.GenP.hostOps7_writes h
/-- What region 7 is entered from, read at the TensorCore's references. -/
abbrev V22 : (c : Dev nD) → (b : Ref sig .tc) → Buf (Elt F) ((c : Thread nD τ).loc b) := fun c b => W22 m ρ c b
/-- At region 7's exit: its arrays at what the pipeline leaves, every other buffer as entered. -/
def W23 (c : Dev nD) : Valuation τ sig (Elt F) :=
  Pipeline.withArrays spec7 c (W22 m ρ c) fun w => (dat7 (V22 m ρ) c).arrAt w cfg7.N
theorem W23_arr (c : Dev nD) (w : Fin cfg7.W) :
    W23 m ρ c (Proc.devRef .tc (Pipeline.arrRef spec7 w)) = (dat7 (V22 m ρ) c).arrAt w cfg7.N := by
  unfold W23; exact Pipeline.withArrays_arr spec7 launch7.win.arr_inj c _ _ w
theorem W23_of_ne (c : Dev nD) (b : Ref sig .tc) (hb : ∀ w, Pipeline.arrRef spec7 w ≠ b) :
    W23 m ρ c (Proc.devRef .tc b) = W22 m ρ c (Proc.devRef .tc b) := by
  unfold W23; exact Pipeline.withArrays_of_ne spec7 c _ _ b hb
abbrev V23 : (c : Dev nD) → (b : Ref sig .tc) → Buf (Elt F) ((c : Thread nD τ).loc b) := fun c b => W23 m ρ c b
theorem hF7 (c : Dev nD) (w : Fin cfg7.W) : (dat7 (V22 m ρ) c).arrAt w cfg7.N = V23 m ρ c (Pipeline.arrRef spec7 w) :=
  (W23_arr m ρ c w).symm
theorem hrest7 (c : Dev nD) : ∀ b, b ∉ Finset.univ.image (Pipeline.arrRef spec7) → V23 m ρ c b = V22 m ρ c b :=
  fun b hb => W23_of_ne m ρ c b fun w e => hb (Finset.mem_image.mpr ⟨w, Finset.mem_univ _, e⟩)
/-- After the stretch `hostOps8`. -/
abbrev W24 : Dev nD → Valuation τ sig (Elt F) := fun c => StableHlo.after hostOps8 (W23 m ρ c)
theorem W24_keep (c : Dev nD) (r : Ref sig .tc) (h : r ∉ Cert.KernelIdeal.GenP.hostOps8_W) :
    W24 m ρ c (Proc.devRef .tc r) = W23 m ρ c (Proc.devRef .tc r) :=
  StableHlo.after_of_writes_sub hostOps8 _ Cert.KernelIdeal.GenP.hostOps8_writes h
/-- After the stretch `hostOps8_1`. -/
abbrev W25 : Dev nD → Valuation τ sig (Elt F) := fun c => StableHlo.after hostOps8_1 (W24 m ρ c)
theorem W25_keep (c : Dev nD) (r : Ref sig .tc) (h : r ∉ Cert.KernelIdeal.GenP.hostOps8_1_W) :
    W25 m ρ c (Proc.devRef .tc r) = W24 m ρ c (Proc.devRef .tc r) :=
  StableHlo.after_of_writes_sub hostOps8_1 _ Cert.KernelIdeal.GenP.hostOps8_1_writes h
/-- What region 8 is entered from, read at the TensorCore's references. -/
abbrev V25 : (c : Dev nD) → (b : Ref sig .tc) → Buf (Elt F) ((c : Thread nD τ).loc b) := fun c b => W25 m ρ c b
/-- At region 8's exit: its arrays at what the pipeline leaves, every other buffer as entered. -/
def W26 (c : Dev nD) : Valuation τ sig (Elt F) :=
  Pipeline.withArrays spec8 c (W25 m ρ c) fun w => (dat8 (V25 m ρ) c).arrAt w cfg8.N
theorem W26_arr (c : Dev nD) (w : Fin cfg8.W) :
    W26 m ρ c (Proc.devRef .tc (Pipeline.arrRef spec8 w)) = (dat8 (V25 m ρ) c).arrAt w cfg8.N := by
  unfold W26; exact Pipeline.withArrays_arr spec8 launch8.win.arr_inj c _ _ w
theorem W26_of_ne (c : Dev nD) (b : Ref sig .tc) (hb : ∀ w, Pipeline.arrRef spec8 w ≠ b) :
    W26 m ρ c (Proc.devRef .tc b) = W25 m ρ c (Proc.devRef .tc b) := by
  unfold W26; exact Pipeline.withArrays_of_ne spec8 c _ _ b hb
abbrev V26 : (c : Dev nD) → (b : Ref sig .tc) → Buf (Elt F) ((c : Thread nD τ).loc b) := fun c b => W26 m ρ c b
theorem hF8 (c : Dev nD) (w : Fin cfg8.W) : (dat8 (V25 m ρ) c).arrAt w cfg8.N = V26 m ρ c (Pipeline.arrRef spec8 w) :=
  (W26_arr m ρ c w).symm
theorem hrest8 (c : Dev nD) : ∀ b, b ∉ Finset.univ.image (Pipeline.arrRef spec8) → V26 m ρ c b = V25 m ρ c b :=
  fun b hb => W26_of_ne m ρ c b fun w e => hb (Finset.mem_image.mpr ⟨w, Finset.mem_univ _, e⟩)
/-- After the stretch `hostOps9`. -/
abbrev W27 : Dev nD → Valuation τ sig (Elt F) := fun c => StableHlo.after hostOps9 (W26 m ρ c)
theorem W27_keep (c : Dev nD) (r : Ref sig .tc) (h : r ∉ Cert.KernelIdeal.GenP.hostOps9_W) :
    W27 m ρ c (Proc.devRef .tc r) = W26 m ρ c (Proc.devRef .tc r) :=
  StableHlo.after_of_writes_sub hostOps9 _ Cert.KernelIdeal.GenP.hostOps9_writes h
/-- What region 9 is entered from, read at the TensorCore's references. -/
abbrev V27 : (c : Dev nD) → (b : Ref sig .tc) → Buf (Elt F) ((c : Thread nD τ).loc b) := fun c b => W27 m ρ c b
/-- At region 9's exit: its arrays at what the pipeline leaves, every other buffer as entered. -/
def W28 (c : Dev nD) : Valuation τ sig (Elt F) :=
  Pipeline.withArrays spec9 c (W27 m ρ c) fun w => (dat9 (V27 m ρ) c).arrAt w cfg9.N
theorem W28_arr (c : Dev nD) (w : Fin cfg9.W) :
    W28 m ρ c (Proc.devRef .tc (Pipeline.arrRef spec9 w)) = (dat9 (V27 m ρ) c).arrAt w cfg9.N := by
  unfold W28; exact Pipeline.withArrays_arr spec9 launch9.win.arr_inj c _ _ w
theorem W28_of_ne (c : Dev nD) (b : Ref sig .tc) (hb : ∀ w, Pipeline.arrRef spec9 w ≠ b) :
    W28 m ρ c (Proc.devRef .tc b) = W27 m ρ c (Proc.devRef .tc b) := by
  unfold W28; exact Pipeline.withArrays_of_ne spec9 c _ _ b hb
abbrev V28 : (c : Dev nD) → (b : Ref sig .tc) → Buf (Elt F) ((c : Thread nD τ).loc b) := fun c b => W28 m ρ c b
theorem hF9 (c : Dev nD) (w : Fin cfg9.W) : (dat9 (V27 m ρ) c).arrAt w cfg9.N = V28 m ρ c (Pipeline.arrRef spec9 w) :=
  (W28_arr m ρ c w).symm
theorem hrest9 (c : Dev nD) : ∀ b, b ∉ Finset.univ.image (Pipeline.arrRef spec9) → V28 m ρ c b = V27 m ρ c b :=
  fun b hb => W28_of_ne m ρ c b fun w e => hb (Finset.mem_image.mpr ⟨w, Finset.mem_univ _, e⟩)
/-- After the stretch `hostOps10`. -/
abbrev W29 : Dev nD → Valuation τ sig (Elt F) := fun c => StableHlo.after hostOps10 (W28 m ρ c)
theorem W29_keep (c : Dev nD) (r : Ref sig .tc) (h : r ∉ Cert.KernelIdeal.GenP.hostOps10_W) :
    W29 m ρ c (Proc.devRef .tc r) = W28 m ρ c (Proc.devRef .tc r) :=
  StableHlo.after_of_writes_sub hostOps10 _ Cert.KernelIdeal.GenP.hostOps10_writes h
/-- After the stretch `hostOps10_1`. -/
abbrev W30 : Dev nD → Valuation τ sig (Elt F) := fun c => StableHlo.after hostOps10_1 (W29 m ρ c)
theorem W30_keep (c : Dev nD) (r : Ref sig .tc) (h : r ∉ Cert.KernelIdeal.GenP.hostOps10_1_W) :
    W30 m ρ c (Proc.devRef .tc r) = W29 m ρ c (Proc.devRef .tc r) :=
  StableHlo.after_of_writes_sub hostOps10_1 _ Cert.KernelIdeal.GenP.hostOps10_1_writes h
/-- What region 10 is entered from, read at the TensorCore's references. -/
abbrev V30 : (c : Dev nD) → (b : Ref sig .tc) → Buf (Elt F) ((c : Thread nD τ).loc b) := fun c b => W30 m ρ c b
/-- At region 10's exit: its arrays at what the pipeline leaves, every other buffer as entered. -/
def W31 (c : Dev nD) : Valuation τ sig (Elt F) :=
  Pipeline.withArrays spec10 c (W30 m ρ c) fun w => (dat10 (V30 m ρ) c).arrAt w cfg10.N
theorem W31_arr (c : Dev nD) (w : Fin cfg10.W) :
    W31 m ρ c (Proc.devRef .tc (Pipeline.arrRef spec10 w)) = (dat10 (V30 m ρ) c).arrAt w cfg10.N := by
  unfold W31; exact Pipeline.withArrays_arr spec10 launch10.win.arr_inj c _ _ w
theorem W31_of_ne (c : Dev nD) (b : Ref sig .tc) (hb : ∀ w, Pipeline.arrRef spec10 w ≠ b) :
    W31 m ρ c (Proc.devRef .tc b) = W30 m ρ c (Proc.devRef .tc b) := by
  unfold W31; exact Pipeline.withArrays_of_ne spec10 c _ _ b hb
abbrev V31 : (c : Dev nD) → (b : Ref sig .tc) → Buf (Elt F) ((c : Thread nD τ).loc b) := fun c b => W31 m ρ c b
theorem hF10 (c : Dev nD) (w : Fin cfg10.W) : (dat10 (V30 m ρ) c).arrAt w cfg10.N = V31 m ρ c (Pipeline.arrRef spec10 w) :=
  (W31_arr m ρ c w).symm
theorem hrest10 (c : Dev nD) : ∀ b, b ∉ Finset.univ.image (Pipeline.arrRef spec10) → V31 m ρ c b = V30 m ρ c b :=
  fun b hb => W31_of_ne m ρ c b fun w e => hb (Finset.mem_image.mpr ⟨w, Finset.mem_univ _, e⟩)
/-- After the stretch `hostOps11`. -/
abbrev W32 : Dev nD → Valuation τ sig (Elt F) := fun c => StableHlo.after hostOps11 (W31 m ρ c)
theorem W32_keep (c : Dev nD) (r : Ref sig .tc) (h : r ∉ Cert.KernelIdeal.GenP.hostOps11_W) :
    W32 m ρ c (Proc.devRef .tc r) = W31 m ρ c (Proc.devRef .tc r) :=
  StableHlo.after_of_writes_sub hostOps11 _ Cert.KernelIdeal.GenP.hostOps11_writes h
/-- What region 11 is entered from, read at the TensorCore's references. -/
abbrev V32 : (c : Dev nD) → (b : Ref sig .tc) → Buf (Elt F) ((c : Thread nD τ).loc b) := fun c b => W32 m ρ c b
/-- At region 11's exit: its arrays at what the pipeline leaves, every other buffer as entered. -/
def W33 (c : Dev nD) : Valuation τ sig (Elt F) :=
  Pipeline.withArrays spec11 c (W32 m ρ c) fun w => (dat11 (V32 m ρ) c).arrAt w cfg11.N
theorem W33_arr (c : Dev nD) (w : Fin cfg11.W) :
    W33 m ρ c (Proc.devRef .tc (Pipeline.arrRef spec11 w)) = (dat11 (V32 m ρ) c).arrAt w cfg11.N := by
  unfold W33; exact Pipeline.withArrays_arr spec11 launch11.win.arr_inj c _ _ w
theorem W33_of_ne (c : Dev nD) (b : Ref sig .tc) (hb : ∀ w, Pipeline.arrRef spec11 w ≠ b) :
    W33 m ρ c (Proc.devRef .tc b) = W32 m ρ c (Proc.devRef .tc b) := by
  unfold W33; exact Pipeline.withArrays_of_ne spec11 c _ _ b hb
abbrev V33 : (c : Dev nD) → (b : Ref sig .tc) → Buf (Elt F) ((c : Thread nD τ).loc b) := fun c b => W33 m ρ c b
theorem hF11 (c : Dev nD) (w : Fin cfg11.W) : (dat11 (V32 m ρ) c).arrAt w cfg11.N = V33 m ρ c (Pipeline.arrRef spec11 w) :=
  (W33_arr m ρ c w).symm
theorem hrest11 (c : Dev nD) : ∀ b, b ∉ Finset.univ.image (Pipeline.arrRef spec11) → V33 m ρ c b = V32 m ρ c b :=
  fun b hb => W33_of_ne m ρ c b fun w e => hb (Finset.mem_image.mpr ⟨w, Finset.mem_univ _, e⟩)
/-- After the stretch `hostOps12`. -/
abbrev W34 : Dev nD → Valuation τ sig (Elt F) := fun c => StableHlo.after hostOps12 (W33 m ρ c)
theorem W34_keep (c : Dev nD) (r : Ref sig .tc) (h : r ∉ Cert.KernelIdeal.GenP.hostOps12_W) :
    W34 m ρ c (Proc.devRef .tc r) = W33 m ρ c (Proc.devRef .tc r) :=
  StableHlo.after_of_writes_sub hostOps12 _ Cert.KernelIdeal.GenP.hostOps12_writes h
/-- After the stretch `hostOps12_1`. -/
abbrev W35 : Dev nD → Valuation τ sig (Elt F) := fun c => StableHlo.after hostOps12_1 (W34 m ρ c)
theorem W35_keep (c : Dev nD) (r : Ref sig .tc) (h : r ∉ Cert.KernelIdeal.GenP.hostOps12_1_W) :
    W35 m ρ c (Proc.devRef .tc r) = W34 m ρ c (Proc.devRef .tc r) :=
  StableHlo.after_of_writes_sub hostOps12_1 _ Cert.KernelIdeal.GenP.hostOps12_1_writes h
/-- What region 12 is entered from, read at the TensorCore's references. -/
abbrev V35 : (c : Dev nD) → (b : Ref sig .tc) → Buf (Elt F) ((c : Thread nD τ).loc b) := fun c b => W35 m ρ c b
/-- At region 12's exit: its arrays at what the pipeline leaves, every other buffer as entered. -/
def W36 (c : Dev nD) : Valuation τ sig (Elt F) :=
  Pipeline.withArrays spec12 c (W35 m ρ c) fun w => (dat12 (V35 m ρ) c).arrAt w cfg12.N
theorem W36_arr (c : Dev nD) (w : Fin cfg12.W) :
    W36 m ρ c (Proc.devRef .tc (Pipeline.arrRef spec12 w)) = (dat12 (V35 m ρ) c).arrAt w cfg12.N := by
  unfold W36; exact Pipeline.withArrays_arr spec12 launch12.win.arr_inj c _ _ w
theorem W36_of_ne (c : Dev nD) (b : Ref sig .tc) (hb : ∀ w, Pipeline.arrRef spec12 w ≠ b) :
    W36 m ρ c (Proc.devRef .tc b) = W35 m ρ c (Proc.devRef .tc b) := by
  unfold W36; exact Pipeline.withArrays_of_ne spec12 c _ _ b hb
abbrev V36 : (c : Dev nD) → (b : Ref sig .tc) → Buf (Elt F) ((c : Thread nD τ).loc b) := fun c b => W36 m ρ c b
theorem hF12 (c : Dev nD) (w : Fin cfg12.W) : (dat12 (V35 m ρ) c).arrAt w cfg12.N = V36 m ρ c (Pipeline.arrRef spec12 w) :=
  (W36_arr m ρ c w).symm
theorem hrest12 (c : Dev nD) : ∀ b, b ∉ Finset.univ.image (Pipeline.arrRef spec12) → V36 m ρ c b = V35 m ρ c b :=
  fun b hb => W36_of_ne m ρ c b fun w e => hb (Finset.mem_image.mpr ⟨w, Finset.mem_univ _, e⟩)
/-- After the stretch `hostOps13`. -/
abbrev W37 : Dev nD → Valuation τ sig (Elt F) := fun c => StableHlo.after hostOps13 (W36 m ρ c)
theorem W37_keep (c : Dev nD) (r : Ref sig .tc) (h : r ∉ Cert.KernelIdeal.GenP.hostOps13_W) :
    W37 m ρ c (Proc.devRef .tc r) = W36 m ρ c (Proc.devRef .tc r) :=
  StableHlo.after_of_writes_sub hostOps13 _ Cert.KernelIdeal.GenP.hostOps13_writes h
/-- What region 13 is entered from, read at the TensorCore's references. -/
abbrev V37 : (c : Dev nD) → (b : Ref sig .tc) → Buf (Elt F) ((c : Thread nD τ).loc b) := fun c b => W37 m ρ c b
/-- At region 13's exit: its arrays at what the pipeline leaves, every other buffer as entered. -/
def W38 (c : Dev nD) : Valuation τ sig (Elt F) :=
  Pipeline.withArrays spec13 c (W37 m ρ c) fun w => (dat13 (V37 m ρ) c).arrAt w cfg13.N
theorem W38_arr (c : Dev nD) (w : Fin cfg13.W) :
    W38 m ρ c (Proc.devRef .tc (Pipeline.arrRef spec13 w)) = (dat13 (V37 m ρ) c).arrAt w cfg13.N := by
  unfold W38; exact Pipeline.withArrays_arr spec13 launch13.win.arr_inj c _ _ w
theorem W38_of_ne (c : Dev nD) (b : Ref sig .tc) (hb : ∀ w, Pipeline.arrRef spec13 w ≠ b) :
    W38 m ρ c (Proc.devRef .tc b) = W37 m ρ c (Proc.devRef .tc b) := by
  unfold W38; exact Pipeline.withArrays_of_ne spec13 c _ _ b hb
abbrev V38 : (c : Dev nD) → (b : Ref sig .tc) → Buf (Elt F) ((c : Thread nD τ).loc b) := fun c b => W38 m ρ c b
theorem hF13 (c : Dev nD) (w : Fin cfg13.W) : (dat13 (V37 m ρ) c).arrAt w cfg13.N = V38 m ρ c (Pipeline.arrRef spec13 w) :=
  (W38_arr m ρ c w).symm
theorem hrest13 (c : Dev nD) : ∀ b, b ∉ Finset.univ.image (Pipeline.arrRef spec13) → V38 m ρ c b = V37 m ρ c b :=
  fun b hb => W38_of_ne m ρ c b fun w e => hb (Finset.mem_image.mpr ⟨w, Finset.mem_univ _, e⟩)
/-- After the stretch `hostOps14`. -/
abbrev W39 : Dev nD → Valuation τ sig (Elt F) := fun c => StableHlo.after hostOps14 (W38 m ρ c)
theorem W39_keep (c : Dev nD) (r : Ref sig .tc) (h : r ∉ Cert.KernelIdeal.GenP.hostOps14_W) :
    W39 m ρ c (Proc.devRef .tc r) = W38 m ρ c (Proc.devRef .tc r) :=
  StableHlo.after_of_writes_sub hostOps14 _ Cert.KernelIdeal.GenP.hostOps14_writes h
/-- After the stretch `hostOps14_1`. -/
abbrev W40 : Dev nD → Valuation τ sig (Elt F) := fun c => StableHlo.after hostOps14_1 (W39 m ρ c)
theorem W40_keep (c : Dev nD) (r : Ref sig .tc) (h : r ∉ Cert.KernelIdeal.GenP.hostOps14_1_W) :
    W40 m ρ c (Proc.devRef .tc r) = W39 m ρ c (Proc.devRef .tc r) :=
  StableHlo.after_of_writes_sub hostOps14_1 _ Cert.KernelIdeal.GenP.hostOps14_1_writes h
/-- After the stretch `hostOps14_2`. -/
abbrev W41 : Dev nD → Valuation τ sig (Elt F) := fun c => StableHlo.after hostOps14_2 (W40 m ρ c)
theorem W41_keep (c : Dev nD) (r : Ref sig .tc) (h : r ∉ Cert.KernelIdeal.GenP.hostOps14_2_W) :
    W41 m ρ c (Proc.devRef .tc r) = W40 m ρ c (Proc.devRef .tc r) :=
  StableHlo.after_of_writes_sub hostOps14_2 _ Cert.KernelIdeal.GenP.hostOps14_2_writes h
/-- After the stretch `hostOps14_3`. -/
abbrev W42 : Dev nD → Valuation τ sig (Elt F) := fun c => StableHlo.after hostOps14_3 (W41 m ρ c)
theorem W42_keep (c : Dev nD) (r : Ref sig .tc) (h : r ∉ Cert.KernelIdeal.GenP.hostOps14_3_W) :
    W42 m ρ c (Proc.devRef .tc r) = W41 m ρ c (Proc.devRef .tc r) :=
  StableHlo.after_of_writes_sub hostOps14_3 _ Cert.KernelIdeal.GenP.hostOps14_3_writes h
/-- After the stretch `hostOps14_4`. -/
abbrev W43 : Dev nD → Valuation τ sig (Elt F) := fun c => StableHlo.after hostOps14_4 (W42 m ρ c)
theorem W43_keep (c : Dev nD) (r : Ref sig .tc) (h : r ∉ Cert.KernelIdeal.GenP.hostOps14_4_W) :
    W43 m ρ c (Proc.devRef .tc r) = W42 m ρ c (Proc.devRef .tc r) :=
  StableHlo.after_of_writes_sub hostOps14_4 _ Cert.KernelIdeal.GenP.hostOps14_4_writes h
/-- After the stretch `hostOps14_5`. -/
abbrev W44 : Dev nD → Valuation τ sig (Elt F) := fun c => StableHlo.after hostOps14_5 (W43 m ρ c)
theorem W44_keep (c : Dev nD) (r : Ref sig .tc) (h : r ∉ Cert.KernelIdeal.GenP.hostOps14_5_W) :
    W44 m ρ c (Proc.devRef .tc r) = W43 m ρ c (Proc.devRef .tc r) :=
  StableHlo.after_of_writes_sub hostOps14_5 _ Cert.KernelIdeal.GenP.hostOps14_5_writes h
/-- After the stretch `hostOps14_6`. -/
abbrev W45 : Dev nD → Valuation τ sig (Elt F) := fun c => StableHlo.after hostOps14_6 (W44 m ρ c)
theorem W45_keep (c : Dev nD) (r : Ref sig .tc) (h : r ∉ Cert.KernelIdeal.GenP.hostOps14_6_W) :
    W45 m ρ c (Proc.devRef .tc r) = W44 m ρ c (Proc.devRef .tc r) :=
  StableHlo.after_of_writes_sub hostOps14_6 _ Cert.KernelIdeal.GenP.hostOps14_6_writes h

/-! ## No step of the fold touches an argument array -/

theorem W45_main_arg0 (c : Dev nD) : W45 m ρ c (Proc.devRef .tc main_arg0) = m ((c : Thread nD τ).loc main_arg0) :=
  (W45_keep m ρ c main_arg0 (by decide)).trans <|
  (W44_keep m ρ c main_arg0 (by decide)).trans <|
  (W43_keep m ρ c main_arg0 (by decide)).trans <|
  (W42_keep m ρ c main_arg0 (by decide)).trans <|
  (W41_keep m ρ c main_arg0 (by decide)).trans <|
  (W40_keep m ρ c main_arg0 (by decide)).trans <|
  (W39_keep m ρ c main_arg0 (by decide)).trans <|
  (W38_of_ne m ρ c main_arg0 (by decide)).trans <|
  (W37_keep m ρ c main_arg0 (by decide)).trans <|
  (W36_of_ne m ρ c main_arg0 (by decide)).trans <|
  (W35_keep m ρ c main_arg0 (by decide)).trans <|
  (W34_keep m ρ c main_arg0 (by decide)).trans <|
  (W33_of_ne m ρ c main_arg0 (by decide)).trans <|
  (W32_keep m ρ c main_arg0 (by decide)).trans <|
  (W31_of_ne m ρ c main_arg0 (by decide)).trans <|
  (W30_keep m ρ c main_arg0 (by decide)).trans <|
  (W29_keep m ρ c main_arg0 (by decide)).trans <|
  (W28_of_ne m ρ c main_arg0 (by decide)).trans <|
  (W27_keep m ρ c main_arg0 (by decide)).trans <|
  (W26_of_ne m ρ c main_arg0 (by decide)).trans <|
  (W25_keep m ρ c main_arg0 (by decide)).trans <|
  (W24_keep m ρ c main_arg0 (by decide)).trans <|
  (W23_of_ne m ρ c main_arg0 (by decide)).trans <|
  (W22_keep m ρ c main_arg0 (by decide)).trans <|
  (W21_of_ne m ρ c main_arg0 (by decide)).trans <|
  (W20_keep m ρ c main_arg0 (by decide)).trans <|
  (W19_keep m ρ c main_arg0 (by decide)).trans <|
  (W18_of_ne m ρ c main_arg0 (by decide)).trans <|
  (W17_keep m ρ c main_arg0 (by decide)).trans <|
  (W16_of_ne m ρ c main_arg0 (by decide)).trans <|
  (W15_keep m ρ c main_arg0 (by decide)).trans <|
  (W14_keep m ρ c main_arg0 (by decide)).trans <|
  (W13_of_ne m ρ c main_arg0 (by decide)).trans <|
  (W12_keep m ρ c main_arg0 (by decide)).trans <|
  (W11_of_ne m ρ c main_arg0 (by decide)).trans <|
  (W10_keep m ρ c main_arg0 (by decide)).trans <|
  (W9_keep m ρ c main_arg0 (by decide)).trans <|
  (W8_of_ne m ρ c main_arg0 (by decide)).trans <|
  (W7_keep m ρ c main_arg0 (by decide)).trans <|
  ((W6_arr m ρ c 0).trans (((dat0 (V5 m ρ) c).arrAt_in 0 rfl _).trans (A_eq0 (V5 m ρ) c 0))).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans <|
  rfl
theorem W45_main_arg1 (c : Dev nD) : W45 m ρ c (Proc.devRef .tc main_arg1) = m ((c : Thread nD τ).loc main_arg1) :=
  (W45_keep m ρ c main_arg1 (by decide)).trans <|
  (W44_keep m ρ c main_arg1 (by decide)).trans <|
  (W43_keep m ρ c main_arg1 (by decide)).trans <|
  (W42_keep m ρ c main_arg1 (by decide)).trans <|
  (W41_keep m ρ c main_arg1 (by decide)).trans <|
  (W40_keep m ρ c main_arg1 (by decide)).trans <|
  (W39_keep m ρ c main_arg1 (by decide)).trans <|
  (W38_of_ne m ρ c main_arg1 (by decide)).trans <|
  (W37_keep m ρ c main_arg1 (by decide)).trans <|
  (W36_of_ne m ρ c main_arg1 (by decide)).trans <|
  (W35_keep m ρ c main_arg1 (by decide)).trans <|
  (W34_keep m ρ c main_arg1 (by decide)).trans <|
  (W33_of_ne m ρ c main_arg1 (by decide)).trans <|
  (W32_keep m ρ c main_arg1 (by decide)).trans <|
  (W31_of_ne m ρ c main_arg1 (by decide)).trans <|
  (W30_keep m ρ c main_arg1 (by decide)).trans <|
  (W29_keep m ρ c main_arg1 (by decide)).trans <|
  (W28_of_ne m ρ c main_arg1 (by decide)).trans <|
  (W27_keep m ρ c main_arg1 (by decide)).trans <|
  (W26_of_ne m ρ c main_arg1 (by decide)).trans <|
  (W25_keep m ρ c main_arg1 (by decide)).trans <|
  (W24_keep m ρ c main_arg1 (by decide)).trans <|
  (W23_of_ne m ρ c main_arg1 (by decide)).trans <|
  (W22_keep m ρ c main_arg1 (by decide)).trans <|
  (W21_of_ne m ρ c main_arg1 (by decide)).trans <|
  (W20_keep m ρ c main_arg1 (by decide)).trans <|
  (W19_keep m ρ c main_arg1 (by decide)).trans <|
  (W18_of_ne m ρ c main_arg1 (by decide)).trans <|
  (W17_keep m ρ c main_arg1 (by decide)).trans <|
  (W16_of_ne m ρ c main_arg1 (by decide)).trans <|
  (W15_keep m ρ c main_arg1 (by decide)).trans <|
  (W14_keep m ρ c main_arg1 (by decide)).trans <|
  (W13_of_ne m ρ c main_arg1 (by decide)).trans <|
  (W12_keep m ρ c main_arg1 (by decide)).trans <|
  (W11_of_ne m ρ c main_arg1 (by decide)).trans <|
  (W10_keep m ρ c main_arg1 (by decide)).trans <|
  (W9_keep m ρ c main_arg1 (by decide)).trans <|
  (W8_of_ne m ρ c main_arg1 (by decide)).trans <|
  (W7_keep m ρ c main_arg1 (by decide)).trans <|
  (W6_of_ne m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans <|
  rfl
theorem W45_main_arg2 (c : Dev nD) : W45 m ρ c (Proc.devRef .tc main_arg2) = m ((c : Thread nD τ).loc main_arg2) :=
  (W45_keep m ρ c main_arg2 (by decide)).trans <|
  (W44_keep m ρ c main_arg2 (by decide)).trans <|
  (W43_keep m ρ c main_arg2 (by decide)).trans <|
  (W42_keep m ρ c main_arg2 (by decide)).trans <|
  (W41_keep m ρ c main_arg2 (by decide)).trans <|
  (W40_keep m ρ c main_arg2 (by decide)).trans <|
  (W39_keep m ρ c main_arg2 (by decide)).trans <|
  (W38_of_ne m ρ c main_arg2 (by decide)).trans <|
  (W37_keep m ρ c main_arg2 (by decide)).trans <|
  (W36_of_ne m ρ c main_arg2 (by decide)).trans <|
  (W35_keep m ρ c main_arg2 (by decide)).trans <|
  (W34_keep m ρ c main_arg2 (by decide)).trans <|
  (W33_of_ne m ρ c main_arg2 (by decide)).trans <|
  (W32_keep m ρ c main_arg2 (by decide)).trans <|
  (W31_of_ne m ρ c main_arg2 (by decide)).trans <|
  (W30_keep m ρ c main_arg2 (by decide)).trans <|
  (W29_keep m ρ c main_arg2 (by decide)).trans <|
  (W28_of_ne m ρ c main_arg2 (by decide)).trans <|
  (W27_keep m ρ c main_arg2 (by decide)).trans <|
  (W26_of_ne m ρ c main_arg2 (by decide)).trans <|
  (W25_keep m ρ c main_arg2 (by decide)).trans <|
  (W24_keep m ρ c main_arg2 (by decide)).trans <|
  (W23_of_ne m ρ c main_arg2 (by decide)).trans <|
  (W22_keep m ρ c main_arg2 (by decide)).trans <|
  (W21_of_ne m ρ c main_arg2 (by decide)).trans <|
  (W20_keep m ρ c main_arg2 (by decide)).trans <|
  (W19_keep m ρ c main_arg2 (by decide)).trans <|
  (W18_of_ne m ρ c main_arg2 (by decide)).trans <|
  (W17_keep m ρ c main_arg2 (by decide)).trans <|
  (W16_of_ne m ρ c main_arg2 (by decide)).trans <|
  (W15_keep m ρ c main_arg2 (by decide)).trans <|
  (W14_keep m ρ c main_arg2 (by decide)).trans <|
  (W13_of_ne m ρ c main_arg2 (by decide)).trans <|
  (W12_keep m ρ c main_arg2 (by decide)).trans <|
  (W11_of_ne m ρ c main_arg2 (by decide)).trans <|
  (W10_keep m ρ c main_arg2 (by decide)).trans <|
  (W9_keep m ρ c main_arg2 (by decide)).trans <|
  (W8_of_ne m ρ c main_arg2 (by decide)).trans <|
  (W7_keep m ρ c main_arg2 (by decide)).trans <|
  (W6_of_ne m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans <|
  rfl
theorem W45_main_arg3 (c : Dev nD) : W45 m ρ c (Proc.devRef .tc main_arg3) = m ((c : Thread nD τ).loc main_arg3) :=
  (W45_keep m ρ c main_arg3 (by decide)).trans <|
  (W44_keep m ρ c main_arg3 (by decide)).trans <|
  (W43_keep m ρ c main_arg3 (by decide)).trans <|
  (W42_keep m ρ c main_arg3 (by decide)).trans <|
  (W41_keep m ρ c main_arg3 (by decide)).trans <|
  (W40_keep m ρ c main_arg3 (by decide)).trans <|
  (W39_keep m ρ c main_arg3 (by decide)).trans <|
  (W38_of_ne m ρ c main_arg3 (by decide)).trans <|
  (W37_keep m ρ c main_arg3 (by decide)).trans <|
  (W36_of_ne m ρ c main_arg3 (by decide)).trans <|
  (W35_keep m ρ c main_arg3 (by decide)).trans <|
  (W34_keep m ρ c main_arg3 (by decide)).trans <|
  (W33_of_ne m ρ c main_arg3 (by decide)).trans <|
  (W32_keep m ρ c main_arg3 (by decide)).trans <|
  (W31_of_ne m ρ c main_arg3 (by decide)).trans <|
  (W30_keep m ρ c main_arg3 (by decide)).trans <|
  (W29_keep m ρ c main_arg3 (by decide)).trans <|
  (W28_of_ne m ρ c main_arg3 (by decide)).trans <|
  (W27_keep m ρ c main_arg3 (by decide)).trans <|
  (W26_of_ne m ρ c main_arg3 (by decide)).trans <|
  (W25_keep m ρ c main_arg3 (by decide)).trans <|
  (W24_keep m ρ c main_arg3 (by decide)).trans <|
  (W23_of_ne m ρ c main_arg3 (by decide)).trans <|
  (W22_keep m ρ c main_arg3 (by decide)).trans <|
  (W21_of_ne m ρ c main_arg3 (by decide)).trans <|
  (W20_keep m ρ c main_arg3 (by decide)).trans <|
  (W19_keep m ρ c main_arg3 (by decide)).trans <|
  (W18_of_ne m ρ c main_arg3 (by decide)).trans <|
  (W17_keep m ρ c main_arg3 (by decide)).trans <|
  (W16_of_ne m ρ c main_arg3 (by decide)).trans <|
  (W15_keep m ρ c main_arg3 (by decide)).trans <|
  (W14_keep m ρ c main_arg3 (by decide)).trans <|
  (W13_of_ne m ρ c main_arg3 (by decide)).trans <|
  (W12_keep m ρ c main_arg3 (by decide)).trans <|
  (W11_of_ne m ρ c main_arg3 (by decide)).trans <|
  (W10_keep m ρ c main_arg3 (by decide)).trans <|
  (W9_keep m ρ c main_arg3 (by decide)).trans <|
  (W8_of_ne m ρ c main_arg3 (by decide)).trans <|
  (W7_keep m ρ c main_arg3 (by decide)).trans <|
  (W6_of_ne m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans <|
  rfl
theorem W45_main_arg4 (c : Dev nD) : W45 m ρ c (Proc.devRef .tc main_arg4) = m ((c : Thread nD τ).loc main_arg4) :=
  (W45_keep m ρ c main_arg4 (by decide)).trans <|
  (W44_keep m ρ c main_arg4 (by decide)).trans <|
  (W43_keep m ρ c main_arg4 (by decide)).trans <|
  (W42_keep m ρ c main_arg4 (by decide)).trans <|
  (W41_keep m ρ c main_arg4 (by decide)).trans <|
  (W40_keep m ρ c main_arg4 (by decide)).trans <|
  (W39_keep m ρ c main_arg4 (by decide)).trans <|
  (W38_of_ne m ρ c main_arg4 (by decide)).trans <|
  (W37_keep m ρ c main_arg4 (by decide)).trans <|
  (W36_of_ne m ρ c main_arg4 (by decide)).trans <|
  (W35_keep m ρ c main_arg4 (by decide)).trans <|
  (W34_keep m ρ c main_arg4 (by decide)).trans <|
  (W33_of_ne m ρ c main_arg4 (by decide)).trans <|
  (W32_keep m ρ c main_arg4 (by decide)).trans <|
  (W31_of_ne m ρ c main_arg4 (by decide)).trans <|
  (W30_keep m ρ c main_arg4 (by decide)).trans <|
  (W29_keep m ρ c main_arg4 (by decide)).trans <|
  (W28_of_ne m ρ c main_arg4 (by decide)).trans <|
  (W27_keep m ρ c main_arg4 (by decide)).trans <|
  (W26_of_ne m ρ c main_arg4 (by decide)).trans <|
  (W25_keep m ρ c main_arg4 (by decide)).trans <|
  (W24_keep m ρ c main_arg4 (by decide)).trans <|
  (W23_of_ne m ρ c main_arg4 (by decide)).trans <|
  (W22_keep m ρ c main_arg4 (by decide)).trans <|
  (W21_of_ne m ρ c main_arg4 (by decide)).trans <|
  (W20_keep m ρ c main_arg4 (by decide)).trans <|
  (W19_keep m ρ c main_arg4 (by decide)).trans <|
  (W18_of_ne m ρ c main_arg4 (by decide)).trans <|
  (W17_keep m ρ c main_arg4 (by decide)).trans <|
  (W16_of_ne m ρ c main_arg4 (by decide)).trans <|
  (W15_keep m ρ c main_arg4 (by decide)).trans <|
  (W14_keep m ρ c main_arg4 (by decide)).trans <|
  (W13_of_ne m ρ c main_arg4 (by decide)).trans <|
  (W12_keep m ρ c main_arg4 (by decide)).trans <|
  (W11_of_ne m ρ c main_arg4 (by decide)).trans <|
  (W10_keep m ρ c main_arg4 (by decide)).trans <|
  (W9_keep m ρ c main_arg4 (by decide)).trans <|
  (W8_of_ne m ρ c main_arg4 (by decide)).trans <|
  (W7_keep m ρ c main_arg4 (by decide)).trans <|
  (W6_of_ne m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans <|
  rfl
theorem W45_main_arg5 (c : Dev nD) : W45 m ρ c (Proc.devRef .tc main_arg5) = m ((c : Thread nD τ).loc main_arg5) :=
  (W45_keep m ρ c main_arg5 (by decide)).trans <|
  (W44_keep m ρ c main_arg5 (by decide)).trans <|
  (W43_keep m ρ c main_arg5 (by decide)).trans <|
  (W42_keep m ρ c main_arg5 (by decide)).trans <|
  (W41_keep m ρ c main_arg5 (by decide)).trans <|
  (W40_keep m ρ c main_arg5 (by decide)).trans <|
  (W39_keep m ρ c main_arg5 (by decide)).trans <|
  (W38_of_ne m ρ c main_arg5 (by decide)).trans <|
  (W37_keep m ρ c main_arg5 (by decide)).trans <|
  ((W36_arr m ρ c 1).trans (((dat12 (V35 m ρ) c).arrAt_in 1 rfl _).trans (A_eq12 (V35 m ρ) c 1))).trans <|
  (W35_keep m ρ c main_arg5 (by decide)).trans <|
  (W34_keep m ρ c main_arg5 (by decide)).trans <|
  (W33_of_ne m ρ c main_arg5 (by decide)).trans <|
  (W32_keep m ρ c main_arg5 (by decide)).trans <|
  ((W31_arr m ρ c 1).trans (((dat10 (V30 m ρ) c).arrAt_in 1 rfl _).trans (A_eq10 (V30 m ρ) c 1))).trans <|
  (W30_keep m ρ c main_arg5 (by decide)).trans <|
  (W29_keep m ρ c main_arg5 (by decide)).trans <|
  (W28_of_ne m ρ c main_arg5 (by decide)).trans <|
  (W27_keep m ρ c main_arg5 (by decide)).trans <|
  ((W26_arr m ρ c 1).trans (((dat8 (V25 m ρ) c).arrAt_in 1 rfl _).trans (A_eq8 (V25 m ρ) c 1))).trans <|
  (W25_keep m ρ c main_arg5 (by decide)).trans <|
  (W24_keep m ρ c main_arg5 (by decide)).trans <|
  (W23_of_ne m ρ c main_arg5 (by decide)).trans <|
  (W22_keep m ρ c main_arg5 (by decide)).trans <|
  ((W21_arr m ρ c 1).trans (((dat6 (V20 m ρ) c).arrAt_in 1 rfl _).trans (A_eq6 (V20 m ρ) c 1))).trans <|
  (W20_keep m ρ c main_arg5 (by decide)).trans <|
  (W19_keep m ρ c main_arg5 (by decide)).trans <|
  (W18_of_ne m ρ c main_arg5 (by decide)).trans <|
  (W17_keep m ρ c main_arg5 (by decide)).trans <|
  ((W16_arr m ρ c 1).trans (((dat4 (V15 m ρ) c).arrAt_in 1 rfl _).trans (A_eq4 (V15 m ρ) c 1))).trans <|
  (W15_keep m ρ c main_arg5 (by decide)).trans <|
  (W14_keep m ρ c main_arg5 (by decide)).trans <|
  (W13_of_ne m ρ c main_arg5 (by decide)).trans <|
  (W12_keep m ρ c main_arg5 (by decide)).trans <|
  ((W11_arr m ρ c 1).trans (((dat2 (V10 m ρ) c).arrAt_in 1 rfl _).trans (A_eq2 (V10 m ρ) c 1))).trans <|
  (W10_keep m ρ c main_arg5 (by decide)).trans <|
  (W9_keep m ρ c main_arg5 (by decide)).trans <|
  (W8_of_ne m ρ c main_arg5 (by decide)).trans <|
  (W7_keep m ρ c main_arg5 (by decide)).trans <|
  ((W6_arr m ρ c 1).trans (((dat0 (V5 m ρ) c).arrAt_in 1 rfl _).trans (A_eq0 (V5 m ρ) c 1))).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans <|
  rfl
theorem W45_main_arg6 (c : Dev nD) : W45 m ρ c (Proc.devRef .tc main_arg6) = m ((c : Thread nD τ).loc main_arg6) :=
  (W45_keep m ρ c main_arg6 (by decide)).trans <|
  (W44_keep m ρ c main_arg6 (by decide)).trans <|
  (W43_keep m ρ c main_arg6 (by decide)).trans <|
  (W42_keep m ρ c main_arg6 (by decide)).trans <|
  (W41_keep m ρ c main_arg6 (by decide)).trans <|
  (W40_keep m ρ c main_arg6 (by decide)).trans <|
  (W39_keep m ρ c main_arg6 (by decide)).trans <|
  (W38_of_ne m ρ c main_arg6 (by decide)).trans <|
  (W37_keep m ρ c main_arg6 (by decide)).trans <|
  (W36_of_ne m ρ c main_arg6 (by decide)).trans <|
  (W35_keep m ρ c main_arg6 (by decide)).trans <|
  (W34_keep m ρ c main_arg6 (by decide)).trans <|
  (W33_of_ne m ρ c main_arg6 (by decide)).trans <|
  (W32_keep m ρ c main_arg6 (by decide)).trans <|
  (W31_of_ne m ρ c main_arg6 (by decide)).trans <|
  (W30_keep m ρ c main_arg6 (by decide)).trans <|
  (W29_keep m ρ c main_arg6 (by decide)).trans <|
  (W28_of_ne m ρ c main_arg6 (by decide)).trans <|
  (W27_keep m ρ c main_arg6 (by decide)).trans <|
  (W26_of_ne m ρ c main_arg6 (by decide)).trans <|
  (W25_keep m ρ c main_arg6 (by decide)).trans <|
  (W24_keep m ρ c main_arg6 (by decide)).trans <|
  (W23_of_ne m ρ c main_arg6 (by decide)).trans <|
  (W22_keep m ρ c main_arg6 (by decide)).trans <|
  (W21_of_ne m ρ c main_arg6 (by decide)).trans <|
  (W20_keep m ρ c main_arg6 (by decide)).trans <|
  (W19_keep m ρ c main_arg6 (by decide)).trans <|
  (W18_of_ne m ρ c main_arg6 (by decide)).trans <|
  (W17_keep m ρ c main_arg6 (by decide)).trans <|
  (W16_of_ne m ρ c main_arg6 (by decide)).trans <|
  (W15_keep m ρ c main_arg6 (by decide)).trans <|
  (W14_keep m ρ c main_arg6 (by decide)).trans <|
  (W13_of_ne m ρ c main_arg6 (by decide)).trans <|
  (W12_keep m ρ c main_arg6 (by decide)).trans <|
  (W11_of_ne m ρ c main_arg6 (by decide)).trans <|
  (W10_keep m ρ c main_arg6 (by decide)).trans <|
  (W9_keep m ρ c main_arg6 (by decide)).trans <|
  (W8_of_ne m ρ c main_arg6 (by decide)).trans <|
  (W7_keep m ρ c main_arg6 (by decide)).trans <|
  (W6_of_ne m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans <|
  rfl
theorem W45_main_arg7 (c : Dev nD) : W45 m ρ c (Proc.devRef .tc main_arg7) = m ((c : Thread nD τ).loc main_arg7) :=
  (W45_keep m ρ c main_arg7 (by decide)).trans <|
  (W44_keep m ρ c main_arg7 (by decide)).trans <|
  (W43_keep m ρ c main_arg7 (by decide)).trans <|
  (W42_keep m ρ c main_arg7 (by decide)).trans <|
  (W41_keep m ρ c main_arg7 (by decide)).trans <|
  (W40_keep m ρ c main_arg7 (by decide)).trans <|
  (W39_keep m ρ c main_arg7 (by decide)).trans <|
  (W38_of_ne m ρ c main_arg7 (by decide)).trans <|
  (W37_keep m ρ c main_arg7 (by decide)).trans <|
  (W36_of_ne m ρ c main_arg7 (by decide)).trans <|
  (W35_keep m ρ c main_arg7 (by decide)).trans <|
  (W34_keep m ρ c main_arg7 (by decide)).trans <|
  (W33_of_ne m ρ c main_arg7 (by decide)).trans <|
  (W32_keep m ρ c main_arg7 (by decide)).trans <|
  (W31_of_ne m ρ c main_arg7 (by decide)).trans <|
  (W30_keep m ρ c main_arg7 (by decide)).trans <|
  (W29_keep m ρ c main_arg7 (by decide)).trans <|
  (W28_of_ne m ρ c main_arg7 (by decide)).trans <|
  (W27_keep m ρ c main_arg7 (by decide)).trans <|
  (W26_of_ne m ρ c main_arg7 (by decide)).trans <|
  (W25_keep m ρ c main_arg7 (by decide)).trans <|
  (W24_keep m ρ c main_arg7 (by decide)).trans <|
  (W23_of_ne m ρ c main_arg7 (by decide)).trans <|
  (W22_keep m ρ c main_arg7 (by decide)).trans <|
  (W21_of_ne m ρ c main_arg7 (by decide)).trans <|
  (W20_keep m ρ c main_arg7 (by decide)).trans <|
  (W19_keep m ρ c main_arg7 (by decide)).trans <|
  (W18_of_ne m ρ c main_arg7 (by decide)).trans <|
  (W17_keep m ρ c main_arg7 (by decide)).trans <|
  (W16_of_ne m ρ c main_arg7 (by decide)).trans <|
  (W15_keep m ρ c main_arg7 (by decide)).trans <|
  (W14_keep m ρ c main_arg7 (by decide)).trans <|
  (W13_of_ne m ρ c main_arg7 (by decide)).trans <|
  (W12_keep m ρ c main_arg7 (by decide)).trans <|
  (W11_of_ne m ρ c main_arg7 (by decide)).trans <|
  (W10_keep m ρ c main_arg7 (by decide)).trans <|
  (W9_keep m ρ c main_arg7 (by decide)).trans <|
  (W8_of_ne m ρ c main_arg7 (by decide)).trans <|
  (W7_keep m ρ c main_arg7 (by decide)).trans <|
  (W6_of_ne m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans <|
  rfl
theorem W45_main_arg8 (c : Dev nD) : W45 m ρ c (Proc.devRef .tc main_arg8) = m ((c : Thread nD τ).loc main_arg8) :=
  (W45_keep m ρ c main_arg8 (by decide)).trans <|
  (W44_keep m ρ c main_arg8 (by decide)).trans <|
  (W43_keep m ρ c main_arg8 (by decide)).trans <|
  (W42_keep m ρ c main_arg8 (by decide)).trans <|
  (W41_keep m ρ c main_arg8 (by decide)).trans <|
  (W40_keep m ρ c main_arg8 (by decide)).trans <|
  (W39_keep m ρ c main_arg8 (by decide)).trans <|
  (W38_of_ne m ρ c main_arg8 (by decide)).trans <|
  (W37_keep m ρ c main_arg8 (by decide)).trans <|
  (W36_of_ne m ρ c main_arg8 (by decide)).trans <|
  (W35_keep m ρ c main_arg8 (by decide)).trans <|
  (W34_keep m ρ c main_arg8 (by decide)).trans <|
  (W33_of_ne m ρ c main_arg8 (by decide)).trans <|
  (W32_keep m ρ c main_arg8 (by decide)).trans <|
  (W31_of_ne m ρ c main_arg8 (by decide)).trans <|
  (W30_keep m ρ c main_arg8 (by decide)).trans <|
  (W29_keep m ρ c main_arg8 (by decide)).trans <|
  (W28_of_ne m ρ c main_arg8 (by decide)).trans <|
  (W27_keep m ρ c main_arg8 (by decide)).trans <|
  (W26_of_ne m ρ c main_arg8 (by decide)).trans <|
  (W25_keep m ρ c main_arg8 (by decide)).trans <|
  (W24_keep m ρ c main_arg8 (by decide)).trans <|
  (W23_of_ne m ρ c main_arg8 (by decide)).trans <|
  (W22_keep m ρ c main_arg8 (by decide)).trans <|
  (W21_of_ne m ρ c main_arg8 (by decide)).trans <|
  (W20_keep m ρ c main_arg8 (by decide)).trans <|
  (W19_keep m ρ c main_arg8 (by decide)).trans <|
  (W18_of_ne m ρ c main_arg8 (by decide)).trans <|
  (W17_keep m ρ c main_arg8 (by decide)).trans <|
  (W16_of_ne m ρ c main_arg8 (by decide)).trans <|
  (W15_keep m ρ c main_arg8 (by decide)).trans <|
  (W14_keep m ρ c main_arg8 (by decide)).trans <|
  (W13_of_ne m ρ c main_arg8 (by decide)).trans <|
  (W12_keep m ρ c main_arg8 (by decide)).trans <|
  (W11_of_ne m ρ c main_arg8 (by decide)).trans <|
  (W10_keep m ρ c main_arg8 (by decide)).trans <|
  (W9_keep m ρ c main_arg8 (by decide)).trans <|
  (W8_of_ne m ρ c main_arg8 (by decide)).trans <|
  (W7_keep m ρ c main_arg8 (by decide)).trans <|
  (W6_of_ne m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans <|
  rfl
theorem W45_main_arg9 (c : Dev nD) : W45 m ρ c (Proc.devRef .tc main_arg9) = m ((c : Thread nD τ).loc main_arg9) :=
  (W45_keep m ρ c main_arg9 (by decide)).trans <|
  (W44_keep m ρ c main_arg9 (by decide)).trans <|
  (W43_keep m ρ c main_arg9 (by decide)).trans <|
  (W42_keep m ρ c main_arg9 (by decide)).trans <|
  (W41_keep m ρ c main_arg9 (by decide)).trans <|
  (W40_keep m ρ c main_arg9 (by decide)).trans <|
  (W39_keep m ρ c main_arg9 (by decide)).trans <|
  (W38_of_ne m ρ c main_arg9 (by decide)).trans <|
  (W37_keep m ρ c main_arg9 (by decide)).trans <|
  (W36_of_ne m ρ c main_arg9 (by decide)).trans <|
  (W35_keep m ρ c main_arg9 (by decide)).trans <|
  (W34_keep m ρ c main_arg9 (by decide)).trans <|
  (W33_of_ne m ρ c main_arg9 (by decide)).trans <|
  (W32_keep m ρ c main_arg9 (by decide)).trans <|
  (W31_of_ne m ρ c main_arg9 (by decide)).trans <|
  (W30_keep m ρ c main_arg9 (by decide)).trans <|
  (W29_keep m ρ c main_arg9 (by decide)).trans <|
  (W28_of_ne m ρ c main_arg9 (by decide)).trans <|
  (W27_keep m ρ c main_arg9 (by decide)).trans <|
  (W26_of_ne m ρ c main_arg9 (by decide)).trans <|
  (W25_keep m ρ c main_arg9 (by decide)).trans <|
  (W24_keep m ρ c main_arg9 (by decide)).trans <|
  (W23_of_ne m ρ c main_arg9 (by decide)).trans <|
  (W22_keep m ρ c main_arg9 (by decide)).trans <|
  (W21_of_ne m ρ c main_arg9 (by decide)).trans <|
  (W20_keep m ρ c main_arg9 (by decide)).trans <|
  (W19_keep m ρ c main_arg9 (by decide)).trans <|
  (W18_of_ne m ρ c main_arg9 (by decide)).trans <|
  (W17_keep m ρ c main_arg9 (by decide)).trans <|
  (W16_of_ne m ρ c main_arg9 (by decide)).trans <|
  (W15_keep m ρ c main_arg9 (by decide)).trans <|
  (W14_keep m ρ c main_arg9 (by decide)).trans <|
  (W13_of_ne m ρ c main_arg9 (by decide)).trans <|
  (W12_keep m ρ c main_arg9 (by decide)).trans <|
  (W11_of_ne m ρ c main_arg9 (by decide)).trans <|
  (W10_keep m ρ c main_arg9 (by decide)).trans <|
  (W9_keep m ρ c main_arg9 (by decide)).trans <|
  (W8_of_ne m ρ c main_arg9 (by decide)).trans <|
  (W7_keep m ρ c main_arg9 (by decide)).trans <|
  (W6_of_ne m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans <|
  rfl
theorem W45_main_arg10 (c : Dev nD) : W45 m ρ c (Proc.devRef .tc main_arg10) = m ((c : Thread nD τ).loc main_arg10) :=
  (W45_keep m ρ c main_arg10 (by decide)).trans <|
  (W44_keep m ρ c main_arg10 (by decide)).trans <|
  (W43_keep m ρ c main_arg10 (by decide)).trans <|
  (W42_keep m ρ c main_arg10 (by decide)).trans <|
  (W41_keep m ρ c main_arg10 (by decide)).trans <|
  (W40_keep m ρ c main_arg10 (by decide)).trans <|
  (W39_keep m ρ c main_arg10 (by decide)).trans <|
  (W38_of_ne m ρ c main_arg10 (by decide)).trans <|
  (W37_keep m ρ c main_arg10 (by decide)).trans <|
  (W36_of_ne m ρ c main_arg10 (by decide)).trans <|
  (W35_keep m ρ c main_arg10 (by decide)).trans <|
  (W34_keep m ρ c main_arg10 (by decide)).trans <|
  (W33_of_ne m ρ c main_arg10 (by decide)).trans <|
  (W32_keep m ρ c main_arg10 (by decide)).trans <|
  (W31_of_ne m ρ c main_arg10 (by decide)).trans <|
  (W30_keep m ρ c main_arg10 (by decide)).trans <|
  (W29_keep m ρ c main_arg10 (by decide)).trans <|
  (W28_of_ne m ρ c main_arg10 (by decide)).trans <|
  (W27_keep m ρ c main_arg10 (by decide)).trans <|
  (W26_of_ne m ρ c main_arg10 (by decide)).trans <|
  (W25_keep m ρ c main_arg10 (by decide)).trans <|
  (W24_keep m ρ c main_arg10 (by decide)).trans <|
  (W23_of_ne m ρ c main_arg10 (by decide)).trans <|
  (W22_keep m ρ c main_arg10 (by decide)).trans <|
  (W21_of_ne m ρ c main_arg10 (by decide)).trans <|
  (W20_keep m ρ c main_arg10 (by decide)).trans <|
  (W19_keep m ρ c main_arg10 (by decide)).trans <|
  (W18_of_ne m ρ c main_arg10 (by decide)).trans <|
  (W17_keep m ρ c main_arg10 (by decide)).trans <|
  (W16_of_ne m ρ c main_arg10 (by decide)).trans <|
  (W15_keep m ρ c main_arg10 (by decide)).trans <|
  (W14_keep m ρ c main_arg10 (by decide)).trans <|
  (W13_of_ne m ρ c main_arg10 (by decide)).trans <|
  (W12_keep m ρ c main_arg10 (by decide)).trans <|
  (W11_of_ne m ρ c main_arg10 (by decide)).trans <|
  (W10_keep m ρ c main_arg10 (by decide)).trans <|
  (W9_keep m ρ c main_arg10 (by decide)).trans <|
  (W8_of_ne m ρ c main_arg10 (by decide)).trans <|
  (W7_keep m ρ c main_arg10 (by decide)).trans <|
  (W6_of_ne m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans <|
  rfl

/-! ## The proof data family and the thread state -/

/-- No pipeline reads a prefetched table. -/
abbrev adm : (p : Fin 14) → (pcfgs (F := F) p).Adm := fun p => (cfgs p).toPCfg_adm
/-- Every pipeline's proof data, each at its region's entry contents. -/
def pdats : (p : Fin 14) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V10 m ρ) c
  | ⟨3, _⟩ => fun c => dat3 (V12 m ρ) c
  | ⟨4, _⟩ => fun c => dat4 (V15 m ρ) c
  | ⟨5, _⟩ => fun c => dat5 (V17 m ρ) c
  | ⟨6, _⟩ => fun c => dat6 (V20 m ρ) c
  | ⟨7, _⟩ => fun c => dat7 (V22 m ρ) c
  | ⟨8, _⟩ => fun c => dat8 (V25 m ρ) c
  | ⟨9, _⟩ => fun c => dat9 (V27 m ρ) c
  | ⟨10, _⟩ => fun c => dat10 (V30 m ρ) c
  | ⟨11, _⟩ => fun c => dat11 (V32 m ρ) c
  | ⟨12, _⟩ => fun c => dat12 (V35 m ρ) c
  | ⟨13, _⟩ => fun c => dat13 (V37 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W45 m ρ c) ∗ ∃ r, prngReg c r)

/-! ## The regions as segments -/

set_option backward.isDefEq.respectTransparency.types false in
/-- Region 0 over the thread state: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W10`, left at `W11`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W12`, left at `W13`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V12 m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec3 c (V12 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V12 m ρ c) (V13 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W15`, left at `W16`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W17`, left at `W18`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W20`, left at `W21`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V20 m ρ) c).loose
  hwaits := Pipeline.hwaits_of_owed_zero _ _ _ _ L lv 6 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec6 c (V20 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V20 m ρ c) (V21 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W22`, left at `W23`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V22 m ρ) c).loose
  hwaits := Pipeline.hwaits_of_owed_zero _ _ _ _ L lv 7 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec7 c (V22 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V22 m ρ c) (V23 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W25`, left at `W26`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V25 m ρ) c).loose
  hwaits := Pipeline.hwaits_of_owed_zero _ _ _ _ L lv 8 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec8 c (V25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V25 m ρ c) (V26 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W27`, left at `W28`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V27 m ρ) c).loose
  hwaits := Pipeline.hwaits_of_owed_zero _ _ _ _ L lv 9 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec9 c (V27 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V27 m ρ c) (V28 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W30`, left at `W31`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V30 m ρ) c).loose
  hwaits := Pipeline.hwaits_of_owed_zero _ _ _ _ L lv 10 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec10 c (V30 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V30 m ρ c) (V31 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W32`, left at `W33`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V32 m ρ) c).loose
  hwaits := Pipeline.hwaits_of_owed_zero _ _ _ _ L lv 11 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec11 c (V32 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V32 m ρ c) (V33 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at `W35`, left at `W36`. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V35 m ρ) c).loose
  hwaits := Pipeline.hwaits_of_owed_zero _ _ _ _ L lv 12 fun _ _ => rfl
  pre c := iprop(StableHlo.held (c : Thread nD τ) (Pipeline.ucRefs τ sig) (W35 m ρ c) ∗ R c)
  post c := iprop(StableHlo.held (c : Thread nD τ) (Pipeline.ucRefs τ sig) (W36 m ρ c) ∗ R c)
  X c := iprop(∃ r, prngReg c r)
  Y c := iprop(∃ r, prngReg c r)
  Z c := Pipeline.unscopedRest (Ix := Unit) (Name := ℕ) (U := UR sig nD τ) (Lvl := ℕ) spec12 c (V35 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V35 m ρ c) (V36 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at `W37`, left at `W38`. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V37 m ρ) c).loose
  hwaits := Pipeline.hwaits_of_owed_zero _ _ _ _ L lv 13 fun _ _ => rfl
  pre c := iprop(StableHlo.held (c : Thread nD τ) (Pipeline.ucRefs τ sig) (W37 m ρ c) ∗ R c)
  post c := iprop(StableHlo.held (c : Thread nD τ) (Pipeline.ucRefs τ sig) (W38 m ρ c) ∗ R c)
  X c := iprop(∃ r, prngReg c r)
  Y c := iprop(∃ r, prngReg c r)
  Z c := Pipeline.unscopedRest (Ix := Unit) (Name := ℕ) (U := UR sig nD τ) (Lvl := ℕ) spec13 c (V37 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V37 m ρ c) (V38 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [
    .host (hseg hostOps0 hostOps0_sub Cert.KernelIdeal.GenP.hostOps0_fresh (W0 m ρ)),
    .host (hseg hostOps0_1 hostOps0_1_sub Cert.KernelIdeal.GenP.hostOps0_1_fresh (W1 m ρ)),
    .host (hseg hostOps0_2 hostOps0_2_sub Cert.KernelIdeal.GenP.hostOps0_2_fresh (W2 m ρ)),
    .host (hseg hostOps0_3 hostOps0_3_sub Cert.KernelIdeal.GenP.hostOps0_3_fresh (W3 m ρ)),
    .host (hseg hostOps0_4 hostOps0_4_sub Cert.KernelIdeal.GenP.hostOps0_4_fresh (W4 m ρ)),
    .region (reg0 m ρ),
    .host (hseg hostOps1 hostOps1_sub Cert.KernelIdeal.GenP.hostOps1_fresh (W6 m ρ)),
    .region (reg1 m ρ),
    .host (hseg hostOps2 hostOps2_sub Cert.KernelIdeal.GenP.hostOps2_fresh (W8 m ρ)),
    .host (hseg hostOps2_1 hostOps2_1_sub Cert.KernelIdeal.GenP.hostOps2_1_fresh (W9 m ρ)),
    .region (reg2 m ρ),
    .host (hseg hostOps3 hostOps3_sub Cert.KernelIdeal.GenP.hostOps3_fresh (W11 m ρ)),
    .region (reg3 m ρ),
    .host (hseg hostOps4 hostOps4_sub Cert.KernelIdeal.GenP.hostOps4_fresh (W13 m ρ)),
    .host (hseg hostOps4_1 hostOps4_1_sub Cert.KernelIdeal.GenP.hostOps4_1_fresh (W14 m ρ)),
    .region (reg4 m ρ),
    .host (hseg hostOps5 hostOps5_sub Cert.KernelIdeal.GenP.hostOps5_fresh (W16 m ρ)),
    .region (reg5 m ρ),
    .host (hseg hostOps6 hostOps6_sub Cert.KernelIdeal.GenP.hostOps6_fresh (W18 m ρ)),
    .host (hseg hostOps6_1 hostOps6_1_sub Cert.KernelIdeal.GenP.hostOps6_1_fresh (W19 m ρ)),
    .region (reg6 m ρ),
    .host (hseg hostOps7 hostOps7_sub Cert.KernelIdeal.GenP.hostOps7_fresh (W21 m ρ)),
    .region (reg7 m ρ),
    .host (hseg hostOps8 hostOps8_sub Cert.KernelIdeal.GenP.hostOps8_fresh (W23 m ρ)),
    .host (hseg hostOps8_1 hostOps8_1_sub Cert.KernelIdeal.GenP.hostOps8_1_fresh (W24 m ρ)),
    .region (reg8 m ρ),
    .host (hseg hostOps9 hostOps9_sub Cert.KernelIdeal.GenP.hostOps9_fresh (W26 m ρ)),
    .region (reg9 m ρ),
    .host (hseg hostOps10 hostOps10_sub Cert.KernelIdeal.GenP.hostOps10_fresh (W28 m ρ)),
    .host (hseg hostOps10_1 hostOps10_1_sub Cert.KernelIdeal.GenP.hostOps10_1_fresh (W29 m ρ)),
    .region (reg10 m ρ),
    .host (hseg hostOps11 hostOps11_sub Cert.KernelIdeal.GenP.hostOps11_fresh (W31 m ρ)),
    .region (reg11 m ρ),
    .host (hseg hostOps12 hostOps12_sub Cert.KernelIdeal.GenP.hostOps12_fresh (W33 m ρ)),
    .host (hseg hostOps12_1 hostOps12_1_sub Cert.KernelIdeal.GenP.hostOps12_1_fresh (W34 m ρ)),
    .region (reg12 m ρ),
    .host (hseg hostOps13 hostOps13_sub Cert.KernelIdeal.GenP.hostOps13_fresh (W36 m ρ)),
    .region (reg13 m ρ),
    .host (hseg hostOps14 hostOps14_sub Cert.KernelIdeal.GenP.hostOps14_fresh (W38 m ρ)),
    .host (hseg hostOps14_1 hostOps14_1_sub Cert.KernelIdeal.GenP.hostOps14_1_fresh (W39 m ρ)),
    .host (hseg hostOps14_2 hostOps14_2_sub Cert.KernelIdeal.GenP.hostOps14_2_fresh (W40 m ρ)),
    .host (hseg hostOps14_3 hostOps14_3_sub Cert.KernelIdeal.GenP.hostOps14_3_fresh (W41 m ρ)),
    .host (hseg hostOps14_4 hostOps14_4_sub Cert.KernelIdeal.GenP.hostOps14_4_fresh (W42 m ρ)),
    .host (hseg hostOps14_5 hostOps14_5_sub Cert.KernelIdeal.GenP.hostOps14_5_fresh (W43 m ρ)),
    .host (hseg hostOps14_6 hostOps14_6_sub Cert.KernelIdeal.GenP.hostOps14_6_fresh (W44 m ρ)) ]

set_option maxRecDepth 65536 in
/-- The program is the run of its segments. -/
theorem main_run (c : Dev nD) : main (F := F) c = Pipeline.Seg.run (segs m ρ) := (main_chain c).trans (by chain_rfl)

set_option maxRecDepth 65536 in
set_option backward.isDefEq.respectTransparency.types false in
/-- Every weakly fair execution of the program from memory `m` with zero counters terminates, nothing faulting, and in
    the final state every unscoped buffer of every core holds the last fold `W45`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W45 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W45 m ρ c) ∗ R c) : sProp 𝕄) ⊢ iprop(Tₙ m ρ c ∗ ∃ W, owes (c : Thread nD τ) (0 : CellTallies nD τ sig Unit) W)
      iintro ⟨Hh, Hr, HO⟩
      isplitl [Hh Hr]
      · isplitl [Hh]; · iexact Hh
        iexact Hr
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W45 m ρ c b)
    (hfin := fun c s' => by
      iintro ⟨⟨Hh, -⟩, HSI⟩
      unfold StableHlo.held
      imodintro
      iapply (pointsTo_read_all (Pipeline.ucRefs τ sig) (fun b => (((c : Thread nD τ)).1, b)) (W45 m ρ c) s')
      isplitl [Hh] <;> iassumption)
    (hQ := fun s h => h)

end Cert.KernelIdeal.KF

end
-- ==== Proof.BReg0.lean ====
/- Region 0 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the matrix product of a 4096x128 row block with the 128x128 weight, at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block, fetched at every point) holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, one block for the whole grid, fetched only where the index is first met) holds its
    block at every point, fetched there or not: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4096x128 := Rect.unit (s := S4096x128) ![0, 0] S4096x128.size inb_S4096x128_S4096x128_0_0
abbrev r0_1 : Rect S128x128 := Rect.unit (s := S128x128) ![0, 0] S128x128.size inb_S128x128_S128x128_0_0

/-- Window 2's buffer after the body, from the input windows' blocks: its one store. -/
def out0_2 (x0 : Vec F S4096x128 .f32) (x1 : Vec F S128x128 .f32) : Vec F S4096x128 .f32 :=
  View.canon [⟨r0_0, k0_pay1 (View.ld x0 r0_0) (View.ld x1 r0_1)⟩]

/-- The one store is the whole buffer, so it covers it. -/
theorem cover0_2 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out0_2` of the inputs'. -/
theorem sound_kernel0 (c : Dev nD) (E : Set ℕ) (i : grid0.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.KF

end
-- ==== Proof.BReg1.lean ====
/- Region 1 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the bias added to a 4096x128 row block, and the 32x128 block of traces, at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block, fetched at every point) holds its block at every point, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias row, one block for the whole grid) holds its block at every point, fetched there or
    not: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the 128x128 identity, one block for the whole grid) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S4096x128 := Rect.unit (s := S4096x128) ![0, 0] S4096x128.size inb_S4096x128_S4096x128_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0
abbrev r1_4 : Rect S32x128 := Rect.unit (s := S32x128) ![0, 0] S32x128.size inb_S32x128_S32x128_0_0

/-- Window 3's buffer after the body, from the input windows' blocks: its one store. -/
def out1_3 (x0 : Vec F S4096x128 .f32) (x1 : Vec F S1x128 .f32) : Vec F S4096x128 .f32 :=
  View.canon [⟨r1_0, k1_pay1 (View.ld x0 r1_0) (View.ld x1 r1_1)⟩]

/-- Window 4's buffer after the body, from the input windows' blocks: its one store. -/
def out1_4 (x0 : Vec F S4096x128 .f32) (x1 : Vec F S1x128 .f32) (x2 : Vec F S128x128 .f32) : Vec F S32x128 .f32 :=
  View.canon [⟨r1_4, k1_pay2 (View.ld x0 r1_0) (View.ld x1 r1_1) (View.ld x2 r1_2)⟩]

/-- Each store is its whole buffer, so it covers it. -/
theorem cover1_3 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y
theorem cover1_4 (p0 : Vec F S32x128 .f32) (y : S32x128.Idx) :
    ∃ pc ∈ ([⟨r1_4, p0⟩] : List (View.Piece (Elt F) S32x128 .f32)), y ∈ pc.1.set :=
  View.cover_of_tiled [⟨r1_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out1_3`, `out1_4` of the inputs'. -/
theorem sound_kernel1 (c : Dev nD) (E : Set ℕ) (i : grid1.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__bias_trace_kernel i arg1 harg1 arg2 harg2 arg3 harg3 arg4 harg4 arg5 harg5) K := by
  simp only [cc1__bias_trace_kernel_eq_skeleton]; unfold cc1__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and each output's at `out1_W` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.KF

end
-- ==== Proof.BReg2.lean ====
/- Region 2 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the matrix product of a 4096x128 row block with the 128x128 weight, at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the row block, fetched at every point) holds its block at every point, for any proof data whose
    array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the weight, one block for the whole grid, fetched only where the index is first met) holds its
    block at every point, fetched there or not: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S4096x128 := Rect.unit (s := S4096x128) ![0, 0] S4096x128.size inb_S4096x128_S4096x128_0_0
abbrev r2_1 : Rect S128x128 := Rect.unit (s := S128x128) ![0, 0] S128x128.size inb_S128x128_S128x128_0_0

/-- Window 2's buffer after the body, from the input windows' blocks: its one store. -/
def out2_2 (x0 : Vec F S4096x128 .f32) (x1 : Vec F S128x128 .f32) : Vec F S4096x128 .f32 :=
  View.canon [⟨r2_0, k2_pay1 (View.ld x0 r2_0) (View.ld x1 r2_1)⟩]

/-- The one store is the whole buffer, so it covers it. -/
theorem cover2_2 (p0 : Vec F S4096x128 .f32) (y : S4096x128.Idx) :
    ∃ pc ∈ ([⟨r2_0, p0⟩] : List (View.Piece (Elt F) S4096x128 .f32)), y ∈ pc.1.set :=
  View.cover_of_tiled [⟨r2_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out2_2` of the inputs'. -/
theorem sound_kernel2 (c : Dev nD) (E : Set ℕ) (i : grid2.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the scoped rest and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.KF

end
-- ==== Proof.BReg3.lean ====
/- Region 3 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: the bias added to a 4096x128 row block, and the 32x128 block of traces, at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block, fetched at every point) holds its block at every point, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the bias row, one block for the whole grid) holds its block at every point, fetched there or
    not: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the 128x128 identity, one block for the whole grid) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S4096x128 := Rect.unit (s := S4096x128) ![0, 0] S4096x128.size inb_S4096x128_S4096x128_0_0
abbrev r3_1 : Rect S1x128 := Rect.unit (s := S1x128) ![0, 0] S1x128.size inb_S1x128_S1x128_0_0
abbrev r3_2 : Rect S128x128 := Rect.unit (s := S128x128) ![0, 0] S128x128.size inb_S128x128_S128x128_0_0
abbrev r3_4 : Rect S32x128 := Rect.unit (s := S32x128) ![0, 0] S32x128.size inb_S32x128_S32x128_0_0

/-- Window 3's buffer after the body, from the input windows' blocks: its one store. -/
def out3_3 (x0 : Vec F S4096x128 .f32) (x1 : Vec F S1x128 .f32) : Vec F S4096x128 .f32 :=
  View.canon [⟨r3_0, k3_pay1 (View.ld x0 r3_0) (View.ld x1 r3_1)⟩]

/-- Window 4's buffer after the body, from the input windows' blocks: its one store. -/
def out3_4 (x0 : Vec F S4096x128 .f32) (x1 : Vec F S1x128 .f32) (x2 : Vec F S128x128 .f32) : Vec F S32x128 .f32 :=
  View.canon [⟨r3_4, k3_pay2 (View.ld x0 r3_0) (View.ld x1 r3_1) (View.ld x2 r3_2)⟩]

/-- Each store is its whole buffer, so it covers it. -/
theorem cover3_3 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y
theorem cover3_4 (p0 : Vec F S32x128 .f32) (y : S32x128.Idx) :
    ∃ pc ∈ ([⟨r3_4, p0⟩] : List (View.Piece (Elt F) S32x128 .f32)), y ∈ pc.1.set :=
  View.cover_of_tiled [⟨r3_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out3_3`, `out3_4` of the inputs'. -/
theorem sound_kernel3 (c : Dev nD) (E : Set ℕ) (i : grid3.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__bias_trace_kernel i arg1 harg1 arg2 harg2 arg3 harg3 arg4 harg4 arg5 harg5) K := by
  simp only [cc3__bias_trace_kernel_eq_skeleton]; unfold cc3__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The pipeline's proof data -/

/-- The proof data of pipeline 3 on core `c`: the arrays as the region finds them (`V`); after the body at point
    `t` each input's buffer at its block and each output's at `out3_W` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.KF

end
-- ==== Proof.BReg4.lean ====
/- Region 4 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4: the matrix product of a 4096x128 row block with the 128x128 weight, at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the row block, fetched at every point) holds its block at every point, for any proof data whose
    array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the weight, one block for the whole grid, fetched only where the index is first met) holds its
    block at every point, fetched there or not: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S4096x128 := Rect.unit (s := S4096x128) ![0, 0] S4096x128.size inb_S4096x128_S4096x128_0_0
abbrev r4_1 : Rect S128x128 := Rect.unit (s := S128x128) ![0, 0] S128x128.size inb_S128x128_S128x128_0_0

/-- Window 2's buffer after the body, from the input windows' blocks: its one store. -/
def out4_2 (x0 : Vec F S4096x128 .f32) (x1 : Vec F S128x128 .f32) : Vec F S4096x128 .f32 :=
  View.canon [⟨r4_0, k4_pay1 (View.ld x0 r4_0) (View.ld x1 r4_1)⟩]

/-- The one store is the whole buffer, so it covers it. -/
theorem cover4_2 (p0 : Vec F S4096x128 .f32) (y : S4096x128.Idx) :
    ∃ pc ∈ ([⟨r4_0, p0⟩] : List (View.Piece (Elt F) S4096x128 .f32)), y ∈ pc.1.set :=
  View.cover_of_tiled [⟨r4_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out4_2` of the inputs'. -/
theorem sound_kernel4 (c : Dev nD) (E : Set ℕ) (i : grid4.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point
    `t` each input's buffer at its block and the output's at `out4_2` of the input blocks; the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.KF

end
-- ==== Proof.BReg5.lean ====
/- Region 5 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5: the bias added to a 4096x128 row block, and the 32x128 block of traces, at the entry contents `V` -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the row block, fetched at every point) holds its block at every point, for any proof data whose
    array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 (the bias row, one block for the whole grid) holds its block at every point, fetched there or
    not: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the 128x128 identity, one block for the whole grid) likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev r5_0 : Rect S4096x128 := Rect.unit (s := S4096x128) ![0, 0] S4096x128.size inb_S4096x128_S4096x128_0_0
abbrev r5_1 : Rect S1x128 := Rect.unit (s := S1x128) ![0, 0] S1x128.size inb_S1x128_S1x128_0_0
abbrev r5_2 : Rect S128x128 := Rect.unit (s := S128x128) ![0, 0] S128x128.size inb_S128x128_S128x128_0_0
abbrev r5_4 : Rect S32x128 := Rect.unit (s := S32x128) ![0, 0] S32x128.size inb_S32x128_S32x128_0_0

/-- Window 3's buffer after the body, from the input windows' blocks: its one store. -/
def out5_3 (x0 : Vec F S4096x128 .f32) (x1 : Vec F S1x128 .f32) : Vec F S4096x128 .f32 :=
  View.canon [⟨r5_0, k5_pay1 (View.ld x0 r5_0) (View.ld x1 r5_1)⟩]

/-- Window 4's buffer after the body, from the input windows' blocks: its one store. -/
def out5_4 (x0 : Vec F S4096x128 .f32) (x1 : Vec F S1x128 .f32) (x2 : Vec F S128x128 .f32) : Vec F S32x128 .f32 :=
  View.canon [⟨r5_4, k5_pay2 (View.ld x0 r5_0) (View.ld x1 r5_1) (View.ld x2 r5_2)⟩]

/-- Each store is its whole buffer, so it covers it. -/
theorem cover5_3 (p0 : Vec F S4096x128 .f32) (y : S4096x128.Idx) :
    ∃ pc ∈ ([⟨r5_0, p0⟩] : List (View.Piece (Elt F) S4096x128 .f32)), y ∈ pc.1.set :=
  View.cover_of_tiled [⟨r5_0, p0⟩] S4096x128.size (by rfl) y
theorem cover5_4 (p0 : Vec F S32x128 .f32) (y : S32x128.Idx) :
    ∃ pc ∈ ([⟨r5_4, p0⟩] : List (View.Piece (Elt F) S32x128 .f32)), y ∈ pc.1.set :=
  View.cover_of_tiled [⟨r5_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out5_3`, `out5_4` of the inputs'. -/
theorem sound_kernel5 (c : Dev nD) (E : Set ℕ) (i : grid5.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1) ∗ owns (c : Thread nD τ) arg5 fullShare (out5_4 x0 x1 x2)) -∗ K ⟨⟩))
      ⊢ wp frame (wpE (defs₀ (F := F)) Variants.none c none) E (cc5__bias_trace_kernel i arg1 harg1 arg2 harg2 arg3 harg3 arg4 harg4 arg5 harg5) K := by
  simp only [cc5__bias_trace_kernel_eq_skeleton]; unfold cc5__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at point
    `t` each input's buffer at its block and each output's at `out5_W` of the input blocks; the scoped rest and the
    generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so `sound_kernel5` applies; the invariant and the
    core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.KF

end
-- ==== Proof.BReg6.lean ====
/- Region 6 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6: the matrix product of a 4096x128 row block with the 128x128 weight, at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0 (the row block, fetched at every point) holds its block at every point, for any proof data whose
    array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1 (the weight, one block for the whole grid, fetched only where the index is first met) holds its
    block at every point, fetched there or not: unfetched, the block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev r6_0 : Rect S4096x128 := Rect.unit (s := S4096x128) ![0, 0] S4096x128.size inb_S4096x128_S4096x128_0_0
abbrev r6_1 : Rect S128x128 := Rect.unit (s := S128x128) ![0, 0] S128x128.size inb_S128x128_S128x128_0_0

/-- Window 2's buffer after the body, from the input windows' blocks: its one store. -/
def out6_2 (x0 : Vec F S4096x128 .f32) (x1 : Vec F S128x128 .f32) : Vec F S4096x128 .f32 :=
  View.canon [⟨r6_0, k6_pay1 (View.ld x0 r6_0) (View.ld x1 r6_1)⟩]

/-- The one store is the whole buffer, so it covers it. -/
theorem cover6_2 (p0 : Vec F S4096x128 .f32) (y : S4096x128.Idx) :
    ∃ pc ∈ ([⟨r6_0, p0⟩] : List (View.Piece (Elt F) S4096x128 .f32)), y ∈ pc.1.set :=
  View.cover_of_tiled [⟨r6_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out6_2` of the inputs'. -/
theorem sound_kernel6 (c : Dev nD) (E : Set ℕ) (i : grid6.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at point
    `t` each input's buffer at its block and the output's at `out6_2` of the input blocks; the scoped rest and the
    generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.KF

end
-- ==== Proof.BReg7.lean ====
/- Region 7 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7: the bias added to a 4096x128 row block, and the 32x128 block of traces, at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0 (the row block, fetched at every point) holds its block at every point, for any proof data whose
    array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1 (the bias row, one block for the whole grid) holds its block at every point, fetched there or
    not: unfetched, the block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2 (the 128x128 identity, one block for the whole grid) likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer whole -/

abbrev r7_0 : Rect S4096x128 := Rect.unit (s := S4096x128) ![0, 0] S4096x128.size inb_S4096x128_S4096x128_0_0
abbrev r7_1 : Rect S1x128 := Rect.unit (s := S1x128) ![0, 0] S1x128.size inb_S1x128_S1x128_0_0
abbrev r7_2 : Rect S128x128 := Rect.unit (s := S128x128) ![0, 0] S128x128.size inb_S128x128_S128x128_0_0
abbrev r7_4 : Rect S32x128 := Rect.unit (s := S32x128) ![0, 0] S32x128.size inb_S32x128_S32x128_0_0

/-- Window 3's buffer after the body, from the input windows' blocks: its one store. -/
def out7_3 (x0 : Vec F S4096x128 .f32) (x1 : Vec F S1x128 .f32) : Vec F S4096x128 .f32 :=
  View.canon [⟨r7_0, k7_pay1 (View.ld x0 r7_0) (View.ld x1 r7_1)⟩]

/-- Window 4's buffer after the body, from the input windows' blocks: its one store. -/
def out7_4 (x0 : Vec F S4096x128 .f32) (x1 : Vec F S1x128 .f32) (x2 : Vec F S128x128 .f32) : Vec F S32x128 .f32 :=
  View.canon [⟨r7_4, k7_pay2 (View.ld x0 r7_0) (View.ld x1 r7_1) (View.ld x2 r7_2)⟩]

/-- Each store is its whole buffer, so it covers it. -/
theorem cover7_3 (p0 : Vec F S4096x128 .f32) (y : S4096x128.Idx) :
    ∃ pc ∈ ([⟨r7_0, p0⟩] : List (View.Piece (Elt F) S4096x128 .f32)), y ∈ pc.1.set :=
  View.cover_of_tiled [⟨r7_0, p0⟩] S4096x128.size (by rfl) y
theorem cover7_4 (p0 : Vec F S32x128 .f32) (y : S32x128.Idx) :
    ∃ pc ∈ ([⟨r7_4, p0⟩] : List (View.Piece (Elt F) S32x128 .f32)), y ∈ pc.1.set :=
  View.cover_of_tiled [⟨r7_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out7_3`, `out7_4` of the inputs'. -/
theorem sound_kernel7 (c : Dev nD) (E : Set ℕ) (i : grid7.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1) ∗ owns (c : Thread nD τ) arg5 fullShare (out7_4 x0 x1 x2)) -∗ K ⟨⟩))
      ⊢ wp frame (wpE (defs₀ (F := F)) Variants.none c none) E (cc7__bias_trace_kernel i arg1 harg1 arg2 harg2 arg3 harg3 arg4 harg4 arg5 harg5) K := by
  simp only [cc7__bias_trace_kernel_eq_skeleton]; unfold cc7__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_3 _)
  iexists _; isplitr
  swap; · iexact H4
  ipureintro
  exact View.read_writes_eq_canon _ _ _ (cover7_4 _)

/-! ## The pipeline's proof data -/

/-- The proof data of pipeline 7 on core `c`: the arrays as the region finds them (`V`); after the body at point
    `t` each input's buffer at its block and each output's at `out7_W` of the input blocks; the scoped rest and the
    generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t)
    | ⟨4, _⟩ => out7_4 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) := by dsimp only [dat7]
theorem after7_4 (c : Dev nD) (t : Fin cfg7.N) : (dat7 V c).after 4 t = out7_4 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so `sound_kernel7` applies; the invariant and the
    core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.KF

end
-- ==== Proof.BReg8.lean ====
/- Region 8 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the matrix product of a 4096x128 row block with the 128x128 weight, at the entry contents `V` -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0 (the row block, fetched at every point) holds its block at every point, for any proof data whose
    array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1 (the weight, one block for the whole grid, fetched only where the index is first met) holds its
    block at every point, fetched there or not: unfetched, the block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev r8_0 : Rect S4096x128 := Rect.unit (s := S4096x128) ![0, 0] S4096x128.size inb_S4096x128_S4096x128_0_0
abbrev r8_1 : Rect S128x128 := Rect.unit (s := S128x128) ![0, 0] S128x128.size inb_S128x128_S128x128_0_0

/-- Window 2's buffer after the body, from the input windows' blocks: its one store. -/
def out8_2 (x0 : Vec F S4096x128 .f32) (x1 : Vec F S128x128 .f32) : Vec F S4096x128 .f32 :=
  View.canon [⟨r8_0, k8_pay1 (View.ld x0 r8_0) (View.ld x1 r8_1)⟩]

/-- The one store is the whole buffer, so it covers it. -/
theorem cover8_2 (p0 : Vec F S4096x128 .f32) (y : S4096x128.Idx) :
    ∃ pc ∈ ([⟨r8_0, p0⟩] : List (View.Piece (Elt F) S4096x128 .f32)), y ∈ pc.1.set :=
  View.cover_of_tiled [⟨r8_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out8_2` of the inputs'. -/
theorem sound_kernel8 (c : Dev nD) (E : Set ℕ) (i : grid8.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__matmul_kernel i arg1 harg1 arg2 harg2 arg3 harg3) K := by
  simp only [cc8__matmul_kernel_eq_skeleton]; unfold cc8__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of pipeline 8 on core `c`: the arrays as the region finds them (`V`); after the body at point
    `t` each input's buffer at its block and the output's at `out8_2` of the input blocks; the scoped rest and the
    generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.KF

end
-- ==== Proof.BReg9.lean ====
/- Region 9 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the bias added to a 4096x128 row block, and the 32x128 block of traces, at the entry contents `V` -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0 (the row block, fetched at every point) holds its block at every point, for any proof data whose
    array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1 (the bias row, one block for the whole grid) holds its block at every point, fetched there or
    not: unfetched, the block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2 (the 128x128 identity, one block for the whole grid) likewise. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer whole -/

abbrev r9_0 : Rect S4096x128 := Rect.unit (s := S4096x128) ![0, 0] S4096x128.size inb_S4096x128_S4096x128_0_0
abbrev r9_1 : Rect S1x128 := Rect.unit (s := S1x128) ![0, 0] S1x128.size inb_S1x128_S1x128_0_0
abbrev r9_2 : Rect S128x128 := Rect.unit (s := S128x128) ![0, 0] S128x128.size inb_S128x128_S128x128_0_0
abbrev r9_4 : Rect S32x128 := Rect.unit (s := S32x128) ![0, 0] S32x128.size inb_S32x128_S32x128_0_0

/-- Window 3's buffer after the body, from the input windows' blocks: its one store. -/
def out9_3 (x0 : Vec F S4096x128 .f32) (x1 : Vec F S1x128 .f32) : Vec F S4096x128 .f32 :=
  View.canon [⟨r9_0, k9_pay1 (View.ld x0 r9_0) (View.ld x1 r9_1)⟩]

/-- Window 4's buffer after the body, from the input windows' blocks: its one store. -/
def out9_4 (x0 : Vec F S4096x128 .f32) (x1 : Vec F S1x128 .f32) (x2 : Vec F S128x128 .f32) : Vec F S32x128 .f32 :=
  View.canon [⟨r9_4, k9_pay2 (View.ld x0 r9_0) (View.ld x1 r9_1) (View.ld x2 r9_2)⟩]

/-- Each store is its whole buffer, so it covers it. -/
theorem cover9_3 (p0 : Vec F S4096x128 .f32) (y : S4096x128.Idx) :
    ∃ pc ∈ ([⟨r9_0, p0⟩] : List (View.Piece (Elt F) S4096x128 .f32)), y ∈ pc.1.set :=
  View.cover_of_tiled [⟨r9_0, p0⟩] S4096x128.size (by rfl) y
theorem cover9_4 (p0 : Vec F S32x128 .f32) (y : S32x128.Idx) :
    ∃ pc ∈ ([⟨r9_4, p0⟩] : List (View.Piece (Elt F) S32x128 .f32)), y ∈ pc.1.set :=
  View.cover_of_tiled [⟨r9_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out9_3`, `out9_4` of the inputs'. -/
theorem sound_kernel9 (c : Dev nD) (E : Set ℕ) (i : grid9.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1) ∗ owns (c : Thread nD τ) arg5 fullShare (out9_4 x0 x1 x2)) -∗ K ⟨⟩))
      ⊢ wp frame (wpE (defs₀ (F := F)) Variants.none c none) E (cc9__bias_trace_kernel i arg1 harg1 arg2 harg2 arg3 harg3 arg4 harg4 arg5 harg5) K := by
  simp only [cc9__bias_trace_kernel_eq_skeleton]; unfold cc9__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover9_3 _)
  iexists _; isplitr
  swap; · iexact H4
  ipureintro
  exact View.read_writes_eq_canon _ _ _ (cover9_4 _)

/-! ## The pipeline's proof data -/

/-- The proof data of pipeline 9 on core `c`: the arrays as the region finds them (`V`); after the body at point
    `t` each input's buffer at its block and each output's at `out9_W` of the input blocks; the scoped rest and the
    generator register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t)
    | ⟨4, _⟩ => out9_4 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) := by dsimp only [dat9]
theorem after9_4 (c : Dev nD) (t : Fin cfg9.N) : (dat9 V c).after 4 t = out9_4 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so `sound_kernel9` applies; the invariant and the
    core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.KF

end
-- ==== Proof.BReg10.lean ====
/- Region 10 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the matrix product of a 4096x128 row block with the 128x128 weight, at the entry contents `V` -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0 (the row block, fetched at every point) holds its block at every point, for any proof data whose
    array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1 (the weight, one block for the whole grid, fetched only where the index is first met) holds its
    block at every point, fetched there or not: unfetched, the block index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer whole -/

abbrev r10_0 : Rect S4096x128 := Rect.unit (s := S4096x128) ![0, 0] S4096x128.size inb_S4096x128_S4096x128_0_0
abbrev r10_1 : Rect S128x128 := Rect.unit (s := S128x128) ![0, 0] S128x128.size inb_S128x128_S128x128_0_0

/-- Window 2's buffer after the body, from the input windows' blocks: its one store. -/
def out10_2 (x0 : Vec F S4096x128 .f32) (x1 : Vec F S128x128 .f32) : Vec F S4096x128 .f32 :=
  View.canon [⟨r10_0, k10_pay1 (View.ld x0 r10_0) (View.ld x1 r10_1)⟩]

/-- The one store is the whole buffer, so it covers it. -/
theorem cover10_2 (p0 : Vec F S4096x128 .f32) (y : S4096x128.Idx) :
    ∃ pc ∈ ([⟨r10_0, p0⟩] : List (View.Piece (Elt F) S4096x128 .f32)), y ∈ pc.1.set :=
  View.cover_of_tiled [⟨r10_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out10_2` of the inputs'. -/
theorem sound_kernel10 (c : Dev nD) (E : Set ℕ) (i : grid10.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__matmul_kernel i arg1 harg1 arg2 harg2 arg3 harg3) K := by
  simp only [cc10__matmul_kernel_eq_skeleton]; unfold cc10__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core `c`: the arrays as the region finds them (`V`); after the body at point
    `t` each input's buffer at its block and the output's at `out10_2` of the input blocks; the scoped rest and the
    generator register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and the
    core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.KF

end
-- ==== Proof.BReg11.lean ====
/- Region 11 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11: the bias added to a 4096x128 row block, and the 32x128 block of traces, at the entry contents `V` -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0 (the row block, fetched at every point) holds its block at every point, for any proof data whose
    array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1 (the bias row, one block for the whole grid) holds its block at every point, fetched there or
    not: unfetched, the block index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2 (the 128x128 identity, one block for the whole grid) likewise. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer whole -/

abbrev r11_0 : Rect S4096x128 := Rect.unit (s := S4096x128) ![0, 0] S4096x128.size inb_S4096x128_S4096x128_0_0
abbrev r11_1 : Rect S1x128 := Rect.unit (s := S1x128) ![0, 0] S1x128.size inb_S1x128_S1x128_0_0
abbrev r11_2 : Rect S128x128 := Rect.unit (s := S128x128) ![0, 0] S128x128.size inb_S128x128_S128x128_0_0
abbrev r11_4 : Rect S32x128 := Rect.unit (s := S32x128) ![0, 0] S32x128.size inb_S32x128_S32x128_0_0

/-- Window 3's buffer after the body, from the input windows' blocks: its one store. -/
def out11_3 (x0 : Vec F S4096x128 .f32) (x1 : Vec F S1x128 .f32) : Vec F S4096x128 .f32 :=
  View.canon [⟨r11_0, k11_pay1 (View.ld x0 r11_0) (View.ld x1 r11_1)⟩]

/-- Window 4's buffer after the body, from the input windows' blocks: its one store. -/
def out11_4 (x0 : Vec F S4096x128 .f32) (x1 : Vec F S1x128 .f32) (x2 : Vec F S128x128 .f32) : Vec F S32x128 .f32 :=
  View.canon [⟨r11_4, k11_pay2 (View.ld x0 r11_0) (View.ld x1 r11_1) (View.ld x2 r11_2)⟩]

/-- Each store is its whole buffer, so it covers it. -/
theorem cover11_3 (p0 : Vec F S4096x128 .f32) (y : S4096x128.Idx) :
    ∃ pc ∈ ([⟨r11_0, p0⟩] : List (View.Piece (Elt F) S4096x128 .f32)), y ∈ pc.1.set :=
  View.cover_of_tiled [⟨r11_0, p0⟩] S4096x128.size (by rfl) y
theorem cover11_4 (p0 : Vec F S32x128 .f32) (y : S32x128.Idx) :
    ∃ pc ∈ ([⟨r11_4, p0⟩] : List (View.Piece (Elt F) S32x128 .f32)), y ∈ pc.1.set :=
  View.cover_of_tiled [⟨r11_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out11_3`, `out11_4` of the inputs'. -/
theorem sound_kernel11 (c : Dev nD) (E : Set ℕ) (i : grid11.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1) ∗ owns (c : Thread nD τ) arg5 fullShare (out11_4 x0 x1 x2)) -∗ K ⟨⟩))
      ⊢ wp frame (wpE (defs₀ (F := F)) Variants.none c none) E (cc11__bias_trace_kernel i arg1 harg1 arg2 harg2 arg3 harg3 arg4 harg4 arg5 harg5) K := by
  simp only [cc11__bias_trace_kernel_eq_skeleton]; unfold cc11__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover11_3 _)
  iexists _; isplitr
  swap; · iexact H4
  ipureintro
  exact View.read_writes_eq_canon _ _ _ (cover11_4 _)

/-! ## The pipeline's proof data -/

/-- The proof data of pipeline 11 on core `c`: the arrays as the region finds them (`V`); after the body at point
    `t` each input's buffer at its block and each output's at `out11_W` of the input blocks; the scoped rest and the
    generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t)
    | ⟨4, _⟩ => out11_4 (iblk11 V c 0 t) (iblk11 V c 1 t) (iblk11 V c 2 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) := by dsimp only [dat11]
theorem after11_4 (c : Dev nD) (t : Fin cfg11.N) : (dat11 V c).after 4 t = out11_4 (iblk11 V c 0 t) (iblk11 V c 1 t) (iblk11 V c 2 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' memrefs hold their blocks, so `sound_kernel11` applies; the invariant and the
    core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.KF

end
-- ==== Proof.BReg12.lean ====
/- Region 12 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 12: the matrix product of a 4096x128 row block with the 128x128 weight, at the entry contents `V` -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0 (the row block, fetched at every point) holds its block at every point, for any proof data whose
    array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1 (the weight, one block for the whole grid, fetched only where the index is first met) holds its
    block at every point, fetched there or not: unfetched, the block index has not moved. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each buffer whole -/

abbrev r12_0 : Rect S4096x128 := Rect.unit (s := S4096x128) ![0, 0] S4096x128.size inb_S4096x128_S4096x128_0_0
abbrev r12_1 : Rect S128x128 := Rect.unit (s := S128x128) ![0, 0] S128x128.size inb_S128x128_S128x128_0_0

/-- Window 2's buffer after the body, from the input windows' blocks: its one store. -/
def out12_2 (x0 : Vec F S4096x128 .f32) (x1 : Vec F S128x128 .f32) : Vec F S4096x128 .f32 :=
  View.canon [⟨r12_0, k12_pay1 (View.ld x0 r12_0) (View.ld x1 r12_1)⟩]

/-- The one store is the whole buffer, so it covers it. -/
theorem cover12_2 (p0 : Vec F S4096x128 .f32) (y : S4096x128.Idx) :
    ∃ pc ∈ ([⟨r12_0, p0⟩] : List (View.Piece (Elt F) S4096x128 .f32)), y ∈ pc.1.set :=
  View.cover_of_tiled [⟨r12_0, p0⟩] S4096x128.size (by rfl) y

/-! ## The body's triple -/

set_option maxHeartbeats 1000000 in
/-- The kernel body on whole staging memrefs, the inputs' at read contents `x0`, `x1` and the output's at anything
    (the body reads it once before overwriting it whole), runs to the continuation holding the inputs' as they were
    and the output's at `out12_2` of the inputs'. -/
theorem sound_kernel12 (c : Dev nD) (E : Set ℕ) (i : grid12.Coords) (arg1 : Memref sig .tc .vmem S4096x128 .f32) (harg1 : arg1.IsWhole) (arg2 : Memref sig .tc .vmem S128x128 .f32) (harg2 : arg2.IsWhole) (arg3 : Memref sig .tc .vmem S4096x128 .f32) (harg3 : arg3.IsWhole)
    (x0 : Vec F S4096x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-! ## The pipeline's proof data -/

/-- The proof data of pipeline 12 on core `c`: the arrays as the region finds them (`V`); after the body at point
    `t` each input's buffer at its block and the output's at `out12_2` of the input blocks; the scoped rest and the
    generator register untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and the
    core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.KF

end
-- ==== Proof.BReg13.lean ====
/- Region 13 of the kernel program, at any float model `F` and any entry contents `V`: each window's block at a point,
   what the body leaves in each output window's buffer, the body's triple, the pipeline's proof data and the body obligation.
   The modules imported from `Gen` are generated. -/
import proofs.«156722_j77687368450207_1_alg».proof.Proof.Gen.Kernel.Launch
import proofs.«156722_j77687368450207_1_alg».proof.Proof.Gen.Kernel.Skeleton
import proofs.«156722_j77687368450207_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 13: the bias added to a 4096x128 row block, and the 32x128 block of traces, at the entry contents `V` -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0 (the row block, fetched at every point) holds its block at every point, for any proof data whose
    array is `V`'s and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1 (the bias row, one block for the whole grid) holds its block at every point, fetched there or
    not: unfetched, the block index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2 (the 128x128 identity, one block for the whole grid) likewise. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer whole -/

abbrev r13_0 : Rect S4096x128 := Rect.unit (s := S4096x128) ![0, 0] S4096x128.size inb_S4096x128_S4096x128_0_0
abbrev r13_1 : Rect S1x128 := Rect.unit (s := S1x128) ![0, 0] S1x128.size inb_S1x128_S1x128_0_0
abbrev r13_2 : Rect S128x128 := Rect.unit (s := S128x128) ![0, 0] S128x128.size inb_S128x128_S128x128_0_0
abbrev r13_4 : Rect S32x128 := Rect.unit (s := S32x128) ![0, 0] S32x128.size inb_S32x128_S32x128_0_0

/-- Window 3's buffer after the body, from the input windows' blocks: its one store. -/
def out13_3 (x0 : Vec F S4096x128 .f32) (x1 : Vec F S1x128 .f32) : Vec F S4096x128 .f32 :=
  View.canon [⟨r13_0, k13_pay1 (View.ld x0 r13_0) (View.ld x1 r13_1)⟩]

/-- Window 4's buffer after the body, from the input windows' blocks: its one store. -/
def out13_4 (x0 : Vec F S4096x128 .f32) (x1 : Vec F S1x128 .f32) (x2 : Vec F S128x128 .f32) : Vec F S32x128 .f32 :=
  View.canon [⟨r13_4, k13_pay2 (View.ld x0 r13_0) (View.ld x1 r13_1) (View.ld x2 r13_2)⟩]

/-- Each store is its whole buffer, so it covers it. -/
theorem cover13_3 (p0 : Vec F S4096x128 .f32) (y : S4096x128.Idx) :
    ∃ pc ∈ ([⟨r13_0, p0⟩] : List (View.Piece (Elt F) S4096x128 .f32)), y ∈ pc.1.set :=
  View.cover_of_tiled [⟨r13_0, p0⟩] S4096x128.size (by rfl) y
theorem cover13_4 (p0 : Vec F S32x128 .f32) (y : S32x128.Idx) :
    ∃ pc ∈ ([⟨r13_4, p0⟩] : List (View.Piece (Elt F) S32x128 .f32)), y ∈ pc.1.set :=
  View.cover_of_tiled [⟨r13_4, p0⟩] S32x128.size (by rfl) y

/-! ## The body's triple -/

set_option maxHeartbeats 1000000 in
/-- The kernel body on whole staging memrefs, the inputs' at read contents `x0`, `x1`, `x2` and the outputs' at
    anything (the body reads each once before overwriting it whole), runs to the continuation holding the inputs' as
    they were and the outputs' at `out13_3`, `out13_4` of the inputs'. -/
theorem sound_kernel13 (c : Dev nD) (E : Set ℕ) (i : grid13.Coords) (arg1 : Memref sig .tc .vmem S4096x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S32x128 .f32) (harg5 : arg5.IsWhole)
    (x0 : Vec F S4096x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1) ∗ owns (c : Thread nD τ) arg5 fullShare (out13_4 x0 x1 x2)) -∗ K ⟨⟩))
      ⊢ wp frame (wpE (defs₀ (F := F)) Variants.none c none) E (cc13__bias_trace_kernel i arg1 harg1 arg2 harg2 arg3 harg3 arg4 harg4 arg5 harg5) K := by
  simp only [cc13__bias_trace_kernel_eq_skeleton]; unfold cc13__bias_trace_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover13_3 _)
  iexists _; isplitr
  swap; · iexact H4
  ipureintro
  exact View.read_writes_eq_canon _ _ _ (cover13_4 _)

/-! ## The pipeline's proof data -/

/-- The proof data of pipeline 13 on core `c`: the arrays as the region finds them (`V`); after the body at point
    `t` each input's buffer at its block and each output's at `out13_W` of the input blocks; the scoped rest and the
    generator register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t)
    | ⟨4, _⟩ => out13_4 (iblk13 V c 0 t) (iblk13 V c 1 t) (iblk13 V c 2 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = out13_3 (iblk13 V c 0 t) (iblk13 V c 1 t) := by dsimp only [dat13]
theorem after13_4 (c : Dev nD) (t : Fin cfg13.N) : (dat13 V c).after 4 t = out13_4 (iblk13 V c 0 t) (iblk13 V c 1 t) (iblk13 V c 2 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t))

/-- The body at any point: the inputs' memrefs hold their blocks, so `sound_kernel13` applies; the invariant and the
    core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3, after13_4]
  iintro ⟨HΦ, Ho, ⟨%d0, H0⟩, ⟨%d1, H1⟩, ⟨%d2, H2⟩, ⟨%d3, H3⟩, ⟨%d4, H4⟩⟩
  iapply (sound_kernel13 c Set.univ _ _ _ _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.KF

end
-- ==== Proof.BRun.lean ====
/-
  The run of the whole program as a chain of its host stretches and its fourteen pipelined regions: the contents of
  every unscoped buffer at each boundary as a fold from the launch memory (a stretch applies its operations; a region
  replaces its output arrays by what its grid points wrote back and leaves every other buffer alone), each region as a
  segment whose body obligation is the kernel's own triple, and the end state read back: every unscoped buffer holds
  the last fold, and no step of the fold touches an argument array.
-/
import proofs.«156722_j77687368450207_1_alg».proof.Proof.BReg0
import proofs.«156722_j77687368450207_1_alg».proof.Proof.BReg1
import proofs.«156722_j77687368450207_1_alg».proof.Proof.BReg2
import proofs.«156722_j77687368450207_1_alg».proof.Proof.BReg3
import proofs.«156722_j77687368450207_1_alg».proof.Proof.BReg4
import proofs.«156722_j77687368450207_1_alg».proof.Proof.BReg5
import proofs.«156722_j77687368450207_1_alg».proof.Proof.BReg6
import proofs.«156722_j77687368450207_1_alg».proof.Proof.BReg7
import proofs.«156722_j77687368450207_1_alg».proof.Proof.BReg8
import proofs.«156722_j77687368450207_1_alg».proof.Proof.BReg9
import proofs.«156722_j77687368450207_1_alg».proof.Proof.BReg10
import proofs.«156722_j77687368450207_1_alg».proof.Proof.BReg11
import proofs.«156722_j77687368450207_1_alg».proof.Proof.BReg12
import proofs.«156722_j77687368450207_1_alg».proof.Proof.BReg13
import proofs.«156722_j77687368450207_1_alg».proof.Proof.BHostFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the stretch `hostOps0`. -/
abbrev W1 : Dev nD → Valuation τ sig (Elt F) := fun c => StableHlo.after hostOps0 (W0 m ρ c)
theorem W1_keep (c : Dev nD) (r : Ref sig .tc) (h : r ∉ Cert.Kernel.GenP.hostOps0_W) :
    W1 m ρ c (Proc.devRef .tc r) = W0 m ρ c (Proc.devRef .tc r) :=
  StableHlo.after_of_writes_sub hostOps0 _ Cert.Kernel.GenP.hostOps0_writes h
/-- After the stretch `hostOps0_1`. -/
abbrev W2 : Dev nD → Valuation τ sig (Elt F) := fun c => StableHlo.after hostOps0_1 (W1 m ρ c)
theorem W2_keep (c : Dev nD) (r : Ref sig .tc) (h : r ∉ Cert.Kernel.GenP.hostOps0_1_W) :
    W2 m ρ c (Proc.devRef .tc r) = W1 m ρ c (Proc.devRef .tc r) :=
  StableHlo.after_of_writes_sub hostOps0_1 _ Cert.Kernel.GenP.hostOps0_1_writes h
/-- After the stretch `hostOps0_2`. -/
abbrev W3 : Dev nD → Valuation τ sig (Elt F) := fun c => StableHlo.after hostOps0_2 (W2 m ρ c)
theorem W3_keep (c : Dev nD) (r : Ref sig .tc) (h : r ∉ Cert.Kernel.GenP.hostOps0_2_W) :
    W3 m ρ c (Proc.devRef .tc r) = W2 m ρ c (Proc.devRef .tc r) :=
  StableHlo.after_of_writes_sub hostOps0_2 _ Cert.Kernel.GenP.hostOps0_2_writes h
/-- After the stretch `hostOps0_3`. -/
abbrev W4 : Dev nD → Valuation τ sig (Elt F) := fun c => StableHlo.after hostOps0_3 (W3 m ρ c)
theorem W4_keep (c : Dev nD) (r : Ref sig .tc) (h : r ∉ Cert.Kernel.GenP.hostOps0_3_W) :
    W4 m ρ c (Proc.devRef .tc r) = W3 m ρ c (Proc.devRef .tc r) :=
  StableHlo.after_of_writes_sub hostOps0_3 _ Cert.Kernel.GenP.hostOps0_3_writes h
/-- After the stretch `hostOps0_4`. -/
abbrev W5 : Dev nD → Valuation τ sig (Elt F) := fun c => StableHlo.after hostOps0_4 (W4 m ρ c)
theorem W5_keep (c : Dev nD) (r : Ref sig .tc) (h : r ∉ Cert.Kernel.GenP.hostOps0_4_W) :
    W5 m ρ c (Proc.devRef .tc r) = W4 m ρ c (Proc.devRef .tc r) :=
  StableHlo.after_of_writes_sub hostOps0_4 _ Cert.Kernel.GenP.hostOps0_4_writes h
/-- What region 0 is entered from, read at the TensorCore's references. -/
abbrev V5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the stretch `hostOps1`. -/
abbrev W7 : Dev nD → Valuation τ sig (Elt F) := fun c => StableHlo.after hostOps1 (W6 m ρ c)
theorem W7_keep (c : Dev nD) (r : Ref sig .tc) (h : r ∉ Cert.Kernel.GenP.hostOps1_W) :
    W7 m ρ c (Proc.devRef .tc r) = W6 m ρ c (Proc.devRef .tc r) :=
  StableHlo.after_of_writes_sub hostOps1 _ Cert.Kernel.GenP.hostOps1_writes h
/-- What region 1 is entered from, read at the TensorCore's references. -/
abbrev V7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the stretch `hostOps2`. -/
abbrev W9 : Dev nD → Valuation τ sig (Elt F) := fun c => StableHlo.after hostOps2 (W8 m ρ c)
theorem W9_keep (c : Dev nD) (r : Ref sig .tc) (h : r ∉ Cert.Kernel.GenP.hostOps2_W) :
    W9 m ρ c (Proc.devRef .tc r) = W8 m ρ c (Proc.devRef .tc r) :=
  StableHlo.after_of_writes_sub hostOps2 _ Cert.Kernel.GenP.hostOps2_writes h
/-- After the stretch `hostOps2_1`. -/
abbrev W10 : Dev nD → Valuation τ sig (Elt F) := fun c => StableHlo.after hostOps2_1 (W9 m ρ c)
theorem W10_keep (c : Dev nD) (r : Ref sig .tc) (h : r ∉ Cert.Kernel.GenP.hostOps2_1_W) :
    W10 m ρ c (Proc.devRef .tc r) = W9 m ρ c (Proc.devRef .tc r) :=
  StableHlo.after_of_writes_sub hostOps2_1 _ Cert.Kernel.GenP.hostOps2_1_writes h
/-- What region 2 is entered from, read at the TensorCore's references. -/
abbrev V10 : (c : Dev nD) → (b : Ref sig .tc) → Buf (Elt F) ((c : Thread nD τ).loc b) := fun c b => W10 m ρ c b
/-- At region 2's exit: its arrays at what the pipeline leaves, every other buffer as entered. -/
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
/-- After the stretch `hostOps3`. -/
abbrev W12 : Dev nD → Valuation τ sig (Elt F) := fun c => StableHlo.after hostOps3 (W11 m ρ c)
theorem W12_keep (c : Dev nD) (r : Ref sig .tc) (h : r ∉ Cert.Kernel.GenP.hostOps3_W) :
    W12 m ρ c (Proc.devRef .tc r) = W11 m ρ c (Proc.devRef .tc r) :=
  StableHlo.after_of_writes_sub hostOps3 _ Cert.Kernel.GenP.hostOps3_writes h
/-- What region 3 is entered from, read at the TensorCore's references. -/
abbrev V12 : (c : Dev nD) → (b : Ref sig .tc) → Buf (Elt F) ((c : Thread nD τ).loc b) := fun c b => W12 m ρ c b
/-- At region 3's exit: its arrays at what the pipeline leaves, every other buffer as entered. -/
def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
abbrev V13 : (c : Dev nD) → (b : Ref sig .tc) → Buf (Elt F) ((c : Thread nD τ).loc b) := fun c b => W13 m ρ c b
theorem hF3 (c : Dev nD) (w : Fin cfg3.W) : (dat3 (V12 m ρ) c).arrAt w cfg3.N = V13 m ρ c (Pipeline.arrRef spec3 w) :=
  (W13_arr m ρ c w).symm
theorem hrest3 (c : Dev nD) : ∀ b, b ∉ Finset.univ.image (Pipeline.arrRef spec3) → V13 m ρ c b = V12 m ρ c b :=
  fun b hb => W13_of_ne m ρ c b fun w e => hb (Finset.mem_image.mpr ⟨w, Finset.mem_univ _, e⟩)
/-- After the stretch `hostOps4`. -/
abbrev W14 : Dev nD → Valuation τ sig (Elt F) := fun c => StableHlo.after hostOps4 (W13 m ρ c)
theorem W14_keep (c : Dev nD) (r : Ref sig .tc) (h : r ∉ Cert.Kernel.GenP.hostOps4_W) :
    W14 m ρ c (Proc.devRef .tc r) = W13 m ρ c (Proc.devRef .tc r) :=
  StableHlo.after_of_writes_sub hostOps4 _ Cert.Kernel.GenP.hostOps4_writes h
/-- After the stretch `hostOps4_1`. -/
abbrev W15 : Dev nD → Valuation τ sig (Elt F) := fun c => StableHlo.after hostOps4_1 (W14 m ρ c)
theorem W15_keep (c : Dev nD) (r : Ref sig .tc) (h : r ∉ Cert.Kernel.GenP.hostOps4_1_W) :
    W15 m ρ c (Proc.devRef .tc r) = W14 m ρ c (Proc.devRef .tc r) :=
  StableHlo.after_of_writes_sub hostOps4_1 _ Cert.Kernel.GenP.hostOps4_1_writes h
/-- What region 4 is entered from, read at the TensorCore's references. -/
abbrev V15 : (c : Dev nD) → (b : Ref sig .tc) → Buf (Elt F) ((c : Thread nD τ).loc b) := fun c b => W15 m ρ c b
/-- At region 4's exit: its arrays at what the pipeline leaves, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev V16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = V16 m ρ c (Pipeline.arrRef spec4 w) :=
  (W16_arr m ρ c w).symm
theorem hrest4 (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)
/-- After the stretch `hostOps5`. -/
abbrev W17 : Dev nD → Valuation τ sig (Elt F) := fun c => StableHlo.after hostOps5 (W16 m ρ c)
theorem W17_keep (c : Dev nD) (r : Ref sig .tc) (h : r ∉ Cert.Kernel.GenP.hostOps5_W) :
    W17 m ρ c (Proc.devRef .tc r) = W16 m ρ c (Proc.devRef .tc r) :=
  StableHlo.after_of_writes_sub hostOps5 _ Cert.Kernel.GenP.hostOps5_writes h
/-- What region 5 is entered from, read at the TensorCore's references. -/
abbrev V17 : (c : Dev nD) → (b : Ref sig .tc) → Buf (Elt F) ((c : Thread nD τ).loc b) := fun c b => W17 m ρ c b
/-- At region 5's exit: its arrays at what the pipeline leaves, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev V18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- After the stretch `hostOps6`. -/
abbrev W19 : Dev nD → Valuation τ sig (Elt F) := fun c => StableHlo.after hostOps6 (W18 m ρ c)
theorem W19_keep (c : Dev nD) (r : Ref sig .tc) (h : r ∉ Cert.Kernel.GenP.hostOps6_W) :
    W19 m ρ c (Proc.devRef .tc r) = W18 m ρ c (Proc.devRef .tc r) :=
  StableHlo.after_of_writes_sub hostOps6 _ Cert.Kernel.GenP.hostOps6_writes h
/-- After the stretch `hostOps6_1`. -/
abbrev W20 : Dev nD → Valuation τ sig (Elt F) := fun c => StableHlo.after hostOps6_1 (W19 m ρ c)
theorem W20_keep (c : Dev nD) (r : Ref sig .tc) (h : r ∉ Cert.Kernel.GenP.hostOps6_1_W) :
    W20 m ρ c (Proc.devRef .tc r) = W19 m ρ c (Proc.devRef .tc r) :=
  StableHlo.after_of_writes_sub hostOps6_1 _ Cert.Kernel.GenP.hostOps6_1_writes h
/-- What region 6 is entered from, read at the TensorCore's references. -/
abbrev V20 : (c : Dev nD) → (b : Ref sig .tc) → Buf (Elt F) ((c : Thread nD τ).loc b) := fun c b => W20 m ρ c b
/-- At region 6's exit: its arrays at what the pipeline leaves, every other buffer as entered. -/
def W21 (c : Dev nD) : Valuation τ sig (Elt F) :=
  Pipeline.withArrays spec6 c (W20 m ρ c) fun w => (dat6 (V20 m ρ) c).arrAt w cfg6.N
theorem W21_arr (c : Dev nD) (w : Fin cfg6.W) :
    W21 m ρ c (Proc.devRef .tc (Pipeline.arrRef spec6 w)) = (dat6 (V20 m ρ) c).arrAt w cfg6.N := by
  unfold W21; exact Pipeline.withArrays_arr spec6 launch6.win.arr_inj c _ _ w
theorem W21_of_ne (c : Dev nD) (b : Ref sig .tc) (hb : ∀ w, Pipeline.arrRef spec6 w ≠ b) :
    W21 m ρ c (Proc.devRef .tc b) = W20 m ρ c (Proc.devRef .tc b) := by
  unfold W21; exact Pipeline.withArrays_of_ne spec6 c _ _ b hb
abbrev V21 : (c : Dev nD) → (b : Ref sig .tc) → Buf (Elt F) ((c : Thread nD τ).loc b) := fun c b => W21 m ρ c b
theorem hF6 (c : Dev nD) (w : Fin cfg6.W) : (dat6 (V20 m ρ) c).arrAt w cfg6.N = V21 m ρ c (Pipeline.arrRef spec6 w) :=
  (W21_arr m ρ c w).symm
theorem hrest6 (c : Dev nD) : ∀ b, b ∉ Finset.univ.image (Pipeline.arrRef spec6) → V21 m ρ c b = V20 m ρ c b :=
  fun b hb => W21_of_ne m ρ c b fun w e => hb (Finset.mem_image.mpr ⟨w, Finset.mem_univ _, e⟩)
/-- After the stretch `hostOps7`. -/
abbrev W22 : Dev nD → Valuation τ sig (Elt F) := fun c => StableHlo.after hostOps7 (W21 m ρ c)
theorem W22_keep (c : Dev nD) (r : Ref sig .tc) (h : r ∉ Cert.Kernel.GenP.hostOps7_W) :
    W22 m ρ c (Proc.devRef .tc r) = W21 m ρ c (Proc.devRef .tc r) :=
  StableHlo.after_of_writes_sub hostOps7 _ Cert.Kernel.GenP.hostOps7_writes h
/-- What region 7 is entered from, read at the TensorCore's references. -/
abbrev V22 : (c : Dev nD) → (b : Ref sig .tc) → Buf (Elt F) ((c : Thread nD τ).loc b) := fun c b => W22 m ρ c b
/-- At region 7's exit: its arrays at what the pipeline leaves, every other buffer as entered. -/
def W23 (c : Dev nD) : Valuation τ sig (Elt F) :=
  Pipeline.withArrays spec7 c (W22 m ρ c) fun w => (dat7 (V22 m ρ) c).arrAt w cfg7.N
theorem W23_arr (c : Dev nD) (w : Fin cfg7.W) :
    W23 m ρ c (Proc.devRef .tc (Pipeline.arrRef spec7 w)) = (dat7 (V22 m ρ) c).arrAt w cfg7.N := by
  unfold W23; exact Pipeline.withArrays_arr spec7 launch7.win.arr_inj c _ _ w
theorem W23_of_ne (c : Dev nD) (b : Ref sig .tc) (hb : ∀ w, Pipeline.arrRef spec7 w ≠ b) :
    W23 m ρ c (Proc.devRef .tc b) = W22 m ρ c (Proc.devRef .tc b) := by
  unfold W23; exact Pipeline.withArrays_of_ne spec7 c _ _ b hb
abbrev V23 : (c : Dev nD) → (b : Ref sig .tc) → Buf (Elt F) ((c : Thread nD τ).loc b) := fun c b => W23 m ρ c b
theorem hF7 (c : Dev nD) (w : Fin cfg7.W) : (dat7 (V22 m ρ) c).arrAt w cfg7.N = V23 m ρ c (Pipeline.arrRef spec7 w) :=
  (W23_arr m ρ c w).symm
theorem hrest7 (c : Dev nD) : ∀ b, b ∉ Finset.univ.image (Pipeline.arrRef spec7) → V23 m ρ c b = V22 m ρ c b :=
  fun b hb => W23_of_ne m ρ c b fun w e => hb (Finset.mem_image.mpr ⟨w, Finset.mem_univ _, e⟩)
/-- After the stretch `hostOps8`. -/
abbrev W24 : Dev nD → Valuation τ sig (Elt F) := fun c => StableHlo.after hostOps8 (W23 m ρ c)
theorem W24_keep (c : Dev nD) (r : Ref sig .tc) (h : r ∉ Cert.Kernel.GenP.hostOps8_W) :
    W24 m ρ c (Proc.devRef .tc r) = W23 m ρ c (Proc.devRef .tc r) :=
  StableHlo.after_of_writes_sub hostOps8 _ Cert.Kernel.GenP.hostOps8_writes h
/-- After the stretch `hostOps8_1`. -/
abbrev W25 : Dev nD → Valuation τ sig (Elt F) := fun c => StableHlo.after hostOps8_1 (W24 m ρ c)
theorem W25_keep (c : Dev nD) (r : Ref sig .tc) (h : r ∉ Cert.Kernel.GenP.hostOps8_1_W) :
    W25 m ρ c (Proc.devRef .tc r) = W24 m ρ c (Proc.devRef .tc r) :=
  StableHlo.after_of_writes_sub hostOps8_1 _ Cert.Kernel.GenP.hostOps8_1_writes h
/-- What region 8 is entered from, read at the TensorCore's references. -/
abbrev V25 : (c : Dev nD) → (b : Ref sig .tc) → Buf (Elt F) ((c : Thread nD τ).loc b) := fun c b => W25 m ρ c b
/-- At region 8's exit: its arrays at what the pipeline leaves, every other buffer as entered. -/
def W26 (c : Dev nD) : Valuation τ sig (Elt F) :=
  Pipeline.withArrays spec8 c (W25 m ρ c) fun w => (dat8 (V25 m ρ) c).arrAt w cfg8.N
theorem W26_arr (c : Dev nD) (w : Fin cfg8.W) :
    W26 m ρ c (Proc.devRef .tc (Pipeline.arrRef spec8 w)) = (dat8 (V25 m ρ) c).arrAt w cfg8.N := by
  unfold W26; exact Pipeline.withArrays_arr spec8 launch8.win.arr_inj c _ _ w
theorem W26_of_ne (c : Dev nD) (b : Ref sig .tc) (hb : ∀ w, Pipeline.arrRef spec8 w ≠ b) :
    W26 m ρ c (Proc.devRef .tc b) = W25 m ρ c (Proc.devRef .tc b) := by
  unfold W26; exact Pipeline.withArrays_of_ne spec8 c _ _ b hb
abbrev V26 : (c : Dev nD) → (b : Ref sig .tc) → Buf (Elt F) ((c : Thread nD τ).loc b) := fun c b => W26 m ρ c b
theorem hF8 (c : Dev nD) (w : Fin cfg8.W) : (dat8 (V25 m ρ) c).arrAt w cfg8.N = V26 m ρ c (Pipeline.arrRef spec8 w) :=
  (W26_arr m ρ c w).symm
theorem hrest8 (c : Dev nD) : ∀ b, b ∉ Finset.univ.image (Pipeline.arrRef spec8) → V26 m ρ c b = V25 m ρ c b :=
  fun b hb => W26_of_ne m ρ c b fun w e => hb (Finset.mem_image.mpr ⟨w, Finset.mem_univ _, e⟩)
/-- After the stretch `hostOps9`. -/
abbrev W27 : Dev nD → Valuation τ sig (Elt F) := fun c => StableHlo.after hostOps9 (W26 m ρ c)
theorem W27_keep (c : Dev nD) (r : Ref sig .tc) (h : r ∉ Cert.Kernel.GenP.hostOps9_W) :
    W27 m ρ c (Proc.devRef .tc r) = W26 m ρ c (Proc.devRef .tc r) :=
  StableHlo.after_of_writes_sub hostOps9 _ Cert.Kernel.GenP.hostOps9_writes h
/-- What region 9 is entered from, read at the TensorCore's references. -/
abbrev V27 : (c : Dev nD) → (b : Ref sig .tc) → Buf (Elt F) ((c : Thread nD τ).loc b) := fun c b => W27 m ρ c b
/-- At region 9's exit: its arrays at what the pipeline leaves, every other buffer as entered. -/
def W28 (c : Dev nD) : Valuation τ sig (Elt F) :=
  Pipeline.withArrays spec9 c (W27 m ρ c) fun w => (dat9 (V27 m ρ) c).arrAt w cfg9.N
theorem W28_arr (c : Dev nD) (w : Fin cfg9.W) :
    W28 m ρ c (Proc.devRef .tc (Pipeline.arrRef spec9 w)) = (dat9 (V27 m ρ) c).arrAt w cfg9.N := by
  unfold W28; exact Pipeline.withArrays_arr spec9 launch9.win.arr_inj c _ _ w
theorem W28_of_ne (c : Dev nD) (b : Ref sig .tc) (hb : ∀ w, Pipeline.arrRef spec9 w ≠ b) :
    W28 m ρ c (Proc.devRef .tc b) = W27 m ρ c (Proc.devRef .tc b) := by
  unfold W28; exact Pipeline.withArrays_of_ne spec9 c _ _ b hb
abbrev V28 : (c : Dev nD) → (b : Ref sig .tc) → Buf (Elt F) ((c : Thread nD τ).loc b) := fun c b => W28 m ρ c b
theorem hF9 (c : Dev nD) (w : Fin cfg9.W) : (dat9 (V27 m ρ) c).arrAt w cfg9.N = V28 m ρ c (Pipeline.arrRef spec9 w) :=
  (W28_arr m ρ c w).symm
theorem hrest9 (c : Dev nD) : ∀ b, b ∉ Finset.univ.image (Pipeline.arrRef spec9) → V28 m ρ c b = V27 m ρ c b :=
  fun b hb => W28_of_ne m ρ c b fun w e => hb (Finset.mem_image.mpr ⟨w, Finset.mem_univ _, e⟩)
/-- After the stretch `hostOps10`. -/
abbrev W29 : Dev nD → Valuation τ sig (Elt F) := fun c => StableHlo.after hostOps10 (W28 m ρ c)
theorem W29_keep (c : Dev nD) (r : Ref sig .tc) (h : r ∉ Cert.Kernel.GenP.hostOps10_W) :
    W29 m ρ c (Proc.devRef .tc r) = W28 m ρ c (Proc.devRef .tc r) :=
  StableHlo.after_of_writes_sub hostOps10 _ Cert.Kernel.GenP.hostOps10_writes h
/-- After the stretch `hostOps10_1`. -/
abbrev W30 : Dev nD → Valuation τ sig (Elt F) := fun c => StableHlo.after hostOps10_1 (W29 m ρ c)
theorem W30_keep (c : Dev nD) (r : Ref sig .tc) (h : r ∉ Cert.Kernel.GenP.hostOps10_1_W) :
    W30 m ρ c (Proc.devRef .tc r) = W29 m ρ c (Proc.devRef .tc r) :=
  StableHlo.after_of_writes_sub hostOps10_1 _ Cert.Kernel.GenP.hostOps10_1_writes h
/-- What region 10 is entered from, read at the TensorCore's references. -/
abbrev V30 : (c : Dev nD) → (b : Ref sig .tc) → Buf (Elt F) ((c : Thread nD τ).loc b) := fun c b => W30 m ρ c b
/-- At region 10's exit: its arrays at what the pipeline leaves, every other buffer as entered. -/
def W31 (c : Dev nD) : Valuation τ sig (Elt F) :=
  Pipeline.withArrays spec10 c (W30 m ρ c) fun w => (dat10 (V30 m ρ) c).arrAt w cfg10.N
theorem W31_arr (c : Dev nD) (w : Fin cfg10.W) :
    W31 m ρ c (Proc.devRef .tc (Pipeline.arrRef spec10 w)) = (dat10 (V30 m ρ) c).arrAt w cfg10.N := by
  unfold W31; exact Pipeline.withArrays_arr spec10 launch10.win.arr_inj c _ _ w
theorem W31_of_ne (c : Dev nD) (b : Ref sig .tc) (hb : ∀ w, Pipeline.arrRef spec10 w ≠ b) :
    W31 m ρ c (Proc.devRef .tc b) = W30 m ρ c (Proc.devRef .tc b) := by
  unfold W31; exact Pipeline.withArrays_of_ne spec10 c _ _ b hb
abbrev V31 : (c : Dev nD) → (b : Ref sig .tc) → Buf (Elt F) ((c : Thread nD τ).loc b) := fun c b => W31 m ρ c b
theorem hF10 (c : Dev nD) (w : Fin cfg10.W) : (dat10 (V30 m ρ) c).arrAt w cfg10.N = V31 m ρ c (Pipeline.arrRef spec10 w) :=
  (W31_arr m ρ c w).symm
theorem hrest10 (c : Dev nD) : ∀ b, b ∉ Finset.univ.image (Pipeline.arrRef spec10) → V31 m ρ c b = V30 m ρ c b :=
  fun b hb => W31_of_ne m ρ c b fun w e => hb (Finset.mem_image.mpr ⟨w, Finset.mem_univ _, e⟩)
/-- After the stretch `hostOps11`. -/
abbrev W32 : Dev nD → Valuation τ sig (Elt F) := fun c => StableHlo.after hostOps11 (W31 m ρ c)
theorem W32_keep (c : Dev nD) (r : Ref sig .tc) (h : r ∉ Cert.Kernel.GenP.hostOps11_W) :
    W32 m ρ c (Proc.devRef .tc r) = W31 m ρ c (Proc.devRef .tc r) :=
  StableHlo.after_of_writes_sub hostOps11 _ Cert.Kernel.GenP.hostOps11_writes h
/-- What region 11 is entered from, read at the TensorCore's references. -/
abbrev V32 : (c : Dev nD) → (b : Ref sig .tc) → Buf (Elt F) ((c : Thread nD τ).loc b) := fun c b => W32 m ρ c b
/-- At region 11's exit: its arrays at what the pipeline leaves, every other buffer as entered. -/
def W33 (c : Dev nD) : Valuation τ sig (Elt F) :=
  Pipeline.withArrays spec11 c (W32 m ρ c) fun w => (dat11 (V32 m ρ) c).arrAt w cfg11.N
theorem W33_arr (c : Dev nD) (w : Fin cfg11.W) :
    W33 m ρ c (Proc.devRef .tc (Pipeline.arrRef spec11 w)) = (dat11 (V32 m ρ) c).arrAt w cfg11.N := by
  unfold W33; exact Pipeline.withArrays_arr spec11 launch11.win.arr_inj c _ _ w
theorem W33_of_ne (c : Dev nD) (b : Ref sig .tc) (hb : ∀ w, Pipeline.arrRef spec11 w ≠ b) :
    W33 m ρ c (Proc.devRef .tc b) = W32 m ρ c (Proc.devRef .tc b) := by
  unfold W33; exact Pipeline.withArrays_of_ne spec11 c _ _ b hb
abbrev V33 : (c : Dev nD) → (b : Ref sig .tc) → Buf (Elt F) ((c : Thread nD τ).loc b) := fun c b => W33 m ρ c b
theorem hF11 (c : Dev nD) (w : Fin cfg11.W) : (dat11 (V32 m ρ) c).arrAt w cfg11.N = V33 m ρ c (Pipeline.arrRef spec11 w) :=
  (W33_arr m ρ c w).symm
theorem hrest11 (c : Dev nD) : ∀ b, b ∉ Finset.univ.image (Pipeline.arrRef spec11) → V33 m ρ c b = V32 m ρ c b :=
  fun b hb => W33_of_ne m ρ c b fun w e => hb (Finset.mem_image.mpr ⟨w, Finset.mem_univ _, e⟩)
/-- After the stretch `hostOps12`. -/
abbrev W34 : Dev nD → Valuation τ sig (Elt F) := fun c => StableHlo.after hostOps12 (W33 m ρ c)
theorem W34_keep (c : Dev nD) (r : Ref sig .tc) (h : r ∉ Cert.Kernel.GenP.hostOps12_W) :
    W34 m ρ c (Proc.devRef .tc r) = W33 m ρ c (Proc.devRef .tc r) :=
  StableHlo.after_of_writes_sub hostOps12 _ Cert.Kernel.GenP.hostOps12_writes h
/-- After the stretch `hostOps12_1`. -/
abbrev W35 : Dev nD → Valuation τ sig (Elt F) := fun c => StableHlo.after hostOps12_1 (W34 m ρ c)
theorem W35_keep (c : Dev nD) (r : Ref sig .tc) (h : r ∉ Cert.Kernel.GenP.hostOps12_1_W) :
    W35 m ρ c (Proc.devRef .tc r) = W34 m ρ c (Proc.devRef .tc r) :=
  StableHlo.after_of_writes_sub hostOps12_1 _ Cert.Kernel.GenP.hostOps12_1_writes h
/-- What region 12 is entered from, read at the TensorCore's references. -/
abbrev V35 : (c : Dev nD) → (b : Ref sig .tc) → Buf (Elt F) ((c : Thread nD τ).loc b) := fun c b => W35 m ρ c b
/-- At region 12's exit: its arrays at what the pipeline leaves, every other buffer as entered. -/
def W36 (c : Dev nD) : Valuation τ sig (Elt F) :=
  Pipeline.withArrays spec12 c (W35 m ρ c) fun w => (dat12 (V35 m ρ) c).arrAt w cfg12.N
theorem W36_arr (c : Dev nD) (w : Fin cfg12.W) :
    W36 m ρ c (Proc.devRef .tc (Pipeline.arrRef spec12 w)) = (dat12 (V35 m ρ) c).arrAt w cfg12.N := by
  unfold W36; exact Pipeline.withArrays_arr spec12 launch12.win.arr_inj c _ _ w
theorem W36_of_ne (c : Dev nD) (b : Ref sig .tc) (hb : ∀ w, Pipeline.arrRef spec12 w ≠ b) :
    W36 m ρ c (Proc.devRef .tc b) = W35 m ρ c (Proc.devRef .tc b) := by
  unfold W36; exact Pipeline.withArrays_of_ne spec12 c _ _ b hb
abbrev V36 : (c : Dev nD) → (b : Ref sig .tc) → Buf (Elt F) ((c : Thread nD τ).loc b) := fun c b => W36 m ρ c b
theorem hF12 (c : Dev nD) (w : Fin cfg12.W) : (dat12 (V35 m ρ) c).arrAt w cfg12.N = V36 m ρ c (Pipeline.arrRef spec12 w) :=
  (W36_arr m ρ c w).symm
theorem hrest12 (c : Dev nD) : ∀ b, b ∉ Finset.univ.image (Pipeline.arrRef spec12) → V36 m ρ c b = V35 m ρ c b :=
  fun b hb => W36_of_ne m ρ c b fun w e => hb (Finset.mem_image.mpr ⟨w, Finset.mem_univ _, e⟩)
/-- After the stretch `hostOps13`. -/
abbrev W37 : Dev nD → Valuation τ sig (Elt F) := fun c => StableHlo.after hostOps13 (W36 m ρ c)
theorem W37_keep (c : Dev nD) (r : Ref sig .tc) (h : r ∉ Cert.Kernel.GenP.hostOps13_W) :
    W37 m ρ c (Proc.devRef .tc r) = W36 m ρ c (Proc.devRef .tc r) :=
  StableHlo.after_of_writes_sub hostOps13 _ Cert.Kernel.GenP.hostOps13_writes h
/-- What region 13 is entered from, read at the TensorCore's references. -/
abbrev V37 : (c : Dev nD) → (b : Ref sig .tc) → Buf (Elt F) ((c : Thread nD τ).loc b) := fun c b => W37 m ρ c b
/-- At region 13's exit: its arrays at what the pipeline leaves, every other buffer as entered. -/
def W38 (c : Dev nD) : Valuation τ sig (Elt F) :=
  Pipeline.withArrays spec13 c (W37 m ρ c) fun w => (dat13 (V37 m ρ) c).arrAt w cfg13.N
theorem W38_arr (c : Dev nD) (w : Fin cfg13.W) :
    W38 m ρ c (Proc.devRef .tc (Pipeline.arrRef spec13 w)) = (dat13 (V37 m ρ) c).arrAt w cfg13.N := by
  unfold W38; exact Pipeline.withArrays_arr spec13 launch13.win.arr_inj c _ _ w
theorem W38_of_ne (c : Dev nD) (b : Ref sig .tc) (hb : ∀ w, Pipeline.arrRef spec13 w ≠ b) :
    W38 m ρ c (Proc.devRef .tc b) = W37 m ρ c (Proc.devRef .tc b) := by
  unfold W38; exact Pipeline.withArrays_of_ne spec13 c _ _ b hb
abbrev V38 : (c : Dev nD) → (b : Ref sig .tc) → Buf (Elt F) ((c : Thread nD τ).loc b) := fun c b => W38 m ρ c b
theorem hF13 (c : Dev nD) (w : Fin cfg13.W) : (dat13 (V37 m ρ) c).arrAt w cfg13.N = V38 m ρ c (Pipeline.arrRef spec13 w) :=
  (W38_arr m ρ c w).symm
theorem hrest13 (c : Dev nD) : ∀ b, b ∉ Finset.univ.image (Pipeline.arrRef spec13) → V38 m ρ c b = V37 m ρ c b :=
  fun b hb => W38_of_ne m ρ c b fun w e => hb (Finset.mem_image.mpr ⟨w, Finset.mem_univ _, e⟩)
/-- After the stretch `hostOps14`. -/
abbrev W39 : Dev nD → Valuation τ sig (Elt F) := fun c => StableHlo.after hostOps14 (W38 m ρ c)
theorem W39_keep (c : Dev nD) (r : Ref sig .tc) (h : r ∉ Cert.Kernel.GenP.hostOps14_W) :
    W39 m ρ c (Proc.devRef .tc r) = W38 m ρ c (Proc.devRef .tc r) :=
  StableHlo.after_of_writes_sub hostOps14 _ Cert.Kernel.GenP.hostOps14_writes h
/-- After the stretch `hostOps14_1`. -/
abbrev W40 : Dev nD → Valuation τ sig (Elt F) := fun c => StableHlo.after hostOps14_1 (W39 m ρ c)
theorem W40_keep (c : Dev nD) (r : Ref sig .tc) (h : r ∉ Cert.Kernel.GenP.hostOps14_1_W) :
    W40 m ρ c (Proc.devRef .tc r) = W39 m ρ c (Proc.devRef .tc r) :=
  StableHlo.after_of_writes_sub hostOps14_1 _ Cert.Kernel.GenP.hostOps14_1_writes h
/-- After the stretch `hostOps14_2`. -/
abbrev W41 : Dev nD → Valuation τ sig (Elt F) := fun c => StableHlo.after hostOps14_2 (W40 m ρ c)
theorem W41_keep (c : Dev nD) (r : Ref sig .tc) (h : r ∉ Cert.Kernel.GenP.hostOps14_2_W) :
    W41 m ρ c (Proc.devRef .tc r) = W40 m ρ c (Proc.devRef .tc r) :=
  StableHlo.after_of_writes_sub hostOps14_2 _ Cert.Kernel.GenP.hostOps14_2_writes h
/-- After the stretch `hostOps14_3`. -/
abbrev W42 : Dev nD → Valuation τ sig (Elt F) := fun c => StableHlo.after hostOps14_3 (W41 m ρ c)
theorem W42_keep (c : Dev nD) (r : Ref sig .tc) (h : r ∉ Cert.Kernel.GenP.hostOps14_3_W) :
    W42 m ρ c (Proc.devRef .tc r) = W41 m ρ c (Proc.devRef .tc r) :=
  StableHlo.after_of_writes_sub hostOps14_3 _ Cert.Kernel.GenP.hostOps14_3_writes h
/-- After the stretch `hostOps14_4`. -/
abbrev W43 : Dev nD → Valuation τ sig (Elt F) := fun c => StableHlo.after hostOps14_4 (W42 m ρ c)
theorem W43_keep (c : Dev nD) (r : Ref sig .tc) (h : r ∉ Cert.Kernel.GenP.hostOps14_4_W) :
    W43 m ρ c (Proc.devRef .tc r) = W42 m ρ c (Proc.devRef .tc r) :=
  StableHlo.after_of_writes_sub hostOps14_4 _ Cert.Kernel.GenP.hostOps14_4_writes h
/-- After the stretch `hostOps14_5`. -/
abbrev W44 : Dev nD → Valuation τ sig (Elt F) := fun c => StableHlo.after hostOps14_5 (W43 m ρ c)
theorem W44_keep (c : Dev nD) (r : Ref sig .tc) (h : r ∉ Cert.Kernel.GenP.hostOps14_5_W) :
    W44 m ρ c (Proc.devRef .tc r) = W43 m ρ c (Proc.devRef .tc r) :=
  StableHlo.after_of_writes_sub hostOps14_5 _ Cert.Kernel.GenP.hostOps14_5_writes h
/-- After the stretch `hostOps14_6`. -/
abbrev W45 : Dev nD → Valuation τ sig (Elt F) := fun c => StableHlo.after hostOps14_6 (W44 m ρ c)
theorem W45_keep (c : Dev nD) (r : Ref sig .tc) (h : r ∉ Cert.Kernel.GenP.hostOps14_6_W) :
    W45 m ρ c (Proc.devRef .tc r) = W44 m ρ c (Proc.devRef .tc r) :=
  StableHlo.after_of_writes_sub hostOps14_6 _ Cert.Kernel.GenP.hostOps14_6_writes h

/-! ## No step of the fold touches an argument array -/

theorem W45_main_arg0 (c : Dev nD) : W45 m ρ c (Proc.devRef .tc main_arg0) = m ((c : Thread nD τ).loc main_arg0) :=
  (W45_keep m ρ c main_arg0 (by decide)).trans <|
  (W44_keep m ρ c main_arg0 (by decide)).trans <|
  (W43_keep m ρ c main_arg0 (by decide)).trans <|
  (W42_keep m ρ c main_arg0 (by decide)).trans <|
  (W41_keep m ρ c main_arg0 (by decide)).trans <|
  (W40_keep m ρ c main_arg0 (by decide)).trans <|
  (W39_keep m ρ c main_arg0 (by decide)).trans <|
  (W38_of_ne m ρ c main_arg0 (by decide)).trans <|
  (W37_keep m ρ c main_arg0 (by decide)).trans <|
  (W36_of_ne m ρ c main_arg0 (by decide)).trans <|
  (W35_keep m ρ c main_arg0 (by decide)).trans <|
  (W34_keep m ρ c main_arg0 (by decide)).trans <|
  (W33_of_ne m ρ c main_arg0 (by decide)).trans <|
  (W32_keep m ρ c main_arg0 (by decide)).trans <|
  (W31_of_ne m ρ c main_arg0 (by decide)).trans <|
  (W30_keep m ρ c main_arg0 (by decide)).trans <|
  (W29_keep m ρ c main_arg0 (by decide)).trans <|
  (W28_of_ne m ρ c main_arg0 (by decide)).trans <|
  (W27_keep m ρ c main_arg0 (by decide)).trans <|
  (W26_of_ne m ρ c main_arg0 (by decide)).trans <|
  (W25_keep m ρ c main_arg0 (by decide)).trans <|
  (W24_keep m ρ c main_arg0 (by decide)).trans <|
  (W23_of_ne m ρ c main_arg0 (by decide)).trans <|
  (W22_keep m ρ c main_arg0 (by decide)).trans <|
  (W21_of_ne m ρ c main_arg0 (by decide)).trans <|
  (W20_keep m ρ c main_arg0 (by decide)).trans <|
  (W19_keep m ρ c main_arg0 (by decide)).trans <|
  (W18_of_ne m ρ c main_arg0 (by decide)).trans <|
  (W17_keep m ρ c main_arg0 (by decide)).trans <|
  (W16_of_ne m ρ c main_arg0 (by decide)).trans <|
  (W15_keep m ρ c main_arg0 (by decide)).trans <|
  (W14_keep m ρ c main_arg0 (by decide)).trans <|
  (W13_of_ne m ρ c main_arg0 (by decide)).trans <|
  (W12_keep m ρ c main_arg0 (by decide)).trans <|
  (W11_of_ne m ρ c main_arg0 (by decide)).trans <|
  (W10_keep m ρ c main_arg0 (by decide)).trans <|
  (W9_keep m ρ c main_arg0 (by decide)).trans <|
  (W8_of_ne m ρ c main_arg0 (by decide)).trans <|
  (W7_keep m ρ c main_arg0 (by decide)).trans <|
  ((W6_arr m ρ c 0).trans (((dat0 (V5 m ρ) c).arrAt_in 0 rfl _).trans (A_eq0 (V5 m ρ) c 0))).trans <|
  (W5_keep m ρ c main_arg0 (by decide)).trans <|
  (W4_keep m ρ c main_arg0 (by decide)).trans <|
  (W3_keep m ρ c main_arg0 (by decide)).trans <|
  (W2_keep m ρ c main_arg0 (by decide)).trans <|
  (W1_keep m ρ c main_arg0 (by decide)).trans <|
  rfl
theorem W45_main_arg1 (c : Dev nD) : W45 m ρ c (Proc.devRef .tc main_arg1) = m ((c : Thread nD τ).loc main_arg1) :=
  (W45_keep m ρ c main_arg1 (by decide)).trans <|
  (W44_keep m ρ c main_arg1 (by decide)).trans <|
  (W43_keep m ρ c main_arg1 (by decide)).trans <|
  (W42_keep m ρ c main_arg1 (by decide)).trans <|
  (W41_keep m ρ c main_arg1 (by decide)).trans <|
  (W40_keep m ρ c main_arg1 (by decide)).trans <|
  (W39_keep m ρ c main_arg1 (by decide)).trans <|
  (W38_of_ne m ρ c main_arg1 (by decide)).trans <|
  (W37_keep m ρ c main_arg1 (by decide)).trans <|
  (W36_of_ne m ρ c main_arg1 (by decide)).trans <|
  (W35_keep m ρ c main_arg1 (by decide)).trans <|
  (W34_keep m ρ c main_arg1 (by decide)).trans <|
  (W33_of_ne m ρ c main_arg1 (by decide)).trans <|
  (W32_keep m ρ c main_arg1 (by decide)).trans <|
  (W31_of_ne m ρ c main_arg1 (by decide)).trans <|
  (W30_keep m ρ c main_arg1 (by decide)).trans <|
  (W29_keep m ρ c main_arg1 (by decide)).trans <|
  (W28_of_ne m ρ c main_arg1 (by decide)).trans <|
  (W27_keep m ρ c main_arg1 (by decide)).trans <|
  (W26_of_ne m ρ c main_arg1 (by decide)).trans <|
  (W25_keep m ρ c main_arg1 (by decide)).trans <|
  (W24_keep m ρ c main_arg1 (by decide)).trans <|
  (W23_of_ne m ρ c main_arg1 (by decide)).trans <|
  (W22_keep m ρ c main_arg1 (by decide)).trans <|
  (W21_of_ne m ρ c main_arg1 (by decide)).trans <|
  (W20_keep m ρ c main_arg1 (by decide)).trans <|
  (W19_keep m ρ c main_arg1 (by decide)).trans <|
  (W18_of_ne m ρ c main_arg1 (by decide)).trans <|
  (W17_keep m ρ c main_arg1 (by decide)).trans <|
  (W16_of_ne m ρ c main_arg1 (by decide)).trans <|
  (W15_keep m ρ c main_arg1 (by decide)).trans <|
  (W14_keep m ρ c main_arg1 (by decide)).trans <|
  (W13_of_ne m ρ c main_arg1 (by decide)).trans <|
  (W12_keep m ρ c main_arg1 (by decide)).trans <|
  (W11_of_ne m ρ c main_arg1 (by decide)).trans <|
  (W10_keep m ρ c main_arg1 (by decide)).trans <|
  (W9_keep m ρ c main_arg1 (by decide)).trans <|
  (W8_of_ne m ρ c main_arg1 (by decide)).trans <|
  (W7_keep m ρ c main_arg1 (by decide)).trans <|
  (W6_of_ne m ρ c main_arg1 (by decide)).trans <|
  (W5_keep m ρ c main_arg1 (by decide)).trans <|
  (W4_keep m ρ c main_arg1 (by decide)).trans <|
  (W3_keep m ρ c main_arg1 (by decide)).trans <|
  (W2_keep m ρ c main_arg1 (by decide)).trans <|
  (W1_keep m ρ c main_arg1 (by decide)).trans <|
  rfl
theorem W45_main_arg2 (c : Dev nD) : W45 m ρ c (Proc.devRef .tc main_arg2) = m ((c : Thread nD τ).loc main_arg2) :=
  (W45_keep m ρ c main_arg2 (by decide)).trans <|
  (W44_keep m ρ c main_arg2 (by decide)).trans <|
  (W43_keep m ρ c main_arg2 (by decide)).trans <|
  (W42_keep m ρ c main_arg2 (by decide)).trans <|
  (W41_keep m ρ c main_arg2 (by decide)).trans <|
  (W40_keep m ρ c main_arg2 (by decide)).trans <|
  (W39_keep m ρ c main_arg2 (by decide)).trans <|
  (W38_of_ne m ρ c main_arg2 (by decide)).trans <|
  (W37_keep m ρ c main_arg2 (by decide)).trans <|
  (W36_of_ne m ρ c main_arg2 (by decide)).trans <|
  (W35_keep m ρ c main_arg2 (by decide)).trans <|
  (W34_keep m ρ c main_arg2 (by decide)).trans <|
  (W33_of_ne m ρ c main_arg2 (by decide)).trans <|
  (W32_keep m ρ c main_arg2 (by decide)).trans <|
  (W31_of_ne m ρ c main_arg2 (by decide)).trans <|
  (W30_keep m ρ c main_arg2 (by decide)).trans <|
  (W29_keep m ρ c main_arg2 (by decide)).trans <|
  (W28_of_ne m ρ c main_arg2 (by decide)).trans <|
  (W27_keep m ρ c main_arg2 (by decide)).trans <|
  (W26_of_ne m ρ c main_arg2 (by decide)).trans <|
  (W25_keep m ρ c main_arg2 (by decide)).trans <|
  (W24_keep m ρ c main_arg2 (by decide)).trans <|
  (W23_of_ne m ρ c main_arg2 (by decide)).trans <|
  (W22_keep m ρ c main_arg2 (by decide)).trans <|
  (W21_of_ne m ρ c main_arg2 (by decide)).trans <|
  (W20_keep m ρ c main_arg2 (by decide)).trans <|
  (W19_keep m ρ c main_arg2 (by decide)).trans <|
  (W18_of_ne m ρ c main_arg2 (by decide)).trans <|
  (W17_keep m ρ c main_arg2 (by decide)).trans <|
  (W16_of_ne m ρ c main_arg2 (by decide)).trans <|
  (W15_keep m ρ c main_arg2 (by decide)).trans <|
  (W14_keep m ρ c main_arg2 (by decide)).trans <|
  (W13_of_ne m ρ c main_arg2 (by decide)).trans <|
  (W12_keep m ρ c main_arg2 (by decide)).trans <|
  (W11_of_ne m ρ c main_arg2 (by decide)).trans <|
  (W10_keep m ρ c main_arg2 (by decide)).trans <|
  (W9_keep m ρ c main_arg2 (by decide)).trans <|
  (W8_of_ne m ρ c main_arg2 (by decide)).trans <|
  (W7_keep m ρ c main_arg2 (by decide)).trans <|
  (W6_of_ne m ρ c main_arg2 (by decide)).trans <|
  (W5_keep m ρ c main_arg2 (by decide)).trans <|
  (W4_keep m ρ c main_arg2 (by decide)).trans <|
  (W3_keep m ρ c main_arg2 (by decide)).trans <|
  (W2_keep m ρ c main_arg2 (by decide)).trans <|
  (W1_keep m ρ c main_arg2 (by decide)).trans <|
  rfl
theorem W45_main_arg3 (c : Dev nD) : W45 m ρ c (Proc.devRef .tc main_arg3) = m ((c : Thread nD τ).loc main_arg3) :=
  (W45_keep m ρ c main_arg3 (by decide)).trans <|
  (W44_keep m ρ c main_arg3 (by decide)).trans <|
  (W43_keep m ρ c main_arg3 (by decide)).trans <|
  (W42_keep m ρ c main_arg3 (by decide)).trans <|
  (W41_keep m ρ c main_arg3 (by decide)).trans <|
  (W40_keep m ρ c main_arg3 (by decide)).trans <|
  (W39_keep m ρ c main_arg3 (by decide)).trans <|
  (W38_of_ne m ρ c main_arg3 (by decide)).trans <|
  (W37_keep m ρ c main_arg3 (by decide)).trans <|
  (W36_of_ne m ρ c main_arg3 (by decide)).trans <|
  (W35_keep m ρ c main_arg3 (by decide)).trans <|
  (W34_keep m ρ c main_arg3 (by decide)).trans <|
  (W33_of_ne m ρ c main_arg3 (by decide)).trans <|
  (W32_keep m ρ c main_arg3 (by decide)).trans <|
  (W31_of_ne m ρ c main_arg3 (by decide)).trans <|
  (W30_keep m ρ c main_arg3 (by decide)).trans <|
  (W29_keep m ρ c main_arg3 (by decide)).trans <|
  (W28_of_ne m ρ c main_arg3 (by decide)).trans <|
  (W27_keep m ρ c main_arg3 (by decide)).trans <|
  (W26_of_ne m ρ c main_arg3 (by decide)).trans <|
  (W25_keep m ρ c main_arg3 (by decide)).trans <|
  (W24_keep m ρ c main_arg3 (by decide)).trans <|
  (W23_of_ne m ρ c main_arg3 (by decide)).trans <|
  (W22_keep m ρ c main_arg3 (by decide)).trans <|
  (W21_of_ne m ρ c main_arg3 (by decide)).trans <|
  (W20_keep m ρ c main_arg3 (by decide)).trans <|
  (W19_keep m ρ c main_arg3 (by decide)).trans <|
  (W18_of_ne m ρ c main_arg3 (by decide)).trans <|
  (W17_keep m ρ c main_arg3 (by decide)).trans <|
  (W16_of_ne m ρ c main_arg3 (by decide)).trans <|
  (W15_keep m ρ c main_arg3 (by decide)).trans <|
  (W14_keep m ρ c main_arg3 (by decide)).trans <|
  (W13_of_ne m ρ c main_arg3 (by decide)).trans <|
  (W12_keep m ρ c main_arg3 (by decide)).trans <|
  (W11_of_ne m ρ c main_arg3 (by decide)).trans <|
  (W10_keep m ρ c main_arg3 (by decide)).trans <|
  (W9_keep m ρ c main_arg3 (by decide)).trans <|
  (W8_of_ne m ρ c main_arg3 (by decide)).trans <|
  (W7_keep m ρ c main_arg3 (by decide)).trans <|
  (W6_of_ne m ρ c main_arg3 (by decide)).trans <|
  (W5_keep m ρ c main_arg3 (by decide)).trans <|
  (W4_keep m ρ c main_arg3 (by decide)).trans <|
  (W3_keep m ρ c main_arg3 (by decide)).trans <|
  (W2_keep m ρ c main_arg3 (by decide)).trans <|
  (W1_keep m ρ c main_arg3 (by decide)).trans <|
  rfl
theorem W45_main_arg4 (c : Dev nD) : W45 m ρ c (Proc.devRef .tc main_arg4) = m ((c : Thread nD τ).loc main_arg4) :=
  (W45_keep m ρ c main_arg4 (by decide)).trans <|
  (W44_keep m ρ c main_arg4 (by decide)).trans <|
  (W43_keep m ρ c main_arg4 (by decide)).trans <|
  (W42_keep m ρ c main_arg4 (by decide)).trans <|
  (W41_keep m ρ c main_arg4 (by decide)).trans <|
  (W40_keep m ρ c main_arg4 (by decide)).trans <|
  (W39_keep m ρ c main_arg4 (by decide)).trans <|
  (W38_of_ne m ρ c main_arg4 (by decide)).trans <|
  (W37_keep m ρ c main_arg4 (by decide)).trans <|
  (W36_of_ne m ρ c main_arg4 (by decide)).trans <|
  (W35_keep m ρ c main_arg4 (by decide)).trans <|
  (W34_keep m ρ c main_arg4 (by decide)).trans <|
  (W33_of_ne m ρ c main_arg4 (by decide)).trans <|
  (W32_keep m ρ c main_arg4 (by decide)).trans <|
  (W31_of_ne m ρ c main_arg4 (by decide)).trans <|
  (W30_keep m ρ c main_arg4 (by decide)).trans <|
  (W29_keep m ρ c main_arg4 (by decide)).trans <|
  (W28_of_ne m ρ c main_arg4 (by decide)).trans <|
  (W27_keep m ρ c main_arg4 (by decide)).trans <|
  (W26_of_ne m ρ c main_arg4 (by decide)).trans <|
  (W25_keep m ρ c main_arg4 (by decide)).trans <|
  (W24_keep m ρ c main_arg4 (by decide)).trans <|
  (W23_of_ne m ρ c main_arg4 (by decide)).trans <|
  (W22_keep m ρ c main_arg4 (by decide)).trans <|
  (W21_of_ne m ρ c main_arg4 (by decide)).trans <|
  (W20_keep m ρ c main_arg4 (by decide)).trans <|
  (W19_keep m ρ c main_arg4 (by decide)).trans <|
  (W18_of_ne m ρ c main_arg4 (by decide)).trans <|
  (W17_keep m ρ c main_arg4 (by decide)).trans <|
  (W16_of_ne m ρ c main_arg4 (by decide)).trans <|
  (W15_keep m ρ c main_arg4 (by decide)).trans <|
  (W14_keep m ρ c main_arg4 (by decide)).trans <|
  (W13_of_ne m ρ c main_arg4 (by decide)).trans <|
  (W12_keep m ρ c main_arg4 (by decide)).trans <|
  (W11_of_ne m ρ c main_arg4 (by decide)).trans <|
  (W10_keep m ρ c main_arg4 (by decide)).trans <|
  (W9_keep m ρ c main_arg4 (by decide)).trans <|
  (W8_of_ne m ρ c main_arg4 (by decide)).trans <|
  (W7_keep m ρ c main_arg4 (by decide)).trans <|
  (W6_of_ne m ρ c main_arg4 (by decide)).trans <|
  (W5_keep m ρ c main_arg4 (by decide)).trans <|
  (W4_keep m ρ c main_arg4 (by decide)).trans <|
  (W3_keep m ρ c main_arg4 (by decide)).trans <|
  (W2_keep m ρ c main_arg4 (by decide)).trans <|
  (W1_keep m ρ c main_arg4 (by decide)).trans <|
  rfl
theorem W45_main_arg5 (c : Dev nD) : W45 m ρ c (Proc.devRef .tc main_arg5) = m ((c : Thread nD τ).loc main_arg5) :=
  (W45_keep m ρ c main_arg5 (by decide)).trans <|
  (W44_keep m ρ c main_arg5 (by decide)).trans <|
  (W43_keep m ρ c main_arg5 (by decide)).trans <|
  (W42_keep m ρ c main_arg5 (by decide)).trans <|
  (W41_keep m ρ c main_arg5 (by decide)).trans <|
  (W40_keep m ρ c main_arg5 (by decide)).trans <|
  (W39_keep m ρ c main_arg5 (by decide)).trans <|
  (W38_of_ne m ρ c main_arg5 (by decide)).trans <|
  (W37_keep m ρ c main_arg5 (by decide)).trans <|
  ((W36_arr m ρ c 1).trans (((dat12 (V35 m ρ) c).arrAt_in 1 rfl _).trans (A_eq12 (V35 m ρ) c 1))).trans <|
  (W35_keep m ρ c main_arg5 (by decide)).trans <|
  (W34_keep m ρ c main_arg5 (by decide)).trans <|
  (W33_of_ne m ρ c main_arg5 (by decide)).trans <|
  (W32_keep m ρ c main_arg5 (by decide)).trans <|
  ((W31_arr m ρ c 1).trans (((dat10 (V30 m ρ) c).arrAt_in 1 rfl _).trans (A_eq10 (V30 m ρ) c 1))).trans <|
  (W30_keep m ρ c main_arg5 (by decide)).trans <|
  (W29_keep m ρ c main_arg5 (by decide)).trans <|
  (W28_of_ne m ρ c main_arg5 (by decide)).trans <|
  (W27_keep m ρ c main_arg5 (by decide)).trans <|
  ((W26_arr m ρ c 1).trans (((dat8 (V25 m ρ) c).arrAt_in 1 rfl _).trans (A_eq8 (V25 m ρ) c 1))).trans <|
  (W25_keep m ρ c main_arg5 (by decide)).trans <|
  (W24_keep m ρ c main_arg5 (by decide)).trans <|
  (W23_of_ne m ρ c main_arg5 (by decide)).trans <|
  (W22_keep m ρ c main_arg5 (by decide)).trans <|
  ((W21_arr m ρ c 1).trans (((dat6 (V20 m ρ) c).arrAt_in 1 rfl _).trans (A_eq6 (V20 m ρ) c 1))).trans <|
  (W20_keep m ρ c main_arg5 (by decide)).trans <|
  (W19_keep m ρ c main_arg5 (by decide)).trans <|
  (W18_of_ne m ρ c main_arg5 (by decide)).trans <|
  (W17_keep m ρ c main_arg5 (by decide)).trans <|
  ((W16_arr m ρ c 1).trans (((dat4 (V15 m ρ) c).arrAt_in 1 rfl _).trans (A_eq4 (V15 m ρ) c 1))).trans <|
  (W15_keep m ρ c main_arg5 (by decide)).trans <|
  (W14_keep m ρ c main_arg5 (by decide)).trans <|
  (W13_of_ne m ρ c main_arg5 (by decide)).trans <|
  (W12_keep m ρ c main_arg5 (by decide)).trans <|
  ((W11_arr m ρ c 1).trans (((dat2 (V10 m ρ) c).arrAt_in 1 rfl _).trans (A_eq2 (V10 m ρ) c 1))).trans <|
  (W10_keep m ρ c main_arg5 (by decide)).trans <|
  (W9_keep m ρ c main_arg5 (by decide)).trans <|
  (W8_of_ne m ρ c main_arg5 (by decide)).trans <|
  (W7_keep m ρ c main_arg5 (by decide)).trans <|
  ((W6_arr m ρ c 1).trans (((dat0 (V5 m ρ) c).arrAt_in 1 rfl _).trans (A_eq0 (V5 m ρ) c 1))).trans <|
  (W5_keep m ρ c main_arg5 (by decide)).trans <|
  (W4_keep m ρ c main_arg5 (by decide)).trans <|
  (W3_keep m ρ c main_arg5 (by decide)).trans <|
  (W2_keep m ρ c main_arg5 (by decide)).trans <|
  (W1_keep m ρ c main_arg5 (by decide)).trans <|
  rfl
theorem W45_main_arg6 (c : Dev nD) : W45 m ρ c (Proc.devRef .tc main_arg6) = m ((c : Thread nD τ).loc main_arg6) :=
  (W45_keep m ρ c main_arg6 (by decide)).trans <|
  (W44_keep m ρ c main_arg6 (by decide)).trans <|
  (W43_keep m ρ c main_arg6 (by decide)).trans <|
  (W42_keep m ρ c main_arg6 (by decide)).trans <|
  (W41_keep m ρ c main_arg6 (by decide)).trans <|
  (W40_keep m ρ c main_arg6 (by decide)).trans <|
  (W39_keep m ρ c main_arg6 (by decide)).trans <|
  (W38_of_ne m ρ c main_arg6 (by decide)).trans <|
  (W37_keep m ρ c main_arg6 (by decide)).trans <|
  (W36_of_ne m ρ c main_arg6 (by decide)).trans <|
  (W35_keep m ρ c main_arg6 (by decide)).trans <|
  (W34_keep m ρ c main_arg6 (by decide)).trans <|
  (W33_of_ne m ρ c main_arg6 (by decide)).trans <|
  (W32_keep m ρ c main_arg6 (by decide)).trans <|
  (W31_of_ne m ρ c main_arg6 (by decide)).trans <|
  (W30_keep m ρ c main_arg6 (by decide)).trans <|
  (W29_keep m ρ c main_arg6 (by decide)).trans <|
  (W28_of_ne m ρ c main_arg6 (by decide)).trans <|
  (W27_keep m ρ c main_arg6 (by decide)).trans <|
  (W26_of_ne m ρ c main_arg6 (by decide)).trans <|
  (W25_keep m ρ c main_arg6 (by decide)).trans <|
  (W24_keep m ρ c main_arg6 (by decide)).trans <|
  (W23_of_ne m ρ c main_arg6 (by decide)).trans <|
  (W22_keep m ρ c main_arg6 (by decide)).trans <|
  (W21_of_ne m ρ c main_arg6 (by decide)).trans <|
  (W20_keep m ρ c main_arg6 (by decide)).trans <|
  (W19_keep m ρ c main_arg6 (by decide)).trans <|
  (W18_of_ne m ρ c main_arg6 (by decide)).trans <|
  (W17_keep m ρ c main_arg6 (by decide)).trans <|
  (W16_of_ne m ρ c main_arg6 (by decide)).trans <|
  (W15_keep m ρ c main_arg6 (by decide)).trans <|
  (W14_keep m ρ c main_arg6 (by decide)).trans <|
  (W13_of_ne m ρ c main_arg6 (by decide)).trans <|
  (W12_keep m ρ c main_arg6 (by decide)).trans <|
  (W11_of_ne m ρ c main_arg6 (by decide)).trans <|
  (W10_keep m ρ c main_arg6 (by decide)).trans <|
  (W9_keep m ρ c main_arg6 (by decide)).trans <|
  (W8_of_ne m ρ c main_arg6 (by decide)).trans <|
  (W7_keep m ρ c main_arg6 (by decide)).trans <|
  (W6_of_ne m ρ c main_arg6 (by decide)).trans <|
  (W5_keep m ρ c main_arg6 (by decide)).trans <|
  (W4_keep m ρ c main_arg6 (by decide)).trans <|
  (W3_keep m ρ c main_arg6 (by decide)).trans <|
  (W2_keep m ρ c main_arg6 (by decide)).trans <|
  (W1_keep m ρ c main_arg6 (by decide)).trans <|
  rfl
theorem W45_main_arg7 (c : Dev nD) : W45 m ρ c (Proc.devRef .tc main_arg7) = m ((c : Thread nD τ).loc main_arg7) :=
  (W45_keep m ρ c main_arg7 (by decide)).trans <|
  (W44_keep m ρ c main_arg7 (by decide)).trans <|
  (W43_keep m ρ c main_arg7 (by decide)).trans <|
  (W42_keep m ρ c main_arg7 (by decide)).trans <|
  (W41_keep m ρ c main_arg7 (by decide)).trans <|
  (W40_keep m ρ c main_arg7 (by decide)).trans <|
  (W39_keep m ρ c main_arg7 (by decide)).trans <|
  (W38_of_ne m ρ c main_arg7 (by decide)).trans <|
  (W37_keep m ρ c main_arg7 (by decide)).trans <|
  (W36_of_ne m ρ c main_arg7 (by decide)).trans <|
  (W35_keep m ρ c main_arg7 (by decide)).trans <|
  (W34_keep m ρ c main_arg7 (by decide)).trans <|
  (W33_of_ne m ρ c main_arg7 (by decide)).trans <|
  (W32_keep m ρ c main_arg7 (by decide)).trans <|
  (W31_of_ne m ρ c main_arg7 (by decide)).trans <|
  (W30_keep m ρ c main_arg7 (by decide)).trans <|
  (W29_keep m ρ c main_arg7 (by decide)).trans <|
  (W28_of_ne m ρ c main_arg7 (by decide)).trans <|
  (W27_keep m ρ c main_arg7 (by decide)).trans <|
  (W26_of_ne m ρ c main_arg7 (by decide)).trans <|
  (W25_keep m ρ c main_arg7 (by decide)).trans <|
  (W24_keep m ρ c main_arg7 (by decide)).trans <|
  (W23_of_ne m ρ c main_arg7 (by decide)).trans <|
  (W22_keep m ρ c main_arg7 (by decide)).trans <|
  (W21_of_ne m ρ c main_arg7 (by decide)).trans <|
  (W20_keep m ρ c main_arg7 (by decide)).trans <|
  (W19_keep m ρ c main_arg7 (by decide)).trans <|
  (W18_of_ne m ρ c main_arg7 (by decide)).trans <|
  (W17_keep m ρ c main_arg7 (by decide)).trans <|
  (W16_of_ne m ρ c main_arg7 (by decide)).trans <|
  (W15_keep m ρ c main_arg7 (by decide)).trans <|
  (W14_keep m ρ c main_arg7 (by decide)).trans <|
  (W13_of_ne m ρ c main_arg7 (by decide)).trans <|
  (W12_keep m ρ c main_arg7 (by decide)).trans <|
  (W11_of_ne m ρ c main_arg7 (by decide)).trans <|
  (W10_keep m ρ c main_arg7 (by decide)).trans <|
  (W9_keep m ρ c main_arg7 (by decide)).trans <|
  (W8_of_ne m ρ c main_arg7 (by decide)).trans <|
  (W7_keep m ρ c main_arg7 (by decide)).trans <|
  (W6_of_ne m ρ c main_arg7 (by decide)).trans <|
  (W5_keep m ρ c main_arg7 (by decide)).trans <|
  (W4_keep m ρ c main_arg7 (by decide)).trans <|
  (W3_keep m ρ c main_arg7 (by decide)).trans <|
  (W2_keep m ρ c main_arg7 (by decide)).trans <|
  (W1_keep m ρ c main_arg7 (by decide)).trans <|
  rfl
theorem W45_main_arg8 (c : Dev nD) : W45 m ρ c (Proc.devRef .tc main_arg8) = m ((c : Thread nD τ).loc main_arg8) :=
  (W45_keep m ρ c main_arg8 (by decide)).trans <|
  (W44_keep m ρ c main_arg8 (by decide)).trans <|
  (W43_keep m ρ c main_arg8 (by decide)).trans <|
  (W42_keep m ρ c main_arg8 (by decide)).trans <|
  (W41_keep m ρ c main_arg8 (by decide)).trans <|
  (W40_keep m ρ c main_arg8 (by decide)).trans <|
  (W39_keep m ρ c main_arg8 (by decide)).trans <|
  (W38_of_ne m ρ c main_arg8 (by decide)).trans <|
  (W37_keep m ρ c main_arg8 (by decide)).trans <|
  (W36_of_ne m ρ c main_arg8 (by decide)).trans <|
  (W35_keep m ρ c main_arg8 (by decide)).trans <|
  (W34_keep m ρ c main_arg8 (by decide)).trans <|
  (W33_of_ne m ρ c main_arg8 (by decide)).trans <|
  (W32_keep m ρ c main_arg8 (by decide)).trans <|
  (W31_of_ne m ρ c main_arg8 (by decide)).trans <|
  (W30_keep m ρ c main_arg8 (by decide)).trans <|
  (W29_keep m ρ c main_arg8 (by decide)).trans <|
  (W28_of_ne m ρ c main_arg8 (by decide)).trans <|
  (W27_keep m ρ c main_arg8 (by decide)).trans <|
  (W26_of_ne m ρ c main_arg8 (by decide)).trans <|
  (W25_keep m ρ c main_arg8 (by decide)).trans <|
  (W24_keep m ρ c main_arg8 (by decide)).trans <|
  (W23_of_ne m ρ c main_arg8 (by decide)).trans <|
  (W22_keep m ρ c main_arg8 (by decide)).trans <|
  (W21_of_ne m ρ c main_arg8 (by decide)).trans <|
  (W20_keep m ρ c main_arg8 (by decide)).trans <|
  (W19_keep m ρ c main_arg8 (by decide)).trans <|
  (W18_of_ne m ρ c main_arg8 (by decide)).trans <|
  (W17_keep m ρ c main_arg8 (by decide)).trans <|
  (W16_of_ne m ρ c main_arg8 (by decide)).trans <|
  (W15_keep m ρ c main_arg8 (by decide)).trans <|
  (W14_keep m ρ c main_arg8 (by decide)).trans <|
  (W13_of_ne m ρ c main_arg8 (by decide)).trans <|
  (W12_keep m ρ c main_arg8 (by decide)).trans <|
  (W11_of_ne m ρ c main_arg8 (by decide)).trans <|
  (W10_keep m ρ c main_arg8 (by decide)).trans <|
  (W9_keep m ρ c main_arg8 (by decide)).trans <|
  (W8_of_ne m ρ c main_arg8 (by decide)).trans <|
  (W7_keep m ρ c main_arg8 (by decide)).trans <|
  (W6_of_ne m ρ c main_arg8 (by decide)).trans <|
  (W5_keep m ρ c main_arg8 (by decide)).trans <|
  (W4_keep m ρ c main_arg8 (by decide)).trans <|
  (W3_keep m ρ c main_arg8 (by decide)).trans <|
  (W2_keep m ρ c main_arg8 (by decide)).trans <|
  (W1_keep m ρ c main_arg8 (by decide)).trans <|
  rfl
theorem W45_main_arg9 (c : Dev nD) : W45 m ρ c (Proc.devRef .tc main_arg9) = m ((c : Thread nD τ).loc main_arg9) :=
  (W45_keep m ρ c main_arg9 (by decide)).trans <|
  (W44_keep m ρ c main_arg9 (by decide)).trans <|
  (W43_keep m ρ c main_arg9 (by decide)).trans <|
  (W42_keep m ρ c main_arg9 (by decide)).trans <|
  (W41_keep m ρ c main_arg9 (by decide)).trans <|
  (W40_keep m ρ c main_arg9 (by decide)).trans <|
  (W39_keep m ρ c main_arg9 (by decide)).trans <|
  (W38_of_ne m ρ c main_arg9 (by decide)).trans <|
  (W37_keep m ρ c main_arg9 (by decide)).trans <|
  (W36_of_ne m ρ c main_arg9 (by decide)).trans <|
  (W35_keep m ρ c main_arg9 (by decide)).trans <|
  (W34_keep m ρ c main_arg9 (by decide)).trans <|
  (W33_of_ne m ρ c main_arg9 (by decide)).trans <|
  (W32_keep m ρ c main_arg9 (by decide)).trans <|
  (W31_of_ne m ρ c main_arg9 (by decide)).trans <|
  (W30_keep m ρ c main_arg9 (by decide)).trans <|
  (W29_keep m ρ c main_arg9 (by decide)).trans <|
  (W28_of_ne m ρ c main_arg9 (by decide)).trans <|
  (W27_keep m ρ c main_arg9 (by decide)).trans <|
  (W26_of_ne m ρ c main_arg9 (by decide)).trans <|
  (W25_keep m ρ c main_arg9 (by decide)).trans <|
  (W24_keep m ρ c main_arg9 (by decide)).trans <|
  (W23_of_ne m ρ c main_arg9 (by decide)).trans <|
  (W22_keep m ρ c main_arg9 (by decide)).trans <|
  (W21_of_ne m ρ c main_arg9 (by decide)).trans <|
  (W20_keep m ρ c main_arg9 (by decide)).trans <|
  (W19_keep m ρ c main_arg9 (by decide)).trans <|
  (W18_of_ne m ρ c main_arg9 (by decide)).trans <|
  (W17_keep m ρ c main_arg9 (by decide)).trans <|
  (W16_of_ne m ρ c main_arg9 (by decide)).trans <|
  (W15_keep m ρ c main_arg9 (by decide)).trans <|
  (W14_keep m ρ c main_arg9 (by decide)).trans <|
  (W13_of_ne m ρ c main_arg9 (by decide)).trans <|
  (W12_keep m ρ c main_arg9 (by decide)).trans <|
  (W11_of_ne m ρ c main_arg9 (by decide)).trans <|
  (W10_keep m ρ c main_arg9 (by decide)).trans <|
  (W9_keep m ρ c main_arg9 (by decide)).trans <|
  (W8_of_ne m ρ c main_arg9 (by decide)).trans <|
  (W7_keep m ρ c main_arg9 (by decide)).trans <|
  (W6_of_ne m ρ c main_arg9 (by decide)).trans <|
  (W5_keep m ρ c main_arg9 (by decide)).trans <|
  (W4_keep m ρ c main_arg9 (by decide)).trans <|
  (W3_keep m ρ c main_arg9 (by decide)).trans <|
  (W2_keep m ρ c main_arg9 (by decide)).trans <|
  (W1_keep m ρ c main_arg9 (by decide)).trans <|
  rfl
theorem W45_main_arg10 (c : Dev nD) : W45 m ρ c (Proc.devRef .tc main_arg10) = m ((c : Thread nD τ).loc main_arg10) :=
  (W45_keep m ρ c main_arg10 (by decide)).trans <|
  (W44_keep m ρ c main_arg10 (by decide)).trans <|
  (W43_keep m ρ c main_arg10 (by decide)).trans <|
  (W42_keep m ρ c main_arg10 (by decide)).trans <|
  (W41_keep m ρ c main_arg10 (by decide)).trans <|
  (W40_keep m ρ c main_arg10 (by decide)).trans <|
  (W39_keep m ρ c main_arg10 (by decide)).trans <|
  (W38_of_ne m ρ c main_arg10 (by decide)).trans <|
  (W37_keep m ρ c main_arg10 (by decide)).trans <|
  (W36_of_ne m ρ c main_arg10 (by decide)).trans <|
  (W35_keep m ρ c main_arg10 (by decide)).trans <|
  (W34_keep m ρ c main_arg10 (by decide)).trans <|
  (W33_of_ne m ρ c main_arg10 (by decide)).trans <|
  (W32_keep m ρ c main_arg10 (by decide)).trans <|
  (W31_of_ne m ρ c main_arg10 (by decide)).trans <|
  (W30_keep m ρ c main_arg10 (by decide)).trans <|
  (W29_keep m ρ c main_arg10 (by decide)).trans <|
  (W28_of_ne m ρ c main_arg10 (by decide)).trans <|
  (W27_keep m ρ c main_arg10 (by decide)).trans <|
  (W26_of_ne m ρ c main_arg10 (by decide)).trans <|
  (W25_keep m ρ c main_arg10 (by decide)).trans <|
  (W24_keep m ρ c main_arg10 (by decide)).trans <|
  (W23_of_ne m ρ c main_arg10 (by decide)).trans <|
  (W22_keep m ρ c main_arg10 (by decide)).trans <|
  (W21_of_ne m ρ c main_arg10 (by decide)).trans <|
  (W20_keep m ρ c main_arg10 (by decide)).trans <|
  (W19_keep m ρ c main_arg10 (by decide)).trans <|
  (W18_of_ne m ρ c main_arg10 (by decide)).trans <|
  (W17_keep m ρ c main_arg10 (by decide)).trans <|
  (W16_of_ne m ρ c main_arg10 (by decide)).trans <|
  (W15_keep m ρ c main_arg10 (by decide)).trans <|
  (W14_keep m ρ c main_arg10 (by decide)).trans <|
  (W13_of_ne m ρ c main_arg10 (by decide)).trans <|
  (W12_keep m ρ c main_arg10 (by decide)).trans <|
  (W11_of_ne m ρ c main_arg10 (by decide)).trans <|
  (W10_keep m ρ c main_arg10 (by decide)).trans <|
  (W9_keep m ρ c main_arg10 (by decide)).trans <|
  (W8_of_ne m ρ c main_arg10 (by decide)).trans <|
  (W7_keep m ρ c main_arg10 (by decide)).trans <|
  (W6_of_ne m ρ c main_arg10 (by decide)).trans <|
  (W5_keep m ρ c main_arg10 (by decide)).trans <|
  (W4_keep m ρ c main_arg10 (by decide)).trans <|
  (W3_keep m ρ c main_arg10 (by decide)).trans <|
  (W2_keep m ρ c main_arg10 (by decide)).trans <|
  (W1_keep m ρ c main_arg10 (by decide)).trans <|
  rfl

/-! ## The proof data family and the thread state -/

/-- No pipeline reads a prefetched table. -/
abbrev adm : (p : Fin 14) → (pcfgs (F := F) p).Adm := fun p => (cfgs p).toPCfg_adm
/-- Every pipeline's proof data, each at its region's entry contents. -/
def pdats : (p : Fin 14) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V10 m ρ) c
  | ⟨3, _⟩ => fun c => dat3 (V12 m ρ) c
  | ⟨4, _⟩ => fun c => dat4 (V15 m ρ) c
  | ⟨5, _⟩ => fun c => dat5 (V17 m ρ) c
  | ⟨6, _⟩ => fun c => dat6 (V20 m ρ) c
  | ⟨7, _⟩ => fun c => dat7 (V22 m ρ) c
  | ⟨8, _⟩ => fun c => dat8 (V25 m ρ) c
  | ⟨9, _⟩ => fun c => dat9 (V27 m ρ) c
  | ⟨10, _⟩ => fun c => dat10 (V30 m ρ) c
  | ⟨11, _⟩ => fun c => dat11 (V32 m ρ) c
  | ⟨12, _⟩ => fun c => dat12 (V35 m ρ) c
  | ⟨13, _⟩ => fun c => dat13 (V37 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W45 m ρ c) ∗ ∃ r, prngReg c r)

/-! ## The regions as segments -/

set_option backward.isDefEq.respectTransparency.types false in
/-- Region 0 over the thread state: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W10`, left at `W11`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W12`, left at `W13`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V12 m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec3 c (V12 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V12 m ρ c) (V13 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W15`, left at `W16`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W17`, left at `W18`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W20`, left at `W21`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V20 m ρ) c).loose
  hwaits := Pipeline.hwaits_of_owed_zero _ _ _ _ L lv 6 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec6 c (V20 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V20 m ρ c) (V21 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W22`, left at `W23`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V22 m ρ) c).loose
  hwaits := Pipeline.hwaits_of_owed_zero _ _ _ _ L lv 7 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec7 c (V22 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V22 m ρ c) (V23 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W25`, left at `W26`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V25 m ρ) c).loose
  hwaits := Pipeline.hwaits_of_owed_zero _ _ _ _ L lv 8 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec8 c (V25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V25 m ρ c) (V26 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W27`, left at `W28`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V27 m ρ) c).loose
  hwaits := Pipeline.hwaits_of_owed_zero _ _ _ _ L lv 9 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec9 c (V27 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V27 m ρ c) (V28 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W30`, left at `W31`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V30 m ρ) c).loose
  hwaits := Pipeline.hwaits_of_owed_zero _ _ _ _ L lv 10 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec10 c (V30 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V30 m ρ c) (V31 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at `W32`, left at `W33`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V32 m ρ) c).loose
  hwaits := Pipeline.hwaits_of_owed_zero _ _ _ _ L lv 11 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec11 c (V32 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V32 m ρ c) (V33 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at `W35`, left at `W36`. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V35 m ρ) c).loose
  hwaits := Pipeline.hwaits_of_owed_zero _ _ _ _ L lv 12 fun _ _ => rfl
  pre c := iprop(StableHlo.held (c : Thread nD τ) (Pipeline.ucRefs τ sig) (W35 m ρ c) ∗ R c)
  post c := iprop(StableHlo.held (c : Thread nD τ) (Pipeline.ucRefs τ sig) (W36 m ρ c) ∗ R c)
  X c := iprop(∃ r, prngReg c r)
  Y c := iprop(∃ r, prngReg c r)
  Z c := Pipeline.unscopedRest (Ix := Unit) (Name := ℕ) (U := UR sig nD τ) (Lvl := ℕ) spec12 c (V35 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V35 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V35 m ρ c) (V36 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at `W37`, left at `W38`. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (V37 m ρ) c).loose
  hwaits := Pipeline.hwaits_of_owed_zero _ _ _ _ L lv 13 fun _ _ => rfl
  pre c := iprop(StableHlo.held (c : Thread nD τ) (Pipeline.ucRefs τ sig) (W37 m ρ c) ∗ R c)
  post c := iprop(StableHlo.held (c : Thread nD τ) (Pipeline.ucRefs τ sig) (W38 m ρ c) ∗ R c)
  X c := iprop(∃ r, prngReg c r)
  Y c := iprop(∃ r, prngReg c r)
  Z c := Pipeline.unscopedRest (Ix := Unit) (Name := ℕ) (U := UR sig nD τ) (Lvl := ℕ) spec13 c (V37 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V37 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V37 m ρ c) (V38 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [
    .host (hseg hostOps0 hostOps0_sub Cert.Kernel.GenP.hostOps0_fresh (W0 m ρ)),
    .host (hseg hostOps0_1 hostOps0_1_sub Cert.Kernel.GenP.hostOps0_1_fresh (W1 m ρ)),
    .host (hseg hostOps0_2 hostOps0_2_sub Cert.Kernel.GenP.hostOps0_2_fresh (W2 m ρ)),
    .host (hseg hostOps0_3 hostOps0_3_sub Cert.Kernel.GenP.hostOps0_3_fresh (W3 m ρ)),
    .host (hseg hostOps0_4 hostOps0_4_sub Cert.Kernel.GenP.hostOps0_4_fresh (W4 m ρ)),
    .region (reg0 m ρ),
    .host (hseg hostOps1 hostOps1_sub Cert.Kernel.GenP.hostOps1_fresh (W6 m ρ)),
    .region (reg1 m ρ),
    .host (hseg hostOps2 hostOps2_sub Cert.Kernel.GenP.hostOps2_fresh (W8 m ρ)),
    .host (hseg hostOps2_1 hostOps2_1_sub Cert.Kernel.GenP.hostOps2_1_fresh (W9 m ρ)),
    .region (reg2 m ρ),
    .host (hseg hostOps3 hostOps3_sub Cert.Kernel.GenP.hostOps3_fresh (W11 m ρ)),
    .region (reg3 m ρ),
    .host (hseg hostOps4 hostOps4_sub Cert.Kernel.GenP.hostOps4_fresh (W13 m ρ)),
    .host (hseg hostOps4_1 hostOps4_1_sub Cert.Kernel.GenP.hostOps4_1_fresh (W14 m ρ)),
    .region (reg4 m ρ),
    .host (hseg hostOps5 hostOps5_sub Cert.Kernel.GenP.hostOps5_fresh (W16 m ρ)),
    .region (reg5 m ρ),
    .host (hseg hostOps6 hostOps6_sub Cert.Kernel.GenP.hostOps6_fresh (W18 m ρ)),
    .host (hseg hostOps6_1 hostOps6_1_sub Cert.Kernel.GenP.hostOps6_1_fresh (W19 m ρ)),
    .region (reg6 m ρ),
    .host (hseg hostOps7 hostOps7_sub Cert.Kernel.GenP.hostOps7_fresh (W21 m ρ)),
    .region (reg7 m ρ),
    .host (hseg hostOps8 hostOps8_sub Cert.Kernel.GenP.hostOps8_fresh (W23 m ρ)),
    .host (hseg hostOps8_1 hostOps8_1_sub Cert.Kernel.GenP.hostOps8_1_fresh (W24 m ρ)),
    .region (reg8 m ρ),
    .host (hseg hostOps9 hostOps9_sub Cert.Kernel.GenP.hostOps9_fresh (W26 m ρ)),
    .region (reg9 m ρ),
    .host (hseg hostOps10 hostOps10_sub Cert.Kernel.GenP.hostOps10_fresh (W28 m ρ)),
    .host (hseg hostOps10_1 hostOps10_1_sub Cert.Kernel.GenP.hostOps10_1_fresh (W29 m ρ)),
    .region (reg10 m ρ),
    .host (hseg hostOps11 hostOps11_sub Cert.Kernel.GenP.hostOps11_fresh (W31 m ρ)),
    .region (reg11 m ρ),
    .host (hseg hostOps12 hostOps12_sub Cert.Kernel.GenP.hostOps12_fresh (W33 m ρ)),
    .host (hseg hostOps12_1 hostOps12_1_sub Cert.Kernel.GenP.hostOps12_1_fresh (W34 m ρ)),
    .region (reg12 m ρ),
    .host (hseg hostOps13 hostOps13_sub Cert.Kernel.GenP.hostOps13_fresh (W36 m ρ)),
    .region (reg13 m ρ),
    .host (hseg hostOps14 hostOps14_sub Cert.Kernel.GenP.hostOps14_fresh (W38 m ρ)),
    .host (hseg hostOps14_1 hostOps14_1_sub Cert.Kernel.GenP.hostOps14_1_fresh (W39 m ρ)),
    .host (hseg hostOps14_2 hostOps14_2_sub Cert.Kernel.GenP.hostOps14_2_fresh (W40 m ρ)),
    .host (hseg hostOps14_3 hostOps14_3_sub Cert.Kernel.GenP.hostOps14_3_fresh (W41 m ρ)),
    .host (hseg hostOps14_4 hostOps14_4_sub Cert.Kernel.GenP.hostOps14_4_fresh (W42 m ρ)),
    .host (hseg hostOps14_5 hostOps14_5_sub Cert.Kernel.GenP.hostOps14_5_fresh (W43 m ρ)),
    .host (hseg hostOps14_6 hostOps14_6_sub Cert.Kernel.GenP.hostOps14_6_fresh (W44 m ρ)) ]

set_option maxRecDepth 65536 in
/-- The program is the run of its segments. -/
theorem main_run (c : Dev nD) : main (F := F) c = Pipeline.Seg.run (segs m ρ) := (main_chain c).trans (by chain_rfl)

set_option maxRecDepth 65536 in
set_option backward.isDefEq.respectTransparency.types false in
/-- Every weakly fair execution of the program from memory `m` with zero counters terminates, nothing faulting, and in
    the final state every unscoped buffer of every core holds the last fold `W45`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W45 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W45 m ρ c) ∗ R c) : sProp 𝕄) ⊢ iprop(Tₙ m ρ c ∗ ∃ W, owes (c : Thread nD τ) (0 : CellTallies nD τ sig Unit) W)
      iintro ⟨Hh, Hr, HO⟩
      isplitl [Hh Hr]
      · isplitl [Hh]; · iexact Hh
        iexact Hr
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W45 m ρ c b)
    (hfin := fun c s' => by
      iintro ⟨⟨Hh, -⟩, HSI⟩
      unfold StableHlo.held
      imodintro
      iapply (pointsTo_read_all (Pipeline.ucRefs τ sig) (fun b => (((c : Thread nD τ)).1, b)) (W45 m ρ c) s')
      isplitl [Hh] <;> iassumption)
    (hQ := fun s h => h)

end Cert.Kernel.KF

end
-- ==== Proof.RefRunBase.lean ====
/- Two facts about a line of operations used by every part of the reference run: the fold over a
   concatenation is the folds in turn, and an operation writing one buffer that is in a list writes inside
   that list's image. -/
import Idealize.ShloMosaic.Lib.StableHlo.Run

namespace Cert.ReferenceIdeal.RR

open Idealize.ShloMosaic Idealize.ShloMosaic.StableHlo

variable {τ : Topo} {sig : RefSig} {Val : EltTy → Type}

/-- The contents after two lines run in turn: the second line's fold from the first's. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- An operation whose only written buffer is `y` writes inside the image of any list holding `y`. -/
theorem writes_sub_of_eq {op : HloOp τ sig Val} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- A property of every operation of two lines holds of every operation of their concatenation. -/
theorem forall_app {p : HloOp τ sig Val → Prop} {l₁ l₂ : List (HloOp τ sig Val)}
    (h₁ : l₁.Forall p) (h₂ : l₂.Forall p) : (l₁ ++ l₂).Forall p :=
  List.forall_append.2 ⟨h₁, h₂⟩

end Cert.ReferenceIdeal.RR
-- ==== Proof.RefRunP0.lean ====
/- Window 0 of the reference program's @main (`main_part0`) as a LIST of its 64 host operations, in order, each
   call replaced by the callee's operations over that call's record of buffers; with, per operation, that it
   touches TensorCore buffers only, determines what it writes, and writes one buffer of the list `W0`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 64 operations of window 0, in order. -/
abbrev ops0 : List (HloOp τ sig (Elt F)) :=
  [ StableHlo.nullary main_v0 (iotaInDim S32768 32 0),
    StableHlo.unary main_arg3 main_v1 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v1 main_v2 rfl shapeCasts_S1x524288_S524288,
    StableHlo.binary main_v2 main_v0 main_v3 ((fun a b => concatenate S557056 0 [⟨S524288, a⟩, ⟨S32768, b⟩] concatenates_S524288_S32768_S557056_d0) : (⟨S524288, .i32⟩ : BufTy).Contents (Elt F) → (⟨S32768, .i32⟩ : BufTy).Contents (Elt F) → (⟨S557056, .i32⟩ : BufTy).Contents (Elt F)),
    StableHlo.unary main_arg3 main_v4 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v4 main_v5 rfl shapeCasts_S1x524288_S524288,
    StableHlo.binary main_v5 main_v0 main_v6 ((fun a b => concatenate S557056 0 [⟨S524288, a⟩, ⟨S32768, b⟩] concatenates_S524288_S32768_S557056_d0) : (⟨S524288, .i32⟩ : BufTy).Contents (Elt F) → (⟨S32768, .i32⟩ : BufTy).Contents (Elt F) → (⟨S557056, .i32⟩ : BufTy).Contents (Elt F)),
    StableHlo.nullary main_cst (constant S_ .f32 0x3F800000#32),
    StableHlo.unary main_cst main_v7 (broadcastInDim S557056 ![] bcast_S_S557056 : (⟨S_, .f32⟩ : BufTy).Contents (Elt F) → (⟨S557056, .f32⟩ : BufTy).Contents (Elt F)),
    StableHlo.nullary main_cst_0 (constant S_ .f32 0x00000000#32),
    StableHlo.unary main_cst_0 main_v8 (broadcastInDim S32768 ![] bcast_S_S32768 : (⟨S_, .f32⟩ : BufTy).Contents (Elt F) → (⟨S32768, .f32⟩ : BufTy).Contents (Elt F)),
    StableHlo.unary main_v6 main_v9 (broadcastInDim S557056x1 ![0] bcast_S557056_S557056x1_0 : (⟨S557056, .i32⟩ : BufTy).Contents (Elt F) → (⟨S557056x1, .i32⟩ : BufTy).Contents (Elt F)),
    StableHlo.ternary main_v8 main_v9 main_v7 main_v10 ((fun x i u => Host.scatterAdd scatter_S32768_S557056x1_S557056_n_0_0_1 x i u) : (⟨S32768, .f32⟩ : BufTy).Contents (Elt F) → (⟨S557056x1, .i32⟩ : BufTy).Contents (Elt F) → (⟨S557056, .f32⟩ : BufTy).Contents (Elt F) → (⟨S32768, .f32⟩ : BufTy).Contents (Elt F)),
    StableHlo.nullary main_cst_1 (constant S_ .f32 0x00000000#32),
    StableHlo.unary main_cst_1 main_v11 (broadcastInDim S32768 ![] bcast_S_S32768 : (⟨S_, .f32⟩ : BufTy).Contents (Elt F) → (⟨S32768, .f32⟩ : BufTy).Contents (Elt F)),
    StableHlo.binary main_v10 main_v11 main_v12 (cmpf .ogt : (⟨S32768, .f32⟩ : BufTy).Contents (Elt F) → (⟨S32768, .f32⟩ : BufTy).Contents (Elt F) → (⟨S32768, .i1⟩ : BufTy).Contents (Elt F)),
    StableHlo.unary main_v10 main_v13 (Host.rsqrt : (⟨S32768, .f32⟩ : BufTy).Contents (Elt F) → (⟨S32768, .f32⟩ : BufTy).Contents (Elt F)),
    StableHlo.nullary main_cst_2 (constant S_ .f32 0x00000000#32),
    StableHlo.TRef.unary ((.of main_cst_2) : StableHlo.TRef sig ⟨S_, .f32⟩) main_call0.v0 id,
    StableHlo.TRef.unary main_call0.v0 main_call0.v1 (broadcastInDim S32768 ![] bcast_S_S32768),
    StableHlo.TRef.ternary ((.of main_v12) : StableHlo.TRef sig ⟨S32768, .i1⟩) ((.of main_v13) : StableHlo.TRef sig ⟨S32768, .f32⟩) main_call0.v1 main_call0.v2 select,
    StableHlo.nullary main_c (constantI S_ 32 0#32),
    StableHlo.unary main_c main_v15 (broadcastInDim S557056 ![] bcast_S_S557056 : (⟨S_, .i32⟩ : BufTy).Contents (Elt F) → (⟨S557056, .i32⟩ : BufTy).Contents (Elt F)),
    StableHlo.binary main_v3 main_v15 main_v16 (cmpi .slt : (⟨S557056, .i32⟩ : BufTy).Contents (Elt F) → (⟨S557056, .i32⟩ : BufTy).Contents (Elt F) → (⟨S557056, .i1⟩ : BufTy).Contents (Elt F)),
    StableHlo.nullary main_c_3 (constantI S_ 32 32768#32),
    StableHlo.unary main_c_3 main_v17 (broadcastInDim S557056 ![] bcast_S_S557056 : (⟨S_, .i32⟩ : BufTy).Contents (Elt F) → (⟨S557056, .i32⟩ : BufTy).Contents (Elt F)),
    StableHlo.binary main_v3 main_v17 main_v18 (addi : (⟨S557056, .i32⟩ : BufTy).Contents (Elt F) → (⟨S557056, .i32⟩ : BufTy).Contents (Elt F) → (⟨S557056, .i32⟩ : BufTy).Contents (Elt F)),
    StableHlo.ternary main_v16 main_v18 main_v3 main_v19 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v19 main_v20 (broadcastInDim S557056x1 ![0] bcast_S557056_S557056x1_0 : (⟨S557056, .i32⟩ : BufTy).Contents (Elt F) → (⟨S557056x1, .i32⟩ : BufTy).Contents (Elt F)),
    StableHlo.binary main_v14 main_v20 main_v21 ((fun x i => Host.gather gather_S32768_S557056x1_S557056_n_0_n_n_0_1_1 x i) : (⟨S32768, .f32⟩ : BufTy).Contents (Elt F) → (⟨S557056x1, .i32⟩ : BufTy).Contents (Elt F) → (⟨S557056, .f32⟩ : BufTy).Contents (Elt F)),
    StableHlo.nullary main_c_4 (constantI S_ 32 0#32),
    StableHlo.unary main_c_4 main_v22 (broadcastInDim S557056 ![] bcast_S_S557056 : (⟨S_, .i32⟩ : BufTy).Contents (Elt F) → (⟨S557056, .i32⟩ : BufTy).Contents (Elt F)),
    StableHlo.binary main_v6 main_v22 main_v23 (cmpi .slt : (⟨S557056, .i32⟩ : BufTy).Contents (Elt F) → (⟨S557056, .i32⟩ : BufTy).Contents (Elt F) → (⟨S557056, .i1⟩ : BufTy).Contents (Elt F)),
    StableHlo.nullary main_c_5 (constantI S_ 32 32768#32),
    StableHlo.unary main_c_5 main_v24 (broadcastInDim S557056 ![] bcast_S_S557056 : (⟨S_, .i32⟩ : BufTy).Contents (Elt F) → (⟨S557056, .i32⟩ : BufTy).Contents (Elt F)),
    StableHlo.binary main_v6 main_v24 main_v25 (addi : (⟨S557056, .i32⟩ : BufTy).Contents (Elt F) → (⟨S557056, .i32⟩ : BufTy).Contents (Elt F) → (⟨S557056, .i32⟩ : BufTy).Contents (Elt F)),
    StableHlo.ternary main_v23 main_v25 main_v6 main_v26 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v26 main_v27 (broadcastInDim S557056x1 ![0] bcast_S557056_S557056x1_0 : (⟨S557056, .i32⟩ : BufTy).Contents (Elt F) → (⟨S557056x1, .i32⟩ : BufTy).Contents (Elt F)),
    StableHlo.binary main_v14 main_v27 main_v28 ((fun x i => Host.gather gather_S32768_S557056x1_S557056_n_0_n_n_0_1_1 x i) : (⟨S32768, .f32⟩ : BufTy).Contents (Elt F) → (⟨S557056x1, .i32⟩ : BufTy).Contents (Elt F) → (⟨S557056, .f32⟩ : BufTy).Contents (Elt F)),
    StableHlo.binary main_v21 main_v28 main_v29 (mulf : (⟨S557056, .f32⟩ : BufTy).Contents (Elt F) → (⟨S557056, .f32⟩ : BufTy).Contents (Elt F) → (⟨S557056, .f32⟩ : BufTy).Contents (Elt F)),
    StableHlo.nullary main_v30 (iotaInDim S128 32 0),
    StableHlo.unary main_arg4 main_v31 ((extractStridedSlice S1x2048 ![0, 0] · slices_S2x2048_S1x2048_0_0) : (⟨S2x2048, .i32⟩ : BufTy).Contents (Elt F) → (⟨S1x2048, .i32⟩ : BufTy).Contents (Elt F)),
    StableHlo.reshape main_v31 main_v32 rfl shapeCasts_S1x2048_S2048,
    StableHlo.binary main_v32 main_v30 main_v33 ((fun a b => concatenate S2176 0 [⟨S2048, a⟩, ⟨S128, b⟩] concatenates_S2048_S128_S2176_d0) : (⟨S2048, .i32⟩ : BufTy).Contents (Elt F) → (⟨S128, .i32⟩ : BufTy).Contents (Elt F) → (⟨S2176, .i32⟩ : BufTy).Contents (Elt F)),
    StableHlo.unary main_arg4 main_v34 ((extractStridedSlice S1x2048 ![1, 0] · slices_S2x2048_S1x2048_1_0) : (⟨S2x2048, .i32⟩ : BufTy).Contents (Elt F) → (⟨S1x2048, .i32⟩ : BufTy).Contents (Elt F)),
    StableHlo.reshape main_v34 main_v35 rfl shapeCasts_S1x2048_S2048,
    StableHlo.binary main_v35 main_v30 main_v36 ((fun a b => concatenate S2176 0 [⟨S2048, a⟩, ⟨S128, b⟩] concatenates_S2048_S128_S2176_d0) : (⟨S2048, .i32⟩ : BufTy).Contents (Elt F) → (⟨S128, .i32⟩ : BufTy).Contents (Elt F) → (⟨S2176, .i32⟩ : BufTy).Contents (Elt F)),
    StableHlo.nullary main_cst_6 (constant S_ .f32 0x3F800000#32),
    StableHlo.unary main_cst_6 main_v37 (broadcastInDim S2176 ![] bcast_S_S2176 : (⟨S_, .f32⟩ : BufTy).Contents (Elt F) → (⟨S2176, .f32⟩ : BufTy).Contents (Elt F)),
    StableHlo.nullary main_cst_7 (constant S_ .f32 0x00000000#32),
    StableHlo.unary main_cst_7 main_v38 (broadcastInDim S128 ![] bcast_S_S128 : (⟨S_, .f32⟩ : BufTy).Contents (Elt F) → (⟨S128, .f32⟩ : BufTy).Contents (Elt F)),
    StableHlo.unary main_v36 main_v39 (broadcastInDim S2176x1 ![0] bcast_S2176_S2176x1_0 : (⟨S2176, .i32⟩ : BufTy).Contents (Elt F) → (⟨S2176x1, .i32⟩ : BufTy).Contents (Elt F)),
    StableHlo.ternary main_v38 main_v39 main_v37 main_v40 ((fun x i u => Host.scatterAdd scatter_S128_S2176x1_S2176_n_0_0_1 x i u) : (⟨S128, .f32⟩ : BufTy).Contents (Elt F) → (⟨S2176x1, .i32⟩ : BufTy).Contents (Elt F) → (⟨S2176, .f32⟩ : BufTy).Contents (Elt F) → (⟨S128, .f32⟩ : BufTy).Contents (Elt F)),
    StableHlo.nullary main_cst_8 (constant S_ .f32 0x00000000#32),
    StableHlo.unary main_cst_8 main_v41 (broadcastInDim S128 ![] bcast_S_S128 : (⟨S_, .f32⟩ : BufTy).Contents (Elt F) → (⟨S128, .f32⟩ : BufTy).Contents (Elt F)),
    StableHlo.binary main_v40 main_v41 main_v42 (cmpf .ogt : (⟨S128, .f32⟩ : BufTy).Contents (Elt F) → (⟨S128, .f32⟩ : BufTy).Contents (Elt F) → (⟨S128, .i1⟩ : BufTy).Contents (Elt F)),
    StableHlo.unary main_v40 main_v43 (Host.rsqrt : (⟨S128, .f32⟩ : BufTy).Contents (Elt F) → (⟨S128, .f32⟩ : BufTy).Contents (Elt F)),
    StableHlo.nullary main_cst_9 (constant S_ .f32 0x00000000#32),
    StableHlo.TRef.unary ((.of main_cst_9) : StableHlo.TRef sig ⟨S_, .f32⟩) main_call1.v0 id,
    StableHlo.TRef.unary main_call1.v0 main_call1.v1 (broadcastInDim S128 ![] bcast_S_S128),
    StableHlo.TRef.ternary ((.of main_v42) : StableHlo.TRef sig ⟨S128, .i1⟩) ((.of main_v43) : StableHlo.TRef sig ⟨S128, .f32⟩) main_call1.v1 main_call1.v2 select,
    StableHlo.nullary main_c_10 (constantI S_ 32 0#32),
    StableHlo.unary main_c_10 main_v45 (broadcastInDim S2176 ![] bcast_S_S2176 : (⟨S_, .i32⟩ : BufTy).Contents (Elt F) → (⟨S2176, .i32⟩ : BufTy).Contents (Elt F)),
    StableHlo.binary main_v33 main_v45 main_v46 (cmpi .slt : (⟨S2176, .i32⟩ : BufTy).Contents (Elt F) → (⟨S2176, .i32⟩ : BufTy).Contents (Elt F) → (⟨S2176, .i1⟩ : BufTy).Contents (Elt F)) ]

set_option maxRecDepth 4096 in
/-- The window is that straight line: the functions' definitions unfolded at their calls and the records at
    their fields, both sides are one chain of steps once sequencing is reassociated. -/
theorem main_part0_eq (c : Dev nD) : main_part0 (F := F) c = StableHlo.seq ops0 := by
  simp only [main_part0, fn_where.body, fn_where_0.body, StableHlo.seq, bind_assoc, pure_bind] <;> rfl

/-- Each touches TensorCore buffers only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    reshape_bufs_sub .., binary_bufs_sub .., unary_bufs_sub .., reshape_bufs_sub .., binary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., nullary_bufs_sub .., unary_bufs_sub .., unary_bufs_sub ..,
    ternary_bufs_sub .., nullary_bufs_sub .., unary_bufs_sub .., binary_bufs_sub ..⟩

/-- Each determines every buffer it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-- The buffers the window's operations write, in order. -/
abbrev W0 : List (Ref sig .tc) :=
  [ main_v0, main_v1, main_v2, main_v3, main_v4, main_v5, main_v6, main_cst,
    main_v7, main_cst_0, main_v8, main_v9, main_v10, main_cst_1, main_v11, main_v12,
    main_v13, main_cst_2, main_call0.v0.ref, main_call0.v1.ref, main_call0.v2.ref, main_c, main_v15, main_v16,
    main_c_3, main_v17, main_v18, main_v19, main_v20, main_v21, main_c_4, main_v22,
    main_v23, main_c_5, main_v24, main_v25, main_v26, main_v27, main_v28, main_v29,
    main_v30, main_v31, main_v32, main_v33, main_v34, main_v35, main_v36, main_cst_6,
    main_v37, main_cst_7, main_v38, main_v39, main_v40, main_cst_8, main_v41, main_v42,
    main_v43, main_cst_9, main_call1.v0.ref, main_call1.v1.ref, main_call1.v2.ref, main_c_10, main_v45, main_v46 ]

/-- Each writes one buffer, of `W0`. -/
theorem ops0_writes : (ops0 : List (HloOp τ sig (Elt F))).Forall fun op =>
    op.writes ⊆ (W0.map (Proc.devRef (τ := τ) .tc)).toFinset :=
  ⟨writes_sub_of_eq (nullary_writes ..) (by decide), writes_sub_of_eq (unary_writes ..) (by decide), writes_sub_of_eq (reshape_writes ..) (by decide),
    writes_sub_of_eq (binary_writes ..) (by decide), writes_sub_of_eq (unary_writes ..) (by decide), writes_sub_of_eq (reshape_writes ..) (by decide),
    writes_sub_of_eq (binary_writes ..) (by decide), writes_sub_of_eq (nullary_writes ..) (by decide), writes_sub_of_eq (unary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (nullary_writes ..) (by decide), writes_sub_of_eq (unary_writes ..) (by decide),
    writes_sub_of_eq (binary_writes ..) (by decide), writes_sub_of_eq (unary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (reshape_writes ..) (by decide), writes_sub_of_eq (binary_writes ..) (by decide), writes_sub_of_eq (unary_writes ..) (by decide),
    writes_sub_of_eq (reshape_writes ..) (by decide), writes_sub_of_eq (binary_writes ..) (by decide), writes_sub_of_eq (nullary_writes ..) (by decide),
    writes_sub_of_eq (unary_writes ..) (by decide), writes_sub_of_eq (nullary_writes ..) (by decide), writes_sub_of_eq (unary_writes ..) (by decide),
    writes_sub_of_eq (unary_writes ..) (by decide), writes_sub_of_eq (ternary_writes ..) (by decide), writes_sub_of_eq (nullary_writes ..) (by decide),
    writes_sub_of_eq (unary_writes ..) (by decide), writes_sub_of_eq (binary_writes ..) (by decide), writes_sub_of_eq (unary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (nullary_writes ..) (by decide), writes_sub_of_eq (unary_writes ..) (by decide),
    writes_sub_of_eq (binary_writes ..) (by decide)⟩

/-- A buffer outside `W0` keeps its contents through the window. -/
theorem ops0_keeps (V : Valuation τ sig (Elt F)) {r : Ref sig .tc} (hr : r ∉ W0) :
    after ops0 V (Proc.devRef .tc r) = V (Proc.devRef .tc r) :=
  after_of_writes_sub ops0 V ops0_writes hr

end Cert.ReferenceIdeal.RR

end
-- ==== Proof.RefRunP1.lean ====
/- Window 1 of the reference program's @main (`main_part1`) as a LIST of its 70 host operations, in order, each
   call replaced by the callee's operations over that call's record of buffers; with, per operation, that it
   touches TensorCore buffers only, determines what it writes, and writes one buffer of the list `W1`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 70 operations of window 1, in order. -/
abbrev ops1 : List (HloOp τ sig (Elt F)) :=
  [ StableHlo.nullary main_c_11 (constantI S_ 32 128#32),
    StableHlo.unary main_c_11 main_v47 (broadcastInDim S2176 ![] bcast_S_S2176 : (⟨S_, .i32⟩ : BufTy).Contents (Elt F) → (⟨S2176, .i32⟩ : BufTy).Contents (Elt F)),
    StableHlo.binary main_v33 main_v47 main_v48 (addi : (⟨S2176, .i32⟩ : BufTy).Contents (Elt F) → (⟨S2176, .i32⟩ : BufTy).Contents (Elt F) → (⟨S2176, .i32⟩ : BufTy).Contents (Elt F)),
    StableHlo.ternary main_v46 main_v48 main_v33 main_v49 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v49 main_v50 (broadcastInDim S2176x1 ![0] bcast_S2176_S2176x1_0 : (⟨S2176, .i32⟩ : BufTy).Contents (Elt F) → (⟨S2176x1, .i32⟩ : BufTy).Contents (Elt F)),
    StableHlo.binary main_v44 main_v50 main_v51 ((fun x i => Host.gather gather_S128_S2176x1_S2176_n_0_n_n_0_1_1 x i) : (⟨S128, .f32⟩ : BufTy).Contents (Elt F) → (⟨S2176x1, .i32⟩ : BufTy).Contents (Elt F) → (⟨S2176, .f32⟩ : BufTy).Contents (Elt F)),
    StableHlo.nullary main_c_12 (constantI S_ 32 0#32),
    StableHlo.unary main_c_12 main_v52 (broadcastInDim S2176 ![] bcast_S_S2176 : (⟨S_, .i32⟩ : BufTy).Contents (Elt F) → (⟨S2176, .i32⟩ : BufTy).Contents (Elt F)),
    StableHlo.binary main_v36 main_v52 main_v53 (cmpi .slt : (⟨S2176, .i32⟩ : BufTy).Contents (Elt F) → (⟨S2176, .i32⟩ : BufTy).Contents (Elt F) → (⟨S2176, .i1⟩ : BufTy).Contents (Elt F)),
    StableHlo.nullary main_c_13 (constantI S_ 32 128#32),
    StableHlo.unary main_c_13 main_v54 (broadcastInDim S2176 ![] bcast_S_S2176 : (⟨S_, .i32⟩ : BufTy).Contents (Elt F) → (⟨S2176, .i32⟩ : BufTy).Contents (Elt F)),
    StableHlo.binary main_v36 main_v54 main_v55 (addi : (⟨S2176, .i32⟩ : BufTy).Contents (Elt F) → (⟨S2176, .i32⟩ : BufTy).Contents (Elt F) → (⟨S2176, .i32⟩ : BufTy).Contents (Elt F)),
    StableHlo.ternary main_v53 main_v55 main_v36 main_v56 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v56 main_v57 (broadcastInDim S2176x1 ![0] bcast_S2176_S2176x1_0 : (⟨S2176, .i32⟩ : BufTy).Contents (Elt F) → (⟨S2176x1, .i32⟩ : BufTy).Contents (Elt F)),
    StableHlo.binary main_v44 main_v57 main_v58 ((fun x i => Host.gather gather_S128_S2176x1_S2176_n_0_n_n_0_1_1 x i) : (⟨S128, .f32⟩ : BufTy).Contents (Elt F) → (⟨S2176x1, .i32⟩ : BufTy).Contents (Elt F) → (⟨S2176, .f32⟩ : BufTy).Contents (Elt F)),
    StableHlo.binary main_v51 main_v58 main_v59 (mulf : (⟨S2176, .f32⟩ : BufTy).Contents (Elt F) → (⟨S2176, .f32⟩ : BufTy).Contents (Elt F) → (⟨S2176, .f32⟩ : BufTy).Contents (Elt F)),
    StableHlo.binary main_arg0 main_arg5 main_v60 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_14 (constantI S_ 32 0#32),
    StableHlo.unary main_c_14 main_v61 (broadcastInDim S557056 ![] bcast_S_S557056 : (⟨S_, .i32⟩ : BufTy).Contents (Elt F) → (⟨S557056, .i32⟩ : BufTy).Contents (Elt F)),
    StableHlo.binary main_v3 main_v61 main_v62 (cmpi .slt : (⟨S557056, .i32⟩ : BufTy).Contents (Elt F) → (⟨S557056, .i32⟩ : BufTy).Contents (Elt F) → (⟨S557056, .i1⟩ : BufTy).Contents (Elt F)),
    StableHlo.nullary main_c_15 (constantI S_ 32 32768#32),
    StableHlo.unary main_c_15 main_v63 (broadcastInDim S557056 ![] bcast_S_S557056 : (⟨S_, .i32⟩ : BufTy).Contents (Elt F) → (⟨S557056, .i32⟩ : BufTy).Contents (Elt F)),
    StableHlo.binary main_v3 main_v63 main_v64 (addi : (⟨S557056, .i32⟩ : BufTy).Contents (Elt F) → (⟨S557056, .i32⟩ : BufTy).Contents (Elt F) → (⟨S557056, .i32⟩ : BufTy).Contents (Elt F)),
    StableHlo.ternary main_v62 main_v64 main_v3 main_v65 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v65 main_v66 (broadcastInDim S557056x1 ![0] bcast_S557056_S557056x1_0 : (⟨S557056, .i32⟩ : BufTy).Contents (Elt F) → (⟨S557056x1, .i32⟩ : BufTy).Contents (Elt F)),
    StableHlo.binary main_v60 main_v66 main_v67 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v68 (broadcastInDim S557056x1 ![0] bcast_S557056_S557056x1_0 : (⟨S557056, .f32⟩ : BufTy).Contents (Elt F) → (⟨S557056x1, .f32⟩ : BufTy).Contents (Elt F)),
    StableHlo.unary main_v68 main_v69 (broadcastInDim S557056x128 ![0, 1] bcast_S557056x1_S557056x128_0_1 : (⟨S557056x1, .f32⟩ : BufTy).Contents (Elt F) → (⟨S557056x128, .f32⟩ : BufTy).Contents (Elt F)),
    StableHlo.binary main_v67 main_v69 main_v70 (mulf : (⟨S557056x128, .f32⟩ : BufTy).Contents (Elt F) → (⟨S557056x128, .f32⟩ : BufTy).Contents (Elt F) → (⟨S557056x128, .f32⟩ : BufTy).Contents (Elt F)),
    StableHlo.nullary main_cst_16 (constant S_ .f32 0x00000000#32),
    StableHlo.unary main_cst_16 main_v71 (broadcastInDim S32768x128 ![] bcast_S_S32768x128 : (⟨S_, .f32⟩ : BufTy).Contents (Elt F) → (⟨S32768x128, .f32⟩ : BufTy).Contents (Elt F)),
    StableHlo.unary main_v6 main_v72 (broadcastInDim S557056x1 ![0] bcast_S557056_S557056x1_0 : (⟨S557056, .i32⟩ : BufTy).Contents (Elt F) → (⟨S557056x1, .i32⟩ : BufTy).Contents (Elt F)),
    StableHlo.ternary main_v71 main_v72 main_v70 main_v73 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S32768x128 ![0, 1] bcast_S1x128_S32768x128_0_1 : (⟨S1x128, .f32⟩ : BufTy).Contents (Elt F) → (⟨S32768x128, .f32⟩ : BufTy).Contents (Elt F)),
    StableHlo.binary main_v73 main_v75 main_v76 (addf : (⟨S32768x128, .f32⟩ : BufTy).Contents (Elt F) → (⟨S32768x128, .f32⟩ : BufTy).Contents (Elt F) → (⟨S32768x128, .f32⟩ : BufTy).Contents (Elt F)),
    StableHlo.binary main_arg1 main_arg5 main_v77 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_17 (constantI S_ 32 0#32),
    StableHlo.unary main_c_17 main_v78 (broadcastInDim S2176 ![] bcast_S_S2176 : (⟨S_, .i32⟩ : BufTy).Contents (Elt F) → (⟨S2176, .i32⟩ : BufTy).Contents (Elt F)),
    StableHlo.binary main_v33 main_v78 main_v79 (cmpi .slt : (⟨S2176, .i32⟩ : BufTy).Contents (Elt F) → (⟨S2176, .i32⟩ : BufTy).Contents (Elt F) → (⟨S2176, .i1⟩ : BufTy).Contents (Elt F)),
    StableHlo.nullary main_c_18 (constantI S_ 32 128#32),
    StableHlo.unary main_c_18 main_v80 (broadcastInDim S2176 ![] bcast_S_S2176 : (⟨S_, .i32⟩ : BufTy).Contents (Elt F) → (⟨S2176, .i32⟩ : BufTy).Contents (Elt F)),
    StableHlo.binary main_v33 main_v80 main_v81 (addi : (⟨S2176, .i32⟩ : BufTy).Contents (Elt F) → (⟨S2176, .i32⟩ : BufTy).Contents (Elt F) → (⟨S2176, .i32⟩ : BufTy).Contents (Elt F)),
    StableHlo.ternary main_v79 main_v81 main_v33 main_v82 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v82 main_v83 (broadcastInDim S2176x1 ![0] bcast_S2176_S2176x1_0 : (⟨S2176, .i32⟩ : BufTy).Contents (Elt F) → (⟨S2176x1, .i32⟩ : BufTy).Contents (Elt F)),
    StableHlo.binary main_v77 main_v83 main_v84 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v85 (broadcastInDim S2176x1 ![0] bcast_S2176_S2176x1_0 : (⟨S2176, .f32⟩ : BufTy).Contents (Elt F) → (⟨S2176x1, .f32⟩ : BufTy).Contents (Elt F)),
    StableHlo.unary main_v85 main_v86 (broadcastInDim S2176x128 ![0, 1] bcast_S2176x1_S2176x128_0_1 : (⟨S2176x1, .f32⟩ : BufTy).Contents (Elt F) → (⟨S2176x128, .f32⟩ : BufTy).Contents (Elt F)),
    StableHlo.binary main_v84 main_v86 main_v87 (mulf : (⟨S2176x128, .f32⟩ : BufTy).Contents (Elt F) → (⟨S2176x128, .f32⟩ : BufTy).Contents (Elt F) → (⟨S2176x128, .f32⟩ : BufTy).Contents (Elt F)),
    StableHlo.nullary main_cst_19 (constant S_ .f32 0x00000000#32),
    StableHlo.unary main_cst_19 main_v88 (broadcastInDim S128x128 ![] bcast_S_S128x128 : (⟨S_, .f32⟩ : BufTy).Contents (Elt F) → (⟨S128x128, .f32⟩ : BufTy).Contents (Elt F)),
    StableHlo.unary main_v36 main_v89 (broadcastInDim S2176x1 ![0] bcast_S2176_S2176x1_0 : (⟨S2176, .i32⟩ : BufTy).Contents (Elt F) → (⟨S2176x1, .i32⟩ : BufTy).Contents (Elt F)),
    StableHlo.ternary main_v88 main_v89 main_v87 main_v90 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S128x128 ![0, 1] bcast_S1x128_S128x128_0_1 : (⟨S1x128, .f32⟩ : BufTy).Contents (Elt F) → (⟨S128x128, .f32⟩ : BufTy).Contents (Elt F)),
    StableHlo.binary main_v90 main_v92 main_v93 (addf : (⟨S128x128, .f32⟩ : BufTy).Contents (Elt F) → (⟨S128x128, .f32⟩ : BufTy).Contents (Elt F) → (⟨S128x128, .f32⟩ : BufTy).Contents (Elt F)),
    StableHlo.TRef.nullary main_call2.v0 (iotaInDim S128x128 32 0),
    StableHlo.TRef.nullary main_call2.v1 (iotaInDim S128x128 32 1),
    StableHlo.TRef.nullary main_call2.c (constantI S_ 32 0#32),
    StableHlo.TRef.unary main_call2.c main_call2.v2 (broadcastInDim S128x128 ![] bcast_S_S128x128),
    StableHlo.TRef.binary main_call2.v0 main_call2.v2 main_call2.v3 addi,
    StableHlo.TRef.binary main_call2.v3 main_call2.v1 main_call2.v4 (cmpi .eq),
    StableHlo.TRef.nullary main_call2.cst (constant S_ .f32 0x00000000#32),
    StableHlo.TRef.unary main_call2.cst main_call2.v5 (broadcastInDim S128x128 ![] bcast_S_S128x128),
    StableHlo.TRef.ternary main_call2.v4 ((.of main_v93) : StableHlo.TRef sig ⟨S128x128, .f32⟩) main_call2.v5 main_call2.call0.v0 select,
    StableHlo.TRef.nullary main_call2.cst_0 (constant S_ .f32 0x00000000#32),
    StableHlo.TRef.binary main_call2.call0.v0 main_call2.cst_0 main_call2.v7 (fun x v => Host.reduceAdd x v reducesTo_S128x128_S_d0_1 h_S_),
    StableHlo.reshape main_v76 main_v95 rfl shapeCasts_S32768x128_S256x128x128,
    StableHlo.nullary main_v96 (iotaInDim S128x128 32 0),
    StableHlo.nullary main_v97 (iotaInDim S128x128 32 1) ]

set_option maxRecDepth 4096 in
/-- The window is that straight line: the functions' definitions unfolded at their calls and the records at
    their fields, both sides are one chain of steps once sequencing is reassociated. -/
theorem main_part1_eq (c : Dev nD) : main_part1 (F := F) c = StableHlo.seq ops1 := by
  simp only [main_part1, fn_trace.body, fn_where_1.body, StableHlo.seq, bind_assoc, pure_bind] <;> rfl

/-- Each touches TensorCore buffers only. -/
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., reshape_bufs_sub .., nullary_bufs_sub .., nullary_bufs_sub ..⟩

/-- Each determines every buffer it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The buffers the window's operations write, in order. -/
abbrev W1 : List (Ref sig .tc) :=
  [ main_c_11, main_v47, main_v48, main_v49, main_v50, main_v51, main_c_12, main_v52,
    main_v53, main_c_13, main_v54, main_v55, main_v56, main_v57, main_v58, main_v59,
    main_v60, main_c_14, main_v61, main_v62, main_c_15, main_v63, main_v64, main_v65,
    main_v66, main_v67, main_v68, main_v69, main_v70, main_cst_16, main_v71, main_v72,
    main_v73, main_v74, main_v75, main_v76, main_v77, main_c_17, main_v78, main_v79,
    main_c_18, main_v80, main_v81, main_v82, main_v83, main_v84, main_v85, main_v86,
    main_v87, main_cst_19, main_v88, main_v89, main_v90, main_v91, main_v92, main_v93,
    main_call2.v0.ref, main_call2.v1.ref, main_call2.c.ref, main_call2.v2.ref, main_call2.v3.ref, main_call2.v4.ref, main_call2.cst.ref, main_call2.v5.ref,
    main_call2.call0.v0.ref, main_call2.cst_0.ref, main_call2.v7.ref, main_v95, main_v96, main_v97 ]

/-- Each writes one buffer, of `W1`. -/
theorem ops1_writes : (ops1 : List (HloOp τ sig (Elt F))).Forall fun op =>
    op.writes ⊆ (W1.map (Proc.devRef (τ := τ) .tc)).toFinset :=
  ⟨writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (binary_writes ..) (by decide), writes_sub_of_eq (binary_writes ..) (by decide), writes_sub_of_eq (nullary_writes ..) (by decide),
    writes_sub_of_eq (unary_writes ..) (by decide), writes_sub_of_eq (binary_writes ..) (by decide), writes_sub_of_eq (nullary_writes ..) (by decide),
    writes_sub_of_eq (unary_writes ..) (by decide), writes_sub_of_eq (binary_writes ..) (by decide), writes_sub_of_eq (ternary_writes ..) (by decide),
    writes_sub_of_eq (unary_writes ..) (by decide), writes_sub_of_eq (binary_writes ..) (by decide), writes_sub_of_eq (unary_writes ..) (by decide),
    writes_sub_of_eq (unary_writes ..) (by decide), writes_sub_of_eq (binary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (unary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (nullary_writes ..) (by decide),
    writes_sub_of_eq (nullary_writes ..) (by decide), writes_sub_of_eq (nullary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (reshape_writes ..) (by decide), writes_sub_of_eq (nullary_writes ..) (by decide),
    writes_sub_of_eq (nullary_writes ..) (by decide)⟩

/-- A buffer outside `W1` keeps its contents through the window. -/
theorem ops1_keeps (V : Valuation τ sig (Elt F)) {r : Ref sig .tc} (hr : r ∉ W1) :
    after ops1 V (Proc.devRef .tc r) = V (Proc.devRef .tc r) :=
  after_of_writes_sub ops1 V ops1_writes hr

end Cert.ReferenceIdeal.RR

end
-- ==== Proof.RefRunP2.lean ====
/- Window 2 of the reference program's @main (`main_part2`) as a LIST of its 70 host operations, in order, each
   call replaced by the callee's operations over that call's record of buffers; with, per operation, that it
   touches TensorCore buffers only, determines what it writes, and writes one buffer of the list `W2`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 70 operations of window 2, in order. -/
abbrev ops2 : List (HloOp τ sig (Elt F)) :=
  [ StableHlo.binary main_v96 main_v97 main_v98 (cmpi .eq : (⟨S128x128, .i32⟩ : BufTy).Contents (Elt F) → (⟨S128x128, .i32⟩ : BufTy).Contents (Elt F) → (⟨S128x128, .i1⟩ : BufTy).Contents (Elt F)),
    StableHlo.unary main_v98 main_v99 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_20 (constant S_ .f32 0x00000000#32),
    StableHlo.unary main_cst_20 main_v100 (broadcastInDim S256x128x128 ![] bcast_S_S256x128x128 : (⟨S_, .f32⟩ : BufTy).Contents (Elt F) → (⟨S256x128x128, .f32⟩ : BufTy).Contents (Elt F)),
    StableHlo.ternary main_v99 main_v95 main_v100 main_v101 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_21 (constant S_ .f32 0x00000000#32),
    StableHlo.binary main_v101 main_cst_21 main_v102 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)),
    StableHlo.binary main_v76 main_arg5 main_v103 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_22 (constantI S_ 32 0#32),
    StableHlo.unary main_c_22 main_v104 (broadcastInDim S557056 ![] bcast_S_S557056 : (⟨S_, .i32⟩ : BufTy).Contents (Elt F) → (⟨S557056, .i32⟩ : BufTy).Contents (Elt F)),
    StableHlo.binary main_v3 main_v104 main_v105 (cmpi .slt : (⟨S557056, .i32⟩ : BufTy).Contents (Elt F) → (⟨S557056, .i32⟩ : BufTy).Contents (Elt F) → (⟨S557056, .i1⟩ : BufTy).Contents (Elt F)),
    StableHlo.nullary main_c_23 (constantI S_ 32 32768#32),
    StableHlo.unary main_c_23 main_v106 (broadcastInDim S557056 ![] bcast_S_S557056 : (⟨S_, .i32⟩ : BufTy).Contents (Elt F) → (⟨S557056, .i32⟩ : BufTy).Contents (Elt F)),
    StableHlo.binary main_v3 main_v106 main_v107 (addi : (⟨S557056, .i32⟩ : BufTy).Contents (Elt F) → (⟨S557056, .i32⟩ : BufTy).Contents (Elt F) → (⟨S557056, .i32⟩ : BufTy).Contents (Elt F)),
    StableHlo.ternary main_v105 main_v107 main_v3 main_v108 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v108 main_v109 (broadcastInDim S557056x1 ![0] bcast_S557056_S557056x1_0 : (⟨S557056, .i32⟩ : BufTy).Contents (Elt F) → (⟨S557056x1, .i32⟩ : BufTy).Contents (Elt F)),
    StableHlo.binary main_v103 main_v109 main_v110 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v111 (broadcastInDim S557056x1 ![0] bcast_S557056_S557056x1_0 : (⟨S557056, .f32⟩ : BufTy).Contents (Elt F) → (⟨S557056x1, .f32⟩ : BufTy).Contents (Elt F)),
    StableHlo.unary main_v111 main_v112 (broadcastInDim S557056x128 ![0, 1] bcast_S557056x1_S557056x128_0_1 : (⟨S557056x1, .f32⟩ : BufTy).Contents (Elt F) → (⟨S557056x128, .f32⟩ : BufTy).Contents (Elt F)),
    StableHlo.binary main_v110 main_v112 main_v113 (mulf : (⟨S557056x128, .f32⟩ : BufTy).Contents (Elt F) → (⟨S557056x128, .f32⟩ : BufTy).Contents (Elt F) → (⟨S557056x128, .f32⟩ : BufTy).Contents (Elt F)),
    StableHlo.nullary main_cst_24 (constant S_ .f32 0x00000000#32),
    StableHlo.unary main_cst_24 main_v114 (broadcastInDim S32768x128 ![] bcast_S_S32768x128 : (⟨S_, .f32⟩ : BufTy).Contents (Elt F) → (⟨S32768x128, .f32⟩ : BufTy).Contents (Elt F)),
    StableHlo.unary main_v6 main_v115 (broadcastInDim S557056x1 ![0] bcast_S557056_S557056x1_0 : (⟨S557056, .i32⟩ : BufTy).Contents (Elt F) → (⟨S557056x1, .i32⟩ : BufTy).Contents (Elt F)),
    StableHlo.ternary main_v114 main_v115 main_v113 main_v116 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S32768x128 ![0, 1] bcast_S1x128_S32768x128_0_1 : (⟨S1x128, .f32⟩ : BufTy).Contents (Elt F) → (⟨S32768x128, .f32⟩ : BufTy).Contents (Elt F)),
    StableHlo.binary main_v116 main_v118 main_v119 (addf : (⟨S32768x128, .f32⟩ : BufTy).Contents (Elt F) → (⟨S32768x128, .f32⟩ : BufTy).Contents (Elt F) → (⟨S32768x128, .f32⟩ : BufTy).Contents (Elt F)),
    StableHlo.binary main_v93 main_arg5 main_v120 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_25 (constantI S_ 32 0#32),
    StableHlo.unary main_c_25 main_v121 (broadcastInDim S2176 ![] bcast_S_S2176 : (⟨S_, .i32⟩ : BufTy).Contents (Elt F) → (⟨S2176, .i32⟩ : BufTy).Contents (Elt F)),
    StableHlo.binary main_v33 main_v121 main_v122 (cmpi .slt : (⟨S2176, .i32⟩ : BufTy).Contents (Elt F) → (⟨S2176, .i32⟩ : BufTy).Contents (Elt F) → (⟨S2176, .i1⟩ : BufTy).Contents (Elt F)),
    StableHlo.nullary main_c_26 (constantI S_ 32 128#32),
    StableHlo.unary main_c_26 main_v123 (broadcastInDim S2176 ![] bcast_S_S2176 : (⟨S_, .i32⟩ : BufTy).Contents (Elt F) → (⟨S2176, .i32⟩ : BufTy).Contents (Elt F)),
    StableHlo.binary main_v33 main_v123 main_v124 (addi : (⟨S2176, .i32⟩ : BufTy).Contents (Elt F) → (⟨S2176, .i32⟩ : BufTy).Contents (Elt F) → (⟨S2176, .i32⟩ : BufTy).Contents (Elt F)),
    StableHlo.ternary main_v122 main_v124 main_v33 main_v125 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v125 main_v126 (broadcastInDim S2176x1 ![0] bcast_S2176_S2176x1_0 : (⟨S2176, .i32⟩ : BufTy).Contents (Elt F) → (⟨S2176x1, .i32⟩ : BufTy).Contents (Elt F)),
    StableHlo.binary main_v120 main_v126 main_v127 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v128 (broadcastInDim S2176x1 ![0] bcast_S2176_S2176x1_0 : (⟨S2176, .f32⟩ : BufTy).Contents (Elt F) → (⟨S2176x1, .f32⟩ : BufTy).Contents (Elt F)),
    StableHlo.unary main_v128 main_v129 (broadcastInDim S2176x128 ![0, 1] bcast_S2176x1_S2176x128_0_1 : (⟨S2176x1, .f32⟩ : BufTy).Contents (Elt F) → (⟨S2176x128, .f32⟩ : BufTy).Contents (Elt F)),
    StableHlo.binary main_v127 main_v129 main_v130 (mulf : (⟨S2176x128, .f32⟩ : BufTy).Contents (Elt F) → (⟨S2176x128, .f32⟩ : BufTy).Contents (Elt F) → (⟨S2176x128, .f32⟩ : BufTy).Contents (Elt F)),
    StableHlo.nullary main_cst_27 (constant S_ .f32 0x00000000#32),
    StableHlo.unary main_cst_27 main_v131 (broadcastInDim S128x128 ![] bcast_S_S128x128 : (⟨S_, .f32⟩ : BufTy).Contents (Elt F) → (⟨S128x128, .f32⟩ : BufTy).Contents (Elt F)),
    StableHlo.unary main_v36 main_v132 (broadcastInDim S2176x1 ![0] bcast_S2176_S2176x1_0 : (⟨S2176, .i32⟩ : BufTy).Contents (Elt F) → (⟨S2176x1, .i32⟩ : BufTy).Contents (Elt F)),
    StableHlo.ternary main_v131 main_v132 main_v130 main_v133 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S128x128 ![0, 1] bcast_S1x128_S128x128_0_1 : (⟨S1x128, .f32⟩ : BufTy).Contents (Elt F) → (⟨S128x128, .f32⟩ : BufTy).Contents (Elt F)),
    StableHlo.binary main_v133 main_v135 main_v136 (addf : (⟨S128x128, .f32⟩ : BufTy).Contents (Elt F) → (⟨S128x128, .f32⟩ : BufTy).Contents (Elt F) → (⟨S128x128, .f32⟩ : BufTy).Contents (Elt F)),
    StableHlo.TRef.nullary main_call3.v0 (iotaInDim S128x128 32 0),
    StableHlo.TRef.nullary main_call3.v1 (iotaInDim S128x128 32 1),
    StableHlo.TRef.nullary main_call3.c (constantI S_ 32 0#32),
    StableHlo.TRef.unary main_call3.c main_call3.v2 (broadcastInDim S128x128 ![] bcast_S_S128x128),
    StableHlo.TRef.binary main_call3.v0 main_call3.v2 main_call3.v3 addi,
    StableHlo.TRef.binary main_call3.v3 main_call3.v1 main_call3.v4 (cmpi .eq),
    StableHlo.TRef.nullary main_call3.cst (constant S_ .f32 0x00000000#32),
    StableHlo.TRef.unary main_call3.cst main_call3.v5 (broadcastInDim S128x128 ![] bcast_S_S128x128),
    StableHlo.TRef.ternary main_call3.v4 ((.of main_v136) : StableHlo.TRef sig ⟨S128x128, .f32⟩) main_call3.v5 main_call3.call0.v0 select,
    StableHlo.TRef.nullary main_call3.cst_0 (constant S_ .f32 0x00000000#32),
    StableHlo.TRef.binary main_call3.call0.v0 main_call3.cst_0 main_call3.v7 (fun x v => Host.reduceAdd x v reducesTo_S128x128_S_d0_1 h_S_),
    StableHlo.reshape main_v119 main_v138 rfl shapeCasts_S32768x128_S256x128x128,
    StableHlo.nullary main_v139 (iotaInDim S128x128 32 0),
    StableHlo.nullary main_v140 (iotaInDim S128x128 32 1),
    StableHlo.binary main_v139 main_v140 main_v141 (cmpi .eq : (⟨S128x128, .i32⟩ : BufTy).Contents (Elt F) → (⟨S128x128, .i32⟩ : BufTy).Contents (Elt F) → (⟨S128x128, .i1⟩ : BufTy).Contents (Elt F)),
    StableHlo.unary main_v141 main_v142 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_28 (constant S_ .f32 0x00000000#32),
    StableHlo.unary main_cst_28 main_v143 (broadcastInDim S256x128x128 ![] bcast_S_S256x128x128 : (⟨S_, .f32⟩ : BufTy).Contents (Elt F) → (⟨S256x128x128, .f32⟩ : BufTy).Contents (Elt F)),
    StableHlo.ternary main_v142 main_v138 main_v143 main_v144 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_29 (constant S_ .f32 0x00000000#32),
    StableHlo.binary main_v144 main_cst_29 main_v145 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)),
    StableHlo.binary main_v119 main_arg5 main_v146 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_30 (constantI S_ 32 0#32) ]

set_option maxRecDepth 4096 in
/-- The window is that straight line: the functions' definitions unfolded at their calls and the records at
    their fields, both sides are one chain of steps once sequencing is reassociated. -/
theorem main_part2_eq (c : Dev nD) : main_part2 (F := F) c = StableHlo.seq ops2 := by
  simp only [main_part2, fn_trace.body, fn_where_1.body, StableHlo.seq, bind_assoc, pure_bind] <;> rfl

/-- Each touches TensorCore buffers only. -/
theorem ops2_sub : (ops2 : List (HloOp τ sig (Elt F))).Forall fun op => op.bufs ⊆ tcRefs τ sig :=
  ⟨binary_bufs_sub .., unary_bufs_sub .., nullary_bufs_sub .., unary_bufs_sub .., ternary_bufs_sub .., nullary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., reshape_bufs_sub .., nullary_bufs_sub ..,
    nullary_bufs_sub .., binary_bufs_sub .., unary_bufs_sub .., nullary_bufs_sub .., unary_bufs_sub .., ternary_bufs_sub ..,
    nullary_bufs_sub .., binary_bufs_sub .., binary_bufs_sub .., nullary_bufs_sub ..⟩

/-- Each determines every buffer it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The buffers the window's operations write, in order. -/
abbrev W2 : List (Ref sig .tc) :=
  [ main_v98, main_v99, main_cst_20, main_v100, main_v101, main_cst_21, main_v102, main_v103,
    main_c_22, main_v104, main_v105, main_c_23, main_v106, main_v107, main_v108, main_v109,
    main_v110, main_v111, main_v112, main_v113, main_cst_24, main_v114, main_v115, main_v116,
    main_v117, main_v118, main_v119, main_v120, main_c_25, main_v121, main_v122, main_c_26,
    main_v123, main_v124, main_v125, main_v126, main_v127, main_v128, main_v129, main_v130,
    main_cst_27, main_v131, main_v132, main_v133, main_v134, main_v135, main_v136, main_call3.v0.ref,
    main_call3.v1.ref, main_call3.c.ref, main_call3.v2.ref, main_call3.v3.ref, main_call3.v4.ref, main_call3.cst.ref, main_call3.v5.ref, main_call3.call0.v0.ref,
    main_call3.cst_0.ref, main_call3.v7.ref, main_v138, main_v139, main_v140, main_v141, main_v142, main_cst_28,
    main_v143, main_v144, main_cst_29, main_v145, main_v146, main_c_30 ]

/-- Each writes one buffer, of `W2`. -/
theorem ops2_writes : (ops2 : List (HloOp τ sig (Elt F))).Forall fun op =>
    op.writes ⊆ (W2.map (Proc.devRef (τ := τ) .tc)).toFinset :=
  ⟨writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (binary_writes ..) (by decide), writes_sub_of_eq (nullary_writes ..) (by decide),
    writes_sub_of_eq (unary_writes ..) (by decide), writes_sub_of_eq (binary_writes ..) (by decide), writes_sub_of_eq (nullary_writes ..) (by decide),
    writes_sub_of_eq (unary_writes ..) (by decide), writes_sub_of_eq (binary_writes ..) (by decide), writes_sub_of_eq (ternary_writes ..) (by decide),
    writes_sub_of_eq (unary_writes ..) (by decide), writes_sub_of_eq (binary_writes ..) (by decide), writes_sub_of_eq (unary_writes ..) (by decide),
    writes_sub_of_eq (unary_writes ..) (by decide), writes_sub_of_eq (binary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (unary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (nullary_writes ..) (by decide),
    writes_sub_of_eq (nullary_writes ..) (by decide), writes_sub_of_eq (nullary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (reshape_writes ..) (by decide), writes_sub_of_eq (nullary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (ternary_writes ..) (by decide),
    writes_sub_of_eq (nullary_writes ..) (by decide), writes_sub_of_eq (binary_writes ..) (by decide), writes_sub_of_eq (binary_writes ..) (by decide),
    writes_sub_of_eq (nullary_writes ..) (by decide)⟩

/-- A buffer outside `W2` keeps its contents through the window. -/
theorem ops2_keeps (V : Valuation τ sig (Elt F)) {r : Ref sig .tc} (hr : r ∉ W2) :
    after ops2 V (Proc.devRef .tc r) = V (Proc.devRef .tc r) :=
  after_of_writes_sub ops2 V ops2_writes hr

end Cert.ReferenceIdeal.RR

end
-- ==== Proof.RefRunP3.lean ====
/- Window 3 of the reference program's @main (`main_part3`) as a LIST of its 70 host operations, in order, each
   call replaced by the callee's operations over that call's record of buffers; with, per operation, that it
   touches TensorCore buffers only, determines what it writes, and writes one buffer of the list `W3`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 70 operations of window 3, in order. -/
abbrev ops3 : List (HloOp τ sig (Elt F)) :=
  [ StableHlo.unary main_c_30 main_v147 (broadcastInDim S557056 ![] bcast_S_S557056 : (⟨S_, .i32⟩ : BufTy).Contents (Elt F) → (⟨S557056, .i32⟩ : BufTy).Contents (Elt F)),
    StableHlo.binary main_v3 main_v147 main_v148 (cmpi .slt : (⟨S557056, .i32⟩ : BufTy).Contents (Elt F) → (⟨S557056, .i32⟩ : BufTy).Contents (Elt F) → (⟨S557056, .i1⟩ : BufTy).Contents (Elt F)),
    StableHlo.nullary main_c_31 (constantI S_ 32 32768#32),
    StableHlo.unary main_c_31 main_v149 (broadcastInDim S557056 ![] bcast_S_S557056 : (⟨S_, .i32⟩ : BufTy).Contents (Elt F) → (⟨S557056, .i32⟩ : BufTy).Contents (Elt F)),
    StableHlo.binary main_v3 main_v149 main_v150 (addi : (⟨S557056, .i32⟩ : BufTy).Contents (Elt F) → (⟨S557056, .i32⟩ : BufTy).Contents (Elt F) → (⟨S557056, .i32⟩ : BufTy).Contents (Elt F)),
    StableHlo.ternary main_v148 main_v150 main_v3 main_v151 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v151 main_v152 (broadcastInDim S557056x1 ![0] bcast_S557056_S557056x1_0 : (⟨S557056, .i32⟩ : BufTy).Contents (Elt F) → (⟨S557056x1, .i32⟩ : BufTy).Contents (Elt F)),
    StableHlo.binary main_v146 main_v152 main_v153 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v154 (broadcastInDim S557056x1 ![0] bcast_S557056_S557056x1_0 : (⟨S557056, .f32⟩ : BufTy).Contents (Elt F) → (⟨S557056x1, .f32⟩ : BufTy).Contents (Elt F)),
    StableHlo.unary main_v154 main_v155 (broadcastInDim S557056x128 ![0, 1] bcast_S557056x1_S557056x128_0_1 : (⟨S557056x1, .f32⟩ : BufTy).Contents (Elt F) → (⟨S557056x128, .f32⟩ : BufTy).Contents (Elt F)),
    StableHlo.binary main_v153 main_v155 main_v156 (mulf : (⟨S557056x128, .f32⟩ : BufTy).Contents (Elt F) → (⟨S557056x128, .f32⟩ : BufTy).Contents (Elt F) → (⟨S557056x128, .f32⟩ : BufTy).Contents (Elt F)),
    StableHlo.nullary main_cst_32 (constant S_ .f32 0x00000000#32),
    StableHlo.unary main_cst_32 main_v157 (broadcastInDim S32768x128 ![] bcast_S_S32768x128 : (⟨S_, .f32⟩ : BufTy).Contents (Elt F) → (⟨S32768x128, .f32⟩ : BufTy).Contents (Elt F)),
    StableHlo.unary main_v6 main_v158 (broadcastInDim S557056x1 ![0] bcast_S557056_S557056x1_0 : (⟨S557056, .i32⟩ : BufTy).Contents (Elt F) → (⟨S557056x1, .i32⟩ : BufTy).Contents (Elt F)),
    StableHlo.ternary main_v157 main_v158 main_v156 main_v159 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S32768x128 ![0, 1] bcast_S1x128_S32768x128_0_1 : (⟨S1x128, .f32⟩ : BufTy).Contents (Elt F) → (⟨S32768x128, .f32⟩ : BufTy).Contents (Elt F)),
    StableHlo.binary main_v159 main_v161 main_v162 (addf : (⟨S32768x128, .f32⟩ : BufTy).Contents (Elt F) → (⟨S32768x128, .f32⟩ : BufTy).Contents (Elt F) → (⟨S32768x128, .f32⟩ : BufTy).Contents (Elt F)),
    StableHlo.binary main_v136 main_arg5 main_v163 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_33 (constantI S_ 32 0#32),
    StableHlo.unary main_c_33 main_v164 (broadcastInDim S2176 ![] bcast_S_S2176 : (⟨S_, .i32⟩ : BufTy).Contents (Elt F) → (⟨S2176, .i32⟩ : BufTy).Contents (Elt F)),
    StableHlo.binary main_v33 main_v164 main_v165 (cmpi .slt : (⟨S2176, .i32⟩ : BufTy).Contents (Elt F) → (⟨S2176, .i32⟩ : BufTy).Contents (Elt F) → (⟨S2176, .i1⟩ : BufTy).Contents (Elt F)),
    StableHlo.nullary main_c_34 (constantI S_ 32 128#32),
    StableHlo.unary main_c_34 main_v166 (broadcastInDim S2176 ![] bcast_S_S2176 : (⟨S_, .i32⟩ : BufTy).Contents (Elt F) → (⟨S2176, .i32⟩ : BufTy).Contents (Elt F)),
    StableHlo.binary main_v33 main_v166 main_v167 (addi : (⟨S2176, .i32⟩ : BufTy).Contents (Elt F) → (⟨S2176, .i32⟩ : BufTy).Contents (Elt F) → (⟨S2176, .i32⟩ : BufTy).Contents (Elt F)),
    StableHlo.ternary main_v165 main_v167 main_v33 main_v168 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v168 main_v169 (broadcastInDim S2176x1 ![0] bcast_S2176_S2176x1_0 : (⟨S2176, .i32⟩ : BufTy).Contents (Elt F) → (⟨S2176x1, .i32⟩ : BufTy).Contents (Elt F)),
    StableHlo.binary main_v163 main_v169 main_v170 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v171 (broadcastInDim S2176x1 ![0] bcast_S2176_S2176x1_0 : (⟨S2176, .f32⟩ : BufTy).Contents (Elt F) → (⟨S2176x1, .f32⟩ : BufTy).Contents (Elt F)),
    StableHlo.unary main_v171 main_v172 (broadcastInDim S2176x128 ![0, 1] bcast_S2176x1_S2176x128_0_1 : (⟨S2176x1, .f32⟩ : BufTy).Contents (Elt F) → (⟨S2176x128, .f32⟩ : BufTy).Contents (Elt F)),
    StableHlo.binary main_v170 main_v172 main_v173 (mulf : (⟨S2176x128, .f32⟩ : BufTy).Contents (Elt F) → (⟨S2176x128, .f32⟩ : BufTy).Contents (Elt F) → (⟨S2176x128, .f32⟩ : BufTy).Contents (Elt F)),
    StableHlo.nullary main_cst_35 (constant S_ .f32 0x00000000#32),
    StableHlo.unary main_cst_35 main_v174 (broadcastInDim S128x128 ![] bcast_S_S128x128 : (⟨S_, .f32⟩ : BufTy).Contents (Elt F) → (⟨S128x128, .f32⟩ : BufTy).Contents (Elt F)),
    StableHlo.unary main_v36 main_v175 (broadcastInDim S2176x1 ![0] bcast_S2176_S2176x1_0 : (⟨S2176, .i32⟩ : BufTy).Contents (Elt F) → (⟨S2176x1, .i32⟩ : BufTy).Contents (Elt F)),
    StableHlo.ternary main_v174 main_v175 main_v173 main_v176 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S128x128 ![0, 1] bcast_S1x128_S128x128_0_1 : (⟨S1x128, .f32⟩ : BufTy).Contents (Elt F) → (⟨S128x128, .f32⟩ : BufTy).Contents (Elt F)),
    StableHlo.binary main_v176 main_v178 main_v179 (addf : (⟨S128x128, .f32⟩ : BufTy).Contents (Elt F) → (⟨S128x128, .f32⟩ : BufTy).Contents (Elt F) → (⟨S128x128, .f32⟩ : BufTy).Contents (Elt F)),
    StableHlo.TRef.nullary main_call4.v0 (iotaInDim S128x128 32 0),
    StableHlo.TRef.nullary main_call4.v1 (iotaInDim S128x128 32 1),
    StableHlo.TRef.nullary main_call4.c (constantI S_ 32 0#32),
    StableHlo.TRef.unary main_call4.c main_call4.v2 (broadcastInDim S128x128 ![] bcast_S_S128x128),
    StableHlo.TRef.binary main_call4.v0 main_call4.v2 main_call4.v3 addi,
    StableHlo.TRef.binary main_call4.v3 main_call4.v1 main_call4.v4 (cmpi .eq),
    StableHlo.TRef.nullary main_call4.cst (constant S_ .f32 0x00000000#32),
    StableHlo.TRef.unary main_call4.cst main_call4.v5 (broadcastInDim S128x128 ![] bcast_S_S128x128),
    StableHlo.TRef.ternary main_call4.v4 ((.of main_v179) : StableHlo.TRef sig ⟨S128x128, .f32⟩) main_call4.v5 main_call4.call0.v0 select,
    StableHlo.TRef.nullary main_call4.cst_0 (constant S_ .f32 0x00000000#32),
    StableHlo.TRef.binary main_call4.call0.v0 main_call4.cst_0 main_call4.v7 (fun x v => Host.reduceAdd x v reducesTo_S128x128_S_d0_1 h_S_),
    StableHlo.reshape main_v162 main_v181 rfl shapeCasts_S32768x128_S256x128x128,
    StableHlo.nullary main_v182 (iotaInDim S128x128 32 0),
    StableHlo.nullary main_v183 (iotaInDim S128x128 32 1),
    StableHlo.binary main_v182 main_v183 main_v184 (cmpi .eq : (⟨S128x128, .i32⟩ : BufTy).Contents (Elt F) → (⟨S128x128, .i32⟩ : BufTy).Contents (Elt F) → (⟨S128x128, .i1⟩ : BufTy).Contents (Elt F)),
    StableHlo.unary main_v184 main_v185 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_36 (constant S_ .f32 0x00000000#32),
    StableHlo.unary main_cst_36 main_v186 (broadcastInDim S256x128x128 ![] bcast_S_S256x128x128 : (⟨S_, .f32⟩ : BufTy).Contents (Elt F) → (⟨S256x128x128, .f32⟩ : BufTy).Contents (Elt F)),
    StableHlo.ternary main_v185 main_v181 main_v186 main_v187 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_37 (constant S_ .f32 0x00000000#32),
    StableHlo.binary main_v187 main_cst_37 main_v188 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)),
    StableHlo.binary main_v162 main_arg5 main_v189 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_38 (constantI S_ 32 0#32),
    StableHlo.unary main_c_38 main_v190 (broadcastInDim S557056 ![] bcast_S_S557056 : (⟨S_, .i32⟩ : BufTy).Contents (Elt F) → (⟨S557056, .i32⟩ : BufTy).Contents (Elt F)),
    StableHlo.binary main_v3 main_v190 main_v191 (cmpi .slt : (⟨S557056, .i32⟩ : BufTy).Contents (Elt F) → (⟨S557056, .i32⟩ : BufTy).Contents (Elt F) → (⟨S557056, .i1⟩ : BufTy).Contents (Elt F)),
    StableHlo.nullary main_c_39 (constantI S_ 32 32768#32),
    StableHlo.unary main_c_39 main_v192 (broadcastInDim S557056 ![] bcast_S_S557056 : (⟨S_, .i32⟩ : BufTy).Contents (Elt F) → (⟨S557056, .i32⟩ : BufTy).Contents (Elt F)),
    StableHlo.binary main_v3 main_v192 main_v193 (addi : (⟨S557056, .i32⟩ : BufTy).Contents (Elt F) → (⟨S557056, .i32⟩ : BufTy).Contents (Elt F) → (⟨S557056, .i32⟩ : BufTy).Contents (Elt F)),
    StableHlo.ternary main_v191 main_v193 main_v3 main_v194 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v194 main_v195 (broadcastInDim S557056x1 ![0] bcast_S557056_S557056x1_0 : (⟨S557056, .i32⟩ : BufTy).Contents (Elt F) → (⟨S557056x1, .i32⟩ : BufTy).Contents (Elt F)),
    StableHlo.binary main_v189 main_v195 main_v196 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v197 (broadcastInDim S557056x1 ![0] bcast_S557056_S557056x1_0 : (⟨S557056, .f32⟩ : BufTy).Contents (Elt F) → (⟨S557056x1, .f32⟩ : BufTy).Contents (Elt F)) ]

set_option maxRecDepth 4096 in
/-- The window is that straight line: the functions' definitions unfolded at their calls and the records at
    their fields, both sides are one chain of steps once sequencing is reassociated. -/
theorem main_part3_eq (c : Dev nD) : main_part3 (F := F) c = StableHlo.seq ops3 := by
  simp only [main_part3, fn_trace.body, fn_where_1.body, StableHlo.seq, bind_assoc, pure_bind] <;> rfl

/-- Each touches TensorCore buffers only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., reshape_bufs_sub .., nullary_bufs_sub .., nullary_bufs_sub .., binary_bufs_sub .., unary_bufs_sub ..,
    nullary_bufs_sub .., unary_bufs_sub .., ternary_bufs_sub .., nullary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub ..⟩

/-- Each determines every buffer it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The buffers the window's operations write, in order. -/
abbrev W3 : List (Ref sig .tc) :=
  [ main_v147, main_v148, main_c_31, main_v149, main_v150, main_v151, main_v152, main_v153,
    main_v154, main_v155, main_v156, main_cst_32, main_v157, main_v158, main_v159, main_v160,
    main_v161, main_v162, main_v163, main_c_33, main_v164, main_v165, main_c_34, main_v166,
    main_v167, main_v168, main_v169, main_v170, main_v171, main_v172, main_v173, main_cst_35,
    main_v174, main_v175, main_v176, main_v177, main_v178, main_v179, main_call4.v0.ref, main_call4.v1.ref,
    main_call4.c.ref, main_call4.v2.ref, main_call4.v3.ref, main_call4.v4.ref, main_call4.cst.ref, main_call4.v5.ref, main_call4.call0.v0.ref, main_call4.cst_0.ref,
    main_call4.v7.ref, main_v181, main_v182, main_v183, main_v184, main_v185, main_cst_36, main_v186,
    main_v187, main_cst_37, main_v188, main_v189, main_c_38, main_v190, main_v191, main_c_39,
    main_v192, main_v193, main_v194, main_v195, main_v196, main_v197 ]

/-- Each writes one buffer, of `W3`. -/
theorem ops3_writes : (ops3 : List (HloOp τ sig (Elt F))).Forall fun op =>
    op.writes ⊆ (W3.map (Proc.devRef (τ := τ) .tc)).toFinset :=
  ⟨writes_sub_of_eq (unary_writes ..) (by decide), writes_sub_of_eq (binary_writes ..) (by decide), writes_sub_of_eq (nullary_writes ..) (by decide),
    writes_sub_of_eq (unary_writes ..) (by decide), writes_sub_of_eq (binary_writes ..) (by decide), writes_sub_of_eq (ternary_writes ..) (by decide),
    writes_sub_of_eq (unary_writes ..) (by decide), writes_sub_of_eq (binary_writes ..) (by decide), writes_sub_of_eq (unary_writes ..) (by decide),
    writes_sub_of_eq (unary_writes ..) (by decide), writes_sub_of_eq (binary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (unary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (nullary_writes ..) (by decide),
    writes_sub_of_eq (nullary_writes ..) (by decide), writes_sub_of_eq (nullary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (reshape_writes ..) (by decide), writes_sub_of_eq (nullary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (ternary_writes ..) (by decide),
    writes_sub_of_eq (nullary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide)⟩

/-- A buffer outside `W3` keeps its contents through the window. -/
theorem ops3_keeps (V : Valuation τ sig (Elt F)) {r : Ref sig .tc} (hr : r ∉ W3) :
    after ops3 V (Proc.devRef .tc r) = V (Proc.devRef .tc r) :=
  after_of_writes_sub ops3 V ops3_writes hr

end Cert.ReferenceIdeal.RR

end
-- ==== Proof.RefRunP4.lean ====
/- Window 4 of the reference program's @main (`main_part4`) as a LIST of its 70 host operations, in order, each
   call replaced by the callee's operations over that call's record of buffers; with, per operation, that it
   touches TensorCore buffers only, determines what it writes, and writes one buffer of the list `W4`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 70 operations of window 4, in order. -/
abbrev ops4 : List (HloOp τ sig (Elt F)) :=
  [ StableHlo.unary main_v197 main_v198 (broadcastInDim S557056x128 ![0, 1] bcast_S557056x1_S557056x128_0_1 : (⟨S557056x1, .f32⟩ : BufTy).Contents (Elt F) → (⟨S557056x128, .f32⟩ : BufTy).Contents (Elt F)),
    StableHlo.binary main_v196 main_v198 main_v199 (mulf : (⟨S557056x128, .f32⟩ : BufTy).Contents (Elt F) → (⟨S557056x128, .f32⟩ : BufTy).Contents (Elt F) → (⟨S557056x128, .f32⟩ : BufTy).Contents (Elt F)),
    StableHlo.nullary main_cst_40 (constant S_ .f32 0x00000000#32),
    StableHlo.unary main_cst_40 main_v200 (broadcastInDim S32768x128 ![] bcast_S_S32768x128 : (⟨S_, .f32⟩ : BufTy).Contents (Elt F) → (⟨S32768x128, .f32⟩ : BufTy).Contents (Elt F)),
    StableHlo.unary main_v6 main_v201 (broadcastInDim S557056x1 ![0] bcast_S557056_S557056x1_0 : (⟨S557056, .i32⟩ : BufTy).Contents (Elt F) → (⟨S557056x1, .i32⟩ : BufTy).Contents (Elt F)),
    StableHlo.ternary main_v200 main_v201 main_v199 main_v202 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S32768x128 ![0, 1] bcast_S1x128_S32768x128_0_1 : (⟨S1x128, .f32⟩ : BufTy).Contents (Elt F) → (⟨S32768x128, .f32⟩ : BufTy).Contents (Elt F)),
    StableHlo.binary main_v202 main_v204 main_v205 (addf : (⟨S32768x128, .f32⟩ : BufTy).Contents (Elt F) → (⟨S32768x128, .f32⟩ : BufTy).Contents (Elt F) → (⟨S32768x128, .f32⟩ : BufTy).Contents (Elt F)),
    StableHlo.binary main_v179 main_arg5 main_v206 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_41 (constantI S_ 32 0#32),
    StableHlo.unary main_c_41 main_v207 (broadcastInDim S2176 ![] bcast_S_S2176 : (⟨S_, .i32⟩ : BufTy).Contents (Elt F) → (⟨S2176, .i32⟩ : BufTy).Contents (Elt F)),
    StableHlo.binary main_v33 main_v207 main_v208 (cmpi .slt : (⟨S2176, .i32⟩ : BufTy).Contents (Elt F) → (⟨S2176, .i32⟩ : BufTy).Contents (Elt F) → (⟨S2176, .i1⟩ : BufTy).Contents (Elt F)),
    StableHlo.nullary main_c_42 (constantI S_ 32 128#32),
    StableHlo.unary main_c_42 main_v209 (broadcastInDim S2176 ![] bcast_S_S2176 : (⟨S_, .i32⟩ : BufTy).Contents (Elt F) → (⟨S2176, .i32⟩ : BufTy).Contents (Elt F)),
    StableHlo.binary main_v33 main_v209 main_v210 (addi : (⟨S2176, .i32⟩ : BufTy).Contents (Elt F) → (⟨S2176, .i32⟩ : BufTy).Contents (Elt F) → (⟨S2176, .i32⟩ : BufTy).Contents (Elt F)),
    StableHlo.ternary main_v208 main_v210 main_v33 main_v211 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v211 main_v212 (broadcastInDim S2176x1 ![0] bcast_S2176_S2176x1_0 : (⟨S2176, .i32⟩ : BufTy).Contents (Elt F) → (⟨S2176x1, .i32⟩ : BufTy).Contents (Elt F)),
    StableHlo.binary main_v206 main_v212 main_v213 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v214 (broadcastInDim S2176x1 ![0] bcast_S2176_S2176x1_0 : (⟨S2176, .f32⟩ : BufTy).Contents (Elt F) → (⟨S2176x1, .f32⟩ : BufTy).Contents (Elt F)),
    StableHlo.unary main_v214 main_v215 (broadcastInDim S2176x128 ![0, 1] bcast_S2176x1_S2176x128_0_1 : (⟨S2176x1, .f32⟩ : BufTy).Contents (Elt F) → (⟨S2176x128, .f32⟩ : BufTy).Contents (Elt F)),
    StableHlo.binary main_v213 main_v215 main_v216 (mulf : (⟨S2176x128, .f32⟩ : BufTy).Contents (Elt F) → (⟨S2176x128, .f32⟩ : BufTy).Contents (Elt F) → (⟨S2176x128, .f32⟩ : BufTy).Contents (Elt F)),
    StableHlo.nullary main_cst_43 (constant S_ .f32 0x00000000#32),
    StableHlo.unary main_cst_43 main_v217 (broadcastInDim S128x128 ![] bcast_S_S128x128 : (⟨S_, .f32⟩ : BufTy).Contents (Elt F) → (⟨S128x128, .f32⟩ : BufTy).Contents (Elt F)),
    StableHlo.unary main_v36 main_v218 (broadcastInDim S2176x1 ![0] bcast_S2176_S2176x1_0 : (⟨S2176, .i32⟩ : BufTy).Contents (Elt F) → (⟨S2176x1, .i32⟩ : BufTy).Contents (Elt F)),
    StableHlo.ternary main_v217 main_v218 main_v216 main_v219 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S128x128 ![0, 1] bcast_S1x128_S128x128_0_1 : (⟨S1x128, .f32⟩ : BufTy).Contents (Elt F) → (⟨S128x128, .f32⟩ : BufTy).Contents (Elt F)),
    StableHlo.binary main_v219 main_v221 main_v222 (addf : (⟨S128x128, .f32⟩ : BufTy).Contents (Elt F) → (⟨S128x128, .f32⟩ : BufTy).Contents (Elt F) → (⟨S128x128, .f32⟩ : BufTy).Contents (Elt F)),
    StableHlo.TRef.nullary main_call5.v0 (iotaInDim S128x128 32 0),
    StableHlo.TRef.nullary main_call5.v1 (iotaInDim S128x128 32 1),
    StableHlo.TRef.nullary main_call5.c (constantI S_ 32 0#32),
    StableHlo.TRef.unary main_call5.c main_call5.v2 (broadcastInDim S128x128 ![] bcast_S_S128x128),
    StableHlo.TRef.binary main_call5.v0 main_call5.v2 main_call5.v3 addi,
    StableHlo.TRef.binary main_call5.v3 main_call5.v1 main_call5.v4 (cmpi .eq),
    StableHlo.TRef.nullary main_call5.cst (constant S_ .f32 0x00000000#32),
    StableHlo.TRef.unary main_call5.cst main_call5.v5 (broadcastInDim S128x128 ![] bcast_S_S128x128),
    StableHlo.TRef.ternary main_call5.v4 ((.of main_v222) : StableHlo.TRef sig ⟨S128x128, .f32⟩) main_call5.v5 main_call5.call0.v0 select,
    StableHlo.TRef.nullary main_call5.cst_0 (constant S_ .f32 0x00000000#32),
    StableHlo.TRef.binary main_call5.call0.v0 main_call5.cst_0 main_call5.v7 (fun x v => Host.reduceAdd x v reducesTo_S128x128_S_d0_1 h_S_),
    StableHlo.reshape main_v205 main_v224 rfl shapeCasts_S32768x128_S256x128x128,
    StableHlo.nullary main_v225 (iotaInDim S128x128 32 0),
    StableHlo.nullary main_v226 (iotaInDim S128x128 32 1),
    StableHlo.binary main_v225 main_v226 main_v227 (cmpi .eq : (⟨S128x128, .i32⟩ : BufTy).Contents (Elt F) → (⟨S128x128, .i32⟩ : BufTy).Contents (Elt F) → (⟨S128x128, .i1⟩ : BufTy).Contents (Elt F)),
    StableHlo.unary main_v227 main_v228 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_44 (constant S_ .f32 0x00000000#32),
    StableHlo.unary main_cst_44 main_v229 (broadcastInDim S256x128x128 ![] bcast_S_S256x128x128 : (⟨S_, .f32⟩ : BufTy).Contents (Elt F) → (⟨S256x128x128, .f32⟩ : BufTy).Contents (Elt F)),
    StableHlo.ternary main_v228 main_v224 main_v229 main_v230 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_45 (constant S_ .f32 0x00000000#32),
    StableHlo.binary main_v230 main_cst_45 main_v231 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)),
    StableHlo.binary main_v205 main_arg5 main_v232 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_46 (constantI S_ 32 0#32),
    StableHlo.unary main_c_46 main_v233 (broadcastInDim S557056 ![] bcast_S_S557056 : (⟨S_, .i32⟩ : BufTy).Contents (Elt F) → (⟨S557056, .i32⟩ : BufTy).Contents (Elt F)),
    StableHlo.binary main_v3 main_v233 main_v234 (cmpi .slt : (⟨S557056, .i32⟩ : BufTy).Contents (Elt F) → (⟨S557056, .i32⟩ : BufTy).Contents (Elt F) → (⟨S557056, .i1⟩ : BufTy).Contents (Elt F)),
    StableHlo.nullary main_c_47 (constantI S_ 32 32768#32),
    StableHlo.unary main_c_47 main_v235 (broadcastInDim S557056 ![] bcast_S_S557056 : (⟨S_, .i32⟩ : BufTy).Contents (Elt F) → (⟨S557056, .i32⟩ : BufTy).Contents (Elt F)),
    StableHlo.binary main_v3 main_v235 main_v236 (addi : (⟨S557056, .i32⟩ : BufTy).Contents (Elt F) → (⟨S557056, .i32⟩ : BufTy).Contents (Elt F) → (⟨S557056, .i32⟩ : BufTy).Contents (Elt F)),
    StableHlo.ternary main_v234 main_v236 main_v3 main_v237 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v237 main_v238 (broadcastInDim S557056x1 ![0] bcast_S557056_S557056x1_0 : (⟨S557056, .i32⟩ : BufTy).Contents (Elt F) → (⟨S557056x1, .i32⟩ : BufTy).Contents (Elt F)),
    StableHlo.binary main_v232 main_v238 main_v239 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v240 (broadcastInDim S557056x1 ![0] bcast_S557056_S557056x1_0 : (⟨S557056, .f32⟩ : BufTy).Contents (Elt F) → (⟨S557056x1, .f32⟩ : BufTy).Contents (Elt F)),
    StableHlo.unary main_v240 main_v241 (broadcastInDim S557056x128 ![0, 1] bcast_S557056x1_S557056x128_0_1 : (⟨S557056x1, .f32⟩ : BufTy).Contents (Elt F) → (⟨S557056x128, .f32⟩ : BufTy).Contents (Elt F)),
    StableHlo.binary main_v239 main_v241 main_v242 (mulf : (⟨S557056x128, .f32⟩ : BufTy).Contents (Elt F) → (⟨S557056x128, .f32⟩ : BufTy).Contents (Elt F) → (⟨S557056x128, .f32⟩ : BufTy).Contents (Elt F)),
    StableHlo.nullary main_cst_48 (constant S_ .f32 0x00000000#32),
    StableHlo.unary main_cst_48 main_v243 (broadcastInDim S32768x128 ![] bcast_S_S32768x128 : (⟨S_, .f32⟩ : BufTy).Contents (Elt F) → (⟨S32768x128, .f32⟩ : BufTy).Contents (Elt F)),
    StableHlo.unary main_v6 main_v244 (broadcastInDim S557056x1 ![0] bcast_S557056_S557056x1_0 : (⟨S557056, .i32⟩ : BufTy).Contents (Elt F) → (⟨S557056x1, .i32⟩ : BufTy).Contents (Elt F)),
    StableHlo.ternary main_v243 main_v244 main_v242 main_v245 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S32768x128 ![0, 1] bcast_S1x128_S32768x128_0_1 : (⟨S1x128, .f32⟩ : BufTy).Contents (Elt F) → (⟨S32768x128, .f32⟩ : BufTy).Contents (Elt F)),
    StableHlo.binary main_v245 main_v247 main_v248 (addf : (⟨S32768x128, .f32⟩ : BufTy).Contents (Elt F) → (⟨S32768x128, .f32⟩ : BufTy).Contents (Elt F) → (⟨S32768x128, .f32⟩ : BufTy).Contents (Elt F)) ]

set_option maxRecDepth 4096 in
/-- The window is that straight line: the functions' definitions unfolded at their calls and the records at
    their fields, both sides are one chain of steps once sequencing is reassociated. -/
theorem main_part4_eq (c : Dev nD) : main_part4 (F := F) c = StableHlo.seq ops4 := by
  simp only [main_part4, fn_trace.body, fn_where_1.body, StableHlo.seq, bind_assoc, pure_bind] <;> rfl

/-- Each touches TensorCore buffers only. -/
theorem ops4_sub : (ops4 : List (HloOp τ sig (Elt F))).Forall fun op => op.bufs ⊆ tcRefs τ sig :=
  ⟨unary_bufs_sub .., binary_bufs_sub .., nullary_bufs_sub .., unary_bufs_sub .., unary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., reshape_bufs_sub .., nullary_bufs_sub ..,
    nullary_bufs_sub .., binary_bufs_sub .., unary_bufs_sub .., nullary_bufs_sub .., unary_bufs_sub .., ternary_bufs_sub ..,
    nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub ..⟩

/-- Each determines every buffer it writes. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The buffers the window's operations write, in order. -/
abbrev W4 : List (Ref sig .tc) :=
  [ main_v198, main_v199, main_cst_40, main_v200, main_v201, main_v202, main_v203, main_v204,
    main_v205, main_v206, main_c_41, main_v207, main_v208, main_c_42, main_v209, main_v210,
    main_v211, main_v212, main_v213, main_v214, main_v215, main_v216, main_cst_43, main_v217,
    main_v218, main_v219, main_v220, main_v221, main_v222, main_call5.v0.ref, main_call5.v1.ref, main_call5.c.ref,
    main_call5.v2.ref, main_call5.v3.ref, main_call5.v4.ref, main_call5.cst.ref, main_call5.v5.ref, main_call5.call0.v0.ref, main_call5.cst_0.ref, main_call5.v7.ref,
    main_v224, main_v225, main_v226, main_v227, main_v228, main_cst_44, main_v229, main_v230,
    main_cst_45, main_v231, main_v232, main_c_46, main_v233, main_v234, main_c_47, main_v235,
    main_v236, main_v237, main_v238, main_v239, main_v240, main_v241, main_v242, main_cst_48,
    main_v243, main_v244, main_v245, main_v246, main_v247, main_v248 ]

/-- Each writes one buffer, of `W4`. -/
theorem ops4_writes : (ops4 : List (HloOp τ sig (Elt F))).Forall fun op =>
    op.writes ⊆ (W4.map (Proc.devRef (τ := τ) .tc)).toFinset :=
  ⟨writes_sub_of_eq (unary_writes ..) (by decide), writes_sub_of_eq (binary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (unary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (nullary_writes ..) (by decide),
    writes_sub_of_eq (nullary_writes ..) (by decide), writes_sub_of_eq (nullary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (reshape_writes ..) (by decide), writes_sub_of_eq (nullary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (ternary_writes ..) (by decide),
    writes_sub_of_eq (nullary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide)⟩

/-- A buffer outside `W4` keeps its contents through the window. -/
theorem ops4_keeps (V : Valuation τ sig (Elt F)) {r : Ref sig .tc} (hr : r ∉ W4) :
    after ops4 V (Proc.devRef .tc r) = V (Proc.devRef .tc r) :=
  after_of_writes_sub ops4 V ops4_writes hr

end Cert.ReferenceIdeal.RR

end
-- ==== Proof.RefRunP5.lean ====
/- Window 5 of the reference program's @main (`main_part5`) as a LIST of its 70 host operations, in order, each
   call replaced by the callee's operations over that call's record of buffers; with, per operation, that it
   touches TensorCore buffers only, determines what it writes, and writes one buffer of the list `W5`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 70 operations of window 5, in order. -/
abbrev ops5 : List (HloOp τ sig (Elt F)) :=
  [ StableHlo.binary main_v222 main_arg5 main_v249 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_49 (constantI S_ 32 0#32),
    StableHlo.unary main_c_49 main_v250 (broadcastInDim S2176 ![] bcast_S_S2176 : (⟨S_, .i32⟩ : BufTy).Contents (Elt F) → (⟨S2176, .i32⟩ : BufTy).Contents (Elt F)),
    StableHlo.binary main_v33 main_v250 main_v251 (cmpi .slt : (⟨S2176, .i32⟩ : BufTy).Contents (Elt F) → (⟨S2176, .i32⟩ : BufTy).Contents (Elt F) → (⟨S2176, .i1⟩ : BufTy).Contents (Elt F)),
    StableHlo.nullary main_c_50 (constantI S_ 32 128#32),
    StableHlo.unary main_c_50 main_v252 (broadcastInDim S2176 ![] bcast_S_S2176 : (⟨S_, .i32⟩ : BufTy).Contents (Elt F) → (⟨S2176, .i32⟩ : BufTy).Contents (Elt F)),
    StableHlo.binary main_v33 main_v252 main_v253 (addi : (⟨S2176, .i32⟩ : BufTy).Contents (Elt F) → (⟨S2176, .i32⟩ : BufTy).Contents (Elt F) → (⟨S2176, .i32⟩ : BufTy).Contents (Elt F)),
    StableHlo.ternary main_v251 main_v253 main_v33 main_v254 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v254 main_v255 (broadcastInDim S2176x1 ![0] bcast_S2176_S2176x1_0 : (⟨S2176, .i32⟩ : BufTy).Contents (Elt F) → (⟨S2176x1, .i32⟩ : BufTy).Contents (Elt F)),
    StableHlo.binary main_v249 main_v255 main_v256 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v257 (broadcastInDim S2176x1 ![0] bcast_S2176_S2176x1_0 : (⟨S2176, .f32⟩ : BufTy).Contents (Elt F) → (⟨S2176x1, .f32⟩ : BufTy).Contents (Elt F)),
    StableHlo.unary main_v257 main_v258 (broadcastInDim S2176x128 ![0, 1] bcast_S2176x1_S2176x128_0_1 : (⟨S2176x1, .f32⟩ : BufTy).Contents (Elt F) → (⟨S2176x128, .f32⟩ : BufTy).Contents (Elt F)),
    StableHlo.binary main_v256 main_v258 main_v259 (mulf : (⟨S2176x128, .f32⟩ : BufTy).Contents (Elt F) → (⟨S2176x128, .f32⟩ : BufTy).Contents (Elt F) → (⟨S2176x128, .f32⟩ : BufTy).Contents (Elt F)),
    StableHlo.nullary main_cst_51 (constant S_ .f32 0x00000000#32),
    StableHlo.unary main_cst_51 main_v260 (broadcastInDim S128x128 ![] bcast_S_S128x128 : (⟨S_, .f32⟩ : BufTy).Contents (Elt F) → (⟨S128x128, .f32⟩ : BufTy).Contents (Elt F)),
    StableHlo.unary main_v36 main_v261 (broadcastInDim S2176x1 ![0] bcast_S2176_S2176x1_0 : (⟨S2176, .i32⟩ : BufTy).Contents (Elt F) → (⟨S2176x1, .i32⟩ : BufTy).Contents (Elt F)),
    StableHlo.ternary main_v260 main_v261 main_v259 main_v262 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S128x128 ![0, 1] bcast_S1x128_S128x128_0_1 : (⟨S1x128, .f32⟩ : BufTy).Contents (Elt F) → (⟨S128x128, .f32⟩ : BufTy).Contents (Elt F)),
    StableHlo.binary main_v262 main_v264 main_v265 (addf : (⟨S128x128, .f32⟩ : BufTy).Contents (Elt F) → (⟨S128x128, .f32⟩ : BufTy).Contents (Elt F) → (⟨S128x128, .f32⟩ : BufTy).Contents (Elt F)),
    StableHlo.TRef.nullary main_call6.v0 (iotaInDim S128x128 32 0),
    StableHlo.TRef.nullary main_call6.v1 (iotaInDim S128x128 32 1),
    StableHlo.TRef.nullary main_call6.c (constantI S_ 32 0#32),
    StableHlo.TRef.unary main_call6.c main_call6.v2 (broadcastInDim S128x128 ![] bcast_S_S128x128),
    StableHlo.TRef.binary main_call6.v0 main_call6.v2 main_call6.v3 addi,
    StableHlo.TRef.binary main_call6.v3 main_call6.v1 main_call6.v4 (cmpi .eq),
    StableHlo.TRef.nullary main_call6.cst (constant S_ .f32 0x00000000#32),
    StableHlo.TRef.unary main_call6.cst main_call6.v5 (broadcastInDim S128x128 ![] bcast_S_S128x128),
    StableHlo.TRef.ternary main_call6.v4 ((.of main_v265) : StableHlo.TRef sig ⟨S128x128, .f32⟩) main_call6.v5 main_call6.call0.v0 select,
    StableHlo.TRef.nullary main_call6.cst_0 (constant S_ .f32 0x00000000#32),
    StableHlo.TRef.binary main_call6.call0.v0 main_call6.cst_0 main_call6.v7 (fun x v => Host.reduceAdd x v reducesTo_S128x128_S_d0_1 h_S_),
    StableHlo.reshape main_v248 main_v267 rfl shapeCasts_S32768x128_S256x128x128,
    StableHlo.nullary main_v268 (iotaInDim S128x128 32 0),
    StableHlo.nullary main_v269 (iotaInDim S128x128 32 1),
    StableHlo.binary main_v268 main_v269 main_v270 (cmpi .eq : (⟨S128x128, .i32⟩ : BufTy).Contents (Elt F) → (⟨S128x128, .i32⟩ : BufTy).Contents (Elt F) → (⟨S128x128, .i1⟩ : BufTy).Contents (Elt F)),
    StableHlo.unary main_v270 main_v271 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_52 (constant S_ .f32 0x00000000#32),
    StableHlo.unary main_cst_52 main_v272 (broadcastInDim S256x128x128 ![] bcast_S_S256x128x128 : (⟨S_, .f32⟩ : BufTy).Contents (Elt F) → (⟨S256x128x128, .f32⟩ : BufTy).Contents (Elt F)),
    StableHlo.ternary main_v271 main_v267 main_v272 main_v273 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_53 (constant S_ .f32 0x00000000#32),
    StableHlo.binary main_v273 main_cst_53 main_v274 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)),
    StableHlo.binary main_v248 main_arg5 main_v275 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_54 (constantI S_ 32 0#32),
    StableHlo.unary main_c_54 main_v276 (broadcastInDim S557056 ![] bcast_S_S557056 : (⟨S_, .i32⟩ : BufTy).Contents (Elt F) → (⟨S557056, .i32⟩ : BufTy).Contents (Elt F)),
    StableHlo.binary main_v3 main_v276 main_v277 (cmpi .slt : (⟨S557056, .i32⟩ : BufTy).Contents (Elt F) → (⟨S557056, .i32⟩ : BufTy).Contents (Elt F) → (⟨S557056, .i1⟩ : BufTy).Contents (Elt F)),
    StableHlo.nullary main_c_55 (constantI S_ 32 32768#32),
    StableHlo.unary main_c_55 main_v278 (broadcastInDim S557056 ![] bcast_S_S557056 : (⟨S_, .i32⟩ : BufTy).Contents (Elt F) → (⟨S557056, .i32⟩ : BufTy).Contents (Elt F)),
    StableHlo.binary main_v3 main_v278 main_v279 (addi : (⟨S557056, .i32⟩ : BufTy).Contents (Elt F) → (⟨S557056, .i32⟩ : BufTy).Contents (Elt F) → (⟨S557056, .i32⟩ : BufTy).Contents (Elt F)),
    StableHlo.ternary main_v277 main_v279 main_v3 main_v280 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v280 main_v281 (broadcastInDim S557056x1 ![0] bcast_S557056_S557056x1_0 : (⟨S557056, .i32⟩ : BufTy).Contents (Elt F) → (⟨S557056x1, .i32⟩ : BufTy).Contents (Elt F)),
    StableHlo.binary main_v275 main_v281 main_v282 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v283 (broadcastInDim S557056x1 ![0] bcast_S557056_S557056x1_0 : (⟨S557056, .f32⟩ : BufTy).Contents (Elt F) → (⟨S557056x1, .f32⟩ : BufTy).Contents (Elt F)),
    StableHlo.unary main_v283 main_v284 (broadcastInDim S557056x128 ![0, 1] bcast_S557056x1_S557056x128_0_1 : (⟨S557056x1, .f32⟩ : BufTy).Contents (Elt F) → (⟨S557056x128, .f32⟩ : BufTy).Contents (Elt F)),
    StableHlo.binary main_v282 main_v284 main_v285 (mulf : (⟨S557056x128, .f32⟩ : BufTy).Contents (Elt F) → (⟨S557056x128, .f32⟩ : BufTy).Contents (Elt F) → (⟨S557056x128, .f32⟩ : BufTy).Contents (Elt F)),
    StableHlo.nullary main_cst_56 (constant S_ .f32 0x00000000#32),
    StableHlo.unary main_cst_56 main_v286 (broadcastInDim S32768x128 ![] bcast_S_S32768x128 : (⟨S_, .f32⟩ : BufTy).Contents (Elt F) → (⟨S32768x128, .f32⟩ : BufTy).Contents (Elt F)),
    StableHlo.unary main_v6 main_v287 (broadcastInDim S557056x1 ![0] bcast_S557056_S557056x1_0 : (⟨S557056, .i32⟩ : BufTy).Contents (Elt F) → (⟨S557056x1, .i32⟩ : BufTy).Contents (Elt F)),
    StableHlo.ternary main_v286 main_v287 main_v285 main_v288 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v289 (broadcastInDim S1x128 ![1] bcast_S128_S1x128_1 : (⟨S128, .f32⟩ : BufTy).Contents (Elt F) → (⟨S1x128, .f32⟩ : BufTy).Contents (Elt F)),
    StableHlo.unary main_v289 main_v290 (broadcastInDim S32768x128 ![0, 1] bcast_S1x128_S32768x128_0_1 : (⟨S1x128, .f32⟩ : BufTy).Contents (Elt F) → (⟨S32768x128, .f32⟩ : BufTy).Contents (Elt F)),
    StableHlo.binary main_v288 main_v290 main_v291 (addf : (⟨S32768x128, .f32⟩ : BufTy).Contents (Elt F) → (⟨S32768x128, .f32⟩ : BufTy).Contents (Elt F) → (⟨S32768x128, .f32⟩ : BufTy).Contents (Elt F)),
    StableHlo.binary main_v265 main_arg5 main_v292 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_57 (constantI S_ 32 0#32),
    StableHlo.unary main_c_57 main_v293 (broadcastInDim S2176 ![] bcast_S_S2176 : (⟨S_, .i32⟩ : BufTy).Contents (Elt F) → (⟨S2176, .i32⟩ : BufTy).Contents (Elt F)),
    StableHlo.binary main_v33 main_v293 main_v294 (cmpi .slt : (⟨S2176, .i32⟩ : BufTy).Contents (Elt F) → (⟨S2176, .i32⟩ : BufTy).Contents (Elt F) → (⟨S2176, .i1⟩ : BufTy).Contents (Elt F)),
    StableHlo.nullary main_c_58 (constantI S_ 32 128#32),
    StableHlo.unary main_c_58 main_v295 (broadcastInDim S2176 ![] bcast_S_S2176 : (⟨S_, .i32⟩ : BufTy).Contents (Elt F) → (⟨S2176, .i32⟩ : BufTy).Contents (Elt F)),
    StableHlo.binary main_v33 main_v295 main_v296 (addi : (⟨S2176, .i32⟩ : BufTy).Contents (Elt F) → (⟨S2176, .i32⟩ : BufTy).Contents (Elt F) → (⟨S2176, .i32⟩ : BufTy).Contents (Elt F)),
    StableHlo.ternary main_v294 main_v296 main_v33 main_v297 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v297 main_v298 (broadcastInDim S2176x1 ![0] bcast_S2176_S2176x1_0 : (⟨S2176, .i32⟩ : BufTy).Contents (Elt F) → (⟨S2176x1, .i32⟩ : BufTy).Contents (Elt F)) ]

set_option maxRecDepth 4096 in
/-- The window is that straight line: the functions' definitions unfolded at their calls and the records at
    their fields, both sides are one chain of steps once sequencing is reassociated. -/
theorem main_part5_eq (c : Dev nD) : main_part5 (F := F) c = StableHlo.seq ops5 := by
  simp only [main_part5, fn_trace.body, fn_where_1.body, StableHlo.seq, bind_assoc, pure_bind] <;> rfl

/-- Each touches TensorCore buffers only. -/
theorem ops5_sub : (ops5 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., reshape_bufs_sub .., nullary_bufs_sub .., nullary_bufs_sub .., binary_bufs_sub .., unary_bufs_sub ..,
    nullary_bufs_sub .., unary_bufs_sub .., ternary_bufs_sub .., nullary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub ..⟩

/-- Each determines every buffer it writes. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The buffers the window's operations write, in order. -/
abbrev W5 : List (Ref sig .tc) :=
  [ main_v249, main_c_49, main_v250, main_v251, main_c_50, main_v252, main_v253, main_v254,
    main_v255, main_v256, main_v257, main_v258, main_v259, main_cst_51, main_v260, main_v261,
    main_v262, main_v263, main_v264, main_v265, main_call6.v0.ref, main_call6.v1.ref, main_call6.c.ref, main_call6.v2.ref,
    main_call6.v3.ref, main_call6.v4.ref, main_call6.cst.ref, main_call6.v5.ref, main_call6.call0.v0.ref, main_call6.cst_0.ref, main_call6.v7.ref, main_v267,
    main_v268, main_v269, main_v270, main_v271, main_cst_52, main_v272, main_v273, main_cst_53,
    main_v274, main_v275, main_c_54, main_v276, main_v277, main_c_55, main_v278, main_v279,
    main_v280, main_v281, main_v282, main_v283, main_v284, main_v285, main_cst_56, main_v286,
    main_v287, main_v288, main_v289, main_v290, main_v291, main_v292, main_c_57, main_v293,
    main_v294, main_c_58, main_v295, main_v296, main_v297, main_v298 ]

/-- Each writes one buffer, of `W5`. -/
theorem ops5_writes : (ops5 : List (HloOp τ sig (Elt F))).Forall fun op =>
    op.writes ⊆ (W5.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (nullary_writes ..) (by decide),
    writes_sub_of_eq (nullary_writes ..) (by decide), writes_sub_of_eq (nullary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (reshape_writes ..) (by decide), writes_sub_of_eq (nullary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (ternary_writes ..) (by decide),
    writes_sub_of_eq (nullary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (binary_writes ..) (by decide), writes_sub_of_eq (nullary_writes ..) (by decide),
    writes_sub_of_eq (unary_writes ..) (by decide), writes_sub_of_eq (binary_writes ..) (by decide), writes_sub_of_eq (ternary_writes ..) (by decide),
    writes_sub_of_eq (unary_writes ..) (by decide)⟩

/-- A buffer outside `W5` keeps its contents through the window. -/
theorem ops5_keeps (V : Valuation τ sig (Elt F)) {r : Ref sig .tc} (hr : r ∉ W5) :
    after ops5 V (Proc.devRef .tc r) = V (Proc.devRef .tc r) :=
  after_of_writes_sub ops5 V ops5_writes hr

end Cert.ReferenceIdeal.RR

end
-- ==== Proof.RefRunP6.lean ====
/- Window 6 of the reference program's @main (`main_part6`) as a LIST of its 70 host operations, in order, each
   call replaced by the callee's operations over that call's record of buffers; with, per operation, that it
   touches TensorCore buffers only, determines what it writes, and writes one buffer of the list `W6`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 70 operations of window 6, in order. -/
abbrev ops6 : List (HloOp τ sig (Elt F)) :=
  [ StableHlo.binary main_v292 main_v298 main_v299 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v300 (broadcastInDim S2176x1 ![0] bcast_S2176_S2176x1_0 : (⟨S2176, .f32⟩ : BufTy).Contents (Elt F) → (⟨S2176x1, .f32⟩ : BufTy).Contents (Elt F)),
    StableHlo.unary main_v300 main_v301 (broadcastInDim S2176x128 ![0, 1] bcast_S2176x1_S2176x128_0_1 : (⟨S2176x1, .f32⟩ : BufTy).Contents (Elt F) → (⟨S2176x128, .f32⟩ : BufTy).Contents (Elt F)),
    StableHlo.binary main_v299 main_v301 main_v302 (mulf : (⟨S2176x128, .f32⟩ : BufTy).Contents (Elt F) → (⟨S2176x128, .f32⟩ : BufTy).Contents (Elt F) → (⟨S2176x128, .f32⟩ : BufTy).Contents (Elt F)),
    StableHlo.nullary main_cst_59 (constant S_ .f32 0x00000000#32),
    StableHlo.unary main_cst_59 main_v303 (broadcastInDim S128x128 ![] bcast_S_S128x128 : (⟨S_, .f32⟩ : BufTy).Contents (Elt F) → (⟨S128x128, .f32⟩ : BufTy).Contents (Elt F)),
    StableHlo.unary main_v36 main_v304 (broadcastInDim S2176x1 ![0] bcast_S2176_S2176x1_0 : (⟨S2176, .i32⟩ : BufTy).Contents (Elt F) → (⟨S2176x1, .i32⟩ : BufTy).Contents (Elt F)),
    StableHlo.ternary main_v303 main_v304 main_v302 main_v305 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v306 (broadcastInDim S1x128 ![1] bcast_S128_S1x128_1 : (⟨S128, .f32⟩ : BufTy).Contents (Elt F) → (⟨S1x128, .f32⟩ : BufTy).Contents (Elt F)),
    StableHlo.unary main_v306 main_v307 (broadcastInDim S128x128 ![0, 1] bcast_S1x128_S128x128_0_1 : (⟨S1x128, .f32⟩ : BufTy).Contents (Elt F) → (⟨S128x128, .f32⟩ : BufTy).Contents (Elt F)),
    StableHlo.binary main_v305 main_v307 main_v308 (addf : (⟨S128x128, .f32⟩ : BufTy).Contents (Elt F) → (⟨S128x128, .f32⟩ : BufTy).Contents (Elt F) → (⟨S128x128, .f32⟩ : BufTy).Contents (Elt F)),
    StableHlo.TRef.nullary main_call7.v0 (iotaInDim S128x128 32 0),
    StableHlo.TRef.nullary main_call7.v1 (iotaInDim S128x128 32 1),
    StableHlo.TRef.nullary main_call7.c (constantI S_ 32 0#32),
    StableHlo.TRef.unary main_call7.c main_call7.v2 (broadcastInDim S128x128 ![] bcast_S_S128x128),
    StableHlo.TRef.binary main_call7.v0 main_call7.v2 main_call7.v3 addi,
    StableHlo.TRef.binary main_call7.v3 main_call7.v1 main_call7.v4 (cmpi .eq),
    StableHlo.TRef.nullary main_call7.cst (constant S_ .f32 0x00000000#32),
    StableHlo.TRef.unary main_call7.cst main_call7.v5 (broadcastInDim S128x128 ![] bcast_S_S128x128),
    StableHlo.TRef.ternary main_call7.v4 ((.of main_v308) : StableHlo.TRef sig ⟨S128x128, .f32⟩) main_call7.v5 main_call7.call0.v0 select,
    StableHlo.TRef.nullary main_call7.cst_0 (constant S_ .f32 0x00000000#32),
    StableHlo.TRef.binary main_call7.call0.v0 main_call7.cst_0 main_call7.v7 (fun x v => Host.reduceAdd x v reducesTo_S128x128_S_d0_1 h_S_),
    StableHlo.reshape main_v291 main_v310 rfl shapeCasts_S32768x128_S256x128x128,
    StableHlo.nullary main_v311 (iotaInDim S128x128 32 0),
    StableHlo.nullary main_v312 (iotaInDim S128x128 32 1),
    StableHlo.binary main_v311 main_v312 main_v313 (cmpi .eq : (⟨S128x128, .i32⟩ : BufTy).Contents (Elt F) → (⟨S128x128, .i32⟩ : BufTy).Contents (Elt F) → (⟨S128x128, .i1⟩ : BufTy).Contents (Elt F)),
    StableHlo.unary main_v313 main_v314 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_60 (constant S_ .f32 0x00000000#32),
    StableHlo.unary main_cst_60 main_v315 (broadcastInDim S256x128x128 ![] bcast_S_S256x128x128 : (⟨S_, .f32⟩ : BufTy).Contents (Elt F) → (⟨S256x128x128, .f32⟩ : BufTy).Contents (Elt F)),
    StableHlo.ternary main_v314 main_v310 main_v315 main_v316 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_61 (constant S_ .f32 0x00000000#32),
    StableHlo.binary main_v316 main_cst_61 main_v317 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)),
    StableHlo.binary main_v291 main_arg5 main_v318 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_62 (constantI S_ 32 0#32),
    StableHlo.unary main_c_62 main_v319 (broadcastInDim S557056 ![] bcast_S_S557056 : (⟨S_, .i32⟩ : BufTy).Contents (Elt F) → (⟨S557056, .i32⟩ : BufTy).Contents (Elt F)),
    StableHlo.binary main_v3 main_v319 main_v320 (cmpi .slt : (⟨S557056, .i32⟩ : BufTy).Contents (Elt F) → (⟨S557056, .i32⟩ : BufTy).Contents (Elt F) → (⟨S557056, .i1⟩ : BufTy).Contents (Elt F)),
    StableHlo.nullary main_c_63 (constantI S_ 32 32768#32),
    StableHlo.unary main_c_63 main_v321 (broadcastInDim S557056 ![] bcast_S_S557056 : (⟨S_, .i32⟩ : BufTy).Contents (Elt F) → (⟨S557056, .i32⟩ : BufTy).Contents (Elt F)),
    StableHlo.binary main_v3 main_v321 main_v322 (addi : (⟨S557056, .i32⟩ : BufTy).Contents (Elt F) → (⟨S557056, .i32⟩ : BufTy).Contents (Elt F) → (⟨S557056, .i32⟩ : BufTy).Contents (Elt F)),
    StableHlo.ternary main_v320 main_v322 main_v3 main_v323 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v323 main_v324 (broadcastInDim S557056x1 ![0] bcast_S557056_S557056x1_0 : (⟨S557056, .i32⟩ : BufTy).Contents (Elt F) → (⟨S557056x1, .i32⟩ : BufTy).Contents (Elt F)),
    StableHlo.binary main_v318 main_v324 main_v325 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v326 (broadcastInDim S557056x1 ![0] bcast_S557056_S557056x1_0 : (⟨S557056, .f32⟩ : BufTy).Contents (Elt F) → (⟨S557056x1, .f32⟩ : BufTy).Contents (Elt F)),
    StableHlo.unary main_v326 main_v327 (broadcastInDim S557056x128 ![0, 1] bcast_S557056x1_S557056x128_0_1 : (⟨S557056x1, .f32⟩ : BufTy).Contents (Elt F) → (⟨S557056x128, .f32⟩ : BufTy).Contents (Elt F)),
    StableHlo.binary main_v325 main_v327 main_v328 (mulf : (⟨S557056x128, .f32⟩ : BufTy).Contents (Elt F) → (⟨S557056x128, .f32⟩ : BufTy).Contents (Elt F) → (⟨S557056x128, .f32⟩ : BufTy).Contents (Elt F)),
    StableHlo.nullary main_cst_64 (constant S_ .f32 0x00000000#32),
    StableHlo.unary main_cst_64 main_v329 (broadcastInDim S32768x128 ![] bcast_S_S32768x128 : (⟨S_, .f32⟩ : BufTy).Contents (Elt F) → (⟨S32768x128, .f32⟩ : BufTy).Contents (Elt F)),
    StableHlo.unary main_v6 main_v330 (broadcastInDim S557056x1 ![0] bcast_S557056_S557056x1_0 : (⟨S557056, .i32⟩ : BufTy).Contents (Elt F) → (⟨S557056x1, .i32⟩ : BufTy).Contents (Elt F)),
    StableHlo.ternary main_v329 main_v330 main_v328 main_v331 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v332 (broadcastInDim S1x128 ![1] bcast_S128_S1x128_1 : (⟨S128, .f32⟩ : BufTy).Contents (Elt F) → (⟨S1x128, .f32⟩ : BufTy).Contents (Elt F)),
    StableHlo.unary main_v332 main_v333 (broadcastInDim S32768x128 ![0, 1] bcast_S1x128_S32768x128_0_1 : (⟨S1x128, .f32⟩ : BufTy).Contents (Elt F) → (⟨S32768x128, .f32⟩ : BufTy).Contents (Elt F)),
    StableHlo.binary main_v331 main_v333 main_v334 (addf : (⟨S32768x128, .f32⟩ : BufTy).Contents (Elt F) → (⟨S32768x128, .f32⟩ : BufTy).Contents (Elt F) → (⟨S32768x128, .f32⟩ : BufTy).Contents (Elt F)),
    StableHlo.binary main_v308 main_arg5 main_v335 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_65 (constantI S_ 32 0#32),
    StableHlo.unary main_c_65 main_v336 (broadcastInDim S2176 ![] bcast_S_S2176 : (⟨S_, .i32⟩ : BufTy).Contents (Elt F) → (⟨S2176, .i32⟩ : BufTy).Contents (Elt F)),
    StableHlo.binary main_v33 main_v336 main_v337 (cmpi .slt : (⟨S2176, .i32⟩ : BufTy).Contents (Elt F) → (⟨S2176, .i32⟩ : BufTy).Contents (Elt F) → (⟨S2176, .i1⟩ : BufTy).Contents (Elt F)),
    StableHlo.nullary main_c_66 (constantI S_ 32 128#32),
    StableHlo.unary main_c_66 main_v338 (broadcastInDim S2176 ![] bcast_S_S2176 : (⟨S_, .i32⟩ : BufTy).Contents (Elt F) → (⟨S2176, .i32⟩ : BufTy).Contents (Elt F)),
    StableHlo.binary main_v33 main_v338 main_v339 (addi : (⟨S2176, .i32⟩ : BufTy).Contents (Elt F) → (⟨S2176, .i32⟩ : BufTy).Contents (Elt F) → (⟨S2176, .i32⟩ : BufTy).Contents (Elt F)),
    StableHlo.ternary main_v337 main_v339 main_v33 main_v340 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v340 main_v341 (broadcastInDim S2176x1 ![0] bcast_S2176_S2176x1_0 : (⟨S2176, .i32⟩ : BufTy).Contents (Elt F) → (⟨S2176x1, .i32⟩ : BufTy).Contents (Elt F)),
    StableHlo.binary main_v335 main_v341 main_v342 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v343 (broadcastInDim S2176x1 ![0] bcast_S2176_S2176x1_0 : (⟨S2176, .f32⟩ : BufTy).Contents (Elt F) → (⟨S2176x1, .f32⟩ : BufTy).Contents (Elt F)),
    StableHlo.unary main_v343 main_v344 (broadcastInDim S2176x128 ![0, 1] bcast_S2176x1_S2176x128_0_1 : (⟨S2176x1, .f32⟩ : BufTy).Contents (Elt F) → (⟨S2176x128, .f32⟩ : BufTy).Contents (Elt F)),
    StableHlo.binary main_v342 main_v344 main_v345 (mulf : (⟨S2176x128, .f32⟩ : BufTy).Contents (Elt F) → (⟨S2176x128, .f32⟩ : BufTy).Contents (Elt F) → (⟨S2176x128, .f32⟩ : BufTy).Contents (Elt F)),
    StableHlo.nullary main_cst_67 (constant S_ .f32 0x00000000#32),
    StableHlo.unary main_cst_67 main_v346 (broadcastInDim S128x128 ![] bcast_S_S128x128 : (⟨S_, .f32⟩ : BufTy).Contents (Elt F) → (⟨S128x128, .f32⟩ : BufTy).Contents (Elt F)),
    StableHlo.unary main_v36 main_v347 (broadcastInDim S2176x1 ![0] bcast_S2176_S2176x1_0 : (⟨S2176, .i32⟩ : BufTy).Contents (Elt F) → (⟨S2176x1, .i32⟩ : BufTy).Contents (Elt F)),
    StableHlo.ternary main_v346 main_v347 main_v345 main_v348 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v349 (broadcastInDim S1x128 ![1] bcast_S128_S1x128_1 : (⟨S128, .f32⟩ : BufTy).Contents (Elt F) → (⟨S1x128, .f32⟩ : BufTy).Contents (Elt F)) ]

set_option maxRecDepth 4096 in
/-- The window is that straight line: the functions' definitions unfolded at their calls and the records at
    their fields, both sides are one chain of steps once sequencing is reassociated. -/
theorem main_part6_eq (c : Dev nD) : main_part6 (F := F) c = StableHlo.seq ops6 := by
  simp only [main_part6, fn_trace.body, fn_where_1.body, StableHlo.seq, bind_assoc, pure_bind] <;> rfl

/-- Each touches TensorCore buffers only. -/
theorem ops6_sub : (ops6 : List (HloOp τ sig (Elt F))).Forall fun op => op.bufs ⊆ tcRefs τ sig :=
  ⟨binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., nullary_bufs_sub .., unary_bufs_sub .., binary_bufs_sub .., binary_bufs_sub .., nullary_bufs_sub ..,
    unary_bufs_sub .., ternary_bufs_sub .., nullary_bufs_sub .., binary_bufs_sub .., reshape_bufs_sub .., nullary_bufs_sub ..,
    nullary_bufs_sub .., binary_bufs_sub .., unary_bufs_sub .., nullary_bufs_sub .., unary_bufs_sub .., ternary_bufs_sub ..,
    nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub ..⟩

/-- Each determines every buffer it writes. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The buffers the window's operations write, in order. -/
abbrev W6 : List (Ref sig .tc) :=
  [ main_v299, main_v300, main_v301, main_v302, main_cst_59, main_v303, main_v304, main_v305,
    main_v306, main_v307, main_v308, main_call7.v0.ref, main_call7.v1.ref, main_call7.c.ref, main_call7.v2.ref, main_call7.v3.ref,
    main_call7.v4.ref, main_call7.cst.ref, main_call7.v5.ref, main_call7.call0.v0.ref, main_call7.cst_0.ref, main_call7.v7.ref, main_v310, main_v311,
    main_v312, main_v313, main_v314, main_cst_60, main_v315, main_v316, main_cst_61, main_v317,
    main_v318, main_c_62, main_v319, main_v320, main_c_63, main_v321, main_v322, main_v323,
    main_v324, main_v325, main_v326, main_v327, main_v328, main_cst_64, main_v329, main_v330,
    main_v331, main_v332, main_v333, main_v334, main_v335, main_c_65, main_v336, main_v337,
    main_c_66, main_v338, main_v339, main_v340, main_v341, main_v342, main_v343, main_v344,
    main_v345, main_cst_67, main_v346, main_v347, main_v348, main_v349 ]

/-- Each writes one buffer, of `W6`. -/
theorem ops6_writes : (ops6 : List (HloOp τ sig (Elt F))).Forall fun op =>
    op.writes ⊆ (W6.map (Proc.devRef (τ := τ) .tc)).toFinset :=
  ⟨writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (nullary_writes ..) (by decide),
    writes_sub_of_eq (nullary_writes ..) (by decide), writes_sub_of_eq (nullary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (reshape_writes ..) (by decide), writes_sub_of_eq (nullary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (ternary_writes ..) (by decide),
    writes_sub_of_eq (nullary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (binary_writes ..) (by decide), writes_sub_of_eq (nullary_writes ..) (by decide),
    writes_sub_of_eq (unary_writes ..) (by decide), writes_sub_of_eq (binary_writes ..) (by decide), writes_sub_of_eq (ternary_writes ..) (by decide),
    writes_sub_of_eq (unary_writes ..) (by decide), writes_sub_of_eq (binary_writes ..) (by decide), writes_sub_of_eq (unary_writes ..) (by decide),
    writes_sub_of_eq (unary_writes ..) (by decide), writes_sub_of_eq (binary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (unary_writes ..) (by decide)⟩

/-- A buffer outside `W6` keeps its contents through the window. -/
theorem ops6_keeps (V : Valuation τ sig (Elt F)) {r : Ref sig .tc} (hr : r ∉ W6) :
    after ops6 V (Proc.devRef .tc r) = V (Proc.devRef .tc r) :=
  after_of_writes_sub ops6 V ops6_writes hr

end Cert.ReferenceIdeal.RR

end
-- ==== Proof.RefRunP7.lean ====
/- Window 7 of the reference program's @main (`main_part7`) as a LIST of its 95 host operations, in order, each
   call replaced by the callee's operations over that call's record of buffers; with, per operation, that it
   touches TensorCore buffers only, determines what it writes, and writes one buffer of the list `W7`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 95 operations of window 7, in order. -/
abbrev ops7 : List (HloOp τ sig (Elt F)) :=
  [ StableHlo.unary main_v349 main_v350 (broadcastInDim S128x128 ![0, 1] bcast_S1x128_S128x128_0_1 : (⟨S1x128, .f32⟩ : BufTy).Contents (Elt F) → (⟨S128x128, .f32⟩ : BufTy).Contents (Elt F)),
    StableHlo.binary main_v348 main_v350 main_v351 (addf : (⟨S128x128, .f32⟩ : BufTy).Contents (Elt F) → (⟨S128x128, .f32⟩ : BufTy).Contents (Elt F) → (⟨S128x128, .f32⟩ : BufTy).Contents (Elt F)),
    StableHlo.TRef.nullary main_call8.v0 (iotaInDim S128x128 32 0),
    StableHlo.TRef.nullary main_call8.v1 (iotaInDim S128x128 32 1),
    StableHlo.TRef.nullary main_call8.c (constantI S_ 32 0#32),
    StableHlo.TRef.unary main_call8.c main_call8.v2 (broadcastInDim S128x128 ![] bcast_S_S128x128),
    StableHlo.TRef.binary main_call8.v0 main_call8.v2 main_call8.v3 addi,
    StableHlo.TRef.binary main_call8.v3 main_call8.v1 main_call8.v4 (cmpi .eq),
    StableHlo.TRef.nullary main_call8.cst (constant S_ .f32 0x00000000#32),
    StableHlo.TRef.unary main_call8.cst main_call8.v5 (broadcastInDim S128x128 ![] bcast_S_S128x128),
    StableHlo.TRef.ternary main_call8.v4 ((.of main_v351) : StableHlo.TRef sig ⟨S128x128, .f32⟩) main_call8.v5 main_call8.call0.v0 select,
    StableHlo.TRef.nullary main_call8.cst_0 (constant S_ .f32 0x00000000#32),
    StableHlo.TRef.binary main_call8.call0.v0 main_call8.cst_0 main_call8.v7 (fun x v => Host.reduceAdd x v reducesTo_S128x128_S_d0_1 h_S_),
    StableHlo.reshape main_v334 main_v353 rfl shapeCasts_S32768x128_S256x128x128,
    StableHlo.nullary main_v354 (iotaInDim S128x128 32 0),
    StableHlo.nullary main_v355 (iotaInDim S128x128 32 1),
    StableHlo.binary main_v354 main_v355 main_v356 (cmpi .eq : (⟨S128x128, .i32⟩ : BufTy).Contents (Elt F) → (⟨S128x128, .i32⟩ : BufTy).Contents (Elt F) → (⟨S128x128, .i1⟩ : BufTy).Contents (Elt F)),
    StableHlo.unary main_v356 main_v357 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_68 (constant S_ .f32 0x00000000#32),
    StableHlo.unary main_cst_68 main_v358 (broadcastInDim S256x128x128 ![] bcast_S_S256x128x128 : (⟨S_, .f32⟩ : BufTy).Contents (Elt F) → (⟨S256x128x128, .f32⟩ : BufTy).Contents (Elt F)),
    StableHlo.ternary main_v357 main_v353 main_v358 main_v359 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_69 (constant S_ .f32 0x00000000#32),
    StableHlo.binary main_v359 main_cst_69 main_v360 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)),
    StableHlo.unary main_v102 main_v361 (broadcastInDim S256x1 ![0] bcast_S256_S256x1_0 : (⟨S256, .f32⟩ : BufTy).Contents (Elt F) → (⟨S256x1, .f32⟩ : BufTy).Contents (Elt F)),
    StableHlo.unary main_v145 main_v362 (broadcastInDim S256x1 ![0] bcast_S256_S256x1_0 : (⟨S256, .f32⟩ : BufTy).Contents (Elt F) → (⟨S256x1, .f32⟩ : BufTy).Contents (Elt F)),
    StableHlo.unary main_v188 main_v363 (broadcastInDim S256x1 ![0] bcast_S256_S256x1_0 : (⟨S256, .f32⟩ : BufTy).Contents (Elt F) → (⟨S256x1, .f32⟩ : BufTy).Contents (Elt F)),
    StableHlo.unary main_v231 main_v364 (broadcastInDim S256x1 ![0] bcast_S256_S256x1_0 : (⟨S256, .f32⟩ : BufTy).Contents (Elt F) → (⟨S256x1, .f32⟩ : BufTy).Contents (Elt F)),
    StableHlo.unary main_v274 main_v365 (broadcastInDim S256x1 ![0] bcast_S256_S256x1_0 : (⟨S256, .f32⟩ : BufTy).Contents (Elt F) → (⟨S256x1, .f32⟩ : BufTy).Contents (Elt F)),
    StableHlo.unary main_v317 main_v366 (broadcastInDim S256x1 ![0] bcast_S256_S256x1_0 : (⟨S256, .f32⟩ : BufTy).Contents (Elt F) → (⟨S256x1, .f32⟩ : BufTy).Contents (Elt F)),
    StableHlo.unary main_v360 main_v367 (broadcastInDim S256x1 ![0] bcast_S256_S256x1_0 : (⟨S256, .f32⟩ : BufTy).Contents (Elt F) → (⟨S256x1, .f32⟩ : BufTy).Contents (Elt F)),
    StableHlo.nary ![main_v361, main_v362, main_v363, main_v364, main_v365, main_v366, main_v367] main_v368 (fun u => concatenate S256x7 1 [⟨S256x1, u 0⟩, ⟨S256x1, u 1⟩, ⟨S256x1, u 2⟩, ⟨S256x1, u 3⟩, ⟨S256x1, u 4⟩, ⟨S256x1, u 5⟩, ⟨S256x1, u 6⟩] concatenates_S256x1_S256x1_S256x1_S256x1_S256x1_S256x1_S256x1_S256x7_d1),
    StableHlo.unary main_v94 main_v369 (broadcastInDim S1 ![] bcast_S_S1 : (⟨S_, .f32⟩ : BufTy).Contents (Elt F) → (⟨S1, .f32⟩ : BufTy).Contents (Elt F)),
    StableHlo.unary main_v137 main_v370 (broadcastInDim S1 ![] bcast_S_S1 : (⟨S_, .f32⟩ : BufTy).Contents (Elt F) → (⟨S1, .f32⟩ : BufTy).Contents (Elt F)),
    StableHlo.unary main_v180 main_v371 (broadcastInDim S1 ![] bcast_S_S1 : (⟨S_, .f32⟩ : BufTy).Contents (Elt F) → (⟨S1, .f32⟩ : BufTy).Contents (Elt F)),
    StableHlo.unary main_v223 main_v372 (broadcastInDim S1 ![] bcast_S_S1 : (⟨S_, .f32⟩ : BufTy).Contents (Elt F) → (⟨S1, .f32⟩ : BufTy).Contents (Elt F)),
    StableHlo.unary main_v266 main_v373 (broadcastInDim S1 ![] bcast_S_S1 : (⟨S_, .f32⟩ : BufTy).Contents (Elt F) → (⟨S1, .f32⟩ : BufTy).Contents (Elt F)),
    StableHlo.unary main_v309 main_v374 (broadcastInDim S1 ![] bcast_S_S1 : (⟨S_, .f32⟩ : BufTy).Contents (Elt F) → (⟨S1, .f32⟩ : BufTy).Contents (Elt F)),
    StableHlo.unary main_v352 main_v375 (broadcastInDim S1 ![] bcast_S_S1 : (⟨S_, .f32⟩ : BufTy).Contents (Elt F) → (⟨S1, .f32⟩ : BufTy).Contents (Elt F)),
    StableHlo.nary ![main_v369, main_v370, main_v371, main_v372, main_v373, main_v374, main_v375] main_v376 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0),
    StableHlo.unary main_v376 main_v377 (broadcastInDim S1x7 ![1] bcast_S7_S1x7_1 : (⟨S7, .f32⟩ : BufTy).Contents (Elt F) → (⟨S1x7, .f32⟩ : BufTy).Contents (Elt F)),
    StableHlo.unary main_v377 main_v378 (broadcastInDim S256x7 ![0, 1] bcast_S1x7_S256x7_0_1 : (⟨S1x7, .f32⟩ : BufTy).Contents (Elt F) → (⟨S256x7, .f32⟩ : BufTy).Contents (Elt F)),
    StableHlo.binary main_v368 main_v378 main_v379 (subf : (⟨S256x7, .f32⟩ : BufTy).Contents (Elt F) → (⟨S256x7, .f32⟩ : BufTy).Contents (Elt F) → (⟨S256x7, .f32⟩ : BufTy).Contents (Elt F)),
    StableHlo.nullary main_cst_70 (constant S_ .f32 0x3F000000#32),
    StableHlo.unary main_cst_70 main_v380 (broadcastInDim S256x1 ![] bcast_S_S256x1 : (⟨S_, .f32⟩ : BufTy).Contents (Elt F) → (⟨S256x1, .f32⟩ : BufTy).Contents (Elt F)),
    StableHlo.binary main_arg2 main_v380 main_v381 (subf : (⟨S256x1, .f32⟩ : BufTy).Contents (Elt F) → (⟨S256x1, .f32⟩ : BufTy).Contents (Elt F) → (⟨S256x1, .f32⟩ : BufTy).Contents (Elt F)),
    StableHlo.nullary main_cst_71 (constant S_ .f32 0x40000000#32),
    StableHlo.unary main_cst_71 main_v382 (broadcastInDim S256x1 ![] bcast_S_S256x1 : (⟨S_, .f32⟩ : BufTy).Contents (Elt F) → (⟨S256x1, .f32⟩ : BufTy).Contents (Elt F)),
    StableHlo.binary main_v381 main_v382 main_v383 (mulf : (⟨S256x1, .f32⟩ : BufTy).Contents (Elt F) → (⟨S256x1, .f32⟩ : BufTy).Contents (Elt F) → (⟨S256x1, .f32⟩ : BufTy).Contents (Elt F)),
    StableHlo.unary main_v383 main_v384 (broadcastInDim S256x7 ![0, 1] bcast_S256x1_S256x7_0_1 : (⟨S256x1, .f32⟩ : BufTy).Contents (Elt F) → (⟨S256x7, .f32⟩ : BufTy).Contents (Elt F)),
    StableHlo.binary main_v379 main_v384 main_v385 (mulf : (⟨S256x7, .f32⟩ : BufTy).Contents (Elt F) → (⟨S256x7, .f32⟩ : BufTy).Contents (Elt F) → (⟨S256x7, .f32⟩ : BufTy).Contents (Elt F)),
    StableHlo.nullary main_cst_72 (constant S_ .f32 0x00000000#32),
    StableHlo.binary main_v385 main_cst_72 main_v386 ((fun x v => Host.reduceAdd x v reducesTo_S256x7_S7_d0 h_S_) : (⟨S256x7, .f32⟩ : BufTy).Contents (Elt F) → (⟨S_, .f32⟩ : BufTy).Contents (Elt F) → (⟨S7, .f32⟩ : BufTy).Contents (Elt F)),
    StableHlo.unary main_v386 main_v387 (broadcastInDim S1x7 ![1] bcast_S7_S1x7_1 : (⟨S7, .f32⟩ : BufTy).Contents (Elt F) → (⟨S1x7, .f32⟩ : BufTy).Contents (Elt F)),
    StableHlo.nullary main_cst_73 (constant S_ .f32 0x43800000#32),
    StableHlo.unary main_cst_73 main_v388 (broadcastInDim S1x7 ![] bcast_S_S1x7 : (⟨S_, .f32⟩ : BufTy).Contents (Elt F) → (⟨S1x7, .f32⟩ : BufTy).Contents (Elt F)),
    StableHlo.binary main_v387 main_v388 main_v389 (Host.divf : (⟨S1x7, .f32⟩ : BufTy).Contents (Elt F) → (⟨S1x7, .f32⟩ : BufTy).Contents (Elt F) → (⟨S1x7, .f32⟩ : BufTy).Contents (Elt F)),
    StableHlo.nullary main_c_74 (constantI S_ 32 1#32),
    StableHlo.TRef.nullary main_call9.call0.cst (constant S_ .f32 0x00000000#32),
    StableHlo.TRef.binary ((.of main_v385) : StableHlo.TRef sig ⟨S256x7, .f32⟩) main_call9.call0.cst main_call9.call0.v0 (fun x v => Host.reduceAdd x v reducesTo_S256x7_S7_d0 h_S_),
    StableHlo.TRef.unary main_call9.call0.v0 main_call9.call0.v1 (broadcastInDim S1x7 ![1] bcast_S7_S1x7_1),
    StableHlo.TRef.nullary main_call9.call0.cst_0 (constant S_ .f32 0x43800000#32),
    StableHlo.TRef.unary main_call9.call0.cst_0 main_call9.call0.v2 (broadcastInDim S1x7 ![] bcast_S_S1x7),
    StableHlo.TRef.binary main_call9.call0.v1 main_call9.call0.v2 main_call9.call0.v3 Host.divf,
    StableHlo.TRef.unary main_call9.call0.v3 main_call9.call0.v4 (broadcastInDim S256x7 ![0, 1] bcast_S1x7_S256x7_0_1),
    StableHlo.TRef.binary ((.of main_v385) : StableHlo.TRef sig ⟨S256x7, .f32⟩) main_call9.call0.v4 main_call9.call0.v5 subf,
    StableHlo.TRef.binary main_call9.call0.v5 main_call9.call0.v5 main_call9.call0.v6 mulf,
    StableHlo.TRef.unary ((.of main_c_74) : StableHlo.TRef sig ⟨S_, .i32⟩) main_call9.call0.v7 (sitofp .f32),
    StableHlo.TRef.nullary main_call9.call0.cst_1 (constant S_ .f32 0x43800000#32),
    StableHlo.TRef.binary main_call9.call0.cst_1 main_call9.call0.v7 main_call9.call0.v8 subf,
    StableHlo.TRef.nullary main_call9.call0.cst_2 (constant S_ .f32 0x00000000#32),
    StableHlo.TRef.binary main_call9.call0.v6 main_call9.call0.cst_2 main_call9.call0.v9 (fun x v => Host.reduceAdd x v reducesTo_S256x7_S7_d0 h_S_),
    StableHlo.TRef.unary main_call9.call0.v9 main_call9.call0.v10 (broadcastInDim S1x7 ![1] bcast_S7_S1x7_1),
    StableHlo.TRef.unary main_call9.call0.v8 main_call9.call0.v11 (broadcastInDim S1x7 ![] bcast_S_S1x7),
    StableHlo.TRef.binary main_call9.call0.v10 main_call9.call0.v11 main_call9.call0.v12 Host.divf,
    StableHlo.TRef.nullary main_call9.call0.cst_3 (constant S_ .f32 0x00000000#32),
    StableHlo.TRef.binary main_call9.call0.v8 main_call9.call0.cst_3 main_call9.call0.v13 (cmpf .ogt),
    StableHlo.TRef.nullary main_call9.call0.cst_4 (constant S_ .f32 0x7FC00000#32),
    StableHlo.TRef.unary main_call9.call0.cst_4 main_call9.call0.call0.v0 id,
    StableHlo.TRef.unary main_call9.call0.call0.v0 main_call9.call0.call0.v1 (broadcastInDim S1x7 ![] bcast_S_S1x7),
    StableHlo.TRef.ternary main_call9.call0.v13 main_call9.call0.v12 main_call9.call0.call0.v1 main_call9.call0.call0.v2 (fun p a b => select (broadcastInDim S1x7 ![] bcast_S_S1x7 p) a b),
    StableHlo.TRef.unary main_call9.call0.call0.v2 main_call9.v1 Host.sqrt,
    StableHlo.unary main_v389 main_v391 (broadcastInDim S256x7 ![0, 1] bcast_S1x7_S256x7_0_1 : (⟨S1x7, .f32⟩ : BufTy).Contents (Elt F) → (⟨S256x7, .f32⟩ : BufTy).Contents (Elt F)),
    StableHlo.binary main_v385 main_v391 main_v392 (subf : (⟨S256x7, .f32⟩ : BufTy).Contents (Elt F) → (⟨S256x7, .f32⟩ : BufTy).Contents (Elt F) → (⟨S256x7, .f32⟩ : BufTy).Contents (Elt F)),
    StableHlo.unary main_v390 main_v393 (broadcastInDim S256x7 ![0, 1] bcast_S1x7_S256x7_0_1 : (⟨S1x7, .f32⟩ : BufTy).Contents (Elt F) → (⟨S256x7, .f32⟩ : BufTy).Contents (Elt F)),
    StableHlo.binary main_v392 main_v393 main_v394 (Host.divf : (⟨S256x7, .f32⟩ : BufTy).Contents (Elt F) → (⟨S256x7, .f32⟩ : BufTy).Contents (Elt F) → (⟨S256x7, .f32⟩ : BufTy).Contents (Elt F)),
    StableHlo.binary main_v394 main_arg7 main_v395 ((fun l r => Host.dotGeneral dot_S256x7_S7x15_S256x15_1_0_0_1_n_n none l r) : (⟨S256x7, .f32⟩ : BufTy).Contents (Elt F) → (⟨S7x15, .f32⟩ : BufTy).Contents (Elt F) → (⟨S256x15, .f32⟩ : BufTy).Contents (Elt F)),
    StableHlo.unary main_arg8 main_v396 (broadcastInDim S1x15 ![1] bcast_S15_S1x15_1 : (⟨S15, .f32⟩ : BufTy).Contents (Elt F) → (⟨S1x15, .f32⟩ : BufTy).Contents (Elt F)),
    StableHlo.unary main_v396 main_v397 (broadcastInDim S256x15 ![0, 1] bcast_S1x15_S256x15_0_1 : (⟨S1x15, .f32⟩ : BufTy).Contents (Elt F) → (⟨S256x15, .f32⟩ : BufTy).Contents (Elt F)),
    StableHlo.binary main_v395 main_v397 main_v398 (addf : (⟨S256x15, .f32⟩ : BufTy).Contents (Elt F) → (⟨S256x15, .f32⟩ : BufTy).Contents (Elt F) → (⟨S256x15, .f32⟩ : BufTy).Contents (Elt F)),
    StableHlo.TRef.nullary main_call10.cst (constant S_ .f32 0x00000000#32),
    StableHlo.TRef.unary main_call10.cst main_call10.v0 (broadcastInDim S256x15 ![] bcast_S_S256x15),
    StableHlo.TRef.binary ((.of main_v398) : StableHlo.TRef sig ⟨S256x15, .f32⟩) main_call10.v0 main_call10.v1 maximumf,
    StableHlo.binary main_v399 main_arg9 main_v400 ((fun l r => Host.dotGeneral dot_S256x15_S15x1_S256x1_1_0_0_1_n_n none l r) : (⟨S256x15, .f32⟩ : BufTy).Contents (Elt F) → (⟨S15x1, .f32⟩ : BufTy).Contents (Elt F) → (⟨S256x1, .f32⟩ : BufTy).Contents (Elt F)),
    StableHlo.unary main_arg10 main_v401 (broadcastInDim S1x1 ![1] bcast_S1_S1x1_1 : (⟨S1, .f32⟩ : BufTy).Contents (Elt F) → (⟨S1x1, .f32⟩ : BufTy).Contents (Elt F)),
    StableHlo.unary main_v401 main_v402 (broadcastInDim S256x1 ![0, 1] bcast_S1x1_S256x1_0_1 : (⟨S1x1, .f32⟩ : BufTy).Contents (Elt F) → (⟨S256x1, .f32⟩ : BufTy).Contents (Elt F)) ]

set_option maxRecDepth 4096 in
/-- The window is that straight line: the functions' definitions unfolded at their calls and the records at
    their fields, both sides are one chain of steps once sequencing is reassociated. -/
theorem main_part7_eq (c : Dev nD) : main_part7 (F := F) c = StableHlo.seq ops7 := by
  simp only [main_part7, fn_relu.body, fn_std.body, fn_trace.body, fn_var.body, fn_where_1.body, fn_where_2.body, StableHlo.seq, bind_assoc, pure_bind] <;> rfl

/-- Each touches TensorCore buffers only. -/
theorem ops7_sub : (ops7 : List (HloOp τ sig (Elt F))).Forall fun op => op.bufs ⊆ tcRefs τ sig :=
  ⟨unary_bufs_sub .., binary_bufs_sub .., nullary_bufs_sub .., nullary_bufs_sub .., nullary_bufs_sub .., unary_bufs_sub ..,
    binary_bufs_sub .., binary_bufs_sub .., nullary_bufs_sub .., unary_bufs_sub .., ternary_bufs_sub .., nullary_bufs_sub ..,
    binary_bufs_sub .., reshape_bufs_sub .., nullary_bufs_sub .., nullary_bufs_sub .., binary_bufs_sub .., unary_bufs_sub ..,
    nullary_bufs_sub .., unary_bufs_sub .., ternary_bufs_sub .., nullary_bufs_sub .., binary_bufs_sub .., unary_bufs_sub ..,
    unary_bufs_sub .., unary_bufs_sub .., unary_bufs_sub .., unary_bufs_sub .., unary_bufs_sub .., unary_bufs_sub ..,
    nary_bufs_sub .., unary_bufs_sub .., unary_bufs_sub .., unary_bufs_sub .., unary_bufs_sub .., unary_bufs_sub ..,
    unary_bufs_sub .., unary_bufs_sub .., nary_bufs_sub .., unary_bufs_sub .., unary_bufs_sub .., binary_bufs_sub ..,
    nullary_bufs_sub .., unary_bufs_sub .., binary_bufs_sub .., nullary_bufs_sub .., unary_bufs_sub .., binary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub ..⟩

/-- Each determines every buffer it writes. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

/-- The buffers the window's operations write, in order. -/
abbrev W7 : List (Ref sig .tc) :=
  [ main_v350, main_v351, main_call8.v0.ref, main_call8.v1.ref, main_call8.c.ref, main_call8.v2.ref, main_call8.v3.ref, main_call8.v4.ref,
    main_call8.cst.ref, main_call8.v5.ref, main_call8.call0.v0.ref, main_call8.cst_0.ref, main_call8.v7.ref, main_v353, main_v354, main_v355,
    main_v356, main_v357, main_cst_68, main_v358, main_v359, main_cst_69, main_v360, main_v361,
    main_v362, main_v363, main_v364, main_v365, main_v366, main_v367, main_v368, main_v369,
    main_v370, main_v371, main_v372, main_v373, main_v374, main_v375, main_v376, main_v377,
    main_v378, main_v379, main_cst_70, main_v380, main_v381, main_cst_71, main_v382, main_v383,
    main_v384, main_v385, main_cst_72, main_v386, main_v387, main_cst_73, main_v388, main_v389,
    main_c_74, main_call9.call0.cst.ref, main_call9.call0.v0.ref, main_call9.call0.v1.ref, main_call9.call0.cst_0.ref, main_call9.call0.v2.ref, main_call9.call0.v3.ref, main_call9.call0.v4.ref,
    main_call9.call0.v5.ref, main_call9.call0.v6.ref, main_call9.call0.v7.ref, main_call9.call0.cst_1.ref, main_call9.call0.v8.ref, main_call9.call0.cst_2.ref, main_call9.call0.v9.ref, main_call9.call0.v10.ref,
    main_call9.call0.v11.ref, main_call9.call0.v12.ref, main_call9.call0.cst_3.ref, main_call9.call0.v13.ref, main_call9.call0.cst_4.ref, main_call9.call0.call0.v0.ref, main_call9.call0.call0.v1.ref, main_call9.call0.call0.v2.ref,
    main_call9.v1.ref, main_v391, main_v392, main_v393, main_v394, main_v395, main_v396, main_v397,
    main_v398, main_call10.cst.ref, main_call10.v0.ref, main_call10.v1.ref, main_v400, main_v401, main_v402 ]

/-- Each writes one buffer, of `W7`. -/
theorem ops7_writes : (ops7 : List (HloOp τ sig (Elt F))).Forall fun op =>
    op.writes ⊆ (W7.map (Proc.devRef (τ := τ) .tc)).toFinset :=
  ⟨writes_sub_of_eq (unary_writes ..) (by decide), writes_sub_of_eq (binary_writes ..) (by decide), writes_sub_of_eq (nullary_writes ..) (by decide),
    writes_sub_of_eq (nullary_writes ..) (by decide), writes_sub_of_eq (nullary_writes ..) (by decide), writes_sub_of_eq (unary_writes ..) (by decide),
    writes_sub_of_eq (binary_writes ..) (by decide), writes_sub_of_eq (binary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide), writes_sub_of_eq (reshape_writes ..) (by decide), writes_sub_of_eq (nullary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (ternary_writes ..) (by decide),
    writes_sub_of_eq (nullary_writes ..) (by decide), writes_sub_of_eq (binary_writes ..) (by decide), writes_sub_of_eq (unary_writes ..) (by decide),
    writes_sub_of_eq (unary_writes ..) (by decide), writes_sub_of_eq (unary_writes ..) (by decide), writes_sub_of_eq (unary_writes ..) (by decide),
    writes_sub_of_eq (unary_writes ..) (by decide), writes_sub_of_eq (unary_writes ..) (by decide), writes_sub_of_eq (unary_writes ..) (by decide),
    writes_sub_of_eq (nary_writes ..) (by decide), writes_sub_of_eq (unary_writes ..) (by decide), writes_sub_of_eq (unary_writes ..) (by decide),
    writes_sub_of_eq (unary_writes ..) (by decide), writes_sub_of_eq (unary_writes ..) (by decide), writes_sub_of_eq (unary_writes ..) (by decide),
    writes_sub_of_eq (unary_writes ..) (by decide), writes_sub_of_eq (unary_writes ..) (by decide), writes_sub_of_eq (nary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (unary_writes ..) (by decide), writes_sub_of_eq (binary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (binary_writes ..) (by decide), writes_sub_of_eq (nullary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (binary_writes ..) (by decide),
    writes_sub_of_eq (unary_writes ..) (by decide), writes_sub_of_eq (binary_writes ..) (by decide), writes_sub_of_eq (binary_writes ..) (by decide),
    writes_sub_of_eq (unary_writes ..) (by decide), writes_sub_of_eq (nullary_writes ..) (by decide), writes_sub_of_eq (binary_writes ..) (by decide),
    writes_sub_of_eq (nullary_writes ..) (by decide), writes_sub_of_eq (binary_writes ..) (by decide), writes_sub_of_eq (unary_writes ..) (by decide),
    writes_sub_of_eq (unary_writes ..) (by decide), writes_sub_of_eq (binary_writes ..) (by decide), writes_sub_of_eq (nullary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (unary_writes ..) (by decide),
    writes_sub_of_eq (binary_writes ..) (by decide), writes_sub_of_eq (binary_writes ..) (by decide), writes_sub_of_eq (unary_writes ..) (by decide),
    writes_sub_of_eq (unary_writes ..) (by decide), writes_sub_of_eq (binary_writes ..) (by decide), writes_sub_of_eq (nullary_writes ..) (by decide),
    writes_sub_of_eq (unary_writes ..) (by decide), writes_sub_of_eq (binary_writes ..) (by decide), writes_sub_of_eq (binary_writes ..) (by decide),
    writes_sub_of_eq (unary_writes ..) (by decide), writes_sub_of_eq (unary_writes ..) (by decide)⟩

/-- A buffer outside `W7` keeps its contents through the window. -/
theorem ops7_keeps (V : Valuation τ sig (Elt F)) {r : Ref sig .tc} (hr : r ∉ W7) :
    after ops7 V (Proc.devRef .tc r) = V (Proc.devRef .tc r) :=
  after_of_writes_sub ops7 V ops7_writes hr

end Cert.ReferenceIdeal.RR

end
-- ==== Proof.RefRunP8.lean ====
/- Window 8 of the reference program's @main (`main_part8`) as a LIST of its 9 host operations, in order, each
   call replaced by the callee's operations over that call's record of buffers; with, per operation, that it
   touches TensorCore buffers only, determines what it writes, and writes one buffer of the list `W8`. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- The 9 operations of window 8, in order. -/
abbrev ops8 : List (HloOp τ sig (Elt F)) :=
  [ StableHlo.binary main_v400 main_v402 main_v403 (addf : (⟨S256x1, .f32⟩ : BufTy).Contents (Elt F) → (⟨S256x1, .f32⟩ : BufTy).Contents (Elt F) → (⟨S256x1, .f32⟩ : BufTy).Contents (Elt F)),
    StableHlo.unary main_v403 main_v404 (Host.negf : (⟨S256x1, .f32⟩ : BufTy).Contents (Elt F) → (⟨S256x1, .f32⟩ : BufTy).Contents (Elt F)),
    StableHlo.unary main_v404 main_v405 (Host.exp : (⟨S256x1, .f32⟩ : BufTy).Contents (Elt F) → (⟨S256x1, .f32⟩ : BufTy).Contents (Elt F)),
    StableHlo.nullary main_cst_75 (constant S_ .f32 0x3F800000#32),
    StableHlo.unary main_cst_75 main_v406 (broadcastInDim S256x1 ![] bcast_S_S256x1 : (⟨S_, .f32⟩ : BufTy).Contents (Elt F) → (⟨S256x1, .f32⟩ : BufTy).Contents (Elt F)),
    StableHlo.binary main_v406 main_v405 main_v407 (addf : (⟨S256x1, .f32⟩ : BufTy).Contents (Elt F) → (⟨S256x1, .f32⟩ : BufTy).Contents (Elt F) → (⟨S256x1, .f32⟩ : BufTy).Contents (Elt F)),
    StableHlo.nullary main_cst_76 (constant S_ .f32 0x3F800000#32),
    StableHlo.unary main_cst_76 main_v408 (broadcastInDim S256x1 ![] bcast_S_S256x1 : (⟨S_, .f32⟩ : BufTy).Contents (Elt F) → (⟨S256x1, .f32⟩ : BufTy).Contents (Elt F)),
    StableHlo.binary main_v408 main_v407 main_v409 (Host.divf : (⟨S256x1, .f32⟩ : BufTy).Contents (Elt F) → (⟨S256x1, .f32⟩ : BufTy).Contents (Elt F) → (⟨S256x1, .f32⟩ : BufTy).Contents (Elt F)) ]

set_option maxRecDepth 4096 in
/-- The window is that straight line: the functions' definitions unfolded at their calls and the records at
    their fields, both sides are one chain of steps once sequencing is reassociated. -/
theorem main_part8_eq (c : Dev nD) : main_part8 (F := F) c = StableHlo.seq ops8 := by
  simp only [main_part8, StableHlo.seq, bind_assoc, pure_bind] <;> rfl

/-- Each touches TensorCore buffers only. -/
theorem ops8_sub : (ops8 : List (HloOp τ sig (Elt F))).Forall fun op => op.bufs ⊆ tcRefs τ sig :=
  ⟨binary_bufs_sub .., unary_bufs_sub .., unary_bufs_sub .., nullary_bufs_sub .., unary_bufs_sub .., binary_bufs_sub ..,
    nullary_bufs_sub .., unary_bufs_sub .., binary_bufs_sub ..⟩

/-- Each determines every buffer it writes. -/
theorem ops8_fresh : (ops8 : List (HloOp τ sig (Elt F))).Forall fun op => op.fresh = ∅ :=
  ⟨rfl, rfl, rfl, rfl, rfl, rfl, rfl, rfl, rfl⟩

/-- The buffers the window's operations write, in order. -/
abbrev W8 : List (Ref sig .tc) :=
  [ main_v403, main_v404, main_v405, main_cst_75, main_v406, main_v407, main_cst_76, main_v408,
    main_v409 ]

/-- Each writes one buffer, of `W8`. -/
theorem ops8_writes : (ops8 : List (HloOp τ sig (Elt F))).Forall fun op =>
    op.writes ⊆ (W8.map (Proc.devRef (τ := τ) .tc)).toFinset :=
  ⟨writes_sub_of_eq (binary_writes ..) (by decide), writes_sub_of_eq (unary_writes ..) (by decide), writes_sub_of_eq (unary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide)⟩

/-- A buffer outside `W8` keeps its contents through the window. -/
theorem ops8_keeps (V : Valuation τ sig (Elt F)) {r : Ref sig .tc} (hr : r ∉ W8) :
    after ops8 V (Proc.devRef .tc r) = V (Proc.devRef .tc r) :=
  after_of_writes_sub ops8 V ops8_writes hr

end Cert.ReferenceIdeal.RR

end
-- ==== Proof.RefRun.lean ====
/- The reference program's run, read back. @main is printed in nine windows; each window is a list of host
   operations (the calls replaced by the callees' operations over the calls' records of buffers), and @main is the
   nine lists one after the other. A straight line of operations on a signature that scopes nothing terminates
   on every weakly fair execution with every TensorCore buffer at the fold of the operations' results over the
   launch contents; the eleven argument buffers are written by none of the 588 operations, so they end as they
   started. -/
import proofs.«156722_j77687368450207_1_alg».proof.Proof.RefRunP0
import proofs.«156722_j77687368450207_1_alg».proof.Proof.RefRunP1
import proofs.«156722_j77687368450207_1_alg».proof.Proof.RefRunP2
import proofs.«156722_j77687368450207_1_alg».proof.Proof.RefRunP3
import proofs.«156722_j77687368450207_1_alg».proof.Proof.RefRunP4
import proofs.«156722_j77687368450207_1_alg».proof.Proof.RefRunP5
import proofs.«156722_j77687368450207_1_alg».proof.Proof.RefRunP6
import proofs.«156722_j77687368450207_1_alg».proof.Proof.RefRunP7
import proofs.«156722_j77687368450207_1_alg».proof.Proof.RefRunP8

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- @main's 588 operations, in order, the calls inlined: the nine windows' lists one after the other. -/
abbrev ops : List (HloOp τ sig (Elt F)) :=
  ops0 ++ (ops1 ++ (ops2 ++ (ops3 ++ (ops4 ++ (ops5 ++ (ops6 ++ (ops7 ++ ops8)))))))

/-- @main runs its windows in order, each window is its list run as a line, and lines run one after the
    other are their concatenation run as one. -/
theorem main_eq (c : Dev nD) : main (F := F) c = StableHlo.seq ops := by
  simp only [ops, seq_append, ← main_part0_eq c, ← main_part1_eq c, ← main_part2_eq c, ← main_part3_eq c, ← main_part4_eq c, ← main_part5_eq c, ← main_part6_eq c, ← main_part7_eq c, ← main_part8_eq c]
  rfl

theorem scopedRefs_eq : (Finset.univ.filter fun b : Ref sig .tc => b.isScoped) = ∅ := by decide
theorem scopedSems_eq : (Finset.univ.filter fun sm : SemLoc sig => sm.isScoped .tc) = ∅ := by decide

/-- Each operation touches TensorCore buffers only. -/
theorem ops_sub : (ops : List (HloOp τ sig (Elt F))).Forall fun op => op.bufs ⊆ tcRefs τ sig :=
  forall_app ops0_sub (forall_app ops1_sub (forall_app ops2_sub (forall_app ops3_sub (forall_app ops4_sub (forall_app ops5_sub (forall_app ops6_sub (forall_app ops7_sub ops8_sub)))))))

/-- Each operation determines every buffer it writes. -/
theorem ops_fresh : ∀ op ∈ (ops : List (HloOp τ sig (Elt F))), op.fresh = ∅ :=
  List.forall_iff_forall_mem.1 (forall_app ops0_fresh (forall_app ops1_fresh (forall_app ops2_fresh (forall_app ops3_fresh (forall_app ops4_fresh (forall_app ops5_fresh (forall_app ops6_fresh (forall_app ops7_fresh ops8_fresh))))))))

/-- A buffer none of the nine windows writes keeps its contents through @main. -/
theorem ops_keeps (V : Valuation τ sig (Elt F)) {r : Ref sig .tc}
    (h0 : r ∉ W0) (h1 : r ∉ W1) (h2 : r ∉ W2) (h3 : r ∉ W3) (h4 : r ∉ W4) (h5 : r ∉ W5) (h6 : r ∉ W6) (h7 : r ∉ W7) (h8 : r ∉ W8) :
    after ops V (Proc.devRef .tc r) = V (Proc.devRef .tc r) := by
  show after (ops0 ++ (ops1 ++ (ops2 ++ (ops3 ++ (ops4 ++ (ops5 ++ (ops6 ++ (ops7 ++ ops8)))))))) V (Proc.devRef .tc r) = V (Proc.devRef .tc r)
  rw [after_app, after_app, after_app, after_app, after_app, after_app, after_app, after_app,
    ops8_keeps _ h8, ops7_keeps _ h7, ops6_keeps _ h6, ops5_keeps _ h5, ops4_keeps _ h4, ops3_keeps _ h3,
    ops2_keeps _ h2, ops1_keeps _ h1, ops0_keeps _ h0]

theorem arg0_keeps (V : Valuation τ sig (Elt F)) :
    after ops V (Proc.devRef .tc main_arg0) = V (Proc.devRef .tc main_arg0) :=
  ops_keeps V (by decide) (by decide) (by decide) (by decide) (by decide) (by decide) (by decide) (by decide) (by decide)
theorem arg1_keeps (V : Valuation τ sig (Elt F)) :
    after ops V (Proc.devRef .tc main_arg1) = V (Proc.devRef .tc main_arg1) :=
  ops_keeps V (by decide) (by decide) (by decide) (by decide) (by decide) (by decide) (by decide) (by decide) (by decide)
theorem arg2_keeps (V : Valuation τ sig (Elt F)) :
    after ops V (Proc.devRef .tc main_arg2) = V (Proc.devRef .tc main_arg2) :=
  ops_keeps V (by decide) (by decide) (by decide) (by decide) (by decide) (by decide) (by decide) (by decide) (by decide)
theorem arg3_keeps (V : Valuation τ sig (Elt F)) :
    after ops V (Proc.devRef .tc main_arg3) = V (Proc.devRef .tc main_arg3) :=
  ops_keeps V (by decide) (by decide) (by decide) (by decide) (by decide) (by decide) (by decide) (by decide) (by decide)
theorem arg4_keeps (V : Valuation τ sig (Elt F)) :
    after ops V (Proc.devRef .tc main_arg4) = V (Proc.devRef .tc main_arg4) :=
  ops_keeps V (by decide) (by decide) (by decide) (by decide) (by decide) (by decide) (by decide) (by decide) (by decide)
theorem arg5_keeps (V : Valuation τ sig (Elt F)) :
    after ops V (Proc.devRef .tc main_arg5) = V (Proc.devRef .tc main_arg5) :=
  ops_keeps V (by decide) (by decide) (by decide) (by decide) (by decide) (by decide) (by decide) (by decide) (by decide)
theorem arg6_keeps (V : Valuation τ sig (Elt F)) :
    after ops V (Proc.devRef .tc main_arg6) = V (Proc.devRef .tc main_arg6) :=
  ops_keeps V (by decide) (by decide) (by decide) (by decide) (by decide) (by decide) (by decide) (by decide) (by decide)
theorem arg7_keeps (V : Valuation τ sig (Elt F)) :
    after ops V (Proc.devRef .tc main_arg7) = V (Proc.devRef .tc main_arg7) :=
  ops_keeps V (by decide) (by decide) (by decide) (by decide) (by decide) (by decide) (by decide) (by decide) (by decide)
theorem arg8_keeps (V : Valuation τ sig (Elt F)) :
    after ops V (Proc.devRef .tc main_arg8) = V (Proc.devRef .tc main_arg8) :=
  ops_keeps V (by decide) (by decide) (by decide) (by decide) (by decide) (by decide) (by decide) (by decide) (by decide)
theorem arg9_keeps (V : Valuation τ sig (Elt F)) :
    after ops V (Proc.devRef .tc main_arg9) = V (Proc.devRef .tc main_arg9) :=
  ops_keeps V (by decide) (by decide) (by decide) (by decide) (by decide) (by decide) (by decide) (by decide) (by decide)
theorem arg10_keeps (V : Valuation τ sig (Elt F)) :
    after ops V (Proc.devRef .tc main_arg10) = V (Proc.devRef .tc main_arg10) :=
  ops_keeps V (by decide) (by decide) (by decide) (by decide) (by decide) (by decide) (by decide) (by decide) (by decide)

/-- On every device, for any float values, from any memory with zero counters: every weakly fair execution of
    @main terminates with the result buffer at the fold of the 588 operations' results over the launch contents,
    and each of the eleven argument buffers as at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v409) = after ops (launchContents m c) (Proc.devRef .tc main_v409)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v409,
      (h c main_arg0).trans (arg0_keeps _),
      (h c main_arg1).trans (arg1_keeps _),
      (h c main_arg2).trans (arg2_keeps _),
      (h c main_arg3).trans (arg3_keeps _),
      (h c main_arg4).trans (arg4_keeps _),
      (h c main_arg5).trans (arg5_keeps _),
      (h c main_arg6).trans (arg6_keeps _),
      (h c main_arg7).trans (arg7_keeps _),
      (h c main_arg8).trans (arg8_keeps _),
      (h c main_arg9).trans (arg9_keeps _),
      (h c main_arg10).trans (arg10_keeps _)⟩)
    (run_seq scopedRefs_eq scopedSems_eq defs main (fun _ => ops) main_eq (fun _ => ops_sub) m ρ (fun _ => ops_fresh))

end Cert.ReferenceIdeal.RR

end
-- ==== Proof.Assemble.lean ====
/-
  The value claim from one equation. The kernel program's run ends with every unscoped buffer of every core at the last
  fold of its host stretches and regions over the launch memory, so its result buffer holds that fold's value there and
  each argument buffer what it held at launch. The reference program's run ends with its result buffer at the fold of
  its operations over its launch contents, arguments unchanged. If, for memories that agree on the eleven arguments,
  the two folds agree at the result buffers (the bridge), then that common value is the witness and both halves of the
  claim are the two runs.
-/
import proofs.«156722_j77687368450207_1_alg».proof.Defs
import proofs.«156722_j77687368450207_1_alg».proof.Proof.Gen.KernelIdeal
import proofs.«156722_j77687368450207_1_alg».proof.Proof.Gen.ReferenceIdeal
import proofs.«156722_j77687368450207_1_alg».proof.Proof.Gen.Pre_finite_inputs
import proofs.«156722_j77687368450207_1_alg».proof.Proof.KRun
import proofs.«156722_j77687368450207_1_alg».proof.Proof.RefRun

noncomputable section

namespace Cert.Proof.Asm

open Idealize.ShloMosaic Idealize.ShloMosaic.TcCoe Idealize.SL.Sem

/-- The claim, from a bridge that may use the precondition on the kernel's launch memory. -/
theorem algebraic_of_bridge_pre
    (hbridge : ∀ (m : (ℓ : Loc Cert.KernelIdeal.nD Cert.KernelIdeal.τ Cert.KernelIdeal.sig) → Buf (Elt Ideal) ℓ) (ρ : Dev Cert.KernelIdeal.nD → PrngReg)
      (m' : (ℓ : Loc Cert.ReferenceIdeal.nD Cert.ReferenceIdeal.τ Cert.ReferenceIdeal.sig) → Buf (Elt Ideal) ℓ),
      Cert.Pre_KernelIdeal m →
      (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
      ∀ c : Dev Cert.KernelIdeal.nD,
        StableHlo.after (Cert.ReferenceIdeal.RR.ops (F := Ideal)) (StableHlo.launchContents m' c) (Proc.devRef .tc Cert.ReferenceIdeal.main_v409)
        = Cert.KernelIdeal.KF.W45 m ρ c (Proc.devRef .tc Cert.KernelIdeal.main_v366)) :
    Cert.algebraic_KernelIdeal_ReferenceIdeal := by
  intro m ρ m' ρ' hpre hagree
  refine ⟨fun c => Cert.KernelIdeal.KF.W45 m ρ c (Proc.devRef .tc Cert.KernelIdeal.main_v366), ?_, ?_⟩
  · refine (θ_run (Cert.KernelIdeal.defs (F := Ideal)) _ _).mono (fun r h c => ?_) (Cert.KernelIdeal.KF.run (F := Ideal) m ρ)
    exact ⟨h c _ (Cert.KernelIdeal.KF.mem_uc Cert.KernelIdeal.main_v366 (by decide)),
      (h c _ (Cert.KernelIdeal.KF.mem_uc Cert.KernelIdeal.main_arg0 (by decide))).trans (Cert.KernelIdeal.KF.W45_main_arg0 m ρ c),
      (h c _ (Cert.KernelIdeal.KF.mem_uc Cert.KernelIdeal.main_arg1 (by decide))).trans (Cert.KernelIdeal.KF.W45_main_arg1 m ρ c),
      (h c _ (Cert.KernelIdeal.KF.mem_uc Cert.KernelIdeal.main_arg2 (by decide))).trans (Cert.KernelIdeal.KF.W45_main_arg2 m ρ c),
      (h c _ (Cert.KernelIdeal.KF.mem_uc Cert.KernelIdeal.main_arg3 (by decide))).trans (Cert.KernelIdeal.KF.W45_main_arg3 m ρ c),
      (h c _ (Cert.KernelIdeal.KF.mem_uc Cert.KernelIdeal.main_arg4 (by decide))).trans (Cert.KernelIdeal.KF.W45_main_arg4 m ρ c),
      (h c _ (Cert.KernelIdeal.KF.mem_uc Cert.KernelIdeal.main_arg5 (by decide))).trans (Cert.KernelIdeal.KF.W45_main_arg5 m ρ c),
      (h c _ (Cert.KernelIdeal.KF.mem_uc Cert.KernelIdeal.main_arg6 (by decide))).trans (Cert.KernelIdeal.KF.W45_main_arg6 m ρ c),
      (h c _ (Cert.KernelIdeal.KF.mem_uc Cert.KernelIdeal.main_arg7 (by decide))).trans (Cert.KernelIdeal.KF.W45_main_arg7 m ρ c),
      (h c _ (Cert.KernelIdeal.KF.mem_uc Cert.KernelIdeal.main_arg8 (by decide))).trans (Cert.KernelIdeal.KF.W45_main_arg8 m ρ c),
      (h c _ (Cert.KernelIdeal.KF.mem_uc Cert.KernelIdeal.main_arg9 (by decide))).trans (Cert.KernelIdeal.KF.W45_main_arg9 m ρ c),
      (h c _ (Cert.KernelIdeal.KF.mem_uc Cert.KernelIdeal.main_arg10 (by decide))).trans (Cert.KernelIdeal.KF.W45_main_arg10 m ρ c)⟩
  · refine (θ_run (Cert.ReferenceIdeal.defs (F := Ideal)) _ _).mono (fun r h c => ⟨(h c).1.trans ?_, (h c).2⟩)
      (Cert.ReferenceIdeal.RR.run (F := Ideal) m' ρ')
    exact hbridge m ρ m' hpre hagree c

/-- The claim, from a bridge that holds for all memories agreeing on the arguments. -/
theorem algebraic_of_bridge
    (hbridge : ∀ (m : (ℓ : Loc Cert.KernelIdeal.nD Cert.KernelIdeal.τ Cert.KernelIdeal.sig) → Buf (Elt Ideal) ℓ) (ρ : Dev Cert.KernelIdeal.nD → PrngReg)
      (m' : (ℓ : Loc Cert.ReferenceIdeal.nD Cert.ReferenceIdeal.τ Cert.ReferenceIdeal.sig) → Buf (Elt Ideal) ℓ),
      (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
      ∀ c : Dev Cert.KernelIdeal.nD,
        StableHlo.after (Cert.ReferenceIdeal.RR.ops (F := Ideal)) (StableHlo.launchContents m' c) (Proc.devRef .tc Cert.ReferenceIdeal.main_v409)
        = Cert.KernelIdeal.KF.W45 m ρ c (Proc.devRef .tc Cert.KernelIdeal.main_v366)) :
    Cert.algebraic_KernelIdeal_ReferenceIdeal :=
  algebraic_of_bridge_pre fun m ρ m' _ hagree => hbridge m ρ m' hagree

end Cert.Proof.Asm

end
-- ==== Proof.KSpec.lean ====
/-
  The three functions the pipelined regions compute, on whole arrays of extended reals: the product of the 32768×128
  feature array by the 128×128 weight; a row vector added to every row; and, for each block of 128 consecutive rows,
  the sum over the block's 128×128 entries of (entry + bias) times a 128×128 pattern, spread over 128 columns.
-/
import proofs.«156722_j77687368450207_1_alg».proof.KernelIdeal
import Idealize.ShloMosaic.Lib.ValueIdx
import Idealize.ShloMosaic.PureOps.Ideal

noncomputable section

namespace Cert.KernelIdeal.KV

open Cert.KernelIdeal
open Idealize.ShloMosaic Idealize.ShloMosaic.ValueIdx

/-- The product of a 32768×128 array by a 128×128 matrix, entry by entry. -/
def mmG (h : S32768x128.Idx → EReal) (w : S128x128.Idx → EReal) : S32768x128.Idx → EReal :=
  fun i => ∑ k : Fin 128, h (ix2 (i 0) k) * w (ix2 k (i 1))

/-- A 1×128 row added to every row of a 32768×128 array. -/
def biasG (a : S32768x128.Idx → EReal) (b : S1x128.Idx → EReal) : S32768x128.Idx → EReal :=
  fun i => a i + b (ix2 (0 : Fin 1) (i 1))

/-- For block B of 128 rows: the sum over (p, q) of (entry (128·B + p, q) + bias q) · pattern (p, q), at every column. -/
def traceG (a : S32768x128.Idx → EReal) (b : S1x128.Idx → EReal) (pat : S128x128.Idx → EReal) : S256x128.Idx → EReal :=
  fun i => ∑ p : Fin 128, ∑ q : Fin 128,
    (a (ix2 (⟨(i 0).val * 128 + p.val, by have := idx2_lt0 i; have := p.isLt; omega⟩ : Fin 32768) q) + b (ix2 (0 : Fin 1) q)) * pat (ix2 p q)

end Cert.KernelIdeal.KV

end
-- ==== Proof.KOpsDefs.lean ====
/-
  The kernel program as one line of operations: each pipelined region stands as the host-style operation that writes
  the function the region computes (the weight product; the biased array; the blocks' masked sums) into the region's
  output array, between the program's own host stretches. One list for the shared first part (edge lists, degrees,
  normalisers, the identity pattern), one per walk step, one for the readout.
-/
import proofs.«156722_j77687368450207_1_alg».proof.Proof.KSpec
import proofs.«156722_j77687368450207_1_alg».proof.Proof.Gen.KernelIdeal.Launch

noncomputable section

namespace Cert.KernelIdeal.KV

open Cert.KernelIdeal Cert.KernelIdeal.Gen
open Idealize.ShloMosaic Idealize.ShloMosaic.TcCoe

/-- Walk step 1: the weight product as an operation. -/
abbrev pmm0 : HloOp τ sig (Elt Ideal) :=
  StableHlo.binary main_arg0 main_arg5 main_v66 (mmG : (⟨S32768x128, .f32⟩ : BufTy).Contents (Elt Ideal) → (⟨S128x128, .f32⟩ : BufTy).Contents (Elt Ideal) → (⟨S32768x128, .f32⟩ : BufTy).Contents (Elt Ideal))
/-- Walk step 1: the bias added to every row, as an operation. -/
abbrev pb1 : HloOp τ sig (Elt Ideal) :=
  StableHlo.binary main_v79 main_v80 main_v81_0 (biasG : (⟨S32768x128, .f32⟩ : BufTy).Contents (Elt Ideal) → (⟨S1x128, .f32⟩ : BufTy).Contents (Elt Ideal) → (⟨S32768x128, .f32⟩ : BufTy).Contents (Elt Ideal))
/-- Walk step 1: the blocks' masked sums, as an operation. -/
abbrev pt1 : HloOp τ sig (Elt Ideal) :=
  StableHlo.ternary main_v79 main_v80 main_v65 main_v81_1 (traceG : (⟨S32768x128, .f32⟩ : BufTy).Contents (Elt Ideal) → (⟨S1x128, .f32⟩ : BufTy).Contents (Elt Ideal) → (⟨S128x128, .f32⟩ : BufTy).Contents (Elt Ideal) → (⟨S256x128, .f32⟩ : BufTy).Contents (Elt Ideal))
/-- Walk step 1 as a line of operations. -/
abbrev Kit0 : List (HloOp τ sig (Elt Ideal)) :=
  pmm0 :: (hostOps1 ++ (pb1 :: pt1 :: (hostOps2 ++ hostOps2_1)))
/-- Walk step 2: the weight product as an operation. -/
abbrev pmm2 : HloOp τ sig (Elt Ideal) :=
  StableHlo.binary main_v81_0 main_arg5 main_v102 (mmG : (⟨S32768x128, .f32⟩ : BufTy).Contents (Elt Ideal) → (⟨S128x128, .f32⟩ : BufTy).Contents (Elt Ideal) → (⟨S32768x128, .f32⟩ : BufTy).Contents (Elt Ideal))
/-- Walk step 2: the bias added to every row, as an operation. -/
abbrev pb3 : HloOp τ sig (Elt Ideal) :=
  StableHlo.binary main_v115 main_v116 main_v117_0 (biasG : (⟨S32768x128, .f32⟩ : BufTy).Contents (Elt Ideal) → (⟨S1x128, .f32⟩ : BufTy).Contents (Elt Ideal) → (⟨S32768x128, .f32⟩ : BufTy).Contents (Elt Ideal))
/-- Walk step 2: the blocks' masked sums, as an operation. -/
abbrev pt3 : HloOp τ sig (Elt Ideal) :=
  StableHlo.ternary main_v115 main_v116 main_v65 main_v117_1 (traceG : (⟨S32768x128, .f32⟩ : BufTy).Contents (Elt Ideal) → (⟨S1x128, .f32⟩ : BufTy).Contents (Elt Ideal) → (⟨S128x128, .f32⟩ : BufTy).Contents (Elt Ideal) → (⟨S256x128, .f32⟩ : BufTy).Contents (Elt Ideal))
/-- Walk step 2 as a line of operations. -/
abbrev Kit1 : List (HloOp τ sig (Elt Ideal)) :=
  pmm2 :: (hostOps3 ++ (pb3 :: pt3 :: (hostOps4 ++ hostOps4_1)))
/-- Walk step 3: the weight product as an operation. -/
abbrev pmm4 : HloOp τ sig (Elt Ideal) :=
  StableHlo.binary main_v117_0 main_arg5 main_v138 (mmG : (⟨S32768x128, .f32⟩ : BufTy).Contents (Elt Ideal) → (⟨S128x128, .f32⟩ : BufTy).Contents (Elt Ideal) → (⟨S32768x128, .f32⟩ : BufTy).Contents (Elt Ideal))
/-- Walk step 3: the bias added to every row, as an operation. -/
abbrev pb5 : HloOp τ sig (Elt Ideal) :=
  StableHlo.binary main_v151 main_v152 main_v153_0 (biasG : (⟨S32768x128, .f32⟩ : BufTy).Contents (Elt Ideal) → (⟨S1x128, .f32⟩ : BufTy).Contents (Elt Ideal) → (⟨S32768x128, .f32⟩ : BufTy).Contents (Elt Ideal))
/-- Walk step 3: the blocks' masked sums, as an operation. -/
abbrev pt5 : HloOp τ sig (Elt Ideal) :=
  StableHlo.ternary main_v151 main_v152 main_v65 main_v153_1 (traceG : (⟨S32768x128, .f32⟩ : BufTy).Contents (Elt Ideal) → (⟨S1x128, .f32⟩ : BufTy).Contents (Elt Ideal) → (⟨S128x128, .f32⟩ : BufTy).Contents (Elt Ideal) → (⟨S256x128, .f32⟩ : BufTy).Contents (Elt Ideal))
/-- Walk step 3 as a line of operations. -/
abbrev Kit2 : List (HloOp τ sig (Elt Ideal)) :=
  pmm4 :: (hostOps5 ++ (pb5 :: pt5 :: (hostOps6 ++ hostOps6_1)))
/-- Walk step 4: the weight product as an operation. -/
abbrev pmm6 : HloOp τ sig (Elt Ideal) :=
  StableHlo.binary main_v153_0 main_arg5 main_v174 (mmG : (⟨S32768x128, .f32⟩ : BufTy).Contents (Elt Ideal) → (⟨S128x128, .f32⟩ : BufTy).Contents (Elt Ideal) → (⟨S32768x128, .f32⟩ : BufTy).Contents (Elt Ideal))
/-- Walk step 4: the bias added to every row, as an operation. -/
abbrev pb7 : HloOp τ sig (Elt Ideal) :=
  StableHlo.binary main_v187 main_v188 main_v189_0 (biasG : (⟨S32768x128, .f32⟩ : BufTy).Contents (Elt Ideal) → (⟨S1x128, .f32⟩ : BufTy).Contents (Elt Ideal) → (⟨S32768x128, .f32⟩ : BufTy).Contents (Elt Ideal))
/-- Walk step 4: the blocks' masked sums, as an operation. -/
abbrev pt7 : HloOp τ sig (Elt Ideal) :=
  StableHlo.ternary main_v187 main_v188 main_v65 main_v189_1 (traceG : (⟨S32768x128, .f32⟩ : BufTy).Contents (Elt Ideal) → (⟨S1x128, .f32⟩ : BufTy).Contents (Elt Ideal) → (⟨S128x128, .f32⟩ : BufTy).Contents (Elt Ideal) → (⟨S256x128, .f32⟩ : BufTy).Contents (Elt Ideal))
/-- Walk step 4 as a line of operations. -/
abbrev Kit3 : List (HloOp τ sig (Elt Ideal)) :=
  pmm6 :: (hostOps7 ++ (pb7 :: pt7 :: (hostOps8 ++ hostOps8_1)))
/-- Walk step 5: the weight product as an operation. -/
abbrev pmm8 : HloOp τ sig (Elt Ideal) :=
  StableHlo.binary main_v189_0 main_arg5 main_v210 (mmG : (⟨S32768x128, .f32⟩ : BufTy).Contents (Elt Ideal) → (⟨S128x128, .f32⟩ : BufTy).Contents (Elt Ideal) → (⟨S32768x128, .f32⟩ : BufTy).Contents (Elt Ideal))
/-- Walk step 5: the bias added to every row, as an operation. -/
abbrev pb9 : HloOp τ sig (Elt Ideal) :=
  StableHlo.binary main_v223 main_v224 main_v225_0 (biasG : (⟨S32768x128, .f32⟩ : BufTy).Contents (Elt Ideal) → (⟨S1x128, .f32⟩ : BufTy).Contents (Elt Ideal) → (⟨S32768x128, .f32⟩ : BufTy).Contents (Elt Ideal))
/-- Walk step 5: the blocks' masked sums, as an operation. -/
abbrev pt9 : HloOp τ sig (Elt Ideal) :=
  StableHlo.ternary main_v223 main_v224 main_v65 main_v225_1 (traceG : (⟨S32768x128, .f32⟩ : BufTy).Contents (Elt Ideal) → (⟨S1x128, .f32⟩ : BufTy).Contents (Elt Ideal) → (⟨S128x128, .f32⟩ : BufTy).Contents (Elt Ideal) → (⟨S256x128, .f32⟩ : BufTy).Contents (Elt Ideal))
/-- Walk step 5 as a line of operations. -/
abbrev Kit4 : List (HloOp τ sig (Elt Ideal)) :=
  pmm8 :: (hostOps9 ++ (pb9 :: pt9 :: (hostOps10 ++ hostOps10_1)))
/-- Walk step 6: the weight product as an operation. -/
abbrev pmm10 : HloOp τ sig (Elt Ideal) :=
  StableHlo.binary main_v225_0 main_arg5 main_v246 (mmG : (⟨S32768x128, .f32⟩ : BufTy).Contents (Elt Ideal) → (⟨S128x128, .f32⟩ : BufTy).Contents (Elt Ideal) → (⟨S32768x128, .f32⟩ : BufTy).Contents (Elt Ideal))
/-- Walk step 6: the bias added to every row, as an operation. -/
abbrev pb11 : HloOp τ sig (Elt Ideal) :=
  StableHlo.binary main_v259 main_v260 main_v261_0 (biasG : (⟨S32768x128, .f32⟩ : BufTy).Contents (Elt Ideal) → (⟨S1x128, .f32⟩ : BufTy).Contents (Elt Ideal) → (⟨S32768x128, .f32⟩ : BufTy).Contents (Elt Ideal))
/-- Walk step 6: the blocks' masked sums, as an operation. -/
abbrev pt11 : HloOp τ sig (Elt Ideal) :=
  StableHlo.ternary main_v259 main_v260 main_v65 main_v261_1 (traceG : (⟨S32768x128, .f32⟩ : BufTy).Contents (Elt Ideal) → (⟨S1x128, .f32⟩ : BufTy).Contents (Elt Ideal) → (⟨S128x128, .f32⟩ : BufTy).Contents (Elt Ideal) → (⟨S256x128, .f32⟩ : BufTy).Contents (Elt Ideal))
/-- Walk step 6 as a line of operations. -/
abbrev Kit5 : List (HloOp τ sig (Elt Ideal)) :=
  pmm10 :: (hostOps11 ++ (pb11 :: pt11 :: (hostOps12 ++ hostOps12_1)))
/-- Walk step 7: the weight product as an operation. -/
abbrev pmm12 : HloOp τ sig (Elt Ideal) :=
  StableHlo.binary main_v261_0 main_arg5 main_v282 (mmG : (⟨S32768x128, .f32⟩ : BufTy).Contents (Elt Ideal) → (⟨S128x128, .f32⟩ : BufTy).Contents (Elt Ideal) → (⟨S32768x128, .f32⟩ : BufTy).Contents (Elt Ideal))
/-- Walk step 7: the bias added to every row, as an operation. -/
abbrev pb13 : HloOp τ sig (Elt Ideal) :=
  StableHlo.binary main_v295 main_v296 main_v297_0 (biasG : (⟨S32768x128, .f32⟩ : BufTy).Contents (Elt Ideal) → (⟨S1x128, .f32⟩ : BufTy).Contents (Elt Ideal) → (⟨S32768x128, .f32⟩ : BufTy).Contents (Elt Ideal))
/-- Walk step 7: the blocks' masked sums, as an operation. -/
abbrev pt13 : HloOp τ sig (Elt Ideal) :=
  StableHlo.ternary main_v295 main_v296 main_v65 main_v297_1 (traceG : (⟨S32768x128, .f32⟩ : BufTy).Contents (Elt Ideal) → (⟨S1x128, .f32⟩ : BufTy).Contents (Elt Ideal) → (⟨S128x128, .f32⟩ : BufTy).Contents (Elt Ideal) → (⟨S256x128, .f32⟩ : BufTy).Contents (Elt Ideal))
/-- Walk step 7 as a line of operations. -/
abbrev Kit6 : List (HloOp τ sig (Elt Ideal)) :=
  pmm12 :: (hostOps13 ++ (pb13 :: pt13 :: (hostOps14 ++ hostOps14_1)))
/-- The shared first part. -/
abbrev Kpro : List (HloOp τ sig (Elt Ideal)) := hostOps0 ++ (hostOps0_1 ++ (hostOps0_2 ++ (hostOps0_3 ++ hostOps0_4)))
/-- The readout. -/
abbrev Ktail : List (HloOp τ sig (Elt Ideal)) := hostOps14_2 ++ (hostOps14_3 ++ (hostOps14_4 ++ (hostOps14_5 ++ hostOps14_6)))

end Cert.KernelIdeal.KV

end
-- ==== Proof.KKeeps.lean ====
/-
  What each line of the program leaves alone.
  Every line of operations writes only the arrays on its own list: for a walk step, the product's output, what the
  host stretch after it writes, the two outputs of the bias-and-trace step, and what the two host stretches after that
  write. An array not on a line's list holds after the line what it held before.
-/
import proofs.«156722_j77687368450207_1_alg».proof.Proof.KOpsDefs
import proofs.«156722_j77687368450207_1_alg».proof.Proof.KHostFacts

set_option maxRecDepth 3076

noncomputable section

namespace Cert.KernelIdeal.KV

open Cert.KernelIdeal Cert.KernelIdeal.Gen Cert.KernelIdeal.GenP
open Idealize.ShloMosaic Idealize.ShloMosaic.TcCoe Idealize.SL.Sem

/-- A line that writes inside a list writes inside any longer list. -/
theorem writes_mono {W W' : List (Ref sig .tc)} {ops : List (HloOp τ sig (Elt Ideal))}
    (h : ops.Forall fun op => op.writes ⊆ (W.map (Proc.devRef (τ := τ) .tc)).toFinset) (hs : W ⊆ W') :
    ops.Forall fun op => op.writes ⊆ (W'.map (Proc.devRef (τ := τ) .tc)).toFinset :=
  List.forall_iff_forall_mem.mpr fun op hop =>
    (List.forall_iff_forall_mem.mp h op hop).trans fun _ hx =>
      List.mem_toFinset.mpr (List.map_subset _ hs (List.mem_toFinset.mp hx))

/-- The arrays the shared first part writes. -/
abbrev Kpro_W : List (Ref sig .tc) := hostOps0_W ++ hostOps0_1_W ++ hostOps0_2_W ++ hostOps0_3_W ++ hostOps0_4_W

theorem Kpro_writes : Kpro.Forall fun op => op.writes ⊆ (Kpro_W.map (Proc.devRef (τ := τ) .tc)).toFinset := by
  refine List.forall_append.mpr ⟨?_, List.forall_append.mpr ⟨?_, List.forall_append.mpr ⟨?_, List.forall_append.mpr ⟨?_, ?_⟩⟩⟩⟩
  · exact writes_mono hostOps0_writes fun x hx => List.mem_append_left _ (List.mem_append_left _ (List.mem_append_left _
      (List.mem_append_left _ hx)))
  · exact writes_mono hostOps0_1_writes fun x hx => List.mem_append_left _ (List.mem_append_left _ (List.mem_append_left _
      (List.mem_append_right _ hx)))
  · exact writes_mono hostOps0_2_writes fun x hx => List.mem_append_left _ (List.mem_append_left _ (List.mem_append_right _ hx))
  · exact writes_mono hostOps0_3_writes fun x hx => List.mem_append_left _ (List.mem_append_right _ hx)
  · exact writes_mono hostOps0_4_writes fun x hx => List.mem_append_right _ hx

/-- An array the shared first part does not write holds after it what it held before. -/
theorem Kpro_keeps (V : Valuation τ sig (Elt Ideal)) {r : Ref sig .tc} (hr : r ∉ Kpro_W) :
    StableHlo.after Kpro V (Proc.devRef .tc r) = V (Proc.devRef .tc r) :=
  StableHlo.after_of_writes_sub Kpro V Kpro_writes hr

/-- The arrays walk step 1 writes. -/
abbrev Kit0_W : List (Ref sig .tc) := [main_v66] ++ hostOps1_W ++ [main_v81_0, main_v81_1] ++ hostOps2_W ++ hostOps2_1_W

theorem Kit0_writes : Kit0.Forall fun op => op.writes ⊆ (Kit0_W.map (Proc.devRef (τ := τ) .tc)).toFinset := by
  refine (List.forall_cons _ _ _).mpr ⟨?_, List.forall_append.mpr ⟨?_, (List.forall_cons _ _ _).mpr ⟨?_,
    (List.forall_cons _ _ _).mpr ⟨?_, List.forall_append.mpr ⟨?_, ?_⟩⟩⟩⟩⟩
  · simp only [pmm0, StableHlo.binary_writes, StableHlo.ternary_writes, Finset.singleton_subset_iff, List.mem_toFinset]
    exact List.mem_map_of_mem (List.mem_append_left _ (List.mem_append_left _ (List.mem_append_left _
      (List.mem_append_left _ (List.mem_singleton.mpr rfl)))))
  · exact writes_mono hostOps1_writes fun x hx => List.mem_append_left _ (List.mem_append_left _ (List.mem_append_left _
      (List.mem_append_right _ hx)))
  · simp only [pb1, StableHlo.binary_writes, StableHlo.ternary_writes, Finset.singleton_subset_iff, List.mem_toFinset]
    exact List.mem_map_of_mem (List.mem_append_left _ (List.mem_append_left _ (List.mem_append_right _
      (List.mem_cons_self))))
  · simp only [pt1, StableHlo.binary_writes, StableHlo.ternary_writes, Finset.singleton_subset_iff, List.mem_toFinset]
    exact List.mem_map_of_mem (List.mem_append_left _ (List.mem_append_left _ (List.mem_append_right _
      (List.mem_cons_of_mem _ (List.mem_singleton.mpr rfl)))))
  · exact writes_mono hostOps2_writes fun x hx => List.mem_append_left _ (List.mem_append_right _ hx)
  · exact writes_mono hostOps2_1_writes fun x hx => List.mem_append_right _ hx

/-- An array walk step 1 does not write holds after it what it held before. -/
theorem Kit0_keeps (V : Valuation τ sig (Elt Ideal)) {r : Ref sig .tc} (hr : r ∉ Kit0_W) :
    StableHlo.after Kit0 V (Proc.devRef .tc r) = V (Proc.devRef .tc r) :=
  StableHlo.after_of_writes_sub Kit0 V Kit0_writes hr

/-- The arrays walk step 2 writes. -/
abbrev Kit1_W : List (Ref sig .tc) := [main_v102] ++ hostOps3_W ++ [main_v117_0, main_v117_1] ++ hostOps4_W ++ hostOps4_1_W

theorem Kit1_writes : Kit1.Forall fun op => op.writes ⊆ (Kit1_W.map (Proc.devRef (τ := τ) .tc)).toFinset := by
  refine (List.forall_cons _ _ _).mpr ⟨?_, List.forall_append.mpr ⟨?_, (List.forall_cons _ _ _).mpr ⟨?_,
    (List.forall_cons _ _ _).mpr ⟨?_, List.forall_append.mpr ⟨?_, ?_⟩⟩⟩⟩⟩
  · simp only [pmm2, StableHlo.binary_writes, StableHlo.ternary_writes, Finset.singleton_subset_iff, List.mem_toFinset]
    exact List.mem_map_of_mem (List.mem_append_left _ (List.mem_append_left _ (List.mem_append_left _
      (List.mem_append_left _ (List.mem_singleton.mpr rfl)))))
  · exact writes_mono hostOps3_writes fun x hx => List.mem_append_left _ (List.mem_append_left _ (List.mem_append_left _
      (List.mem_append_right _ hx)))
  · simp only [pb3, StableHlo.binary_writes, StableHlo.ternary_writes, Finset.singleton_subset_iff, List.mem_toFinset]
    exact List.mem_map_of_mem (List.mem_append_left _ (List.mem_append_left _ (List.mem_append_right _
      (List.mem_cons_self))))
  · simp only [pt3, StableHlo.binary_writes, StableHlo.ternary_writes, Finset.singleton_subset_iff, List.mem_toFinset]
    exact List.mem_map_of_mem (List.mem_append_left _ (List.mem_append_left _ (List.mem_append_right _
      (List.mem_cons_of_mem _ (List.mem_singleton.mpr rfl)))))
  · exact writes_mono hostOps4_writes fun x hx => List.mem_append_left _ (List.mem_append_right _ hx)
  · exact writes_mono hostOps4_1_writes fun x hx => List.mem_append_right _ hx

/-- An array walk step 2 does not write holds after it what it held before. -/
theorem Kit1_keeps (V : Valuation τ sig (Elt Ideal)) {r : Ref sig .tc} (hr : r ∉ Kit1_W) :
    StableHlo.after Kit1 V (Proc.devRef .tc r) = V (Proc.devRef .tc r) :=
  StableHlo.after_of_writes_sub Kit1 V Kit1_writes hr

/-- The arrays walk step 3 writes. -/
abbrev Kit2_W : List (Ref sig .tc) := [main_v138] ++ hostOps5_W ++ [main_v153_0, main_v153_1] ++ hostOps6_W ++ hostOps6_1_W

theorem Kit2_writes : Kit2.Forall fun op => op.writes ⊆ (Kit2_W.map (Proc.devRef (τ := τ) .tc)).toFinset := by
  refine (List.forall_cons _ _ _).mpr ⟨?_, List.forall_append.mpr ⟨?_, (List.forall_cons _ _ _).mpr ⟨?_,
    (List.forall_cons _ _ _).mpr ⟨?_, List.forall_append.mpr ⟨?_, ?_⟩⟩⟩⟩⟩
  · simp only [pmm4, StableHlo.binary_writes, StableHlo.ternary_writes, Finset.singleton_subset_iff, List.mem_toFinset]
    exact List.mem_map_of_mem (List.mem_append_left _ (List.mem_append_left _ (List.mem_append_left _
      (List.mem_append_left _ (List.mem_singleton.mpr rfl)))))
  · exact writes_mono hostOps5_writes fun x hx => List.mem_append_left _ (List.mem_append_left _ (List.mem_append_left _
      (List.mem_append_right _ hx)))
  · simp only [pb5, StableHlo.binary_writes, StableHlo.ternary_writes, Finset.singleton_subset_iff, List.mem_toFinset]
    exact List.mem_map_of_mem (List.mem_append_left _ (List.mem_append_left _ (List.mem_append_right _
      (List.mem_cons_self))))
  · simp only [pt5, StableHlo.binary_writes, StableHlo.ternary_writes, Finset.singleton_subset_iff, List.mem_toFinset]
    exact List.mem_map_of_mem (List.mem_append_left _ (List.mem_append_left _ (List.mem_append_right _
      (List.mem_cons_of_mem _ (List.mem_singleton.mpr rfl)))))
  · exact writes_mono hostOps6_writes fun x hx => List.mem_append_left _ (List.mem_append_right _ hx)
  · exact writes_mono hostOps6_1_writes fun x hx => List.mem_append_right _ hx

/-- An array walk step 3 does not write holds after it what it held before. -/
theorem Kit2_keeps (V : Valuation τ sig (Elt Ideal)) {r : Ref sig .tc} (hr : r ∉ Kit2_W) :
    StableHlo.after Kit2 V (Proc.devRef .tc r) = V (Proc.devRef .tc r) :=
  StableHlo.after_of_writes_sub Kit2 V Kit2_writes hr

/-- The arrays walk step 4 writes. -/
abbrev Kit3_W : List (Ref sig .tc) := [main_v174] ++ hostOps7_W ++ [main_v189_0, main_v189_1] ++ hostOps8_W ++ hostOps8_1_W

theorem Kit3_writes : Kit3.Forall fun op => op.writes ⊆ (Kit3_W.map (Proc.devRef (τ := τ) .tc)).toFinset := by
  refine (List.forall_cons _ _ _).mpr ⟨?_, List.forall_append.mpr ⟨?_, (List.forall_cons _ _ _).mpr ⟨?_,
    (List.forall_cons _ _ _).mpr ⟨?_, List.forall_append.mpr ⟨?_, ?_⟩⟩⟩⟩⟩
  · simp only [pmm6, StableHlo.binary_writes, StableHlo.ternary_writes, Finset.singleton_subset_iff, List.mem_toFinset]
    exact List.mem_map_of_mem (List.mem_append_left _ (List.mem_append_left _ (List.mem_append_left _
      (List.mem_append_left _ (List.mem_singleton.mpr rfl)))))
  · exact writes_mono hostOps7_writes fun x hx => List.mem_append_left _ (List.mem_append_left _ (List.mem_append_left _
      (List.mem_append_right _ hx)))
  · simp only [pb7, StableHlo.binary_writes, StableHlo.ternary_writes, Finset.singleton_subset_iff, List.mem_toFinset]
    exact List.mem_map_of_mem (List.mem_append_left _ (List.mem_append_left _ (List.mem_append_right _
      (List.mem_cons_self))))
  · simp only [pt7, StableHlo.binary_writes, StableHlo.ternary_writes, Finset.singleton_subset_iff, List.mem_toFinset]
    exact List.mem_map_of_mem (List.mem_append_left _ (List.mem_append_left _ (List.mem_append_right _
      (List.mem_cons_of_mem _ (List.mem_singleton.mpr rfl)))))
  · exact writes_mono hostOps8_writes fun x hx => List.mem_append_left _ (List.mem_append_right _ hx)
  · exact writes_mono hostOps8_1_writes fun x hx => List.mem_append_right _ hx

/-- An array walk step 4 does not write holds after it what it held before. -/
theorem Kit3_keeps (V : Valuation τ sig (Elt Ideal)) {r : Ref sig .tc} (hr : r ∉ Kit3_W) :
    StableHlo.after Kit3 V (Proc.devRef .tc r) = V (Proc.devRef .tc r) :=
  StableHlo.after_of_writes_sub Kit3 V Kit3_writes hr

/-- The arrays walk step 5 writes. -/
abbrev Kit4_W : List (Ref sig .tc) := [main_v210] ++ hostOps9_W ++ [main_v225_0, main_v225_1] ++ hostOps10_W ++ hostOps10_1_W

theorem Kit4_writes : Kit4.Forall fun op => op.writes ⊆ (Kit4_W.map (Proc.devRef (τ := τ) .tc)).toFinset := by
  refine (List.forall_cons _ _ _).mpr ⟨?_, List.forall_append.mpr ⟨?_, (List.forall_cons _ _ _).mpr ⟨?_,
    (List.forall_cons _ _ _).mpr ⟨?_, List.forall_append.mpr ⟨?_, ?_⟩⟩⟩⟩⟩
  · simp only [pmm8, StableHlo.binary_writes, StableHlo.ternary_writes, Finset.singleton_subset_iff, List.mem_toFinset]
    exact List.mem_map_of_mem (List.mem_append_left _ (List.mem_append_left _ (List.mem_append_left _
      (List.mem_append_left _ (List.mem_singleton.mpr rfl)))))
  · exact writes_mono hostOps9_writes fun x hx => List.mem_append_left _ (List.mem_append_left _ (List.mem_append_left _
      (List.mem_append_right _ hx)))
  · simp only [pb9, StableHlo.binary_writes, StableHlo.ternary_writes, Finset.singleton_subset_iff, List.mem_toFinset]
    exact List.mem_map_of_mem (List.mem_append_left _ (List.mem_append_left _ (List.mem_append_right _
      (List.mem_cons_self))))
  · simp only [pt9, StableHlo.binary_writes, StableHlo.ternary_writes, Finset.singleton_subset_iff, List.mem_toFinset]
    exact List.mem_map_of_mem (List.mem_append_left _ (List.mem_append_left _ (List.mem_append_right _
      (List.mem_cons_of_mem _ (List.mem_singleton.mpr rfl)))))
  · exact writes_mono hostOps10_writes fun x hx => List.mem_append_left _ (List.mem_append_right _ hx)
  · exact writes_mono hostOps10_1_writes fun x hx => List.mem_append_right _ hx

/-- An array walk step 5 does not write holds after it what it held before. -/
theorem Kit4_keeps (V : Valuation τ sig (Elt Ideal)) {r : Ref sig .tc} (hr : r ∉ Kit4_W) :
    StableHlo.after Kit4 V (Proc.devRef .tc r) = V (Proc.devRef .tc r) :=
  StableHlo.after_of_writes_sub Kit4 V Kit4_writes hr

/-- The arrays walk step 6 writes. -/
abbrev Kit5_W : List (Ref sig .tc) := [main_v246] ++ hostOps11_W ++ [main_v261_0, main_v261_1] ++ hostOps12_W ++ hostOps12_1_W

theorem Kit5_writes : Kit5.Forall fun op => op.writes ⊆ (Kit5_W.map (Proc.devRef (τ := τ) .tc)).toFinset := by
  refine (List.forall_cons _ _ _).mpr ⟨?_, List.forall_append.mpr ⟨?_, (List.forall_cons _ _ _).mpr ⟨?_,
    (List.forall_cons _ _ _).mpr ⟨?_, List.forall_append.mpr ⟨?_, ?_⟩⟩⟩⟩⟩
  · simp only [pmm10, StableHlo.binary_writes, StableHlo.ternary_writes, Finset.singleton_subset_iff, List.mem_toFinset]
    exact List.mem_map_of_mem (List.mem_append_left _ (List.mem_append_left _ (List.mem_append_left _
      (List.mem_append_left _ (List.mem_singleton.mpr rfl)))))
  · exact writes_mono hostOps11_writes fun x hx => List.mem_append_left _ (List.mem_append_left _ (List.mem_append_left _
      (List.mem_append_right _ hx)))
  · simp only [pb11, StableHlo.binary_writes, StableHlo.ternary_writes, Finset.singleton_subset_iff, List.mem_toFinset]
    exact List.mem_map_of_mem (List.mem_append_left _ (List.mem_append_left _ (List.mem_append_right _
      (List.mem_cons_self))))
  · simp only [pt11, StableHlo.binary_writes, StableHlo.ternary_writes, Finset.singleton_subset_iff, List.mem_toFinset]
    exact List.mem_map_of_mem (List.mem_append_left _ (List.mem_append_left _ (List.mem_append_right _
      (List.mem_cons_of_mem _ (List.mem_singleton.mpr rfl)))))
  · exact writes_mono hostOps12_writes fun x hx => List.mem_append_left _ (List.mem_append_right _ hx)
  · exact writes_mono hostOps12_1_writes fun x hx => List.mem_append_right _ hx

/-- An array walk step 6 does not write holds after it what it held before. -/
theorem Kit5_keeps (V : Valuation τ sig (Elt Ideal)) {r : Ref sig .tc} (hr : r ∉ Kit5_W) :
    StableHlo.after Kit5 V (Proc.devRef .tc r) = V (Proc.devRef .tc r) :=
  StableHlo.after_of_writes_sub Kit5 V Kit5_writes hr

/-- The arrays walk step 7 writes. -/
abbrev Kit6_W : List (Ref sig .tc) := [main_v282] ++ hostOps13_W ++ [main_v297_0, main_v297_1] ++ hostOps14_W ++ hostOps14_1_W

theorem Kit6_writes : Kit6.Forall fun op => op.writes ⊆ (Kit6_W.map (Proc.devRef (τ := τ) .tc)).toFinset := by
  refine (List.forall_cons _ _ _).mpr ⟨?_, List.forall_append.mpr ⟨?_, (List.forall_cons _ _ _).mpr ⟨?_,
    (List.forall_cons _ _ _).mpr ⟨?_, List.forall_append.mpr ⟨?_, ?_⟩⟩⟩⟩⟩
  · simp only [pmm12, StableHlo.binary_writes, StableHlo.ternary_writes, Finset.singleton_subset_iff, List.mem_toFinset]
    exact List.mem_map_of_mem (List.mem_append_left _ (List.mem_append_left _ (List.mem_append_left _
      (List.mem_append_left _ (List.mem_singleton.mpr rfl)))))
  · exact writes_mono hostOps13_writes fun x hx => List.mem_append_left _ (List.mem_append_left _ (List.mem_append_left _
      (List.mem_append_right _ hx)))
  · simp only [pb13, StableHlo.binary_writes, StableHlo.ternary_writes, Finset.singleton_subset_iff, List.mem_toFinset]
    exact List.mem_map_of_mem (List.mem_append_left _ (List.mem_append_left _ (List.mem_append_right _
      (List.mem_cons_self))))
  · simp only [pt13, StableHlo.binary_writes, StableHlo.ternary_writes, Finset.singleton_subset_iff, List.mem_toFinset]
    exact List.mem_map_of_mem (List.mem_append_left _ (List.mem_append_left _ (List.mem_append_right _
      (List.mem_cons_of_mem _ (List.mem_singleton.mpr rfl)))))
  · exact writes_mono hostOps14_writes fun x hx => List.mem_append_left _ (List.mem_append_right _ hx)
  · exact writes_mono hostOps14_1_writes fun x hx => List.mem_append_right _ hx

/-- An array walk step 7 does not write holds after it what it held before. -/
theorem Kit6_keeps (V : Valuation τ sig (Elt Ideal)) {r : Ref sig .tc} (hr : r ∉ Kit6_W) :
    StableHlo.after Kit6 V (Proc.devRef .tc r) = V (Proc.devRef .tc r) :=
  StableHlo.after_of_writes_sub Kit6 V Kit6_writes hr

/-- The arrays the readout writes. -/
abbrev Ktail_W : List (Ref sig .tc) := hostOps14_2_W ++ hostOps14_3_W ++ hostOps14_4_W ++ hostOps14_5_W ++ hostOps14_6_W

theorem Ktail_writes : Ktail.Forall fun op => op.writes ⊆ (Ktail_W.map (Proc.devRef (τ := τ) .tc)).toFinset := by
  refine List.forall_append.mpr ⟨?_, List.forall_append.mpr ⟨?_, List.forall_append.mpr ⟨?_, List.forall_append.mpr ⟨?_, ?_⟩⟩⟩⟩
  · exact writes_mono hostOps14_2_writes fun x hx => List.mem_append_left _ (List.mem_append_left _ (List.mem_append_left _
      (List.mem_append_left _ hx)))
  · exact writes_mono hostOps14_3_writes fun x hx => List.mem_append_left _ (List.mem_append_left _ (List.mem_append_left _
      (List.mem_append_right _ hx)))
  · exact writes_mono hostOps14_4_writes fun x hx => List.mem_append_left _ (List.mem_append_left _ (List.mem_append_right _ hx))
  · exact writes_mono hostOps14_5_writes fun x hx => List.mem_append_left _ (List.mem_append_right _ hx)
  · exact writes_mono hostOps14_6_writes fun x hx => List.mem_append_right _ hx

/-- An array the readout does not write holds after it what it held before. -/
theorem Ktail_keeps (V : Valuation τ sig (Elt Ideal)) {r : Ref sig .tc} (hr : r ∉ Ktail_W) :
    StableHlo.after Ktail V (Proc.devRef .tc r) = V (Proc.devRef .tc r) :=
  StableHlo.after_of_writes_sub Ktail V Ktail_writes hr

end Cert.KernelIdeal.KV

end
-- ==== Proof.RefChunksPro.lean ====
/- Operations 0 … 79 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 0 … 79 of @main (80): the shared first part: both graphs' edge lists with the self loops appended, degrees and edge weights. -/
abbrev Rpro : List (HloOp τ sig (Elt F)) :=
  [ StableHlo.nullary main_v0 (iotaInDim S32768 32 0),
    StableHlo.unary main_arg3 main_v1 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v1 main_v2 rfl shapeCasts_S1x524288_S524288,
    StableHlo.binary main_v2 main_v0 main_v3 ((fun a b => concatenate S557056 0 [⟨S524288, a⟩, ⟨S32768, b⟩] concatenates_S524288_S32768_S557056_d0) : (⟨S524288, .i32⟩ : BufTy).Contents (Elt F) → (⟨S32768, .i32⟩ : BufTy).Contents (Elt F) → (⟨S557056, .i32⟩ : BufTy).Contents (Elt F)),
    StableHlo.unary main_arg3 main_v4 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v4 main_v5 rfl shapeCasts_S1x524288_S524288,
    StableHlo.binary main_v5 main_v0 main_v6 ((fun a b => concatenate S557056 0 [⟨S524288, a⟩, ⟨S32768, b⟩] concatenates_S524288_S32768_S557056_d0) : (⟨S524288, .i32⟩ : BufTy).Contents (Elt F) → (⟨S32768, .i32⟩ : BufTy).Contents (Elt F) → (⟨S557056, .i32⟩ : BufTy).Contents (Elt F)),
    StableHlo.nullary main_cst (constant S_ .f32 0x3F800000#32),
    StableHlo.unary main_cst main_v7 (broadcastInDim S557056 ![] bcast_S_S557056 : (⟨S_, .f32⟩ : BufTy).Contents (Elt F) → (⟨S557056, .f32⟩ : BufTy).Contents (Elt F)),
    StableHlo.nullary main_cst_0 (constant S_ .f32 0x00000000#32),
    StableHlo.unary main_cst_0 main_v8 (broadcastInDim S32768 ![] bcast_S_S32768 : (⟨S_, .f32⟩ : BufTy).Contents (Elt F) → (⟨S32768, .f32⟩ : BufTy).Contents (Elt F)),
    StableHlo.unary main_v6 main_v9 (broadcastInDim S557056x1 ![0] bcast_S557056_S557056x1_0 : (⟨S557056, .i32⟩ : BufTy).Contents (Elt F) → (⟨S557056x1, .i32⟩ : BufTy).Contents (Elt F)),
    StableHlo.ternary main_v8 main_v9 main_v7 main_v10 ((fun x i u => Host.scatterAdd scatter_S32768_S557056x1_S557056_n_0_0_1 x i u) : (⟨S32768, .f32⟩ : BufTy).Contents (Elt F) → (⟨S557056x1, .i32⟩ : BufTy).Contents (Elt F) → (⟨S557056, .f32⟩ : BufTy).Contents (Elt F) → (⟨S32768, .f32⟩ : BufTy).Contents (Elt F)),
    StableHlo.nullary main_cst_1 (constant S_ .f32 0x00000000#32),
    StableHlo.unary main_cst_1 main_v11 (broadcastInDim S32768 ![] bcast_S_S32768 : (⟨S_, .f32⟩ : BufTy).Contents (Elt F) → (⟨S32768, .f32⟩ : BufTy).Contents (Elt F)),
    StableHlo.binary main_v10 main_v11 main_v12 (cmpf .ogt : (⟨S32768, .f32⟩ : BufTy).Contents (Elt F) → (⟨S32768, .f32⟩ : BufTy).Contents (Elt F) → (⟨S32768, .i1⟩ : BufTy).Contents (Elt F)),
    StableHlo.unary main_v10 main_v13 (Host.rsqrt : (⟨S32768, .f32⟩ : BufTy).Contents (Elt F) → (⟨S32768, .f32⟩ : BufTy).Contents (Elt F)),
    StableHlo.nullary main_cst_2 (constant S_ .f32 0x00000000#32),
    StableHlo.TRef.unary ((.of main_cst_2) : StableHlo.TRef sig ⟨S_, .f32⟩) main_call0.v0 id,
    StableHlo.TRef.unary main_call0.v0 main_call0.v1 (broadcastInDim S32768 ![] bcast_S_S32768),
    StableHlo.TRef.ternary ((.of main_v12) : StableHlo.TRef sig ⟨S32768, .i1⟩) ((.of main_v13) : StableHlo.TRef sig ⟨S32768, .f32⟩) main_call0.v1 main_call0.v2 select,
    StableHlo.nullary main_c (constantI S_ 32 0#32),
    StableHlo.unary main_c main_v15 (broadcastInDim S557056 ![] bcast_S_S557056 : (⟨S_, .i32⟩ : BufTy).Contents (Elt F) → (⟨S557056, .i32⟩ : BufTy).Contents (Elt F)),
    StableHlo.binary main_v3 main_v15 main_v16 (cmpi .slt : (⟨S557056, .i32⟩ : BufTy).Contents (Elt F) → (⟨S557056, .i32⟩ : BufTy).Contents (Elt F) → (⟨S557056, .i1⟩ : BufTy).Contents (Elt F)),
    StableHlo.nullary main_c_3 (constantI S_ 32 32768#32),
    StableHlo.unary main_c_3 main_v17 (broadcastInDim S557056 ![] bcast_S_S557056 : (⟨S_, .i32⟩ : BufTy).Contents (Elt F) → (⟨S557056, .i32⟩ : BufTy).Contents (Elt F)),
    StableHlo.binary main_v3 main_v17 main_v18 (addi : (⟨S557056, .i32⟩ : BufTy).Contents (Elt F) → (⟨S557056, .i32⟩ : BufTy).Contents (Elt F) → (⟨S557056, .i32⟩ : BufTy).Contents (Elt F)),
    StableHlo.ternary main_v16 main_v18 main_v3 main_v19 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v19 main_v20 (broadcastInDim S557056x1 ![0] bcast_S557056_S557056x1_0 : (⟨S557056, .i32⟩ : BufTy).Contents (Elt F) → (⟨S557056x1, .i32⟩ : BufTy).Contents (Elt F)),
    StableHlo.binary main_v14 main_v20 main_v21 ((fun x i => Host.gather gather_S32768_S557056x1_S557056_n_0_n_n_0_1_1 x i) : (⟨S32768, .f32⟩ : BufTy).Contents (Elt F) → (⟨S557056x1, .i32⟩ : BufTy).Contents (Elt F) → (⟨S557056, .f32⟩ : BufTy).Contents (Elt F)),
    StableHlo.nullary main_c_4 (constantI S_ 32 0#32),
    StableHlo.unary main_c_4 main_v22 (broadcastInDim S557056 ![] bcast_S_S557056 : (⟨S_, .i32⟩ : BufTy).Contents (Elt F) → (⟨S557056, .i32⟩ : BufTy).Contents (Elt F)),
    StableHlo.binary main_v6 main_v22 main_v23 (cmpi .slt : (⟨S557056, .i32⟩ : BufTy).Contents (Elt F) → (⟨S557056, .i32⟩ : BufTy).Contents (Elt F) → (⟨S557056, .i1⟩ : BufTy).Contents (Elt F)),
    StableHlo.nullary main_c_5 (constantI S_ 32 32768#32),
    StableHlo.unary main_c_5 main_v24 (broadcastInDim S557056 ![] bcast_S_S557056 : (⟨S_, .i32⟩ : BufTy).Contents (Elt F) → (⟨S557056, .i32⟩ : BufTy).Contents (Elt F)),
    StableHlo.binary main_v6 main_v24 main_v25 (addi : (⟨S557056, .i32⟩ : BufTy).Contents (Elt F) → (⟨S557056, .i32⟩ : BufTy).Contents (Elt F) → (⟨S557056, .i32⟩ : BufTy).Contents (Elt F)),
    StableHlo.ternary main_v23 main_v25 main_v6 main_v26 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v26 main_v27 (broadcastInDim S557056x1 ![0] bcast_S557056_S557056x1_0 : (⟨S557056, .i32⟩ : BufTy).Contents (Elt F) → (⟨S557056x1, .i32⟩ : BufTy).Contents (Elt F)),
    StableHlo.binary main_v14 main_v27 main_v28 ((fun x i => Host.gather gather_S32768_S557056x1_S557056_n_0_n_n_0_1_1 x i) : (⟨S32768, .f32⟩ : BufTy).Contents (Elt F) → (⟨S557056x1, .i32⟩ : BufTy).Contents (Elt F) → (⟨S557056, .f32⟩ : BufTy).Contents (Elt F)),
    StableHlo.binary main_v21 main_v28 main_v29 (mulf : (⟨S557056, .f32⟩ : BufTy).Contents (Elt F) → (⟨S557056, .f32⟩ : BufTy).Contents (Elt F) → (⟨S557056, .f32⟩ : BufTy).Contents (Elt F)),
    StableHlo.nullary main_v30 (iotaInDim S128 32 0),
    StableHlo.unary main_arg4 main_v31 ((extractStridedSlice S1x2048 ![0, 0] · slices_S2x2048_S1x2048_0_0) : (⟨S2x2048, .i32⟩ : BufTy).Contents (Elt F) → (⟨S1x2048, .i32⟩ : BufTy).Contents (Elt F)),
    StableHlo.reshape main_v31 main_v32 rfl shapeCasts_S1x2048_S2048,
    StableHlo.binary main_v32 main_v30 main_v33 ((fun a b => concatenate S2176 0 [⟨S2048, a⟩, ⟨S128, b⟩] concatenates_S2048_S128_S2176_d0) : (⟨S2048, .i32⟩ : BufTy).Contents (Elt F) → (⟨S128, .i32⟩ : BufTy).Contents (Elt F) → (⟨S2176, .i32⟩ : BufTy).Contents (Elt F)),
    StableHlo.unary main_arg4 main_v34 ((extractStridedSlice S1x2048 ![1, 0] · slices_S2x2048_S1x2048_1_0) : (⟨S2x2048, .i32⟩ : BufTy).Contents (Elt F) → (⟨S1x2048, .i32⟩ : BufTy).Contents (Elt F)),
    StableHlo.reshape main_v34 main_v35 rfl shapeCasts_S1x2048_S2048,
    StableHlo.binary main_v35 main_v30 main_v36 ((fun a b => concatenate S2176 0 [⟨S2048, a⟩, ⟨S128, b⟩] concatenates_S2048_S128_S2176_d0) : (⟨S2048, .i32⟩ : BufTy).Contents (Elt F) → (⟨S128, .i32⟩ : BufTy).Contents (Elt F) → (⟨S2176, .i32⟩ : BufTy).Contents (Elt F)),
    StableHlo.nullary main_cst_6 (constant S_ .f32 0x3F800000#32),
    StableHlo.unary main_cst_6 main_v37 (broadcastInDim S2176 ![] bcast_S_S2176 : (⟨S_, .f32⟩ : BufTy).Contents (Elt F) → (⟨S2176, .f32⟩ : BufTy).Contents (Elt F)),
    StableHlo.nullary main_cst_7 (constant S_ .f32 0x00000000#32),
    StableHlo.unary main_cst_7 main_v38 (broadcastInDim S128 ![] bcast_S_S128 : (⟨S_, .f32⟩ : BufTy).Contents (Elt F) → (⟨S128, .f32⟩ : BufTy).Contents (Elt F)),
    StableHlo.unary main_v36 main_v39 (broadcastInDim S2176x1 ![0] bcast_S2176_S2176x1_0 : (⟨S2176, .i32⟩ : BufTy).Contents (Elt F) → (⟨S2176x1, .i32⟩ : BufTy).Contents (Elt F)),
    StableHlo.ternary main_v38 main_v39 main_v37 main_v40 ((fun x i u => Host.scatterAdd scatter_S128_S2176x1_S2176_n_0_0_1 x i u) : (⟨S128, .f32⟩ : BufTy).Contents (Elt F) → (⟨S2176x1, .i32⟩ : BufTy).Contents (Elt F) → (⟨S2176, .f32⟩ : BufTy).Contents (Elt F) → (⟨S128, .f32⟩ : BufTy).Contents (Elt F)),
    StableHlo.nullary main_cst_8 (constant S_ .f32 0x00000000#32),
    StableHlo.unary main_cst_8 main_v41 (broadcastInDim S128 ![] bcast_S_S128 : (⟨S_, .f32⟩ : BufTy).Contents (Elt F) → (⟨S128, .f32⟩ : BufTy).Contents (Elt F)),
    StableHlo.binary main_v40 main_v41 main_v42 (cmpf .ogt : (⟨S128, .f32⟩ : BufTy).Contents (Elt F) → (⟨S128, .f32⟩ : BufTy).Contents (Elt F) → (⟨S128, .i1⟩ : BufTy).Contents (Elt F)),
    StableHlo.unary main_v40 main_v43 (Host.rsqrt : (⟨S128, .f32⟩ : BufTy).Contents (Elt F) → (⟨S128, .f32⟩ : BufTy).Contents (Elt F)),
    StableHlo.nullary main_cst_9 (constant S_ .f32 0x00000000#32),
    StableHlo.TRef.unary ((.of main_cst_9) : StableHlo.TRef sig ⟨S_, .f32⟩) main_call1.v0 id,
    StableHlo.TRef.unary main_call1.v0 main_call1.v1 (broadcastInDim S128 ![] bcast_S_S128),
    StableHlo.TRef.ternary ((.of main_v42) : StableHlo.TRef sig ⟨S128, .i1⟩) ((.of main_v43) : StableHlo.TRef sig ⟨S128, .f32⟩) main_call1.v1 main_call1.v2 select,
    StableHlo.nullary main_c_10 (constantI S_ 32 0#32),
    StableHlo.unary main_c_10 main_v45 (broadcastInDim S2176 ![] bcast_S_S2176 : (⟨S_, .i32⟩ : BufTy).Contents (Elt F) → (⟨S2176, .i32⟩ : BufTy).Contents (Elt F)),
    StableHlo.binary main_v33 main_v45 main_v46 (cmpi .slt : (⟨S2176, .i32⟩ : BufTy).Contents (Elt F) → (⟨S2176, .i32⟩ : BufTy).Contents (Elt F) → (⟨S2176, .i1⟩ : BufTy).Contents (Elt F)),
    StableHlo.nullary main_c_11 (constantI S_ 32 128#32),
    StableHlo.unary main_c_11 main_v47 (broadcastInDim S2176 ![] bcast_S_S2176 : (⟨S_, .i32⟩ : BufTy).Contents (Elt F) → (⟨S2176, .i32⟩ : BufTy).Contents (Elt F)),
    StableHlo.binary main_v33 main_v47 main_v48 (addi : (⟨S2176, .i32⟩ : BufTy).Contents (Elt F) → (⟨S2176, .i32⟩ : BufTy).Contents (Elt F) → (⟨S2176, .i32⟩ : BufTy).Contents (Elt F)),
    StableHlo.ternary main_v46 main_v48 main_v33 main_v49 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v49 main_v50 (broadcastInDim S2176x1 ![0] bcast_S2176_S2176x1_0 : (⟨S2176, .i32⟩ : BufTy).Contents (Elt F) → (⟨S2176x1, .i32⟩ : BufTy).Contents (Elt F)),
    StableHlo.binary main_v44 main_v50 main_v51 ((fun x i => Host.gather gather_S128_S2176x1_S2176_n_0_n_n_0_1_1 x i) : (⟨S128, .f32⟩ : BufTy).Contents (Elt F) → (⟨S2176x1, .i32⟩ : BufTy).Contents (Elt F) → (⟨S2176, .f32⟩ : BufTy).Contents (Elt F)),
    StableHlo.nullary main_c_12 (constantI S_ 32 0#32),
    StableHlo.unary main_c_12 main_v52 (broadcastInDim S2176 ![] bcast_S_S2176 : (⟨S_, .i32⟩ : BufTy).Contents (Elt F) → (⟨S2176, .i32⟩ : BufTy).Contents (Elt F)),
    StableHlo.binary main_v36 main_v52 main_v53 (cmpi .slt : (⟨S2176, .i32⟩ : BufTy).Contents (Elt F) → (⟨S2176, .i32⟩ : BufTy).Contents (Elt F) → (⟨S2176, .i1⟩ : BufTy).Contents (Elt F)),
    StableHlo.nullary main_c_13 (constantI S_ 32 128#32),
    StableHlo.unary main_c_13 main_v54 (broadcastInDim S2176 ![] bcast_S_S2176 : (⟨S_, .i32⟩ : BufTy).Contents (Elt F) → (⟨S2176, .i32⟩ : BufTy).Contents (Elt F)),
    StableHlo.binary main_v36 main_v54 main_v55 (addi : (⟨S2176, .i32⟩ : BufTy).Contents (Elt F) → (⟨S2176, .i32⟩ : BufTy).Contents (Elt F) → (⟨S2176, .i32⟩ : BufTy).Contents (Elt F)),
    StableHlo.ternary main_v53 main_v55 main_v36 main_v56 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v56 main_v57 (broadcastInDim S2176x1 ![0] bcast_S2176_S2176x1_0 : (⟨S2176, .i32⟩ : BufTy).Contents (Elt F) → (⟨S2176x1, .i32⟩ : BufTy).Contents (Elt F)),
    StableHlo.binary main_v44 main_v57 main_v58 ((fun x i => Host.gather gather_S128_S2176x1_S2176_n_0_n_n_0_1_1 x i) : (⟨S128, .f32⟩ : BufTy).Contents (Elt F) → (⟨S2176x1, .i32⟩ : BufTy).Contents (Elt F) → (⟨S2176, .f32⟩ : BufTy).Contents (Elt F)),
    StableHlo.binary main_v51 main_v58 main_v59 (mulf : (⟨S2176, .f32⟩ : BufTy).Contents (Elt F) → (⟨S2176, .f32⟩ : BufTy).Contents (Elt F) → (⟨S2176, .f32⟩ : BufTy).Contents (Elt F)) ]

/-- The buffers they write, in order. -/
abbrev RproW : List (Ref sig .tc) :=
  [ main_v0, main_v1, main_v2, main_v3, main_v4, main_v5, main_v6, main_cst,
    main_v7, main_cst_0, main_v8, main_v9, main_v10, main_cst_1, main_v11, main_v12,
    main_v13, main_cst_2, main_call0.v0.ref, main_call0.v1.ref, main_call0.v2.ref, main_c, main_v15, main_v16,
    main_c_3, main_v17, main_v18, main_v19, main_v20, main_v21, main_c_4, main_v22,
    main_v23, main_c_5, main_v24, main_v25, main_v26, main_v27, main_v28, main_v29,
    main_v30, main_v31, main_v32, main_v33, main_v34, main_v35, main_v36, main_cst_6,
    main_v37, main_cst_7, main_v38, main_v39, main_v40, main_cst_8, main_v41, main_v42,
    main_v43, main_cst_9, main_call1.v0.ref, main_call1.v1.ref, main_call1.v2.ref, main_c_10, main_v45, main_v46,
    main_c_11, main_v47, main_v48, main_v49, main_v50, main_v51, main_c_12, main_v52,
    main_v53, main_c_13, main_v54, main_v55, main_v56, main_v57, main_v58, main_v59 ]

/-- Each writes one buffer, of `RproW`. -/
theorem Rpro_writes : (Rpro : List (HloOp τ sig (Elt F))).Forall fun op =>
    op.writes ⊆ (RproW.map (Proc.devRef (τ := τ) .tc)).toFinset :=
  ⟨writes_sub_of_eq (nullary_writes ..) (by decide), writes_sub_of_eq (unary_writes ..) (by decide), writes_sub_of_eq (reshape_writes ..) (by decide),
    writes_sub_of_eq (binary_writes ..) (by decide), writes_sub_of_eq (unary_writes ..) (by decide), writes_sub_of_eq (reshape_writes ..) (by decide),
    writes_sub_of_eq (binary_writes ..) (by decide), writes_sub_of_eq (nullary_writes ..) (by decide), writes_sub_of_eq (unary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (nullary_writes ..) (by decide), writes_sub_of_eq (unary_writes ..) (by decide),
    writes_sub_of_eq (binary_writes ..) (by decide), writes_sub_of_eq (unary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (reshape_writes ..) (by decide), writes_sub_of_eq (binary_writes ..) (by decide), writes_sub_of_eq (unary_writes ..) (by decide),
    writes_sub_of_eq (reshape_writes ..) (by decide), writes_sub_of_eq (binary_writes ..) (by decide), writes_sub_of_eq (nullary_writes ..) (by decide),
    writes_sub_of_eq (unary_writes ..) (by decide), writes_sub_of_eq (nullary_writes ..) (by decide), writes_sub_of_eq (unary_writes ..) (by decide),
    writes_sub_of_eq (unary_writes ..) (by decide), writes_sub_of_eq (ternary_writes ..) (by decide), writes_sub_of_eq (nullary_writes ..) (by decide),
    writes_sub_of_eq (unary_writes ..) (by decide), writes_sub_of_eq (binary_writes ..) (by decide), writes_sub_of_eq (unary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (binary_writes ..) (by decide)⟩

/-- A buffer outside `RproW` keeps its contents through them. -/
theorem Rpro_keeps (V : Valuation τ sig (Elt F)) {r : Ref sig .tc} (hr : r ∉ RproW) :
    after Rpro V (Proc.devRef .tc r) = V (Proc.devRef .tc r) :=
  after_of_writes_sub Rpro V Rpro_writes hr

end Cert.ReferenceIdeal.RR

end
-- ==== Proof.RefChunksS0.lean ====
/- Operations 80 … 140 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 80 … 140 of @main (61): layer 1: on each graph the product with the weights, the gather along the edges, the scaling, the scatter-add and the bias; the small graph's trace; the large graph's blocks' diagonal sums. -/
abbrev Rit0 : List (HloOp τ sig (Elt F)) :=
  [ StableHlo.binary main_arg0 main_arg5 main_v60 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_14 (constantI S_ 32 0#32),
    StableHlo.unary main_c_14 main_v61 (broadcastInDim S557056 ![] bcast_S_S557056 : (⟨S_, .i32⟩ : BufTy).Contents (Elt F) → (⟨S557056, .i32⟩ : BufTy).Contents (Elt F)),
    StableHlo.binary main_v3 main_v61 main_v62 (cmpi .slt : (⟨S557056, .i32⟩ : BufTy).Contents (Elt F) → (⟨S557056, .i32⟩ : BufTy).Contents (Elt F) → (⟨S557056, .i1⟩ : BufTy).Contents (Elt F)),
    StableHlo.nullary main_c_15 (constantI S_ 32 32768#32),
    StableHlo.unary main_c_15 main_v63 (broadcastInDim S557056 ![] bcast_S_S557056 : (⟨S_, .i32⟩ : BufTy).Contents (Elt F) → (⟨S557056, .i32⟩ : BufTy).Contents (Elt F)),
    StableHlo.binary main_v3 main_v63 main_v64 (addi : (⟨S557056, .i32⟩ : BufTy).Contents (Elt F) → (⟨S557056, .i32⟩ : BufTy).Contents (Elt F) → (⟨S557056, .i32⟩ : BufTy).Contents (Elt F)),
    StableHlo.ternary main_v62 main_v64 main_v3 main_v65 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v65 main_v66 (broadcastInDim S557056x1 ![0] bcast_S557056_S557056x1_0 : (⟨S557056, .i32⟩ : BufTy).Contents (Elt F) → (⟨S557056x1, .i32⟩ : BufTy).Contents (Elt F)),
    StableHlo.binary main_v60 main_v66 main_v67 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v68 (broadcastInDim S557056x1 ![0] bcast_S557056_S557056x1_0 : (⟨S557056, .f32⟩ : BufTy).Contents (Elt F) → (⟨S557056x1, .f32⟩ : BufTy).Contents (Elt F)),
    StableHlo.unary main_v68 main_v69 (broadcastInDim S557056x128 ![0, 1] bcast_S557056x1_S557056x128_0_1 : (⟨S557056x1, .f32⟩ : BufTy).Contents (Elt F) → (⟨S557056x128, .f32⟩ : BufTy).Contents (Elt F)),
    StableHlo.binary main_v67 main_v69 main_v70 (mulf : (⟨S557056x128, .f32⟩ : BufTy).Contents (Elt F) → (⟨S557056x128, .f32⟩ : BufTy).Contents (Elt F) → (⟨S557056x128, .f32⟩ : BufTy).Contents (Elt F)),
    StableHlo.nullary main_cst_16 (constant S_ .f32 0x00000000#32),
    StableHlo.unary main_cst_16 main_v71 (broadcastInDim S32768x128 ![] bcast_S_S32768x128 : (⟨S_, .f32⟩ : BufTy).Contents (Elt F) → (⟨S32768x128, .f32⟩ : BufTy).Contents (Elt F)),
    StableHlo.unary main_v6 main_v72 (broadcastInDim S557056x1 ![0] bcast_S557056_S557056x1_0 : (⟨S557056, .i32⟩ : BufTy).Contents (Elt F) → (⟨S557056x1, .i32⟩ : BufTy).Contents (Elt F)),
    StableHlo.ternary main_v71 main_v72 main_v70 main_v73 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S32768x128 ![0, 1] bcast_S1x128_S32768x128_0_1 : (⟨S1x128, .f32⟩ : BufTy).Contents (Elt F) → (⟨S32768x128, .f32⟩ : BufTy).Contents (Elt F)),
    StableHlo.binary main_v73 main_v75 main_v76 (addf : (⟨S32768x128, .f32⟩ : BufTy).Contents (Elt F) → (⟨S32768x128, .f32⟩ : BufTy).Contents (Elt F) → (⟨S32768x128, .f32⟩ : BufTy).Contents (Elt F)),
    StableHlo.binary main_arg1 main_arg5 main_v77 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_17 (constantI S_ 32 0#32),
    StableHlo.unary main_c_17 main_v78 (broadcastInDim S2176 ![] bcast_S_S2176 : (⟨S_, .i32⟩ : BufTy).Contents (Elt F) → (⟨S2176, .i32⟩ : BufTy).Contents (Elt F)),
    StableHlo.binary main_v33 main_v78 main_v79 (cmpi .slt : (⟨S2176, .i32⟩ : BufTy).Contents (Elt F) → (⟨S2176, .i32⟩ : BufTy).Contents (Elt F) → (⟨S2176, .i1⟩ : BufTy).Contents (Elt F)),
    StableHlo.nullary main_c_18 (constantI S_ 32 128#32),
    StableHlo.unary main_c_18 main_v80 (broadcastInDim S2176 ![] bcast_S_S2176 : (⟨S_, .i32⟩ : BufTy).Contents (Elt F) → (⟨S2176, .i32⟩ : BufTy).Contents (Elt F)),
    StableHlo.binary main_v33 main_v80 main_v81 (addi : (⟨S2176, .i32⟩ : BufTy).Contents (Elt F) → (⟨S2176, .i32⟩ : BufTy).Contents (Elt F) → (⟨S2176, .i32⟩ : BufTy).Contents (Elt F)),
    StableHlo.ternary main_v79 main_v81 main_v33 main_v82 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v82 main_v83 (broadcastInDim S2176x1 ![0] bcast_S2176_S2176x1_0 : (⟨S2176, .i32⟩ : BufTy).Contents (Elt F) → (⟨S2176x1, .i32⟩ : BufTy).Contents (Elt F)),
    StableHlo.binary main_v77 main_v83 main_v84 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v85 (broadcastInDim S2176x1 ![0] bcast_S2176_S2176x1_0 : (⟨S2176, .f32⟩ : BufTy).Contents (Elt F) → (⟨S2176x1, .f32⟩ : BufTy).Contents (Elt F)),
    StableHlo.unary main_v85 main_v86 (broadcastInDim S2176x128 ![0, 1] bcast_S2176x1_S2176x128_0_1 : (⟨S2176x1, .f32⟩ : BufTy).Contents (Elt F) → (⟨S2176x128, .f32⟩ : BufTy).Contents (Elt F)),
    StableHlo.binary main_v84 main_v86 main_v87 (mulf : (⟨S2176x128, .f32⟩ : BufTy).Contents (Elt F) → (⟨S2176x128, .f32⟩ : BufTy).Contents (Elt F) → (⟨S2176x128, .f32⟩ : BufTy).Contents (Elt F)),
    StableHlo.nullary main_cst_19 (constant S_ .f32 0x00000000#32),
    StableHlo.unary main_cst_19 main_v88 (broadcastInDim S128x128 ![] bcast_S_S128x128 : (⟨S_, .f32⟩ : BufTy).Contents (Elt F) → (⟨S128x128, .f32⟩ : BufTy).Contents (Elt F)),
    StableHlo.unary main_v36 main_v89 (broadcastInDim S2176x1 ![0] bcast_S2176_S2176x1_0 : (⟨S2176, .i32⟩ : BufTy).Contents (Elt F) → (⟨S2176x1, .i32⟩ : BufTy).Contents (Elt F)),
    StableHlo.ternary main_v88 main_v89 main_v87 main_v90 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S128x128 ![0, 1] bcast_S1x128_S128x128_0_1 : (⟨S1x128, .f32⟩ : BufTy).Contents (Elt F) → (⟨S128x128, .f32⟩ : BufTy).Contents (Elt F)),
    StableHlo.binary main_v90 main_v92 main_v93 (addf : (⟨S128x128, .f32⟩ : BufTy).Contents (Elt F) → (⟨S128x128, .f32⟩ : BufTy).Contents (Elt F) → (⟨S128x128, .f32⟩ : BufTy).Contents (Elt F)),
    StableHlo.TRef.nullary main_call2.v0 (iotaInDim S128x128 32 0),
    StableHlo.TRef.nullary main_call2.v1 (iotaInDim S128x128 32 1),
    StableHlo.TRef.nullary main_call2.c (constantI S_ 32 0#32),
    StableHlo.TRef.unary main_call2.c main_call2.v2 (broadcastInDim S128x128 ![] bcast_S_S128x128),
    StableHlo.TRef.binary main_call2.v0 main_call2.v2 main_call2.v3 addi,
    StableHlo.TRef.binary main_call2.v3 main_call2.v1 main_call2.v4 (cmpi .eq),
    StableHlo.TRef.nullary main_call2.cst (constant S_ .f32 0x00000000#32),
    StableHlo.TRef.unary main_call2.cst main_call2.v5 (broadcastInDim S128x128 ![] bcast_S_S128x128),
    StableHlo.TRef.ternary main_call2.v4 ((.of main_v93) : StableHlo.TRef sig ⟨S128x128, .f32⟩) main_call2.v5 main_call2.call0.v0 select,
    StableHlo.TRef.nullary main_call2.cst_0 (constant S_ .f32 0x00000000#32),
    StableHlo.TRef.binary main_call2.call0.v0 main_call2.cst_0 main_call2.v7 (fun x v => Host.reduceAdd x v reducesTo_S128x128_S_d0_1 h_S_),
    StableHlo.reshape main_v76 main_v95 rfl shapeCasts_S32768x128_S256x128x128,
    StableHlo.nullary main_v96 (iotaInDim S128x128 32 0),
    StableHlo.nullary main_v97 (iotaInDim S128x128 32 1),
    StableHlo.binary main_v96 main_v97 main_v98 (cmpi .eq : (⟨S128x128, .i32⟩ : BufTy).Contents (Elt F) → (⟨S128x128, .i32⟩ : BufTy).Contents (Elt F) → (⟨S128x128, .i1⟩ : BufTy).Contents (Elt F)),
    StableHlo.unary main_v98 main_v99 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_20 (constant S_ .f32 0x00000000#32),
    StableHlo.unary main_cst_20 main_v100 (broadcastInDim S256x128x128 ![] bcast_S_S256x128x128 : (⟨S_, .f32⟩ : BufTy).Contents (Elt F) → (⟨S256x128x128, .f32⟩ : BufTy).Contents (Elt F)),
    StableHlo.ternary main_v99 main_v95 main_v100 main_v101 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_21 (constant S_ .f32 0x00000000#32),
    StableHlo.binary main_v101 main_cst_21 main_v102 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)) ]

/-- The buffers they write, in order. -/
abbrev Rit0W : List (Ref sig .tc) :=
  [ main_v60, main_c_14, main_v61, main_v62, main_c_15, main_v63, main_v64, main_v65,
    main_v66, main_v67, main_v68, main_v69, main_v70, main_cst_16, main_v71, main_v72,
    main_v73, main_v74, main_v75, main_v76, main_v77, main_c_17, main_v78, main_v79,
    main_c_18, main_v80, main_v81, main_v82, main_v83, main_v84, main_v85, main_v86,
    main_v87, main_cst_19, main_v88, main_v89, main_v90, main_v91, main_v92, main_v93,
    main_call2.v0.ref, main_call2.v1.ref, main_call2.c.ref, main_call2.v2.ref, main_call2.v3.ref, main_call2.v4.ref, main_call2.cst.ref, main_call2.v5.ref,
    main_call2.call0.v0.ref, main_call2.cst_0.ref, main_call2.v7.ref, main_v95, main_v96, main_v97, main_v98, main_v99,
    main_cst_20, main_v100, main_v101, main_cst_21, main_v102 ]

/-- Each writes one buffer, of `Rit0W`. -/
theorem Rit0_writes : (Rit0 : List (HloOp τ sig (Elt F))).Forall fun op =>
    op.writes ⊆ (Rit0W.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (nullary_writes ..) (by decide), writes_sub_of_eq (nullary_writes ..) (by decide),
    writes_sub_of_eq (nullary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (ternary_writes ..) (by decide), writes_sub_of_eq (nullary_writes ..) (by decide), writes_sub_of_eq (binary_writes ..) (by decide),
    writes_sub_of_eq (reshape_writes ..) (by decide), writes_sub_of_eq (nullary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide)⟩

/-- A buffer outside `Rit0W` keeps its contents through them. -/
theorem Rit0_keeps (V : Valuation τ sig (Elt F)) {r : Ref sig .tc} (hr : r ∉ Rit0W) :
    after Rit0 V (Proc.devRef .tc r) = V (Proc.devRef .tc r) :=
  after_of_writes_sub Rit0 V Rit0_writes hr

end Cert.ReferenceIdeal.RR

end
-- ==== Proof.RefChunksS1.lean ====
/- Operations 141 … 201 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 141 … 201 of @main (61): layer 2: on each graph the product with the weights, the gather along the edges, the scaling, the scatter-add and the bias; the small graph's trace; the large graph's blocks' diagonal sums. -/
abbrev Rit1 : List (HloOp τ sig (Elt F)) :=
  [ StableHlo.binary main_v76 main_arg5 main_v103 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_22 (constantI S_ 32 0#32),
    StableHlo.unary main_c_22 main_v104 (broadcastInDim S557056 ![] bcast_S_S557056 : (⟨S_, .i32⟩ : BufTy).Contents (Elt F) → (⟨S557056, .i32⟩ : BufTy).Contents (Elt F)),
    StableHlo.binary main_v3 main_v104 main_v105 (cmpi .slt : (⟨S557056, .i32⟩ : BufTy).Contents (Elt F) → (⟨S557056, .i32⟩ : BufTy).Contents (Elt F) → (⟨S557056, .i1⟩ : BufTy).Contents (Elt F)),
    StableHlo.nullary main_c_23 (constantI S_ 32 32768#32),
    StableHlo.unary main_c_23 main_v106 (broadcastInDim S557056 ![] bcast_S_S557056 : (⟨S_, .i32⟩ : BufTy).Contents (Elt F) → (⟨S557056, .i32⟩ : BufTy).Contents (Elt F)),
    StableHlo.binary main_v3 main_v106 main_v107 (addi : (⟨S557056, .i32⟩ : BufTy).Contents (Elt F) → (⟨S557056, .i32⟩ : BufTy).Contents (Elt F) → (⟨S557056, .i32⟩ : BufTy).Contents (Elt F)),
    StableHlo.ternary main_v105 main_v107 main_v3 main_v108 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v108 main_v109 (broadcastInDim S557056x1 ![0] bcast_S557056_S557056x1_0 : (⟨S557056, .i32⟩ : BufTy).Contents (Elt F) → (⟨S557056x1, .i32⟩ : BufTy).Contents (Elt F)),
    StableHlo.binary main_v103 main_v109 main_v110 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v111 (broadcastInDim S557056x1 ![0] bcast_S557056_S557056x1_0 : (⟨S557056, .f32⟩ : BufTy).Contents (Elt F) → (⟨S557056x1, .f32⟩ : BufTy).Contents (Elt F)),
    StableHlo.unary main_v111 main_v112 (broadcastInDim S557056x128 ![0, 1] bcast_S557056x1_S557056x128_0_1 : (⟨S557056x1, .f32⟩ : BufTy).Contents (Elt F) → (⟨S557056x128, .f32⟩ : BufTy).Contents (Elt F)),
    StableHlo.binary main_v110 main_v112 main_v113 (mulf : (⟨S557056x128, .f32⟩ : BufTy).Contents (Elt F) → (⟨S557056x128, .f32⟩ : BufTy).Contents (Elt F) → (⟨S557056x128, .f32⟩ : BufTy).Contents (Elt F)),
    StableHlo.nullary main_cst_24 (constant S_ .f32 0x00000000#32),
    StableHlo.unary main_cst_24 main_v114 (broadcastInDim S32768x128 ![] bcast_S_S32768x128 : (⟨S_, .f32⟩ : BufTy).Contents (Elt F) → (⟨S32768x128, .f32⟩ : BufTy).Contents (Elt F)),
    StableHlo.unary main_v6 main_v115 (broadcastInDim S557056x1 ![0] bcast_S557056_S557056x1_0 : (⟨S557056, .i32⟩ : BufTy).Contents (Elt F) → (⟨S557056x1, .i32⟩ : BufTy).Contents (Elt F)),
    StableHlo.ternary main_v114 main_v115 main_v113 main_v116 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S32768x128 ![0, 1] bcast_S1x128_S32768x128_0_1 : (⟨S1x128, .f32⟩ : BufTy).Contents (Elt F) → (⟨S32768x128, .f32⟩ : BufTy).Contents (Elt F)),
    StableHlo.binary main_v116 main_v118 main_v119 (addf : (⟨S32768x128, .f32⟩ : BufTy).Contents (Elt F) → (⟨S32768x128, .f32⟩ : BufTy).Contents (Elt F) → (⟨S32768x128, .f32⟩ : BufTy).Contents (Elt F)),
    StableHlo.binary main_v93 main_arg5 main_v120 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_25 (constantI S_ 32 0#32),
    StableHlo.unary main_c_25 main_v121 (broadcastInDim S2176 ![] bcast_S_S2176 : (⟨S_, .i32⟩ : BufTy).Contents (Elt F) → (⟨S2176, .i32⟩ : BufTy).Contents (Elt F)),
    StableHlo.binary main_v33 main_v121 main_v122 (cmpi .slt : (⟨S2176, .i32⟩ : BufTy).Contents (Elt F) → (⟨S2176, .i32⟩ : BufTy).Contents (Elt F) → (⟨S2176, .i1⟩ : BufTy).Contents (Elt F)),
    StableHlo.nullary main_c_26 (constantI S_ 32 128#32),
    StableHlo.unary main_c_26 main_v123 (broadcastInDim S2176 ![] bcast_S_S2176 : (⟨S_, .i32⟩ : BufTy).Contents (Elt F) → (⟨S2176, .i32⟩ : BufTy).Contents (Elt F)),
    StableHlo.binary main_v33 main_v123 main_v124 (addi : (⟨S2176, .i32⟩ : BufTy).Contents (Elt F) → (⟨S2176, .i32⟩ : BufTy).Contents (Elt F) → (⟨S2176, .i32⟩ : BufTy).Contents (Elt F)),
    StableHlo.ternary main_v122 main_v124 main_v33 main_v125 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v125 main_v126 (broadcastInDim S2176x1 ![0] bcast_S2176_S2176x1_0 : (⟨S2176, .i32⟩ : BufTy).Contents (Elt F) → (⟨S2176x1, .i32⟩ : BufTy).Contents (Elt F)),
    StableHlo.binary main_v120 main_v126 main_v127 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v128 (broadcastInDim S2176x1 ![0] bcast_S2176_S2176x1_0 : (⟨S2176, .f32⟩ : BufTy).Contents (Elt F) → (⟨S2176x1, .f32⟩ : BufTy).Contents (Elt F)),
    StableHlo.unary main_v128 main_v129 (broadcastInDim S2176x128 ![0, 1] bcast_S2176x1_S2176x128_0_1 : (⟨S2176x1, .f32⟩ : BufTy).Contents (Elt F) → (⟨S2176x128, .f32⟩ : BufTy).Contents (Elt F)),
    StableHlo.binary main_v127 main_v129 main_v130 (mulf : (⟨S2176x128, .f32⟩ : BufTy).Contents (Elt F) → (⟨S2176x128, .f32⟩ : BufTy).Contents (Elt F) → (⟨S2176x128, .f32⟩ : BufTy).Contents (Elt F)),
    StableHlo.nullary main_cst_27 (constant S_ .f32 0x00000000#32),
    StableHlo.unary main_cst_27 main_v131 (broadcastInDim S128x128 ![] bcast_S_S128x128 : (⟨S_, .f32⟩ : BufTy).Contents (Elt F) → (⟨S128x128, .f32⟩ : BufTy).Contents (Elt F)),
    StableHlo.unary main_v36 main_v132 (broadcastInDim S2176x1 ![0] bcast_S2176_S2176x1_0 : (⟨S2176, .i32⟩ : BufTy).Contents (Elt F) → (⟨S2176x1, .i32⟩ : BufTy).Contents (Elt F)),
    StableHlo.ternary main_v131 main_v132 main_v130 main_v133 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S128x128 ![0, 1] bcast_S1x128_S128x128_0_1 : (⟨S1x128, .f32⟩ : BufTy).Contents (Elt F) → (⟨S128x128, .f32⟩ : BufTy).Contents (Elt F)),
    StableHlo.binary main_v133 main_v135 main_v136 (addf : (⟨S128x128, .f32⟩ : BufTy).Contents (Elt F) → (⟨S128x128, .f32⟩ : BufTy).Contents (Elt F) → (⟨S128x128, .f32⟩ : BufTy).Contents (Elt F)),
    StableHlo.TRef.nullary main_call3.v0 (iotaInDim S128x128 32 0),
    StableHlo.TRef.nullary main_call3.v1 (iotaInDim S128x128 32 1),
    StableHlo.TRef.nullary main_call3.c (constantI S_ 32 0#32),
    StableHlo.TRef.unary main_call3.c main_call3.v2 (broadcastInDim S128x128 ![] bcast_S_S128x128),
    StableHlo.TRef.binary main_call3.v0 main_call3.v2 main_call3.v3 addi,
    StableHlo.TRef.binary main_call3.v3 main_call3.v1 main_call3.v4 (cmpi .eq),
    StableHlo.TRef.nullary main_call3.cst (constant S_ .f32 0x00000000#32),
    StableHlo.TRef.unary main_call3.cst main_call3.v5 (broadcastInDim S128x128 ![] bcast_S_S128x128),
    StableHlo.TRef.ternary main_call3.v4 ((.of main_v136) : StableHlo.TRef sig ⟨S128x128, .f32⟩) main_call3.v5 main_call3.call0.v0 select,
    StableHlo.TRef.nullary main_call3.cst_0 (constant S_ .f32 0x00000000#32),
    StableHlo.TRef.binary main_call3.call0.v0 main_call3.cst_0 main_call3.v7 (fun x v => Host.reduceAdd x v reducesTo_S128x128_S_d0_1 h_S_),
    StableHlo.reshape main_v119 main_v138 rfl shapeCasts_S32768x128_S256x128x128,
    StableHlo.nullary main_v139 (iotaInDim S128x128 32 0),
    StableHlo.nullary main_v140 (iotaInDim S128x128 32 1),
    StableHlo.binary main_v139 main_v140 main_v141 (cmpi .eq : (⟨S128x128, .i32⟩ : BufTy).Contents (Elt F) → (⟨S128x128, .i32⟩ : BufTy).Contents (Elt F) → (⟨S128x128, .i1⟩ : BufTy).Contents (Elt F)),
    StableHlo.unary main_v141 main_v142 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_28 (constant S_ .f32 0x00000000#32),
    StableHlo.unary main_cst_28 main_v143 (broadcastInDim S256x128x128 ![] bcast_S_S256x128x128 : (⟨S_, .f32⟩ : BufTy).Contents (Elt F) → (⟨S256x128x128, .f32⟩ : BufTy).Contents (Elt F)),
    StableHlo.ternary main_v142 main_v138 main_v143 main_v144 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_29 (constant S_ .f32 0x00000000#32),
    StableHlo.binary main_v144 main_cst_29 main_v145 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)) ]

/-- The buffers they write, in order. -/
abbrev Rit1W : List (Ref sig .tc) :=
  [ main_v103, main_c_22, main_v104, main_v105, main_c_23, main_v106, main_v107, main_v108,
    main_v109, main_v110, main_v111, main_v112, main_v113, main_cst_24, main_v114, main_v115,
    main_v116, main_v117, main_v118, main_v119, main_v120, main_c_25, main_v121, main_v122,
    main_c_26, main_v123, main_v124, main_v125, main_v126, main_v127, main_v128, main_v129,
    main_v130, main_cst_27, main_v131, main_v132, main_v133, main_v134, main_v135, main_v136,
    main_call3.v0.ref, main_call3.v1.ref, main_call3.c.ref, main_call3.v2.ref, main_call3.v3.ref, main_call3.v4.ref, main_call3.cst.ref, main_call3.v5.ref,
    main_call3.call0.v0.ref, main_call3.cst_0.ref, main_call3.v7.ref, main_v138, main_v139, main_v140, main_v141, main_v142,
    main_cst_28, main_v143, main_v144, main_cst_29, main_v145 ]

/-- Each writes one buffer, of `Rit1W`. -/
theorem Rit1_writes : (Rit1 : List (HloOp τ sig (Elt F))).Forall fun op =>
    op.writes ⊆ (Rit1W.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (nullary_writes ..) (by decide), writes_sub_of_eq (nullary_writes ..) (by decide),
    writes_sub_of_eq (nullary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (ternary_writes ..) (by decide), writes_sub_of_eq (nullary_writes ..) (by decide), writes_sub_of_eq (binary_writes ..) (by decide),
    writes_sub_of_eq (reshape_writes ..) (by decide), writes_sub_of_eq (nullary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide)⟩

/-- A buffer outside `Rit1W` keeps its contents through them. -/
theorem Rit1_keeps (V : Valuation τ sig (Elt F)) {r : Ref sig .tc} (hr : r ∉ Rit1W) :
    after Rit1 V (Proc.devRef .tc r) = V (Proc.devRef .tc r) :=
  after_of_writes_sub Rit1 V Rit1_writes hr

end Cert.ReferenceIdeal.RR

end
-- ==== Proof.RefChunksS2.lean ====
/- Operations 202 … 262 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 202 … 262 of @main (61): layer 3: on each graph the product with the weights, the gather along the edges, the scaling, the scatter-add and the bias; the small graph's trace; the large graph's blocks' diagonal sums. -/
abbrev Rit2 : List (HloOp τ sig (Elt F)) :=
  [ StableHlo.binary main_v119 main_arg5 main_v146 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_30 (constantI S_ 32 0#32),
    StableHlo.unary main_c_30 main_v147 (broadcastInDim S557056 ![] bcast_S_S557056 : (⟨S_, .i32⟩ : BufTy).Contents (Elt F) → (⟨S557056, .i32⟩ : BufTy).Contents (Elt F)),
    StableHlo.binary main_v3 main_v147 main_v148 (cmpi .slt : (⟨S557056, .i32⟩ : BufTy).Contents (Elt F) → (⟨S557056, .i32⟩ : BufTy).Contents (Elt F) → (⟨S557056, .i1⟩ : BufTy).Contents (Elt F)),
    StableHlo.nullary main_c_31 (constantI S_ 32 32768#32),
    StableHlo.unary main_c_31 main_v149 (broadcastInDim S557056 ![] bcast_S_S557056 : (⟨S_, .i32⟩ : BufTy).Contents (Elt F) → (⟨S557056, .i32⟩ : BufTy).Contents (Elt F)),
    StableHlo.binary main_v3 main_v149 main_v150 (addi : (⟨S557056, .i32⟩ : BufTy).Contents (Elt F) → (⟨S557056, .i32⟩ : BufTy).Contents (Elt F) → (⟨S557056, .i32⟩ : BufTy).Contents (Elt F)),
    StableHlo.ternary main_v148 main_v150 main_v3 main_v151 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v151 main_v152 (broadcastInDim S557056x1 ![0] bcast_S557056_S557056x1_0 : (⟨S557056, .i32⟩ : BufTy).Contents (Elt F) → (⟨S557056x1, .i32⟩ : BufTy).Contents (Elt F)),
    StableHlo.binary main_v146 main_v152 main_v153 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v154 (broadcastInDim S557056x1 ![0] bcast_S557056_S557056x1_0 : (⟨S557056, .f32⟩ : BufTy).Contents (Elt F) → (⟨S557056x1, .f32⟩ : BufTy).Contents (Elt F)),
    StableHlo.unary main_v154 main_v155 (broadcastInDim S557056x128 ![0, 1] bcast_S557056x1_S557056x128_0_1 : (⟨S557056x1, .f32⟩ : BufTy).Contents (Elt F) → (⟨S557056x128, .f32⟩ : BufTy).Contents (Elt F)),
    StableHlo.binary main_v153 main_v155 main_v156 (mulf : (⟨S557056x128, .f32⟩ : BufTy).Contents (Elt F) → (⟨S557056x128, .f32⟩ : BufTy).Contents (Elt F) → (⟨S557056x128, .f32⟩ : BufTy).Contents (Elt F)),
    StableHlo.nullary main_cst_32 (constant S_ .f32 0x00000000#32),
    StableHlo.unary main_cst_32 main_v157 (broadcastInDim S32768x128 ![] bcast_S_S32768x128 : (⟨S_, .f32⟩ : BufTy).Contents (Elt F) → (⟨S32768x128, .f32⟩ : BufTy).Contents (Elt F)),
    StableHlo.unary main_v6 main_v158 (broadcastInDim S557056x1 ![0] bcast_S557056_S557056x1_0 : (⟨S557056, .i32⟩ : BufTy).Contents (Elt F) → (⟨S557056x1, .i32⟩ : BufTy).Contents (Elt F)),
    StableHlo.ternary main_v157 main_v158 main_v156 main_v159 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S32768x128 ![0, 1] bcast_S1x128_S32768x128_0_1 : (⟨S1x128, .f32⟩ : BufTy).Contents (Elt F) → (⟨S32768x128, .f32⟩ : BufTy).Contents (Elt F)),
    StableHlo.binary main_v159 main_v161 main_v162 (addf : (⟨S32768x128, .f32⟩ : BufTy).Contents (Elt F) → (⟨S32768x128, .f32⟩ : BufTy).Contents (Elt F) → (⟨S32768x128, .f32⟩ : BufTy).Contents (Elt F)),
    StableHlo.binary main_v136 main_arg5 main_v163 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_33 (constantI S_ 32 0#32),
    StableHlo.unary main_c_33 main_v164 (broadcastInDim S2176 ![] bcast_S_S2176 : (⟨S_, .i32⟩ : BufTy).Contents (Elt F) → (⟨S2176, .i32⟩ : BufTy).Contents (Elt F)),
    StableHlo.binary main_v33 main_v164 main_v165 (cmpi .slt : (⟨S2176, .i32⟩ : BufTy).Contents (Elt F) → (⟨S2176, .i32⟩ : BufTy).Contents (Elt F) → (⟨S2176, .i1⟩ : BufTy).Contents (Elt F)),
    StableHlo.nullary main_c_34 (constantI S_ 32 128#32),
    StableHlo.unary main_c_34 main_v166 (broadcastInDim S2176 ![] bcast_S_S2176 : (⟨S_, .i32⟩ : BufTy).Contents (Elt F) → (⟨S2176, .i32⟩ : BufTy).Contents (Elt F)),
    StableHlo.binary main_v33 main_v166 main_v167 (addi : (⟨S2176, .i32⟩ : BufTy).Contents (Elt F) → (⟨S2176, .i32⟩ : BufTy).Contents (Elt F) → (⟨S2176, .i32⟩ : BufTy).Contents (Elt F)),
    StableHlo.ternary main_v165 main_v167 main_v33 main_v168 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v168 main_v169 (broadcastInDim S2176x1 ![0] bcast_S2176_S2176x1_0 : (⟨S2176, .i32⟩ : BufTy).Contents (Elt F) → (⟨S2176x1, .i32⟩ : BufTy).Contents (Elt F)),
    StableHlo.binary main_v163 main_v169 main_v170 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v171 (broadcastInDim S2176x1 ![0] bcast_S2176_S2176x1_0 : (⟨S2176, .f32⟩ : BufTy).Contents (Elt F) → (⟨S2176x1, .f32⟩ : BufTy).Contents (Elt F)),
    StableHlo.unary main_v171 main_v172 (broadcastInDim S2176x128 ![0, 1] bcast_S2176x1_S2176x128_0_1 : (⟨S2176x1, .f32⟩ : BufTy).Contents (Elt F) → (⟨S2176x128, .f32⟩ : BufTy).Contents (Elt F)),
    StableHlo.binary main_v170 main_v172 main_v173 (mulf : (⟨S2176x128, .f32⟩ : BufTy).Contents (Elt F) → (⟨S2176x128, .f32⟩ : BufTy).Contents (Elt F) → (⟨S2176x128, .f32⟩ : BufTy).Contents (Elt F)),
    StableHlo.nullary main_cst_35 (constant S_ .f32 0x00000000#32),
    StableHlo.unary main_cst_35 main_v174 (broadcastInDim S128x128 ![] bcast_S_S128x128 : (⟨S_, .f32⟩ : BufTy).Contents (Elt F) → (⟨S128x128, .f32⟩ : BufTy).Contents (Elt F)),
    StableHlo.unary main_v36 main_v175 (broadcastInDim S2176x1 ![0] bcast_S2176_S2176x1_0 : (⟨S2176, .i32⟩ : BufTy).Contents (Elt F) → (⟨S2176x1, .i32⟩ : BufTy).Contents (Elt F)),
    StableHlo.ternary main_v174 main_v175 main_v173 main_v176 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S128x128 ![0, 1] bcast_S1x128_S128x128_0_1 : (⟨S1x128, .f32⟩ : BufTy).Contents (Elt F) → (⟨S128x128, .f32⟩ : BufTy).Contents (Elt F)),
    StableHlo.binary main_v176 main_v178 main_v179 (addf : (⟨S128x128, .f32⟩ : BufTy).Contents (Elt F) → (⟨S128x128, .f32⟩ : BufTy).Contents (Elt F) → (⟨S128x128, .f32⟩ : BufTy).Contents (Elt F)),
    StableHlo.TRef.nullary main_call4.v0 (iotaInDim S128x128 32 0),
    StableHlo.TRef.nullary main_call4.v1 (iotaInDim S128x128 32 1),
    StableHlo.TRef.nullary main_call4.c (constantI S_ 32 0#32),
    StableHlo.TRef.unary main_call4.c main_call4.v2 (broadcastInDim S128x128 ![] bcast_S_S128x128),
    StableHlo.TRef.binary main_call4.v0 main_call4.v2 main_call4.v3 addi,
    StableHlo.TRef.binary main_call4.v3 main_call4.v1 main_call4.v4 (cmpi .eq),
    StableHlo.TRef.nullary main_call4.cst (constant S_ .f32 0x00000000#32),
    StableHlo.TRef.unary main_call4.cst main_call4.v5 (broadcastInDim S128x128 ![] bcast_S_S128x128),
    StableHlo.TRef.ternary main_call4.v4 ((.of main_v179) : StableHlo.TRef sig ⟨S128x128, .f32⟩) main_call4.v5 main_call4.call0.v0 select,
    StableHlo.TRef.nullary main_call4.cst_0 (constant S_ .f32 0x00000000#32),
    StableHlo.TRef.binary main_call4.call0.v0 main_call4.cst_0 main_call4.v7 (fun x v => Host.reduceAdd x v reducesTo_S128x128_S_d0_1 h_S_),
    StableHlo.reshape main_v162 main_v181 rfl shapeCasts_S32768x128_S256x128x128,
    StableHlo.nullary main_v182 (iotaInDim S128x128 32 0),
    StableHlo.nullary main_v183 (iotaInDim S128x128 32 1),
    StableHlo.binary main_v182 main_v183 main_v184 (cmpi .eq : (⟨S128x128, .i32⟩ : BufTy).Contents (Elt F) → (⟨S128x128, .i32⟩ : BufTy).Contents (Elt F) → (⟨S128x128, .i1⟩ : BufTy).Contents (Elt F)),
    StableHlo.unary main_v184 main_v185 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_36 (constant S_ .f32 0x00000000#32),
    StableHlo.unary main_cst_36 main_v186 (broadcastInDim S256x128x128 ![] bcast_S_S256x128x128 : (⟨S_, .f32⟩ : BufTy).Contents (Elt F) → (⟨S256x128x128, .f32⟩ : BufTy).Contents (Elt F)),
    StableHlo.ternary main_v185 main_v181 main_v186 main_v187 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_37 (constant S_ .f32 0x00000000#32),
    StableHlo.binary main_v187 main_cst_37 main_v188 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)) ]

/-- The buffers they write, in order. -/
abbrev Rit2W : List (Ref sig .tc) :=
  [ main_v146, main_c_30, main_v147, main_v148, main_c_31, main_v149, main_v150, main_v151,
    main_v152, main_v153, main_v154, main_v155, main_v156, main_cst_32, main_v157, main_v158,
    main_v159, main_v160, main_v161, main_v162, main_v163, main_c_33, main_v164, main_v165,
    main_c_34, main_v166, main_v167, main_v168, main_v169, main_v170, main_v171, main_v172,
    main_v173, main_cst_35, main_v174, main_v175, main_v176, main_v177, main_v178, main_v179,
    main_call4.v0.ref, main_call4.v1.ref, main_call4.c.ref, main_call4.v2.ref, main_call4.v3.ref, main_call4.v4.ref, main_call4.cst.ref, main_call4.v5.ref,
    main_call4.call0.v0.ref, main_call4.cst_0.ref, main_call4.v7.ref, main_v181, main_v182, main_v183, main_v184, main_v185,
    main_cst_36, main_v186, main_v187, main_cst_37, main_v188 ]

/-- Each writes one buffer, of `Rit2W`. -/
theorem Rit2_writes : (Rit2 : List (HloOp τ sig (Elt F))).Forall fun op =>
    op.writes ⊆ (Rit2W.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (nullary_writes ..) (by decide), writes_sub_of_eq (nullary_writes ..) (by decide),
    writes_sub_of_eq (nullary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (ternary_writes ..) (by decide), writes_sub_of_eq (nullary_writes ..) (by decide), writes_sub_of_eq (binary_writes ..) (by decide),
    writes_sub_of_eq (reshape_writes ..) (by decide), writes_sub_of_eq (nullary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide)⟩

/-- A buffer outside `Rit2W` keeps its contents through them. -/
theorem Rit2_keeps (V : Valuation τ sig (Elt F)) {r : Ref sig .tc} (hr : r ∉ Rit2W) :
    after Rit2 V (Proc.devRef .tc r) = V (Proc.devRef .tc r) :=
  after_of_writes_sub Rit2 V Rit2_writes hr

end Cert.ReferenceIdeal.RR

end
-- ==== Proof.RefChunksS3.lean ====
/- Operations 263 … 323 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 263 … 323 of @main (61): layer 4: on each graph the product with the weights, the gather along the edges, the scaling, the scatter-add and the bias; the small graph's trace; the large graph's blocks' diagonal sums. -/
abbrev Rit3 : List (HloOp τ sig (Elt F)) :=
  [ StableHlo.binary main_v162 main_arg5 main_v189 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_38 (constantI S_ 32 0#32),
    StableHlo.unary main_c_38 main_v190 (broadcastInDim S557056 ![] bcast_S_S557056 : (⟨S_, .i32⟩ : BufTy).Contents (Elt F) → (⟨S557056, .i32⟩ : BufTy).Contents (Elt F)),
    StableHlo.binary main_v3 main_v190 main_v191 (cmpi .slt : (⟨S557056, .i32⟩ : BufTy).Contents (Elt F) → (⟨S557056, .i32⟩ : BufTy).Contents (Elt F) → (⟨S557056, .i1⟩ : BufTy).Contents (Elt F)),
    StableHlo.nullary main_c_39 (constantI S_ 32 32768#32),
    StableHlo.unary main_c_39 main_v192 (broadcastInDim S557056 ![] bcast_S_S557056 : (⟨S_, .i32⟩ : BufTy).Contents (Elt F) → (⟨S557056, .i32⟩ : BufTy).Contents (Elt F)),
    StableHlo.binary main_v3 main_v192 main_v193 (addi : (⟨S557056, .i32⟩ : BufTy).Contents (Elt F) → (⟨S557056, .i32⟩ : BufTy).Contents (Elt F) → (⟨S557056, .i32⟩ : BufTy).Contents (Elt F)),
    StableHlo.ternary main_v191 main_v193 main_v3 main_v194 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v194 main_v195 (broadcastInDim S557056x1 ![0] bcast_S557056_S557056x1_0 : (⟨S557056, .i32⟩ : BufTy).Contents (Elt F) → (⟨S557056x1, .i32⟩ : BufTy).Contents (Elt F)),
    StableHlo.binary main_v189 main_v195 main_v196 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v197 (broadcastInDim S557056x1 ![0] bcast_S557056_S557056x1_0 : (⟨S557056, .f32⟩ : BufTy).Contents (Elt F) → (⟨S557056x1, .f32⟩ : BufTy).Contents (Elt F)),
    StableHlo.unary main_v197 main_v198 (broadcastInDim S557056x128 ![0, 1] bcast_S557056x1_S557056x128_0_1 : (⟨S557056x1, .f32⟩ : BufTy).Contents (Elt F) → (⟨S557056x128, .f32⟩ : BufTy).Contents (Elt F)),
    StableHlo.binary main_v196 main_v198 main_v199 (mulf : (⟨S557056x128, .f32⟩ : BufTy).Contents (Elt F) → (⟨S557056x128, .f32⟩ : BufTy).Contents (Elt F) → (⟨S557056x128, .f32⟩ : BufTy).Contents (Elt F)),
    StableHlo.nullary main_cst_40 (constant S_ .f32 0x00000000#32),
    StableHlo.unary main_cst_40 main_v200 (broadcastInDim S32768x128 ![] bcast_S_S32768x128 : (⟨S_, .f32⟩ : BufTy).Contents (Elt F) → (⟨S32768x128, .f32⟩ : BufTy).Contents (Elt F)),
    StableHlo.unary main_v6 main_v201 (broadcastInDim S557056x1 ![0] bcast_S557056_S557056x1_0 : (⟨S557056, .i32⟩ : BufTy).Contents (Elt F) → (⟨S557056x1, .i32⟩ : BufTy).Contents (Elt F)),
    StableHlo.ternary main_v200 main_v201 main_v199 main_v202 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S32768x128 ![0, 1] bcast_S1x128_S32768x128_0_1 : (⟨S1x128, .f32⟩ : BufTy).Contents (Elt F) → (⟨S32768x128, .f32⟩ : BufTy).Contents (Elt F)),
    StableHlo.binary main_v202 main_v204 main_v205 (addf : (⟨S32768x128, .f32⟩ : BufTy).Contents (Elt F) → (⟨S32768x128, .f32⟩ : BufTy).Contents (Elt F) → (⟨S32768x128, .f32⟩ : BufTy).Contents (Elt F)),
    StableHlo.binary main_v179 main_arg5 main_v206 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_41 (constantI S_ 32 0#32),
    StableHlo.unary main_c_41 main_v207 (broadcastInDim S2176 ![] bcast_S_S2176 : (⟨S_, .i32⟩ : BufTy).Contents (Elt F) → (⟨S2176, .i32⟩ : BufTy).Contents (Elt F)),
    StableHlo.binary main_v33 main_v207 main_v208 (cmpi .slt : (⟨S2176, .i32⟩ : BufTy).Contents (Elt F) → (⟨S2176, .i32⟩ : BufTy).Contents (Elt F) → (⟨S2176, .i1⟩ : BufTy).Contents (Elt F)),
    StableHlo.nullary main_c_42 (constantI S_ 32 128#32),
    StableHlo.unary main_c_42 main_v209 (broadcastInDim S2176 ![] bcast_S_S2176 : (⟨S_, .i32⟩ : BufTy).Contents (Elt F) → (⟨S2176, .i32⟩ : BufTy).Contents (Elt F)),
    StableHlo.binary main_v33 main_v209 main_v210 (addi : (⟨S2176, .i32⟩ : BufTy).Contents (Elt F) → (⟨S2176, .i32⟩ : BufTy).Contents (Elt F) → (⟨S2176, .i32⟩ : BufTy).Contents (Elt F)),
    StableHlo.ternary main_v208 main_v210 main_v33 main_v211 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v211 main_v212 (broadcastInDim S2176x1 ![0] bcast_S2176_S2176x1_0 : (⟨S2176, .i32⟩ : BufTy).Contents (Elt F) → (⟨S2176x1, .i32⟩ : BufTy).Contents (Elt F)),
    StableHlo.binary main_v206 main_v212 main_v213 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v214 (broadcastInDim S2176x1 ![0] bcast_S2176_S2176x1_0 : (⟨S2176, .f32⟩ : BufTy).Contents (Elt F) → (⟨S2176x1, .f32⟩ : BufTy).Contents (Elt F)),
    StableHlo.unary main_v214 main_v215 (broadcastInDim S2176x128 ![0, 1] bcast_S2176x1_S2176x128_0_1 : (⟨S2176x1, .f32⟩ : BufTy).Contents (Elt F) → (⟨S2176x128, .f32⟩ : BufTy).Contents (Elt F)),
    StableHlo.binary main_v213 main_v215 main_v216 (mulf : (⟨S2176x128, .f32⟩ : BufTy).Contents (Elt F) → (⟨S2176x128, .f32⟩ : BufTy).Contents (Elt F) → (⟨S2176x128, .f32⟩ : BufTy).Contents (Elt F)),
    StableHlo.nullary main_cst_43 (constant S_ .f32 0x00000000#32),
    StableHlo.unary main_cst_43 main_v217 (broadcastInDim S128x128 ![] bcast_S_S128x128 : (⟨S_, .f32⟩ : BufTy).Contents (Elt F) → (⟨S128x128, .f32⟩ : BufTy).Contents (Elt F)),
    StableHlo.unary main_v36 main_v218 (broadcastInDim S2176x1 ![0] bcast_S2176_S2176x1_0 : (⟨S2176, .i32⟩ : BufTy).Contents (Elt F) → (⟨S2176x1, .i32⟩ : BufTy).Contents (Elt F)),
    StableHlo.ternary main_v217 main_v218 main_v216 main_v219 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S128x128 ![0, 1] bcast_S1x128_S128x128_0_1 : (⟨S1x128, .f32⟩ : BufTy).Contents (Elt F) → (⟨S128x128, .f32⟩ : BufTy).Contents (Elt F)),
    StableHlo.binary main_v219 main_v221 main_v222 (addf : (⟨S128x128, .f32⟩ : BufTy).Contents (Elt F) → (⟨S128x128, .f32⟩ : BufTy).Contents (Elt F) → (⟨S128x128, .f32⟩ : BufTy).Contents (Elt F)),
    StableHlo.TRef.nullary main_call5.v0 (iotaInDim S128x128 32 0),
    StableHlo.TRef.nullary main_call5.v1 (iotaInDim S128x128 32 1),
    StableHlo.TRef.nullary main_call5.c (constantI S_ 32 0#32),
    StableHlo.TRef.unary main_call5.c main_call5.v2 (broadcastInDim S128x128 ![] bcast_S_S128x128),
    StableHlo.TRef.binary main_call5.v0 main_call5.v2 main_call5.v3 addi,
    StableHlo.TRef.binary main_call5.v3 main_call5.v1 main_call5.v4 (cmpi .eq),
    StableHlo.TRef.nullary main_call5.cst (constant S_ .f32 0x00000000#32),
    StableHlo.TRef.unary main_call5.cst main_call5.v5 (broadcastInDim S128x128 ![] bcast_S_S128x128),
    StableHlo.TRef.ternary main_call5.v4 ((.of main_v222) : StableHlo.TRef sig ⟨S128x128, .f32⟩) main_call5.v5 main_call5.call0.v0 select,
    StableHlo.TRef.nullary main_call5.cst_0 (constant S_ .f32 0x00000000#32),
    StableHlo.TRef.binary main_call5.call0.v0 main_call5.cst_0 main_call5.v7 (fun x v => Host.reduceAdd x v reducesTo_S128x128_S_d0_1 h_S_),
    StableHlo.reshape main_v205 main_v224 rfl shapeCasts_S32768x128_S256x128x128,
    StableHlo.nullary main_v225 (iotaInDim S128x128 32 0),
    StableHlo.nullary main_v226 (iotaInDim S128x128 32 1),
    StableHlo.binary main_v225 main_v226 main_v227 (cmpi .eq : (⟨S128x128, .i32⟩ : BufTy).Contents (Elt F) → (⟨S128x128, .i32⟩ : BufTy).Contents (Elt F) → (⟨S128x128, .i1⟩ : BufTy).Contents (Elt F)),
    StableHlo.unary main_v227 main_v228 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_44 (constant S_ .f32 0x00000000#32),
    StableHlo.unary main_cst_44 main_v229 (broadcastInDim S256x128x128 ![] bcast_S_S256x128x128 : (⟨S_, .f32⟩ : BufTy).Contents (Elt F) → (⟨S256x128x128, .f32⟩ : BufTy).Contents (Elt F)),
    StableHlo.ternary main_v228 main_v224 main_v229 main_v230 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_45 (constant S_ .f32 0x00000000#32),
    StableHlo.binary main_v230 main_cst_45 main_v231 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)) ]

/-- The buffers they write, in order. -/
abbrev Rit3W : List (Ref sig .tc) :=
  [ main_v189, main_c_38, main_v190, main_v191, main_c_39, main_v192, main_v193, main_v194,
    main_v195, main_v196, main_v197, main_v198, main_v199, main_cst_40, main_v200, main_v201,
    main_v202, main_v203, main_v204, main_v205, main_v206, main_c_41, main_v207, main_v208,
    main_c_42, main_v209, main_v210, main_v211, main_v212, main_v213, main_v214, main_v215,
    main_v216, main_cst_43, main_v217, main_v218, main_v219, main_v220, main_v221, main_v222,
    main_call5.v0.ref, main_call5.v1.ref, main_call5.c.ref, main_call5.v2.ref, main_call5.v3.ref, main_call5.v4.ref, main_call5.cst.ref, main_call5.v5.ref,
    main_call5.call0.v0.ref, main_call5.cst_0.ref, main_call5.v7.ref, main_v224, main_v225, main_v226, main_v227, main_v228,
    main_cst_44, main_v229, main_v230, main_cst_45, main_v231 ]

/-- Each writes one buffer, of `Rit3W`. -/
theorem Rit3_writes : (Rit3 : List (HloOp τ sig (Elt F))).Forall fun op =>
    op.writes ⊆ (Rit3W.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (nullary_writes ..) (by decide), writes_sub_of_eq (nullary_writes ..) (by decide),
    writes_sub_of_eq (nullary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (ternary_writes ..) (by decide), writes_sub_of_eq (nullary_writes ..) (by decide), writes_sub_of_eq (binary_writes ..) (by decide),
    writes_sub_of_eq (reshape_writes ..) (by decide), writes_sub_of_eq (nullary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide)⟩

/-- A buffer outside `Rit3W` keeps its contents through them. -/
theorem Rit3_keeps (V : Valuation τ sig (Elt F)) {r : Ref sig .tc} (hr : r ∉ Rit3W) :
    after Rit3 V (Proc.devRef .tc r) = V (Proc.devRef .tc r) :=
  after_of_writes_sub Rit3 V Rit3_writes hr

end Cert.ReferenceIdeal.RR

end
-- ==== Proof.RefChunksS4.lean ====
/- Operations 324 … 384 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 324 … 384 of @main (61): layer 5: on each graph the product with the weights, the gather along the edges, the scaling, the scatter-add and the bias; the small graph's trace; the large graph's blocks' diagonal sums. -/
abbrev Rit4 : List (HloOp τ sig (Elt F)) :=
  [ StableHlo.binary main_v205 main_arg5 main_v232 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_46 (constantI S_ 32 0#32),
    StableHlo.unary main_c_46 main_v233 (broadcastInDim S557056 ![] bcast_S_S557056 : (⟨S_, .i32⟩ : BufTy).Contents (Elt F) → (⟨S557056, .i32⟩ : BufTy).Contents (Elt F)),
    StableHlo.binary main_v3 main_v233 main_v234 (cmpi .slt : (⟨S557056, .i32⟩ : BufTy).Contents (Elt F) → (⟨S557056, .i32⟩ : BufTy).Contents (Elt F) → (⟨S557056, .i1⟩ : BufTy).Contents (Elt F)),
    StableHlo.nullary main_c_47 (constantI S_ 32 32768#32),
    StableHlo.unary main_c_47 main_v235 (broadcastInDim S557056 ![] bcast_S_S557056 : (⟨S_, .i32⟩ : BufTy).Contents (Elt F) → (⟨S557056, .i32⟩ : BufTy).Contents (Elt F)),
    StableHlo.binary main_v3 main_v235 main_v236 (addi : (⟨S557056, .i32⟩ : BufTy).Contents (Elt F) → (⟨S557056, .i32⟩ : BufTy).Contents (Elt F) → (⟨S557056, .i32⟩ : BufTy).Contents (Elt F)),
    StableHlo.ternary main_v234 main_v236 main_v3 main_v237 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v237 main_v238 (broadcastInDim S557056x1 ![0] bcast_S557056_S557056x1_0 : (⟨S557056, .i32⟩ : BufTy).Contents (Elt F) → (⟨S557056x1, .i32⟩ : BufTy).Contents (Elt F)),
    StableHlo.binary main_v232 main_v238 main_v239 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v240 (broadcastInDim S557056x1 ![0] bcast_S557056_S557056x1_0 : (⟨S557056, .f32⟩ : BufTy).Contents (Elt F) → (⟨S557056x1, .f32⟩ : BufTy).Contents (Elt F)),
    StableHlo.unary main_v240 main_v241 (broadcastInDim S557056x128 ![0, 1] bcast_S557056x1_S557056x128_0_1 : (⟨S557056x1, .f32⟩ : BufTy).Contents (Elt F) → (⟨S557056x128, .f32⟩ : BufTy).Contents (Elt F)),
    StableHlo.binary main_v239 main_v241 main_v242 (mulf : (⟨S557056x128, .f32⟩ : BufTy).Contents (Elt F) → (⟨S557056x128, .f32⟩ : BufTy).Contents (Elt F) → (⟨S557056x128, .f32⟩ : BufTy).Contents (Elt F)),
    StableHlo.nullary main_cst_48 (constant S_ .f32 0x00000000#32),
    StableHlo.unary main_cst_48 main_v243 (broadcastInDim S32768x128 ![] bcast_S_S32768x128 : (⟨S_, .f32⟩ : BufTy).Contents (Elt F) → (⟨S32768x128, .f32⟩ : BufTy).Contents (Elt F)),
    StableHlo.unary main_v6 main_v244 (broadcastInDim S557056x1 ![0] bcast_S557056_S557056x1_0 : (⟨S557056, .i32⟩ : BufTy).Contents (Elt F) → (⟨S557056x1, .i32⟩ : BufTy).Contents (Elt F)),
    StableHlo.ternary main_v243 main_v244 main_v242 main_v245 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S32768x128 ![0, 1] bcast_S1x128_S32768x128_0_1 : (⟨S1x128, .f32⟩ : BufTy).Contents (Elt F) → (⟨S32768x128, .f32⟩ : BufTy).Contents (Elt F)),
    StableHlo.binary main_v245 main_v247 main_v248 (addf : (⟨S32768x128, .f32⟩ : BufTy).Contents (Elt F) → (⟨S32768x128, .f32⟩ : BufTy).Contents (Elt F) → (⟨S32768x128, .f32⟩ : BufTy).Contents (Elt F)),
    StableHlo.binary main_v222 main_arg5 main_v249 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_49 (constantI S_ 32 0#32),
    StableHlo.unary main_c_49 main_v250 (broadcastInDim S2176 ![] bcast_S_S2176 : (⟨S_, .i32⟩ : BufTy).Contents (Elt F) → (⟨S2176, .i32⟩ : BufTy).Contents (Elt F)),
    StableHlo.binary main_v33 main_v250 main_v251 (cmpi .slt : (⟨S2176, .i32⟩ : BufTy).Contents (Elt F) → (⟨S2176, .i32⟩ : BufTy).Contents (Elt F) → (⟨S2176, .i1⟩ : BufTy).Contents (Elt F)),
    StableHlo.nullary main_c_50 (constantI S_ 32 128#32),
    StableHlo.unary main_c_50 main_v252 (broadcastInDim S2176 ![] bcast_S_S2176 : (⟨S_, .i32⟩ : BufTy).Contents (Elt F) → (⟨S2176, .i32⟩ : BufTy).Contents (Elt F)),
    StableHlo.binary main_v33 main_v252 main_v253 (addi : (⟨S2176, .i32⟩ : BufTy).Contents (Elt F) → (⟨S2176, .i32⟩ : BufTy).Contents (Elt F) → (⟨S2176, .i32⟩ : BufTy).Contents (Elt F)),
    StableHlo.ternary main_v251 main_v253 main_v33 main_v254 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v254 main_v255 (broadcastInDim S2176x1 ![0] bcast_S2176_S2176x1_0 : (⟨S2176, .i32⟩ : BufTy).Contents (Elt F) → (⟨S2176x1, .i32⟩ : BufTy).Contents (Elt F)),
    StableHlo.binary main_v249 main_v255 main_v256 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v257 (broadcastInDim S2176x1 ![0] bcast_S2176_S2176x1_0 : (⟨S2176, .f32⟩ : BufTy).Contents (Elt F) → (⟨S2176x1, .f32⟩ : BufTy).Contents (Elt F)),
    StableHlo.unary main_v257 main_v258 (broadcastInDim S2176x128 ![0, 1] bcast_S2176x1_S2176x128_0_1 : (⟨S2176x1, .f32⟩ : BufTy).Contents (Elt F) → (⟨S2176x128, .f32⟩ : BufTy).Contents (Elt F)),
    StableHlo.binary main_v256 main_v258 main_v259 (mulf : (⟨S2176x128, .f32⟩ : BufTy).Contents (Elt F) → (⟨S2176x128, .f32⟩ : BufTy).Contents (Elt F) → (⟨S2176x128, .f32⟩ : BufTy).Contents (Elt F)),
    StableHlo.nullary main_cst_51 (constant S_ .f32 0x00000000#32),
    StableHlo.unary main_cst_51 main_v260 (broadcastInDim S128x128 ![] bcast_S_S128x128 : (⟨S_, .f32⟩ : BufTy).Contents (Elt F) → (⟨S128x128, .f32⟩ : BufTy).Contents (Elt F)),
    StableHlo.unary main_v36 main_v261 (broadcastInDim S2176x1 ![0] bcast_S2176_S2176x1_0 : (⟨S2176, .i32⟩ : BufTy).Contents (Elt F) → (⟨S2176x1, .i32⟩ : BufTy).Contents (Elt F)),
    StableHlo.ternary main_v260 main_v261 main_v259 main_v262 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v263 (broadcastInDim S1x128 ![1] bcast_S128_S1x128_1 : (⟨S128, .f32⟩ : BufTy).Contents (Elt F) → (⟨S1x128, .f32⟩ : BufTy).Contents (Elt F)),
    StableHlo.unary main_v263 main_v264 (broadcastInDim S128x128 ![0, 1] bcast_S1x128_S128x128_0_1 : (⟨S1x128, .f32⟩ : BufTy).Contents (Elt F) → (⟨S128x128, .f32⟩ : BufTy).Contents (Elt F)),
    StableHlo.binary main_v262 main_v264 main_v265 (addf : (⟨S128x128, .f32⟩ : BufTy).Contents (Elt F) → (⟨S128x128, .f32⟩ : BufTy).Contents (Elt F) → (⟨S128x128, .f32⟩ : BufTy).Contents (Elt F)),
    StableHlo.TRef.nullary main_call6.v0 (iotaInDim S128x128 32 0),
    StableHlo.TRef.nullary main_call6.v1 (iotaInDim S128x128 32 1),
    StableHlo.TRef.nullary main_call6.c (constantI S_ 32 0#32),
    StableHlo.TRef.unary main_call6.c main_call6.v2 (broadcastInDim S128x128 ![] bcast_S_S128x128),
    StableHlo.TRef.binary main_call6.v0 main_call6.v2 main_call6.v3 addi,
    StableHlo.TRef.binary main_call6.v3 main_call6.v1 main_call6.v4 (cmpi .eq),
    StableHlo.TRef.nullary main_call6.cst (constant S_ .f32 0x00000000#32),
    StableHlo.TRef.unary main_call6.cst main_call6.v5 (broadcastInDim S128x128 ![] bcast_S_S128x128),
    StableHlo.TRef.ternary main_call6.v4 ((.of main_v265) : StableHlo.TRef sig ⟨S128x128, .f32⟩) main_call6.v5 main_call6.call0.v0 select,
    StableHlo.TRef.nullary main_call6.cst_0 (constant S_ .f32 0x00000000#32),
    StableHlo.TRef.binary main_call6.call0.v0 main_call6.cst_0 main_call6.v7 (fun x v => Host.reduceAdd x v reducesTo_S128x128_S_d0_1 h_S_),
    StableHlo.reshape main_v248 main_v267 rfl shapeCasts_S32768x128_S256x128x128,
    StableHlo.nullary main_v268 (iotaInDim S128x128 32 0),
    StableHlo.nullary main_v269 (iotaInDim S128x128 32 1),
    StableHlo.binary main_v268 main_v269 main_v270 (cmpi .eq : (⟨S128x128, .i32⟩ : BufTy).Contents (Elt F) → (⟨S128x128, .i32⟩ : BufTy).Contents (Elt F) → (⟨S128x128, .i1⟩ : BufTy).Contents (Elt F)),
    StableHlo.unary main_v270 main_v271 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_52 (constant S_ .f32 0x00000000#32),
    StableHlo.unary main_cst_52 main_v272 (broadcastInDim S256x128x128 ![] bcast_S_S256x128x128 : (⟨S_, .f32⟩ : BufTy).Contents (Elt F) → (⟨S256x128x128, .f32⟩ : BufTy).Contents (Elt F)),
    StableHlo.ternary main_v271 main_v267 main_v272 main_v273 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_53 (constant S_ .f32 0x00000000#32),
    StableHlo.binary main_v273 main_cst_53 main_v274 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)) ]

/-- The buffers they write, in order. -/
abbrev Rit4W : List (Ref sig .tc) :=
  [ main_v232, main_c_46, main_v233, main_v234, main_c_47, main_v235, main_v236, main_v237,
    main_v238, main_v239, main_v240, main_v241, main_v242, main_cst_48, main_v243, main_v244,
    main_v245, main_v246, main_v247, main_v248, main_v249, main_c_49, main_v250, main_v251,
    main_c_50, main_v252, main_v253, main_v254, main_v255, main_v256, main_v257, main_v258,
    main_v259, main_cst_51, main_v260, main_v261, main_v262, main_v263, main_v264, main_v265,
    main_call6.v0.ref, main_call6.v1.ref, main_call6.c.ref, main_call6.v2.ref, main_call6.v3.ref, main_call6.v4.ref, main_call6.cst.ref, main_call6.v5.ref,
    main_call6.call0.v0.ref, main_call6.cst_0.ref, main_call6.v7.ref, main_v267, main_v268, main_v269, main_v270, main_v271,
    main_cst_52, main_v272, main_v273, main_cst_53, main_v274 ]

/-- Each writes one buffer, of `Rit4W`. -/
theorem Rit4_writes : (Rit4 : List (HloOp τ sig (Elt F))).Forall fun op =>
    op.writes ⊆ (Rit4W.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (nullary_writes ..) (by decide), writes_sub_of_eq (nullary_writes ..) (by decide),
    writes_sub_of_eq (nullary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (ternary_writes ..) (by decide), writes_sub_of_eq (nullary_writes ..) (by decide), writes_sub_of_eq (binary_writes ..) (by decide),
    writes_sub_of_eq (reshape_writes ..) (by decide), writes_sub_of_eq (nullary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide)⟩

/-- A buffer outside `Rit4W` keeps its contents through them. -/
theorem Rit4_keeps (V : Valuation τ sig (Elt F)) {r : Ref sig .tc} (hr : r ∉ Rit4W) :
    after Rit4 V (Proc.devRef .tc r) = V (Proc.devRef .tc r) :=
  after_of_writes_sub Rit4 V Rit4_writes hr

end Cert.ReferenceIdeal.RR

end
-- ==== Proof.RefChunksS5.lean ====
/- Operations 385 … 445 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 385 … 445 of @main (61): layer 6: on each graph the product with the weights, the gather along the edges, the scaling, the scatter-add and the bias; the small graph's trace; the large graph's blocks' diagonal sums. -/
abbrev Rit5 : List (HloOp τ sig (Elt F)) :=
  [ StableHlo.binary main_v248 main_arg5 main_v275 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_54 (constantI S_ 32 0#32),
    StableHlo.unary main_c_54 main_v276 (broadcastInDim S557056 ![] bcast_S_S557056 : (⟨S_, .i32⟩ : BufTy).Contents (Elt F) → (⟨S557056, .i32⟩ : BufTy).Contents (Elt F)),
    StableHlo.binary main_v3 main_v276 main_v277 (cmpi .slt : (⟨S557056, .i32⟩ : BufTy).Contents (Elt F) → (⟨S557056, .i32⟩ : BufTy).Contents (Elt F) → (⟨S557056, .i1⟩ : BufTy).Contents (Elt F)),
    StableHlo.nullary main_c_55 (constantI S_ 32 32768#32),
    StableHlo.unary main_c_55 main_v278 (broadcastInDim S557056 ![] bcast_S_S557056 : (⟨S_, .i32⟩ : BufTy).Contents (Elt F) → (⟨S557056, .i32⟩ : BufTy).Contents (Elt F)),
    StableHlo.binary main_v3 main_v278 main_v279 (addi : (⟨S557056, .i32⟩ : BufTy).Contents (Elt F) → (⟨S557056, .i32⟩ : BufTy).Contents (Elt F) → (⟨S557056, .i32⟩ : BufTy).Contents (Elt F)),
    StableHlo.ternary main_v277 main_v279 main_v3 main_v280 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v280 main_v281 (broadcastInDim S557056x1 ![0] bcast_S557056_S557056x1_0 : (⟨S557056, .i32⟩ : BufTy).Contents (Elt F) → (⟨S557056x1, .i32⟩ : BufTy).Contents (Elt F)),
    StableHlo.binary main_v275 main_v281 main_v282 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v283 (broadcastInDim S557056x1 ![0] bcast_S557056_S557056x1_0 : (⟨S557056, .f32⟩ : BufTy).Contents (Elt F) → (⟨S557056x1, .f32⟩ : BufTy).Contents (Elt F)),
    StableHlo.unary main_v283 main_v284 (broadcastInDim S557056x128 ![0, 1] bcast_S557056x1_S557056x128_0_1 : (⟨S557056x1, .f32⟩ : BufTy).Contents (Elt F) → (⟨S557056x128, .f32⟩ : BufTy).Contents (Elt F)),
    StableHlo.binary main_v282 main_v284 main_v285 (mulf : (⟨S557056x128, .f32⟩ : BufTy).Contents (Elt F) → (⟨S557056x128, .f32⟩ : BufTy).Contents (Elt F) → (⟨S557056x128, .f32⟩ : BufTy).Contents (Elt F)),
    StableHlo.nullary main_cst_56 (constant S_ .f32 0x00000000#32),
    StableHlo.unary main_cst_56 main_v286 (broadcastInDim S32768x128 ![] bcast_S_S32768x128 : (⟨S_, .f32⟩ : BufTy).Contents (Elt F) → (⟨S32768x128, .f32⟩ : BufTy).Contents (Elt F)),
    StableHlo.unary main_v6 main_v287 (broadcastInDim S557056x1 ![0] bcast_S557056_S557056x1_0 : (⟨S557056, .i32⟩ : BufTy).Contents (Elt F) → (⟨S557056x1, .i32⟩ : BufTy).Contents (Elt F)),
    StableHlo.ternary main_v286 main_v287 main_v285 main_v288 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v289 (broadcastInDim S1x128 ![1] bcast_S128_S1x128_1 : (⟨S128, .f32⟩ : BufTy).Contents (Elt F) → (⟨S1x128, .f32⟩ : BufTy).Contents (Elt F)),
    StableHlo.unary main_v289 main_v290 (broadcastInDim S32768x128 ![0, 1] bcast_S1x128_S32768x128_0_1 : (⟨S1x128, .f32⟩ : BufTy).Contents (Elt F) → (⟨S32768x128, .f32⟩ : BufTy).Contents (Elt F)),
    StableHlo.binary main_v288 main_v290 main_v291 (addf : (⟨S32768x128, .f32⟩ : BufTy).Contents (Elt F) → (⟨S32768x128, .f32⟩ : BufTy).Contents (Elt F) → (⟨S32768x128, .f32⟩ : BufTy).Contents (Elt F)),
    StableHlo.binary main_v265 main_arg5 main_v292 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_57 (constantI S_ 32 0#32),
    StableHlo.unary main_c_57 main_v293 (broadcastInDim S2176 ![] bcast_S_S2176 : (⟨S_, .i32⟩ : BufTy).Contents (Elt F) → (⟨S2176, .i32⟩ : BufTy).Contents (Elt F)),
    StableHlo.binary main_v33 main_v293 main_v294 (cmpi .slt : (⟨S2176, .i32⟩ : BufTy).Contents (Elt F) → (⟨S2176, .i32⟩ : BufTy).Contents (Elt F) → (⟨S2176, .i1⟩ : BufTy).Contents (Elt F)),
    StableHlo.nullary main_c_58 (constantI S_ 32 128#32),
    StableHlo.unary main_c_58 main_v295 (broadcastInDim S2176 ![] bcast_S_S2176 : (⟨S_, .i32⟩ : BufTy).Contents (Elt F) → (⟨S2176, .i32⟩ : BufTy).Contents (Elt F)),
    StableHlo.binary main_v33 main_v295 main_v296 (addi : (⟨S2176, .i32⟩ : BufTy).Contents (Elt F) → (⟨S2176, .i32⟩ : BufTy).Contents (Elt F) → (⟨S2176, .i32⟩ : BufTy).Contents (Elt F)),
    StableHlo.ternary main_v294 main_v296 main_v33 main_v297 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v297 main_v298 (broadcastInDim S2176x1 ![0] bcast_S2176_S2176x1_0 : (⟨S2176, .i32⟩ : BufTy).Contents (Elt F) → (⟨S2176x1, .i32⟩ : BufTy).Contents (Elt F)),
    StableHlo.binary main_v292 main_v298 main_v299 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v300 (broadcastInDim S2176x1 ![0] bcast_S2176_S2176x1_0 : (⟨S2176, .f32⟩ : BufTy).Contents (Elt F) → (⟨S2176x1, .f32⟩ : BufTy).Contents (Elt F)),
    StableHlo.unary main_v300 main_v301 (broadcastInDim S2176x128 ![0, 1] bcast_S2176x1_S2176x128_0_1 : (⟨S2176x1, .f32⟩ : BufTy).Contents (Elt F) → (⟨S2176x128, .f32⟩ : BufTy).Contents (Elt F)),
    StableHlo.binary main_v299 main_v301 main_v302 (mulf : (⟨S2176x128, .f32⟩ : BufTy).Contents (Elt F) → (⟨S2176x128, .f32⟩ : BufTy).Contents (Elt F) → (⟨S2176x128, .f32⟩ : BufTy).Contents (Elt F)),
    StableHlo.nullary main_cst_59 (constant S_ .f32 0x00000000#32),
    StableHlo.unary main_cst_59 main_v303 (broadcastInDim S128x128 ![] bcast_S_S128x128 : (⟨S_, .f32⟩ : BufTy).Contents (Elt F) → (⟨S128x128, .f32⟩ : BufTy).Contents (Elt F)),
    StableHlo.unary main_v36 main_v304 (broadcastInDim S2176x1 ![0] bcast_S2176_S2176x1_0 : (⟨S2176, .i32⟩ : BufTy).Contents (Elt F) → (⟨S2176x1, .i32⟩ : BufTy).Contents (Elt F)),
    StableHlo.ternary main_v303 main_v304 main_v302 main_v305 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v306 (broadcastInDim S1x128 ![1] bcast_S128_S1x128_1 : (⟨S128, .f32⟩ : BufTy).Contents (Elt F) → (⟨S1x128, .f32⟩ : BufTy).Contents (Elt F)),
    StableHlo.unary main_v306 main_v307 (broadcastInDim S128x128 ![0, 1] bcast_S1x128_S128x128_0_1 : (⟨S1x128, .f32⟩ : BufTy).Contents (Elt F) → (⟨S128x128, .f32⟩ : BufTy).Contents (Elt F)),
    StableHlo.binary main_v305 main_v307 main_v308 (addf : (⟨S128x128, .f32⟩ : BufTy).Contents (Elt F) → (⟨S128x128, .f32⟩ : BufTy).Contents (Elt F) → (⟨S128x128, .f32⟩ : BufTy).Contents (Elt F)),
    StableHlo.TRef.nullary main_call7.v0 (iotaInDim S128x128 32 0),
    StableHlo.TRef.nullary main_call7.v1 (iotaInDim S128x128 32 1),
    StableHlo.TRef.nullary main_call7.c (constantI S_ 32 0#32),
    StableHlo.TRef.unary main_call7.c main_call7.v2 (broadcastInDim S128x128 ![] bcast_S_S128x128),
    StableHlo.TRef.binary main_call7.v0 main_call7.v2 main_call7.v3 addi,
    StableHlo.TRef.binary main_call7.v3 main_call7.v1 main_call7.v4 (cmpi .eq),
    StableHlo.TRef.nullary main_call7.cst (constant S_ .f32 0x00000000#32),
    StableHlo.TRef.unary main_call7.cst main_call7.v5 (broadcastInDim S128x128 ![] bcast_S_S128x128),
    StableHlo.TRef.ternary main_call7.v4 ((.of main_v308) : StableHlo.TRef sig ⟨S128x128, .f32⟩) main_call7.v5 main_call7.call0.v0 select,
    StableHlo.TRef.nullary main_call7.cst_0 (constant S_ .f32 0x00000000#32),
    StableHlo.TRef.binary main_call7.call0.v0 main_call7.cst_0 main_call7.v7 (fun x v => Host.reduceAdd x v reducesTo_S128x128_S_d0_1 h_S_),
    StableHlo.reshape main_v291 main_v310 rfl shapeCasts_S32768x128_S256x128x128,
    StableHlo.nullary main_v311 (iotaInDim S128x128 32 0),
    StableHlo.nullary main_v312 (iotaInDim S128x128 32 1),
    StableHlo.binary main_v311 main_v312 main_v313 (cmpi .eq : (⟨S128x128, .i32⟩ : BufTy).Contents (Elt F) → (⟨S128x128, .i32⟩ : BufTy).Contents (Elt F) → (⟨S128x128, .i1⟩ : BufTy).Contents (Elt F)),
    StableHlo.unary main_v313 main_v314 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_60 (constant S_ .f32 0x00000000#32),
    StableHlo.unary main_cst_60 main_v315 (broadcastInDim S256x128x128 ![] bcast_S_S256x128x128 : (⟨S_, .f32⟩ : BufTy).Contents (Elt F) → (⟨S256x128x128, .f32⟩ : BufTy).Contents (Elt F)),
    StableHlo.ternary main_v314 main_v310 main_v315 main_v316 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_61 (constant S_ .f32 0x00000000#32),
    StableHlo.binary main_v316 main_cst_61 main_v317 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)) ]

/-- The buffers they write, in order. -/
abbrev Rit5W : List (Ref sig .tc) :=
  [ main_v275, main_c_54, main_v276, main_v277, main_c_55, main_v278, main_v279, main_v280,
    main_v281, main_v282, main_v283, main_v284, main_v285, main_cst_56, main_v286, main_v287,
    main_v288, main_v289, main_v290, main_v291, main_v292, main_c_57, main_v293, main_v294,
    main_c_58, main_v295, main_v296, main_v297, main_v298, main_v299, main_v300, main_v301,
    main_v302, main_cst_59, main_v303, main_v304, main_v305, main_v306, main_v307, main_v308,
    main_call7.v0.ref, main_call7.v1.ref, main_call7.c.ref, main_call7.v2.ref, main_call7.v3.ref, main_call7.v4.ref, main_call7.cst.ref, main_call7.v5.ref,
    main_call7.call0.v0.ref, main_call7.cst_0.ref, main_call7.v7.ref, main_v310, main_v311, main_v312, main_v313, main_v314,
    main_cst_60, main_v315, main_v316, main_cst_61, main_v317 ]

/-- Each writes one buffer, of `Rit5W`. -/
theorem Rit5_writes : (Rit5 : List (HloOp τ sig (Elt F))).Forall fun op =>
    op.writes ⊆ (Rit5W.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (nullary_writes ..) (by decide), writes_sub_of_eq (nullary_writes ..) (by decide),
    writes_sub_of_eq (nullary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (ternary_writes ..) (by decide), writes_sub_of_eq (nullary_writes ..) (by decide), writes_sub_of_eq (binary_writes ..) (by decide),
    writes_sub_of_eq (reshape_writes ..) (by decide), writes_sub_of_eq (nullary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide)⟩

/-- A buffer outside `Rit5W` keeps its contents through them. -/
theorem Rit5_keeps (V : Valuation τ sig (Elt F)) {r : Ref sig .tc} (hr : r ∉ Rit5W) :
    after Rit5 V (Proc.devRef .tc r) = V (Proc.devRef .tc r) :=
  after_of_writes_sub Rit5 V Rit5_writes hr

end Cert.ReferenceIdeal.RR

end
-- ==== Proof.RefChunksS6.lean ====
/- Operations 446 … 506 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 446 … 506 of @main (61): layer 7: on each graph the product with the weights, the gather along the edges, the scaling, the scatter-add and the bias; the small graph's trace; the large graph's blocks' diagonal sums. -/
abbrev Rit6 : List (HloOp τ sig (Elt F)) :=
  [ StableHlo.binary main_v291 main_arg5 main_v318 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    StableHlo.nullary main_c_62 (constantI S_ 32 0#32),
    StableHlo.unary main_c_62 main_v319 (broadcastInDim S557056 ![] bcast_S_S557056 : (⟨S_, .i32⟩ : BufTy).Contents (Elt F) → (⟨S557056, .i32⟩ : BufTy).Contents (Elt F)),
    StableHlo.binary main_v3 main_v319 main_v320 (cmpi .slt : (⟨S557056, .i32⟩ : BufTy).Contents (Elt F) → (⟨S557056, .i32⟩ : BufTy).Contents (Elt F) → (⟨S557056, .i1⟩ : BufTy).Contents (Elt F)),
    StableHlo.nullary main_c_63 (constantI S_ 32 32768#32),
    StableHlo.unary main_c_63 main_v321 (broadcastInDim S557056 ![] bcast_S_S557056 : (⟨S_, .i32⟩ : BufTy).Contents (Elt F) → (⟨S557056, .i32⟩ : BufTy).Contents (Elt F)),
    StableHlo.binary main_v3 main_v321 main_v322 (addi : (⟨S557056, .i32⟩ : BufTy).Contents (Elt F) → (⟨S557056, .i32⟩ : BufTy).Contents (Elt F) → (⟨S557056, .i32⟩ : BufTy).Contents (Elt F)),
    StableHlo.ternary main_v320 main_v322 main_v3 main_v323 (select : (⟨S557056, .i1⟩ : BufTy).Contents (Elt F) → (⟨S557056, .i32⟩ : BufTy).Contents (Elt F) → (⟨S557056, .i32⟩ : BufTy).Contents (Elt F) → (⟨S557056, .i32⟩ : BufTy).Contents (Elt F)),
    StableHlo.unary main_v323 main_v324 (broadcastInDim S557056x1 ![0] bcast_S557056_S557056x1_0 : (⟨S557056, .i32⟩ : BufTy).Contents (Elt F) → (⟨S557056x1, .i32⟩ : BufTy).Contents (Elt F)),
    StableHlo.binary main_v318 main_v324 main_v325 ((fun x i => Host.gather gather_S32768x128_S557056x1_S557056x128_1_0_n_n_0_1_1128 x i) : (⟨S32768x128, .f32⟩ : BufTy).Contents (Elt F) → (⟨S557056x1, .i32⟩ : BufTy).Contents (Elt F) → (⟨S557056x128, .f32⟩ : BufTy).Contents (Elt F)),
    StableHlo.unary main_v29 main_v326 (broadcastInDim S557056x1 ![0] bcast_S557056_S557056x1_0 : (⟨S557056, .f32⟩ : BufTy).Contents (Elt F) → (⟨S557056x1, .f32⟩ : BufTy).Contents (Elt F)),
    StableHlo.unary main_v326 main_v327 (broadcastInDim S557056x128 ![0, 1] bcast_S557056x1_S557056x128_0_1 : (⟨S557056x1, .f32⟩ : BufTy).Contents (Elt F) → (⟨S557056x128, .f32⟩ : BufTy).Contents (Elt F)),
    StableHlo.binary main_v325 main_v327 main_v328 (mulf : (⟨S557056x128, .f32⟩ : BufTy).Contents (Elt F) → (⟨S557056x128, .f32⟩ : BufTy).Contents (Elt F) → (⟨S557056x128, .f32⟩ : BufTy).Contents (Elt F)),
    StableHlo.nullary main_cst_64 (constant S_ .f32 0x00000000#32),
    StableHlo.unary main_cst_64 main_v329 (broadcastInDim S32768x128 ![] bcast_S_S32768x128 : (⟨S_, .f32⟩ : BufTy).Contents (Elt F) → (⟨S32768x128, .f32⟩ : BufTy).Contents (Elt F)),
    StableHlo.unary main_v6 main_v330 (broadcastInDim S557056x1 ![0] bcast_S557056_S557056x1_0 : (⟨S557056, .i32⟩ : BufTy).Contents (Elt F) → (⟨S557056x1, .i32⟩ : BufTy).Contents (Elt F)),
    StableHlo.ternary main_v329 main_v330 main_v328 main_v331 ((fun x i u => Host.scatterAdd scatter_S32768x128_S557056x1_S557056x128_1_0_0_1 x i u) : (⟨S32768x128, .f32⟩ : BufTy).Contents (Elt F) → (⟨S557056x1, .i32⟩ : BufTy).Contents (Elt F) → (⟨S557056x128, .f32⟩ : BufTy).Contents (Elt F) → (⟨S32768x128, .f32⟩ : BufTy).Contents (Elt F)),
    StableHlo.unary main_arg6 main_v332 (broadcastInDim S1x128 ![1] bcast_S128_S1x128_1 : (⟨S128, .f32⟩ : BufTy).Contents (Elt F) → (⟨S1x128, .f32⟩ : BufTy).Contents (Elt F)),
    StableHlo.unary main_v332 main_v333 (broadcastInDim S32768x128 ![0, 1] bcast_S1x128_S32768x128_0_1 : (⟨S1x128, .f32⟩ : BufTy).Contents (Elt F) → (⟨S32768x128, .f32⟩ : BufTy).Contents (Elt F)),
    StableHlo.binary main_v331 main_v333 main_v334 (addf : (⟨S32768x128, .f32⟩ : BufTy).Contents (Elt F) → (⟨S32768x128, .f32⟩ : BufTy).Contents (Elt F) → (⟨S32768x128, .f32⟩ : BufTy).Contents (Elt F)),
    StableHlo.binary main_v308 main_arg5 main_v335 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    StableHlo.nullary main_c_65 (constantI S_ 32 0#32),
    StableHlo.unary main_c_65 main_v336 (broadcastInDim S2176 ![] bcast_S_S2176 : (⟨S_, .i32⟩ : BufTy).Contents (Elt F) → (⟨S2176, .i32⟩ : BufTy).Contents (Elt F)),
    StableHlo.binary main_v33 main_v336 main_v337 (cmpi .slt : (⟨S2176, .i32⟩ : BufTy).Contents (Elt F) → (⟨S2176, .i32⟩ : BufTy).Contents (Elt F) → (⟨S2176, .i1⟩ : BufTy).Contents (Elt F)),
    StableHlo.nullary main_c_66 (constantI S_ 32 128#32),
    StableHlo.unary main_c_66 main_v338 (broadcastInDim S2176 ![] bcast_S_S2176 : (⟨S_, .i32⟩ : BufTy).Contents (Elt F) → (⟨S2176, .i32⟩ : BufTy).Contents (Elt F)),
    StableHlo.binary main_v33 main_v338 main_v339 (addi : (⟨S2176, .i32⟩ : BufTy).Contents (Elt F) → (⟨S2176, .i32⟩ : BufTy).Contents (Elt F) → (⟨S2176, .i32⟩ : BufTy).Contents (Elt F)),
    StableHlo.ternary main_v337 main_v339 main_v33 main_v340 (select : (⟨S2176, .i1⟩ : BufTy).Contents (Elt F) → (⟨S2176, .i32⟩ : BufTy).Contents (Elt F) → (⟨S2176, .i32⟩ : BufTy).Contents (Elt F) → (⟨S2176, .i32⟩ : BufTy).Contents (Elt F)),
    StableHlo.unary main_v340 main_v341 (broadcastInDim S2176x1 ![0] bcast_S2176_S2176x1_0 : (⟨S2176, .i32⟩ : BufTy).Contents (Elt F) → (⟨S2176x1, .i32⟩ : BufTy).Contents (Elt F)),
    StableHlo.binary main_v335 main_v341 main_v342 ((fun x i => Host.gather gather_S128x128_S2176x1_S2176x128_1_0_n_n_0_1_1128 x i) : (⟨S128x128, .f32⟩ : BufTy).Contents (Elt F) → (⟨S2176x1, .i32⟩ : BufTy).Contents (Elt F) → (⟨S2176x128, .f32⟩ : BufTy).Contents (Elt F)),
    StableHlo.unary main_v59 main_v343 (broadcastInDim S2176x1 ![0] bcast_S2176_S2176x1_0 : (⟨S2176, .f32⟩ : BufTy).Contents (Elt F) → (⟨S2176x1, .f32⟩ : BufTy).Contents (Elt F)),
    StableHlo.unary main_v343 main_v344 (broadcastInDim S2176x128 ![0, 1] bcast_S2176x1_S2176x128_0_1 : (⟨S2176x1, .f32⟩ : BufTy).Contents (Elt F) → (⟨S2176x128, .f32⟩ : BufTy).Contents (Elt F)),
    StableHlo.binary main_v342 main_v344 main_v345 (mulf : (⟨S2176x128, .f32⟩ : BufTy).Contents (Elt F) → (⟨S2176x128, .f32⟩ : BufTy).Contents (Elt F) → (⟨S2176x128, .f32⟩ : BufTy).Contents (Elt F)),
    StableHlo.nullary main_cst_67 (constant S_ .f32 0x00000000#32),
    StableHlo.unary main_cst_67 main_v346 (broadcastInDim S128x128 ![] bcast_S_S128x128 : (⟨S_, .f32⟩ : BufTy).Contents (Elt F) → (⟨S128x128, .f32⟩ : BufTy).Contents (Elt F)),
    StableHlo.unary main_v36 main_v347 (broadcastInDim S2176x1 ![0] bcast_S2176_S2176x1_0 : (⟨S2176, .i32⟩ : BufTy).Contents (Elt F) → (⟨S2176x1, .i32⟩ : BufTy).Contents (Elt F)),
    StableHlo.ternary main_v346 main_v347 main_v345 main_v348 ((fun x i u => Host.scatterAdd scatter_S128x128_S2176x1_S2176x128_1_0_0_1 x i u) : (⟨S128x128, .f32⟩ : BufTy).Contents (Elt F) → (⟨S2176x1, .i32⟩ : BufTy).Contents (Elt F) → (⟨S2176x128, .f32⟩ : BufTy).Contents (Elt F) → (⟨S128x128, .f32⟩ : BufTy).Contents (Elt F)),
    StableHlo.unary main_arg6 main_v349 (broadcastInDim S1x128 ![1] bcast_S128_S1x128_1 : (⟨S128, .f32⟩ : BufTy).Contents (Elt F) → (⟨S1x128, .f32⟩ : BufTy).Contents (Elt F)),
    StableHlo.unary main_v349 main_v350 (broadcastInDim S128x128 ![0, 1] bcast_S1x128_S128x128_0_1 : (⟨S1x128, .f32⟩ : BufTy).Contents (Elt F) → (⟨S128x128, .f32⟩ : BufTy).Contents (Elt F)),
    StableHlo.binary main_v348 main_v350 main_v351 (addf : (⟨S128x128, .f32⟩ : BufTy).Contents (Elt F) → (⟨S128x128, .f32⟩ : BufTy).Contents (Elt F) → (⟨S128x128, .f32⟩ : BufTy).Contents (Elt F)),
    StableHlo.TRef.nullary main_call8.v0 (iotaInDim S128x128 32 0),
    StableHlo.TRef.nullary main_call8.v1 (iotaInDim S128x128 32 1),
    StableHlo.TRef.nullary main_call8.c (constantI S_ 32 0#32),
    StableHlo.TRef.unary main_call8.c main_call8.v2 (broadcastInDim S128x128 ![] bcast_S_S128x128),
    StableHlo.TRef.binary main_call8.v0 main_call8.v2 main_call8.v3 addi,
    StableHlo.TRef.binary main_call8.v3 main_call8.v1 main_call8.v4 (cmpi .eq),
    StableHlo.TRef.nullary main_call8.cst (constant S_ .f32 0x00000000#32),
    StableHlo.TRef.unary main_call8.cst main_call8.v5 (broadcastInDim S128x128 ![] bcast_S_S128x128),
    StableHlo.TRef.ternary main_call8.v4 ((.of main_v351) : StableHlo.TRef sig ⟨S128x128, .f32⟩) main_call8.v5 main_call8.call0.v0 select,
    StableHlo.TRef.nullary main_call8.cst_0 (constant S_ .f32 0x00000000#32),
    StableHlo.TRef.binary main_call8.call0.v0 main_call8.cst_0 main_call8.v7 (fun x v => Host.reduceAdd x v reducesTo_S128x128_S_d0_1 h_S_),
    StableHlo.reshape main_v334 main_v353 rfl shapeCasts_S32768x128_S256x128x128,
    StableHlo.nullary main_v354 (iotaInDim S128x128 32 0),
    StableHlo.nullary main_v355 (iotaInDim S128x128 32 1),
    StableHlo.binary main_v354 main_v355 main_v356 (cmpi .eq : (⟨S128x128, .i32⟩ : BufTy).Contents (Elt F) → (⟨S128x128, .i32⟩ : BufTy).Contents (Elt F) → (⟨S128x128, .i1⟩ : BufTy).Contents (Elt F)),
    StableHlo.unary main_v356 main_v357 (broadcastInDim S256x128x128 ![1, 2] bcast_S128x128_S256x128x128_1_2 : (⟨S128x128, .i1⟩ : BufTy).Contents (Elt F) → (⟨S256x128x128, .i1⟩ : BufTy).Contents (Elt F)),
    StableHlo.nullary main_cst_68 (constant S_ .f32 0x00000000#32),
    StableHlo.unary main_cst_68 main_v358 (broadcastInDim S256x128x128 ![] bcast_S_S256x128x128 : (⟨S_, .f32⟩ : BufTy).Contents (Elt F) → (⟨S256x128x128, .f32⟩ : BufTy).Contents (Elt F)),
    StableHlo.ternary main_v357 main_v353 main_v358 main_v359 (select : (⟨S256x128x128, .i1⟩ : BufTy).Contents (Elt F) → (⟨S256x128x128, .f32⟩ : BufTy).Contents (Elt F) → (⟨S256x128x128, .f32⟩ : BufTy).Contents (Elt F) → (⟨S256x128x128, .f32⟩ : BufTy).Contents (Elt F)),
    StableHlo.nullary main_cst_69 (constant S_ .f32 0x00000000#32),
    StableHlo.binary main_v359 main_cst_69 main_v360 ((fun x v => Host.reduceAdd x v reducesTo_S256x128x128_S256_d1_2 h_S_) : (⟨S256x128x128, .f32⟩ : BufTy).Contents (Elt F) → (⟨S_, .f32⟩ : BufTy).Contents (Elt F) → (⟨S256, .f32⟩ : BufTy).Contents (Elt F)) ]

/-- The buffers they write, in order. -/
abbrev Rit6W : List (Ref sig .tc) :=
  [ main_v318, main_c_62, main_v319, main_v320, main_c_63, main_v321, main_v322, main_v323,
    main_v324, main_v325, main_v326, main_v327, main_v328, main_cst_64, main_v329, main_v330,
    main_v331, main_v332, main_v333, main_v334, main_v335, main_c_65, main_v336, main_v337,
    main_c_66, main_v338, main_v339, main_v340, main_v341, main_v342, main_v343, main_v344,
    main_v345, main_cst_67, main_v346, main_v347, main_v348, main_v349, main_v350, main_v351,
    main_call8.v0.ref, main_call8.v1.ref, main_call8.c.ref, main_call8.v2.ref, main_call8.v3.ref, main_call8.v4.ref, main_call8.cst.ref, main_call8.v5.ref,
    main_call8.call0.v0.ref, main_call8.cst_0.ref, main_call8.v7.ref, main_v353, main_v354, main_v355, main_v356, main_v357,
    main_cst_68, main_v358, main_v359, main_cst_69, main_v360 ]

/-- Each writes one buffer, of `Rit6W`. -/
theorem Rit6_writes : (Rit6 : List (HloOp τ sig (Elt F))).Forall fun op =>
    op.writes ⊆ (Rit6W.map (Proc.devRef (τ := τ) .tc)).toFinset :=
  ⟨writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (ternary_writes ..) (by decide), writes_sub_of_eq (unary_writes ..) (by decide),
    writes_sub_of_eq (binary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (unary_writes ..) (by decide), writes_sub_of_eq (ternary_writes ..) (by decide), writes_sub_of_eq (unary_writes ..) (by decide),
    writes_sub_of_eq (unary_writes ..) (by decide), writes_sub_of_eq (binary_writes ..) (by decide), writes_sub_of_eq (binary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (ternary_writes ..) (by decide), writes_sub_of_eq (unary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (unary_writes ..) (by decide),
    writes_sub_of_eq (ternary_writes ..) (by decide), writes_sub_of_eq (unary_writes ..) (by decide), writes_sub_of_eq (unary_writes ..) (by decide),
    writes_sub_of_eq (binary_writes ..) (by decide), writes_sub_of_eq (nullary_writes ..) (by decide), writes_sub_of_eq (nullary_writes ..) (by decide),
    writes_sub_of_eq (nullary_writes ..) (by decide), writes_sub_of_eq (unary_writes ..) (by decide), writes_sub_of_eq (binary_writes ..) (by decide),
    writes_sub_of_eq (binary_writes ..) (by decide), writes_sub_of_eq (nullary_writes ..) (by decide), writes_sub_of_eq (unary_writes ..) (by decide),
    writes_sub_of_eq (ternary_writes ..) (by decide), writes_sub_of_eq (nullary_writes ..) (by decide), writes_sub_of_eq (binary_writes ..) (by decide),
    writes_sub_of_eq (reshape_writes ..) (by decide), writes_sub_of_eq (nullary_writes ..) (by decide), writes_sub_of_eq (nullary_writes ..) (by decide),
    writes_sub_of_eq (binary_writes ..) (by decide), writes_sub_of_eq (unary_writes ..) (by decide), writes_sub_of_eq (nullary_writes ..) (by decide),
    writes_sub_of_eq (unary_writes ..) (by decide), writes_sub_of_eq (ternary_writes ..) (by decide), writes_sub_of_eq (nullary_writes ..) (by decide),
    writes_sub_of_eq (binary_writes ..) (by decide)⟩

/-- A buffer outside `Rit6W` keeps its contents through them. -/
theorem Rit6_keeps (V : Valuation τ sig (Elt F)) {r : Ref sig .tc} (hr : r ∉ Rit6W) :
    after Rit6 V (Proc.devRef .tc r) = V (Proc.devRef .tc r) :=
  after_of_writes_sub Rit6 V Rit6_writes hr

end Cert.ReferenceIdeal.RR

end
-- ==== Proof.RefChunksTail.lean ====
/- Operations 507 … 587 of the reference program's @main as a LIST, in order (the calls replaced by the callees'
   operations over the calls' records of buffers), with the list of the buffers they write and that a buffer outside
   that list keeps its contents through them. The nine such lists, in order, are @main. -/
import proofs.«156722_j77687368450207_1_alg».proof.Proof.Gen.ReferenceIdeal
import proofs.«156722_j77687368450207_1_alg».proof.Proof.RefRunBase

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

/-- Operations 507 … 587 of @main (81): the readout, from the seven layers' diagonal sums and traces to the result. -/
abbrev Rtail : List (HloOp τ sig (Elt F)) :=
  [ StableHlo.unary main_v102 main_v361 (broadcastInDim S256x1 ![0] bcast_S256_S256x1_0 : (⟨S256, .f32⟩ : BufTy).Contents (Elt F) → (⟨S256x1, .f32⟩ : BufTy).Contents (Elt F)),
    StableHlo.unary main_v145 main_v362 (broadcastInDim S256x1 ![0] bcast_S256_S256x1_0 : (⟨S256, .f32⟩ : BufTy).Contents (Elt F) → (⟨S256x1, .f32⟩ : BufTy).Contents (Elt F)),
    StableHlo.unary main_v188 main_v363 (broadcastInDim S256x1 ![0] bcast_S256_S256x1_0 : (⟨S256, .f32⟩ : BufTy).Contents (Elt F) → (⟨S256x1, .f32⟩ : BufTy).Contents (Elt F)),
    StableHlo.unary main_v231 main_v364 (broadcastInDim S256x1 ![0] bcast_S256_S256x1_0 : (⟨S256, .f32⟩ : BufTy).Contents (Elt F) → (⟨S256x1, .f32⟩ : BufTy).Contents (Elt F)),
    StableHlo.unary main_v274 main_v365 (broadcastInDim S256x1 ![0] bcast_S256_S256x1_0 : (⟨S256, .f32⟩ : BufTy).Contents (Elt F) → (⟨S256x1, .f32⟩ : BufTy).Contents (Elt F)),
    StableHlo.unary main_v317 main_v366 (broadcastInDim S256x1 ![0] bcast_S256_S256x1_0 : (⟨S256, .f32⟩ : BufTy).Contents (Elt F) → (⟨S256x1, .f32⟩ : BufTy).Contents (Elt F)),
    StableHlo.unary main_v360 main_v367 (broadcastInDim S256x1 ![0] bcast_S256_S256x1_0 : (⟨S256, .f32⟩ : BufTy).Contents (Elt F) → (⟨S256x1, .f32⟩ : BufTy).Contents (Elt F)),
    StableHlo.nary ![main_v361, main_v362, main_v363, main_v364, main_v365, main_v366, main_v367] main_v368 (fun u => concatenate S256x7 1 [⟨S256x1, u 0⟩, ⟨S256x1, u 1⟩, ⟨S256x1, u 2⟩, ⟨S256x1, u 3⟩, ⟨S256x1, u 4⟩, ⟨S256x1, u 5⟩, ⟨S256x1, u 6⟩] concatenates_S256x1_S256x1_S256x1_S256x1_S256x1_S256x1_S256x1_S256x7_d1),
    StableHlo.unary main_v94 main_v369 (broadcastInDim S1 ![] bcast_S_S1 : (⟨S_, .f32⟩ : BufTy).Contents (Elt F) → (⟨S1, .f32⟩ : BufTy).Contents (Elt F)),
    StableHlo.unary main_v137 main_v370 (broadcastInDim S1 ![] bcast_S_S1 : (⟨S_, .f32⟩ : BufTy).Contents (Elt F) → (⟨S1, .f32⟩ : BufTy).Contents (Elt F)),
    StableHlo.unary main_v180 main_v371 (broadcastInDim S1 ![] bcast_S_S1 : (⟨S_, .f32⟩ : BufTy).Contents (Elt F) → (⟨S1, .f32⟩ : BufTy).Contents (Elt F)),
    StableHlo.unary main_v223 main_v372 (broadcastInDim S1 ![] bcast_S_S1 : (⟨S_, .f32⟩ : BufTy).Contents (Elt F) → (⟨S1, .f32⟩ : BufTy).Contents (Elt F)),
    StableHlo.unary main_v266 main_v373 (broadcastInDim S1 ![] bcast_S_S1 : (⟨S_, .f32⟩ : BufTy).Contents (Elt F) → (⟨S1, .f32⟩ : BufTy).Contents (Elt F)),
    StableHlo.unary main_v309 main_v374 (broadcastInDim S1 ![] bcast_S_S1 : (⟨S_, .f32⟩ : BufTy).Contents (Elt F) → (⟨S1, .f32⟩ : BufTy).Contents (Elt F)),
    StableHlo.unary main_v352 main_v375 (broadcastInDim S1 ![] bcast_S_S1 : (⟨S_, .f32⟩ : BufTy).Contents (Elt F) → (⟨S1, .f32⟩ : BufTy).Contents (Elt F)),
    StableHlo.nary ![main_v369, main_v370, main_v371, main_v372, main_v373, main_v374, main_v375] main_v376 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0),
    StableHlo.unary main_v376 main_v377 (broadcastInDim S1x7 ![1] bcast_S7_S1x7_1 : (⟨S7, .f32⟩ : BufTy).Contents (Elt F) → (⟨S1x7, .f32⟩ : BufTy).Contents (Elt F)),
    StableHlo.unary main_v377 main_v378 (broadcastInDim S256x7 ![0, 1] bcast_S1x7_S256x7_0_1 : (⟨S1x7, .f32⟩ : BufTy).Contents (Elt F) → (⟨S256x7, .f32⟩ : BufTy).Contents (Elt F)),
    StableHlo.binary main_v368 main_v378 main_v379 (subf : (⟨S256x7, .f32⟩ : BufTy).Contents (Elt F) → (⟨S256x7, .f32⟩ : BufTy).Contents (Elt F) → (⟨S256x7, .f32⟩ : BufTy).Contents (Elt F)),
    StableHlo.nullary main_cst_70 (constant S_ .f32 0x3F000000#32),
    StableHlo.unary main_cst_70 main_v380 (broadcastInDim S256x1 ![] bcast_S_S256x1 : (⟨S_, .f32⟩ : BufTy).Contents (Elt F) → (⟨S256x1, .f32⟩ : BufTy).Contents (Elt F)),
    StableHlo.binary main_arg2 main_v380 main_v381 (subf : (⟨S256x1, .f32⟩ : BufTy).Contents (Elt F) → (⟨S256x1, .f32⟩ : BufTy).Contents (Elt F) → (⟨S256x1, .f32⟩ : BufTy).Contents (Elt F)),
    StableHlo.nullary main_cst_71 (constant S_ .f32 0x40000000#32),
    StableHlo.unary main_cst_71 main_v382 (broadcastInDim S256x1 ![] bcast_S_S256x1 : (⟨S_, .f32⟩ : BufTy).Contents (Elt F) → (⟨S256x1, .f32⟩ : BufTy).Contents (Elt F)),
    StableHlo.binary main_v381 main_v382 main_v383 (mulf : (⟨S256x1, .f32⟩ : BufTy).Contents (Elt F) → (⟨S256x1, .f32⟩ : BufTy).Contents (Elt F) → (⟨S256x1, .f32⟩ : BufTy).Contents (Elt F)),
    StableHlo.unary main_v383 main_v384 (broadcastInDim S256x7 ![0, 1] bcast_S256x1_S256x7_0_1 : (⟨S256x1, .f32⟩ : BufTy).Contents (Elt F) → (⟨S256x7, .f32⟩ : BufTy).Contents (Elt F)),
    StableHlo.binary main_v379 main_v384 main_v385 (mulf : (⟨S256x7, .f32⟩ : BufTy).Contents (Elt F) → (⟨S256x7, .f32⟩ : BufTy).Contents (Elt F) → (⟨S256x7, .f32⟩ : BufTy).Contents (Elt F)),
    StableHlo.nullary main_cst_72 (constant S_ .f32 0x00000000#32),
    StableHlo.binary main_v385 main_cst_72 main_v386 ((fun x v => Host.reduceAdd x v reducesTo_S256x7_S7_d0 h_S_) : (⟨S256x7, .f32⟩ : BufTy).Contents (Elt F) → (⟨S_, .f32⟩ : BufTy).Contents (Elt F) → (⟨S7, .f32⟩ : BufTy).Contents (Elt F)),
    StableHlo.unary main_v386 main_v387 (broadcastInDim S1x7 ![1] bcast_S7_S1x7_1 : (⟨S7, .f32⟩ : BufTy).Contents (Elt F) → (⟨S1x7, .f32⟩ : BufTy).Contents (Elt F)),
    StableHlo.nullary main_cst_73 (constant S_ .f32 0x43800000#32),
    StableHlo.unary main_cst_73 main_v388 (broadcastInDim S1x7 ![] bcast_S_S1x7 : (⟨S_, .f32⟩ : BufTy).Contents (Elt F) → (⟨S1x7, .f32⟩ : BufTy).Contents (Elt F)),
    StableHlo.binary main_v387 main_v388 main_v389 (Host.divf : (⟨S1x7, .f32⟩ : BufTy).Contents (Elt F) → (⟨S1x7, .f32⟩ : BufTy).Contents (Elt F) → (⟨S1x7, .f32⟩ : BufTy).Contents (Elt F)),
    StableHlo.nullary main_c_74 (constantI S_ 32 1#32),
    StableHlo.TRef.nullary main_call9.call0.cst (constant S_ .f32 0x00000000#32),
    StableHlo.TRef.binary ((.of main_v385) : StableHlo.TRef sig ⟨S256x7, .f32⟩) main_call9.call0.cst main_call9.call0.v0 (fun x v => Host.reduceAdd x v reducesTo_S256x7_S7_d0 h_S_),
    StableHlo.TRef.unary main_call9.call0.v0 main_call9.call0.v1 (broadcastInDim S1x7 ![1] bcast_S7_S1x7_1),
    StableHlo.TRef.nullary main_call9.call0.cst_0 (constant S_ .f32 0x43800000#32),
    StableHlo.TRef.unary main_call9.call0.cst_0 main_call9.call0.v2 (broadcastInDim S1x7 ![] bcast_S_S1x7),
    StableHlo.TRef.binary main_call9.call0.v1 main_call9.call0.v2 main_call9.call0.v3 Host.divf,
    StableHlo.TRef.unary main_call9.call0.v3 main_call9.call0.v4 (broadcastInDim S256x7 ![0, 1] bcast_S1x7_S256x7_0_1),
    StableHlo.TRef.binary ((.of main_v385) : StableHlo.TRef sig ⟨S256x7, .f32⟩) main_call9.call0.v4 main_call9.call0.v5 subf,
    StableHlo.TRef.binary main_call9.call0.v5 main_call9.call0.v5 main_call9.call0.v6 mulf,
    StableHlo.TRef.unary ((.of main_c_74) : StableHlo.TRef sig ⟨S_, .i32⟩) main_call9.call0.v7 (sitofp .f32),
    StableHlo.TRef.nullary main_call9.call0.cst_1 (constant S_ .f32 0x43800000#32),
    StableHlo.TRef.binary main_call9.call0.cst_1 main_call9.call0.v7 main_call9.call0.v8 subf,
    StableHlo.TRef.nullary main_call9.call0.cst_2 (constant S_ .f32 0x00000000#32),
    StableHlo.TRef.binary main_call9.call0.v6 main_call9.call0.cst_2 main_call9.call0.v9 (fun x v => Host.reduceAdd x v reducesTo_S256x7_S7_d0 h_S_),
    StableHlo.TRef.unary main_call9.call0.v9 main_call9.call0.v10 (broadcastInDim S1x7 ![1] bcast_S7_S1x7_1),
    StableHlo.TRef.unary main_call9.call0.v8 main_call9.call0.v11 (broadcastInDim S1x7 ![] bcast_S_S1x7),
    StableHlo.TRef.binary main_call9.call0.v10 main_call9.call0.v11 main_call9.call0.v12 Host.divf,
    StableHlo.TRef.nullary main_call9.call0.cst_3 (constant S_ .f32 0x00000000#32),
    StableHlo.TRef.binary main_call9.call0.v8 main_call9.call0.cst_3 main_call9.call0.v13 (cmpf .ogt),
    StableHlo.TRef.nullary main_call9.call0.cst_4 (constant S_ .f32 0x7FC00000#32),
    StableHlo.TRef.unary main_call9.call0.cst_4 main_call9.call0.call0.v0 id,
    StableHlo.TRef.unary main_call9.call0.call0.v0 main_call9.call0.call0.v1 (broadcastInDim S1x7 ![] bcast_S_S1x7),
    StableHlo.TRef.ternary main_call9.call0.v13 main_call9.call0.v12 main_call9.call0.call0.v1 main_call9.call0.call0.v2 (fun p a b => select (broadcastInDim S1x7 ![] bcast_S_S1x7 p) a b),
    StableHlo.TRef.unary main_call9.call0.call0.v2 main_call9.v1 Host.sqrt,
    StableHlo.unary main_v389 main_v391 (broadcastInDim S256x7 ![0, 1] bcast_S1x7_S256x7_0_1 : (⟨S1x7, .f32⟩ : BufTy).Contents (Elt F) → (⟨S256x7, .f32⟩ : BufTy).Contents (Elt F)),
    StableHlo.binary main_v385 main_v391 main_v392 (subf : (⟨S256x7, .f32⟩ : BufTy).Contents (Elt F) → (⟨S256x7, .f32⟩ : BufTy).Contents (Elt F) → (⟨S256x7, .f32⟩ : BufTy).Contents (Elt F)),
    StableHlo.unary main_v390 main_v393 (broadcastInDim S256x7 ![0, 1] bcast_S1x7_S256x7_0_1 : (⟨S1x7, .f32⟩ : BufTy).Contents (Elt F) → (⟨S256x7, .f32⟩ : BufTy).Contents (Elt F)),
    StableHlo.binary main_v392 main_v393 main_v394 (Host.divf : (⟨S256x7, .f32⟩ : BufTy).Contents (Elt F) → (⟨S256x7, .f32⟩ : BufTy).Contents (Elt F) → (⟨S256x7, .f32⟩ : BufTy).Contents (Elt F)),
    StableHlo.binary main_v394 main_arg7 main_v395 ((fun l r => Host.dotGeneral dot_S256x7_S7x15_S256x15_1_0_0_1_n_n none l r) : (⟨S256x7, .f32⟩ : BufTy).Contents (Elt F) → (⟨S7x15, .f32⟩ : BufTy).Contents (Elt F) → (⟨S256x15, .f32⟩ : BufTy).Contents (Elt F)),
    StableHlo.unary main_arg8 main_v396 (broadcastInDim S1x15 ![1] bcast_S15_S1x15_1 : (⟨S15, .f32⟩ : BufTy).Contents (Elt F) → (⟨S1x15, .f32⟩ : BufTy).Contents (Elt F)),
    StableHlo.unary main_v396 main_v397 (broadcastInDim S256x15 ![0, 1] bcast_S1x15_S256x15_0_1 : (⟨S1x15, .f32⟩ : BufTy).Contents (Elt F) → (⟨S256x15, .f32⟩ : BufTy).Contents (Elt F)),
    StableHlo.binary main_v395 main_v397 main_v398 (addf : (⟨S256x15, .f32⟩ : BufTy).Contents (Elt F) → (⟨S256x15, .f32⟩ : BufTy).Contents (Elt F) → (⟨S256x15, .f32⟩ : BufTy).Contents (Elt F)),
    StableHlo.TRef.nullary main_call10.cst (constant S_ .f32 0x00000000#32),
    StableHlo.TRef.unary main_call10.cst main_call10.v0 (broadcastInDim S256x15 ![] bcast_S_S256x15),
    StableHlo.TRef.binary ((.of main_v398) : StableHlo.TRef sig ⟨S256x15, .f32⟩) main_call10.v0 main_call10.v1 maximumf,
    StableHlo.binary main_v399 main_arg9 main_v400 ((fun l r => Host.dotGeneral dot_S256x15_S15x1_S256x1_1_0_0_1_n_n none l r) : (⟨S256x15, .f32⟩ : BufTy).Contents (Elt F) → (⟨S15x1, .f32⟩ : BufTy).Contents (Elt F) → (⟨S256x1, .f32⟩ : BufTy).Contents (Elt F)),
    StableHlo.unary main_arg10 main_v401 (broadcastInDim S1x1 ![1] bcast_S1_S1x1_1 : (⟨S1, .f32⟩ : BufTy).Contents (Elt F) → (⟨S1x1, .f32⟩ : BufTy).Contents (Elt F)),
    StableHlo.unary main_v401 main_v402 (broadcastInDim S256x1 ![0, 1] bcast_S1x1_S256x1_0_1 : (⟨S1x1, .f32⟩ : BufTy).Contents (Elt F) → (⟨S256x1, .f32⟩ : BufTy).Contents (Elt F)),
    StableHlo.binary main_v400 main_v402 main_v403 (addf : (⟨S256x1, .f32⟩ : BufTy).Contents (Elt F) → (⟨S256x1, .f32⟩ : BufTy).Contents (Elt F) → (⟨S256x1, .f32⟩ : BufTy).Contents (Elt F)),
    StableHlo.unary main_v403 main_v404 (Host.negf : (⟨S256x1, .f32⟩ : BufTy).Contents (Elt F) → (⟨S256x1, .f32⟩ : BufTy).Contents (Elt F)),
    StableHlo.unary main_v404 main_v405 (Host.exp : (⟨S256x1, .f32⟩ : BufTy).Contents (Elt F) → (⟨S256x1, .f32⟩ : BufTy).Contents (Elt F)),
    StableHlo.nullary main_cst_75 (constant S_ .f32 0x3F800000#32),
    StableHlo.unary main_cst_75 main_v406 (broadcastInDim S256x1 ![] bcast_S_S256x1 : (⟨S_, .f32⟩ : BufTy).Contents (Elt F) → (⟨S256x1, .f32⟩ : BufTy).Contents (Elt F)),
    StableHlo.binary main_v406 main_v405 main_v407 (addf : (⟨S256x1, .f32⟩ : BufTy).Contents (Elt F) → (⟨S256x1, .f32⟩ : BufTy).Contents (Elt F) → (⟨S256x1, .f32⟩ : BufTy).Contents (Elt F)),
    StableHlo.nullary main_cst_76 (constant S_ .f32 0x3F800000#32),
    StableHlo.unary main_cst_76 main_v408 (broadcastInDim S256x1 ![] bcast_S_S256x1 : (⟨S_, .f32⟩ : BufTy).Contents (Elt F) → (⟨S256x1, .f32⟩ : BufTy).Contents (Elt F)),
    StableHlo.binary main_v408 main_v407 main_v409 (Host.divf : (⟨S256x1, .f32⟩ : BufTy).Contents (Elt F) → (⟨S256x1, .f32⟩ : BufTy).Contents (Elt F) → (⟨S256x1, .f32⟩ : BufTy).Contents (Elt F)) ]

/-- The buffers they write, in order. -/
abbrev RtailW : List (Ref sig .tc) :=
  [ main_v361, main_v362, main_v363, main_v364, main_v365, main_v366, main_v367, main_v368,
    main_v369, main_v370, main_v371, main_v372, main_v373, main_v374, main_v375, main_v376,
    main_v377, main_v378, main_v379, main_cst_70, main_v380, main_v381, main_cst_71, main_v382,
    main_v383, main_v384, main_v385, main_cst_72, main_v386, main_v387, main_cst_73, main_v388,
    main_v389, main_c_74, main_call9.call0.cst.ref, main_call9.call0.v0.ref, main_call9.call0.v1.ref, main_call9.call0.cst_0.ref, main_call9.call0.v2.ref, main_call9.call0.v3.ref,
    main_call9.call0.v4.ref, main_call9.call0.v5.ref, main_call9.call0.v6.ref, main_call9.call0.v7.ref, main_call9.call0.cst_1.ref, main_call9.call0.v8.ref, main_call9.call0.cst_2.ref, main_call9.call0.v9.ref,
    main_call9.call0.v10.ref, main_call9.call0.v11.ref, main_call9.call0.v12.ref, main_call9.call0.cst_3.ref, main_call9.call0.v13.ref, main_call9.call0.cst_4.ref, main_call9.call0.call0.v0.ref, main_call9.call0.call0.v1.ref,
    main_call9.call0.call0.v2.ref, main_call9.v1.ref, main_v391, main_v392, main_v393, main_v394, main_v395, main_v396,
    main_v397, main_v398, main_call10.cst.ref, main_call10.v0.ref, main_call10.v1.ref, main_v400, main_v401, main_v402,
    main_v403, main_v404, main_v405, main_cst_75, main_v406, main_v407, main_cst_76, main_v408,
    main_v409 ]

/-- Each writes one buffer, of `RtailW`. -/
theorem Rtail_writes : (Rtail : List (HloOp τ sig (Elt F))).Forall fun op =>
    op.writes ⊆ (RtailW.map (Proc.devRef (τ := τ) .tc)).toFinset :=
  ⟨writes_sub_of_eq (unary_writes ..) (by decide), writes_sub_of_eq (unary_writes ..) (by decide), writes_sub_of_eq (unary_writes ..) (by decide),
    writes_sub_of_eq (unary_writes ..) (by decide), writes_sub_of_eq (unary_writes ..) (by decide), writes_sub_of_eq (unary_writes ..) (by decide),
    writes_sub_of_eq (unary_writes ..) (by decide), writes_sub_of_eq (nary_writes ..) (by decide), writes_sub_of_eq (unary_writes ..) (by decide),
    writes_sub_of_eq (unary_writes ..) (by decide), writes_sub_of_eq (unary_writes ..) (by decide), writes_sub_of_eq (unary_writes ..) (by decide),
    writes_sub_of_eq (unary_writes ..) (by decide), writes_sub_of_eq (unary_writes ..) (by decide), writes_sub_of_eq (unary_writes ..) (by decide),
    writes_sub_of_eq (nary_writes ..) (by decide), writes_sub_of_eq (unary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (nullary_writes ..) (by decide), writes_sub_of_eq (unary_writes ..) (by decide),
    writes_sub_of_eq (binary_writes ..) (by decide), writes_sub_of_eq (unary_writes ..) (by decide), writes_sub_of_eq (binary_writes ..) (by decide),
    writes_sub_of_eq (nullary_writes ..) (by decide), writes_sub_of_eq (binary_writes ..) (by decide), writes_sub_of_eq (unary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (nullary_writes ..) (by decide), writes_sub_of_eq (binary_writes ..) (by decide),
    writes_sub_of_eq (unary_writes ..) (by decide), writes_sub_of_eq (nullary_writes ..) (by decide), writes_sub_of_eq (unary_writes ..) (by decide),
    writes_sub_of_eq (binary_writes ..) (by decide), writes_sub_of_eq (unary_writes ..) (by decide), writes_sub_of_eq (binary_writes ..) (by decide),
    writes_sub_of_eq (binary_writes ..) (by decide), writes_sub_of_eq (unary_writes ..) (by decide), writes_sub_of_eq (nullary_writes ..) (by decide),
    writes_sub_of_eq (binary_writes ..) (by decide), writes_sub_of_eq (nullary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (binary_writes ..) (by decide), writes_sub_of_eq (nullary_writes ..) (by decide),
    writes_sub_of_eq (unary_writes ..) (by decide), writes_sub_of_eq (unary_writes ..) (by decide), writes_sub_of_eq (ternary_writes ..) (by decide),
    writes_sub_of_eq (unary_writes ..) (by decide), writes_sub_of_eq (unary_writes ..) (by decide), writes_sub_of_eq (binary_writes ..) (by decide),
    writes_sub_of_eq (unary_writes ..) (by decide), writes_sub_of_eq (binary_writes ..) (by decide), writes_sub_of_eq (binary_writes ..) (by decide),
    writes_sub_of_eq (unary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide),
    writes_sub_of_eq (binary_writes ..) (by decide), writes_sub_of_eq (unary_writes ..) (by decide), writes_sub_of_eq (unary_writes ..) (by decide),
    writes_sub_of_eq (binary_writes ..) (by decide), writes_sub_of_eq (unary_writes ..) (by decide), writes_sub_of_eq (unary_writes ..) (by decide),
    writes_sub_of_eq (nullary_writes ..) (by decide), writes_sub_of_eq (unary_writes ..) (by decide), writes_sub_of_eq (binary_writes ..) (by decide),
    writes_sub_of_eq (nullary_writes ..) (by decide), writes_sub_of_eq (unary_writes ..) (by decide), writes_sub_of_eq (binary_writes ..) (by decide)⟩

/-- A buffer outside `RtailW` keeps its contents through them. -/
theorem Rtail_keeps (V : Valuation τ sig (Elt F)) {r : Ref sig .tc} (hr : r ∉ RtailW) :
    after Rtail V (Proc.devRef .tc r) = V (Proc.devRef .tc r) :=
  after_of_writes_sub Rtail V Rtail_writes hr

end Cert.ReferenceIdeal.RR

end
-- ==== Proof.RefChunks.lean ====
/- The reference program's @main cut into the shared first part, the seven layers and the readout: its 588 operations
   are those nine lists one after the other, so the contents after @main are the lists' folds in turn, from the launch
   contents (`U0`) to the end (`U9`). -/
import proofs.«156722_j77687368450207_1_alg».proof.Proof.RefRun
import proofs.«156722_j77687368450207_1_alg».proof.Proof.RefChunksPro
import proofs.«156722_j77687368450207_1_alg».proof.Proof.RefChunksS0
import proofs.«156722_j77687368450207_1_alg».proof.Proof.RefChunksS1
import proofs.«156722_j77687368450207_1_alg».proof.Proof.RefChunksS2
import proofs.«156722_j77687368450207_1_alg».proof.Proof.RefChunksS3
import proofs.«156722_j77687368450207_1_alg».proof.Proof.RefChunksS4
import proofs.«156722_j77687368450207_1_alg».proof.Proof.RefChunksS5
import proofs.«156722_j77687368450207_1_alg».proof.Proof.RefChunksS6
import proofs.«156722_j77687368450207_1_alg».proof.Proof.RefChunksTail

noncomputable section

namespace Cert.ReferenceIdeal.RR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
/-- The nine windows' lists one after the other and these nine lists one after the other are the same list. -/
theorem ops_eq_rc : (ops : List (HloOp τ sig (Elt F))) =
    Rpro ++ (Rit0 ++ (Rit1 ++ (Rit2 ++ (Rit3 ++ (Rit4 ++ (Rit5 ++ (Rit6 ++ Rtail))))))) := rfl

/-- The contents list by list: `U0` at launch, then after the first part, after each layer, after the readout. -/
abbrev U0 (m : (ℓ : Loc nD τ sig) → Buf (Elt F) ℓ) (c : Dev nD) : Valuation τ sig (Elt F) := launchContents m c
abbrev U1 (m : (ℓ : Loc nD τ sig) → Buf (Elt F) ℓ) (c : Dev nD) : Valuation τ sig (Elt F) := after Rpro (U0 m c)
abbrev U2 (m : (ℓ : Loc nD τ sig) → Buf (Elt F) ℓ) (c : Dev nD) : Valuation τ sig (Elt F) := after Rit0 (U1 m c)
abbrev U3 (m : (ℓ : Loc nD τ sig) → Buf (Elt F) ℓ) (c : Dev nD) : Valuation τ sig (Elt F) := after Rit1 (U2 m c)
abbrev U4 (m : (ℓ : Loc nD τ sig) → Buf (Elt F) ℓ) (c : Dev nD) : Valuation τ sig (Elt F) := after Rit2 (U3 m c)
abbrev U5 (m : (ℓ : Loc nD τ sig) → Buf (Elt F) ℓ) (c : Dev nD) : Valuation τ sig (Elt F) := after Rit3 (U4 m c)
abbrev U6 (m : (ℓ : Loc nD τ sig) → Buf (Elt F) ℓ) (c : Dev nD) : Valuation τ sig (Elt F) := after Rit4 (U5 m c)
abbrev U7 (m : (ℓ : Loc nD τ sig) → Buf (Elt F) ℓ) (c : Dev nD) : Valuation τ sig (Elt F) := after Rit5 (U6 m c)
abbrev U8 (m : (ℓ : Loc nD τ sig) → Buf (Elt F) ℓ) (c : Dev nD) : Valuation τ sig (Elt F) := after Rit6 (U7 m c)
abbrev U9 (m : (ℓ : Loc nD τ sig) → Buf (Elt F) ℓ) (c : Dev nD) : Valuation τ sig (Elt F) := after Rtail (U8 m c)

/-- The contents after @main are the last of them. -/
theorem after_ops_eq_U (m : (ℓ : Loc nD τ sig) → Buf (Elt F) ℓ) (c : Dev nD) :
    after ops (launchContents m c) = U9 m c := by
  rw [ops_eq_rc]
  simp only [after_app]

end Cert.ReferenceIdeal.RR

end
-- ==== Proof.BridgeKeeps.lean ====
/-
  Agreement between the two programs' contents, and how it passes through a pair of lines.
  Two contents, one of each program, agree at a pair of arrays when the two arrays hold the same values. A line of the
  first program and a line of the second that write neither array of the pair leave the agreement as it was.
-/
import proofs.«156722_j77687368450207_1_alg».proof.Proof.KKeeps
import proofs.«156722_j77687368450207_1_alg».proof.Proof.RefChunks

set_option maxRecDepth 8192
set_option maxHeartbeats 4000000

noncomputable section

namespace Cert.Proof.Br

open Idealize.ShloMosaic Idealize.ShloMosaic.TcCoe Idealize.SL.Sem Idealize.ShloMosaic.StableHlo

/-- Contents of the first program's arrays. -/
abbrev KVal : Type := Valuation Cert.KernelIdeal.τ Cert.KernelIdeal.sig (Elt Ideal)
/-- Contents of the second program's arrays. -/
abbrev RVal : Type := Valuation Cert.ReferenceIdeal.τ Cert.ReferenceIdeal.sig (Elt Ideal)

/-- The identity pattern: the row counter compared with the column counter, as a number. -/
abbrev PAT : FVec Ideal Cert.KernelIdeal.S128x128 .f32 :=
  uitofp (F := Ideal) .f32
    (cmpi .eq
      (addi (iotaInDim Cert.KernelIdeal.S128x128 32 0)
        (broadcastInDim Cert.KernelIdeal.S128x128 ![] Cert.KernelIdeal.Gen.bcast_S_S128x128 (constantI Cert.KernelIdeal.S_ 32 0#32)))
      (iotaInDim Cert.KernelIdeal.S128x128 32 1))

/-- The two contents hold the same values at the pair of arrays (x, y). -/
abbrev Agree (V₁ : KVal) (V₂ : RVal) (x : Ref Cert.KernelIdeal.sig .tc) (y : Ref Cert.ReferenceIdeal.sig .tc) : Prop :=
  HEq (V₁ (Proc.devRef .tc x)) (V₂ (Proc.devRef .tc y))

/-- Lines that write neither array of a pair leave the agreement at the pair as it was. -/
theorem Agree.keep {V₁ : KVal} {V₂ : RVal} {ops₁ : List (HloOp Cert.KernelIdeal.τ Cert.KernelIdeal.sig (Elt Ideal))}
    {ops₂ : List (HloOp Cert.ReferenceIdeal.τ Cert.ReferenceIdeal.sig (Elt Ideal))} {W₁ : List (Ref Cert.KernelIdeal.sig .tc)} {W₂ : List (Ref Cert.ReferenceIdeal.sig .tc)}
    (hW₁ : ops₁.Forall fun op => op.writes ⊆ (W₁.map (Proc.devRef (τ := Cert.KernelIdeal.τ) .tc)).toFinset)
    (hW₂ : ops₂.Forall fun op => op.writes ⊆ (W₂.map (Proc.devRef (τ := Cert.ReferenceIdeal.τ) .tc)).toFinset)
    {x : Ref Cert.KernelIdeal.sig .tc} {y : Ref Cert.ReferenceIdeal.sig .tc} (h : Agree V₁ V₂ x y) (hx : x ∉ W₁) (hy : y ∉ W₂) :
    Agree (after ops₁ V₁) (after ops₂ V₂) x y := by
  show HEq (after ops₁ V₁ (Proc.devRef .tc x)) (after ops₂ V₂ (Proc.devRef .tc y))
  rw [after_of_writes_sub ops₁ V₁ hW₁ hx, after_of_writes_sub ops₂ V₂ hW₂ hy]
  exact h

end Cert.Proof.Br

end
-- ==== Proof.BridgeBase.lean ====
/- Reading a fold of a line of operations at a buffer: the fold over a concatenation is the folds in turn, each
   operation's result at its own buffer is its function of the operands' contents, and at any other buffer what was
   there. -/
import Idealize.ShloMosaic.Lib.StableHlo.Run
import proofs.«156722_j77687368450207_1_alg».proof.Proof.RefRunBase

namespace Cert.ReferenceIdeal.RR

open Idealize.ShloMosaic Idealize.ShloMosaic.StableHlo

/-- One pass over the goal with the result lemmas (shared subterms visited once). -/
macro "read_folds_pass" : tactic =>
  `(tactic| simp (disch := decide) only [after_app, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-- Reads every fold in the goal down to the operations' functions applied to the starting contents: the pass while it
    makes progress; where it cannot enter (an operand inside a list of dependent pairs), one rewriting step. -/
macro "read_folds" : tactic =>
  `(tactic| repeat (first
      | read_folds_pass
      | rw [nullary_result] | rw [unary_result] | rw [binary_result] | rw [ternary_result] | rw [quaternary_result]
      | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))

end Cert.ReferenceIdeal.RR
-- ==== Proof.BridgeCongr.lean ====
/- Concatenating operands that are equal one by one gives equal results (stated for two and for seven operands, the
   forms the two programs use), so that a pass rewriting the operands can go inside a concatenation. -/
import Idealize.ShloMosaic.PureOps
namespace Cert.ReferenceIdeal.RR
open Idealize.ShloMosaic

theorem concatenate_congr2 {α : Type} (t : Shape) (a : Fin t.rank) {S0 S1 : Shape}
    {x0 y0 : S0.Idx → α} {x1 y1 : S1.Idx → α}
    (h : Shape.Concatenates (([⟨S0, x0⟩, ⟨S1, x1⟩] : List ((s : Shape) × (s.Idx → α))).map (·.1)) t a)
    (e0 : x0 = y0) (e1 : x1 = y1) :
    concatenate t a [⟨S0, x0⟩, ⟨S1, x1⟩] h = concatenate t a [⟨S0, y0⟩, ⟨S1, y1⟩] h := by
  subst e0; subst e1; rfl

theorem concatenate_congr7 {α : Type} (t : Shape) (a : Fin t.rank) {S0 S1 S2 S3 S4 S5 S6 : Shape}
    {x0 y0 : S0.Idx → α} {x1 y1 : S1.Idx → α} {x2 y2 : S2.Idx → α} {x3 y3 : S3.Idx → α} {x4 y4 : S4.Idx → α} {x5 y5 : S5.Idx → α} {x6 y6 : S6.Idx → α}
    (h : Shape.Concatenates (([⟨S0, x0⟩, ⟨S1, x1⟩, ⟨S2, x2⟩, ⟨S3, x3⟩, ⟨S4, x4⟩, ⟨S5, x5⟩, ⟨S6, x6⟩] : List ((s : Shape) × (s.Idx → α))).map (·.1)) t a)
    (e0 : x0 = y0) (e1 : x1 = y1) (e2 : x2 = y2) (e3 : x3 = y3) (e4 : x4 = y4) (e5 : x5 = y5) (e6 : x6 = y6) :
    concatenate t a [⟨S0, x0⟩, ⟨S1, x1⟩, ⟨S2, x2⟩, ⟨S3, x3⟩, ⟨S4, x4⟩, ⟨S5, x5⟩, ⟨S6, x6⟩] h = concatenate t a [⟨S0, y0⟩, ⟨S1, y1⟩, ⟨S2, y2⟩, ⟨S3, y3⟩, ⟨S4, y4⟩, ⟨S5, y5⟩, ⟨S6, y6⟩] h := by
  subst e0; subst e1; subst e2; subst e3; subst e4; subst e5; subst e6; rfl

end Cert.ReferenceIdeal.RR
-- ==== Proof.BridgePro.lean ====
/- The shared first part of the two programs, side by side: from contents that agree on the two edge-list arguments,
   the kernel program's first host stretches and the reference program's first 80 operations leave the same contents
   in the six buffers the layers read (for each graph: the two endpoint lists with the self loops appended, and the
   edge weights). -/
import proofs.«156722_j77687368450207_1_alg».proof.Proof.KOpsDefs
import proofs.«156722_j77687368450207_1_alg».proof.Proof.RefChunksPro
import proofs.«156722_j77687368450207_1_alg».proof.Proof.BridgeBase
import proofs.«156722_j77687368450207_1_alg».proof.Proof.BridgeCongr

noncomputable section

namespace Cert.ReferenceIdeal.RR

open Idealize.ShloMosaic Idealize.ShloMosaic.TcCoe Idealize.ShloMosaic.StableHlo

attribute [local congr] concatenate_congr2 concatenate_congr7

set_option maxRecDepth 8192 in
set_option maxHeartbeats 4000000 in
theorem pro_v3
    (V₁ : Valuation Cert.KernelIdeal.τ Cert.KernelIdeal.sig (Elt Ideal)) (V₂ : Valuation Cert.ReferenceIdeal.τ Cert.ReferenceIdeal.sig (Elt Ideal))
    (e3 : (⟨Cert.ReferenceIdeal.S2x524288, .i32⟩ : BufTy).Contents (Elt Ideal)) (e4 : (⟨Cert.ReferenceIdeal.S2x2048, .i32⟩ : BufTy).Contents (Elt Ideal))
    (h3 : V₁ (Proc.devRef .tc Cert.KernelIdeal.main_arg3) = e3) (h3' : V₂ (Proc.devRef .tc Cert.ReferenceIdeal.main_arg3) = e3)
    (h4 : V₁ (Proc.devRef .tc Cert.KernelIdeal.main_arg4) = e4) (h4' : V₂ (Proc.devRef .tc Cert.ReferenceIdeal.main_arg4) = e4) :
    after Cert.KernelIdeal.KV.Kpro V₁ (Proc.devRef .tc Cert.KernelIdeal.main_v3) = after (Rpro (F := Ideal)) V₂ (Proc.devRef .tc Cert.ReferenceIdeal.main_v3) := by
  read_folds
  simp only [h3, h3', h4, h4']
  rfl

set_option maxRecDepth 8192 in
set_option maxHeartbeats 4000000 in
theorem pro_v6
    (V₁ : Valuation Cert.KernelIdeal.τ Cert.KernelIdeal.sig (Elt Ideal)) (V₂ : Valuation Cert.ReferenceIdeal.τ Cert.ReferenceIdeal.sig (Elt Ideal))
    (e3 : (⟨Cert.ReferenceIdeal.S2x524288, .i32⟩ : BufTy).Contents (Elt Ideal)) (e4 : (⟨Cert.ReferenceIdeal.S2x2048, .i32⟩ : BufTy).Contents (Elt Ideal))
    (h3 : V₁ (Proc.devRef .tc Cert.KernelIdeal.main_arg3) = e3) (h3' : V₂ (Proc.devRef .tc Cert.ReferenceIdeal.main_arg3) = e3)
    (h4 : V₁ (Proc.devRef .tc Cert.KernelIdeal.main_arg4) = e4) (h4' : V₂ (Proc.devRef .tc Cert.ReferenceIdeal.main_arg4) = e4) :
    after Cert.KernelIdeal.KV.Kpro V₁ (Proc.devRef .tc Cert.KernelIdeal.main_v6) = after (Rpro (F := Ideal)) V₂ (Proc.devRef .tc Cert.ReferenceIdeal.main_v6) := by
  read_folds
  simp only [h3, h3', h4, h4']
  rfl

set_option maxRecDepth 8192 in
set_option maxHeartbeats 4000000 in
theorem pro_v29
    (V₁ : Valuation Cert.KernelIdeal.τ Cert.KernelIdeal.sig (Elt Ideal)) (V₂ : Valuation Cert.ReferenceIdeal.τ Cert.ReferenceIdeal.sig (Elt Ideal))
    (e3 : (⟨Cert.ReferenceIdeal.S2x524288, .i32⟩ : BufTy).Contents (Elt Ideal)) (e4 : (⟨Cert.ReferenceIdeal.S2x2048, .i32⟩ : BufTy).Contents (Elt Ideal))
    (h3 : V₁ (Proc.devRef .tc Cert.KernelIdeal.main_arg3) = e3) (h3' : V₂ (Proc.devRef .tc Cert.ReferenceIdeal.main_arg3) = e3)
    (h4 : V₁ (Proc.devRef .tc Cert.KernelIdeal.main_arg4) = e4) (h4' : V₂ (Proc.devRef .tc Cert.ReferenceIdeal.main_arg4) = e4) :
    after Cert.KernelIdeal.KV.Kpro V₁ (Proc.devRef .tc Cert.KernelIdeal.main_v29) = after (Rpro (F := Ideal)) V₂ (Proc.devRef .tc Cert.ReferenceIdeal.main_v29) := by
  read_folds
  simp only [h3, h3', h4, h4']
  rfl

set_option maxRecDepth 8192 in
set_option maxHeartbeats 4000000 in
theorem pro_v33
    (V₁ : Valuation Cert.KernelIdeal.τ Cert.KernelIdeal.sig (Elt Ideal)) (V₂ : Valuation Cert.ReferenceIdeal.τ Cert.ReferenceIdeal.sig (Elt Ideal))
    (e3 : (⟨Cert.ReferenceIdeal.S2x524288, .i32⟩ : BufTy).Contents (Elt Ideal)) (e4 : (⟨Cert.ReferenceIdeal.S2x2048, .i32⟩ : BufTy).Contents (Elt Ideal))
    (h3 : V₁ (Proc.devRef .tc Cert.KernelIdeal.main_arg3) = e3) (h3' : V₂ (Proc.devRef .tc Cert.ReferenceIdeal.main_arg3) = e3)
    (h4 : V₁ (Proc.devRef .tc Cert.KernelIdeal.main_arg4) = e4) (h4' : V₂ (Proc.devRef .tc Cert.ReferenceIdeal.main_arg4) = e4) :
    after Cert.KernelIdeal.KV.Kpro V₁ (Proc.devRef .tc Cert.KernelIdeal.main_v33) = after (Rpro (F := Ideal)) V₂ (Proc.devRef .tc Cert.ReferenceIdeal.main_v33) := by
  read_folds
  simp only [h3, h3', h4, h4']
  rfl

set_option maxRecDepth 8192 in
set_option maxHeartbeats 4000000 in
theorem pro_v36
    (V₁ : Valuation Cert.KernelIdeal.τ Cert.KernelIdeal.sig (Elt Ideal)) (V₂ : Valuation Cert.ReferenceIdeal.τ Cert.ReferenceIdeal.sig (Elt Ideal))
    (e3 : (⟨Cert.ReferenceIdeal.S2x524288, .i32⟩ : BufTy).Contents (Elt Ideal)) (e4 : (⟨Cert.ReferenceIdeal.S2x2048, .i32⟩ : BufTy).Contents (Elt Ideal))
    (h3 : V₁ (Proc.devRef .tc Cert.KernelIdeal.main_arg3) = e3) (h3' : V₂ (Proc.devRef .tc Cert.ReferenceIdeal.main_arg3) = e3)
    (h4 : V₁ (Proc.devRef .tc Cert.KernelIdeal.main_arg4) = e4) (h4' : V₂ (Proc.devRef .tc Cert.ReferenceIdeal.main_arg4) = e4) :
    after Cert.KernelIdeal.KV.Kpro V₁ (Proc.devRef .tc Cert.KernelIdeal.main_v36) = after (Rpro (F := Ideal)) V₂ (Proc.devRef .tc Cert.ReferenceIdeal.main_v36) := by
  read_folds
  simp only [h3, h3', h4, h4']
  rfl

set_option maxRecDepth 8192 in
set_option maxHeartbeats 4000000 in
theorem pro_v59
    (V₁ : Valuation Cert.KernelIdeal.τ Cert.KernelIdeal.sig (Elt Ideal)) (V₂ : Valuation Cert.ReferenceIdeal.τ Cert.ReferenceIdeal.sig (Elt Ideal))
    (e3 : (⟨Cert.ReferenceIdeal.S2x524288, .i32⟩ : BufTy).Contents (Elt Ideal)) (e4 : (⟨Cert.ReferenceIdeal.S2x2048, .i32⟩ : BufTy).Contents (Elt Ideal))
    (h3 : V₁ (Proc.devRef .tc Cert.KernelIdeal.main_arg3) = e3) (h3' : V₂ (Proc.devRef .tc Cert.ReferenceIdeal.main_arg3) = e3)
    (h4 : V₁ (Proc.devRef .tc Cert.KernelIdeal.main_arg4) = e4) (h4' : V₂ (Proc.devRef .tc Cert.ReferenceIdeal.main_arg4) = e4) :
    after Cert.KernelIdeal.KV.Kpro V₁ (Proc.devRef .tc Cert.KernelIdeal.main_v59) = after (Rpro (F := Ideal)) V₂ (Proc.devRef .tc Cert.ReferenceIdeal.main_v59) := by
  read_folds
  simp only [h3, h3', h4, h4']
  rfl

set_option maxRecDepth 8192 in
set_option maxHeartbeats 4000000 in
/-- After the first part the kernel program's pattern buffer holds the identity pattern, whatever the contents before. -/
theorem pro_pat (V₁ : Valuation Cert.KernelIdeal.τ Cert.KernelIdeal.sig (Elt Ideal)) :
    after Cert.KernelIdeal.KV.Kpro V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1)) := by
  read_folds
  all_goals rfl

/-- The six pairs, and the pattern. -/
theorem pro_bridge
    (V₁ : Valuation Cert.KernelIdeal.τ Cert.KernelIdeal.sig (Elt Ideal)) (V₂ : Valuation Cert.ReferenceIdeal.τ Cert.ReferenceIdeal.sig (Elt Ideal))
    (e3 : (⟨Cert.ReferenceIdeal.S2x524288, .i32⟩ : BufTy).Contents (Elt Ideal)) (e4 : (⟨Cert.ReferenceIdeal.S2x2048, .i32⟩ : BufTy).Contents (Elt Ideal))
    (h3 : V₁ (Proc.devRef .tc Cert.KernelIdeal.main_arg3) = e3) (h3' : V₂ (Proc.devRef .tc Cert.ReferenceIdeal.main_arg3) = e3)
    (h4 : V₁ (Proc.devRef .tc Cert.KernelIdeal.main_arg4) = e4) (h4' : V₂ (Proc.devRef .tc Cert.ReferenceIdeal.main_arg4) = e4) :
    (after Cert.KernelIdeal.KV.Kpro V₁ (Proc.devRef .tc Cert.KernelIdeal.main_v3) = after (Rpro (F := Ideal)) V₂ (Proc.devRef .tc Cert.ReferenceIdeal.main_v3))
    ∧ (after Cert.KernelIdeal.KV.Kpro V₁ (Proc.devRef .tc Cert.KernelIdeal.main_v6) = after (Rpro (F := Ideal)) V₂ (Proc.devRef .tc Cert.ReferenceIdeal.main_v6))
    ∧ (after Cert.KernelIdeal.KV.Kpro V₁ (Proc.devRef .tc Cert.KernelIdeal.main_v29) = after (Rpro (F := Ideal)) V₂ (Proc.devRef .tc Cert.ReferenceIdeal.main_v29))
    ∧ (after Cert.KernelIdeal.KV.Kpro V₁ (Proc.devRef .tc Cert.KernelIdeal.main_v33) = after (Rpro (F := Ideal)) V₂ (Proc.devRef .tc Cert.ReferenceIdeal.main_v33))
    ∧ (after Cert.KernelIdeal.KV.Kpro V₁ (Proc.devRef .tc Cert.KernelIdeal.main_v36) = after (Rpro (F := Ideal)) V₂ (Proc.devRef .tc Cert.ReferenceIdeal.main_v36))
    ∧ (after Cert.KernelIdeal.KV.Kpro V₁ (Proc.devRef .tc Cert.KernelIdeal.main_v59) = after (Rpro (F := Ideal)) V₂ (Proc.devRef .tc Cert.ReferenceIdeal.main_v59))
    ∧ (after Cert.KernelIdeal.KV.Kpro V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :=
  ⟨pro_v3 V₁ V₂ e3 e4 h3 h3' h4 h4',
   pro_v6 V₁ V₂ e3 e4 h3 h3' h4 h4',
   pro_v29 V₁ V₂ e3 e4 h3 h3' h4 h4',
   pro_v33 V₁ V₂ e3 e4 h3 h3' h4 h4',
   pro_v36 V₁ V₂ e3 e4 h3 h3' h4 h4',
   pro_v59 V₁ V₂ e3 e4 h3 h3' h4 h4',
   pro_pat V₁⟩

/-- The same with the agreements as equations between the two sides' contents. -/
theorem pro_bridge'
    (V₁ : Valuation Cert.KernelIdeal.τ Cert.KernelIdeal.sig (Elt Ideal)) (V₂ : Valuation Cert.ReferenceIdeal.τ Cert.ReferenceIdeal.sig (Elt Ideal))
    (h3 : V₁ (Proc.devRef .tc Cert.KernelIdeal.main_arg3) = V₂ (Proc.devRef .tc Cert.ReferenceIdeal.main_arg3))
    (h4 : V₁ (Proc.devRef .tc Cert.KernelIdeal.main_arg4) = V₂ (Proc.devRef .tc Cert.ReferenceIdeal.main_arg4)) :
    (after Cert.KernelIdeal.KV.Kpro V₁ (Proc.devRef .tc Cert.KernelIdeal.main_v3) = after (Rpro (F := Ideal)) V₂ (Proc.devRef .tc Cert.ReferenceIdeal.main_v3))
    ∧ (after Cert.KernelIdeal.KV.Kpro V₁ (Proc.devRef .tc Cert.KernelIdeal.main_v6) = after (Rpro (F := Ideal)) V₂ (Proc.devRef .tc Cert.ReferenceIdeal.main_v6))
    ∧ (after Cert.KernelIdeal.KV.Kpro V₁ (Proc.devRef .tc Cert.KernelIdeal.main_v29) = after (Rpro (F := Ideal)) V₂ (Proc.devRef .tc Cert.ReferenceIdeal.main_v29))
    ∧ (after Cert.KernelIdeal.KV.Kpro V₁ (Proc.devRef .tc Cert.KernelIdeal.main_v33) = after (Rpro (F := Ideal)) V₂ (Proc.devRef .tc Cert.ReferenceIdeal.main_v33))
    ∧ (after Cert.KernelIdeal.KV.Kpro V₁ (Proc.devRef .tc Cert.KernelIdeal.main_v36) = after (Rpro (F := Ideal)) V₂ (Proc.devRef .tc Cert.ReferenceIdeal.main_v36))
    ∧ (after Cert.KernelIdeal.KV.Kpro V₁ (Proc.devRef .tc Cert.KernelIdeal.main_v59) = after (Rpro (F := Ideal)) V₂ (Proc.devRef .tc Cert.ReferenceIdeal.main_v59))
    ∧ (after Cert.KernelIdeal.KV.Kpro V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :=
  pro_bridge V₁ V₂ _ _ h3 rfl h4 rfl

end Cert.ReferenceIdeal.RR

end
-- ==== Proof.BridgeSPro.lean ====
/-
  The shared first part of the two programs, side by side: from contents that agree on the two edge-list arguments, the
  two lines leave contents that agree on the six arrays the layers read, and the first program's holds the identity
  pattern.
-/
import proofs.«156722_j77687368450207_1_alg».proof.Proof.BridgeKeeps
import proofs.«156722_j77687368450207_1_alg».proof.Proof.BridgePro

set_option maxRecDepth 8192
set_option maxHeartbeats 4000000

noncomputable section

namespace Cert.Proof.Br

open Idealize.ShloMosaic Idealize.ShloMosaic.TcCoe Idealize.SL.Sem Idealize.ShloMosaic.StableHlo

theorem pro (V₁ : KVal) (V₂ : RVal)
    (a3 : Agree V₁ V₂ Cert.KernelIdeal.main_arg3 Cert.ReferenceIdeal.main_arg3)
    (a4 : Agree V₁ V₂ Cert.KernelIdeal.main_arg4 Cert.ReferenceIdeal.main_arg4) :
    Agree (after Cert.KernelIdeal.KV.Kpro V₁) (after (Cert.ReferenceIdeal.RR.Rpro (F := Ideal)) V₂) Cert.KernelIdeal.main_v3 Cert.ReferenceIdeal.main_v3
    ∧ Agree (after Cert.KernelIdeal.KV.Kpro V₁) (after (Cert.ReferenceIdeal.RR.Rpro (F := Ideal)) V₂) Cert.KernelIdeal.main_v6 Cert.ReferenceIdeal.main_v6
    ∧ Agree (after Cert.KernelIdeal.KV.Kpro V₁) (after (Cert.ReferenceIdeal.RR.Rpro (F := Ideal)) V₂) Cert.KernelIdeal.main_v29 Cert.ReferenceIdeal.main_v29
    ∧ Agree (after Cert.KernelIdeal.KV.Kpro V₁) (after (Cert.ReferenceIdeal.RR.Rpro (F := Ideal)) V₂) Cert.KernelIdeal.main_v33 Cert.ReferenceIdeal.main_v33
    ∧ Agree (after Cert.KernelIdeal.KV.Kpro V₁) (after (Cert.ReferenceIdeal.RR.Rpro (F := Ideal)) V₂) Cert.KernelIdeal.main_v36 Cert.ReferenceIdeal.main_v36
    ∧ Agree (after Cert.KernelIdeal.KV.Kpro V₁) (after (Cert.ReferenceIdeal.RR.Rpro (F := Ideal)) V₂) Cert.KernelIdeal.main_v59 Cert.ReferenceIdeal.main_v59
    ∧ after Cert.KernelIdeal.KV.Kpro V₁ (Proc.devRef .tc Cert.KernelIdeal.main_v65) = PAT := by
  obtain ⟨c1, c2, c3, c4, c5, c6, c7⟩ := Cert.ReferenceIdeal.RR.pro_bridge' V₁ V₂ (eq_of_heq a3) (eq_of_heq a4)
  exact ⟨heq_of_eq c1, heq_of_eq c2, heq_of_eq c3, heq_of_eq c4, heq_of_eq c5, heq_of_eq c6, c7⟩

end Cert.Proof.Br

end
-- ==== Proof.LibReshapeFlat.lean ====
/-
  Two reshapes of one array, and a matrix of rows regrouped into batches.
  A reshape keeps every entry's position in row-major order. So two reshapes of the same array hold the same entry
  wherever their indices have the same row-major position, whatever the two target shapes are; and an `[a·b, c]`
  matrix regrouped as `[a, b, c]` holds at `(i, j, k)` the matrix's entry `(i·b + j, k)`: row `i·b + j` is row
  `j` of batch `i`.
-/
import Idealize.ShloMosaic.Lib.Pipeline.Value
import Idealize.ShloMosaic.Lib.ValueIdx

namespace Cert.Lib.ReshapeFlat

open Idealize.ShloMosaic Idealize.ShloMosaic.ValueIdx

variable {α : Type}

/-- Two reshapes of one array agree at indices of equal row-major position. -/
theorem shapeCast_eq_shapeCast {s t₁ t₂ : Shape} (x : s.Idx → α) (h₁ : s.ShapeCasts t₁) (h₂ : s.ShapeCasts t₂)
    (j₁ : t₁.Idx) (j₂ : t₂.Idx) (e : (t₁.rowMajor j₁).val = (t₂.rowMajor j₂).val) :
    shapeCast t₁ x h₁ j₁ = shapeCast t₂ x h₂ j₂ :=
  shapeCast_apply x h₁ j₁ (Shape.reshapeEquiv h₂ j₂) ((Shape.rowMajor_reshapeEquiv h₂ j₂).trans e.symm)

/-- An `[n, c]` matrix with `n = a·b` rows regrouped as `[a, b, c]` reads, at `(i, j, k)`, row `i·b + j` at column `k`. -/
theorem shapeCast_rows_batches_apply {n a b c : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.Lib.ReshapeFlat
-- ==== Proof.LibVecLastAxis.lean ====
/-
  A matrix whose columns are grouped: the last axis of an [n, m] array regrouped as [n, a, b] (m = a · b), read at an
  index given by coordinates.

  Regrouping is a reindexing by row-major position: entry (i, j, k) of the regrouped array is entry (i, j · b + k) of
  the matrix, and entry (i, c) of the matrix is entry (i, c / b, c % b) of the regrouped array. A trailing unit axis
  added or dropped ([n, a] and [n, a, 1]) changes nothing. A sum over the last axis of an [n, a, b] array read at (i, j)
  is the sum over k of the entries (i, j, k). An [n, a, 1] array broadcast over a last axis of extent b reads, at
  (i, j, k), its entry (i, j, 0).
-/
import Idealize.ShloMosaic.Lib.ValueLayout
import Idealize.ShloMosaic.PureOps.Ideal.Laws

namespace Cert.Lib.VecLastAxis

open Idealize.ShloMosaic Idealize.ShloMosaic.ValueIdx

variable {α : Type}

/-! ## The last axis split in two, and merged back -/

/-- An [n, m] matrix cast to [n, a, b], m = a · b, reads at (i, j, k) the matrix at (i, j · b + k). -/
theorem shapeCast_split_apply {n m a b : ℕ} (x : (⟨2, ![n, m]⟩ : Shape).Idx → α)
    (h : (⟨2, ![n, m]⟩ : Shape).ShapeCasts ⟨3, ![n, a, b]⟩) (hm : m = a * b)
    (i : Fin n) (j : Fin a) (k : Fin b) (c : Fin m) (hc : c.val = j.val * b + k.val) :
    shapeCast ⟨3, ![n, a, b]⟩ x h (ix3 i j k) = x (ix2 i c) :=
  shapeCast_apply x h _ _ (by
    rw [Shape.rowMajor_val_two, Shape.rowMajor_val_three]
    show i.val * m + c.val = (i.val * a + j.val) * b + k.val
    rw [hc, hm, Nat.add_mul, Nat.mul_assoc, Nat.add_assoc])

/-- An [n, a, b] array cast to an [n, m] matrix, m = a · b, reads at (i, c) the array at (i, c / b, c % b). -/
theorem shapeCast_merge_apply {n m a b : ℕ} (x : (⟨3, ![n, a, b]⟩ : Shape).Idx → α)
    (h : (⟨3, ![n, a, b]⟩ : Shape).ShapeCasts ⟨2, ![n, m]⟩) (hm : m = a * b)
    (i : Fin n) (c : Fin m) (j : Fin a) (k : Fin b) (hc : c.val = j.val * b + k.val) :
    shapeCast ⟨2, ![n, m]⟩ x h (ix2 i c) = x (ix3 i j k) :=
  shapeCast_apply x h _ _ (by
    rw [Shape.rowMajor_val_two, Shape.rowMajor_val_three]
    show (i.val * a + j.val) * b + k.val = i.val * m + c.val
    rw [hc, hm, Nat.add_mul, Nat.mul_assoc, Nat.add_assoc])

/-- An [n, a] matrix cast to [n, a, 1] reads at (i, j, u) the matrix at (i, j). -/
theorem shapeCast_addLast_apply {n a : ℕ} (x : (⟨2, ![n, a]⟩ : Shape).Idx → α)
    (h : (⟨2, ![n, a]⟩ : Shape).ShapeCasts ⟨3, ![n, a, 1]⟩) (i : Fin n) (j : Fin a) (u : Fin 1) :
    shapeCast ⟨3, ![n, a, 1]⟩ x h (ix3 i j u) = x (ix2 i j) :=
  shapeCast_split_apply x h (Nat.mul_one a).symm i j u j (by have := u.isLt; omega)

/-- An [n, a, 1] array cast to an [n, a] matrix reads at (i, j) the array at (i, j, 0). -/
theorem shapeCast_dropLast_apply {n a : ℕ} (x : (⟨3, ![n, a, 1]⟩ : Shape).Idx → α)
    (h : (⟨3, ![n, a, 1]⟩ : Shape).ShapeCasts ⟨2, ![n, a]⟩) (i : Fin n) (j : Fin a) :
    shapeCast ⟨2, ![n, a]⟩ x h (ix2 i j) = x (ix3 i j (0 : Fin 1)) :=
  shapeCast_merge_apply x h (Nat.mul_one a).symm i j j 0 (by show j.val = j.val * 1 + 0; omega)

/-! ## A sum over the last axis -/

/-- At the exact values, the vector unit's sum over the last axis of an [n, a, b] array, read at (i, j), is the sum
    over k of the entries (i, j, k). -/
theorem multiReduction_add_last_apply {n a b : ℕ} {φ : FTy} (src : FVec Ideal ⟨3, ![n, a, b]⟩ φ) (acc : BitVec φ.bits)
    (h : (⟨3, ![n, a, b]⟩ : Shape).Reduces [2] ⟨2, ![n, a]⟩) (hφ : FKind.Formats φ) (hacc : acc = FKind.add.neutral φ hφ)
    (i : Fin n) (j : Fin a) :
    multiReduction .add [2] ⟨2, ![n, a]⟩ src acc h hφ hacc (ix2 i j) = ∑ k : Fin b, src (ix3 i j k) := by
  refine (Ideal.multiReduction_add_single src acc h hφ hacc (ix2 i j)).trans ?_
  show ∑ k : Fin b, src (h.lift (ix2 i j) k) = ∑ k : Fin b, src (ix3 i j k)
  refine Finset.sum_congr rfl fun k _ => congrArg src (funext fun c => Fin.ext ?_)
  match c with
  | ⟨0, _⟩ => rfl
  | ⟨1, _⟩ => rfl
  | ⟨2, _⟩ => rfl

/-! ## A trailing unit axis broadcast -/

/-- An [n, a, 1] array broadcast to [n, a, b] reads at (i, j, k) the array at (i, j, 0). -/
theorem broadcastTo_last_apply {n a b : ℕ} (v : (⟨3, ![n, a, 1]⟩ : Shape).Idx → α)
    (h : (⟨3, ![n, a, 1]⟩ : Shape).Broadcasts ⟨3, ![n, a, b]⟩) (i : Fin n) (j : Fin a) (k : Fin b) :
    broadcastTo ⟨3, ![n, a, b]⟩ v h (ix3 i j k) = v (ix3 i j (0 : Fin 1)) := by
  refine broadcastTo_apply v h (ix3 i j k) (ix3 i j (0 : Fin 1)) fun ax => ?_
  match ax with
  | ⟨0, _⟩ =>
    show i.val = if n = 1 then 0 else i.val
    split
    · have := i.isLt; omega
    · rfl
  | ⟨1, _⟩ =>
    show j.val = if a = 1 then 0 else j.val
    split
    · have := j.isLt; omega
    · rfl
  | ⟨2, _⟩ => exact (if_pos rfl).symm

end Cert.Lib.VecLastAxis
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.LibHostLastAxis.lean ====
/-
  Arrays of rows whose last axis is cut into blocks, read at an index given by coordinates.
  An [n, c] array of rows is handled block by block along its columns: a run of columns is sliced out, the run is
  regrouped as [n, a, b] (a blocks of b columns), a quantity is summed over each block's b columns, a per-block
  quantity [n, a] is spread back over the block's columns ([n, a] → [n, a, b], written with unit axes in between),
  and the blocks are flattened again ([n, a, b] → [n, a·b]). Each step is a
  reindexing (or a finite sum); at an index written by its coordinates it reads the operand at the evident index:
  column k of the run at offset off is column off + k; entry (p, i, j) of the regrouped run is column i·b + j.
-/
import Idealize.ShloMosaic.Lib.Pipeline.Value
import Idealize.ShloMosaic.Lib.ValueIdx
import Idealize.ShloMosaic.PureOps.Ideal.Laws

namespace Cert.Lib.HostLastAxis

open Idealize.ShloMosaic Idealize.ShloMosaic.ValueIdx

variable {α : Type}

/-! ## A run of columns -/

/-- Columns off … off + w - 1 of an [n, c] array: at (p, k) the array at (p, off + k). -/
theorem slice_cols_apply {n c w : ℕ} (off : ℕ) (x : (⟨2, ![n, c]⟩ : Shape).Idx → α)
    (h : (⟨2, ![n, c]⟩ : Shape).Slices ![0, off] ⟨2, ![n, w]⟩) (p : Fin n) (k : Fin w) (r : Fin c)
    (hr : r.val = off + k.val) :
    extractStridedSlice (⟨2, ![n, w]⟩ : Shape) ![0, off] x h (ix2 p k) = x (ix2 p r) :=
  extractStridedSlice_apply _ x h (ix2 p k) (ix2 p r) fun a => by
    match a with
    | ⟨0, _⟩ => exact (Nat.zero_add _).symm
    | ⟨1, _⟩ => exact hr

/-! ## Regrouping the last axis -/

/-- An [n, m] array regrouped as [n, a, b]: at (p, i, j) the array at (p, r), r = i·b + j. -/
theorem shapeCast_split_apply {n m a b : ℕ} (x : (⟨2, ![n, m]⟩ : Shape).Idx → α)
    (h : (⟨2, ![n, m]⟩ : Shape).ShapeCasts ⟨3, ![n, a, b]⟩) (hm : m = a * b) (p : Fin n) (i : Fin a) (j : Fin b) (r : Fin m)
    (hr : r.val = i.val * b + j.val) :
    shapeCast (⟨3, ![n, a, b]⟩ : Shape) x h (ix3 p i j) = x (ix2 p r) :=
  shapeCast_apply x h _ _ (by
    rw [Shape.rowMajor_val_two, Shape.rowMajor_val_three]
    show p.val * m + r.val = (p.val * a + i.val) * b + j.val
    rw [hr, hm, Nat.add_mul, Nat.mul_assoc, Nat.add_assoc])

/-- An [n, a, b] array flattened to [n, m]: at (p, r), r = i·b + j, the array at (p, i, j). -/
theorem shapeCast_merge_apply {n m a b : ℕ} (x : (⟨3, ![n, a, b]⟩ : Shape).Idx → α)
    (h : (⟨3, ![n, a, b]⟩ : Shape).ShapeCasts ⟨2, ![n, m]⟩) (hm : m = a * b) (p : Fin n) (r : Fin m) (i : Fin a) (j : Fin b)
    (hr : r.val = i.val * b + j.val) :
    shapeCast (⟨2, ![n, m]⟩ : Shape) x h (ix2 p r) = x (ix3 p i j) :=
  shapeCast_apply x h _ _ (by
    rw [Shape.rowMajor_val_two, Shape.rowMajor_val_three]
    show (p.val * a + i.val) * b + j.val = p.val * m + r.val
    rw [hr, hm, Nat.add_mul, Nat.mul_assoc, Nat.add_assoc])

/-- An [n, a, 1, b] array with its unit axis dropped: at (p, i, j) the array at (p, i, 0, j). -/
theorem shapeCast_dropMid_apply {n a b : ℕ} (x : (⟨4, ![n, a, 1, b]⟩ : Shape).Idx → α)
    (h : (⟨4, ![n, a, 1, b]⟩ : Shape).ShapeCasts ⟨3, ![n, a, b]⟩) (p : Fin n) (i : Fin a) (j : Fin b) :
    shapeCast (⟨3, ![n, a, b]⟩ : Shape) x h (ix3 p i j) = x (ix4 p i (0 : Fin 1) j) :=
  shapeCast_apply x h _ _ (by
    rw [Shape.rowMajor_val_three, Shape.rowMajor_val_four]
    show ((p.val * a + i.val) * 1 + 0) * b + j.val = (p.val * a + i.val) * b + j.val
    rw [Nat.mul_one, Nat.add_zero])

/-! ## Sums over the last axis -/

/-- The index of entry k of block (p, i), as the reduction's own bookkeeping spells it, is (p, i, k). -/
theorem lift_last {n a b : ℕ} (h : Shape.Reduces ⟨3, ![n, a, b]⟩ [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host sum over the last axis of an [n, a, b] array, started from the zero word, read at (p, i): the sum of the
    block's entries. -/
theorem hostReduceAdd_last_apply {n a b : ℕ} (x : FVec Ideal ⟨3, ![n, a, b]⟩ .f32)
    (h' : Shape.ReducesTo ⟨3, ![n, a, b]⟩ [2] ⟨2, ![n, a]⟩) (h : Shape.Reduces ⟨3, ![n, a, b]⟩ [2] ⟨2, ![n, a]⟩)
    (hu : 0 < (⟨0, ![]⟩ : Shape).numel) (p : Fin n) (i : Fin a) :
    Host.reduceAdd x (constant (F := Ideal) ⟨0, ![]⟩ .f32 0x00000000#32) h' hu (ix2 p i) = ∑ k : Fin b, x (ix3 p i k) := by
  show Ideal.hostReduceAdd h' x (Ideal.ofBits .f32 0x00000000#32) (ix2 p i) = _
  rw [Ideal.hostReduceAdd_single h' h x _ (ix2 p i), Ideal.ofBits_zero_f32, zero_add]
  exact Finset.sum_congr rfl fun k _ => congrArg x (lift_last h p i k)

/-! ## Spreading over trailing axes -/

/-- A host broadcast of an [n, a] array along a new last axis ([n, a, b], axes 0 and 1 kept): at (p, i, k) the array at (p, i). -/
theorem broadcastInDim_na_nab_apply {n a b : ℕ} (x : (⟨2, ![n, a]⟩ : Shape).Idx → α)
    (h : (⟨2, ![n, a]⟩ : Shape).BroadcastsInDim ⟨3, ![n, a, b]⟩ ![0, 1]) (p : Fin n) (i : Fin a) (k : Fin b) :
    broadcastInDim (⟨3, ![n, a, b]⟩ : Shape) ![0, 1] h x (ix3 p i k) = x (ix2 p i) := by
  refine broadcastInDim_apply _ h x (ix3 p i k) (ix2 p i) fun ax => ?_
  match ax with
  | ⟨0, _⟩ =>
    show p.val = if n = 1 then 0 else p.val
    split
    · have := p.isLt; omega
    · rfl
  | ⟨1, _⟩ =>
    show i.val = if a = 1 then 0 else i.val
    split
    · have := i.isLt; omega
    · rfl

/-- A host broadcast of an [n, a, 1] array over its unit axis ([n, a, b], axes kept in place): at (p, i, k) the array at (p, i, 0). -/
theorem broadcastInDim_na1_nab_apply {n a b : ℕ} (x : (⟨3, ![n, a, 1]⟩ : Shape).Idx → α)
    (h : (⟨3, ![n, a, 1]⟩ : Shape).BroadcastsInDim ⟨3, ![n, a, b]⟩ ![0, 1, 2]) (p : Fin n) (i : Fin a) (k : Fin b) :
    broadcastInDim (⟨3, ![n, a, b]⟩ : Shape) ![0, 1, 2] h x (ix3 p i k) = x (ix3 p i (0 : Fin 1)) := by
  refine broadcastInDim_apply _ h x (ix3 p i k) (ix3 p i (0 : Fin 1)) fun ax => ?_
  match ax with
  | ⟨0, _⟩ =>
    show p.val = if n = 1 then 0 else p.val
    split
    · have := p.isLt; omega
    · rfl
  | ⟨1, _⟩ =>
    show i.val = if a = 1 then 0 else i.val
    split
    · have := i.isLt; omega
    · rfl
  | ⟨2, _⟩ => exact (if_pos rfl).symm

/-- A host broadcast of an [n, a, 1] array along a new last axis ([n, a, 1, b], axes kept in place): at (p, i, u, k) the array at (p, i, 0). -/
theorem broadcastInDim_na1_na1b_apply {n a b : ℕ} (x : (⟨3, ![n, a, 1]⟩ : Shape).Idx → α)
    (h : (⟨3, ![n, a, 1]⟩ : Shape).BroadcastsInDim ⟨4, ![n, a, 1, b]⟩ ![0, 1, 2]) (p : Fin n) (i : Fin a) (u : Fin 1) (k : Fin b) :
    broadcastInDim (⟨4, ![n, a, 1, b]⟩ : Shape) ![0, 1, 2] h x (ix4 p i u k) = x (ix3 p i (0 : Fin 1)) := by
  refine broadcastInDim_apply _ h x (ix4 p i u k) (ix3 p i (0 : Fin 1)) fun ax => ?_
  match ax with
  | ⟨0, _⟩ =>
    show p.val = if n = 1 then 0 else p.val
    split
    · have := p.isLt; omega
    · rfl
  | ⟨1, _⟩ =>
    show i.val = if a = 1 then 0 else i.val
    split
    · have := i.isLt; omega
    · rfl
  | ⟨2, _⟩ => exact (if_pos rfl).symm

/-! ## A per-block quantity spread over the block's columns -/

/-- Columns off … off + a - 1 of an [n, c] array, one per block, spread over blocks of b columns: the run is given a
    unit axis ([n, a, 1]), repeated along a new last axis ([n, a, 1, b]), the unit axis dropped ([n, a, b]) and the
    blocks flattened ([n, m], m = a·b). At (p, r) with r = q·b + t it reads the array at (p, off + q). -/
theorem spread_apply {n c a b m : ℕ} (off : ℕ) (g : (⟨2, ![n, c]⟩ : Shape).Idx → α)
    (hs : (⟨2, ![n, c]⟩ : Shape).Slices ![0, off] ⟨2, ![n, a]⟩)
    (h1 : (⟨2, ![n, a]⟩ : Shape).BroadcastsInDim ⟨3, ![n, a, 1]⟩ ![0, 1])
    (h2 : (⟨3, ![n, a, 1]⟩ : Shape).BroadcastsInDim ⟨4, ![n, a, 1, b]⟩ ![0, 1, 2])
    (h3 : (⟨4, ![n, a, 1, b]⟩ : Shape).ShapeCasts ⟨3, ![n, a, b]⟩)
    (h4 : (⟨3, ![n, a, b]⟩ : Shape).ShapeCasts ⟨2, ![n, m]⟩) (hm : m = a * b)
    (p : Fin n) (r : Fin m) (q : Fin a) (t : Fin b) (hr : r.val = q.val * b + t.val) (s : Fin c) (hsv : s.val = off + q.val) :
    shapeCast (⟨2, ![n, m]⟩ : Shape)
        (shapeCast (⟨3, ![n, a, b]⟩ : Shape)
          (broadcastInDim (⟨4, ![n, a, 1, b]⟩ : Shape) ![0, 1, 2] h2
            (broadcastInDim (⟨3, ![n, a, 1]⟩ : Shape) ![0, 1] h1 (extractStridedSlice (⟨2, ![n, a]⟩ : Shape) ![0, off] g hs))) h3) h4
        (ix2 p r)
      = g (ix2 p s) :=
  (shapeCast_merge_apply _ h4 hm p r q t hr).trans <|
    (shapeCast_dropMid_apply _ h3 p q t).trans <|
      (broadcastInDim_na1_na1b_apply _ h2 p q (0 : Fin 1) t).trans <|
        (broadcastInDim_na_nab_apply _ h1 p q (0 : Fin 1)).trans (slice_cols_apply off g hs p q s hsv)

end Cert.Lib.HostLastAxis
-- ==== Proof.MathK.lean ====
/-
  The kernel's pure values read at an index, at the exact (extended-real) values.
  Each matrix-product step multiplies a [4096,128] block by a [128,128] matrix into zeros: entry (p, q) is the sum over
  k of row p times column q. Each bias step adds the one bias row to every row of the block. Each trace step regroups
  the 4096 biased rows as 32 batches of 128 rows, multiplies every batch entrywise by a [128,128] pattern, and sums each
  batch over both axes; with the identity pattern that double sum is the sum of the batch's diagonal.
-/
import proofs.«156722_j77687368450207_1_alg».proof.Proof.Gen.KernelIdeal.Skeleton
import proofs.«156722_j77687368450207_1_alg».proof.Proof.LibReshapeFlat
import proofs.«156722_j77687368450207_1_alg».proof.Proof.LibVecLastAxis
import proofs.«156722_j77687368450207_1_alg».proof.Proof.LibKeepdims
import proofs.«156722_j77687368450207_1_alg».proof.Proof.LibHostLastAxis
import Idealize.ShloMosaic.Lib.ValueLayout
import Idealize.ShloMosaic.PureOps.Ideal.Laws

noncomputable section

open scoped BigOperators

namespace Cert.KernelIdeal.KM

open Idealize.ShloMosaic Idealize.SL.Sem Idealize.ShloMosaic.ValueIdx
open Cert.KernelIdeal

/-! ## The bias step -/

/-- A block plus the one bias row spread over its rows, at (p, q). -/
theorem bias_apply (a : FVec Ideal S4096x128 .f32) (b : FVec Ideal S1x128 .f32)
    (h1 : S4096x128.ShapeCasts S4096x128) (h2 : S1x128.ShapeCasts S1x128) (h3 : S1x128.Broadcasts S4096x128)
    (p : Fin 4096) (q : Fin 128) :
    addf (shapeCast S4096x128 a h1) (broadcastTo S4096x128 (shapeCast S1x128 b h2) h3) (ix2 p q)
      = a (ix2 p q) + b (ix2 (0 : Fin 1) q) := by
  rw [addf_apply, shapeCast_self, shapeCast_self]
  exact congrArg (a (ix2 p q) + ·) (broadcastTo_1b_ab_apply b h3 p q)

/-- The biased block at (p, q): the block's entry plus the bias row's entry q. -/
theorem pay_bias1 (x0 : Vec Ideal S4096x128 .f32) (x1 : Vec Ideal S1x128 .f32) (p : Fin 4096) (q : Fin 128) :
    Gen.k1_pay1 x0 x1 (ix2 p q) = x0 (ix2 p q) + x1 (ix2 (0 : Fin 1) q) :=
  bias_apply x0 x1 _ _ _ p q

/-! ## The matrix product into zeros -/

/-- A [4096,128] by [128,128] product into zeros at (p, q): the sum over k of row p times column q. -/
theorem matmul_zero_apply (A : FVec Ideal S4096x128 .bf16) (B : FVec Ideal S128x128 .bf16) (p : Fin 4096) (q : Fin 128) :
    matmul dot_S4096x128_S128x128_S4096x128_1_0_0_1_n_n none A B (constant S4096x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S4096x128_S128x128_S4096x128_1_0_0_1_n_n 128 rfl rfl).symm]
  refine Finset.sum_congr rfl fun c _ => ?_
  have c2 := contrEquiv1_symm_val dot_S4096x128_S128x128_S4096x128_1_0_0_1_n_n 128 rfl rfl c
  have l2 : dot_S4096x128_S128x128_S4096x128_1_0_0_1_n_n.lhsIdx (ix2 p q) ((contrEquiv1 _ 128 rfl rfl).symm c) = ix2 p c := by
    funext ax; apply Fin.ext
    match ax with
    | ⟨0, _⟩ => simp [DotDims.lhsIdx, dot_S4096x128_S128x128_S4096x128_1_0_0_1_n_n]; rfl
    | ⟨1, _⟩ => simp [DotDims.lhsIdx, dot_S4096x128_S128x128_S4096x128_1_0_0_1_n_n]; exact c2
  have r2 : dot_S4096x128_S128x128_S4096x128_1_0_0_1_n_n.rhsIdx (ix2 p q) ((contrEquiv1 _ 128 rfl rfl).symm c) = ix2 c q := by
    funext ax; apply Fin.ext
    match ax with
    | ⟨0, _⟩ => simp [DotDims.rhsIdx, dot_S4096x128_S128x128_S4096x128_1_0_0_1_n_n]; exact c2
    | ⟨1, _⟩ => simp [DotDims.rhsIdx, dot_S4096x128_S128x128_S4096x128_1_0_0_1_n_n]; rfl
  rw [l2, r2]

/-- The first matrix-product step at (p, q). -/
theorem pay_mm0 (x0 : Vec Ideal S4096x128 .f32) (x1 : Vec Ideal S128x128 .f32) (p : Fin 4096) (q : Fin 128) :
    Gen.k0_pay1 x0 x1 (ix2 p q) = ∑ k : Fin 128, x0 (ix2 p k) * x1 (ix2 k q) := by
  unfold Gen.k0_pay1
  exact matmul_zero_apply _ _ p q

/-- The same product with the block first passed through a cast to its own shape. -/
theorem matmul_zero_cast_apply (a : FVec Ideal S4096x128 .f32) (b : FVec Ideal S128x128 .f32)
    (h1 : S4096x128.ShapeCasts S4096x128) (hb : FTy.bits .bf16 < FTy.bits .f32) (p : Fin 4096) (q : Fin 128) :
    matmul dot_S4096x128_S128x128_S4096x128_1_0_0_1_n_n none (truncf .bf16 (shapeCast S4096x128 a h1) hb) (truncf .bf16 b hb)
        (constant S4096x128 .f32 0x00000000#32) (ix2 p q)
      = ∑ k : Fin 128, a (ix2 p k) * b (ix2 k q) := by
  rw [shapeCast_self]
  exact matmul_zero_apply _ _ p q

/-- The later matrix-product steps at (p, q). -/
theorem pay_mm2 (x0 : Vec Ideal S4096x128 .f32) (x1 : Vec Ideal S128x128 .f32) (p : Fin 4096) (q : Fin 128) :
    Gen.k2_pay1 x0 x1 (ix2 p q) = ∑ k : Fin 128, x0 (ix2 p k) * x1 (ix2 k q) :=
  matmul_zero_cast_apply x0 x1 _ _ p q

/-! ## The trace step -/

section Layout
variable {α : Type}

/-- A [1, a, b] array repeated over m batches reads, at (s, i, j), its entry (0, i, j). -/
theorem broadcastTo_1ab_mab_apply {m a b : ℕ} (v : (⟨3, ![1, a, b]⟩ : Shape).Idx → α)
    (h : (⟨3, ![1, a, b]⟩ : Shape).Broadcasts ⟨3, ![m, a, b]⟩) (s : Fin m) (i : Fin a) (j : Fin b) :
    broadcastTo ⟨3, ![m, a, b]⟩ v h (ix3 s i j) = v (ix3 (0 : Fin 1) i j) := by
  refine broadcastTo_apply v h (ix3 s i j) (ix3 (0 : Fin 1) i j) fun ax => ?_
  match ax with
  | ⟨0, _⟩ => exact (if_pos rfl).symm
  | ⟨1, _⟩ =>
    show i.val = if a = 1 then 0 else i.val
    split
    · have := i.isLt; omega
    · rfl
  | ⟨2, _⟩ =>
    show j.val = if b = 1 then 0 else j.val
    split
    · have := j.isLt; omega
    · rfl

end Layout

/-- At the exact values, the sum over the columns of an [n, a] array, read at row i, is the sum over k of the entries
    (i, k). -/
theorem multiReduction_add_cols_apply {n a : ℕ} {φ : FTy} (src : FVec Ideal ⟨2, ![n, a]⟩ φ) (acc : BitVec φ.bits)
    (h : (⟨2, ![n, a]⟩ : Shape).Reduces [1] ⟨1, ![n]⟩) (hφ : FKind.Formats φ) (hacc : acc = FKind.add.neutral φ hφ)
    (i : Fin n) :
    multiReduction .add [1] ⟨1, ![n]⟩ src acc h hφ hacc (ix1 i) = ∑ k : Fin a, src (ix2 i k) := by
  refine (Ideal.multiReduction_add_single src acc h hφ hacc (ix1 i)).trans ?_
  show ∑ k : Fin a, src (h.lift (ix1 i) k) = ∑ k : Fin a, src (ix2 i k)
  refine Finset.sum_congr rfl fun k _ => congrArg src (funext fun c => Fin.ext ?_)
  match c with
  | ⟨0, _⟩ => rfl
  | ⟨1, _⟩ => rfl

/-- The trace chain over an already biased block `y` and a pattern `w`: the 4096 rows regrouped as 32 batches of 128
    rows, each batch multiplied entrywise by the pattern and summed over both axes, the 32 sums then spread over 128
    columns. At (s, l) it is the double sum over batch s. -/
theorem trace_apply (y : FVec Ideal S4096x128 .f32) (w : FVec Ideal S128x128 .f32)
    (h1 : S4096x128.ShapeCasts S32x128x128) (h2 : S128x128.ShapeCasts S128x128) (h3 : S128x128.ShapeCasts S1x128x128)
    (h4 : S1x128x128.Broadcasts S32x128x128) (h5 : S32x128x128.Reduces [2] S32x128) (h6 : S32x128.Reduces [1] S32)
    (hφ : FKind.Formats .f32) (hacc : (0x00000000#32 : BitVec 32) = FKind.add.neutral .f32 hφ)
    (h7 : S32.ShapeCasts S32x1) (h8 : S32x1.ShapeCasts S32x1) (h9 : S32x1.Broadcasts S32x128)
    (s : Fin 32) (l : Fin 128) :
    broadcastTo S32x128
        (shapeCast S32x1
          (shapeCast S32x1
            (multiReduction .add [1] S32
              (multiReduction .add [2] S32x128
                (mulf (shapeCast S32x128x128 y h1)
                  (broadcastTo S32x128x128 (shapeCast S1x128x128 (shapeCast S128x128 w h2) h3) h4))
                0x00000000#32 h5 hφ hacc)
              0x00000000#32 h6 hφ hacc) h7) h8) h9 (ix2 s l)
      = ∑ i : Fin 128, ∑ j : Fin 128, y (ix2 ⟨s.val * 128 + i.val, by omega⟩ j) * w (ix2 i j) := by
  refine (Cert.Lib.Keepdims.broadcastTo_a1_ab_apply _ h9 s l).trans ?_
  rw [shapeCast_self]
  refine (Cert.Lib.Keepdims.shapeCast_a_a1_apply _ h7 s (0 : Fin 1)).trans ?_
  refine (multiReduction_add_cols_apply _ _ h6 hφ hacc s).trans ?_
  refine Finset.sum_congr rfl fun i _ => ?_
  refine (Cert.Lib.VecLastAxis.multiReduction_add_last_apply _ _ h5 hφ hacc s i).trans ?_
  refine Finset.sum_congr rfl fun j _ => ?_
  rw [mulf_apply]
  have e1 : shapeCast S32x128x128 y h1 (ix3 s i j) = y (ix2 ⟨s.val * 128 + i.val, by omega⟩ j) :=
    Cert.Lib.ReshapeFlat.shapeCast_rows_batches_apply y h1 s i j ⟨s.val * 128 + i.val, by omega⟩ rfl
  have e2 : broadcastTo S32x128x128 (shapeCast S1x128x128 (shapeCast S128x128 w h2) h3) h4 (ix3 s i j) = w (ix2 i j) := by
    refine (broadcastTo_1ab_mab_apply _ h4 s i j).trans ?_
    refine (shapeCast_ab_1ab_apply _ h3 (0 : Fin 1) i j).trans ?_
    rw [shapeCast_self]
  rw [e1, e2]

/-- The trace step at (s, l): the double sum, over batch s, of the biased rows times the pattern. -/
theorem pay_trace1 (x0 : Vec Ideal S4096x128 .f32) (x1 : Vec Ideal S1x128 .f32) (x2 : Vec Ideal S128x128 .f32)
    (s : Fin 32) (l : Fin 128) :
    Gen.k1_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (trace_apply (Gen.k1_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [pay_bias1]

/-- Against the identity pattern only the diagonal survives: the double sum over a batch is the sum of its diagonal.
    (Only x·0 = 0 and x·1 = x are used, which hold for every extended real.) -/
theorem trace_identity (x0 : Vec Ideal S4096x128 .f32) (x1 : Vec Ideal S1x128 .f32) (x2 : Vec Ideal S128x128 .f32)
    (hI : ∀ i j : Fin 128, x2 (ix2 i j) = if i = j then (1 : EReal) else 0) (s : Fin 32) :
    (∑ i : Fin 128, ∑ j : Fin 128,
        (x0 (ix2 ⟨s.val * 128 + i.val, by omega⟩ j) + x1 (ix2 (0 : Fin 1) j)) * x2 (ix2 i j))
      = ∑ i : Fin 128, (x0 (ix2 ⟨s.val * 128 + i.val, by omega⟩ i) + x1 (ix2 (0 : Fin 1) i)) := by
  refine Finset.sum_congr rfl fun i _ => ?_
  simp only [hI, mul_ite, mul_one, mul_zero]
  rw [Finset.sum_ite_eq]
  exact if_pos (Finset.mem_univ i)

/-- So with the identity pattern the trace step at (s, l) is the trace of batch s of the biased rows. -/
theorem pay_trace1_identity (x0 : Vec Ideal S4096x128 .f32) (x1 : Vec Ideal S1x128 .f32) (x2 : Vec Ideal S128x128 .f32)
    (hI : ∀ i j : Fin 128, x2 (ix2 i j) = if i = j then (1 : EReal) else 0) (s : Fin 32) (l : Fin 128) :
    Gen.k1_pay2 x0 x1 x2 (ix2 s l)
      = ∑ i : Fin 128, (x0 (ix2 ⟨s.val * 128 + i.val, by omega⟩ i) + x1 (ix2 (0 : Fin 1) i)) :=
  (pay_trace1 x0 x1 x2 s l).trans (trace_identity x0 x1 x2 hI s)

/-! ## The host side: the identity pattern and the trace column -/

/-- Two counters below 128, as 32-bit words, compare equal exactly when they are equal. -/
theorem cmpi_eq_counters (a b : Fin 128) :
    IntOp.cmpi .eq (BitVec.ofNat 32 a.val) (BitVec.ofNat 32 b.val) = if a = b then 1#1 else 0#1 := by
  unfold IntOp.cmpi
  by_cases hab : a = b
  · subst hab; simp
  · rw [if_neg hab]
    have hne : BitVec.ofNat 32 a.val ≠ BitVec.ofNat 32 b.val := fun e => hab (Fin.ext (by
      have e' := congrArg BitVec.toNat e
      simp only [BitVec.toNat_ofNat] at e'
      have ha := a.isLt
      have hb := b.isLt
      omega))
    rw [beq_eq_false_iff_ne.mpr hne]
    rfl

/-- The row counter (plus a zero offset) compared with the column counter, converted to a number, is the identity
    matrix: 1 on the diagonal and 0 off it. -/
theorem identity_pattern_apply (hb : S_.BroadcastsInDim S128x128 (![] : Fin 0 → Fin S128x128.rank)) (i j : Fin 128) :
    (uitofp (F := Ideal) .f32
        (cmpi .eq (addi (iotaInDim S128x128 32 0) (broadcastInDim S128x128 ![] hb (constantI S_ 32 0#32)))
          (iotaInDim S128x128 32 1)) : FVec Ideal S128x128 .f32) (ix2 i j)
      = if i = j then (1 : EReal) else 0 := by
  have hz : broadcastInDim S128x128 ![] hb (constantI S_ 32 0#32) (ix2 i j) = 0#32 :=
    Cert.Lib.Keepdims.broadcastInDim_scalar_apply _ hb (ix2 i j)
  have hc : cmpi .eq (addi (iotaInDim S128x128 32 0) (broadcastInDim S128x128 ![] hb (constantI S_ 32 0#32)))
        (iotaInDim S128x128 32 1) (ix2 i j) = if i = j then 1#1 else 0#1 := by
    show IntOp.cmpi .eq
        (IntOp.addi (BitVec.ofNat 32 i.val) (broadcastInDim S128x128 ![] hb (constantI S_ 32 0#32) (ix2 i j)))
        (BitVec.ofNat 32 j.val) = _
    rw [hz]
    show IntOp.cmpi .eq (BitVec.ofNat 32 i.val + 0#32) (BitVec.ofNat 32 j.val) = _
    rw [BitVec.add_zero]
    exact cmpi_eq_counters i j
  show FloatOps.uitofp (F := Ideal) .f32
      (cmpi .eq (addi (iotaInDim S128x128 32 0) (broadcastInDim S128x128 ![] hb (constantI S_ 32 0#32)))
        (iotaInDim S128x128 32 1) (ix2 i j)) = _
  rw [hc]
  by_cases hij : i = j
  · rw [if_pos hij, if_pos hij]
    show (((1#1 : BitVec 1).toNat : ℝ) : EReal) = 1
    simp
  · rw [if_neg hij, if_neg hij]
    show (((0#1 : BitVec 1).toNat : ℝ) : EReal) = 0
    simp

/-- The first column of a [256,128] array, flattened to 256 entries, reads at B the array's entry (B, 0). -/
theorem trace_column_apply (a : FVec Ideal S256x128 .f32) (hs : S256x128.Slices ![0, 0] S256x1)
    (hc : S256x1.ShapeCasts S256) (B : Fin 256) :
    shapeCast S256 (extractStridedSlice S256x1 ![0, 0] a hs) hc (ix1 B) = a (ix2 B (0 : Fin 128)) :=
  (Cert.Lib.Keepdims.shapeCast_a1_a_apply _ hc B).trans
    (Cert.Lib.HostLastAxis.slice_cols_apply 0 a hs B (0 : Fin 1) (0 : Fin 128) rfl)

/-! ## The later steps: the same three readings, step by step -/

/-- Matrix-product step 4 at (p, q). -/
theorem pay_mm4 (x0 : Vec Ideal S4096x128 .f32) (x1 : Vec Ideal S128x128 .f32) (p : Fin 4096) (q : Fin 128) :
    Gen.k4_pay1 x0 x1 (ix2 p q) = ∑ k : Fin 128, x0 (ix2 p k) * x1 (ix2 k q) :=
  matmul_zero_cast_apply x0 x1 _ _ p q

/-- Matrix-product step 6 at (p, q). -/
theorem pay_mm6 (x0 : Vec Ideal S4096x128 .f32) (x1 : Vec Ideal S128x128 .f32) (p : Fin 4096) (q : Fin 128) :
    Gen.k6_pay1 x0 x1 (ix2 p q) = ∑ k : Fin 128, x0 (ix2 p k) * x1 (ix2 k q) :=
  matmul_zero_cast_apply x0 x1 _ _ p q

/-- Matrix-product step 8 at (p, q). -/
theorem pay_mm8 (x0 : Vec Ideal S4096x128 .f32) (x1 : Vec Ideal S128x128 .f32) (p : Fin 4096) (q : Fin 128) :
    Gen.k8_pay1 x0 x1 (ix2 p q) = ∑ k : Fin 128, x0 (ix2 p k) * x1 (ix2 k q) :=
  matmul_zero_cast_apply x0 x1 _ _ p q

/-- Matrix-product step 10 at (p, q). -/
theorem pay_mm10 (x0 : Vec Ideal S4096x128 .f32) (x1 : Vec Ideal S128x128 .f32) (p : Fin 4096) (q : Fin 128) :
    Gen.k10_pay1 x0 x1 (ix2 p q) = ∑ k : Fin 128, x0 (ix2 p k) * x1 (ix2 k q) :=
  matmul_zero_cast_apply x0 x1 _ _ p q

/-- Matrix-product step 12 at (p, q). -/
theorem pay_mm12 (x0 : Vec Ideal S4096x128 .f32) (x1 : Vec Ideal S128x128 .f32) (p : Fin 4096) (q : Fin 128) :
    Gen.k12_pay1 x0 x1 (ix2 p q) = ∑ k : Fin 128, x0 (ix2 p k) * x1 (ix2 k q) :=
  matmul_zero_cast_apply x0 x1 _ _ p q

/-- Bias step 3 at (p, q). -/
theorem pay_bias3 (x0 : Vec Ideal S4096x128 .f32) (x1 : Vec Ideal S1x128 .f32) (p : Fin 4096) (q : Fin 128) :
    Gen.k3_pay1 x0 x1 (ix2 p q) = x0 (ix2 p q) + x1 (ix2 (0 : Fin 1) q) :=
  bias_apply x0 x1 _ _ _ p q

/-- Trace step 3 at (s, l). -/
theorem pay_trace3 (x0 : Vec Ideal S4096x128 .f32) (x1 : Vec Ideal S1x128 .f32) (x2 : Vec Ideal S128x128 .f32)
    (s : Fin 32) (l : Fin 128) :
    Gen.k3_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (trace_apply (Gen.k3_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [pay_bias3]

/-- Trace step 3 against the identity pattern. -/
theorem pay_trace3_identity (x0 : Vec Ideal S4096x128 .f32) (x1 : Vec Ideal S1x128 .f32) (x2 : Vec Ideal S128x128 .f32)
    (hI : ∀ i j : Fin 128, x2 (ix2 i j) = if i = j then (1 : EReal) else 0) (s : Fin 32) (l : Fin 128) :
    Gen.k3_pay2 x0 x1 x2 (ix2 s l)
      = ∑ i : Fin 128, (x0 (ix2 ⟨s.val * 128 + i.val, by omega⟩ i) + x1 (ix2 (0 : Fin 1) i)) :=
  (pay_trace3 x0 x1 x2 s l).trans (trace_identity x0 x1 x2 hI s)

/-- Bias step 5 at (p, q). -/
theorem pay_bias5 (x0 : Vec Ideal S4096x128 .f32) (x1 : Vec Ideal S1x128 .f32) (p : Fin 4096) (q : Fin 128) :
    Gen.k5_pay1 x0 x1 (ix2 p q) = x0 (ix2 p q) + x1 (ix2 (0 : Fin 1) q) :=
  bias_apply x0 x1 _ _ _ p q

/-- Trace step 5 at (s, l). -/
theorem pay_trace5 (x0 : Vec Ideal S4096x128 .f32) (x1 : Vec Ideal S1x128 .f32) (x2 : Vec Ideal S128x128 .f32)
    (s : Fin 32) (l : Fin 128) :
    Gen.k5_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (trace_apply (Gen.k5_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [pay_bias5]

/-- Trace step 5 against the identity pattern. -/
theorem pay_trace5_identity (x0 : Vec Ideal S4096x128 .f32) (x1 : Vec Ideal S1x128 .f32) (x2 : Vec Ideal S128x128 .f32)
    (hI : ∀ i j : Fin 128, x2 (ix2 i j) = if i = j then (1 : EReal) else 0) (s : Fin 32) (l : Fin 128) :
    Gen.k5_pay2 x0 x1 x2 (ix2 s l)
      = ∑ i : Fin 128, (x0 (ix2 ⟨s.val * 128 + i.val, by omega⟩ i) + x1 (ix2 (0 : Fin 1) i)) :=
  (pay_trace5 x0 x1 x2 s l).trans (trace_identity x0 x1 x2 hI s)

/-- Bias step 7 at (p, q). -/
theorem pay_bias7 (x0 : Vec Ideal S4096x128 .f32) (x1 : Vec Ideal S1x128 .f32) (p : Fin 4096) (q : Fin 128) :
    Gen.k7_pay1 x0 x1 (ix2 p q) = x0 (ix2 p q) + x1 (ix2 (0 : Fin 1) q) :=
  bias_apply x0 x1 _ _ _ p q

/-- Trace step 7 at (s, l). -/
theorem pay_trace7 (x0 : Vec Ideal S4096x128 .f32) (x1 : Vec Ideal S1x128 .f32) (x2 : Vec Ideal S128x128 .f32)
    (s : Fin 32) (l : Fin 128) :
    Gen.k7_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (trace_apply (Gen.k7_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [pay_bias7]

/-- Trace step 7 against the identity pattern. -/
theorem pay_trace7_identity (x0 : Vec Ideal S4096x128 .f32) (x1 : Vec Ideal S1x128 .f32) (x2 : Vec Ideal S128x128 .f32)
    (hI : ∀ i j : Fin 128, x2 (ix2 i j) = if i = j then (1 : EReal) else 0) (s : Fin 32) (l : Fin 128) :
    Gen.k7_pay2 x0 x1 x2 (ix2 s l)
      = ∑ i : Fin 128, (x0 (ix2 ⟨s.val * 128 + i.val, by omega⟩ i) + x1 (ix2 (0 : Fin 1) i)) :=
  (pay_trace7 x0 x1 x2 s l).trans (trace_identity x0 x1 x2 hI s)

/-- Bias step 9 at (p, q). -/
theorem pay_bias9 (x0 : Vec Ideal S4096x128 .f32) (x1 : Vec Ideal S1x128 .f32) (p : Fin 4096) (q : Fin 128) :
    Gen.k9_pay1 x0 x1 (ix2 p q) = x0 (ix2 p q) + x1 (ix2 (0 : Fin 1) q) :=
  bias_apply x0 x1 _ _ _ p q

/-- Trace step 9 at (s, l). -/
theorem pay_trace9 (x0 : Vec Ideal S4096x128 .f32) (x1 : Vec Ideal S1x128 .f32) (x2 : Vec Ideal S128x128 .f32)
    (s : Fin 32) (l : Fin 128) :
    Gen.k9_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (trace_apply (Gen.k9_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [pay_bias9]

/-- Trace step 9 against the identity pattern. -/
theorem pay_trace9_identity (x0 : Vec Ideal S4096x128 .f32) (x1 : Vec Ideal S1x128 .f32) (x2 : Vec Ideal S128x128 .f32)
    (hI : ∀ i j : Fin 128, x2 (ix2 i j) = if i = j then (1 : EReal) else 0) (s : Fin 32) (l : Fin 128) :
    Gen.k9_pay2 x0 x1 x2 (ix2 s l)
      = ∑ i : Fin 128, (x0 (ix2 ⟨s.val * 128 + i.val, by omega⟩ i) + x1 (ix2 (0 : Fin 1) i)) :=
  (pay_trace9 x0 x1 x2 s l).trans (trace_identity x0 x1 x2 hI s)

/-- Bias step 11 at (p, q). -/
theorem pay_bias11 (x0 : Vec Ideal S4096x128 .f32) (x1 : Vec Ideal S1x128 .f32) (p : Fin 4096) (q : Fin 128) :
    Gen.k11_pay1 x0 x1 (ix2 p q) = x0 (ix2 p q) + x1 (ix2 (0 : Fin 1) q) :=
  bias_apply x0 x1 _ _ _ p q

/-- Trace step 11 at (s, l). -/
theorem pay_trace11 (x0 : Vec Ideal S4096x128 .f32) (x1 : Vec Ideal S1x128 .f32) (x2 : Vec Ideal S128x128 .f32)
    (s : Fin 32) (l : Fin 128) :
    Gen.k11_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (trace_apply (Gen.k11_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [pay_bias11]

/-- Trace step 11 against the identity pattern. -/
theorem pay_trace11_identity (x0 : Vec Ideal S4096x128 .f32) (x1 : Vec Ideal S1x128 .f32) (x2 : Vec Ideal S128x128 .f32)
    (hI : ∀ i j : Fin 128, x2 (ix2 i j) = if i = j then (1 : EReal) else 0) (s : Fin 32) (l : Fin 128) :
    Gen.k11_pay2 x0 x1 x2 (ix2 s l)
      = ∑ i : Fin 128, (x0 (ix2 ⟨s.val * 128 + i.val, by omega⟩ i) + x1 (ix2 (0 : Fin 1) i)) :=
  (pay_trace11 x0 x1 x2 s l).trans (trace_identity x0 x1 x2 hI s)

/-- Bias step 13 at (p, q). -/
theorem pay_bias13 (x0 : Vec Ideal S4096x128 .f32) (x1 : Vec Ideal S1x128 .f32) (p : Fin 4096) (q : Fin 128) :
    Gen.k13_pay1 x0 x1 (ix2 p q) = x0 (ix2 p q) + x1 (ix2 (0 : Fin 1) q) :=
  bias_apply x0 x1 _ _ _ p q

/-- Trace step 13 at (s, l). -/
theorem pay_trace13 (x0 : Vec Ideal S4096x128 .f32) (x1 : Vec Ideal S1x128 .f32) (x2 : Vec Ideal S128x128 .f32)
    (s : Fin 32) (l : Fin 128) :
    Gen.k13_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (trace_apply (Gen.k13_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [pay_bias13]

/-- Trace step 13 against the identity pattern. -/
theorem pay_trace13_identity (x0 : Vec Ideal S4096x128 .f32) (x1 : Vec Ideal S1x128 .f32) (x2 : Vec Ideal S128x128 .f32)
    (hI : ∀ i j : Fin 128, x2 (ix2 i j) = if i = j then (1 : EReal) else 0) (s : Fin 32) (l : Fin 128) :
    Gen.k13_pay2 x0 x1 x2 (ix2 s l)
      = ∑ i : Fin 128, (x0 (ix2 ⟨s.val * 128 + i.val, by omega⟩ i) + x1 (ix2 (0 : Fin 1) i)) :=
  (pay_trace13 x0 x1 x2 s l).trans (trace_identity x0 x1 x2 hI s)

end Cert.KernelIdeal.KM
-- ==== Proof.MathR.lean ====
/-
  The reference's host operations read at an index, at the exact (extended-real) values.
  A [32768,128] by [128,128] product at (P, q) is the sum over k of row P times column q. The per-batch trace regroups
  the 32768 rows as 256 batches of 128 rows, keeps in every batch the entries on the diagonal (a comparison of the row
  and column counters selects them, zero elsewhere), and sums each batch over both axes: at batch B the sum of the
  diagonal entries (B·128 + i, i).
-/
import proofs.«156722_j77687368450207_1_alg».proof.ReferenceIdeal
import proofs.«156722_j77687368450207_1_alg».proof.Proof.LibReshapeFlat
import proofs.«156722_j77687368450207_1_alg».proof.Proof.LibKeepdims
import Idealize.ShloMosaic.Lib.ValueLayout
import Idealize.ShloMosaic.PureOps.Ideal.Laws

noncomputable section

open scoped BigOperators

namespace Cert.ReferenceIdeal.RM

open Idealize.ShloMosaic Idealize.SL.Sem Idealize.ShloMosaic.ValueIdx
open Cert.ReferenceIdeal Cert.ReferenceIdeal.Facts₀

variable [Cert.ReferenceIdeal.Facts₀]

/-! ## The matrix product -/

/-- The [32768,128] by [128,128] product at (P, q): the sum over k of row P times column q. -/
theorem dot_p (h : FVec Ideal S32768x128 .f32) (W : FVec Ideal S128x128 .f32) (P : Fin 32768) (q : Fin 128) :
    Host.dotGeneral (F := Ideal) dot_S32768x128_S128x128_S32768x128_1_0_0_1_n_n none h W (ix2 P q)
      = ∑ k : Fin 128, h (ix2 P k) * W (ix2 k q) := by
  show FloatOps.dotGeneral _ none _ h W (ix2 P q) = _
  rw [Ideal.dotGeneral_apply,
    ← Equiv.sum_comp (contrEquiv1 dot_S32768x128_S128x128_S32768x128_1_0_0_1_n_n 128 rfl rfl).symm]
  refine Finset.sum_congr rfl fun c _ => ?_
  have c2 := contrEquiv1_symm_val dot_S32768x128_S128x128_S32768x128_1_0_0_1_n_n 128 rfl rfl c
  have l2 : dot_S32768x128_S128x128_S32768x128_1_0_0_1_n_n.lhsIdx (ix2 P q) ((contrEquiv1 _ 128 rfl rfl).symm c) = ix2 P c := by
    funext ax; apply Fin.ext
    match ax with
    | ⟨0, _⟩ => simp [DotDims.lhsIdx, dot_S32768x128_S128x128_S32768x128_1_0_0_1_n_n]; rfl
    | ⟨1, _⟩ => simp [DotDims.lhsIdx, dot_S32768x128_S128x128_S32768x128_1_0_0_1_n_n]; exact c2
  have r2 : dot_S32768x128_S128x128_S32768x128_1_0_0_1_n_n.rhsIdx (ix2 P q) ((contrEquiv1 _ 128 rfl rfl).symm c) = ix2 c q := by
    funext ax; apply Fin.ext
    match ax with
    | ⟨0, _⟩ => simp [DotDims.rhsIdx, dot_S32768x128_S128x128_S32768x128_1_0_0_1_n_n]; exact c2
    | ⟨1, _⟩ => simp [DotDims.rhsIdx, dot_S32768x128_S128x128_S32768x128_1_0_0_1_n_n]; rfl
  rw [l2, r2]

/-! ## Sums over the two trailing axes of a rank-3 array -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- The sum over the indices whose leading coordinate is B is the double sum over the other two coordinates. -/
theorem sum_filter_lead3 {M : Type*} [AddCommMonoid M] {n0 n1 n2 : Nat} (f : (⟨3, ![n0, n1, n2]⟩ : Shape).Idx → M)
    (B : Fin n0) :
    ∑ i ∈ Finset.univ.filter (fun i : (⟨3, ![n0, n1, n2]⟩ : Shape).Idx => (i 0).val = B.val), f i
      = ∑ a : Fin n1, ∑ b : Fin n2, f (ix3 B a b) := by
  rw [Finset.sum_filter, ← Equiv.sum_comp (idxEquiv3 (n0 := n0) (n1 := n1) (n2 := n2)).symm, Fintype.sum_prod_type,
    Finset.sum_eq_single B]
  · rw [Fintype.sum_prod_type]
    exact Finset.sum_congr rfl fun a _ => Finset.sum_congr rfl fun b _ => if_pos rfl
  · intro c _ hc
    exact Finset.sum_eq_zero fun y _ => if_neg fun e => hc (Fin.ext e)
  · intro hB
    exact absurd (Finset.mem_univ B) hB

/-! ## The diagonal mask -/

section Layout
variable {α : Type}

/-- An [a, b] array repeated over m batches (laid on axes 1 and 2) reads, at (s, i, j), its entry (i, j). -/
theorem broadcastInDim_ab_mab_apply {m a b : ℕ} (x : (⟨2, ![a, b]⟩ : Shape).Idx → α)
    (h : (⟨2, ![a, b]⟩ : Shape).BroadcastsInDim ⟨3, ![m, a, b]⟩ ![1, 2]) (s : Fin m) (i : Fin a) (j : Fin b) :
    broadcastInDim ⟨3, ![m, a, b]⟩ ![1, 2] h x (ix3 s i j) = x (ix2 i j) := by
  refine broadcastInDim_apply _ h x (ix3 s i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

end Layout

/-- Two counters below 128, as 32-bit words, compare equal exactly when they are equal. -/
theorem cmpi_eq_counters (a b : Fin 128) :
    IntOp.cmpi .eq (BitVec.ofNat 32 a.val) (BitVec.ofNat 32 b.val) = if a = b then 1#1 else 0#1 := by
  unfold IntOp.cmpi
  by_cases hab : a = b
  · subst hab; simp
  · rw [if_neg hab]
    have hne : BitVec.ofNat 32 a.val ≠ BitVec.ofNat 32 b.val := fun e => hab (Fin.ext (by
      have e' := congrArg BitVec.toNat e
      simp only [BitVec.toNat_ofNat] at e'
      have ha := a.isLt
      have hb := b.isLt
      omega))
    rw [beq_eq_false_iff_ne.mpr hne]
    rfl

/-! ## The per-batch trace -/

/-- The per-batch trace of a [32768,128] array at batch B: the sum of the diagonal entries (B·128 + i, i). -/
theorem ptrace (h : FVec Ideal S32768x128 .f32) (B : Fin 256) :
    Host.reduceAdd (F := Ideal)
        (select
          (broadcastInDim S256x128x128 ![1, 2] bcast_S128x128_S256x128x128_1_2
            (cmpi .eq (iotaInDim S128x128 32 0) (iotaInDim S128x128 32 1)))
          (shapeCast S256x128x128 h shapeCasts_S32768x128_S256x128x128)
          (broadcastInDim S256x128x128 ![] bcast_S_S256x128x128 (constant (F := Ideal) S_ .f32 0x00000000#32)))
        (constant (F := Ideal) S_ .f32 0x00000000#32) reducesTo_S256x128x128_S256_d1_2 h_S_ (ix1 B)
      = ∑ i : Fin 128, h (ix2 ⟨B.val * 128 + i.val, by omega⟩ i) := by
  show Ideal.hostReduceAdd reducesTo_S256x128x128_S256_d1_2 _ (Ideal.ofBits .f32 0x00000000#32) (ix1 B) = _
  unfold Ideal.hostReduceAdd
  rw [Ideal.ofBits_zero_f32, zero_add]
  have hf : (Finset.univ.filter fun i : S256x128x128.Idx => reducesTo_S256x128x128_S256_d1_2.drop i = ix1 B)
      = Finset.univ.filter fun i : S256x128x128.Idx => (i 0).val = B.val := by
    refine Finset.filter_congr fun i _ => ⟨fun e => ?_, fun e => ?_⟩
    · have e0 := congrArg Fin.val (congrFun e 0)
      exact (Shape.ReducesTo.drop_apply_val_of_eq reducesTo_S256x128x128_S256_d1_2 i 0 0).symm.trans e0
    · funext b
      match b with
      | ⟨0, _⟩ =>
        exact Fin.ext ((Shape.ReducesTo.drop_apply_val_of_eq reducesTo_S256x128x128_S256_d1_2 i 0 0).trans e)
  rw [hf, sum_filter_lead3]
  refine Finset.sum_congr rfl fun a _ => ?_
  have hX : ∀ b : Fin 128,
      select
          (broadcastInDim S256x128x128 ![1, 2] bcast_S128x128_S256x128x128_1_2
            (cmpi .eq (iotaInDim S128x128 32 0) (iotaInDim S128x128 32 1)))
          (shapeCast S256x128x128 h shapeCasts_S32768x128_S256x128x128)
          (broadcastInDim S256x128x128 ![] bcast_S_S256x128x128 (constant (F := Ideal) S_ .f32 0x00000000#32))
          (ix3 B a b)
        = if a = b then h (ix2 ⟨B.val * 128 + a.val, by omega⟩ b) else 0 := by
    intro b
    have hc : broadcastInDim S256x128x128 ![1, 2] bcast_S128x128_S256x128x128_1_2
          (cmpi .eq (iotaInDim S128x128 32 0) (iotaInDim S128x128 32 1)) (ix3 B a b)
        = if a = b then 1#1 else 0#1 :=
      (broadcastInDim_ab_mab_apply _ bcast_S128x128_S256x128x128_1_2 B a b).trans (cmpi_eq_counters a b)
    have hA : shapeCast S256x128x128 h shapeCasts_S32768x128_S256x128x128 (ix3 B a b)
        = h (ix2 ⟨B.val * 128 + a.val, by omega⟩ b) :=
      Cert.Lib.ReshapeFlat.shapeCast_rows_batches_apply h shapeCasts_S32768x128_S256x128x128 B a b
        ⟨B.val * 128 + a.val, by omega⟩ rfl
    have hZ : broadcastInDim S256x128x128 ![] bcast_S_S256x128x128 (constant (F := Ideal) S_ .f32 0x00000000#32)
          (ix3 B a b) = 0 :=
      (Cert.Lib.Keepdims.broadcastInDim_scalar_apply _ bcast_S_S256x128x128 (ix3 B a b)).trans Ideal.ofBits_zero_f32
    rw [select_apply, hc, hA, hZ]
    by_cases hab : a = b
    · rw [if_pos hab, if_pos hab, select_one]
    · rw [if_neg hab, if_neg hab, select_zero]
  rw [Finset.sum_congr rfl fun b _ => hX b, Finset.sum_ite_eq]
  exact if_pos (Finset.mem_univ a)

end Cert.ReferenceIdeal.RM
-- ==== Proof.MathX.lean ====
/-
  The three whole-array identities joining the two programs.
  The product of the 32768×128 array by the 128×128 weight, the bias row added to every row, and the per-block trace
  (the sum of each 128-row block's diagonal after the bias is added) are each written two ways: as the closed form over
  whole arrays, and as the reference's own composition of array operations. Entry by entry the two agree.
-/
import proofs.«156722_j77687368450207_1_alg».proof.Proof.KSpec
import proofs.«156722_j77687368450207_1_alg».proof.Proof.MathK
import proofs.«156722_j77687368450207_1_alg».proof.Proof.MathR

noncomputable section

open scoped BigOperators

namespace Cert.KX

open Idealize.ShloMosaic Idealize.SL.Sem Idealize.ShloMosaic.ValueIdx

variable [Cert.KernelIdeal.Facts₀] [Cert.ReferenceIdeal.Facts₀]

/-! ## The product -/

/-- The closed-form product is the reference's matrix product. -/
theorem mm_eq (h : FVec Ideal Cert.ReferenceIdeal.S32768x128 .f32) (w : FVec Ideal Cert.ReferenceIdeal.S128x128 .f32) :
    Cert.KernelIdeal.KV.mmG h w
      = Host.dotGeneral (F := Ideal) Cert.ReferenceIdeal.dot_S32768x128_S128x128_S32768x128_1_0_0_1_n_n none h w := by
  funext i
  obtain ⟨p, q, rfl⟩ : ∃ (p : Fin 32768) (q : Fin 128), i = ix2 p q := ⟨i 0, i 1, eq_ix2 i⟩
  exact (Cert.ReferenceIdeal.RM.dot_p h w p q).symm

/-! ## The bias -/

/-- The closed-form bias step, with the bias vector laid as a row, is the reference's: the vector laid as a row, the
    row repeated over the rows, and added. -/
theorem bias_eq (a : FVec Ideal Cert.ReferenceIdeal.S32768x128 .f32) (b : FVec Ideal Cert.ReferenceIdeal.S128 .f32) :
    Cert.KernelIdeal.KV.biasG a
        (shapeCast Cert.KernelIdeal.S1x128 b Cert.KernelIdeal.Facts₀.shapeCasts_S128_S1x128)
      = addf (F := Ideal) (φ := .f32) a
          (broadcastInDim Cert.ReferenceIdeal.S32768x128 ![0, 1] Cert.ReferenceIdeal.Facts₀.bcast_S1x128_S32768x128_0_1
            (broadcastInDim Cert.ReferenceIdeal.S1x128 ![1] Cert.ReferenceIdeal.Facts₀.bcast_S128_S1x128_1 b)) := by
  funext i
  obtain ⟨p, q, rfl⟩ : ∃ (p : Fin 32768) (q : Fin 128), i = ix2 p q := ⟨i 0, i 1, eq_ix2 i⟩
  show a (ix2 p q) + shapeCast Cert.KernelIdeal.S1x128 b _ (ix2 (0 : Fin 1) q)
      = a (ix2 p q) + broadcastInDim Cert.ReferenceIdeal.S32768x128 ![0, 1] _
          (broadcastInDim Cert.ReferenceIdeal.S1x128 ![1] _ b) (ix2 p q)
  rw [shapeCast_a_1a_apply, Cert.Lib.Keepdims.broadcastInDim_1b_ab_apply, Cert.Lib.Keepdims.broadcastInDim_b_1b_apply]

/-! ## The per-block trace -/

/-- Against the identity matrix a double sum keeps its diagonal. -/
theorem sum_mul_identity (f : Fin 128 → Fin 128 → EReal) (pat : Fin 128 → Fin 128 → EReal)
    (hI : ∀ p q, pat p q = if p = q then (1 : EReal) else 0) :
    (∑ p : Fin 128, ∑ q : Fin 128, f p q * pat p q) = ∑ p : Fin 128, f p p := by
  refine Finset.sum_congr rfl fun p _ => ?_
  simp only [hI, mul_ite, mul_one, mul_zero]
  rw [Finset.sum_ite_eq]
  exact if_pos (Finset.mem_univ p)

/-- The first column of the closed-form trace against the identity pattern is the reference's per-block trace of the
    biased array. -/
theorem ptrace_eq (a : FVec Ideal Cert.ReferenceIdeal.S32768x128 .f32) (b : FVec Ideal Cert.ReferenceIdeal.S128 .f32) :
    shapeCast Cert.KernelIdeal.S256
        (extractStridedSlice Cert.KernelIdeal.S256x1 ![0, 0]
          (Cert.KernelIdeal.KV.traceG a
            (shapeCast Cert.KernelIdeal.S1x128 b Cert.KernelIdeal.Facts₀.shapeCasts_S128_S1x128)
            (uitofp (F := Ideal) .f32
              (cmpi .eq
                (addi (iotaInDim Cert.KernelIdeal.S128x128 32 0)
                  (broadcastInDim Cert.KernelIdeal.S128x128 ![] Cert.KernelIdeal.Facts₀.bcast_S_S128x128
                    (constantI Cert.KernelIdeal.S_ 32 0#32)))
                (iotaInDim Cert.KernelIdeal.S128x128 32 1))))
          Cert.KernelIdeal.Facts₀.slices_S256x128_S256x1_0_0)
        Cert.KernelIdeal.Facts₀.shapeCasts_S256x1_S256
      = Host.reduceAdd (F := Ideal)
          (select
            (broadcastInDim Cert.ReferenceIdeal.S256x128x128 ![1, 2] Cert.ReferenceIdeal.Facts₀.bcast_S128x128_S256x128x128_1_2
              (cmpi .eq (iotaInDim Cert.ReferenceIdeal.S128x128 32 0) (iotaInDim Cert.ReferenceIdeal.S128x128 32 1)))
            (shapeCast Cert.ReferenceIdeal.S256x128x128
              (addf (F := Ideal) (φ := .f32) a
                (broadcastInDim Cert.ReferenceIdeal.S32768x128 ![0, 1] Cert.ReferenceIdeal.Facts₀.bcast_S1x128_S32768x128_0_1
                  (broadcastInDim Cert.ReferenceIdeal.S1x128 ![1] Cert.ReferenceIdeal.Facts₀.bcast_S128_S1x128_1 b)))
              Cert.ReferenceIdeal.Facts₀.shapeCasts_S32768x128_S256x128x128)
            (broadcastInDim Cert.ReferenceIdeal.S256x128x128 ![] Cert.ReferenceIdeal.Facts₀.bcast_S_S256x128x128
              (constant (F := Ideal) Cert.ReferenceIdeal.S_ .f32 0x00000000#32)))
          (constant (F := Ideal) Cert.ReferenceIdeal.S_ .f32 0x00000000#32)
          Cert.ReferenceIdeal.Facts₀.reducesTo_S256x128x128_S256_d1_2 Cert.ReferenceIdeal.Facts₀.h_S_ := by
  funext i
  obtain ⟨B, rfl⟩ : ∃ B : Fin 256, i = ix1 B := ⟨i 0, eq_ix1 i⟩
  rw [Cert.ReferenceIdeal.RM.ptrace, Cert.KernelIdeal.KM.trace_column_apply, ← bias_eq a b]
  show (∑ p : Fin 128, ∑ q : Fin 128,
      (a (ix2 (⟨B.val * 128 + p.val, by omega⟩ : Fin 32768) q)
          + shapeCast Cert.KernelIdeal.S1x128 b Cert.KernelIdeal.Facts₀.shapeCasts_S128_S1x128 (ix2 (0 : Fin 1) q))
        * (uitofp (F := Ideal) .f32
            (cmpi .eq
              (addi (iotaInDim Cert.KernelIdeal.S128x128 32 0)
                (broadcastInDim Cert.KernelIdeal.S128x128 ![] Cert.KernelIdeal.Facts₀.bcast_S_S128x128
                  (constantI Cert.KernelIdeal.S_ 32 0#32)))
              (iotaInDim Cert.KernelIdeal.S128x128 32 1)) : FVec Ideal Cert.KernelIdeal.S128x128 .f32) (ix2 p q))
    = ∑ p : Fin 128,
        (a (ix2 (⟨B.val * 128 + p.val, by omega⟩ : Fin 32768) p)
          + shapeCast Cert.KernelIdeal.S1x128 b Cert.KernelIdeal.Facts₀.shapeCasts_S128_S1x128 (ix2 (0 : Fin 1) p))
  exact sum_mul_identity _ _ fun p q =>
    Cert.KernelIdeal.KM.identity_pattern_apply Cert.KernelIdeal.Facts₀.bcast_S_S128x128 p q

end Cert.KX
-- ==== Proof.BridgeIt0.lean ====
/- Layer 1 of the two programs, side by side. From contents that agree on what the layer reads — the two graphs'
   current features, the weights, the bias, the edge endpoints and edge weights — and with the kernel program's
   pattern buffer holding the identity pattern, the kernel program's line for the layer and the reference program's 61
   operations leave the same contents in the four buffers later layers and the readout read: each graph's new
   features, the small graph's trace, the large graph's blocks' diagonal sums. Three places differ in form and are
   equal as functions: the product with the weights, the bias added to every row, the blocks' sums against the
   identity pattern. -/
import proofs.«156722_j77687368450207_1_alg».proof.Proof.KOpsDefs
import proofs.«156722_j77687368450207_1_alg».proof.Proof.MathX
import proofs.«156722_j77687368450207_1_alg».proof.Proof.RefChunksS0
import proofs.«156722_j77687368450207_1_alg».proof.Proof.BridgeBase

noncomputable section

namespace Cert.ReferenceIdeal.RR

open Idealize.ShloMosaic Idealize.ShloMosaic.TcCoe Idealize.ShloMosaic.StableHlo

set_option maxRecDepth 8192 in
set_option maxHeartbeats 4000000 in
theorem it0_p
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_arg0) = xp) (h_xp' : V₂ (Proc.devRef .tc Cert.ReferenceIdeal.main_arg0) = xp)
    (h_xnp : V₁ (Proc.devRef .tc Cert.KernelIdeal.main_arg1) = xnp) (h_xnp' : V₂ (Proc.devRef .tc Cert.ReferenceIdeal.main_arg1) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit0 V₁ (Proc.devRef .tc Cert.KernelIdeal.main_v81_0) = after (Rit0 (F := Ideal)) V₂ (Proc.devRef .tc Cert.ReferenceIdeal.main_v76) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.bias_eq _ _

set_option maxRecDepth 8192 in
set_option maxHeartbeats 4000000 in
theorem it0_np
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_arg0) = xp) (h_xp' : V₂ (Proc.devRef .tc Cert.ReferenceIdeal.main_arg0) = xp)
    (h_xnp : V₁ (Proc.devRef .tc Cert.KernelIdeal.main_arg1) = xnp) (h_xnp' : V₂ (Proc.devRef .tc Cert.ReferenceIdeal.main_arg1) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit0 V₁ (Proc.devRef .tc Cert.KernelIdeal.main_v100) = after (Rit0 (F := Ideal)) V₂ (Proc.devRef .tc Cert.ReferenceIdeal.main_v93) := by
  read_folds
  simp only [h_xp, h_xp', h_xnp, h_xnp', h_w, h_w', h_b, h_b', h_e3, h_e3', h_e6, h_e6', h_n29, h_n29', h_e33, h_e33', h_e36, h_e36', h_n59, h_n59', h_pat]
  rfl

set_option maxRecDepth 8192 in
set_option maxHeartbeats 4000000 in
theorem it0_ptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_arg0) = xp) (h_xp' : V₂ (Proc.devRef .tc Cert.ReferenceIdeal.main_arg0) = xp)
    (h_xnp : V₁ (Proc.devRef .tc Cert.KernelIdeal.main_arg1) = xnp) (h_xnp' : V₂ (Proc.devRef .tc Cert.ReferenceIdeal.main_arg1) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit0 V₁ (Proc.devRef .tc Cert.KernelIdeal.main_v83) = after (Rit0 (F := Ideal)) V₂ (Proc.devRef .tc Cert.ReferenceIdeal.main_v102) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.ptrace_eq _ _

set_option maxRecDepth 8192 in
set_option maxHeartbeats 4000000 in
theorem it0_nptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_arg0) = xp) (h_xp' : V₂ (Proc.devRef .tc Cert.ReferenceIdeal.main_arg0) = xp)
    (h_xnp : V₁ (Proc.devRef .tc Cert.KernelIdeal.main_arg1) = xnp) (h_xnp' : V₂ (Proc.devRef .tc Cert.ReferenceIdeal.main_arg1) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit0 V₁ (Proc.devRef .tc Cert.KernelIdeal.main_v101) = after (Rit0 (F := Ideal)) V₂ (Proc.devRef .tc Cert.ReferenceIdeal.main_v94) := by
  read_folds
  simp only [h_xp, h_xp', h_xnp, h_xnp', h_w, h_w', h_b, h_b', h_e3, h_e3', h_e6, h_e6', h_n29, h_n29', h_e33, h_e33', h_e36, h_e36', h_n59, h_n59', h_pat]
  rfl

/-- The four together. -/
theorem it0_bridge
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_arg0) = xp) (h_xp' : V₂ (Proc.devRef .tc Cert.ReferenceIdeal.main_arg0) = xp)
    (h_xnp : V₁ (Proc.devRef .tc Cert.KernelIdeal.main_arg1) = xnp) (h_xnp' : V₂ (Proc.devRef .tc Cert.ReferenceIdeal.main_arg1) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit0 V₁ (Proc.devRef .tc Cert.KernelIdeal.main_v81_0) = after (Rit0 (F := Ideal)) V₂ (Proc.devRef .tc Cert.ReferenceIdeal.main_v76))
    ∧ (after Cert.KernelIdeal.KV.Kit0 V₁ (Proc.devRef .tc Cert.KernelIdeal.main_v100) = after (Rit0 (F := Ideal)) V₂ (Proc.devRef .tc Cert.ReferenceIdeal.main_v93))
    ∧ (after Cert.KernelIdeal.KV.Kit0 V₁ (Proc.devRef .tc Cert.KernelIdeal.main_v83) = after (Rit0 (F := Ideal)) V₂ (Proc.devRef .tc Cert.ReferenceIdeal.main_v102))
    ∧ (after Cert.KernelIdeal.KV.Kit0 V₁ (Proc.devRef .tc Cert.KernelIdeal.main_v101) = after (Rit0 (F := Ideal)) V₂ (Proc.devRef .tc Cert.ReferenceIdeal.main_v94)) :=
  ⟨it0_p V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it0_np V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it0_ptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it0_nptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat⟩

/-- The same with the agreements as equations between the two sides' contents. -/
theorem it0_bridge'
    (V₁ : Valuation Cert.KernelIdeal.τ Cert.KernelIdeal.sig (Elt Ideal)) (V₂ : Valuation Cert.ReferenceIdeal.τ Cert.ReferenceIdeal.sig (Elt Ideal))
    (h_xp : V₁ (Proc.devRef .tc Cert.KernelIdeal.main_arg0) = V₂ (Proc.devRef .tc Cert.ReferenceIdeal.main_arg0))
    (h_xnp : V₁ (Proc.devRef .tc Cert.KernelIdeal.main_arg1) = V₂ (Proc.devRef .tc Cert.ReferenceIdeal.main_arg1))
    (h_w : V₁ (Proc.devRef .tc Cert.KernelIdeal.main_arg5) = V₂ (Proc.devRef .tc Cert.ReferenceIdeal.main_arg5))
    (h_b : V₁ (Proc.devRef .tc Cert.KernelIdeal.main_arg6) = V₂ (Proc.devRef .tc Cert.ReferenceIdeal.main_arg6))
    (h_e3 : V₁ (Proc.devRef .tc Cert.KernelIdeal.main_v3) = V₂ (Proc.devRef .tc Cert.ReferenceIdeal.main_v3))
    (h_e6 : V₁ (Proc.devRef .tc Cert.KernelIdeal.main_v6) = V₂ (Proc.devRef .tc Cert.ReferenceIdeal.main_v6))
    (h_n29 : V₁ (Proc.devRef .tc Cert.KernelIdeal.main_v29) = V₂ (Proc.devRef .tc Cert.ReferenceIdeal.main_v29))
    (h_e33 : V₁ (Proc.devRef .tc Cert.KernelIdeal.main_v33) = V₂ (Proc.devRef .tc Cert.ReferenceIdeal.main_v33))
    (h_e36 : V₁ (Proc.devRef .tc Cert.KernelIdeal.main_v36) = V₂ (Proc.devRef .tc Cert.ReferenceIdeal.main_v36))
    (h_n59 : V₁ (Proc.devRef .tc Cert.KernelIdeal.main_v59) = V₂ (Proc.devRef .tc Cert.ReferenceIdeal.main_v59))
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit0 V₁ (Proc.devRef .tc Cert.KernelIdeal.main_v81_0) = after (Rit0 (F := Ideal)) V₂ (Proc.devRef .tc Cert.ReferenceIdeal.main_v76))
    ∧ (after Cert.KernelIdeal.KV.Kit0 V₁ (Proc.devRef .tc Cert.KernelIdeal.main_v100) = after (Rit0 (F := Ideal)) V₂ (Proc.devRef .tc Cert.ReferenceIdeal.main_v93))
    ∧ (after Cert.KernelIdeal.KV.Kit0 V₁ (Proc.devRef .tc Cert.KernelIdeal.main_v83) = after (Rit0 (F := Ideal)) V₂ (Proc.devRef .tc Cert.ReferenceIdeal.main_v102))
    ∧ (after Cert.KernelIdeal.KV.Kit0 V₁ (Proc.devRef .tc Cert.KernelIdeal.main_v101) = after (Rit0 (F := Ideal)) V₂ (Proc.devRef .tc Cert.ReferenceIdeal.main_v94)) :=
  it0_bridge V₁ V₂ _ _ _ _ _ _ _ _ _ _ h_xp rfl h_xnp rfl h_w rfl h_b rfl h_e3 rfl h_e6 rfl h_n29 rfl h_e33 rfl h_e36 rfl h_n59 rfl h_pat

end Cert.ReferenceIdeal.RR

end
-- ==== Proof.BridgeS0.lean ====
/-
  Layer 1 of the two programs, side by side: from contents that agree on what the layer reads, the two lines
  leave contents that agree on the layer's output, the other graph's aggregate, and the two traces.
-/
import proofs.«156722_j77687368450207_1_alg».proof.Proof.BridgeKeeps
import proofs.«156722_j77687368450207_1_alg».proof.Proof.BridgeIt0

set_option maxRecDepth 8192
set_option maxHeartbeats 4000000

noncomputable section

namespace Cert.Proof.Br

open Idealize.ShloMosaic Idealize.ShloMosaic.TcCoe Idealize.SL.Sem Idealize.ShloMosaic.StableHlo

theorem step0 (V₁ : KVal) (V₂ : RVal)
    (hp : Agree V₁ V₂ Cert.KernelIdeal.main_arg0 Cert.ReferenceIdeal.main_arg0)
    (hn : Agree V₁ V₂ Cert.KernelIdeal.main_arg1 Cert.ReferenceIdeal.main_arg1)
    (h_w : Agree V₁ V₂ Cert.KernelIdeal.main_arg5 Cert.ReferenceIdeal.main_arg5)
    (h_b : Agree V₁ V₂ Cert.KernelIdeal.main_arg6 Cert.ReferenceIdeal.main_arg6)
    (h_e3 : Agree V₁ V₂ Cert.KernelIdeal.main_v3 Cert.ReferenceIdeal.main_v3)
    (h_e6 : Agree V₁ V₂ Cert.KernelIdeal.main_v6 Cert.ReferenceIdeal.main_v6)
    (h_n29 : Agree V₁ V₂ Cert.KernelIdeal.main_v29 Cert.ReferenceIdeal.main_v29)
    (h_e33 : Agree V₁ V₂ Cert.KernelIdeal.main_v33 Cert.ReferenceIdeal.main_v33)
    (h_e36 : Agree V₁ V₂ Cert.KernelIdeal.main_v36 Cert.ReferenceIdeal.main_v36)
    (h_n59 : Agree V₁ V₂ Cert.KernelIdeal.main_v59 Cert.ReferenceIdeal.main_v59)
    (hpat : V₁ (Proc.devRef .tc Cert.KernelIdeal.main_v65) = PAT) :
    Agree (after Cert.KernelIdeal.KV.Kit0 V₁) (after (Cert.ReferenceIdeal.RR.Rit0 (F := Ideal)) V₂) Cert.KernelIdeal.main_v81_0 Cert.ReferenceIdeal.main_v76
    ∧ Agree (after Cert.KernelIdeal.KV.Kit0 V₁) (after (Cert.ReferenceIdeal.RR.Rit0 (F := Ideal)) V₂) Cert.KernelIdeal.main_v100 Cert.ReferenceIdeal.main_v93
    ∧ Agree (after Cert.KernelIdeal.KV.Kit0 V₁) (after (Cert.ReferenceIdeal.RR.Rit0 (F := Ideal)) V₂) Cert.KernelIdeal.main_v83 Cert.ReferenceIdeal.main_v102
    ∧ Agree (after Cert.KernelIdeal.KV.Kit0 V₁) (after (Cert.ReferenceIdeal.RR.Rit0 (F := Ideal)) V₂) Cert.KernelIdeal.main_v101 Cert.ReferenceIdeal.main_v94 := by
  obtain ⟨c1, c2, c3, c4⟩ := Cert.ReferenceIdeal.RR.it0_bridge' V₁ V₂ (eq_of_heq hp) (eq_of_heq hn)
    (eq_of_heq h_w) (eq_of_heq h_b) (eq_of_heq h_e3) (eq_of_heq h_e6) (eq_of_heq h_n29) (eq_of_heq h_e33) (eq_of_heq h_e36) (eq_of_heq h_n59) hpat
  exact ⟨heq_of_eq c1, heq_of_eq c2, heq_of_eq c3, heq_of_eq c4⟩

end Cert.Proof.Br

end
-- ==== Proof.BridgeIt1.lean ====
/- Layer 2 of the two programs, side by side. From contents that agree on what the layer reads — the two graphs'
   current features, the weights, the bias, the edge endpoints and edge weights — and with the kernel program's
   pattern buffer holding the identity pattern, the kernel program's line for the layer and the reference program's 61
   operations leave the same contents in the four buffers later layers and the readout read: each graph's new
   features, the small graph's trace, the large graph's blocks' diagonal sums. Three places differ in form and are
   equal as functions: the product with the weights, the bias added to every row, the blocks' sums against the
   identity pattern. -/
import proofs.«156722_j77687368450207_1_alg».proof.Proof.KOpsDefs
import proofs.«156722_j77687368450207_1_alg».proof.Proof.MathX
import proofs.«156722_j77687368450207_1_alg».proof.Proof.RefChunksS1
import proofs.«156722_j77687368450207_1_alg».proof.Proof.BridgeBase

noncomputable section

namespace Cert.ReferenceIdeal.RR

open Idealize.ShloMosaic Idealize.ShloMosaic.TcCoe Idealize.ShloMosaic.StableHlo

set_option maxRecDepth 8192 in
set_option maxHeartbeats 4000000 in
theorem it1_p
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v81_0) = xp) (h_xp' : V₂ (Proc.devRef .tc Cert.ReferenceIdeal.main_v76) = xp)
    (h_xnp : V₁ (Proc.devRef .tc Cert.KernelIdeal.main_v100) = xnp) (h_xnp' : V₂ (Proc.devRef .tc Cert.ReferenceIdeal.main_v93) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit1 V₁ (Proc.devRef .tc Cert.KernelIdeal.main_v117_0) = after (Rit1 (F := Ideal)) V₂ (Proc.devRef .tc Cert.ReferenceIdeal.main_v119) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.bias_eq _ _

set_option maxRecDepth 8192 in
set_option maxHeartbeats 4000000 in
theorem it1_np
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v81_0) = xp) (h_xp' : V₂ (Proc.devRef .tc Cert.ReferenceIdeal.main_v76) = xp)
    (h_xnp : V₁ (Proc.devRef .tc Cert.KernelIdeal.main_v100) = xnp) (h_xnp' : V₂ (Proc.devRef .tc Cert.ReferenceIdeal.main_v93) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit1 V₁ (Proc.devRef .tc Cert.KernelIdeal.main_v136) = after (Rit1 (F := Ideal)) V₂ (Proc.devRef .tc Cert.ReferenceIdeal.main_v136) := by
  read_folds
  simp only [h_xp, h_xp', h_xnp, h_xnp', h_w, h_w', h_b, h_b', h_e3, h_e3', h_e6, h_e6', h_n29, h_n29', h_e33, h_e33', h_e36, h_e36', h_n59, h_n59', h_pat]
  rfl

set_option maxRecDepth 8192 in
set_option maxHeartbeats 4000000 in
theorem it1_ptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v81_0) = xp) (h_xp' : V₂ (Proc.devRef .tc Cert.ReferenceIdeal.main_v76) = xp)
    (h_xnp : V₁ (Proc.devRef .tc Cert.KernelIdeal.main_v100) = xnp) (h_xnp' : V₂ (Proc.devRef .tc Cert.ReferenceIdeal.main_v93) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit1 V₁ (Proc.devRef .tc Cert.KernelIdeal.main_v119) = after (Rit1 (F := Ideal)) V₂ (Proc.devRef .tc Cert.ReferenceIdeal.main_v145) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.ptrace_eq _ _

set_option maxRecDepth 8192 in
set_option maxHeartbeats 4000000 in
theorem it1_nptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v81_0) = xp) (h_xp' : V₂ (Proc.devRef .tc Cert.ReferenceIdeal.main_v76) = xp)
    (h_xnp : V₁ (Proc.devRef .tc Cert.KernelIdeal.main_v100) = xnp) (h_xnp' : V₂ (Proc.devRef .tc Cert.ReferenceIdeal.main_v93) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit1 V₁ (Proc.devRef .tc Cert.KernelIdeal.main_v137) = after (Rit1 (F := Ideal)) V₂ (Proc.devRef .tc Cert.ReferenceIdeal.main_v137) := by
  read_folds
  simp only [h_xp, h_xp', h_xnp, h_xnp', h_w, h_w', h_b, h_b', h_e3, h_e3', h_e6, h_e6', h_n29, h_n29', h_e33, h_e33', h_e36, h_e36', h_n59, h_n59', h_pat]
  rfl

/-- The four together. -/
theorem it1_bridge
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v81_0) = xp) (h_xp' : V₂ (Proc.devRef .tc Cert.ReferenceIdeal.main_v76) = xp)
    (h_xnp : V₁ (Proc.devRef .tc Cert.KernelIdeal.main_v100) = xnp) (h_xnp' : V₂ (Proc.devRef .tc Cert.ReferenceIdeal.main_v93) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit1 V₁ (Proc.devRef .tc Cert.KernelIdeal.main_v117_0) = after (Rit1 (F := Ideal)) V₂ (Proc.devRef .tc Cert.ReferenceIdeal.main_v119))
    ∧ (after Cert.KernelIdeal.KV.Kit1 V₁ (Proc.devRef .tc Cert.KernelIdeal.main_v136) = after (Rit1 (F := Ideal)) V₂ (Proc.devRef .tc Cert.ReferenceIdeal.main_v136))
    ∧ (after Cert.KernelIdeal.KV.Kit1 V₁ (Proc.devRef .tc Cert.KernelIdeal.main_v119) = after (Rit1 (F := Ideal)) V₂ (Proc.devRef .tc Cert.ReferenceIdeal.main_v145))
    ∧ (after Cert.KernelIdeal.KV.Kit1 V₁ (Proc.devRef .tc Cert.KernelIdeal.main_v137) = after (Rit1 (F := Ideal)) V₂ (Proc.devRef .tc Cert.ReferenceIdeal.main_v137)) :=
  ⟨it1_p V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it1_np V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it1_ptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it1_nptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat⟩

/-- The same with the agreements as equations between the two sides' contents. -/
theorem it1_bridge'
    (V₁ : Valuation Cert.KernelIdeal.τ Cert.KernelIdeal.sig (Elt Ideal)) (V₂ : Valuation Cert.ReferenceIdeal.τ Cert.ReferenceIdeal.sig (Elt Ideal))
    (h_xp : V₁ (Proc.devRef .tc Cert.KernelIdeal.main_v81_0) = V₂ (Proc.devRef .tc Cert.ReferenceIdeal.main_v76))
    (h_xnp : V₁ (Proc.devRef .tc Cert.KernelIdeal.main_v100) = V₂ (Proc.devRef .tc Cert.ReferenceIdeal.main_v93))
    (h_w : V₁ (Proc.devRef .tc Cert.KernelIdeal.main_arg5) = V₂ (Proc.devRef .tc Cert.ReferenceIdeal.main_arg5))
    (h_b : V₁ (Proc.devRef .tc Cert.KernelIdeal.main_arg6) = V₂ (Proc.devRef .tc Cert.ReferenceIdeal.main_arg6))
    (h_e3 : V₁ (Proc.devRef .tc Cert.KernelIdeal.main_v3) = V₂ (Proc.devRef .tc Cert.ReferenceIdeal.main_v3))
    (h_e6 : V₁ (Proc.devRef .tc Cert.KernelIdeal.main_v6) = V₂ (Proc.devRef .tc Cert.ReferenceIdeal.main_v6))
    (h_n29 : V₁ (Proc.devRef .tc Cert.KernelIdeal.main_v29) = V₂ (Proc.devRef .tc Cert.ReferenceIdeal.main_v29))
    (h_e33 : V₁ (Proc.devRef .tc Cert.KernelIdeal.main_v33) = V₂ (Proc.devRef .tc Cert.ReferenceIdeal.main_v33))
    (h_e36 : V₁ (Proc.devRef .tc Cert.KernelIdeal.main_v36) = V₂ (Proc.devRef .tc Cert.ReferenceIdeal.main_v36))
    (h_n59 : V₁ (Proc.devRef .tc Cert.KernelIdeal.main_v59) = V₂ (Proc.devRef .tc Cert.ReferenceIdeal.main_v59))
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit1 V₁ (Proc.devRef .tc Cert.KernelIdeal.main_v117_0) = after (Rit1 (F := Ideal)) V₂ (Proc.devRef .tc Cert.ReferenceIdeal.main_v119))
    ∧ (after Cert.KernelIdeal.KV.Kit1 V₁ (Proc.devRef .tc Cert.KernelIdeal.main_v136) = after (Rit1 (F := Ideal)) V₂ (Proc.devRef .tc Cert.ReferenceIdeal.main_v136))
    ∧ (after Cert.KernelIdeal.KV.Kit1 V₁ (Proc.devRef .tc Cert.KernelIdeal.main_v119) = after (Rit1 (F := Ideal)) V₂ (Proc.devRef .tc Cert.ReferenceIdeal.main_v145))
    ∧ (after Cert.KernelIdeal.KV.Kit1 V₁ (Proc.devRef .tc Cert.KernelIdeal.main_v137) = after (Rit1 (F := Ideal)) V₂ (Proc.devRef .tc Cert.ReferenceIdeal.main_v137)) :=
  it1_bridge V₁ V₂ _ _ _ _ _ _ _ _ _ _ h_xp rfl h_xnp rfl h_w rfl h_b rfl h_e3 rfl h_e6 rfl h_n29 rfl h_e33 rfl h_e36 rfl h_n59 rfl h_pat

end Cert.ReferenceIdeal.RR

end
-- ==== Proof.BridgeS1.lean ====
/-
  Layer 2 of the two programs, side by side: from contents that agree on what the layer reads, the two lines
  leave contents that agree on the layer's output, the other graph's aggregate, and the two traces.
-/
import proofs.«156722_j77687368450207_1_alg».proof.Proof.BridgeKeeps
import proofs.«156722_j77687368450207_1_alg».proof.Proof.BridgeIt1

set_option maxRecDepth 8192
set_option maxHeartbeats 4000000

noncomputable section

namespace Cert.Proof.Br

open Idealize.ShloMosaic Idealize.ShloMosaic.TcCoe Idealize.SL.Sem Idealize.ShloMosaic.StableHlo

theorem step1 (V₁ : KVal) (V₂ : RVal)
    (hp : Agree V₁ V₂ Cert.KernelIdeal.main_v81_0 Cert.ReferenceIdeal.main_v76)
    (hn : Agree V₁ V₂ Cert.KernelIdeal.main_v100 Cert.ReferenceIdeal.main_v93)
    (h_w : Agree V₁ V₂ Cert.KernelIdeal.main_arg5 Cert.ReferenceIdeal.main_arg5)
    (h_b : Agree V₁ V₂ Cert.KernelIdeal.main_arg6 Cert.ReferenceIdeal.main_arg6)
    (h_e3 : Agree V₁ V₂ Cert.KernelIdeal.main_v3 Cert.ReferenceIdeal.main_v3)
    (h_e6 : Agree V₁ V₂ Cert.KernelIdeal.main_v6 Cert.ReferenceIdeal.main_v6)
    (h_n29 : Agree V₁ V₂ Cert.KernelIdeal.main_v29 Cert.ReferenceIdeal.main_v29)
    (h_e33 : Agree V₁ V₂ Cert.KernelIdeal.main_v33 Cert.ReferenceIdeal.main_v33)
    (h_e36 : Agree V₁ V₂ Cert.KernelIdeal.main_v36 Cert.ReferenceIdeal.main_v36)
    (h_n59 : Agree V₁ V₂ Cert.KernelIdeal.main_v59 Cert.ReferenceIdeal.main_v59)
    (hpat : V₁ (Proc.devRef .tc Cert.KernelIdeal.main_v65) = PAT) :
    Agree (after Cert.KernelIdeal.KV.Kit1 V₁) (after (Cert.ReferenceIdeal.RR.Rit1 (F := Ideal)) V₂) Cert.KernelIdeal.main_v117_0 Cert.ReferenceIdeal.main_v119
    ∧ Agree (after Cert.KernelIdeal.KV.Kit1 V₁) (after (Cert.ReferenceIdeal.RR.Rit1 (F := Ideal)) V₂) Cert.KernelIdeal.main_v136 Cert.ReferenceIdeal.main_v136
    ∧ Agree (after Cert.KernelIdeal.KV.Kit1 V₁) (after (Cert.ReferenceIdeal.RR.Rit1 (F := Ideal)) V₂) Cert.KernelIdeal.main_v119 Cert.ReferenceIdeal.main_v145
    ∧ Agree (after Cert.KernelIdeal.KV.Kit1 V₁) (after (Cert.ReferenceIdeal.RR.Rit1 (F := Ideal)) V₂) Cert.KernelIdeal.main_v137 Cert.ReferenceIdeal.main_v137 := by
  obtain ⟨c1, c2, c3, c4⟩ := Cert.ReferenceIdeal.RR.it1_bridge' V₁ V₂ (eq_of_heq hp) (eq_of_heq hn)
    (eq_of_heq h_w) (eq_of_heq h_b) (eq_of_heq h_e3) (eq_of_heq h_e6) (eq_of_heq h_n29) (eq_of_heq h_e33) (eq_of_heq h_e36) (eq_of_heq h_n59) hpat
  exact ⟨heq_of_eq c1, heq_of_eq c2, heq_of_eq c3, heq_of_eq c4⟩

end Cert.Proof.Br

end
-- ==== Proof.BridgeIt2.lean ====
/- Layer 3 of the two programs, side by side. From contents that agree on what the layer reads — the two graphs'
   current features, the weights, the bias, the edge endpoints and edge weights — and with the kernel program's
   pattern buffer holding the identity pattern, the kernel program's line for the layer and the reference program's 61
   operations leave the same contents in the four buffers later layers and the readout read: each graph's new
   features, the small graph's trace, the large graph's blocks' diagonal sums. Three places differ in form and are
   equal as functions: the product with the weights, the bias added to every row, the blocks' sums against the
   identity pattern. -/
import proofs.«156722_j77687368450207_1_alg».proof.Proof.KOpsDefs
import proofs.«156722_j77687368450207_1_alg».proof.Proof.MathX
import proofs.«156722_j77687368450207_1_alg».proof.Proof.RefChunksS2
import proofs.«156722_j77687368450207_1_alg».proof.Proof.BridgeBase

noncomputable section

namespace Cert.ReferenceIdeal.RR

open Idealize.ShloMosaic Idealize.ShloMosaic.TcCoe Idealize.ShloMosaic.StableHlo

set_option maxRecDepth 8192 in
set_option maxHeartbeats 4000000 in
theorem it2_p
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v117_0) = xp) (h_xp' : V₂ (Proc.devRef .tc Cert.ReferenceIdeal.main_v119) = xp)
    (h_xnp : V₁ (Proc.devRef .tc Cert.KernelIdeal.main_v136) = xnp) (h_xnp' : V₂ (Proc.devRef .tc Cert.ReferenceIdeal.main_v136) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit2 V₁ (Proc.devRef .tc Cert.KernelIdeal.main_v153_0) = after (Rit2 (F := Ideal)) V₂ (Proc.devRef .tc Cert.ReferenceIdeal.main_v162) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.bias_eq _ _

set_option maxRecDepth 8192 in
set_option maxHeartbeats 4000000 in
theorem it2_np
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v117_0) = xp) (h_xp' : V₂ (Proc.devRef .tc Cert.ReferenceIdeal.main_v119) = xp)
    (h_xnp : V₁ (Proc.devRef .tc Cert.KernelIdeal.main_v136) = xnp) (h_xnp' : V₂ (Proc.devRef .tc Cert.ReferenceIdeal.main_v136) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit2 V₁ (Proc.devRef .tc Cert.KernelIdeal.main_v172) = after (Rit2 (F := Ideal)) V₂ (Proc.devRef .tc Cert.ReferenceIdeal.main_v179) := by
  read_folds
  simp only [h_xp, h_xp', h_xnp, h_xnp', h_w, h_w', h_b, h_b', h_e3, h_e3', h_e6, h_e6', h_n29, h_n29', h_e33, h_e33', h_e36, h_e36', h_n59, h_n59', h_pat]
  rfl

set_option maxRecDepth 8192 in
set_option maxHeartbeats 4000000 in
theorem it2_ptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v117_0) = xp) (h_xp' : V₂ (Proc.devRef .tc Cert.ReferenceIdeal.main_v119) = xp)
    (h_xnp : V₁ (Proc.devRef .tc Cert.KernelIdeal.main_v136) = xnp) (h_xnp' : V₂ (Proc.devRef .tc Cert.ReferenceIdeal.main_v136) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit2 V₁ (Proc.devRef .tc Cert.KernelIdeal.main_v155) = after (Rit2 (F := Ideal)) V₂ (Proc.devRef .tc Cert.ReferenceIdeal.main_v188) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.ptrace_eq _ _

set_option maxRecDepth 8192 in
set_option maxHeartbeats 4000000 in
theorem it2_nptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v117_0) = xp) (h_xp' : V₂ (Proc.devRef .tc Cert.ReferenceIdeal.main_v119) = xp)
    (h_xnp : V₁ (Proc.devRef .tc Cert.KernelIdeal.main_v136) = xnp) (h_xnp' : V₂ (Proc.devRef .tc Cert.ReferenceIdeal.main_v136) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit2 V₁ (Proc.devRef .tc Cert.KernelIdeal.main_v173) = after (Rit2 (F := Ideal)) V₂ (Proc.devRef .tc Cert.ReferenceIdeal.main_v180) := by
  read_folds
  simp only [h_xp, h_xp', h_xnp, h_xnp', h_w, h_w', h_b, h_b', h_e3, h_e3', h_e6, h_e6', h_n29, h_n29', h_e33, h_e33', h_e36, h_e36', h_n59, h_n59', h_pat]
  rfl

/-- The four together. -/
theorem it2_bridge
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v117_0) = xp) (h_xp' : V₂ (Proc.devRef .tc Cert.ReferenceIdeal.main_v119) = xp)
    (h_xnp : V₁ (Proc.devRef .tc Cert.KernelIdeal.main_v136) = xnp) (h_xnp' : V₂ (Proc.devRef .tc Cert.ReferenceIdeal.main_v136) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit2 V₁ (Proc.devRef .tc Cert.KernelIdeal.main_v153_0) = after (Rit2 (F := Ideal)) V₂ (Proc.devRef .tc Cert.ReferenceIdeal.main_v162))
    ∧ (after Cert.KernelIdeal.KV.Kit2 V₁ (Proc.devRef .tc Cert.KernelIdeal.main_v172) = after (Rit2 (F := Ideal)) V₂ (Proc.devRef .tc Cert.ReferenceIdeal.main_v179))
    ∧ (after Cert.KernelIdeal.KV.Kit2 V₁ (Proc.devRef .tc Cert.KernelIdeal.main_v155) = after (Rit2 (F := Ideal)) V₂ (Proc.devRef .tc Cert.ReferenceIdeal.main_v188))
    ∧ (after Cert.KernelIdeal.KV.Kit2 V₁ (Proc.devRef .tc Cert.KernelIdeal.main_v173) = after (Rit2 (F := Ideal)) V₂ (Proc.devRef .tc Cert.ReferenceIdeal.main_v180)) :=
  ⟨it2_p V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it2_np V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it2_ptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it2_nptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat⟩

/-- The same with the agreements as equations between the two sides' contents. -/
theorem it2_bridge'
    (V₁ : Valuation Cert.KernelIdeal.τ Cert.KernelIdeal.sig (Elt Ideal)) (V₂ : Valuation Cert.ReferenceIdeal.τ Cert.ReferenceIdeal.sig (Elt Ideal))
    (h_xp : V₁ (Proc.devRef .tc Cert.KernelIdeal.main_v117_0) = V₂ (Proc.devRef .tc Cert.ReferenceIdeal.main_v119))
    (h_xnp : V₁ (Proc.devRef .tc Cert.KernelIdeal.main_v136) = V₂ (Proc.devRef .tc Cert.ReferenceIdeal.main_v136))
    (h_w : V₁ (Proc.devRef .tc Cert.KernelIdeal.main_arg5) = V₂ (Proc.devRef .tc Cert.ReferenceIdeal.main_arg5))
    (h_b : V₁ (Proc.devRef .tc Cert.KernelIdeal.main_arg6) = V₂ (Proc.devRef .tc Cert.ReferenceIdeal.main_arg6))
    (h_e3 : V₁ (Proc.devRef .tc Cert.KernelIdeal.main_v3) = V₂ (Proc.devRef .tc Cert.ReferenceIdeal.main_v3))
    (h_e6 : V₁ (Proc.devRef .tc Cert.KernelIdeal.main_v6) = V₂ (Proc.devRef .tc Cert.ReferenceIdeal.main_v6))
    (h_n29 : V₁ (Proc.devRef .tc Cert.KernelIdeal.main_v29) = V₂ (Proc.devRef .tc Cert.ReferenceIdeal.main_v29))
    (h_e33 : V₁ (Proc.devRef .tc Cert.KernelIdeal.main_v33) = V₂ (Proc.devRef .tc Cert.ReferenceIdeal.main_v33))
    (h_e36 : V₁ (Proc.devRef .tc Cert.KernelIdeal.main_v36) = V₂ (Proc.devRef .tc Cert.ReferenceIdeal.main_v36))
    (h_n59 : V₁ (Proc.devRef .tc Cert.KernelIdeal.main_v59) = V₂ (Proc.devRef .tc Cert.ReferenceIdeal.main_v59))
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit2 V₁ (Proc.devRef .tc Cert.KernelIdeal.main_v153_0) = after (Rit2 (F := Ideal)) V₂ (Proc.devRef .tc Cert.ReferenceIdeal.main_v162))
    ∧ (after Cert.KernelIdeal.KV.Kit2 V₁ (Proc.devRef .tc Cert.KernelIdeal.main_v172) = after (Rit2 (F := Ideal)) V₂ (Proc.devRef .tc Cert.ReferenceIdeal.main_v179))
    ∧ (after Cert.KernelIdeal.KV.Kit2 V₁ (Proc.devRef .tc Cert.KernelIdeal.main_v155) = after (Rit2 (F := Ideal)) V₂ (Proc.devRef .tc Cert.ReferenceIdeal.main_v188))
    ∧ (after Cert.KernelIdeal.KV.Kit2 V₁ (Proc.devRef .tc Cert.KernelIdeal.main_v173) = after (Rit2 (F := Ideal)) V₂ (Proc.devRef .tc Cert.ReferenceIdeal.main_v180)) :=
  it2_bridge V₁ V₂ _ _ _ _ _ _ _ _ _ _ h_xp rfl h_xnp rfl h_w rfl h_b rfl h_e3 rfl h_e6 rfl h_n29 rfl h_e33 rfl h_e36 rfl h_n59 rfl h_pat

end Cert.ReferenceIdeal.RR

end
-- ==== Proof.BridgeS2.lean ====
/-
  Layer 3 of the two programs, side by side: from contents that agree on what the layer reads, the two lines
  leave contents that agree on the layer's output, the other graph's aggregate, and the two traces.
-/
import proofs.«156722_j77687368450207_1_alg».proof.Proof.BridgeKeeps
import proofs.«156722_j77687368450207_1_alg».proof.Proof.BridgeIt2

set_option maxRecDepth 8192
set_option maxHeartbeats 4000000

noncomputable section

namespace Cert.Proof.Br

open Idealize.ShloMosaic Idealize.ShloMosaic.TcCoe Idealize.SL.Sem Idealize.ShloMosaic.StableHlo

theorem step2 (V₁ : KVal) (V₂ : RVal)
    (hp : Agree V₁ V₂ Cert.KernelIdeal.main_v117_0 Cert.ReferenceIdeal.main_v119)
    (hn : Agree V₁ V₂ Cert.KernelIdeal.main_v136 Cert.ReferenceIdeal.main_v136)
    (h_w : Agree V₁ V₂ Cert.KernelIdeal.main_arg5 Cert.ReferenceIdeal.main_arg5)
    (h_b : Agree V₁ V₂ Cert.KernelIdeal.main_arg6 Cert.ReferenceIdeal.main_arg6)
    (h_e3 : Agree V₁ V₂ Cert.KernelIdeal.main_v3 Cert.ReferenceIdeal.main_v3)
    (h_e6 : Agree V₁ V₂ Cert.KernelIdeal.main_v6 Cert.ReferenceIdeal.main_v6)
    (h_n29 : Agree V₁ V₂ Cert.KernelIdeal.main_v29 Cert.ReferenceIdeal.main_v29)
    (h_e33 : Agree V₁ V₂ Cert.KernelIdeal.main_v33 Cert.ReferenceIdeal.main_v33)
    (h_e36 : Agree V₁ V₂ Cert.KernelIdeal.main_v36 Cert.ReferenceIdeal.main_v36)
    (h_n59 : Agree V₁ V₂ Cert.KernelIdeal.main_v59 Cert.ReferenceIdeal.main_v59)
    (hpat : V₁ (Proc.devRef .tc Cert.KernelIdeal.main_v65) = PAT) :
    Agree (after Cert.KernelIdeal.KV.Kit2 V₁) (after (Cert.ReferenceIdeal.RR.Rit2 (F := Ideal)) V₂) Cert.KernelIdeal.main_v153_0 Cert.ReferenceIdeal.main_v162
    ∧ Agree (after Cert.KernelIdeal.KV.Kit2 V₁) (after (Cert.ReferenceIdeal.RR.Rit2 (F := Ideal)) V₂) Cert.KernelIdeal.main_v172 Cert.ReferenceIdeal.main_v179
    ∧ Agree (after Cert.KernelIdeal.KV.Kit2 V₁) (after (Cert.ReferenceIdeal.RR.Rit2 (F := Ideal)) V₂) Cert.KernelIdeal.main_v155 Cert.ReferenceIdeal.main_v188
    ∧ Agree (after Cert.KernelIdeal.KV.Kit2 V₁) (after (Cert.ReferenceIdeal.RR.Rit2 (F := Ideal)) V₂) Cert.KernelIdeal.main_v173 Cert.ReferenceIdeal.main_v180 := by
  obtain ⟨c1, c2, c3, c4⟩ := Cert.ReferenceIdeal.RR.it2_bridge' V₁ V₂ (eq_of_heq hp) (eq_of_heq hn)
    (eq_of_heq h_w) (eq_of_heq h_b) (eq_of_heq h_e3) (eq_of_heq h_e6) (eq_of_heq h_n29) (eq_of_heq h_e33) (eq_of_heq h_e36) (eq_of_heq h_n59) hpat
  exact ⟨heq_of_eq c1, heq_of_eq c2, heq_of_eq c3, heq_of_eq c4⟩

end Cert.Proof.Br

end
-- ==== Proof.BridgeIt3.lean ====
/- Layer 4 of the two programs, side by side. From contents that agree on what the layer reads — the two graphs'
   current features, the weights, the bias, the edge endpoints and edge weights — and with the kernel program's
   pattern buffer holding the identity pattern, the kernel program's line for the layer and the reference program's 61
   operations leave the same contents in the four buffers later layers and the readout read: each graph's new
   features, the small graph's trace, the large graph's blocks' diagonal sums. Three places differ in form and are
   equal as functions: the product with the weights, the bias added to every row, the blocks' sums against the
   identity pattern. -/
import proofs.«156722_j77687368450207_1_alg».proof.Proof.KOpsDefs
import proofs.«156722_j77687368450207_1_alg».proof.Proof.MathX
import proofs.«156722_j77687368450207_1_alg».proof.Proof.RefChunksS3
import proofs.«156722_j77687368450207_1_alg».proof.Proof.BridgeBase

noncomputable section

namespace Cert.ReferenceIdeal.RR

open Idealize.ShloMosaic Idealize.ShloMosaic.TcCoe Idealize.ShloMosaic.StableHlo

set_option maxRecDepth 8192 in
set_option maxHeartbeats 4000000 in
theorem it3_p
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v153_0) = xp) (h_xp' : V₂ (Proc.devRef .tc Cert.ReferenceIdeal.main_v162) = xp)
    (h_xnp : V₁ (Proc.devRef .tc Cert.KernelIdeal.main_v172) = xnp) (h_xnp' : V₂ (Proc.devRef .tc Cert.ReferenceIdeal.main_v179) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit3 V₁ (Proc.devRef .tc Cert.KernelIdeal.main_v189_0) = after (Rit3 (F := Ideal)) V₂ (Proc.devRef .tc Cert.ReferenceIdeal.main_v205) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.bias_eq _ _

set_option maxRecDepth 8192 in
set_option maxHeartbeats 4000000 in
theorem it3_np
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v153_0) = xp) (h_xp' : V₂ (Proc.devRef .tc Cert.ReferenceIdeal.main_v162) = xp)
    (h_xnp : V₁ (Proc.devRef .tc Cert.KernelIdeal.main_v172) = xnp) (h_xnp' : V₂ (Proc.devRef .tc Cert.ReferenceIdeal.main_v179) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit3 V₁ (Proc.devRef .tc Cert.KernelIdeal.main_v208) = after (Rit3 (F := Ideal)) V₂ (Proc.devRef .tc Cert.ReferenceIdeal.main_v222) := by
  read_folds
  simp only [h_xp, h_xp', h_xnp, h_xnp', h_w, h_w', h_b, h_b', h_e3, h_e3', h_e6, h_e6', h_n29, h_n29', h_e33, h_e33', h_e36, h_e36', h_n59, h_n59', h_pat]
  rfl

set_option maxRecDepth 8192 in
set_option maxHeartbeats 4000000 in
theorem it3_ptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v153_0) = xp) (h_xp' : V₂ (Proc.devRef .tc Cert.ReferenceIdeal.main_v162) = xp)
    (h_xnp : V₁ (Proc.devRef .tc Cert.KernelIdeal.main_v172) = xnp) (h_xnp' : V₂ (Proc.devRef .tc Cert.ReferenceIdeal.main_v179) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit3 V₁ (Proc.devRef .tc Cert.KernelIdeal.main_v191) = after (Rit3 (F := Ideal)) V₂ (Proc.devRef .tc Cert.ReferenceIdeal.main_v231) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.ptrace_eq _ _

set_option maxRecDepth 8192 in
set_option maxHeartbeats 4000000 in
theorem it3_nptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v153_0) = xp) (h_xp' : V₂ (Proc.devRef .tc Cert.ReferenceIdeal.main_v162) = xp)
    (h_xnp : V₁ (Proc.devRef .tc Cert.KernelIdeal.main_v172) = xnp) (h_xnp' : V₂ (Proc.devRef .tc Cert.ReferenceIdeal.main_v179) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit3 V₁ (Proc.devRef .tc Cert.KernelIdeal.main_v209) = after (Rit3 (F := Ideal)) V₂ (Proc.devRef .tc Cert.ReferenceIdeal.main_v223) := by
  read_folds
  simp only [h_xp, h_xp', h_xnp, h_xnp', h_w, h_w', h_b, h_b', h_e3, h_e3', h_e6, h_e6', h_n29, h_n29', h_e33, h_e33', h_e36, h_e36', h_n59, h_n59', h_pat]
  rfl

/-- The four together. -/
theorem it3_bridge
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v153_0) = xp) (h_xp' : V₂ (Proc.devRef .tc Cert.ReferenceIdeal.main_v162) = xp)
    (h_xnp : V₁ (Proc.devRef .tc Cert.KernelIdeal.main_v172) = xnp) (h_xnp' : V₂ (Proc.devRef .tc Cert.ReferenceIdeal.main_v179) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit3 V₁ (Proc.devRef .tc Cert.KernelIdeal.main_v189_0) = after (Rit3 (F := Ideal)) V₂ (Proc.devRef .tc Cert.ReferenceIdeal.main_v205))
    ∧ (after Cert.KernelIdeal.KV.Kit3 V₁ (Proc.devRef .tc Cert.KernelIdeal.main_v208) = after (Rit3 (F := Ideal)) V₂ (Proc.devRef .tc Cert.ReferenceIdeal.main_v222))
    ∧ (after Cert.KernelIdeal.KV.Kit3 V₁ (Proc.devRef .tc Cert.KernelIdeal.main_v191) = after (Rit3 (F := Ideal)) V₂ (Proc.devRef .tc Cert.ReferenceIdeal.main_v231))
    ∧ (after Cert.KernelIdeal.KV.Kit3 V₁ (Proc.devRef .tc Cert.KernelIdeal.main_v209) = after (Rit3 (F := Ideal)) V₂ (Proc.devRef .tc Cert.ReferenceIdeal.main_v223)) :=
  ⟨it3_p V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it3_np V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it3_ptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it3_nptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat⟩

/-- The same with the agreements as equations between the two sides' contents. -/
theorem it3_bridge'
    (V₁ : Valuation Cert.KernelIdeal.τ Cert.KernelIdeal.sig (Elt Ideal)) (V₂ : Valuation Cert.ReferenceIdeal.τ Cert.ReferenceIdeal.sig (Elt Ideal))
    (h_xp : V₁ (Proc.devRef .tc Cert.KernelIdeal.main_v153_0) = V₂ (Proc.devRef .tc Cert.ReferenceIdeal.main_v162))
    (h_xnp : V₁ (Proc.devRef .tc Cert.KernelIdeal.main_v172) = V₂ (Proc.devRef .tc Cert.ReferenceIdeal.main_v179))
    (h_w : V₁ (Proc.devRef .tc Cert.KernelIdeal.main_arg5) = V₂ (Proc.devRef .tc Cert.ReferenceIdeal.main_arg5))
    (h_b : V₁ (Proc.devRef .tc Cert.KernelIdeal.main_arg6) = V₂ (Proc.devRef .tc Cert.ReferenceIdeal.main_arg6))
    (h_e3 : V₁ (Proc.devRef .tc Cert.KernelIdeal.main_v3) = V₂ (Proc.devRef .tc Cert.ReferenceIdeal.main_v3))
    (h_e6 : V₁ (Proc.devRef .tc Cert.KernelIdeal.main_v6) = V₂ (Proc.devRef .tc Cert.ReferenceIdeal.main_v6))
    (h_n29 : V₁ (Proc.devRef .tc Cert.KernelIdeal.main_v29) = V₂ (Proc.devRef .tc Cert.ReferenceIdeal.main_v29))
    (h_e33 : V₁ (Proc.devRef .tc Cert.KernelIdeal.main_v33) = V₂ (Proc.devRef .tc Cert.ReferenceIdeal.main_v33))
    (h_e36 : V₁ (Proc.devRef .tc Cert.KernelIdeal.main_v36) = V₂ (Proc.devRef .tc Cert.ReferenceIdeal.main_v36))
    (h_n59 : V₁ (Proc.devRef .tc Cert.KernelIdeal.main_v59) = V₂ (Proc.devRef .tc Cert.ReferenceIdeal.main_v59))
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit3 V₁ (Proc.devRef .tc Cert.KernelIdeal.main_v189_0) = after (Rit3 (F := Ideal)) V₂ (Proc.devRef .tc Cert.ReferenceIdeal.main_v205))
    ∧ (after Cert.KernelIdeal.KV.Kit3 V₁ (Proc.devRef .tc Cert.KernelIdeal.main_v208) = after (Rit3 (F := Ideal)) V₂ (Proc.devRef .tc Cert.ReferenceIdeal.main_v222))
    ∧ (after Cert.KernelIdeal.KV.Kit3 V₁ (Proc.devRef .tc Cert.KernelIdeal.main_v191) = after (Rit3 (F := Ideal)) V₂ (Proc.devRef .tc Cert.ReferenceIdeal.main_v231))
    ∧ (after Cert.KernelIdeal.KV.Kit3 V₁ (Proc.devRef .tc Cert.KernelIdeal.main_v209) = after (Rit3 (F := Ideal)) V₂ (Proc.devRef .tc Cert.ReferenceIdeal.main_v223)) :=
  it3_bridge V₁ V₂ _ _ _ _ _ _ _ _ _ _ h_xp rfl h_xnp rfl h_w rfl h_b rfl h_e3 rfl h_e6 rfl h_n29 rfl h_e33 rfl h_e36 rfl h_n59 rfl h_pat

end Cert.ReferenceIdeal.RR

end
-- ==== Proof.BridgeS3.lean ====
/-
  Layer 4 of the two programs, side by side: from contents that agree on what the layer reads, the two lines
  leave contents that agree on the layer's output, the other graph's aggregate, and the two traces.
-/
import proofs.«156722_j77687368450207_1_alg».proof.Proof.BridgeKeeps
import proofs.«156722_j77687368450207_1_alg».proof.Proof.BridgeIt3

set_option maxRecDepth 8192
set_option maxHeartbeats 4000000

noncomputable section

namespace Cert.Proof.Br

open Idealize.ShloMosaic Idealize.ShloMosaic.TcCoe Idealize.SL.Sem Idealize.ShloMosaic.StableHlo

theorem step3 (V₁ : KVal) (V₂ : RVal)
    (hp : Agree V₁ V₂ Cert.KernelIdeal.main_v153_0 Cert.ReferenceIdeal.main_v162)
    (hn : Agree V₁ V₂ Cert.KernelIdeal.main_v172 Cert.ReferenceIdeal.main_v179)
    (h_w : Agree V₁ V₂ Cert.KernelIdeal.main_arg5 Cert.ReferenceIdeal.main_arg5)
    (h_b : Agree V₁ V₂ Cert.KernelIdeal.main_arg6 Cert.ReferenceIdeal.main_arg6)
    (h_e3 : Agree V₁ V₂ Cert.KernelIdeal.main_v3 Cert.ReferenceIdeal.main_v3)
    (h_e6 : Agree V₁ V₂ Cert.KernelIdeal.main_v6 Cert.ReferenceIdeal.main_v6)
    (h_n29 : Agree V₁ V₂ Cert.KernelIdeal.main_v29 Cert.ReferenceIdeal.main_v29)
    (h_e33 : Agree V₁ V₂ Cert.KernelIdeal.main_v33 Cert.ReferenceIdeal.main_v33)
    (h_e36 : Agree V₁ V₂ Cert.KernelIdeal.main_v36 Cert.ReferenceIdeal.main_v36)
    (h_n59 : Agree V₁ V₂ Cert.KernelIdeal.main_v59 Cert.ReferenceIdeal.main_v59)
    (hpat : V₁ (Proc.devRef .tc Cert.KernelIdeal.main_v65) = PAT) :
    Agree (after Cert.KernelIdeal.KV.Kit3 V₁) (after (Cert.ReferenceIdeal.RR.Rit3 (F := Ideal)) V₂) Cert.KernelIdeal.main_v189_0 Cert.ReferenceIdeal.main_v205
    ∧ Agree (after Cert.KernelIdeal.KV.Kit3 V₁) (after (Cert.ReferenceIdeal.RR.Rit3 (F := Ideal)) V₂) Cert.KernelIdeal.main_v208 Cert.ReferenceIdeal.main_v222
    ∧ Agree (after Cert.KernelIdeal.KV.Kit3 V₁) (after (Cert.ReferenceIdeal.RR.Rit3 (F := Ideal)) V₂) Cert.KernelIdeal.main_v191 Cert.ReferenceIdeal.main_v231
    ∧ Agree (after Cert.KernelIdeal.KV.Kit3 V₁) (after (Cert.ReferenceIdeal.RR.Rit3 (F := Ideal)) V₂) Cert.KernelIdeal.main_v209 Cert.ReferenceIdeal.main_v223 := by
  obtain ⟨c1, c2, c3, c4⟩ := Cert.ReferenceIdeal.RR.it3_bridge' V₁ V₂ (eq_of_heq hp) (eq_of_heq hn)
    (eq_of_heq h_w) (eq_of_heq h_b) (eq_of_heq h_e3) (eq_of_heq h_e6) (eq_of_heq h_n29) (eq_of_heq h_e33) (eq_of_heq h_e36) (eq_of_heq h_n59) hpat
  exact ⟨heq_of_eq c1, heq_of_eq c2, heq_of_eq c3, heq_of_eq c4⟩

end Cert.Proof.Br

end
-- ==== Proof.BridgeIt4.lean ====
/- Layer 5 of the two programs, side by side. From contents that agree on what the layer reads — the two graphs'
   current features, the weights, the bias, the edge endpoints and edge weights — and with the kernel program's
   pattern buffer holding the identity pattern, the kernel program's line for the layer and the reference program's 61
   operations leave the same contents in the four buffers later layers and the readout read: each graph's new
   features, the small graph's trace, the large graph's blocks' diagonal sums. Three places differ in form and are
   equal as functions: the product with the weights, the bias added to every row, the blocks' sums against the
   identity pattern. -/
import proofs.«156722_j77687368450207_1_alg».proof.Proof.KOpsDefs
import proofs.«156722_j77687368450207_1_alg».proof.Proof.MathX
import proofs.«156722_j77687368450207_1_alg».proof.Proof.RefChunksS4
import proofs.«156722_j77687368450207_1_alg».proof.Proof.BridgeBase

noncomputable section

namespace Cert.ReferenceIdeal.RR

open Idealize.ShloMosaic Idealize.ShloMosaic.TcCoe Idealize.ShloMosaic.StableHlo

set_option maxRecDepth 8192 in
set_option maxHeartbeats 4000000 in
theorem it4_p
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v189_0) = xp) (h_xp' : V₂ (Proc.devRef .tc Cert.ReferenceIdeal.main_v205) = xp)
    (h_xnp : V₁ (Proc.devRef .tc Cert.KernelIdeal.main_v208) = xnp) (h_xnp' : V₂ (Proc.devRef .tc Cert.ReferenceIdeal.main_v222) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit4 V₁ (Proc.devRef .tc Cert.KernelIdeal.main_v225_0) = after (Rit4 (F := Ideal)) V₂ (Proc.devRef .tc Cert.ReferenceIdeal.main_v248) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.bias_eq _ _

set_option maxRecDepth 8192 in
set_option maxHeartbeats 4000000 in
theorem it4_np
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v189_0) = xp) (h_xp' : V₂ (Proc.devRef .tc Cert.ReferenceIdeal.main_v205) = xp)
    (h_xnp : V₁ (Proc.devRef .tc Cert.KernelIdeal.main_v208) = xnp) (h_xnp' : V₂ (Proc.devRef .tc Cert.ReferenceIdeal.main_v222) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit4 V₁ (Proc.devRef .tc Cert.KernelIdeal.main_v244) = after (Rit4 (F := Ideal)) V₂ (Proc.devRef .tc Cert.ReferenceIdeal.main_v265) := by
  read_folds
  simp only [h_xp, h_xp', h_xnp, h_xnp', h_w, h_w', h_b, h_b', h_e3, h_e3', h_e6, h_e6', h_n29, h_n29', h_e33, h_e33', h_e36, h_e36', h_n59, h_n59', h_pat]
  rfl

set_option maxRecDepth 8192 in
set_option maxHeartbeats 4000000 in
theorem it4_ptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v189_0) = xp) (h_xp' : V₂ (Proc.devRef .tc Cert.ReferenceIdeal.main_v205) = xp)
    (h_xnp : V₁ (Proc.devRef .tc Cert.KernelIdeal.main_v208) = xnp) (h_xnp' : V₂ (Proc.devRef .tc Cert.ReferenceIdeal.main_v222) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit4 V₁ (Proc.devRef .tc Cert.KernelIdeal.main_v227) = after (Rit4 (F := Ideal)) V₂ (Proc.devRef .tc Cert.ReferenceIdeal.main_v274) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.ptrace_eq _ _

set_option maxRecDepth 8192 in
set_option maxHeartbeats 4000000 in
theorem it4_nptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v189_0) = xp) (h_xp' : V₂ (Proc.devRef .tc Cert.ReferenceIdeal.main_v205) = xp)
    (h_xnp : V₁ (Proc.devRef .tc Cert.KernelIdeal.main_v208) = xnp) (h_xnp' : V₂ (Proc.devRef .tc Cert.ReferenceIdeal.main_v222) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit4 V₁ (Proc.devRef .tc Cert.KernelIdeal.main_v245) = after (Rit4 (F := Ideal)) V₂ (Proc.devRef .tc Cert.ReferenceIdeal.main_v266) := by
  read_folds
  simp only [h_xp, h_xp', h_xnp, h_xnp', h_w, h_w', h_b, h_b', h_e3, h_e3', h_e6, h_e6', h_n29, h_n29', h_e33, h_e33', h_e36, h_e36', h_n59, h_n59', h_pat]
  rfl

/-- The four together. -/
theorem it4_bridge
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v189_0) = xp) (h_xp' : V₂ (Proc.devRef .tc Cert.ReferenceIdeal.main_v205) = xp)
    (h_xnp : V₁ (Proc.devRef .tc Cert.KernelIdeal.main_v208) = xnp) (h_xnp' : V₂ (Proc.devRef .tc Cert.ReferenceIdeal.main_v222) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit4 V₁ (Proc.devRef .tc Cert.KernelIdeal.main_v225_0) = after (Rit4 (F := Ideal)) V₂ (Proc.devRef .tc Cert.ReferenceIdeal.main_v248))
    ∧ (after Cert.KernelIdeal.KV.Kit4 V₁ (Proc.devRef .tc Cert.KernelIdeal.main_v244) = after (Rit4 (F := Ideal)) V₂ (Proc.devRef .tc Cert.ReferenceIdeal.main_v265))
    ∧ (after Cert.KernelIdeal.KV.Kit4 V₁ (Proc.devRef .tc Cert.KernelIdeal.main_v227) = after (Rit4 (F := Ideal)) V₂ (Proc.devRef .tc Cert.ReferenceIdeal.main_v274))
    ∧ (after Cert.KernelIdeal.KV.Kit4 V₁ (Proc.devRef .tc Cert.KernelIdeal.main_v245) = after (Rit4 (F := Ideal)) V₂ (Proc.devRef .tc Cert.ReferenceIdeal.main_v266)) :=
  ⟨it4_p V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it4_np V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it4_ptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it4_nptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat⟩

/-- The same with the agreements as equations between the two sides' contents. -/
theorem it4_bridge'
    (V₁ : Valuation Cert.KernelIdeal.τ Cert.KernelIdeal.sig (Elt Ideal)) (V₂ : Valuation Cert.ReferenceIdeal.τ Cert.ReferenceIdeal.sig (Elt Ideal))
    (h_xp : V₁ (Proc.devRef .tc Cert.KernelIdeal.main_v189_0) = V₂ (Proc.devRef .tc Cert.ReferenceIdeal.main_v205))
    (h_xnp : V₁ (Proc.devRef .tc Cert.KernelIdeal.main_v208) = V₂ (Proc.devRef .tc Cert.ReferenceIdeal.main_v222))
    (h_w : V₁ (Proc.devRef .tc Cert.KernelIdeal.main_arg5) = V₂ (Proc.devRef .tc Cert.ReferenceIdeal.main_arg5))
    (h_b : V₁ (Proc.devRef .tc Cert.KernelIdeal.main_arg6) = V₂ (Proc.devRef .tc Cert.ReferenceIdeal.main_arg6))
    (h_e3 : V₁ (Proc.devRef .tc Cert.KernelIdeal.main_v3) = V₂ (Proc.devRef .tc Cert.ReferenceIdeal.main_v3))
    (h_e6 : V₁ (Proc.devRef .tc Cert.KernelIdeal.main_v6) = V₂ (Proc.devRef .tc Cert.ReferenceIdeal.main_v6))
    (h_n29 : V₁ (Proc.devRef .tc Cert.KernelIdeal.main_v29) = V₂ (Proc.devRef .tc Cert.ReferenceIdeal.main_v29))
    (h_e33 : V₁ (Proc.devRef .tc Cert.KernelIdeal.main_v33) = V₂ (Proc.devRef .tc Cert.ReferenceIdeal.main_v33))
    (h_e36 : V₁ (Proc.devRef .tc Cert.KernelIdeal.main_v36) = V₂ (Proc.devRef .tc Cert.ReferenceIdeal.main_v36))
    (h_n59 : V₁ (Proc.devRef .tc Cert.KernelIdeal.main_v59) = V₂ (Proc.devRef .tc Cert.ReferenceIdeal.main_v59))
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit4 V₁ (Proc.devRef .tc Cert.KernelIdeal.main_v225_0) = after (Rit4 (F := Ideal)) V₂ (Proc.devRef .tc Cert.ReferenceIdeal.main_v248))
    ∧ (after Cert.KernelIdeal.KV.Kit4 V₁ (Proc.devRef .tc Cert.KernelIdeal.main_v244) = after (Rit4 (F := Ideal)) V₂ (Proc.devRef .tc Cert.ReferenceIdeal.main_v265))
    ∧ (after Cert.KernelIdeal.KV.Kit4 V₁ (Proc.devRef .tc Cert.KernelIdeal.main_v227) = after (Rit4 (F := Ideal)) V₂ (Proc.devRef .tc Cert.ReferenceIdeal.main_v274))
    ∧ (after Cert.KernelIdeal.KV.Kit4 V₁ (Proc.devRef .tc Cert.KernelIdeal.main_v245) = after (Rit4 (F := Ideal)) V₂ (Proc.devRef .tc Cert.ReferenceIdeal.main_v266)) :=
  it4_bridge V₁ V₂ _ _ _ _ _ _ _ _ _ _ h_xp rfl h_xnp rfl h_w rfl h_b rfl h_e3 rfl h_e6 rfl h_n29 rfl h_e33 rfl h_e36 rfl h_n59 rfl h_pat

end Cert.ReferenceIdeal.RR

end
-- ==== Proof.BridgeS4.lean ====
/-
  Layer 5 of the two programs, side by side: from contents that agree on what the layer reads, the two lines
  leave contents that agree on the layer's output, the other graph's aggregate, and the two traces.
-/
import proofs.«156722_j77687368450207_1_alg».proof.Proof.BridgeKeeps
import proofs.«156722_j77687368450207_1_alg».proof.Proof.BridgeIt4

set_option maxRecDepth 8192
set_option maxHeartbeats 4000000

noncomputable section

namespace Cert.Proof.Br

open Idealize.ShloMosaic Idealize.ShloMosaic.TcCoe Idealize.SL.Sem Idealize.ShloMosaic.StableHlo

theorem step4 (V₁ : KVal) (V₂ : RVal)
    (hp : Agree V₁ V₂ Cert.KernelIdeal.main_v189_0 Cert.ReferenceIdeal.main_v205)
    (hn : Agree V₁ V₂ Cert.KernelIdeal.main_v208 Cert.ReferenceIdeal.main_v222)
    (h_w : Agree V₁ V₂ Cert.KernelIdeal.main_arg5 Cert.ReferenceIdeal.main_arg5)
    (h_b : Agree V₁ V₂ Cert.KernelIdeal.main_arg6 Cert.ReferenceIdeal.main_arg6)
    (h_e3 : Agree V₁ V₂ Cert.KernelIdeal.main_v3 Cert.ReferenceIdeal.main_v3)
    (h_e6 : Agree V₁ V₂ Cert.KernelIdeal.main_v6 Cert.ReferenceIdeal.main_v6)
    (h_n29 : Agree V₁ V₂ Cert.KernelIdeal.main_v29 Cert.ReferenceIdeal.main_v29)
    (h_e33 : Agree V₁ V₂ Cert.KernelIdeal.main_v33 Cert.ReferenceIdeal.main_v33)
    (h_e36 : Agree V₁ V₂ Cert.KernelIdeal.main_v36 Cert.ReferenceIdeal.main_v36)
    (h_n59 : Agree V₁ V₂ Cert.KernelIdeal.main_v59 Cert.ReferenceIdeal.main_v59)
    (hpat : V₁ (Proc.devRef .tc Cert.KernelIdeal.main_v65) = PAT) :
    Agree (after Cert.KernelIdeal.KV.Kit4 V₁) (after (Cert.ReferenceIdeal.RR.Rit4 (F := Ideal)) V₂) Cert.KernelIdeal.main_v225_0 Cert.ReferenceIdeal.main_v248
    ∧ Agree (after Cert.KernelIdeal.KV.Kit4 V₁) (after (Cert.ReferenceIdeal.RR.Rit4 (F := Ideal)) V₂) Cert.KernelIdeal.main_v244 Cert.ReferenceIdeal.main_v265
    ∧ Agree (after Cert.KernelIdeal.KV.Kit4 V₁) (after (Cert.ReferenceIdeal.RR.Rit4 (F := Ideal)) V₂) Cert.KernelIdeal.main_v227 Cert.ReferenceIdeal.main_v274
    ∧ Agree (after Cert.KernelIdeal.KV.Kit4 V₁) (after (Cert.ReferenceIdeal.RR.Rit4 (F := Ideal)) V₂) Cert.KernelIdeal.main_v245 Cert.ReferenceIdeal.main_v266 := by
  obtain ⟨c1, c2, c3, c4⟩ := Cert.ReferenceIdeal.RR.it4_bridge' V₁ V₂ (eq_of_heq hp) (eq_of_heq hn)
    (eq_of_heq h_w) (eq_of_heq h_b) (eq_of_heq h_e3) (eq_of_heq h_e6) (eq_of_heq h_n29) (eq_of_heq h_e33) (eq_of_heq h_e36) (eq_of_heq h_n59) hpat
  exact ⟨heq_of_eq c1, heq_of_eq c2, heq_of_eq c3, heq_of_eq c4⟩

end Cert.Proof.Br

end
-- ==== Proof.BridgeIt5.lean ====
/- Layer 6 of the two programs, side by side. From contents that agree on what the layer reads — the two graphs'
   current features, the weights, the bias, the edge endpoints and edge weights — and with the kernel program's
   pattern buffer holding the identity pattern, the kernel program's line for the layer and the reference program's 61
   operations leave the same contents in the four buffers later layers and the readout read: each graph's new
   features, the small graph's trace, the large graph's blocks' diagonal sums. Three places differ in form and are
   equal as functions: the product with the weights, the bias added to every row, the blocks' sums against the
   identity pattern. -/
import proofs.«156722_j77687368450207_1_alg».proof.Proof.KOpsDefs
import proofs.«156722_j77687368450207_1_alg».proof.Proof.MathX
import proofs.«156722_j77687368450207_1_alg».proof.Proof.RefChunksS5
import proofs.«156722_j77687368450207_1_alg».proof.Proof.BridgeBase

noncomputable section

namespace Cert.ReferenceIdeal.RR

open Idealize.ShloMosaic Idealize.ShloMosaic.TcCoe Idealize.ShloMosaic.StableHlo

set_option maxRecDepth 8192 in
set_option maxHeartbeats 4000000 in
theorem it5_p
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v225_0) = xp) (h_xp' : V₂ (Proc.devRef .tc Cert.ReferenceIdeal.main_v248) = xp)
    (h_xnp : V₁ (Proc.devRef .tc Cert.KernelIdeal.main_v244) = xnp) (h_xnp' : V₂ (Proc.devRef .tc Cert.ReferenceIdeal.main_v265) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit5 V₁ (Proc.devRef .tc Cert.KernelIdeal.main_v261_0) = after (Rit5 (F := Ideal)) V₂ (Proc.devRef .tc Cert.ReferenceIdeal.main_v291) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.bias_eq _ _

set_option maxRecDepth 8192 in
set_option maxHeartbeats 4000000 in
theorem it5_np
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v225_0) = xp) (h_xp' : V₂ (Proc.devRef .tc Cert.ReferenceIdeal.main_v248) = xp)
    (h_xnp : V₁ (Proc.devRef .tc Cert.KernelIdeal.main_v244) = xnp) (h_xnp' : V₂ (Proc.devRef .tc Cert.ReferenceIdeal.main_v265) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit5 V₁ (Proc.devRef .tc Cert.KernelIdeal.main_v280) = after (Rit5 (F := Ideal)) V₂ (Proc.devRef .tc Cert.ReferenceIdeal.main_v308) := by
  read_folds
  simp only [h_xp, h_xp', h_xnp, h_xnp', h_w, h_w', h_b, h_b', h_e3, h_e3', h_e6, h_e6', h_n29, h_n29', h_e33, h_e33', h_e36, h_e36', h_n59, h_n59', h_pat]
  rfl

set_option maxRecDepth 8192 in
set_option maxHeartbeats 4000000 in
theorem it5_ptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v225_0) = xp) (h_xp' : V₂ (Proc.devRef .tc Cert.ReferenceIdeal.main_v248) = xp)
    (h_xnp : V₁ (Proc.devRef .tc Cert.KernelIdeal.main_v244) = xnp) (h_xnp' : V₂ (Proc.devRef .tc Cert.ReferenceIdeal.main_v265) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit5 V₁ (Proc.devRef .tc Cert.KernelIdeal.main_v263) = after (Rit5 (F := Ideal)) V₂ (Proc.devRef .tc Cert.ReferenceIdeal.main_v317) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.ptrace_eq _ _

set_option maxRecDepth 8192 in
set_option maxHeartbeats 4000000 in
theorem it5_nptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v225_0) = xp) (h_xp' : V₂ (Proc.devRef .tc Cert.ReferenceIdeal.main_v248) = xp)
    (h_xnp : V₁ (Proc.devRef .tc Cert.KernelIdeal.main_v244) = xnp) (h_xnp' : V₂ (Proc.devRef .tc Cert.ReferenceIdeal.main_v265) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit5 V₁ (Proc.devRef .tc Cert.KernelIdeal.main_v281) = after (Rit5 (F := Ideal)) V₂ (Proc.devRef .tc Cert.ReferenceIdeal.main_v309) := by
  read_folds
  simp only [h_xp, h_xp', h_xnp, h_xnp', h_w, h_w', h_b, h_b', h_e3, h_e3', h_e6, h_e6', h_n29, h_n29', h_e33, h_e33', h_e36, h_e36', h_n59, h_n59', h_pat]
  rfl

/-- The four together. -/
theorem it5_bridge
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v225_0) = xp) (h_xp' : V₂ (Proc.devRef .tc Cert.ReferenceIdeal.main_v248) = xp)
    (h_xnp : V₁ (Proc.devRef .tc Cert.KernelIdeal.main_v244) = xnp) (h_xnp' : V₂ (Proc.devRef .tc Cert.ReferenceIdeal.main_v265) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit5 V₁ (Proc.devRef .tc Cert.KernelIdeal.main_v261_0) = after (Rit5 (F := Ideal)) V₂ (Proc.devRef .tc Cert.ReferenceIdeal.main_v291))
    ∧ (after Cert.KernelIdeal.KV.Kit5 V₁ (Proc.devRef .tc Cert.KernelIdeal.main_v280) = after (Rit5 (F := Ideal)) V₂ (Proc.devRef .tc Cert.ReferenceIdeal.main_v308))
    ∧ (after Cert.KernelIdeal.KV.Kit5 V₁ (Proc.devRef .tc Cert.KernelIdeal.main_v263) = after (Rit5 (F := Ideal)) V₂ (Proc.devRef .tc Cert.ReferenceIdeal.main_v317))
    ∧ (after Cert.KernelIdeal.KV.Kit5 V₁ (Proc.devRef .tc Cert.KernelIdeal.main_v281) = after (Rit5 (F := Ideal)) V₂ (Proc.devRef .tc Cert.ReferenceIdeal.main_v309)) :=
  ⟨it5_p V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it5_np V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it5_ptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it5_nptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat⟩

/-- The same with the agreements as equations between the two sides' contents. -/
theorem it5_bridge'
    (V₁ : Valuation Cert.KernelIdeal.τ Cert.KernelIdeal.sig (Elt Ideal)) (V₂ : Valuation Cert.ReferenceIdeal.τ Cert.ReferenceIdeal.sig (Elt Ideal))
    (h_xp : V₁ (Proc.devRef .tc Cert.KernelIdeal.main_v225_0) = V₂ (Proc.devRef .tc Cert.ReferenceIdeal.main_v248))
    (h_xnp : V₁ (Proc.devRef .tc Cert.KernelIdeal.main_v244) = V₂ (Proc.devRef .tc Cert.ReferenceIdeal.main_v265))
    (h_w : V₁ (Proc.devRef .tc Cert.KernelIdeal.main_arg5) = V₂ (Proc.devRef .tc Cert.ReferenceIdeal.main_arg5))
    (h_b : V₁ (Proc.devRef .tc Cert.KernelIdeal.main_arg6) = V₂ (Proc.devRef .tc Cert.ReferenceIdeal.main_arg6))
    (h_e3 : V₁ (Proc.devRef .tc Cert.KernelIdeal.main_v3) = V₂ (Proc.devRef .tc Cert.ReferenceIdeal.main_v3))
    (h_e6 : V₁ (Proc.devRef .tc Cert.KernelIdeal.main_v6) = V₂ (Proc.devRef .tc Cert.ReferenceIdeal.main_v6))
    (h_n29 : V₁ (Proc.devRef .tc Cert.KernelIdeal.main_v29) = V₂ (Proc.devRef .tc Cert.ReferenceIdeal.main_v29))
    (h_e33 : V₁ (Proc.devRef .tc Cert.KernelIdeal.main_v33) = V₂ (Proc.devRef .tc Cert.ReferenceIdeal.main_v33))
    (h_e36 : V₁ (Proc.devRef .tc Cert.KernelIdeal.main_v36) = V₂ (Proc.devRef .tc Cert.ReferenceIdeal.main_v36))
    (h_n59 : V₁ (Proc.devRef .tc Cert.KernelIdeal.main_v59) = V₂ (Proc.devRef .tc Cert.ReferenceIdeal.main_v59))
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit5 V₁ (Proc.devRef .tc Cert.KernelIdeal.main_v261_0) = after (Rit5 (F := Ideal)) V₂ (Proc.devRef .tc Cert.ReferenceIdeal.main_v291))
    ∧ (after Cert.KernelIdeal.KV.Kit5 V₁ (Proc.devRef .tc Cert.KernelIdeal.main_v280) = after (Rit5 (F := Ideal)) V₂ (Proc.devRef .tc Cert.ReferenceIdeal.main_v308))
    ∧ (after Cert.KernelIdeal.KV.Kit5 V₁ (Proc.devRef .tc Cert.KernelIdeal.main_v263) = after (Rit5 (F := Ideal)) V₂ (Proc.devRef .tc Cert.ReferenceIdeal.main_v317))
    ∧ (after Cert.KernelIdeal.KV.Kit5 V₁ (Proc.devRef .tc Cert.KernelIdeal.main_v281) = after (Rit5 (F := Ideal)) V₂ (Proc.devRef .tc Cert.ReferenceIdeal.main_v309)) :=
  it5_bridge V₁ V₂ _ _ _ _ _ _ _ _ _ _ h_xp rfl h_xnp rfl h_w rfl h_b rfl h_e3 rfl h_e6 rfl h_n29 rfl h_e33 rfl h_e36 rfl h_n59 rfl h_pat

end Cert.ReferenceIdeal.RR

end
-- ==== Proof.BridgeS5.lean ====
/-
  Layer 6 of the two programs, side by side: from contents that agree on what the layer reads, the two lines
  leave contents that agree on the layer's output, the other graph's aggregate, and the two traces.
-/
import proofs.«156722_j77687368450207_1_alg».proof.Proof.BridgeKeeps
import proofs.«156722_j77687368450207_1_alg».proof.Proof.BridgeIt5

set_option maxRecDepth 8192
set_option maxHeartbeats 4000000

noncomputable section

namespace Cert.Proof.Br

open Idealize.ShloMosaic Idealize.ShloMosaic.TcCoe Idealize.SL.Sem Idealize.ShloMosaic.StableHlo

theorem step5 (V₁ : KVal) (V₂ : RVal)
    (hp : Agree V₁ V₂ Cert.KernelIdeal.main_v225_0 Cert.ReferenceIdeal.main_v248)
    (hn : Agree V₁ V₂ Cert.KernelIdeal.main_v244 Cert.ReferenceIdeal.main_v265)
    (h_w : Agree V₁ V₂ Cert.KernelIdeal.main_arg5 Cert.ReferenceIdeal.main_arg5)
    (h_b : Agree V₁ V₂ Cert.KernelIdeal.main_arg6 Cert.ReferenceIdeal.main_arg6)
    (h_e3 : Agree V₁ V₂ Cert.KernelIdeal.main_v3 Cert.ReferenceIdeal.main_v3)
    (h_e6 : Agree V₁ V₂ Cert.KernelIdeal.main_v6 Cert.ReferenceIdeal.main_v6)
    (h_n29 : Agree V₁ V₂ Cert.KernelIdeal.main_v29 Cert.ReferenceIdeal.main_v29)
    (h_e33 : Agree V₁ V₂ Cert.KernelIdeal.main_v33 Cert.ReferenceIdeal.main_v33)
    (h_e36 : Agree V₁ V₂ Cert.KernelIdeal.main_v36 Cert.ReferenceIdeal.main_v36)
    (h_n59 : Agree V₁ V₂ Cert.KernelIdeal.main_v59 Cert.ReferenceIdeal.main_v59)
    (hpat : V₁ (Proc.devRef .tc Cert.KernelIdeal.main_v65) = PAT) :
    Agree (after Cert.KernelIdeal.KV.Kit5 V₁) (after (Cert.ReferenceIdeal.RR.Rit5 (F := Ideal)) V₂) Cert.KernelIdeal.main_v261_0 Cert.ReferenceIdeal.main_v291
    ∧ Agree (after Cert.KernelIdeal.KV.Kit5 V₁) (after (Cert.ReferenceIdeal.RR.Rit5 (F := Ideal)) V₂) Cert.KernelIdeal.main_v280 Cert.ReferenceIdeal.main_v308
    ∧ Agree (after Cert.KernelIdeal.KV.Kit5 V₁) (after (Cert.ReferenceIdeal.RR.Rit5 (F := Ideal)) V₂) Cert.KernelIdeal.main_v263 Cert.ReferenceIdeal.main_v317
    ∧ Agree (after Cert.KernelIdeal.KV.Kit5 V₁) (after (Cert.ReferenceIdeal.RR.Rit5 (F := Ideal)) V₂) Cert.KernelIdeal.main_v281 Cert.ReferenceIdeal.main_v309 := by
  obtain ⟨c1, c2, c3, c4⟩ := Cert.ReferenceIdeal.RR.it5_bridge' V₁ V₂ (eq_of_heq hp) (eq_of_heq hn)
    (eq_of_heq h_w) (eq_of_heq h_b) (eq_of_heq h_e3) (eq_of_heq h_e6) (eq_of_heq h_n29) (eq_of_heq h_e33) (eq_of_heq h_e36) (eq_of_heq h_n59) hpat
  exact ⟨heq_of_eq c1, heq_of_eq c2, heq_of_eq c3, heq_of_eq c4⟩

end Cert.Proof.Br

end
-- ==== Proof.BridgeIt6.lean ====
/- Layer 7 of the two programs, side by side. From contents that agree on what the layer reads — the two graphs'
   current features, the weights, the bias, the edge endpoints and edge weights — and with the kernel program's
   pattern buffer holding the identity pattern, the kernel program's line for the layer and the reference program's 61
   operations leave the same contents in the four buffers later layers and the readout read: each graph's new
   features, the small graph's trace, the large graph's blocks' diagonal sums. Three places differ in form and are
   equal as functions: the product with the weights, the bias added to every row, the blocks' sums against the
   identity pattern. -/
import proofs.«156722_j77687368450207_1_alg».proof.Proof.KOpsDefs
import proofs.«156722_j77687368450207_1_alg».proof.Proof.MathX
import proofs.«156722_j77687368450207_1_alg».proof.Proof.RefChunksS6
import proofs.«156722_j77687368450207_1_alg».proof.Proof.BridgeBase

noncomputable section

namespace Cert.ReferenceIdeal.RR

open Idealize.ShloMosaic Idealize.ShloMosaic.TcCoe Idealize.ShloMosaic.StableHlo

set_option maxRecDepth 8192 in
set_option maxHeartbeats 4000000 in
theorem it6_p
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v261_0) = xp) (h_xp' : V₂ (Proc.devRef .tc Cert.ReferenceIdeal.main_v291) = xp)
    (h_xnp : V₁ (Proc.devRef .tc Cert.KernelIdeal.main_v280) = xnp) (h_xnp' : V₂ (Proc.devRef .tc Cert.ReferenceIdeal.main_v308) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit6 V₁ (Proc.devRef .tc Cert.KernelIdeal.main_v297_0) = after (Rit6 (F := Ideal)) V₂ (Proc.devRef .tc Cert.ReferenceIdeal.main_v334) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.bias_eq _ _

set_option maxRecDepth 8192 in
set_option maxHeartbeats 4000000 in
theorem it6_np
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v261_0) = xp) (h_xp' : V₂ (Proc.devRef .tc Cert.ReferenceIdeal.main_v291) = xp)
    (h_xnp : V₁ (Proc.devRef .tc Cert.KernelIdeal.main_v280) = xnp) (h_xnp' : V₂ (Proc.devRef .tc Cert.ReferenceIdeal.main_v308) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit6 V₁ (Proc.devRef .tc Cert.KernelIdeal.main_v316) = after (Rit6 (F := Ideal)) V₂ (Proc.devRef .tc Cert.ReferenceIdeal.main_v351) := by
  read_folds
  simp only [h_xp, h_xp', h_xnp, h_xnp', h_w, h_w', h_b, h_b', h_e3, h_e3', h_e6, h_e6', h_n29, h_n29', h_e33, h_e33', h_e36, h_e36', h_n59, h_n59', h_pat]
  rfl

set_option maxRecDepth 8192 in
set_option maxHeartbeats 4000000 in
theorem it6_ptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v261_0) = xp) (h_xp' : V₂ (Proc.devRef .tc Cert.ReferenceIdeal.main_v291) = xp)
    (h_xnp : V₁ (Proc.devRef .tc Cert.KernelIdeal.main_v280) = xnp) (h_xnp' : V₂ (Proc.devRef .tc Cert.ReferenceIdeal.main_v308) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit6 V₁ (Proc.devRef .tc Cert.KernelIdeal.main_v299) = after (Rit6 (F := Ideal)) V₂ (Proc.devRef .tc Cert.ReferenceIdeal.main_v360) := by
  read_folds
  simp only [h_xp, h_xp', h_xnp, h_xnp', h_w, h_w', h_b, h_b', h_e3, h_e3', h_e6, h_e6', h_n29, h_n29', h_e33, h_e33', h_e36, h_e36', h_n59, h_n59', h_pat]
  rw [Cert.KX.mm_eq]
  exact Cert.KX.ptrace_eq _ _

set_option maxRecDepth 8192 in
set_option maxHeartbeats 4000000 in
theorem it6_nptrace
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v261_0) = xp) (h_xp' : V₂ (Proc.devRef .tc Cert.ReferenceIdeal.main_v291) = xp)
    (h_xnp : V₁ (Proc.devRef .tc Cert.KernelIdeal.main_v280) = xnp) (h_xnp' : V₂ (Proc.devRef .tc Cert.ReferenceIdeal.main_v308) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    after Cert.KernelIdeal.KV.Kit6 V₁ (Proc.devRef .tc Cert.KernelIdeal.main_v317) = after (Rit6 (F := Ideal)) V₂ (Proc.devRef .tc Cert.ReferenceIdeal.main_v352) := by
  read_folds
  simp only [h_xp, h_xp', h_xnp, h_xnp', h_w, h_w', h_b, h_b', h_e3, h_e3', h_e6, h_e6', h_n29, h_n29', h_e33, h_e33', h_e36, h_e36', h_n59, h_n59', h_pat]
  rfl

/-- The four together. -/
theorem it6_bridge
    (V₁ : Valuation Cert.KernelIdeal.τ Cert.KernelIdeal.sig (Elt Ideal)) (V₂ : Valuation Cert.ReferenceIdeal.τ Cert.ReferenceIdeal.sig (Elt Ideal))
    (xp : (⟨Cert.ReferenceIdeal.S32768x128, .f32⟩ : BufTy).Contents (Elt Ideal))
    (xnp : (⟨Cert.ReferenceIdeal.S128x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal))
    (e3 : (⟨Cert.ReferenceIdeal.S557056, .i32⟩ : BufTy).Contents (Elt Ideal))
    (e6 : (⟨Cert.ReferenceIdeal.S557056, .i32⟩ : BufTy).Contents (Elt Ideal))
    (n29 : (⟨Cert.ReferenceIdeal.S557056, .f32⟩ : BufTy).Contents (Elt Ideal))
    (e33 : (⟨Cert.ReferenceIdeal.S2176, .i32⟩ : BufTy).Contents (Elt Ideal))
    (e36 : (⟨Cert.ReferenceIdeal.S2176, .i32⟩ : BufTy).Contents (Elt Ideal))
    (n59 : (⟨Cert.ReferenceIdeal.S2176, .f32⟩ : BufTy).Contents (Elt Ideal))
    (h_xp : V₁ (Proc.devRef .tc Cert.KernelIdeal.main_v261_0) = xp) (h_xp' : V₂ (Proc.devRef .tc Cert.ReferenceIdeal.main_v291) = xp)
    (h_xnp : V₁ (Proc.devRef .tc Cert.KernelIdeal.main_v280) = xnp) (h_xnp' : V₂ (Proc.devRef .tc Cert.ReferenceIdeal.main_v308) = xnp)
    (h_w : V₁ (Proc.devRef .tc Cert.KernelIdeal.main_arg5) = w) (h_w' : V₂ (Proc.devRef .tc Cert.ReferenceIdeal.main_arg5) = w)
    (h_b : V₁ (Proc.devRef .tc Cert.KernelIdeal.main_arg6) = b) (h_b' : V₂ (Proc.devRef .tc Cert.ReferenceIdeal.main_arg6) = b)
    (h_e3 : V₁ (Proc.devRef .tc Cert.KernelIdeal.main_v3) = e3) (h_e3' : V₂ (Proc.devRef .tc Cert.ReferenceIdeal.main_v3) = e3)
    (h_e6 : V₁ (Proc.devRef .tc Cert.KernelIdeal.main_v6) = e6) (h_e6' : V₂ (Proc.devRef .tc Cert.ReferenceIdeal.main_v6) = e6)
    (h_n29 : V₁ (Proc.devRef .tc Cert.KernelIdeal.main_v29) = n29) (h_n29' : V₂ (Proc.devRef .tc Cert.ReferenceIdeal.main_v29) = n29)
    (h_e33 : V₁ (Proc.devRef .tc Cert.KernelIdeal.main_v33) = e33) (h_e33' : V₂ (Proc.devRef .tc Cert.ReferenceIdeal.main_v33) = e33)
    (h_e36 : V₁ (Proc.devRef .tc Cert.KernelIdeal.main_v36) = e36) (h_e36' : V₂ (Proc.devRef .tc Cert.ReferenceIdeal.main_v36) = e36)
    (h_n59 : V₁ (Proc.devRef .tc Cert.KernelIdeal.main_v59) = n59) (h_n59' : V₂ (Proc.devRef .tc Cert.ReferenceIdeal.main_v59) = n59)
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit6 V₁ (Proc.devRef .tc Cert.KernelIdeal.main_v297_0) = after (Rit6 (F := Ideal)) V₂ (Proc.devRef .tc Cert.ReferenceIdeal.main_v334))
    ∧ (after Cert.KernelIdeal.KV.Kit6 V₁ (Proc.devRef .tc Cert.KernelIdeal.main_v316) = after (Rit6 (F := Ideal)) V₂ (Proc.devRef .tc Cert.ReferenceIdeal.main_v351))
    ∧ (after Cert.KernelIdeal.KV.Kit6 V₁ (Proc.devRef .tc Cert.KernelIdeal.main_v299) = after (Rit6 (F := Ideal)) V₂ (Proc.devRef .tc Cert.ReferenceIdeal.main_v360))
    ∧ (after Cert.KernelIdeal.KV.Kit6 V₁ (Proc.devRef .tc Cert.KernelIdeal.main_v317) = after (Rit6 (F := Ideal)) V₂ (Proc.devRef .tc Cert.ReferenceIdeal.main_v352)) :=
  ⟨it6_p V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it6_np V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it6_ptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat,
   it6_nptrace V₁ V₂ xp xnp w b e3 e6 n29 e33 e36 n59 h_xp h_xp' h_xnp h_xnp' h_w h_w' h_b h_b' h_e3 h_e3' h_e6 h_e6' h_n29 h_n29' h_e33 h_e33' h_e36 h_e36' h_n59 h_n59' h_pat⟩

/-- The same with the agreements as equations between the two sides' contents. -/
theorem it6_bridge'
    (V₁ : Valuation Cert.KernelIdeal.τ Cert.KernelIdeal.sig (Elt Ideal)) (V₂ : Valuation Cert.ReferenceIdeal.τ Cert.ReferenceIdeal.sig (Elt Ideal))
    (h_xp : V₁ (Proc.devRef .tc Cert.KernelIdeal.main_v261_0) = V₂ (Proc.devRef .tc Cert.ReferenceIdeal.main_v291))
    (h_xnp : V₁ (Proc.devRef .tc Cert.KernelIdeal.main_v280) = V₂ (Proc.devRef .tc Cert.ReferenceIdeal.main_v308))
    (h_w : V₁ (Proc.devRef .tc Cert.KernelIdeal.main_arg5) = V₂ (Proc.devRef .tc Cert.ReferenceIdeal.main_arg5))
    (h_b : V₁ (Proc.devRef .tc Cert.KernelIdeal.main_arg6) = V₂ (Proc.devRef .tc Cert.ReferenceIdeal.main_arg6))
    (h_e3 : V₁ (Proc.devRef .tc Cert.KernelIdeal.main_v3) = V₂ (Proc.devRef .tc Cert.ReferenceIdeal.main_v3))
    (h_e6 : V₁ (Proc.devRef .tc Cert.KernelIdeal.main_v6) = V₂ (Proc.devRef .tc Cert.ReferenceIdeal.main_v6))
    (h_n29 : V₁ (Proc.devRef .tc Cert.KernelIdeal.main_v29) = V₂ (Proc.devRef .tc Cert.ReferenceIdeal.main_v29))
    (h_e33 : V₁ (Proc.devRef .tc Cert.KernelIdeal.main_v33) = V₂ (Proc.devRef .tc Cert.ReferenceIdeal.main_v33))
    (h_e36 : V₁ (Proc.devRef .tc Cert.KernelIdeal.main_v36) = V₂ (Proc.devRef .tc Cert.ReferenceIdeal.main_v36))
    (h_n59 : V₁ (Proc.devRef .tc Cert.KernelIdeal.main_v59) = V₂ (Proc.devRef .tc Cert.ReferenceIdeal.main_v59))
    (h_pat : V₁ (Proc.devRef .tc Cert.KernelIdeal.main_v65) = uitofp (F := Ideal) .f32 (cmpi .eq (addi (iotaInDim Cert.KernelIdeal.S128x128 32 0) (broadcastInDim Cert.KernelIdeal.S128x128 ![] Cert.KernelIdeal.Gen.bcast_S_S128x128 (constantI Cert.KernelIdeal.S_ 32 0#32))) (iotaInDim Cert.KernelIdeal.S128x128 32 1))) :
    (after Cert.KernelIdeal.KV.Kit6 V₁ (Proc.devRef .tc Cert.KernelIdeal.main_v297_0) = after (Rit6 (F := Ideal)) V₂ (Proc.devRef .tc Cert.ReferenceIdeal.main_v334))
    ∧ (after Cert.KernelIdeal.KV.Kit6 V₁ (Proc.devRef .tc Cert.KernelIdeal.main_v316) = after (Rit6 (F := Ideal)) V₂ (Proc.devRef .tc Cert.ReferenceIdeal.main_v351))
    ∧ (after Cert.KernelIdeal.KV.Kit6 V₁ (Proc.devRef .tc Cert.KernelIdeal.main_v299) = after (Rit6 (F := Ideal)) V₂ (Proc.devRef .tc Cert.ReferenceIdeal.main_v360))
    ∧ (after Cert.KernelIdeal.KV.Kit6 V₁ (Proc.devRef .tc Cert.KernelIdeal.main_v317) = after (Rit6 (F := Ideal)) V₂ (Proc.devRef .tc Cert.ReferenceIdeal.main_v352)) :=
  it6_bridge V₁ V₂ _ _ _ _ _ _ _ _ _ _ h_xp rfl h_xnp rfl h_w rfl h_b rfl h_e3 rfl h_e6 rfl h_n29 rfl h_e33 rfl h_e36 rfl h_n59 rfl h_pat

end Cert.ReferenceIdeal.RR

end
-- ==== Proof.BridgeS6.lean ====
/-
  Layer 7 of the two programs, side by side: from contents that agree on what the layer reads, the two lines
  leave contents that agree on the layer's output, the other graph's aggregate, and the two traces.
-/
import proofs.«156722_j77687368450207_1_alg».proof.Proof.BridgeKeeps
import proofs.«156722_j77687368450207_1_alg».proof.Proof.BridgeIt6

set_option maxRecDepth 8192
set_option maxHeartbeats 4000000

noncomputable section

namespace Cert.Proof.Br

open Idealize.ShloMosaic Idealize.ShloMosaic.TcCoe Idealize.SL.Sem Idealize.ShloMosaic.StableHlo

theorem step6 (V₁ : KVal) (V₂ : RVal)
    (hp : Agree V₁ V₂ Cert.KernelIdeal.main_v261_0 Cert.ReferenceIdeal.main_v291)
    (hn : Agree V₁ V₂ Cert.KernelIdeal.main_v280 Cert.ReferenceIdeal.main_v308)
    (h_w : Agree V₁ V₂ Cert.KernelIdeal.main_arg5 Cert.ReferenceIdeal.main_arg5)
    (h_b : Agree V₁ V₂ Cert.KernelIdeal.main_arg6 Cert.ReferenceIdeal.main_arg6)
    (h_e3 : Agree V₁ V₂ Cert.KernelIdeal.main_v3 Cert.ReferenceIdeal.main_v3)
    (h_e6 : Agree V₁ V₂ Cert.KernelIdeal.main_v6 Cert.ReferenceIdeal.main_v6)
    (h_n29 : Agree V₁ V₂ Cert.KernelIdeal.main_v29 Cert.ReferenceIdeal.main_v29)
    (h_e33 : Agree V₁ V₂ Cert.KernelIdeal.main_v33 Cert.ReferenceIdeal.main_v33)
    (h_e36 : Agree V₁ V₂ Cert.KernelIdeal.main_v36 Cert.ReferenceIdeal.main_v36)
    (h_n59 : Agree V₁ V₂ Cert.KernelIdeal.main_v59 Cert.ReferenceIdeal.main_v59)
    (hpat : V₁ (Proc.devRef .tc Cert.KernelIdeal.main_v65) = PAT) :
    Agree (after Cert.KernelIdeal.KV.Kit6 V₁) (after (Cert.ReferenceIdeal.RR.Rit6 (F := Ideal)) V₂) Cert.KernelIdeal.main_v297_0 Cert.ReferenceIdeal.main_v334
    ∧ Agree (after Cert.KernelIdeal.KV.Kit6 V₁) (after (Cert.ReferenceIdeal.RR.Rit6 (F := Ideal)) V₂) Cert.KernelIdeal.main_v316 Cert.ReferenceIdeal.main_v351
    ∧ Agree (after Cert.KernelIdeal.KV.Kit6 V₁) (after (Cert.ReferenceIdeal.RR.Rit6 (F := Ideal)) V₂) Cert.KernelIdeal.main_v299 Cert.ReferenceIdeal.main_v360
    ∧ Agree (after Cert.KernelIdeal.KV.Kit6 V₁) (after (Cert.ReferenceIdeal.RR.Rit6 (F := Ideal)) V₂) Cert.KernelIdeal.main_v317 Cert.ReferenceIdeal.main_v352 := by
  obtain ⟨c1, c2, c3, c4⟩ := Cert.ReferenceIdeal.RR.it6_bridge' V₁ V₂ (eq_of_heq hp) (eq_of_heq hn)
    (eq_of_heq h_w) (eq_of_heq h_b) (eq_of_heq h_e3) (eq_of_heq h_e6) (eq_of_heq h_n29) (eq_of_heq h_e33) (eq_of_heq h_e36) (eq_of_heq h_n59) hpat
  exact ⟨heq_of_eq c1, heq_of_eq c2, heq_of_eq c3, heq_of_eq c4⟩

end Cert.Proof.Br

end
-- ==== Proof.BridgeTailBase.lean ====
/- Reading a seven-operand operation: entry `j` of a literal family of seven is its `j`-th member, so that after the
   operation's result is read the operands' buffers are literal again and their contents can be read further. -/
import proofs.«156722_j77687368450207_1_alg».proof.Proof.BridgeBase

namespace Cert.ReferenceIdeal.RR

open Idealize.ShloMosaic Idealize.ShloMosaic.StableHlo

theorem vec7_0 {α : Type} (x0 x1 x2 x3 x4 x5 x6 : α) : (![x0, x1, x2, x3, x4, x5, x6] : Fin 7 → α) 0 = x0 := rfl
theorem vec7_1 {α : Type} (x0 x1 x2 x3 x4 x5 x6 : α) : (![x0, x1, x2, x3, x4, x5, x6] : Fin 7 → α) 1 = x1 := rfl
theorem vec7_2 {α : Type} (x0 x1 x2 x3 x4 x5 x6 : α) : (![x0, x1, x2, x3, x4, x5, x6] : Fin 7 → α) 2 = x2 := rfl
theorem vec7_3 {α : Type} (x0 x1 x2 x3 x4 x5 x6 : α) : (![x0, x1, x2, x3, x4, x5, x6] : Fin 7 → α) 3 = x3 := rfl
theorem vec7_4 {α : Type} (x0 x1 x2 x3 x4 x5 x6 : α) : (![x0, x1, x2, x3, x4, x5, x6] : Fin 7 → α) 4 = x4 := rfl
theorem vec7_5 {α : Type} (x0 x1 x2 x3 x4 x5 x6 : α) : (![x0, x1, x2, x3, x4, x5, x6] : Fin 7 → α) 5 = x5 := rfl
theorem vec7_6 {α : Type} (x0 x1 x2 x3 x4 x5 x6 : α) : (![x0, x1, x2, x3, x4, x5, x6] : Fin 7 → α) 6 = x6 := rfl

/-- One pass with the result lemmas and the seven entries. -/
macro "read_foldsV_pass" : tactic =>
  `(tactic| simp (disch := decide) only [after_app, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      vec7_0, vec7_1, vec7_2, vec7_3, vec7_4, vec7_5, vec7_6])

/-- As `read_folds`, for lines with seven-operand operations. -/
macro "read_foldsV" : tactic =>
  `(tactic| repeat (first
      | read_foldsV_pass
      | rw [nullary_result] | rw [unary_result] | rw [binary_result] | rw [ternary_result] | rw [quaternary_result]
      | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))

end Cert.ReferenceIdeal.RR
-- ==== Proof.BridgeTail.lean ====
/- The readout of the two programs, side by side: from contents that agree on the seven layers' diagonal sums and
   traces and on the five readout arguments, the kernel program's last host stretches and the reference program's last
   81 operations leave the same contents in the result buffer. -/
import proofs.«156722_j77687368450207_1_alg».proof.Proof.KOpsDefs
import proofs.«156722_j77687368450207_1_alg».proof.Proof.RefChunksTail
import proofs.«156722_j77687368450207_1_alg».proof.Proof.BridgeTailBase
import proofs.«156722_j77687368450207_1_alg».proof.Proof.BridgeCongr

noncomputable section

namespace Cert.ReferenceIdeal.RR

open Idealize.ShloMosaic Idealize.ShloMosaic.TcCoe Idealize.ShloMosaic.StableHlo

attribute [local congr] concatenate_congr2 concatenate_congr7

set_option maxRecDepth 16384 in
set_option maxHeartbeats 4000000 in
theorem tail_bridge
    (V₁ : Valuation Cert.KernelIdeal.τ Cert.KernelIdeal.sig (Elt Ideal)) (V₂ : Valuation Cert.ReferenceIdeal.τ Cert.ReferenceIdeal.sig (Elt Ideal))
    (pt0 : (⟨Cert.ReferenceIdeal.S256, .f32⟩ : BufTy).Contents (Elt Ideal))
    (pt1 : (⟨Cert.ReferenceIdeal.S256, .f32⟩ : BufTy).Contents (Elt Ideal))
    (pt2 : (⟨Cert.ReferenceIdeal.S256, .f32⟩ : BufTy).Contents (Elt Ideal))
    (pt3 : (⟨Cert.ReferenceIdeal.S256, .f32⟩ : BufTy).Contents (Elt Ideal))
    (pt4 : (⟨Cert.ReferenceIdeal.S256, .f32⟩ : BufTy).Contents (Elt Ideal))
    (pt5 : (⟨Cert.ReferenceIdeal.S256, .f32⟩ : BufTy).Contents (Elt Ideal))
    (pt6 : (⟨Cert.ReferenceIdeal.S256, .f32⟩ : BufTy).Contents (Elt Ideal))
    (nt0 : (⟨Cert.ReferenceIdeal.S_, .f32⟩ : BufTy).Contents (Elt Ideal))
    (nt1 : (⟨Cert.ReferenceIdeal.S_, .f32⟩ : BufTy).Contents (Elt Ideal))
    (nt2 : (⟨Cert.ReferenceIdeal.S_, .f32⟩ : BufTy).Contents (Elt Ideal))
    (nt3 : (⟨Cert.ReferenceIdeal.S_, .f32⟩ : BufTy).Contents (Elt Ideal))
    (nt4 : (⟨Cert.ReferenceIdeal.S_, .f32⟩ : BufTy).Contents (Elt Ideal))
    (nt5 : (⟨Cert.ReferenceIdeal.S_, .f32⟩ : BufTy).Contents (Elt Ideal))
    (nt6 : (⟨Cert.ReferenceIdeal.S_, .f32⟩ : BufTy).Contents (Elt Ideal))
    (y2 : (⟨Cert.ReferenceIdeal.S256x1, .f32⟩ : BufTy).Contents (Elt Ideal))
    (w7 : (⟨Cert.ReferenceIdeal.S7x15, .f32⟩ : BufTy).Contents (Elt Ideal))
    (b8 : (⟨Cert.ReferenceIdeal.S15, .f32⟩ : BufTy).Contents (Elt Ideal))
    (w9 : (⟨Cert.ReferenceIdeal.S15x1, .f32⟩ : BufTy).Contents (Elt Ideal))
    (b10 : (⟨Cert.ReferenceIdeal.S1, .f32⟩ : BufTy).Contents (Elt Ideal))
    (h_pt0 : V₁ (Proc.devRef .tc Cert.KernelIdeal.main_v83) = pt0) (h_pt0' : V₂ (Proc.devRef .tc Cert.ReferenceIdeal.main_v102) = pt0)
    (h_pt1 : V₁ (Proc.devRef .tc Cert.KernelIdeal.main_v119) = pt1) (h_pt1' : V₂ (Proc.devRef .tc Cert.ReferenceIdeal.main_v145) = pt1)
    (h_pt2 : V₁ (Proc.devRef .tc Cert.KernelIdeal.main_v155) = pt2) (h_pt2' : V₂ (Proc.devRef .tc Cert.ReferenceIdeal.main_v188) = pt2)
    (h_pt3 : V₁ (Proc.devRef .tc Cert.KernelIdeal.main_v191) = pt3) (h_pt3' : V₂ (Proc.devRef .tc Cert.ReferenceIdeal.main_v231) = pt3)
    (h_pt4 : V₁ (Proc.devRef .tc Cert.KernelIdeal.main_v227) = pt4) (h_pt4' : V₂ (Proc.devRef .tc Cert.ReferenceIdeal.main_v274) = pt4)
    (h_pt5 : V₁ (Proc.devRef .tc Cert.KernelIdeal.main_v263) = pt5) (h_pt5' : V₂ (Proc.devRef .tc Cert.ReferenceIdeal.main_v317) = pt5)
    (h_pt6 : V₁ (Proc.devRef .tc Cert.KernelIdeal.main_v299) = pt6) (h_pt6' : V₂ (Proc.devRef .tc Cert.ReferenceIdeal.main_v360) = pt6)
    (h_nt0 : V₁ (Proc.devRef .tc Cert.KernelIdeal.main_v101) = nt0) (h_nt0' : V₂ (Proc.devRef .tc Cert.ReferenceIdeal.main_v94) = nt0)
    (h_nt1 : V₁ (Proc.devRef .tc Cert.KernelIdeal.main_v137) = nt1) (h_nt1' : V₂ (Proc.devRef .tc Cert.ReferenceIdeal.main_v137) = nt1)
    (h_nt2 : V₁ (Proc.devRef .tc Cert.KernelIdeal.main_v173) = nt2) (h_nt2' : V₂ (Proc.devRef .tc Cert.ReferenceIdeal.main_v180) = nt2)
    (h_nt3 : V₁ (Proc.devRef .tc Cert.KernelIdeal.main_v209) = nt3) (h_nt3' : V₂ (Proc.devRef .tc Cert.ReferenceIdeal.main_v223) = nt3)
    (h_nt4 : V₁ (Proc.devRef .tc Cert.KernelIdeal.main_v245) = nt4) (h_nt4' : V₂ (Proc.devRef .tc Cert.ReferenceIdeal.main_v266) = nt4)
    (h_nt5 : V₁ (Proc.devRef .tc Cert.KernelIdeal.main_v281) = nt5) (h_nt5' : V₂ (Proc.devRef .tc Cert.ReferenceIdeal.main_v309) = nt5)
    (h_nt6 : V₁ (Proc.devRef .tc Cert.KernelIdeal.main_v317) = nt6) (h_nt6' : V₂ (Proc.devRef .tc Cert.ReferenceIdeal.main_v352) = nt6)
    (h_y2 : V₁ (Proc.devRef .tc Cert.KernelIdeal.main_arg2) = y2) (h_y2' : V₂ (Proc.devRef .tc Cert.ReferenceIdeal.main_arg2) = y2)
    (h_w7 : V₁ (Proc.devRef .tc Cert.KernelIdeal.main_arg7) = w7) (h_w7' : V₂ (Proc.devRef .tc Cert.ReferenceIdeal.main_arg7) = w7)
    (h_b8 : V₁ (Proc.devRef .tc Cert.KernelIdeal.main_arg8) = b8) (h_b8' : V₂ (Proc.devRef .tc Cert.ReferenceIdeal.main_arg8) = b8)
    (h_w9 : V₁ (Proc.devRef .tc Cert.KernelIdeal.main_arg9) = w9) (h_w9' : V₂ (Proc.devRef .tc Cert.ReferenceIdeal.main_arg9) = w9)
    (h_b10 : V₁ (Proc.devRef .tc Cert.KernelIdeal.main_arg10) = b10) (h_b10' : V₂ (Proc.devRef .tc Cert.ReferenceIdeal.main_arg10) = b10) :
    after Cert.KernelIdeal.KV.Ktail V₁ (Proc.devRef .tc Cert.KernelIdeal.main_v366) = after (Rtail (F := Ideal)) V₂ (Proc.devRef .tc Cert.ReferenceIdeal.main_v409) := by
  read_foldsV_pass
  simp only [h_pt0, h_pt0', h_pt1, h_pt1', h_pt2, h_pt2', h_pt3, h_pt3', h_pt4, h_pt4', h_pt5, h_pt5', h_pt6, h_pt6', h_nt0, h_nt0', h_nt1, h_nt1', h_nt2, h_nt2', h_nt3, h_nt3', h_nt4, h_nt4', h_nt5, h_nt5', h_nt6, h_nt6', h_y2, h_y2', h_w7, h_w7', h_b8, h_b8', h_w9, h_w9', h_b10, h_b10']
  rfl

/-- The same with the agreements as equations between the two sides' contents. -/
theorem tail_bridge'
    (V₁ : Valuation Cert.KernelIdeal.τ Cert.KernelIdeal.sig (Elt Ideal)) (V₂ : Valuation Cert.ReferenceIdeal.τ Cert.ReferenceIdeal.sig (Elt Ideal))
    (h_pt0 : V₁ (Proc.devRef .tc Cert.KernelIdeal.main_v83) = V₂ (Proc.devRef .tc Cert.ReferenceIdeal.main_v102))
    (h_pt1 : V₁ (Proc.devRef .tc Cert.KernelIdeal.main_v119) = V₂ (Proc.devRef .tc Cert.ReferenceIdeal.main_v145))
    (h_pt2 : V₁ (Proc.devRef .tc Cert.KernelIdeal.main_v155) = V₂ (Proc.devRef .tc Cert.ReferenceIdeal.main_v188))
    (h_pt3 : V₁ (Proc.devRef .tc Cert.KernelIdeal.main_v191) = V₂ (Proc.devRef .tc Cert.ReferenceIdeal.main_v231))
    (h_pt4 : V₁ (Proc.devRef .tc Cert.KernelIdeal.main_v227) = V₂ (Proc.devRef .tc Cert.ReferenceIdeal.main_v274))
    (h_pt5 : V₁ (Proc.devRef .tc Cert.KernelIdeal.main_v263) = V₂ (Proc.devRef .tc Cert.ReferenceIdeal.main_v317))
    (h_pt6 : V₁ (Proc.devRef .tc Cert.KernelIdeal.main_v299) = V₂ (Proc.devRef .tc Cert.ReferenceIdeal.main_v360))
    (h_nt0 : V₁ (Proc.devRef .tc Cert.KernelIdeal.main_v101) = V₂ (Proc.devRef .tc Cert.ReferenceIdeal.main_v94))
    (h_nt1 : V₁ (Proc.devRef .tc Cert.KernelIdeal.main_v137) = V₂ (Proc.devRef .tc Cert.ReferenceIdeal.main_v137))
    (h_nt2 : V₁ (Proc.devRef .tc Cert.KernelIdeal.main_v173) = V₂ (Proc.devRef .tc Cert.ReferenceIdeal.main_v180))
    (h_nt3 : V₁ (Proc.devRef .tc Cert.KernelIdeal.main_v209) = V₂ (Proc.devRef .tc Cert.ReferenceIdeal.main_v223))
    (h_nt4 : V₁ (Proc.devRef .tc Cert.KernelIdeal.main_v245) = V₂ (Proc.devRef .tc Cert.ReferenceIdeal.main_v266))
    (h_nt5 : V₁ (Proc.devRef .tc Cert.KernelIdeal.main_v281) = V₂ (Proc.devRef .tc Cert.ReferenceIdeal.main_v309))
    (h_nt6 : V₁ (Proc.devRef .tc Cert.KernelIdeal.main_v317) = V₂ (Proc.devRef .tc Cert.ReferenceIdeal.main_v352))
    (h_y2 : V₁ (Proc.devRef .tc Cert.KernelIdeal.main_arg2) = V₂ (Proc.devRef .tc Cert.ReferenceIdeal.main_arg2))
    (h_w7 : V₁ (Proc.devRef .tc Cert.KernelIdeal.main_arg7) = V₂ (Proc.devRef .tc Cert.ReferenceIdeal.main_arg7))
    (h_b8 : V₁ (Proc.devRef .tc Cert.KernelIdeal.main_arg8) = V₂ (Proc.devRef .tc Cert.ReferenceIdeal.main_arg8))
    (h_w9 : V₁ (Proc.devRef .tc Cert.KernelIdeal.main_arg9) = V₂ (Proc.devRef .tc Cert.ReferenceIdeal.main_arg9))
    (h_b10 : V₁ (Proc.devRef .tc Cert.KernelIdeal.main_arg10) = V₂ (Proc.devRef .tc Cert.ReferenceIdeal.main_arg10)) :
    after Cert.KernelIdeal.KV.Ktail V₁ (Proc.devRef .tc Cert.KernelIdeal.main_v366) = after (Rtail (F := Ideal)) V₂ (Proc.devRef .tc Cert.ReferenceIdeal.main_v409) :=
  tail_bridge V₁ V₂ _ _ _ _ _ _ _ _ _ _ _ _ _ _ _ _ _ _ _ h_pt0 rfl h_pt1 rfl h_pt2 rfl h_pt3 rfl h_pt4 rfl h_pt5 rfl h_pt6 rfl h_nt0 rfl h_nt1 rfl h_nt2 rfl h_nt3 rfl h_nt4 rfl h_nt5 rfl h_nt6 rfl h_y2 rfl h_w7 rfl h_b8 rfl h_w9 rfl h_b10 rfl

end Cert.ReferenceIdeal.RR

end
-- ==== Proof.BridgeSTail.lean ====
/-
  The readout of the two programs, side by side: from contents that agree on the fourteen traces and the readout's
  parameters, the two lines leave contents that agree on the result.
-/
import proofs.«156722_j77687368450207_1_alg».proof.Proof.BridgeKeeps
import proofs.«156722_j77687368450207_1_alg».proof.Proof.BridgeTail

set_option maxRecDepth 8192
set_option maxHeartbeats 4000000

noncomputable section

namespace Cert.Proof.Br

open Idealize.ShloMosaic Idealize.ShloMosaic.TcCoe Idealize.SL.Sem Idealize.ShloMosaic.StableHlo

theorem tail (V₁ : KVal) (V₂ : RVal)
    (tp0 : Agree V₁ V₂ Cert.KernelIdeal.main_v83 Cert.ReferenceIdeal.main_v102)
    (tp1 : Agree V₁ V₂ Cert.KernelIdeal.main_v119 Cert.ReferenceIdeal.main_v145)
    (tp2 : Agree V₁ V₂ Cert.KernelIdeal.main_v155 Cert.ReferenceIdeal.main_v188)
    (tp3 : Agree V₁ V₂ Cert.KernelIdeal.main_v191 Cert.ReferenceIdeal.main_v231)
    (tp4 : Agree V₁ V₂ Cert.KernelIdeal.main_v227 Cert.ReferenceIdeal.main_v274)
    (tp5 : Agree V₁ V₂ Cert.KernelIdeal.main_v263 Cert.ReferenceIdeal.main_v317)
    (tp6 : Agree V₁ V₂ Cert.KernelIdeal.main_v299 Cert.ReferenceIdeal.main_v360)
    (tn0 : Agree V₁ V₂ Cert.KernelIdeal.main_v101 Cert.ReferenceIdeal.main_v94)
    (tn1 : Agree V₁ V₂ Cert.KernelIdeal.main_v137 Cert.ReferenceIdeal.main_v137)
    (tn2 : Agree V₁ V₂ Cert.KernelIdeal.main_v173 Cert.ReferenceIdeal.main_v180)
    (tn3 : Agree V₁ V₂ Cert.KernelIdeal.main_v209 Cert.ReferenceIdeal.main_v223)
    (tn4 : Agree V₁ V₂ Cert.KernelIdeal.main_v245 Cert.ReferenceIdeal.main_v266)
    (tn5 : Agree V₁ V₂ Cert.KernelIdeal.main_v281 Cert.ReferenceIdeal.main_v309)
    (tn6 : Agree V₁ V₂ Cert.KernelIdeal.main_v317 Cert.ReferenceIdeal.main_v352)
    (h_main_arg2 : Agree V₁ V₂ Cert.KernelIdeal.main_arg2 Cert.ReferenceIdeal.main_arg2)
    (h_main_arg7 : Agree V₁ V₂ Cert.KernelIdeal.main_arg7 Cert.ReferenceIdeal.main_arg7)
    (h_main_arg8 : Agree V₁ V₂ Cert.KernelIdeal.main_arg8 Cert.ReferenceIdeal.main_arg8)
    (h_main_arg9 : Agree V₁ V₂ Cert.KernelIdeal.main_arg9 Cert.ReferenceIdeal.main_arg9)
    (h_main_arg10 : Agree V₁ V₂ Cert.KernelIdeal.main_arg10 Cert.ReferenceIdeal.main_arg10) :
    Agree (after Cert.KernelIdeal.KV.Ktail V₁) (after (Cert.ReferenceIdeal.RR.Rtail (F := Ideal)) V₂) Cert.KernelIdeal.main_v366 Cert.ReferenceIdeal.main_v409 :=
  heq_of_eq (Cert.ReferenceIdeal.RR.tail_bridge' V₁ V₂
    (eq_of_heq tp0) (eq_of_heq tp1) (eq_of_heq tp2) (eq_of_heq tp3) (eq_of_heq tp4) (eq_of_heq tp5) (eq_of_heq tp6)
    (eq_of_heq tn0) (eq_of_heq tn1) (eq_of_heq tn2) (eq_of_heq tn3) (eq_of_heq tn4) (eq_of_heq tn5) (eq_of_heq tn6)
    (eq_of_heq h_main_arg2) (eq_of_heq h_main_arg7) (eq_of_heq h_main_arg8) (eq_of_heq h_main_arg9) (eq_of_heq h_main_arg10))

end Cert.Proof.Br

end
-- ==== Proof.BridgeCore.lean ====
/-
  The two programs' lines, from contents that agree on the eleven arguments to contents that agree on the result:
  the shared first part, the seven layers in turn, the readout. Between layers the agreement on what every layer
  reads, the identity pattern, and the traces of the layers already done pass through, because no layer writes them.
-/
import proofs.«156722_j77687368450207_1_alg».proof.Proof.BridgeSPro
import proofs.«156722_j77687368450207_1_alg».proof.Proof.BridgeS0
import proofs.«156722_j77687368450207_1_alg».proof.Proof.BridgeS1
import proofs.«156722_j77687368450207_1_alg».proof.Proof.BridgeS2
import proofs.«156722_j77687368450207_1_alg».proof.Proof.BridgeS3
import proofs.«156722_j77687368450207_1_alg».proof.Proof.BridgeS4
import proofs.«156722_j77687368450207_1_alg».proof.Proof.BridgeS5
import proofs.«156722_j77687368450207_1_alg».proof.Proof.BridgeS6
import proofs.«156722_j77687368450207_1_alg».proof.Proof.BridgeSTail

set_option maxRecDepth 8192
set_option maxHeartbeats 4000000

noncomputable section

namespace Cert.Proof.Br

open Idealize.ShloMosaic Idealize.ShloMosaic.TcCoe Idealize.SL.Sem Idealize.ShloMosaic.StableHlo

theorem core (V₁ : KVal) (V₂ : RVal)
    (a0 : Agree V₁ V₂ Cert.KernelIdeal.main_arg0 Cert.ReferenceIdeal.main_arg0)
    (a1 : Agree V₁ V₂ Cert.KernelIdeal.main_arg1 Cert.ReferenceIdeal.main_arg1)
    (a2 : Agree V₁ V₂ Cert.KernelIdeal.main_arg2 Cert.ReferenceIdeal.main_arg2)
    (a3 : Agree V₁ V₂ Cert.KernelIdeal.main_arg3 Cert.ReferenceIdeal.main_arg3)
    (a4 : Agree V₁ V₂ Cert.KernelIdeal.main_arg4 Cert.ReferenceIdeal.main_arg4)
    (a5 : Agree V₁ V₂ Cert.KernelIdeal.main_arg5 Cert.ReferenceIdeal.main_arg5)
    (a6 : Agree V₁ V₂ Cert.KernelIdeal.main_arg6 Cert.ReferenceIdeal.main_arg6)
    (a7 : Agree V₁ V₂ Cert.KernelIdeal.main_arg7 Cert.ReferenceIdeal.main_arg7)
    (a8 : Agree V₁ V₂ Cert.KernelIdeal.main_arg8 Cert.ReferenceIdeal.main_arg8)
    (a9 : Agree V₁ V₂ Cert.KernelIdeal.main_arg9 Cert.ReferenceIdeal.main_arg9)
    (a10 : Agree V₁ V₂ Cert.KernelIdeal.main_arg10 Cert.ReferenceIdeal.main_arg10) :
    Agree (after Cert.KernelIdeal.KV.Ktail (after Cert.KernelIdeal.KV.Kit6 (after Cert.KernelIdeal.KV.Kit5 (after Cert.KernelIdeal.KV.Kit4 (after Cert.KernelIdeal.KV.Kit3 (after Cert.KernelIdeal.KV.Kit2 (after Cert.KernelIdeal.KV.Kit1 (after Cert.KernelIdeal.KV.Kit0 (after Cert.KernelIdeal.KV.Kpro V₁)))))))))
      (after (Cert.ReferenceIdeal.RR.Rtail (F := Ideal)) (after (Cert.ReferenceIdeal.RR.Rit6 (F := Ideal)) (after (Cert.ReferenceIdeal.RR.Rit5 (F := Ideal)) (after (Cert.ReferenceIdeal.RR.Rit4 (F := Ideal)) (after (Cert.ReferenceIdeal.RR.Rit3 (F := Ideal)) (after (Cert.ReferenceIdeal.RR.Rit2 (F := Ideal)) (after (Cert.ReferenceIdeal.RR.Rit1 (F := Ideal)) (after (Cert.ReferenceIdeal.RR.Rit0 (F := Ideal)) (after (Cert.ReferenceIdeal.RR.Rpro (F := Ideal)) V₂)))))))))
      Cert.KernelIdeal.main_v366 Cert.ReferenceIdeal.main_v409 := by
  obtain ⟨v3_1, v6_1, v29_1, v33_1, v36_1, v59_1, pat_1⟩ := pro V₁ V₂ a3 a4
  have arg0_1 := Agree.keep Cert.KernelIdeal.KV.Kpro_writes Cert.ReferenceIdeal.RR.Rpro_writes a0 (by decide) (by decide)
  have arg1_1 := Agree.keep Cert.KernelIdeal.KV.Kpro_writes Cert.ReferenceIdeal.RR.Rpro_writes a1 (by decide) (by decide)
  have arg2_1 := Agree.keep Cert.KernelIdeal.KV.Kpro_writes Cert.ReferenceIdeal.RR.Rpro_writes a2 (by decide) (by decide)
  have arg5_1 := Agree.keep Cert.KernelIdeal.KV.Kpro_writes Cert.ReferenceIdeal.RR.Rpro_writes a5 (by decide) (by decide)
  have arg6_1 := Agree.keep Cert.KernelIdeal.KV.Kpro_writes Cert.ReferenceIdeal.RR.Rpro_writes a6 (by decide) (by decide)
  have arg7_1 := Agree.keep Cert.KernelIdeal.KV.Kpro_writes Cert.ReferenceIdeal.RR.Rpro_writes a7 (by decide) (by decide)
  have arg8_1 := Agree.keep Cert.KernelIdeal.KV.Kpro_writes Cert.ReferenceIdeal.RR.Rpro_writes a8 (by decide) (by decide)
  have arg9_1 := Agree.keep Cert.KernelIdeal.KV.Kpro_writes Cert.ReferenceIdeal.RR.Rpro_writes a9 (by decide) (by decide)
  have arg10_1 := Agree.keep Cert.KernelIdeal.KV.Kpro_writes Cert.ReferenceIdeal.RR.Rpro_writes a10 (by decide) (by decide)
  -- layer 1
  obtain ⟨hp_2, hn_2, tp0_2, tn0_2⟩ := step0 _ _ arg0_1 arg1_1 arg5_1 arg6_1 v3_1 v6_1 v29_1 v33_1 v36_1 v59_1 pat_1
  have v3_2 := Agree.keep Cert.KernelIdeal.KV.Kit0_writes Cert.ReferenceIdeal.RR.Rit0_writes v3_1 (by decide) (by decide)
  have v6_2 := Agree.keep Cert.KernelIdeal.KV.Kit0_writes Cert.ReferenceIdeal.RR.Rit0_writes v6_1 (by decide) (by decide)
  have v29_2 := Agree.keep Cert.KernelIdeal.KV.Kit0_writes Cert.ReferenceIdeal.RR.Rit0_writes v29_1 (by decide) (by decide)
  have v33_2 := Agree.keep Cert.KernelIdeal.KV.Kit0_writes Cert.ReferenceIdeal.RR.Rit0_writes v33_1 (by decide) (by decide)
  have v36_2 := Agree.keep Cert.KernelIdeal.KV.Kit0_writes Cert.ReferenceIdeal.RR.Rit0_writes v36_1 (by decide) (by decide)
  have v59_2 := Agree.keep Cert.KernelIdeal.KV.Kit0_writes Cert.ReferenceIdeal.RR.Rit0_writes v59_1 (by decide) (by decide)
  have arg5_2 := Agree.keep Cert.KernelIdeal.KV.Kit0_writes Cert.ReferenceIdeal.RR.Rit0_writes arg5_1 (by decide) (by decide)
  have arg6_2 := Agree.keep Cert.KernelIdeal.KV.Kit0_writes Cert.ReferenceIdeal.RR.Rit0_writes arg6_1 (by decide) (by decide)
  have arg2_2 := Agree.keep Cert.KernelIdeal.KV.Kit0_writes Cert.ReferenceIdeal.RR.Rit0_writes arg2_1 (by decide) (by decide)
  have arg7_2 := Agree.keep Cert.KernelIdeal.KV.Kit0_writes Cert.ReferenceIdeal.RR.Rit0_writes arg7_1 (by decide) (by decide)
  have arg8_2 := Agree.keep Cert.KernelIdeal.KV.Kit0_writes Cert.ReferenceIdeal.RR.Rit0_writes arg8_1 (by decide) (by decide)
  have arg9_2 := Agree.keep Cert.KernelIdeal.KV.Kit0_writes Cert.ReferenceIdeal.RR.Rit0_writes arg9_1 (by decide) (by decide)
  have arg10_2 := Agree.keep Cert.KernelIdeal.KV.Kit0_writes Cert.ReferenceIdeal.RR.Rit0_writes arg10_1 (by decide) (by decide)
  have pat_2 := (Cert.KernelIdeal.KV.Kit0_keeps _ (r := Cert.KernelIdeal.main_v65) (by decide)).trans pat_1
  -- layer 2
  obtain ⟨hp_3, hn_3, tp1_3, tn1_3⟩ := step1 _ _ hp_2 hn_2 arg5_2 arg6_2 v3_2 v6_2 v29_2 v33_2 v36_2 v59_2 pat_2
  have v3_3 := Agree.keep Cert.KernelIdeal.KV.Kit1_writes Cert.ReferenceIdeal.RR.Rit1_writes v3_2 (by decide) (by decide)
  have v6_3 := Agree.keep Cert.KernelIdeal.KV.Kit1_writes Cert.ReferenceIdeal.RR.Rit1_writes v6_2 (by decide) (by decide)
  have v29_3 := Agree.keep Cert.KernelIdeal.KV.Kit1_writes Cert.ReferenceIdeal.RR.Rit1_writes v29_2 (by decide) (by decide)
  have v33_3 := Agree.keep Cert.KernelIdeal.KV.Kit1_writes Cert.ReferenceIdeal.RR.Rit1_writes v33_2 (by decide) (by decide)
  have v36_3 := Agree.keep Cert.KernelIdeal.KV.Kit1_writes Cert.ReferenceIdeal.RR.Rit1_writes v36_2 (by decide) (by decide)
  have v59_3 := Agree.keep Cert.KernelIdeal.KV.Kit1_writes Cert.ReferenceIdeal.RR.Rit1_writes v59_2 (by decide) (by decide)
  have arg5_3 := Agree.keep Cert.KernelIdeal.KV.Kit1_writes Cert.ReferenceIdeal.RR.Rit1_writes arg5_2 (by decide) (by decide)
  have arg6_3 := Agree.keep Cert.KernelIdeal.KV.Kit1_writes Cert.ReferenceIdeal.RR.Rit1_writes arg6_2 (by decide) (by decide)
  have arg2_3 := Agree.keep Cert.KernelIdeal.KV.Kit1_writes Cert.ReferenceIdeal.RR.Rit1_writes arg2_2 (by decide) (by decide)
  have arg7_3 := Agree.keep Cert.KernelIdeal.KV.Kit1_writes Cert.ReferenceIdeal.RR.Rit1_writes arg7_2 (by decide) (by decide)
  have arg8_3 := Agree.keep Cert.KernelIdeal.KV.Kit1_writes Cert.ReferenceIdeal.RR.Rit1_writes arg8_2 (by decide) (by decide)
  have arg9_3 := Agree.keep Cert.KernelIdeal.KV.Kit1_writes Cert.ReferenceIdeal.RR.Rit1_writes arg9_2 (by decide) (by decide)
  have arg10_3 := Agree.keep Cert.KernelIdeal.KV.Kit1_writes Cert.ReferenceIdeal.RR.Rit1_writes arg10_2 (by decide) (by decide)
  have pat_3 := (Cert.KernelIdeal.KV.Kit1_keeps _ (r := Cert.KernelIdeal.main_v65) (by decide)).trans pat_2
  have tp0_3 := Agree.keep Cert.KernelIdeal.KV.Kit1_writes Cert.ReferenceIdeal.RR.Rit1_writes tp0_2 (by decide) (by decide)
  have tn0_3 := Agree.keep Cert.KernelIdeal.KV.Kit1_writes Cert.ReferenceIdeal.RR.Rit1_writes tn0_2 (by decide) (by decide)
  -- layer 3
  obtain ⟨hp_4, hn_4, tp2_4, tn2_4⟩ := step2 _ _ hp_3 hn_3 arg5_3 arg6_3 v3_3 v6_3 v29_3 v33_3 v36_3 v59_3 pat_3
  have v3_4 := Agree.keep Cert.KernelIdeal.KV.Kit2_writes Cert.ReferenceIdeal.RR.Rit2_writes v3_3 (by decide) (by decide)
  have v6_4 := Agree.keep Cert.KernelIdeal.KV.Kit2_writes Cert.ReferenceIdeal.RR.Rit2_writes v6_3 (by decide) (by decide)
  have v29_4 := Agree.keep Cert.KernelIdeal.KV.Kit2_writes Cert.ReferenceIdeal.RR.Rit2_writes v29_3 (by decide) (by decide)
  have v33_4 := Agree.keep Cert.KernelIdeal.KV.Kit2_writes Cert.ReferenceIdeal.RR.Rit2_writes v33_3 (by decide) (by decide)
  have v36_4 := Agree.keep Cert.KernelIdeal.KV.Kit2_writes Cert.ReferenceIdeal.RR.Rit2_writes v36_3 (by decide) (by decide)
  have v59_4 := Agree.keep Cert.KernelIdeal.KV.Kit2_writes Cert.ReferenceIdeal.RR.Rit2_writes v59_3 (by decide) (by decide)
  have arg5_4 := Agree.keep Cert.KernelIdeal.KV.Kit2_writes Cert.ReferenceIdeal.RR.Rit2_writes arg5_3 (by decide) (by decide)
  have arg6_4 := Agree.keep Cert.KernelIdeal.KV.Kit2_writes Cert.ReferenceIdeal.RR.Rit2_writes arg6_3 (by decide) (by decide)
  have arg2_4 := Agree.keep Cert.KernelIdeal.KV.Kit2_writes Cert.ReferenceIdeal.RR.Rit2_writes arg2_3 (by decide) (by decide)
  have arg7_4 := Agree.keep Cert.KernelIdeal.KV.Kit2_writes Cert.ReferenceIdeal.RR.Rit2_writes arg7_3 (by decide) (by decide)
  have arg8_4 := Agree.keep Cert.KernelIdeal.KV.Kit2_writes Cert.ReferenceIdeal.RR.Rit2_writes arg8_3 (by decide) (by decide)
  have arg9_4 := Agree.keep Cert.KernelIdeal.KV.Kit2_writes Cert.ReferenceIdeal.RR.Rit2_writes arg9_3 (by decide) (by decide)
  have arg10_4 := Agree.keep Cert.KernelIdeal.KV.Kit2_writes Cert.ReferenceIdeal.RR.Rit2_writes arg10_3 (by decide) (by decide)
  have pat_4 := (Cert.KernelIdeal.KV.Kit2_keeps _ (r := Cert.KernelIdeal.main_v65) (by decide)).trans pat_3
  have tp0_4 := Agree.keep Cert.KernelIdeal.KV.Kit2_writes Cert.ReferenceIdeal.RR.Rit2_writes tp0_3 (by decide) (by decide)
  have tn0_4 := Agree.keep Cert.KernelIdeal.KV.Kit2_writes Cert.ReferenceIdeal.RR.Rit2_writes tn0_3 (by decide) (by decide)
  have tp1_4 := Agree.keep Cert.KernelIdeal.KV.Kit2_writes Cert.ReferenceIdeal.RR.Rit2_writes tp1_3 (by decide) (by decide)
  have tn1_4 := Agree.keep Cert.KernelIdeal.KV.Kit2_writes Cert.ReferenceIdeal.RR.Rit2_writes tn1_3 (by decide) (by decide)
  -- layer 4
  obtain ⟨hp_5, hn_5, tp3_5, tn3_5⟩ := step3 _ _ hp_4 hn_4 arg5_4 arg6_4 v3_4 v6_4 v29_4 v33_4 v36_4 v59_4 pat_4
  have v3_5 := Agree.keep Cert.KernelIdeal.KV.Kit3_writes Cert.ReferenceIdeal.RR.Rit3_writes v3_4 (by decide) (by decide)
  have v6_5 := Agree.keep Cert.KernelIdeal.KV.Kit3_writes Cert.ReferenceIdeal.RR.Rit3_writes v6_4 (by decide) (by decide)
  have v29_5 := Agree.keep Cert.KernelIdeal.KV.Kit3_writes Cert.ReferenceIdeal.RR.Rit3_writes v29_4 (by decide) (by decide)
  have v33_5 := Agree.keep Cert.KernelIdeal.KV.Kit3_writes Cert.ReferenceIdeal.RR.Rit3_writes v33_4 (by decide) (by decide)
  have v36_5 := Agree.keep Cert.KernelIdeal.KV.Kit3_writes Cert.ReferenceIdeal.RR.Rit3_writes v36_4 (by decide) (by decide)
  have v59_5 := Agree.keep Cert.KernelIdeal.KV.Kit3_writes Cert.ReferenceIdeal.RR.Rit3_writes v59_4 (by decide) (by decide)
  have arg5_5 := Agree.keep Cert.KernelIdeal.KV.Kit3_writes Cert.ReferenceIdeal.RR.Rit3_writes arg5_4 (by decide) (by decide)
  have arg6_5 := Agree.keep Cert.KernelIdeal.KV.Kit3_writes Cert.ReferenceIdeal.RR.Rit3_writes arg6_4 (by decide) (by decide)
  have arg2_5 := Agree.keep Cert.KernelIdeal.KV.Kit3_writes Cert.ReferenceIdeal.RR.Rit3_writes arg2_4 (by decide) (by decide)
  have arg7_5 := Agree.keep Cert.KernelIdeal.KV.Kit3_writes Cert.ReferenceIdeal.RR.Rit3_writes arg7_4 (by decide) (by decide)
  have arg8_5 := Agree.keep Cert.KernelIdeal.KV.Kit3_writes Cert.ReferenceIdeal.RR.Rit3_writes arg8_4 (by decide) (by decide)
  have arg9_5 := Agree.keep Cert.KernelIdeal.KV.Kit3_writes Cert.ReferenceIdeal.RR.Rit3_writes arg9_4 (by decide) (by decide)
  have arg10_5 := Agree.keep Cert.KernelIdeal.KV.Kit3_writes Cert.ReferenceIdeal.RR.Rit3_writes arg10_4 (by decide) (by decide)
  have pat_5 := (Cert.KernelIdeal.KV.Kit3_keeps _ (r := Cert.KernelIdeal.main_v65) (by decide)).trans pat_4
  have tp0_5 := Agree.keep Cert.KernelIdeal.KV.Kit3_writes Cert.ReferenceIdeal.RR.Rit3_writes tp0_4 (by decide) (by decide)
  have tn0_5 := Agree.keep Cert.KernelIdeal.KV.Kit3_writes Cert.ReferenceIdeal.RR.Rit3_writes tn0_4 (by decide) (by decide)
  have tp1_5 := Agree.keep Cert.KernelIdeal.KV.Kit3_writes Cert.ReferenceIdeal.RR.Rit3_writes tp1_4 (by decide) (by decide)
  have tn1_5 := Agree.keep Cert.KernelIdeal.KV.Kit3_writes Cert.ReferenceIdeal.RR.Rit3_writes tn1_4 (by decide) (by decide)
  have tp2_5 := Agree.keep Cert.KernelIdeal.KV.Kit3_writes Cert.ReferenceIdeal.RR.Rit3_writes tp2_4 (by decide) (by decide)
  have tn2_5 := Agree.keep Cert.KernelIdeal.KV.Kit3_writes Cert.ReferenceIdeal.RR.Rit3_writes tn2_4 (by decide) (by decide)
  -- layer 5
  obtain ⟨hp_6, hn_6, tp4_6, tn4_6⟩ := step4 _ _ hp_5 hn_5 arg5_5 arg6_5 v3_5 v6_5 v29_5 v33_5 v36_5 v59_5 pat_5
  have v3_6 := Agree.keep Cert.KernelIdeal.KV.Kit4_writes Cert.ReferenceIdeal.RR.Rit4_writes v3_5 (by decide) (by decide)
  have v6_6 := Agree.keep Cert.KernelIdeal.KV.Kit4_writes Cert.ReferenceIdeal.RR.Rit4_writes v6_5 (by decide) (by decide)
  have v29_6 := Agree.keep Cert.KernelIdeal.KV.Kit4_writes Cert.ReferenceIdeal.RR.Rit4_writes v29_5 (by decide) (by decide)
  have v33_6 := Agree.keep Cert.KernelIdeal.KV.Kit4_writes Cert.ReferenceIdeal.RR.Rit4_writes v33_5 (by decide) (by decide)
  have v36_6 := Agree.keep Cert.KernelIdeal.KV.Kit4_writes Cert.ReferenceIdeal.RR.Rit4_writes v36_5 (by decide) (by decide)
  have v59_6 := Agree.keep Cert.KernelIdeal.KV.Kit4_writes Cert.ReferenceIdeal.RR.Rit4_writes v59_5 (by decide) (by decide)
  have arg5_6 := Agree.keep Cert.KernelIdeal.KV.Kit4_writes Cert.ReferenceIdeal.RR.Rit4_writes arg5_5 (by decide) (by decide)
  have arg6_6 := Agree.keep Cert.KernelIdeal.KV.Kit4_writes Cert.ReferenceIdeal.RR.Rit4_writes arg6_5 (by decide) (by decide)
  have arg2_6 := Agree.keep Cert.KernelIdeal.KV.Kit4_writes Cert.ReferenceIdeal.RR.Rit4_writes arg2_5 (by decide) (by decide)
  have arg7_6 := Agree.keep Cert.KernelIdeal.KV.Kit4_writes Cert.ReferenceIdeal.RR.Rit4_writes arg7_5 (by decide) (by decide)
  have arg8_6 := Agree.keep Cert.KernelIdeal.KV.Kit4_writes Cert.ReferenceIdeal.RR.Rit4_writes arg8_5 (by decide) (by decide)
  have arg9_6 := Agree.keep Cert.KernelIdeal.KV.Kit4_writes Cert.ReferenceIdeal.RR.Rit4_writes arg9_5 (by decide) (by decide)
  have arg10_6 := Agree.keep Cert.KernelIdeal.KV.Kit4_writes Cert.ReferenceIdeal.RR.Rit4_writes arg10_5 (by decide) (by decide)
  have pat_6 := (Cert.KernelIdeal.KV.Kit4_keeps _ (r := Cert.KernelIdeal.main_v65) (by decide)).trans pat_5
  have tp0_6 := Agree.keep Cert.KernelIdeal.KV.Kit4_writes Cert.ReferenceIdeal.RR.Rit4_writes tp0_5 (by decide) (by decide)
  have tn0_6 := Agree.keep Cert.KernelIdeal.KV.Kit4_writes Cert.ReferenceIdeal.RR.Rit4_writes tn0_5 (by decide) (by decide)
  have tp1_6 := Agree.keep Cert.KernelIdeal.KV.Kit4_writes Cert.ReferenceIdeal.RR.Rit4_writes tp1_5 (by decide) (by decide)
  have tn1_6 := Agree.keep Cert.KernelIdeal.KV.Kit4_writes Cert.ReferenceIdeal.RR.Rit4_writes tn1_5 (by decide) (by decide)
  have tp2_6 := Agree.keep Cert.KernelIdeal.KV.Kit4_writes Cert.ReferenceIdeal.RR.Rit4_writes tp2_5 (by decide) (by decide)
  have tn2_6 := Agree.keep Cert.KernelIdeal.KV.Kit4_writes Cert.ReferenceIdeal.RR.Rit4_writes tn2_5 (by decide) (by decide)
  have tp3_6 := Agree.keep Cert.KernelIdeal.KV.Kit4_writes Cert.ReferenceIdeal.RR.Rit4_writes tp3_5 (by decide) (by decide)
  have tn3_6 := Agree.keep Cert.KernelIdeal.KV.Kit4_writes Cert.ReferenceIdeal.RR.Rit4_writes tn3_5 (by decide) (by decide)
  -- layer 6
  obtain ⟨hp_7, hn_7, tp5_7, tn5_7⟩ := step5 _ _ hp_6 hn_6 arg5_6 arg6_6 v3_6 v6_6 v29_6 v33_6 v36_6 v59_6 pat_6
  have v3_7 := Agree.keep Cert.KernelIdeal.KV.Kit5_writes Cert.ReferenceIdeal.RR.Rit5_writes v3_6 (by decide) (by decide)
  have v6_7 := Agree.keep Cert.KernelIdeal.KV.Kit5_writes Cert.ReferenceIdeal.RR.Rit5_writes v6_6 (by decide) (by decide)
  have v29_7 := Agree.keep Cert.KernelIdeal.KV.Kit5_writes Cert.ReferenceIdeal.RR.Rit5_writes v29_6 (by decide) (by decide)
  have v33_7 := Agree.keep Cert.KernelIdeal.KV.Kit5_writes Cert.ReferenceIdeal.RR.Rit5_writes v33_6 (by decide) (by decide)
  have v36_7 := Agree.keep Cert.KernelIdeal.KV.Kit5_writes Cert.ReferenceIdeal.RR.Rit5_writes v36_6 (by decide) (by decide)
  have v59_7 := Agree.keep Cert.KernelIdeal.KV.Kit5_writes Cert.ReferenceIdeal.RR.Rit5_writes v59_6 (by decide) (by decide)
  have arg5_7 := Agree.keep Cert.KernelIdeal.KV.Kit5_writes Cert.ReferenceIdeal.RR.Rit5_writes arg5_6 (by decide) (by decide)
  have arg6_7 := Agree.keep Cert.KernelIdeal.KV.Kit5_writes Cert.ReferenceIdeal.RR.Rit5_writes arg6_6 (by decide) (by decide)
  have arg2_7 := Agree.keep Cert.KernelIdeal.KV.Kit5_writes Cert.ReferenceIdeal.RR.Rit5_writes arg2_6 (by decide) (by decide)
  have arg7_7 := Agree.keep Cert.KernelIdeal.KV.Kit5_writes Cert.ReferenceIdeal.RR.Rit5_writes arg7_6 (by decide) (by decide)
  have arg8_7 := Agree.keep Cert.KernelIdeal.KV.Kit5_writes Cert.ReferenceIdeal.RR.Rit5_writes arg8_6 (by decide) (by decide)
  have arg9_7 := Agree.keep Cert.KernelIdeal.KV.Kit5_writes Cert.ReferenceIdeal.RR.Rit5_writes arg9_6 (by decide) (by decide)
  have arg10_7 := Agree.keep Cert.KernelIdeal.KV.Kit5_writes Cert.ReferenceIdeal.RR.Rit5_writes arg10_6 (by decide) (by decide)
  have pat_7 := (Cert.KernelIdeal.KV.Kit5_keeps _ (r := Cert.KernelIdeal.main_v65) (by decide)).trans pat_6
  have tp0_7 := Agree.keep Cert.KernelIdeal.KV.Kit5_writes Cert.ReferenceIdeal.RR.Rit5_writes tp0_6 (by decide) (by decide)
  have tn0_7 := Agree.keep Cert.KernelIdeal.KV.Kit5_writes Cert.ReferenceIdeal.RR.Rit5_writes tn0_6 (by decide) (by decide)
  have tp1_7 := Agree.keep Cert.KernelIdeal.KV.Kit5_writes Cert.ReferenceIdeal.RR.Rit5_writes tp1_6 (by decide) (by decide)
  have tn1_7 := Agree.keep Cert.KernelIdeal.KV.Kit5_writes Cert.ReferenceIdeal.RR.Rit5_writes tn1_6 (by decide) (by decide)
  have tp2_7 := Agree.keep Cert.KernelIdeal.KV.Kit5_writes Cert.ReferenceIdeal.RR.Rit5_writes tp2_6 (by decide) (by decide)
  have tn2_7 := Agree.keep Cert.KernelIdeal.KV.Kit5_writes Cert.ReferenceIdeal.RR.Rit5_writes tn2_6 (by decide) (by decide)
  have tp3_7 := Agree.keep Cert.KernelIdeal.KV.Kit5_writes Cert.ReferenceIdeal.RR.Rit5_writes tp3_6 (by decide) (by decide)
  have tn3_7 := Agree.keep Cert.KernelIdeal.KV.Kit5_writes Cert.ReferenceIdeal.RR.Rit5_writes tn3_6 (by decide) (by decide)
  have tp4_7 := Agree.keep Cert.KernelIdeal.KV.Kit5_writes Cert.ReferenceIdeal.RR.Rit5_writes tp4_6 (by decide) (by decide)
  have tn4_7 := Agree.keep Cert.KernelIdeal.KV.Kit5_writes Cert.ReferenceIdeal.RR.Rit5_writes tn4_6 (by decide) (by decide)
  -- layer 7
  obtain ⟨hp_8, hn_8, tp6_8, tn6_8⟩ := step6 _ _ hp_7 hn_7 arg5_7 arg6_7 v3_7 v6_7 v29_7 v33_7 v36_7 v59_7 pat_7
  have v3_8 := Agree.keep Cert.KernelIdeal.KV.Kit6_writes Cert.ReferenceIdeal.RR.Rit6_writes v3_7 (by decide) (by decide)
  have v6_8 := Agree.keep Cert.KernelIdeal.KV.Kit6_writes Cert.ReferenceIdeal.RR.Rit6_writes v6_7 (by decide) (by decide)
  have v29_8 := Agree.keep Cert.KernelIdeal.KV.Kit6_writes Cert.ReferenceIdeal.RR.Rit6_writes v29_7 (by decide) (by decide)
  have v33_8 := Agree.keep Cert.KernelIdeal.KV.Kit6_writes Cert.ReferenceIdeal.RR.Rit6_writes v33_7 (by decide) (by decide)
  have v36_8 := Agree.keep Cert.KernelIdeal.KV.Kit6_writes Cert.ReferenceIdeal.RR.Rit6_writes v36_7 (by decide) (by decide)
  have v59_8 := Agree.keep Cert.KernelIdeal.KV.Kit6_writes Cert.ReferenceIdeal.RR.Rit6_writes v59_7 (by decide) (by decide)
  have arg5_8 := Agree.keep Cert.KernelIdeal.KV.Kit6_writes Cert.ReferenceIdeal.RR.Rit6_writes arg5_7 (by decide) (by decide)
  have arg6_8 := Agree.keep Cert.KernelIdeal.KV.Kit6_writes Cert.ReferenceIdeal.RR.Rit6_writes arg6_7 (by decide) (by decide)
  have arg2_8 := Agree.keep Cert.KernelIdeal.KV.Kit6_writes Cert.ReferenceIdeal.RR.Rit6_writes arg2_7 (by decide) (by decide)
  have arg7_8 := Agree.keep Cert.KernelIdeal.KV.Kit6_writes Cert.ReferenceIdeal.RR.Rit6_writes arg7_7 (by decide) (by decide)
  have arg8_8 := Agree.keep Cert.KernelIdeal.KV.Kit6_writes Cert.ReferenceIdeal.RR.Rit6_writes arg8_7 (by decide) (by decide)
  have arg9_8 := Agree.keep Cert.KernelIdeal.KV.Kit6_writes Cert.ReferenceIdeal.RR.Rit6_writes arg9_7 (by decide) (by decide)
  have arg10_8 := Agree.keep Cert.KernelIdeal.KV.Kit6_writes Cert.ReferenceIdeal.RR.Rit6_writes arg10_7 (by decide) (by decide)
  have pat_8 := (Cert.KernelIdeal.KV.Kit6_keeps _ (r := Cert.KernelIdeal.main_v65) (by decide)).trans pat_7
  have tp0_8 := Agree.keep Cert.KernelIdeal.KV.Kit6_writes Cert.ReferenceIdeal.RR.Rit6_writes tp0_7 (by decide) (by decide)
  have tn0_8 := Agree.keep Cert.KernelIdeal.KV.Kit6_writes Cert.ReferenceIdeal.RR.Rit6_writes tn0_7 (by decide) (by decide)
  have tp1_8 := Agree.keep Cert.KernelIdeal.KV.Kit6_writes Cert.ReferenceIdeal.RR.Rit6_writes tp1_7 (by decide) (by decide)
  have tn1_8 := Agree.keep Cert.KernelIdeal.KV.Kit6_writes Cert.ReferenceIdeal.RR.Rit6_writes tn1_7 (by decide) (by decide)
  have tp2_8 := Agree.keep Cert.KernelIdeal.KV.Kit6_writes Cert.ReferenceIdeal.RR.Rit6_writes tp2_7 (by decide) (by decide)
  have tn2_8 := Agree.keep Cert.KernelIdeal.KV.Kit6_writes Cert.ReferenceIdeal.RR.Rit6_writes tn2_7 (by decide) (by decide)
  have tp3_8 := Agree.keep Cert.KernelIdeal.KV.Kit6_writes Cert.ReferenceIdeal.RR.Rit6_writes tp3_7 (by decide) (by decide)
  have tn3_8 := Agree.keep Cert.KernelIdeal.KV.Kit6_writes Cert.ReferenceIdeal.RR.Rit6_writes tn3_7 (by decide) (by decide)
  have tp4_8 := Agree.keep Cert.KernelIdeal.KV.Kit6_writes Cert.ReferenceIdeal.RR.Rit6_writes tp4_7 (by decide) (by decide)
  have tn4_8 := Agree.keep Cert.KernelIdeal.KV.Kit6_writes Cert.ReferenceIdeal.RR.Rit6_writes tn4_7 (by decide) (by decide)
  have tp5_8 := Agree.keep Cert.KernelIdeal.KV.Kit6_writes Cert.ReferenceIdeal.RR.Rit6_writes tp5_7 (by decide) (by decide)
  have tn5_8 := Agree.keep Cert.KernelIdeal.KV.Kit6_writes Cert.ReferenceIdeal.RR.Rit6_writes tn5_7 (by decide) (by decide)
  exact tail _ _ tp0_8 tp1_8 tp2_8 tp3_8 tp4_8 tp5_8 tp6_8 tn0_8 tn1_8 tn2_8 tn3_8 tn4_8 tn5_8 tn6_8 arg2_8 arg7_8 arg8_8 arg9_8 arg10_8

end Cert.Proof.Br

end
-- ==== Proof.KFin0.lean ====
/-
  What the weight-product region leaves in its output array, as one function of the arrays it finds: entry (P, q) is the
  sum over k of feature (P, k) times weight (k, q). Grid point t works on rows 4096·t … 4096·t + 4095: its block of the
  feature array is those rows, the weight block is the whole matrix at every point, and the block it writes back is rows
  4096·t … of that product; the eight blocks tile the 32768 rows.
-/
import proofs.«156722_j77687368450207_1_alg».proof.Proof.KReg0
import proofs.«156722_j77687368450207_1_alg».proof.Proof.MathK
import proofs.«156722_j77687368450207_1_alg».proof.Proof.KSpec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's product at an entry of the block. -/
theorem pay0 (x0 : Vec Ideal S4096x128 .f32) (x1 : Vec Ideal S128x128 .f32) (j : S4096x128.Idx) :
    Gen.k0_pay1 x0 x1 j = ∑ k : Fin 128, x0 (ix2 (j 0) k) * x1 (ix2 k (j 1)) := by
  rw [eq_ix2 j]; exact KM.pay_mm0 x0 x1 _ _

/-- The index maps over the grid: the feature block and the output block are block t of their arrays, the weight block
    is block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region finds. -/
theorem flushed0_2_eq (c : Dev nD) (t : Fin cfg0.N) :
    (dat0 V c).flushed 2 t = ((cfg0.win 2).blk t).view.read (Elt Ideal) (mmG (V c main_arg0) (V c main_arg5)) := by
  show (cfg0.win 2).cut (grid0.coords t) ((dat0 V c).after 2 t) = _
  rw [after0_2]
  unfold out0_2
  rw [View.canon_unit_zero hz2]
  simp only [View.ld_unit_zero (S := S4096x128) hz2, View.ld_unit_zero (S := S128x128) hz2]
  obtain ⟨e0, e1, e2, e3, e4, e5⟩ := idx_facts0 t
  funext j
  refine (pay0 _ _ j).trans ?_
  show _ = mmG (V c main_arg0) (V c main_arg5) (((cfg0.win 2).blk t).view.emb j)
  unfold mmG
  refine Finset.sum_congr rfl fun k _ => ?_
  refine congrArg₂ (· * ·) ?_ ?_
  · show (V c main_arg0 : S32768x128.Idx → EReal) (((cfg0.win 0).blk t).view.emb (ix2 (j 0) k)) = _
    refine congrArg (V c main_arg0 : S32768x128.Idx → EReal) ?_
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * k.val = k.val; omega
  · show (V c main_arg5 : S128x128.Idx → EReal) (((cfg0.win 1).blk t).view.emb (ix2 k (j 1))) = _
    refine congrArg (V c main_arg5 : S128x128.Idx → EReal) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range. -/
theorem mem_blk0_2 (t : Fin cfg0.N) (i : S32768x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v66).slice (win0_2.rect t)).set ↔ _
  rw [View.set_slice_whole, Rect.mem_set_unit]
  exact Iff.rfl

/-- Row r of the output is in the block of point r / 4096. -/
theorem covered0_2 (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  have hN : cfg0.N = 8 := N_0
  refine ⟨⟨(i 0).val / 4096, by rw [hN]; omega⟩, flush0_2 _, ?_⟩
  rw [mem_blk0_2]
  obtain ⟨e0, e1, e2, e3, e4, e5⟩ := idx_facts0 ⟨(i 0).val / 4096, by rw [hN]; omega⟩
  intro a
  match a with
  | ⟨0, _⟩ => show win0_2.index _ (0 : Fin 2) * 4096 ≤ (i 0).val ∧ (i 0).val < win0_2.index _ (0 : Fin 2) * 4096 + 4096; rw [e4]; show (i 0).val / 4096 * 4096 ≤ (i 0).val ∧ (i 0).val < (i 0).val / 4096 * 4096 + 4096; omega
  | ⟨1, _⟩ => show win0_2.index _ (1 : Fin 2) * 128 ≤ (i 1).val ∧ (i 1).val < win0_2.index _ (1 : Fin 2) * 128 + 128; rw [e5]; omega

/-- The output array after the region: the product of the arrays the region finds. -/
theorem final0_2 (c : Dev nD) : (dat0 V c).arrAt 2 cfg0.N = mmG (V c main_arg0) (V c main_arg5) :=
  (dat0 V c).arrAt_eq_of_cover 2 _ (fun t _ => flushed0_2_eq V c t) covered0_2

end Cert.KernelIdeal.KV

end
-- ==== Proof.KFin1.lean ====
/-
  What bias-and-trace region 1 leaves in its two output arrays, as functions of the arrays it finds. First output: entry
  (P, q) is row-block entry (P, q) plus bias (0, q). Second output: entry (B, l) is, for the 128-row batch B, the double sum
  over i, j of (entry (128·B + i, j) + bias (0, j)) times pattern (i, j), the same in every lane l. Grid point t works on rows
  4096·t … 4096·t + 4095, that is batches 32·t … 32·t + 31; the bias row and the pattern are one block at every point; the
  eight written blocks tile each output.
-/
import proofs.«156722_j77687368450207_1_alg».proof.Proof.KReg1
import proofs.«156722_j77687368450207_1_alg».proof.Proof.KFin0
import proofs.«156722_j77687368450207_1_alg».proof.Proof.KSpec
import proofs.«156722_j77687368450207_1_alg».proof.Proof.MathK
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The bias step at entry (p, q) of the block. -/
theorem paybx1 (x0 : Vec Ideal S4096x128 .f32) (x1 : Vec Ideal S1x128 .f32) (p : Fin 4096) (q : Fin 128) :
    Gen.k1_pay1 x0 x1 (ix2 p q) = x0 (ix2 p q) + x1 (ix2 (0 : Fin 1) q) :=
  KM.bias_apply x0 x1 _ _ _ p q

theorem payb1 (x0 : Vec Ideal S4096x128 .f32) (x1 : Vec Ideal S1x128 .f32) (j : S4096x128.Idx) :
    Gen.k1_pay1 x0 x1 j = x0 (ix2 (j 0) (j 1)) + x1 (ix2 (0 : Fin 1) (j 1)) := by
  rw [eq_ix2 j]; exact paybx1 x0 x1 _ _

/-- The trace step at (s, l): the double sum, over batch s, of the biased rows times the pattern. -/
theorem paytx1 (x0 : Vec Ideal S4096x128 .f32) (x1 : Vec Ideal S1x128 .f32) (x2 : Vec Ideal S128x128 .f32)
    (s : Fin 32) (l : Fin 128) :
    Gen.k1_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (KM.trace_apply (Gen.k1_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [paybx1]

theorem payt1 (x0 : Vec Ideal S4096x128 .f32) (x1 : Vec Ideal S1x128 .f32) (x2 : Vec Ideal S128x128 .f32) (j : S32x128.Idx) :
    Gen.k1_pay2 x0 x1 x2 j
      = ∑ p : Fin 128, ∑ q : Fin 128,
          (x0 (ix2 ⟨(j 0).val * 128 + p.val, by have h : (j 0).val < 32 := (j 0).isLt; omega⟩ q) + x1 (ix2 (0 : Fin 1) q)) * x2 (ix2 p q) := by
  rw [eq_ix2 j]; exact paytx1 x0 x1 x2 _ _

/-- The index maps over the grid: the row block and both output blocks are block t of their arrays; the bias row and the
    pattern are block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t writes back to the first output is block t of the biased array. -/
theorem flushed1_3_eq (c : Dev nD) (t : Fin cfg1.N) :
    (dat1 V c).flushed 3 t = ((cfg1.win 3).blk t).view.read (Elt Ideal) (biasG (V c main_v79) (V c main_v80)) := by
  show (cfg1.win 3).cut (grid1.coords t) ((dat1 V c).after 3 t) = _
  rw [after1_3]
  unfold out1_3
  rw [View.canon_unit_zero hz2]
  simp only [View.ld_unit_zero (S := S4096x128) hz2, View.ld_unit_zero (S := S1x128) hz2]
  obtain ⟨e0, e1, e2, e3, e4, e5, e6, e7, e8, e9⟩ := idx_facts1 t
  funext j
  refine (payb1 _ _ j).trans ?_
  show _ = biasG (V c main_v79) (V c main_v80) (((cfg1.win 3).blk t).view.emb j)
  unfold biasG
  refine congrArg₂ (· + ·) ?_ ?_
  · show (V c main_v79 : S32768x128.Idx → EReal) (((cfg1.win 0).blk t).view.emb (ix2 (j 0) (j 1))) = _
    refine congrArg (V c main_v79 : S32768x128.Idx → EReal) ?_
    funext a; apply Fin.ext
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 128 + 1 * (j 1).val = win1_3.index t (1 : Fin 2) * 128 + 1 * (j 1).val; omega
  · show (V c main_v80 : S1x128.Idx → EReal) (((cfg1.win 1).blk t).view.emb (ix2 (0 : Fin 1) (j 1))) = _
    refine congrArg (V c main_v80 : S1x128.Idx → EReal) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega

/-- What point t writes back to the second output is block t of the batch traces. -/
theorem flushed1_4_eq (c : Dev nD) (t : Fin cfg1.N) :
    (dat1 V c).flushed 4 t = ((cfg1.win 4).blk t).view.read (Elt Ideal) (traceG (V c main_v79) (V c main_v80) (V c main_v65)) := by
  show (cfg1.win 4).cut (grid1.coords t) ((dat1 V c).after 4 t) = _
  rw [after1_4]
  unfold out1_4
  rw [View.canon_unit_zero hz2]
  simp only [View.ld_unit_zero (S := S4096x128) hz2, View.ld_unit_zero (S := S1x128) hz2, View.ld_unit_zero (S := S128x128) hz2]
  obtain ⟨e0, e1, e2, e3, e4, e5, e6, e7, e8, e9⟩ := idx_facts1 t
  funext j
  refine (payt1 _ _ _ j).trans ?_
  show _ = traceG (V c main_v79) (V c main_v80) (V c main_v65) (((cfg1.win 4).blk t).view.emb j)
  unfold traceG
  refine Finset.sum_congr rfl fun p _ => Finset.sum_congr rfl fun q _ => ?_
  refine congrArg₂ (· * ·) (congrArg₂ (· + ·) ?_ ?_) ?_
  · show (V c main_v79 : S32768x128.Idx → EReal) (((cfg1.win 0).blk t).view.emb (ix2 ⟨(j 0).val * 128 + p.val, _⟩ q)) = _
    refine congrArg (V c main_v79 : S32768x128.Idx → EReal) ?_
    funext a; apply Fin.ext
    match a with
    | ⟨0, _⟩ => show win1_0.index t (0 : Fin 2) * 4096 + 1 * ((j 0).val * 128 + p.val) = (win1_4.index t (0 : Fin 2) * 32 + 1 * (j 0).val) * 128 + p.val; omega
    | ⟨1, _⟩ => show win1_0.index t (1 : Fin 2) * 128 + 1 * q.val = q.val; omega
  · show (V c main_v80 : S1x128.Idx → EReal) (((cfg1.win 1).blk t).view.emb (ix2 (0 : Fin 1) q)) = _
    refine congrArg (V c main_v80 : S1x128.Idx → EReal) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  · show (V c main_v65 : S128x128.Idx → EReal) (((cfg1.win 2).blk t).view.emb (ix2 p q)) = _
    refine congrArg (V c main_v65 : S128x128.Idx → EReal) ?_
    funext a; apply Fin.ext
    match a with
    | ⟨0, _⟩ => show win1_2.index t (0 : Fin 2) * 128 + 1 * p.val = p.val; omega
    | ⟨1, _⟩ => show win1_2.index t (1 : Fin 2) * 128 + 1 * q.val = q.val; omega

/-- An index of the first output array is in point t's block iff each coordinate is in the block's range. -/
theorem mem_blk1_3 (t : Fin cfg1.N) (i : S32768x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v81_0).slice (win1_3.rect t)).set ↔ _
  rw [View.set_slice_whole, Rect.mem_set_unit]
  exact Iff.rfl

/-- Row r of the first output is in the block of point r / 4096. -/
theorem covered1_3 (i : S32768x128.Idx) : ∃ t : Fin cfg1.N, (cfg1.win 3).flush t = true ∧ i ∈ ((cfg1.win 3).blk t).view.set := by
  have hi0 : (i 0).val < 32768 := (i 0).isLt
  have hi1 : (i 1).val < 128 := (i 1).isLt
  have hN : cfg1.N = 8 := N_1
  refine ⟨⟨(i 0).val / 4096, by rw [hN]; omega⟩, flush1_3 _, ?_⟩
  rw [mem_blk1_3]
  obtain ⟨e0, e1, e2, e3, e4, e5, e6, e7, e8, e9⟩ := idx_facts1 ⟨(i 0).val / 4096, by rw [hN]; omega⟩
  intro a
  match a with
  | ⟨0, _⟩ => show win1_3.index _ (0 : Fin 2) * 4096 ≤ (i 0).val ∧ (i 0).val < win1_3.index _ (0 : Fin 2) * 4096 + 4096; rw [e6]; show (i 0).val / 4096 * 4096 ≤ (i 0).val ∧ (i 0).val < (i 0).val / 4096 * 4096 + 4096; omega
  | ⟨1, _⟩ => show win1_3.index _ (1 : Fin 2) * 128 ≤ (i 1).val ∧ (i 1).val < win1_3.index _ (1 : Fin 2) * 128 + 128; rw [e7]; omega

/-- An index of the second output array is in point t's block iff each coordinate is in the block's range. -/
theorem mem_blk1_4 (t : Fin cfg1.N) (i : S256x128.Idx) :
    i ∈ ((cfg1.win 4).blk t).view.set ↔ ∀ a : Fin 2, win1_4.index t a * S32x128.size a ≤ (i a).val ∧ (i a).val < win1_4.index t a * S32x128.size a + S32x128.size a := by
  show i ∈ ((View.whole main_v81_1).slice (win1_4.rect t)).set ↔ _
  rw [View.set_slice_whole, Rect.mem_set_unit]
  exact Iff.rfl

/-- Batch r of the second output is in the block of point r / 32. -/
theorem covered1_4 (i : S256x128.Idx) : ∃ t : Fin cfg1.N, (cfg1.win 4).flush t = true ∧ i ∈ ((cfg1.win 4).blk t).view.set := by
  have hi0 : (i 0).val < 256 := (i 0).isLt
  have hi1 : (i 1).val < 128 := (i 1).isLt
  have hN : cfg1.N = 8 := N_1
  refine ⟨⟨(i 0).val / 32, by rw [hN]; omega⟩, flush1_4 _, ?_⟩
  rw [mem_blk1_4]
  obtain ⟨e0, e1, e2, e3, e4, e5, e6, e7, e8, e9⟩ := idx_facts1 ⟨(i 0).val / 32, by rw [hN]; omega⟩
  intro a
  match a with
  | ⟨0, _⟩ => show win1_4.index _ (0 : Fin 2) * 32 ≤ (i 0).val ∧ (i 0).val < win1_4.index _ (0 : Fin 2) * 32 + 32; rw [e8]; show (i 0).val / 32 * 32 ≤ (i 0).val ∧ (i 0).val < (i 0).val / 32 * 32 + 32; omega
  | ⟨1, _⟩ => show win1_4.index _ (1 : Fin 2) * 128 ≤ (i 1).val ∧ (i 1).val < win1_4.index _ (1 : Fin 2) * 128 + 128; rw [e9]; omega

/-- The first output array after the region: the array it finds plus the bias row. -/
theorem final1_3 (c : Dev nD) : (dat1 V c).arrAt 3 cfg1.N = biasG (V c main_v79) (V c main_v80) :=
  (dat1 V c).arrAt_eq_of_cover 3 _ (fun t _ => flushed1_3_eq V c t) covered1_3

/-- The second output array after the region: the batch traces of the biased array against the pattern. -/
theorem final1_4 (c : Dev nD) : (dat1 V c).arrAt 4 cfg1.N = traceG (V c main_v79) (V c main_v80) (V c main_v65) :=
  (dat1 V c).arrAt_eq_of_cover 4 _ (fun t _ => flushed1_4_eq V c t) covered1_4

end Cert.KernelIdeal.KV

end
-- ==== Proof.KFin2.lean ====
/-
  What weight-product region 2 leaves in its output array, as one function of the arrays it finds: entry (P, q) is the
  sum over k of row-block entry (P, k) times weight (k, q). Grid point t works on rows 4096·t … 4096·t + 4095; the weight
  block is the whole matrix at every point; the eight written blocks tile the 32768 rows.
-/
import proofs.«156722_j77687368450207_1_alg».proof.Proof.KReg2
import proofs.«156722_j77687368450207_1_alg».proof.Proof.KFin0
import proofs.«156722_j77687368450207_1_alg».proof.Proof.MathK
import proofs.«156722_j77687368450207_1_alg».proof.Proof.KSpec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product at an entry of the block. -/
theorem pay2 (x0 : Vec Ideal S4096x128 .f32) (x1 : Vec Ideal S128x128 .f32) (j : S4096x128.Idx) :
    Gen.k2_pay1 x0 x1 j = ∑ k : Fin 128, x0 (ix2 (j 0) k) * x1 (ix2 k (j 1)) := by
  rw [eq_ix2 j]; exact KM.matmul_zero_cast_apply x0 x1 _ _ _ _

/-- The index maps over the grid: the feature block and the output block are block t of their arrays, the weight block
    is block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the region finds. -/
theorem flushed2_2_eq (c : Dev nD) (t : Fin cfg2.N) :
    (dat2 V c).flushed 2 t = ((cfg2.win 2).blk t).view.read (Elt Ideal) (mmG (V c main_v81_0) (V c main_arg5)) := by
  show (cfg2.win 2).cut (grid2.coords t) ((dat2 V c).after 2 t) = _
  rw [after2_2]
  unfold out2_2
  rw [View.canon_unit_zero hz2]
  simp only [View.ld_unit_zero (S := S4096x128) hz2, View.ld_unit_zero (S := S128x128) hz2]
  obtain ⟨e0, e1, e2, e3, e4, e5⟩ := idx_facts2 t
  funext j
  refine (pay2 _ _ j).trans ?_
  show _ = mmG (V c main_v81_0) (V c main_arg5) (((cfg2.win 2).blk t).view.emb j)
  unfold mmG
  refine Finset.sum_congr rfl fun k _ => ?_
  refine congrArg₂ (· * ·) ?_ ?_
  · show (V c main_v81_0 : S32768x128.Idx → EReal) (((cfg2.win 0).blk t).view.emb (ix2 (j 0) k)) = _
    refine congrArg (V c main_v81_0 : S32768x128.Idx → EReal) ?_
    funext a; apply Fin.ext
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 128 + 1 * k.val = k.val; omega
  · show (V c main_arg5 : S128x128.Idx → EReal) (((cfg2.win 1).blk t).view.emb (ix2 k (j 1))) = _
    refine congrArg (V c main_arg5 : S128x128.Idx → EReal) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range. -/
theorem mem_blk2_2 (t : Fin cfg2.N) (i : S32768x128.Idx) :
    i ∈ ((cfg2.win 2).blk t).view.set ↔ ∀ a : Fin 2, win2_2.index t a * S4096x128.size a ≤ (i a).val ∧ (i a).val < win2_2.index t a * S4096x128.size a + S4096x128.size a := by
  show i ∈ ((View.whole main_v102).slice (win2_2.rect t)).set ↔ _
  rw [View.set_slice_whole, Rect.mem_set_unit]
  exact Iff.rfl

/-- Row r of the output is in the block of point r / 4096. -/
theorem covered2_2 (i : S32768x128.Idx) : ∃ t : Fin cfg2.N, (cfg2.win 2).flush t = true ∧ i ∈ ((cfg2.win 2).blk t).view.set := by
  have hi0 : (i 0).val < 32768 := (i 0).isLt
  have hi1 : (i 1).val < 128 := (i 1).isLt
  have hN : cfg2.N = 8 := N_2
  refine ⟨⟨(i 0).val / 4096, by rw [hN]; omega⟩, flush2_2 _, ?_⟩
  rw [mem_blk2_2]
  obtain ⟨e0, e1, e2, e3, e4, e5⟩ := idx_facts2 ⟨(i 0).val / 4096, by rw [hN]; omega⟩
  intro a
  match a with
  | ⟨0, _⟩ => show win2_2.index _ (0 : Fin 2) * 4096 ≤ (i 0).val ∧ (i 0).val < win2_2.index _ (0 : Fin 2) * 4096 + 4096; rw [e4]; show (i 0).val / 4096 * 4096 ≤ (i 0).val ∧ (i 0).val < (i 0).val / 4096 * 4096 + 4096; omega
  | ⟨1, _⟩ => show win2_2.index _ (1 : Fin 2) * 128 ≤ (i 1).val ∧ (i 1).val < win2_2.index _ (1 : Fin 2) * 128 + 128; rw [e5]; omega

/-- The output array after the region: the product of the arrays the region finds. -/
theorem final2_2 (c : Dev nD) : (dat2 V c).arrAt 2 cfg2.N = mmG (V c main_v81_0) (V c main_arg5) :=
  (dat2 V c).arrAt_eq_of_cover 2 _ (fun t _ => flushed2_2_eq V c t) covered2_2

end Cert.KernelIdeal.KV

end
-- ==== Proof.KFin3.lean ====
/-
  What bias-and-trace region 3 leaves in its two output arrays, as functions of the arrays it finds. First output: entry
  (P, q) is row-block entry (P, q) plus bias (0, q). Second output: entry (B, l) is, for the 128-row batch B, the double sum
  over i, j of (entry (128·B + i, j) + bias (0, j)) times pattern (i, j), the same in every lane l. Grid point t works on rows
  4096·t … 4096·t + 4095, that is batches 32·t … 32·t + 31; the bias row and the pattern are one block at every point; the
  eight written blocks tile each output.
-/
import proofs.«156722_j77687368450207_1_alg».proof.Proof.KReg3
import proofs.«156722_j77687368450207_1_alg».proof.Proof.KFin0
import proofs.«156722_j77687368450207_1_alg».proof.Proof.KSpec
import proofs.«156722_j77687368450207_1_alg».proof.Proof.MathK
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The bias step at entry (p, q) of the block. -/
theorem paybx3 (x0 : Vec Ideal S4096x128 .f32) (x1 : Vec Ideal S1x128 .f32) (p : Fin 4096) (q : Fin 128) :
    Gen.k3_pay1 x0 x1 (ix2 p q) = x0 (ix2 p q) + x1 (ix2 (0 : Fin 1) q) :=
  KM.bias_apply x0 x1 _ _ _ p q

theorem payb3 (x0 : Vec Ideal S4096x128 .f32) (x1 : Vec Ideal S1x128 .f32) (j : S4096x128.Idx) :
    Gen.k3_pay1 x0 x1 j = x0 (ix2 (j 0) (j 1)) + x1 (ix2 (0 : Fin 1) (j 1)) := by
  rw [eq_ix2 j]; exact paybx3 x0 x1 _ _

/-- The trace step at (s, l): the double sum, over batch s, of the biased rows times the pattern. -/
theorem paytx3 (x0 : Vec Ideal S4096x128 .f32) (x1 : Vec Ideal S1x128 .f32) (x2 : Vec Ideal S128x128 .f32)
    (s : Fin 32) (l : Fin 128) :
    Gen.k3_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (KM.trace_apply (Gen.k3_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [paybx3]

theorem payt3 (x0 : Vec Ideal S4096x128 .f32) (x1 : Vec Ideal S1x128 .f32) (x2 : Vec Ideal S128x128 .f32) (j : S32x128.Idx) :
    Gen.k3_pay2 x0 x1 x2 j
      = ∑ p : Fin 128, ∑ q : Fin 128,
          (x0 (ix2 ⟨(j 0).val * 128 + p.val, by have h : (j 0).val < 32 := (j 0).isLt; omega⟩ q) + x1 (ix2 (0 : Fin 1) q)) * x2 (ix2 p q) := by
  rw [eq_ix2 j]; exact paytx3 x0 x1 x2 _ _

/-- The index maps over the grid: the row block and both output blocks are block t of their arrays; the bias row and the
    pattern are block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back to the first output is block t of the biased array. -/
theorem flushed3_3_eq (c : Dev nD) (t : Fin cfg3.N) :
    (dat3 V c).flushed 3 t = ((cfg3.win 3).blk t).view.read (Elt Ideal) (biasG (V c main_v115) (V c main_v116)) := by
  show (cfg3.win 3).cut (grid3.coords t) ((dat3 V c).after 3 t) = _
  rw [after3_3]
  unfold out3_3
  rw [View.canon_unit_zero hz2]
  simp only [View.ld_unit_zero (S := S4096x128) hz2, View.ld_unit_zero (S := S1x128) hz2]
  obtain ⟨e0, e1, e2, e3, e4, e5, e6, e7, e8, e9⟩ := idx_facts3 t
  funext j
  refine (payb3 _ _ j).trans ?_
  show _ = biasG (V c main_v115) (V c main_v116) (((cfg3.win 3).blk t).view.emb j)
  unfold biasG
  refine congrArg₂ (· + ·) ?_ ?_
  · show (V c main_v115 : S32768x128.Idx → EReal) (((cfg3.win 0).blk t).view.emb (ix2 (j 0) (j 1))) = _
    refine congrArg (V c main_v115 : S32768x128.Idx → EReal) ?_
    funext a; apply Fin.ext
    match a with
    | ⟨0, _⟩ => show win3_0.index t (0 : Fin 2) * 4096 + 1 * (j 0).val = win3_3.index t (0 : Fin 2) * 4096 + 1 * (j 0).val; omega
    | ⟨1, _⟩ => show win3_0.index t (1 : Fin 2) * 128 + 1 * (j 1).val = win3_3.index t (1 : Fin 2) * 128 + 1 * (j 1).val; omega
  · show (V c main_v116 : S1x128.Idx → EReal) (((cfg3.win 1).blk t).view.emb (ix2 (0 : Fin 1) (j 1))) = _
    refine congrArg (V c main_v116 : S1x128.Idx → EReal) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega

/-- What point t writes back to the second output is block t of the batch traces. -/
theorem flushed3_4_eq (c : Dev nD) (t : Fin cfg3.N) :
    (dat3 V c).flushed 4 t = ((cfg3.win 4).blk t).view.read (Elt Ideal) (traceG (V c main_v115) (V c main_v116) (V c main_v65)) := by
  show (cfg3.win 4).cut (grid3.coords t) ((dat3 V c).after 4 t) = _
  rw [after3_4]
  unfold out3_4
  rw [View.canon_unit_zero hz2]
  simp only [View.ld_unit_zero (S := S4096x128) hz2, View.ld_unit_zero (S := S1x128) hz2, View.ld_unit_zero (S := S128x128) hz2]
  obtain ⟨e0, e1, e2, e3, e4, e5, e6, e7, e8, e9⟩ := idx_facts3 t
  funext j
  refine (payt3 _ _ _ j).trans ?_
  show _ = traceG (V c main_v115) (V c main_v116) (V c main_v65) (((cfg3.win 4).blk t).view.emb j)
  unfold traceG
  refine Finset.sum_congr rfl fun p _ => Finset.sum_congr rfl fun q _ => ?_
  refine congrArg₂ (· * ·) (congrArg₂ (· + ·) ?_ ?_) ?_
  · show (V c main_v115 : S32768x128.Idx → EReal) (((cfg3.win 0).blk t).view.emb (ix2 ⟨(j 0).val * 128 + p.val, _⟩ q)) = _
    refine congrArg (V c main_v115 : S32768x128.Idx → EReal) ?_
    funext a; apply Fin.ext
    match a with
    | ⟨0, _⟩ => show win3_0.index t (0 : Fin 2) * 4096 + 1 * ((j 0).val * 128 + p.val) = (win3_4.index t (0 : Fin 2) * 32 + 1 * (j 0).val) * 128 + p.val; omega
    | ⟨1, _⟩ => show win3_0.index t (1 : Fin 2) * 128 + 1 * q.val = q.val; omega
  · show (V c main_v116 : S1x128.Idx → EReal) (((cfg3.win 1).blk t).view.emb (ix2 (0 : Fin 1) q)) = _
    refine congrArg (V c main_v116 : S1x128.Idx → EReal) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  · show (V c main_v65 : S128x128.Idx → EReal) (((cfg3.win 2).blk t).view.emb (ix2 p q)) = _
    refine congrArg (V c main_v65 : S128x128.Idx → EReal) ?_
    funext a; apply Fin.ext
    match a with
    | ⟨0, _⟩ => show win3_2.index t (0 : Fin 2) * 128 + 1 * p.val = p.val; omega
    | ⟨1, _⟩ => show win3_2.index t (1 : Fin 2) * 128 + 1 * q.val = q.val; omega

/-- An index of the first output array is in point t's block iff each coordinate is in the block's range. -/
theorem mem_blk3_3 (t : Fin cfg3.N) (i : S32768x128.Idx) :
    i ∈ ((cfg3.win 3).blk t).view.set ↔ ∀ a : Fin 2, win3_3.index t a * S4096x128.size a ≤ (i a).val ∧ (i a).val < win3_3.index t a * S4096x128.size a + S4096x128.size a := by
  show i ∈ ((View.whole main_v117_0).slice (win3_3.rect t)).set ↔ _
  rw [View.set_slice_whole, Rect.mem_set_unit]
  exact Iff.rfl

/-- Row r of the first output is in the block of point r / 4096. -/
theorem covered3_3 (i : S32768x128.Idx) : ∃ t : Fin cfg3.N, (cfg3.win 3).flush t = true ∧ i ∈ ((cfg3.win 3).blk t).view.set := by
  have hi0 : (i 0).val < 32768 := (i 0).isLt
  have hi1 : (i 1).val < 128 := (i 1).isLt
  have hN : cfg3.N = 8 := N_3
  refine ⟨⟨(i 0).val / 4096, by rw [hN]; omega⟩, flush3_3 _, ?_⟩
  rw [mem_blk3_3]
  obtain ⟨e0, e1, e2, e3, e4, e5, e6, e7, e8, e9⟩ := idx_facts3 ⟨(i 0).val / 4096, by rw [hN]; omega⟩
  intro a
  match a with
  | ⟨0, _⟩ => show win3_3.index _ (0 : Fin 2) * 4096 ≤ (i 0).val ∧ (i 0).val < win3_3.index _ (0 : Fin 2) * 4096 + 4096; rw [e6]; show (i 0).val / 4096 * 4096 ≤ (i 0).val ∧ (i 0).val < (i 0).val / 4096 * 4096 + 4096; omega
  | ⟨1, _⟩ => show win3_3.index _ (1 : Fin 2) * 128 ≤ (i 1).val ∧ (i 1).val < win3_3.index _ (1 : Fin 2) * 128 + 128; rw [e7]; omega

/-- An index of the second output array is in point t's block iff each coordinate is in the block's range. -/
theorem mem_blk3_4 (t : Fin cfg3.N) (i : S256x128.Idx) :
    i ∈ ((cfg3.win 4).blk t).view.set ↔ ∀ a : Fin 2, win3_4.index t a * S32x128.size a ≤ (i a).val ∧ (i a).val < win3_4.index t a * S32x128.size a + S32x128.size a := by
  show i ∈ ((View.whole main_v117_1).slice (win3_4.rect t)).set ↔ _
  rw [View.set_slice_whole, Rect.mem_set_unit]
  exact Iff.rfl

/-- Batch r of the second output is in the block of point r / 32. -/
theorem covered3_4 (i : S256x128.Idx) : ∃ t : Fin cfg3.N, (cfg3.win 4).flush t = true ∧ i ∈ ((cfg3.win 4).blk t).view.set := by
  have hi0 : (i 0).val < 256 := (i 0).isLt
  have hi1 : (i 1).val < 128 := (i 1).isLt
  have hN : cfg3.N = 8 := N_3
  refine ⟨⟨(i 0).val / 32, by rw [hN]; omega⟩, flush3_4 _, ?_⟩
  rw [mem_blk3_4]
  obtain ⟨e0, e1, e2, e3, e4, e5, e6, e7, e8, e9⟩ := idx_facts3 ⟨(i 0).val / 32, by rw [hN]; omega⟩
  intro a
  match a with
  | ⟨0, _⟩ => show win3_4.index _ (0 : Fin 2) * 32 ≤ (i 0).val ∧ (i 0).val < win3_4.index _ (0 : Fin 2) * 32 + 32; rw [e8]; show (i 0).val / 32 * 32 ≤ (i 0).val ∧ (i 0).val < (i 0).val / 32 * 32 + 32; omega
  | ⟨1, _⟩ => show win3_4.index _ (1 : Fin 2) * 128 ≤ (i 1).val ∧ (i 1).val < win3_4.index _ (1 : Fin 2) * 128 + 128; rw [e9]; omega

/-- The first output array after the region: the array it finds plus the bias row. -/
theorem final3_3 (c : Dev nD) : (dat3 V c).arrAt 3 cfg3.N = biasG (V c main_v115) (V c main_v116) :=
  (dat3 V c).arrAt_eq_of_cover 3 _ (fun t _ => flushed3_3_eq V c t) covered3_3

/-- The second output array after the region: the batch traces of the biased array against the pattern. -/
theorem final3_4 (c : Dev nD) : (dat3 V c).arrAt 4 cfg3.N = traceG (V c main_v115) (V c main_v116) (V c main_v65) :=
  (dat3 V c).arrAt_eq_of_cover 4 _ (fun t _ => flushed3_4_eq V c t) covered3_4

end Cert.KernelIdeal.KV

end
-- ==== Proof.KFin4.lean ====
/-
  What weight-product region 4 leaves in its output array, as one function of the arrays it finds: entry (P, q) is the
  sum over k of row-block entry (P, k) times weight (k, q). Grid point t works on rows 4096·t … 4096·t + 4095; the weight
  block is the whole matrix at every point; the eight written blocks tile the 32768 rows.
-/
import proofs.«156722_j77687368450207_1_alg».proof.Proof.KReg4
import proofs.«156722_j77687368450207_1_alg».proof.Proof.KFin0
import proofs.«156722_j77687368450207_1_alg».proof.Proof.MathK
import proofs.«156722_j77687368450207_1_alg».proof.Proof.KSpec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product at an entry of the block. -/
theorem pay4 (x0 : Vec Ideal S4096x128 .f32) (x1 : Vec Ideal S128x128 .f32) (j : S4096x128.Idx) :
    Gen.k4_pay1 x0 x1 j = ∑ k : Fin 128, x0 (ix2 (j 0) k) * x1 (ix2 k (j 1)) := by
  rw [eq_ix2 j]; exact KM.matmul_zero_cast_apply x0 x1 _ _ _ _

/-- The index maps over the grid: the feature block and the output block are block t of their arrays, the weight block
    is block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the arrays the region finds. -/
theorem flushed4_2_eq (c : Dev nD) (t : Fin cfg4.N) :
    (dat4 V c).flushed 2 t = ((cfg4.win 2).blk t).view.read (Elt Ideal) (mmG (V c main_v117_0) (V c main_arg5)) := by
  show (cfg4.win 2).cut (grid4.coords t) ((dat4 V c).after 2 t) = _
  rw [after4_2]
  unfold out4_2
  rw [View.canon_unit_zero hz2]
  simp only [View.ld_unit_zero (S := S4096x128) hz2, View.ld_unit_zero (S := S128x128) hz2]
  obtain ⟨e0, e1, e2, e3, e4, e5⟩ := idx_facts4 t
  funext j
  refine (pay4 _ _ j).trans ?_
  show _ = mmG (V c main_v117_0) (V c main_arg5) (((cfg4.win 2).blk t).view.emb j)
  unfold mmG
  refine Finset.sum_congr rfl fun k _ => ?_
  refine congrArg₂ (· * ·) ?_ ?_
  · show (V c main_v117_0 : S32768x128.Idx → EReal) (((cfg4.win 0).blk t).view.emb (ix2 (j 0) k)) = _
    refine congrArg (V c main_v117_0 : S32768x128.Idx → EReal) ?_
    funext a; apply Fin.ext
    match a with
    | ⟨0, _⟩ => show win4_0.index t (0 : Fin 2) * 4096 + 1 * (j 0).val = win4_2.index t (0 : Fin 2) * 4096 + 1 * (j 0).val; omega
    | ⟨1, _⟩ => show win4_0.index t (1 : Fin 2) * 128 + 1 * k.val = k.val; omega
  · show (V c main_arg5 : S128x128.Idx → EReal) (((cfg4.win 1).blk t).view.emb (ix2 k (j 1))) = _
    refine congrArg (V c main_arg5 : S128x128.Idx → EReal) ?_
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the output array is in point t's block iff each coordinate is in the block's range. -/
theorem mem_blk4_2 (t : Fin cfg4.N) (i : S32768x128.Idx) :
    i ∈ ((cfg4.win 2).blk t).view.set ↔ ∀ a : Fin 2, win4_2.index t a * S4096x128.size a ≤ (i a).val ∧ (i a).val < win4_2.index t a * S4096x128.size a + S4096x128.size a := by
  show i ∈ ((View.whole main_v138).slice (win4_2.rect t)).set ↔ _
  rw [View.set_slice_whole, Rect.mem_set_unit]
  exact Iff.rfl

/-- Row r of the output is in the block of point r / 4096. -/
theorem covered4_2 (i : S32768x128.Idx) : ∃ t : Fin cfg4.N, (cfg4.win 2).flush t = true ∧ i ∈ ((cfg4.win 2).blk t).view.set := by
  have hi0 : (i 0).val < 32768 := (i 0).isLt
  have hi1 : (i 1).val < 128 := (i 1).isLt
  have hN : cfg4.N = 8 := N_4
  refine ⟨⟨(i 0).val / 4096, by rw [hN]; omega⟩, flush4_2 _, ?_⟩
  rw [mem_blk4_2]
  obtain ⟨e0, e1, e2, e3, e4, e5⟩ := idx_facts4 ⟨(i 0).val / 4096, by rw [hN]; omega⟩
  intro a
  match a with
  | ⟨0, _⟩ => show win4_2.index _ (0 : Fin 2) * 4096 ≤ (i 0).val ∧ (i 0).val < win4_2.index _ (0 : Fin 2) * 4096 + 4096; rw [e4]; show (i 0).val / 4096 * 4096 ≤ (i 0).val ∧ (i 0).val < (i 0).val / 4096 * 4096 + 4096; omega
  | ⟨1, _⟩ => show win4_2.index _ (1 : Fin 2) * 128 ≤ (i 1).val ∧ (i 1).val < win4_2.index _ (1 : Fin 2) * 128 + 128; rw [e5]; omega

/-- The output array after the region: the product of the arrays the region finds. -/
theorem final4_2 (c : Dev nD) : (dat4 V c).arrAt 2 cfg4.N = mmG (V c main_v117_0) (V c main_arg5) :=
  (dat4 V c).arrAt_eq_of_cover 2 _ (fun t _ => flushed4_2_eq V c t) covered4_2

end Cert.KernelIdeal.KV

end
-- ==== Proof.KFin5.lean ====
/-
  What bias-and-trace region 5 leaves in its two output arrays, as functions of the arrays it finds. First output: entry
  (P, q) is row-block entry (P, q) plus bias (0, q). Second output: entry (B, l) is, for the 128-row batch B, the double sum
  over i, j of (entry (128·B + i, j) + bias (0, j)) times pattern (i, j), the same in every lane l. Grid point t works on rows
  4096·t … 4096·t + 4095, that is batches 32·t … 32·t + 31; the bias row and the pattern are one block at every point; the
  eight written blocks tile each output.
-/
import proofs.«156722_j77687368450207_1_alg».proof.Proof.KReg5
import proofs.«156722_j77687368450207_1_alg».proof.Proof.KFin0
import proofs.«156722_j77687368450207_1_alg».proof.Proof.KSpec
import proofs.«156722_j77687368450207_1_alg».proof.Proof.MathK
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The bias step at entry (p, q) of the block. -/
theorem paybx5 (x0 : Vec Ideal S4096x128 .f32) (x1 : Vec Ideal S1x128 .f32) (p : Fin 4096) (q : Fin 128) :
    Gen.k5_pay1 x0 x1 (ix2 p q) = x0 (ix2 p q) + x1 (ix2 (0 : Fin 1) q) :=
  KM.bias_apply x0 x1 _ _ _ p q

theorem payb5 (x0 : Vec Ideal S4096x128 .f32) (x1 : Vec Ideal S1x128 .f32) (j : S4096x128.Idx) :
    Gen.k5_pay1 x0 x1 j = x0 (ix2 (j 0) (j 1)) + x1 (ix2 (0 : Fin 1) (j 1)) := by
  rw [eq_ix2 j]; exact paybx5 x0 x1 _ _

/-- The trace step at (s, l): the double sum, over batch s, of the biased rows times the pattern. -/
theorem paytx5 (x0 : Vec Ideal S4096x128 .f32) (x1 : Vec Ideal S1x128 .f32) (x2 : Vec Ideal S128x128 .f32)
    (s : Fin 32) (l : Fin 128) :
    Gen.k5_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (KM.trace_apply (Gen.k5_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [paybx5]

theorem payt5 (x0 : Vec Ideal S4096x128 .f32) (x1 : Vec Ideal S1x128 .f32) (x2 : Vec Ideal S128x128 .f32) (j : S32x128.Idx) :
    Gen.k5_pay2 x0 x1 x2 j
      = ∑ p : Fin 128, ∑ q : Fin 128,
          (x0 (ix2 ⟨(j 0).val * 128 + p.val, by have h : (j 0).val < 32 := (j 0).isLt; omega⟩ q) + x1 (ix2 (0 : Fin 1) q)) * x2 (ix2 p q) := by
  rw [eq_ix2 j]; exact paytx5 x0 x1 x2 _ _

/-- The index maps over the grid: the row block and both output blocks are block t of their arrays; the bias row and the
    pattern are block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- What point t writes back to the first output is block t of the biased array. -/
theorem flushed5_3_eq (c : Dev nD) (t : Fin cfg5.N) :
    (dat5 V c).flushed 3 t = ((cfg5.win 3).blk t).view.read (Elt Ideal) (biasG (V c main_v151) (V c main_v152)) := by
  show (cfg5.win 3).cut (grid5.coords t) ((dat5 V c).after 3 t) = _
  rw [after5_3]
  unfold out5_3
  rw [View.canon_unit_zero hz2]
  simp only [View.ld_unit_zero (S := S4096x128) hz2, View.ld_unit_zero (S := S1x128) hz2]
  obtain ⟨e0, e1, e2, e3, e4, e5, e6, e7, e8, e9⟩ := idx_facts5 t
  funext j
  refine (payb5 _ _ j).trans ?_
  show _ = biasG (V c main_v151) (V c main_v152) (((cfg5.win 3).blk t).view.emb j)
  unfold biasG
  refine congrArg₂ (· + ·) ?_ ?_
  · show (V c main_v151 : S32768x128.Idx → EReal) (((cfg5.win 0).blk t).view.emb (ix2 (j 0) (j 1))) = _
    refine congrArg (V c main_v151 : S32768x128.Idx → EReal) ?_
    funext a; apply Fin.ext
    match a with
    | ⟨0, _⟩ => show win5_0.index t (0 : Fin 2) * 4096 + 1 * (j 0).val = win5_3.index t (0 : Fin 2) * 4096 + 1 * (j 0).val; omega
    | ⟨1, _⟩ => show win5_0.index t (1 : Fin 2) * 128 + 1 * (j 1).val = win5_3.index t (1 : Fin 2) * 128 + 1 * (j 1).val; omega
  · show (V c main_v152 : S1x128.Idx → EReal) (((cfg5.win 1).blk t).view.emb (ix2 (0 : Fin 1) (j 1))) = _
    refine congrArg (V c main_v152 : S1x128.Idx → EReal) ?_
    funext a; apply Fin.ext
    match a with
    | ⟨0, _⟩ => show win5_1.index t (0 : Fin 2) * 1 + 1 * 0 = 0; omega
    | ⟨1, _⟩ => show win5_1.index t (1 : Fin 2) * 128 + 1 * (j 1).val = win5_3.index t (1 : Fin 2) * 128 + 1 * (j 1).val; omega

/-- What point t writes back to the second output is block t of the batch traces. -/
theorem flushed5_4_eq (c : Dev nD) (t : Fin cfg5.N) :
    (dat5 V c).flushed 4 t = ((cfg5.win 4).blk t).view.read (Elt Ideal) (traceG (V c main_v151) (V c main_v152) (V c main_v65)) := by
  show (cfg5.win 4).cut (grid5.coords t) ((dat5 V c).after 4 t) = _
  rw [after5_4]
  unfold out5_4
  rw [View.canon_unit_zero hz2]
  simp only [View.ld_unit_zero (S := S4096x128) hz2, View.ld_unit_zero (S := S1x128) hz2, View.ld_unit_zero (S := S128x128) hz2]
  obtain ⟨e0, e1, e2, e3, e4, e5, e6, e7, e8, e9⟩ := idx_facts5 t
  funext j
  refine (payt5 _ _ _ j).trans ?_
  show _ = traceG (V c main_v151) (V c main_v152) (V c main_v65) (((cfg5.win 4).blk t).view.emb j)
  unfold traceG
  refine Finset.sum_congr rfl fun p _ => Finset.sum_congr rfl fun q _ => ?_
  refine congrArg₂ (· * ·) (congrArg₂ (· + ·) ?_ ?_) ?_
  · show (V c main_v151 : S32768x128.Idx → EReal) (((cfg5.win 0).blk t).view.emb (ix2 ⟨(j 0).val * 128 + p.val, _⟩ q)) = _
    refine congrArg (V c main_v151 : S32768x128.Idx → EReal) ?_
    funext a; apply Fin.ext
    match a with
    | ⟨0, _⟩ => show win5_0.index t (0 : Fin 2) * 4096 + 1 * ((j 0).val * 128 + p.val) = (win5_4.index t (0 : Fin 2) * 32 + 1 * (j 0).val) * 128 + p.val; omega
    | ⟨1, _⟩ => show win5_0.index t (1 : Fin 2) * 128 + 1 * q.val = q.val; omega
  · show (V c main_v152 : S1x128.Idx → EReal) (((cfg5.win 1).blk t).view.emb (ix2 (0 : Fin 1) q)) = _
    refine congrArg (V c main_v152 : S1x128.Idx → EReal) ?_
    funext a; apply Fin.ext
    match a with
    | ⟨0, _⟩ => show win5_1.index t (0 : Fin 2) * 1 + 1 * 0 = 0; omega
    | ⟨1, _⟩ => show win5_1.index t (1 : Fin 2) * 128 + 1 * q.val = q.val; omega
  · show (V c main_v65 : S128x128.Idx → EReal) (((cfg5.win 2).blk t).view.emb (ix2 p q)) = _
    refine congrArg (V c main_v65 : S128x128.Idx → EReal) ?_
    funext a; apply Fin.ext
    match a with
    | ⟨0, _⟩ => show win5_2.index t (0 : Fin 2) * 128 + 1 * p.val = p.val; omega
    | ⟨1, _⟩ => show win5_2.index t (1 : Fin 2) * 128 + 1 * q.val = q.val; omega

/-- An index of the first output array is in point t's block iff each coordinate is in the block's range. -/
theorem mem_blk5_3 (t : Fin cfg5.N) (i : S32768x128.Idx) :
    i ∈ ((cfg5.win 3).blk t).view.set ↔ ∀ a : Fin 2, win5_3.index t a * S4096x128.size a ≤ (i a).val ∧ (i a).val < win5_3.index t a * S4096x128.size a + S4096x128.size a := by
  show i ∈ ((View.whole main_v153_0).slice (win5_3.rect t)).set ↔ _
  rw [View.set_slice_whole, Rect.mem_set_unit]
  exact Iff.rfl

/-- Row r of the first output is in the block of point r / 4096. -/
theorem covered5_3 (i : S32768x128.Idx) : ∃ t : Fin cfg5.N, (cfg5.win 3).flush t = true ∧ i ∈ ((cfg5.win 3).blk t).view.set := by
  have hi0 : (i 0).val < 32768 := (i 0).isLt
  have hi1 : (i 1).val < 128 := (i 1).isLt
  have hN : cfg5.N = 8 := N_5
  refine ⟨⟨(i 0).val / 4096, by rw [hN]; omega⟩, flush5_3 _, ?_⟩
  rw [mem_blk5_3]
  obtain ⟨e0, e1, e2, e3, e4, e5, e6, e7, e8, e9⟩ := idx_facts5 ⟨(i 0).val / 4096, by rw [hN]; omega⟩
  intro a
  match a with
  | ⟨0, _⟩ => show win5_3.index _ (0 : Fin 2) * 4096 ≤ (i 0).val ∧ (i 0).val < win5_3.index _ (0 : Fin 2) * 4096 + 4096; rw [e6]; show (i 0).val / 4096 * 4096 ≤ (i 0).val ∧ (i 0).val < (i 0).val / 4096 * 4096 + 4096; omega
  | ⟨1, _⟩ => show win5_3.index _ (1 : Fin 2) * 128 ≤ (i 1).val ∧ (i 1).val < win5_3.index _ (1 : Fin 2) * 128 + 128; rw [e7]; omega

/-- An index of the second output array is in point t's block iff each coordinate is in the block's range. -/
theorem mem_blk5_4 (t : Fin cfg5.N) (i : S256x128.Idx) :
    i ∈ ((cfg5.win 4).blk t).view.set ↔ ∀ a : Fin 2, win5_4.index t a * S32x128.size a ≤ (i a).val ∧ (i a).val < win5_4.index t a * S32x128.size a + S32x128.size a := by
  show i ∈ ((View.whole main_v153_1).slice (win5_4.rect t)).set ↔ _
  rw [View.set_slice_whole, Rect.mem_set_unit]
  exact Iff.rfl

/-- Batch r of the second output is in the block of point r / 32. -/
theorem covered5_4 (i : S256x128.Idx) : ∃ t : Fin cfg5.N, (cfg5.win 4).flush t = true ∧ i ∈ ((cfg5.win 4).blk t).view.set := by
  have hi0 : (i 0).val < 256 := (i 0).isLt
  have hi1 : (i 1).val < 128 := (i 1).isLt
  have hN : cfg5.N = 8 := N_5
  refine ⟨⟨(i 0).val / 32, by rw [hN]; omega⟩, flush5_4 _, ?_⟩
  rw [mem_blk5_4]
  obtain ⟨e0, e1, e2, e3, e4, e5, e6, e7, e8, e9⟩ := idx_facts5 ⟨(i 0).val / 32, by rw [hN]; omega⟩
  intro a
  match a with
  | ⟨0, _⟩ => show win5_4.index _ (0 : Fin 2) * 32 ≤ (i 0).val ∧ (i 0).val < win5_4.index _ (0 : Fin 2) * 32 + 32; rw [e8]; show (i 0).val / 32 * 32 ≤ (i 0).val ∧ (i 0).val < (i 0).val / 32 * 32 + 32; omega
  | ⟨1, _⟩ => show win5_4.index _ (1 : Fin 2) * 128 ≤ (i 1).val ∧ (i 1).val < win5_4.index _ (1 : Fin 2) * 128 + 128; rw [e9]; omega

/-- The first output array after the region: the array it finds plus the bias row. -/
theorem final5_3 (c : Dev nD) : (dat5 V c).arrAt 3 cfg5.N = biasG (V c main_v151) (V c main_v152) :=
  (dat5 V c).arrAt_eq_of_cover 3 _ (fun t _ => flushed5_3_eq V c t) covered5_3

/-- The second output array after the region: the batch traces of the biased array against the pattern. -/
theorem final5_4 (c : Dev nD) : (dat5 V c).arrAt 4 cfg5.N = traceG (V c main_v151) (V c main_v152) (V c main_v65) :=
  (dat5 V c).arrAt_eq_of_cover 4 _ (fun t _ => flushed5_4_eq V c t) covered5_4

end Cert.KernelIdeal.KV

end
-- ==== Proof.KFin6.lean ====
/-
  What weight-product region 6 leaves in its output array, as one function of the arrays it finds: entry (P, q) is the
  sum over k of row-block entry (P, k) times weight (k, q). Grid point t works on rows 4096·t … 4096·t + 4095; the weight
  block is the whole matrix at every point; the eight written blocks tile the 32768 rows.
-/
import proofs.«156722_j77687368450207_1_alg».proof.Proof.KReg6
import proofs.«156722_j77687368450207_1_alg».proof.Proof.KFin0
import proofs.«156722_j77687368450207_1_alg».proof.Proof.MathK
import proofs.«156722_j77687368450207_1_alg».proof.Proof.KSpec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product at an entry of the block. -/
theorem pay6 (x0 : Vec Ideal S4096x128 .f32) (x1 : Vec Ideal S128x128 .f32) (j : S4096x128.Idx) :
    Gen.k6_pay1 x0 x1 j = ∑ k : Fin 128, x0 (ix2 (j 0) k) * x1 (ix2 k (j 1)) := by
  rw [eq_ix2 j]; exact KM.matmul_zero_cast_apply x0 x1 _ _ _ _

/-- The index maps over the grid: the feature block and the output block are block t of their arrays, the weight block
    is block (0, 0). -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the arrays the region finds. -/
theorem flushed6_2_eq (c : Dev nD) (t : Fin cfg6.N) :
    (dat6 V c).flushed 2 t = ((cfg6.win 2).blk t).view.read (Elt Ideal) (mmG (V c main_v153_0) (V c main_arg5)) := by
  show (cfg6.win 2).cut (grid6.coords t) ((dat6 V c).after 2 t) = _
  rw [after6_2]
  unfold out6_2
  rw [View.canon_unit_zero hz2]
  simp only [View.ld_unit_zero (S := S4096x128) hz2, View.ld_unit_zero (S := S128x128) hz2]
  obtain ⟨e0, e1, e2, e3, e4, e5⟩ := idx_facts6 t
  funext j
  refine (pay6 _ _ j).trans ?_
  show _ = mmG (V c main_v153_0) (V c main_arg5) (((cfg6.win 2).blk t).view.emb j)
  unfold mmG
  refine Finset.sum_congr rfl fun k _ => ?_
  refine congrArg₂ (· * ·) ?_ ?_
  · show (V c main_v153_0 : S32768x128.Idx → EReal) (((cfg6.win 0).blk t).view.emb (ix2 (j 0) k)) = _
    refine congrArg (V c main_v153_0 : S32768x128.Idx → EReal) ?_
    funext a; apply Fin.ext
    match a with
    | ⟨0, _⟩ => show win6_0.index t (0 : Fin 2) * 4096 + 1 * (j 0).val = win6_2.index t (0 : Fin 2) * 4096 + 1 * (j 0).val; omega
    | ⟨1, _⟩ => show win6_0.index t (1 : Fin 2) * 128 + 1 * k.val = k.val; omega
  · show (V c main_arg5 : S128x128.Idx → EReal) (((cfg6.win 1).blk t).view.emb (ix2 k (j 1))) = _
    refine congrArg (V c main_arg5 : S128x128.Idx → EReal) ?_
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega

/-- An index of the output array is in point t's block iff each coordinate is in the block's range. -/
theorem mem_blk6_2 (t : Fin cfg6.N) (i : S32768x128.Idx) :
    i ∈ ((cfg6.win 2).blk t).view.set ↔ ∀ a : Fin 2, win6_2.index t a * S4096x128.size a ≤ (i a).val ∧ (i a).val < win6_2.index t a * S4096x128.size a + S4096x128.size a := by
  show i ∈ ((View.whole main_v174).slice (win6_2.rect t)).set ↔ _
  rw [View.set_slice_whole, Rect.mem_set_unit]
  exact Iff.rfl

/-- Row r of the output is in the block of point r / 4096. -/
theorem covered6_2 (i : S32768x128.Idx) : ∃ t : Fin cfg6.N, (cfg6.win 2).flush t = true ∧ i ∈ ((cfg6.win 2).blk t).view.set := by
  have hi0 : (i 0).val < 32768 := (i 0).isLt
  have hi1 : (i 1).val < 128 := (i 1).isLt
  have hN : cfg6.N = 8 := N_6
  refine ⟨⟨(i 0).val / 4096, by rw [hN]; omega⟩, flush6_2 _, ?_⟩
  rw [mem_blk6_2]
  obtain ⟨e0, e1, e2, e3, e4, e5⟩ := idx_facts6 ⟨(i 0).val / 4096, by rw [hN]; omega⟩
  intro a
  match a with
  | ⟨0, _⟩ => show win6_2.index _ (0 : Fin 2) * 4096 ≤ (i 0).val ∧ (i 0).val < win6_2.index _ (0 : Fin 2) * 4096 + 4096; rw [e4]; show (i 0).val / 4096 * 4096 ≤ (i 0).val ∧ (i 0).val < (i 0).val / 4096 * 4096 + 4096; omega
  | ⟨1, _⟩ => show win6_2.index _ (1 : Fin 2) * 128 ≤ (i 1).val ∧ (i 1).val < win6_2.index _ (1 : Fin 2) * 128 + 128; rw [e5]; omega

/-- The output array after the region: the product of the arrays the region finds. -/
theorem final6_2 (c : Dev nD) : (dat6 V c).arrAt 2 cfg6.N = mmG (V c main_v153_0) (V c main_arg5) :=
  (dat6 V c).arrAt_eq_of_cover 2 _ (fun t _ => flushed6_2_eq V c t) covered6_2

end Cert.KernelIdeal.KV

end
-- ==== Proof.KFin7.lean ====
/-
  What bias-and-trace region 7 leaves in its two output arrays, as functions of the arrays it finds. First output: entry
  (P, q) is row-block entry (P, q) plus bias (0, q). Second output: entry (B, l) is, for the 128-row batch B, the double sum
  over i, j of (entry (128·B + i, j) + bias (0, j)) times pattern (i, j), the same in every lane l. Grid point t works on rows
  4096·t … 4096·t + 4095, that is batches 32·t … 32·t + 31; the bias row and the pattern are one block at every point; the
  eight written blocks tile each output.
-/
import proofs.«156722_j77687368450207_1_alg».proof.Proof.KReg7
import proofs.«156722_j77687368450207_1_alg».proof.Proof.KFin0
import proofs.«156722_j77687368450207_1_alg».proof.Proof.KSpec
import proofs.«156722_j77687368450207_1_alg».proof.Proof.MathK
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The bias step at entry (p, q) of the block. -/
theorem paybx7 (x0 : Vec Ideal S4096x128 .f32) (x1 : Vec Ideal S1x128 .f32) (p : Fin 4096) (q : Fin 128) :
    Gen.k7_pay1 x0 x1 (ix2 p q) = x0 (ix2 p q) + x1 (ix2 (0 : Fin 1) q) :=
  KM.bias_apply x0 x1 _ _ _ p q

theorem payb7 (x0 : Vec Ideal S4096x128 .f32) (x1 : Vec Ideal S1x128 .f32) (j : S4096x128.Idx) :
    Gen.k7_pay1 x0 x1 j = x0 (ix2 (j 0) (j 1)) + x1 (ix2 (0 : Fin 1) (j 1)) := by
  rw [eq_ix2 j]; exact paybx7 x0 x1 _ _

/-- The trace step at (s, l): the double sum, over batch s, of the biased rows times the pattern. -/
theorem paytx7 (x0 : Vec Ideal S4096x128 .f32) (x1 : Vec Ideal S1x128 .f32) (x2 : Vec Ideal S128x128 .f32)
    (s : Fin 32) (l : Fin 128) :
    Gen.k7_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (KM.trace_apply (Gen.k7_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [paybx7]

theorem payt7 (x0 : Vec Ideal S4096x128 .f32) (x1 : Vec Ideal S1x128 .f32) (x2 : Vec Ideal S128x128 .f32) (j : S32x128.Idx) :
    Gen.k7_pay2 x0 x1 x2 j
      = ∑ p : Fin 128, ∑ q : Fin 128,
          (x0 (ix2 ⟨(j 0).val * 128 + p.val, by have h : (j 0).val < 32 := (j 0).isLt; omega⟩ q) + x1 (ix2 (0 : Fin 1) q)) * x2 (ix2 p q) := by
  rw [eq_ix2 j]; exact paytx7 x0 x1 x2 _ _

/-- The index maps over the grid: the row block and both output blocks are block t of their arrays; the bias row and the
    pattern are block (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- What point t writes back to the first output is block t of the biased array. -/
theorem flushed7_3_eq (c : Dev nD) (t : Fin cfg7.N) :
    (dat7 V c).flushed 3 t = ((cfg7.win 3).blk t).view.read (Elt Ideal) (biasG (V c main_v187) (V c main_v188)) := by
  show (cfg7.win 3).cut (grid7.coords t) ((dat7 V c).after 3 t) = _
  rw [after7_3]
  unfold out7_3
  rw [View.canon_unit_zero hz2]
  simp only [View.ld_unit_zero (S := S4096x128) hz2, View.ld_unit_zero (S := S1x128) hz2]
  obtain ⟨e0, e1, e2, e3, e4, e5, e6, e7, e8, e9⟩ := idx_facts7 t
  funext j
  refine (payb7 _ _ j).trans ?_
  show _ = biasG (V c main_v187) (V c main_v188) (((cfg7.win 3).blk t).view.emb j)
  unfold biasG
  refine congrArg₂ (· + ·) ?_ ?_
  · show (V c main_v187 : S32768x128.Idx → EReal) (((cfg7.win 0).blk t).view.emb (ix2 (j 0) (j 1))) = _
    refine congrArg (V c main_v187 : S32768x128.Idx → EReal) ?_
    funext a; apply Fin.ext
    match a with
    | ⟨0, _⟩ => show win7_0.index t (0 : Fin 2) * 4096 + 1 * (j 0).val = win7_3.index t (0 : Fin 2) * 4096 + 1 * (j 0).val; omega
    | ⟨1, _⟩ => show win7_0.index t (1 : Fin 2) * 128 + 1 * (j 1).val = win7_3.index t (1 : Fin 2) * 128 + 1 * (j 1).val; omega
  · show (V c main_v188 : S1x128.Idx → EReal) (((cfg7.win 1).blk t).view.emb (ix2 (0 : Fin 1) (j 1))) = _
    refine congrArg (V c main_v188 : S1x128.Idx → EReal) ?_
    funext a; apply Fin.ext
    match a with
    | ⟨0, _⟩ => show win7_1.index t (0 : Fin 2) * 1 + 1 * 0 = 0; omega
    | ⟨1, _⟩ => show win7_1.index t (1 : Fin 2) * 128 + 1 * (j 1).val = win7_3.index t (1 : Fin 2) * 128 + 1 * (j 1).val; omega

/-- What point t writes back to the second output is block t of the batch traces. -/
theorem flushed7_4_eq (c : Dev nD) (t : Fin cfg7.N) :
    (dat7 V c).flushed 4 t = ((cfg7.win 4).blk t).view.read (Elt Ideal) (traceG (V c main_v187) (V c main_v188) (V c main_v65)) := by
  show (cfg7.win 4).cut (grid7.coords t) ((dat7 V c).after 4 t) = _
  rw [after7_4]
  unfold out7_4
  rw [View.canon_unit_zero hz2]
  simp only [View.ld_unit_zero (S := S4096x128) hz2, View.ld_unit_zero (S := S1x128) hz2, View.ld_unit_zero (S := S128x128) hz2]
  obtain ⟨e0, e1, e2, e3, e4, e5, e6, e7, e8, e9⟩ := idx_facts7 t
  funext j
  refine (payt7 _ _ _ j).trans ?_
  show _ = traceG (V c main_v187) (V c main_v188) (V c main_v65) (((cfg7.win 4).blk t).view.emb j)
  unfold traceG
  refine Finset.sum_congr rfl fun p _ => Finset.sum_congr rfl fun q _ => ?_
  refine congrArg₂ (· * ·) (congrArg₂ (· + ·) ?_ ?_) ?_
  · show (V c main_v187 : S32768x128.Idx → EReal) (((cfg7.win 0).blk t).view.emb (ix2 ⟨(j 0).val * 128 + p.val, _⟩ q)) = _
    refine congrArg (V c main_v187 : S32768x128.Idx → EReal) ?_
    funext a; apply Fin.ext
    match a with
    | ⟨0, _⟩ => show win7_0.index t (0 : Fin 2) * 4096 + 1 * ((j 0).val * 128 + p.val) = (win7_4.index t (0 : Fin 2) * 32 + 1 * (j 0).val) * 128 + p.val; omega
    | ⟨1, _⟩ => show win7_0.index t (1 : Fin 2) * 128 + 1 * q.val = q.val; omega
  · show (V c main_v188 : S1x128.Idx → EReal) (((cfg7.win 1).blk t).view.emb (ix2 (0 : Fin 1) q)) = _
    refine congrArg (V c main_v188 : S1x128.Idx → EReal) ?_
    funext a; apply Fin.ext
    match a with
    | ⟨0, _⟩ => show win7_1.index t (0 : Fin 2) * 1 + 1 * 0 = 0; omega
    | ⟨1, _⟩ => show win7_1.index t (1 : Fin 2) * 128 + 1 * q.val = q.val; omega
  · show (V c main_v65 : S128x128.Idx → EReal) (((cfg7.win 2).blk t).view.emb (ix2 p q)) = _
    refine congrArg (V c main_v65 : S128x128.Idx → EReal) ?_
    funext a; apply Fin.ext
    match a with
    | ⟨0, _⟩ => show win7_2.index t (0 : Fin 2) * 128 + 1 * p.val = p.val; omega
    | ⟨1, _⟩ => show win7_2.index t (1 : Fin 2) * 128 + 1 * q.val = q.val; omega

/-- An index of the first output array is in point t's block iff each coordinate is in the block's range. -/
theorem mem_blk7_3 (t : Fin cfg7.N) (i : S32768x128.Idx) :
    i ∈ ((cfg7.win 3).blk t).view.set ↔ ∀ a : Fin 2, win7_3.index t a * S4096x128.size a ≤ (i a).val ∧ (i a).val < win7_3.index t a * S4096x128.size a + S4096x128.size a := by
  show i ∈ ((View.whole main_v189_0).slice (win7_3.rect t)).set ↔ _
  rw [View.set_slice_whole, Rect.mem_set_unit]
  exact Iff.rfl

/-- Row r of the first output is in the block of point r / 4096. -/
theorem covered7_3 (i : S32768x128.Idx) : ∃ t : Fin cfg7.N, (cfg7.win 3).flush t = true ∧ i ∈ ((cfg7.win 3).blk t).view.set := by
  have hi0 : (i 0).val < 32768 := (i 0).isLt
  have hi1 : (i 1).val < 128 := (i 1).isLt
  have hN : cfg7.N = 8 := N_7
  refine ⟨⟨(i 0).val / 4096, by rw [hN]; omega⟩, flush7_3 _, ?_⟩
  rw [mem_blk7_3]
  obtain ⟨e0, e1, e2, e3, e4, e5, e6, e7, e8, e9⟩ := idx_facts7 ⟨(i 0).val / 4096, by rw [hN]; omega⟩
  intro a
  match a with
  | ⟨0, _⟩ => show win7_3.index _ (0 : Fin 2) * 4096 ≤ (i 0).val ∧ (i 0).val < win7_3.index _ (0 : Fin 2) * 4096 + 4096; rw [e6]; show (i 0).val / 4096 * 4096 ≤ (i 0).val ∧ (i 0).val < (i 0).val / 4096 * 4096 + 4096; omega
  | ⟨1, _⟩ => show win7_3.index _ (1 : Fin 2) * 128 ≤ (i 1).val ∧ (i 1).val < win7_3.index _ (1 : Fin 2) * 128 + 128; rw [e7]; omega

/-- An index of the second output array is in point t's block iff each coordinate is in the block's range. -/
theorem mem_blk7_4 (t : Fin cfg7.N) (i : S256x128.Idx) :
    i ∈ ((cfg7.win 4).blk t).view.set ↔ ∀ a : Fin 2, win7_4.index t a * S32x128.size a ≤ (i a).val ∧ (i a).val < win7_4.index t a * S32x128.size a + S32x128.size a := by
  show i ∈ ((View.whole main_v189_1).slice (win7_4.rect t)).set ↔ _
  rw [View.set_slice_whole, Rect.mem_set_unit]
  exact Iff.rfl

/-- Batch r of the second output is in the block of point r / 32. -/
theorem covered7_4 (i : S256x128.Idx) : ∃ t : Fin cfg7.N, (cfg7.win 4).flush t = true ∧ i ∈ ((cfg7.win 4).blk t).view.set := by
  have hi0 : (i 0).val < 256 := (i 0).isLt
  have hi1 : (i 1).val < 128 := (i 1).isLt
  have hN : cfg7.N = 8 := N_7
  refine ⟨⟨(i 0).val / 32, by rw [hN]; omega⟩, flush7_4 _, ?_⟩
  rw [mem_blk7_4]
  obtain ⟨e0, e1, e2, e3, e4, e5, e6, e7, e8, e9⟩ := idx_facts7 ⟨(i 0).val / 32, by rw [hN]; omega⟩
  intro a
  match a with
  | ⟨0, _⟩ => show win7_4.index _ (0 : Fin 2) * 32 ≤ (i 0).val ∧ (i 0).val < win7_4.index _ (0 : Fin 2) * 32 + 32; rw [e8]; show (i 0).val / 32 * 32 ≤ (i 0).val ∧ (i 0).val < (i 0).val / 32 * 32 + 32; omega
  | ⟨1, _⟩ => show win7_4.index _ (1 : Fin 2) * 128 ≤ (i 1).val ∧ (i 1).val < win7_4.index _ (1 : Fin 2) * 128 + 128; rw [e9]; omega

/-- The first output array after the region: the array it finds plus the bias row. -/
theorem final7_3 (c : Dev nD) : (dat7 V c).arrAt 3 cfg7.N = biasG (V c main_v187) (V c main_v188) :=
  (dat7 V c).arrAt_eq_of_cover 3 _ (fun t _ => flushed7_3_eq V c t) covered7_3

/-- The second output array after the region: the batch traces of the biased array against the pattern. -/
theorem final7_4 (c : Dev nD) : (dat7 V c).arrAt 4 cfg7.N = traceG (V c main_v187) (V c main_v188) (V c main_v65) :=
  (dat7 V c).arrAt_eq_of_cover 4 _ (fun t _ => flushed7_4_eq V c t) covered7_4

end Cert.KernelIdeal.KV

end
-- ==== Proof.KFin8.lean ====
/-
  What weight-product region 8 leaves in its output array, as one function of the arrays it finds: entry (P, q) is the
  sum over k of row-block entry (P, k) times weight (k, q). Grid point t works on rows 4096·t … 4096·t + 4095; the weight
  block is the whole matrix at every point; the eight written blocks tile the 32768 rows.
-/
import proofs.«156722_j77687368450207_1_alg».proof.Proof.KReg8
import proofs.«156722_j77687368450207_1_alg».proof.Proof.KFin0
import proofs.«156722_j77687368450207_1_alg».proof.Proof.MathK
import proofs.«156722_j77687368450207_1_alg».proof.Proof.KSpec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product at an entry of the block. -/
theorem pay8 (x0 : Vec Ideal S4096x128 .f32) (x1 : Vec Ideal S128x128 .f32) (j : S4096x128.Idx) :
    Gen.k8_pay1 x0 x1 j = ∑ k : Fin 128, x0 (ix2 (j 0) k) * x1 (ix2 k (j 1)) := by
  rw [eq_ix2 j]; exact KM.matmul_zero_cast_apply x0 x1 _ _ _ _

/-- The index maps over the grid: the feature block and the output block are block t of their arrays, the weight block
    is block (0, 0). -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the product of the arrays the region finds. -/
theorem flushed8_2_eq (c : Dev nD) (t : Fin cfg8.N) :
    (dat8 V c).flushed 2 t = ((cfg8.win 2).blk t).view.read (Elt Ideal) (mmG (V c main_v189_0) (V c main_arg5)) := by
  show (cfg8.win 2).cut (grid8.coords t) ((dat8 V c).after 2 t) = _
  rw [after8_2]
  unfold out8_2
  rw [View.canon_unit_zero hz2]
  simp only [View.ld_unit_zero (S := S4096x128) hz2, View.ld_unit_zero (S := S128x128) hz2]
  obtain ⟨e0, e1, e2, e3, e4, e5⟩ := idx_facts8 t
  funext j
  refine (pay8 _ _ j).trans ?_
  show _ = mmG (V c main_v189_0) (V c main_arg5) (((cfg8.win 2).blk t).view.emb j)
  unfold mmG
  refine Finset.sum_congr rfl fun k _ => ?_
  refine congrArg₂ (· * ·) ?_ ?_
  · show (V c main_v189_0 : S32768x128.Idx → EReal) (((cfg8.win 0).blk t).view.emb (ix2 (j 0) k)) = _
    refine congrArg (V c main_v189_0 : S32768x128.Idx → EReal) ?_
    funext a; apply Fin.ext
    match a with
    | ⟨0, _⟩ => show win8_0.index t (0 : Fin 2) * 4096 + 1 * (j 0).val = win8_2.index t (0 : Fin 2) * 4096 + 1 * (j 0).val; omega
    | ⟨1, _⟩ => show win8_0.index t (1 : Fin 2) * 128 + 1 * k.val = k.val; omega
  · show (V c main_arg5 : S128x128.Idx → EReal) (((cfg8.win 1).blk t).view.emb (ix2 k (j 1))) = _
    refine congrArg (V c main_arg5 : S128x128.Idx → EReal) ?_
    funext a; apply Fin.ext
    match a with
    | ⟨0, _⟩ => show win8_1.index t (0 : Fin 2) * 128 + 1 * k.val = k.val; omega
    | ⟨1, _⟩ => show win8_1.index t (1 : Fin 2) * 128 + 1 * (j 1).val = win8_2.index t (1 : Fin 2) * 128 + 1 * (j 1).val; omega

/-- An index of the output array is in point t's block iff each coordinate is in the block's range. -/
theorem mem_blk8_2 (t : Fin cfg8.N) (i : S32768x128.Idx) :
    i ∈ ((cfg8.win 2).blk t).view.set ↔ ∀ a : Fin 2, win8_2.index t a * S4096x128.size a ≤ (i a).val ∧ (i a).val < win8_2.index t a * S4096x128.size a + S4096x128.size a := by
  show i ∈ ((View.whole main_v210).slice (win8_2.rect t)).set ↔ _
  rw [View.set_slice_whole, Rect.mem_set_unit]
  exact Iff.rfl

/-- Row r of the output is in the block of point r / 4096. -/
theorem covered8_2 (i : S32768x128.Idx) : ∃ t : Fin cfg8.N, (cfg8.win 2).flush t = true ∧ i ∈ ((cfg8.win 2).blk t).view.set := by
  have hi0 : (i 0).val < 32768 := (i 0).isLt
  have hi1 : (i 1).val < 128 := (i 1).isLt
  have hN : cfg8.N = 8 := N_8
  refine ⟨⟨(i 0).val / 4096, by rw [hN]; omega⟩, flush8_2 _, ?_⟩
  rw [mem_blk8_2]
  obtain ⟨e0, e1, e2, e3, e4, e5⟩ := idx_facts8 ⟨(i 0).val / 4096, by rw [hN]; omega⟩
  intro a
  match a with
  | ⟨0, _⟩ => show win8_2.index _ (0 : Fin 2) * 4096 ≤ (i 0).val ∧ (i 0).val < win8_2.index _ (0 : Fin 2) * 4096 + 4096; rw [e4]; show (i 0).val / 4096 * 4096 ≤ (i 0).val ∧ (i 0).val < (i 0).val / 4096 * 4096 + 4096; omega
  | ⟨1, _⟩ => show win8_2.index _ (1 : Fin 2) * 128 ≤ (i 1).val ∧ (i 1).val < win8_2.index _ (1 : Fin 2) * 128 + 128; rw [e5]; omega

/-- The output array after the region: the product of the arrays the region finds. -/
theorem final8_2 (c : Dev nD) : (dat8 V c).arrAt 2 cfg8.N = mmG (V c main_v189_0) (V c main_arg5) :=
  (dat8 V c).arrAt_eq_of_cover 2 _ (fun t _ => flushed8_2_eq V c t) covered8_2

end Cert.KernelIdeal.KV

end
-- ==== Proof.KFin9.lean ====
/-
  What bias-and-trace region 9 leaves in its two output arrays, as functions of the arrays it finds. First output: entry
  (P, q) is row-block entry (P, q) plus bias (0, q). Second output: entry (B, l) is, for the 128-row batch B, the double sum
  over i, j of (entry (128·B + i, j) + bias (0, j)) times pattern (i, j), the same in every lane l. Grid point t works on rows
  4096·t … 4096·t + 4095, that is batches 32·t … 32·t + 31; the bias row and the pattern are one block at every point; the
  eight written blocks tile each output.
-/
import proofs.«156722_j77687368450207_1_alg».proof.Proof.KReg9
import proofs.«156722_j77687368450207_1_alg».proof.Proof.KFin0
import proofs.«156722_j77687368450207_1_alg».proof.Proof.KSpec
import proofs.«156722_j77687368450207_1_alg».proof.Proof.MathK
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The bias step at entry (p, q) of the block. -/
theorem paybx9 (x0 : Vec Ideal S4096x128 .f32) (x1 : Vec Ideal S1x128 .f32) (p : Fin 4096) (q : Fin 128) :
    Gen.k9_pay1 x0 x1 (ix2 p q) = x0 (ix2 p q) + x1 (ix2 (0 : Fin 1) q) :=
  KM.bias_apply x0 x1 _ _ _ p q

theorem payb9 (x0 : Vec Ideal S4096x128 .f32) (x1 : Vec Ideal S1x128 .f32) (j : S4096x128.Idx) :
    Gen.k9_pay1 x0 x1 j = x0 (ix2 (j 0) (j 1)) + x1 (ix2 (0 : Fin 1) (j 1)) := by
  rw [eq_ix2 j]; exact paybx9 x0 x1 _ _

/-- The trace step at (s, l): the double sum, over batch s, of the biased rows times the pattern. -/
theorem paytx9 (x0 : Vec Ideal S4096x128 .f32) (x1 : Vec Ideal S1x128 .f32) (x2 : Vec Ideal S128x128 .f32)
    (s : Fin 32) (l : Fin 128) :
    Gen.k9_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (KM.trace_apply (Gen.k9_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [paybx9]

theorem payt9 (x0 : Vec Ideal S4096x128 .f32) (x1 : Vec Ideal S1x128 .f32) (x2 : Vec Ideal S128x128 .f32) (j : S32x128.Idx) :
    Gen.k9_pay2 x0 x1 x2 j
      = ∑ p : Fin 128, ∑ q : Fin 128,
          (x0 (ix2 ⟨(j 0).val * 128 + p.val, by have h : (j 0).val < 32 := (j 0).isLt; omega⟩ q) + x1 (ix2 (0 : Fin 1) q)) * x2 (ix2 p q) := by
  rw [eq_ix2 j]; exact paytx9 x0 x1 x2 _ _

/-- The index maps over the grid: the row block and both output blocks are block t of their arrays; the bias row and the
    pattern are block (0, 0). -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- What point t writes back to the first output is block t of the biased array. -/
theorem flushed9_3_eq (c : Dev nD) (t : Fin cfg9.N) :
    (dat9 V c).flushed 3 t = ((cfg9.win 3).blk t).view.read (Elt Ideal) (biasG (V c main_v223) (V c main_v224)) := by
  show (cfg9.win 3).cut (grid9.coords t) ((dat9 V c).after 3 t) = _
  rw [after9_3]
  unfold out9_3
  rw [View.canon_unit_zero hz2]
  simp only [View.ld_unit_zero (S := S4096x128) hz2, View.ld_unit_zero (S := S1x128) hz2]
  obtain ⟨e0, e1, e2, e3, e4, e5, e6, e7, e8, e9⟩ := idx_facts9 t
  funext j
  refine (payb9 _ _ j).trans ?_
  show _ = biasG (V c main_v223) (V c main_v224) (((cfg9.win 3).blk t).view.emb j)
  unfold biasG
  refine congrArg₂ (· + ·) ?_ ?_
  · show (V c main_v223 : S32768x128.Idx → EReal) (((cfg9.win 0).blk t).view.emb (ix2 (j 0) (j 1))) = _
    refine congrArg (V c main_v223 : S32768x128.Idx → EReal) ?_
    funext a; apply Fin.ext
    match a with
    | ⟨0, _⟩ => show win9_0.index t (0 : Fin 2) * 4096 + 1 * (j 0).val = win9_3.index t (0 : Fin 2) * 4096 + 1 * (j 0).val; omega
    | ⟨1, _⟩ => show win9_0.index t (1 : Fin 2) * 128 + 1 * (j 1).val = win9_3.index t (1 : Fin 2) * 128 + 1 * (j 1).val; omega
  · show (V c main_v224 : S1x128.Idx → EReal) (((cfg9.win 1).blk t).view.emb (ix2 (0 : Fin 1) (j 1))) = _
    refine congrArg (V c main_v224 : S1x128.Idx → EReal) ?_
    funext a; apply Fin.ext
    match a with
    | ⟨0, _⟩ => show win9_1.index t (0 : Fin 2) * 1 + 1 * 0 = 0; omega
    | ⟨1, _⟩ => show win9_1.index t (1 : Fin 2) * 128 + 1 * (j 1).val = win9_3.index t (1 : Fin 2) * 128 + 1 * (j 1).val; omega

/-- What point t writes back to the second output is block t of the batch traces. -/
theorem flushed9_4_eq (c : Dev nD) (t : Fin cfg9.N) :
    (dat9 V c).flushed 4 t = ((cfg9.win 4).blk t).view.read (Elt Ideal) (traceG (V c main_v223) (V c main_v224) (V c main_v65)) := by
  show (cfg9.win 4).cut (grid9.coords t) ((dat9 V c).after 4 t) = _
  rw [after9_4]
  unfold out9_4
  rw [View.canon_unit_zero hz2]
  simp only [View.ld_unit_zero (S := S4096x128) hz2, View.ld_unit_zero (S := S1x128) hz2, View.ld_unit_zero (S := S128x128) hz2]
  obtain ⟨e0, e1, e2, e3, e4, e5, e6, e7, e8, e9⟩ := idx_facts9 t
  funext j
  refine (payt9 _ _ _ j).trans ?_
  show _ = traceG (V c main_v223) (V c main_v224) (V c main_v65) (((cfg9.win 4).blk t).view.emb j)
  unfold traceG
  refine Finset.sum_congr rfl fun p _ => Finset.sum_congr rfl fun q _ => ?_
  refine congrArg₂ (· * ·) (congrArg₂ (· + ·) ?_ ?_) ?_
  · show (V c main_v223 : S32768x128.Idx → EReal) (((cfg9.win 0).blk t).view.emb (ix2 ⟨(j 0).val * 128 + p.val, _⟩ q)) = _
    refine congrArg (V c main_v223 : S32768x128.Idx → EReal) ?_
    funext a; apply Fin.ext
    match a with
    | ⟨0, _⟩ => show win9_0.index t (0 : Fin 2) * 4096 + 1 * ((j 0).val * 128 + p.val) = (win9_4.index t (0 : Fin 2) * 32 + 1 * (j 0).val) * 128 + p.val; omega
    | ⟨1, _⟩ => show win9_0.index t (1 : Fin 2) * 128 + 1 * q.val = q.val; omega
  · show (V c main_v224 : S1x128.Idx → EReal) (((cfg9.win 1).blk t).view.emb (ix2 (0 : Fin 1) q)) = _
    refine congrArg (V c main_v224 : S1x128.Idx → EReal) ?_
    funext a; apply Fin.ext
    match a with
    | ⟨0, _⟩ => show win9_1.index t (0 : Fin 2) * 1 + 1 * 0 = 0; omega
    | ⟨1, _⟩ => show win9_1.index t (1 : Fin 2) * 128 + 1 * q.val = q.val; omega
  · show (V c main_v65 : S128x128.Idx → EReal) (((cfg9.win 2).blk t).view.emb (ix2 p q)) = _
    refine congrArg (V c main_v65 : S128x128.Idx → EReal) ?_
    funext a; apply Fin.ext
    match a with
    | ⟨0, _⟩ => show win9_2.index t (0 : Fin 2) * 128 + 1 * p.val = p.val; omega
    | ⟨1, _⟩ => show win9_2.index t (1 : Fin 2) * 128 + 1 * q.val = q.val; omega

/-- An index of the first output array is in point t's block iff each coordinate is in the block's range. -/
theorem mem_blk9_3 (t : Fin cfg9.N) (i : S32768x128.Idx) :
    i ∈ ((cfg9.win 3).blk t).view.set ↔ ∀ a : Fin 2, win9_3.index t a * S4096x128.size a ≤ (i a).val ∧ (i a).val < win9_3.index t a * S4096x128.size a + S4096x128.size a := by
  show i ∈ ((View.whole main_v225_0).slice (win9_3.rect t)).set ↔ _
  rw [View.set_slice_whole, Rect.mem_set_unit]
  exact Iff.rfl

/-- Row r of the first output is in the block of point r / 4096. -/
theorem covered9_3 (i : S32768x128.Idx) : ∃ t : Fin cfg9.N, (cfg9.win 3).flush t = true ∧ i ∈ ((cfg9.win 3).blk t).view.set := by
  have hi0 : (i 0).val < 32768 := (i 0).isLt
  have hi1 : (i 1).val < 128 := (i 1).isLt
  have hN : cfg9.N = 8 := N_9
  refine ⟨⟨(i 0).val / 4096, by rw [hN]; omega⟩, flush9_3 _, ?_⟩
  rw [mem_blk9_3]
  obtain ⟨e0, e1, e2, e3, e4, e5, e6, e7, e8, e9⟩ := idx_facts9 ⟨(i 0).val / 4096, by rw [hN]; omega⟩
  intro a
  match a with
  | ⟨0, _⟩ => show win9_3.index _ (0 : Fin 2) * 4096 ≤ (i 0).val ∧ (i 0).val < win9_3.index _ (0 : Fin 2) * 4096 + 4096; rw [e6]; show (i 0).val / 4096 * 4096 ≤ (i 0).val ∧ (i 0).val < (i 0).val / 4096 * 4096 + 4096; omega
  | ⟨1, _⟩ => show win9_3.index _ (1 : Fin 2) * 128 ≤ (i 1).val ∧ (i 1).val < win9_3.index _ (1 : Fin 2) * 128 + 128; rw [e7]; omega

/-- An index of the second output array is in point t's block iff each coordinate is in the block's range. -/
theorem mem_blk9_4 (t : Fin cfg9.N) (i : S256x128.Idx) :
    i ∈ ((cfg9.win 4).blk t).view.set ↔ ∀ a : Fin 2, win9_4.index t a * S32x128.size a ≤ (i a).val ∧ (i a).val < win9_4.index t a * S32x128.size a + S32x128.size a := by
  show i ∈ ((View.whole main_v225_1).slice (win9_4.rect t)).set ↔ _
  rw [View.set_slice_whole, Rect.mem_set_unit]
  exact Iff.rfl

/-- Batch r of the second output is in the block of point r / 32. -/
theorem covered9_4 (i : S256x128.Idx) : ∃ t : Fin cfg9.N, (cfg9.win 4).flush t = true ∧ i ∈ ((cfg9.win 4).blk t).view.set := by
  have hi0 : (i 0).val < 256 := (i 0).isLt
  have hi1 : (i 1).val < 128 := (i 1).isLt
  have hN : cfg9.N = 8 := N_9
  refine ⟨⟨(i 0).val / 32, by rw [hN]; omega⟩, flush9_4 _, ?_⟩
  rw [mem_blk9_4]
  obtain ⟨e0, e1, e2, e3, e4, e5, e6, e7, e8, e9⟩ := idx_facts9 ⟨(i 0).val / 32, by rw [hN]; omega⟩
  intro a
  match a with
  | ⟨0, _⟩ => show win9_4.index _ (0 : Fin 2) * 32 ≤ (i 0).val ∧ (i 0).val < win9_4.index _ (0 : Fin 2) * 32 + 32; rw [e8]; show (i 0).val / 32 * 32 ≤ (i 0).val ∧ (i 0).val < (i 0).val / 32 * 32 + 32; omega
  | ⟨1, _⟩ => show win9_4.index _ (1 : Fin 2) * 128 ≤ (i 1).val ∧ (i 1).val < win9_4.index _ (1 : Fin 2) * 128 + 128; rw [e9]; omega

/-- The first output array after the region: the array it finds plus the bias row. -/
theorem final9_3 (c : Dev nD) : (dat9 V c).arrAt 3 cfg9.N = biasG (V c main_v223) (V c main_v224) :=
  (dat9 V c).arrAt_eq_of_cover 3 _ (fun t _ => flushed9_3_eq V c t) covered9_3

/-- The second output array after the region: the batch traces of the biased array against the pattern. -/
theorem final9_4 (c : Dev nD) : (dat9 V c).arrAt 4 cfg9.N = traceG (V c main_v223) (V c main_v224) (V c main_v65) :=
  (dat9 V c).arrAt_eq_of_cover 4 _ (fun t _ => flushed9_4_eq V c t) covered9_4

end Cert.KernelIdeal.KV

end
-- ==== Proof.KFin10.lean ====
/-
  What weight-product region 10 leaves in its output array, as one function of the arrays it finds: entry (P, q) is the
  sum over k of row-block entry (P, k) times weight (k, q). Grid point t works on rows 4096·t … 4096·t + 4095; the weight
  block is the whole matrix at every point; the eight written blocks tile the 32768 rows.
-/
import proofs.«156722_j77687368450207_1_alg».proof.Proof.KReg10
import proofs.«156722_j77687368450207_1_alg».proof.Proof.KFin0
import proofs.«156722_j77687368450207_1_alg».proof.Proof.MathK
import proofs.«156722_j77687368450207_1_alg».proof.Proof.KSpec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product at an entry of the block. -/
theorem pay10 (x0 : Vec Ideal S4096x128 .f32) (x1 : Vec Ideal S128x128 .f32) (j : S4096x128.Idx) :
    Gen.k10_pay1 x0 x1 j = ∑ k : Fin 128, x0 (ix2 (j 0) k) * x1 (ix2 k (j 1)) := by
  rw [eq_ix2 j]; exact KM.matmul_zero_cast_apply x0 x1 _ _ _ _

/-- The index maps over the grid: the feature block and the output block are block t of their arrays, the weight block
    is block (0, 0). -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point t writes back is block t of the product of the arrays the region finds. -/
theorem flushed10_2_eq (c : Dev nD) (t : Fin cfg10.N) :
    (dat10 V c).flushed 2 t = ((cfg10.win 2).blk t).view.read (Elt Ideal) (mmG (V c main_v225_0) (V c main_arg5)) := by
  show (cfg10.win 2).cut (grid10.coords t) ((dat10 V c).after 2 t) = _
  rw [after10_2]
  unfold out10_2
  rw [View.canon_unit_zero hz2]
  simp only [View.ld_unit_zero (S := S4096x128) hz2, View.ld_unit_zero (S := S128x128) hz2]
  obtain ⟨e0, e1, e2, e3, e4, e5⟩ := idx_facts10 t
  funext j
  refine (pay10 _ _ j).trans ?_
  show _ = mmG (V c main_v225_0) (V c main_arg5) (((cfg10.win 2).blk t).view.emb j)
  unfold mmG
  refine Finset.sum_congr rfl fun k _ => ?_
  refine congrArg₂ (· * ·) ?_ ?_
  · show (V c main_v225_0 : S32768x128.Idx → EReal) (((cfg10.win 0).blk t).view.emb (ix2 (j 0) k)) = _
    refine congrArg (V c main_v225_0 : S32768x128.Idx → EReal) ?_
    funext a; apply Fin.ext
    match a with
    | ⟨0, _⟩ => show win10_0.index t (0 : Fin 2) * 4096 + 1 * (j 0).val = win10_2.index t (0 : Fin 2) * 4096 + 1 * (j 0).val; omega
    | ⟨1, _⟩ => show win10_0.index t (1 : Fin 2) * 128 + 1 * k.val = k.val; omega
  · show (V c main_arg5 : S128x128.Idx → EReal) (((cfg10.win 1).blk t).view.emb (ix2 k (j 1))) = _
    refine congrArg (V c main_arg5 : S128x128.Idx → EReal) ?_
    funext a; apply Fin.ext
    match a with
    | ⟨0, _⟩ => show win10_1.index t (0 : Fin 2) * 128 + 1 * k.val = k.val; omega
    | ⟨1, _⟩ => show win10_1.index t (1 : Fin 2) * 128 + 1 * (j 1).val = win10_2.index t (1 : Fin 2) * 128 + 1 * (j 1).val; omega

/-- An index of the output array is in point t's block iff each coordinate is in the block's range. -/
theorem mem_blk10_2 (t : Fin cfg10.N) (i : S32768x128.Idx) :
    i ∈ ((cfg10.win 2).blk t).view.set ↔ ∀ a : Fin 2, win10_2.index t a * S4096x128.size a ≤ (i a).val ∧ (i a).val < win10_2.index t a * S4096x128.size a + S4096x128.size a := by
  show i ∈ ((View.whole main_v246).slice (win10_2.rect t)).set ↔ _
  rw [View.set_slice_whole, Rect.mem_set_unit]
  exact Iff.rfl

/-- Row r of the output is in the block of point r / 4096. -/
theorem covered10_2 (i : S32768x128.Idx) : ∃ t : Fin cfg10.N, (cfg10.win 2).flush t = true ∧ i ∈ ((cfg10.win 2).blk t).view.set := by
  have hi0 : (i 0).val < 32768 := (i 0).isLt
  have hi1 : (i 1).val < 128 := (i 1).isLt
  have hN : cfg10.N = 8 := N_10
  refine ⟨⟨(i 0).val / 4096, by rw [hN]; omega⟩, flush10_2 _, ?_⟩
  rw [mem_blk10_2]
  obtain ⟨e0, e1, e2, e3, e4, e5⟩ := idx_facts10 ⟨(i 0).val / 4096, by rw [hN]; omega⟩
  intro a
  match a with
  | ⟨0, _⟩ => show win10_2.index _ (0 : Fin 2) * 4096 ≤ (i 0).val ∧ (i 0).val < win10_2.index _ (0 : Fin 2) * 4096 + 4096; rw [e4]; show (i 0).val / 4096 * 4096 ≤ (i 0).val ∧ (i 0).val < (i 0).val / 4096 * 4096 + 4096; omega
  | ⟨1, _⟩ => show win10_2.index _ (1 : Fin 2) * 128 ≤ (i 1).val ∧ (i 1).val < win10_2.index _ (1 : Fin 2) * 128 + 128; rw [e5]; omega

/-- The output array after the region: the product of the arrays the region finds. -/
theorem final10_2 (c : Dev nD) : (dat10 V c).arrAt 2 cfg10.N = mmG (V c main_v225_0) (V c main_arg5) :=
  (dat10 V c).arrAt_eq_of_cover 2 _ (fun t _ => flushed10_2_eq V c t) covered10_2

end Cert.KernelIdeal.KV

end
-- ==== Proof.KFin11.lean ====
/-
  What bias-and-trace region 11 leaves in its two output arrays, as functions of the arrays it finds. First output: entry
  (P, q) is row-block entry (P, q) plus bias (0, q). Second output: entry (B, l) is, for the 128-row batch B, the double sum
  over i, j of (entry (128·B + i, j) + bias (0, j)) times pattern (i, j), the same in every lane l. Grid point t works on rows
  4096·t … 4096·t + 4095, that is batches 32·t … 32·t + 31; the bias row and the pattern are one block at every point; the
  eight written blocks tile each output.
-/
import proofs.«156722_j77687368450207_1_alg».proof.Proof.KReg11
import proofs.«156722_j77687368450207_1_alg».proof.Proof.KFin0
import proofs.«156722_j77687368450207_1_alg».proof.Proof.KSpec
import proofs.«156722_j77687368450207_1_alg».proof.Proof.MathK
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The bias step at entry (p, q) of the block. -/
theorem paybx11 (x0 : Vec Ideal S4096x128 .f32) (x1 : Vec Ideal S1x128 .f32) (p : Fin 4096) (q : Fin 128) :
    Gen.k11_pay1 x0 x1 (ix2 p q) = x0 (ix2 p q) + x1 (ix2 (0 : Fin 1) q) :=
  KM.bias_apply x0 x1 _ _ _ p q

theorem payb11 (x0 : Vec Ideal S4096x128 .f32) (x1 : Vec Ideal S1x128 .f32) (j : S4096x128.Idx) :
    Gen.k11_pay1 x0 x1 j = x0 (ix2 (j 0) (j 1)) + x1 (ix2 (0 : Fin 1) (j 1)) := by
  rw [eq_ix2 j]; exact paybx11 x0 x1 _ _

/-- The trace step at (s, l): the double sum, over batch s, of the biased rows times the pattern. -/
theorem paytx11 (x0 : Vec Ideal S4096x128 .f32) (x1 : Vec Ideal S1x128 .f32) (x2 : Vec Ideal S128x128 .f32)
    (s : Fin 32) (l : Fin 128) :
    Gen.k11_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (KM.trace_apply (Gen.k11_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [paybx11]

theorem payt11 (x0 : Vec Ideal S4096x128 .f32) (x1 : Vec Ideal S1x128 .f32) (x2 : Vec Ideal S128x128 .f32) (j : S32x128.Idx) :
    Gen.k11_pay2 x0 x1 x2 j
      = ∑ p : Fin 128, ∑ q : Fin 128,
          (x0 (ix2 ⟨(j 0).val * 128 + p.val, by have h : (j 0).val < 32 := (j 0).isLt; omega⟩ q) + x1 (ix2 (0 : Fin 1) q)) * x2 (ix2 p q) := by
  rw [eq_ix2 j]; exact paytx11 x0 x1 x2 _ _

/-- The index maps over the grid: the row block and both output blocks are block t of their arrays; the bias row and the
    pattern are block (0, 0). -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

/-- What point t writes back to the first output is block t of the biased array. -/
theorem flushed11_3_eq (c : Dev nD) (t : Fin cfg11.N) :
    (dat11 V c).flushed 3 t = ((cfg11.win 3).blk t).view.read (Elt Ideal) (biasG (V c main_v259) (V c main_v260)) := by
  show (cfg11.win 3).cut (grid11.coords t) ((dat11 V c).after 3 t) = _
  rw [after11_3]
  unfold out11_3
  rw [View.canon_unit_zero hz2]
  simp only [View.ld_unit_zero (S := S4096x128) hz2, View.ld_unit_zero (S := S1x128) hz2]
  obtain ⟨e0, e1, e2, e3, e4, e5, e6, e7, e8, e9⟩ := idx_facts11 t
  funext j
  refine (payb11 _ _ j).trans ?_
  show _ = biasG (V c main_v259) (V c main_v260) (((cfg11.win 3).blk t).view.emb j)
  unfold biasG
  refine congrArg₂ (· + ·) ?_ ?_
  · show (V c main_v259 : S32768x128.Idx → EReal) (((cfg11.win 0).blk t).view.emb (ix2 (j 0) (j 1))) = _
    refine congrArg (V c main_v259 : S32768x128.Idx → EReal) ?_
    funext a; apply Fin.ext
    match a with
    | ⟨0, _⟩ => show win11_0.index t (0 : Fin 2) * 4096 + 1 * (j 0).val = win11_3.index t (0 : Fin 2) * 4096 + 1 * (j 0).val; omega
    | ⟨1, _⟩ => show win11_0.index t (1 : Fin 2) * 128 + 1 * (j 1).val = win11_3.index t (1 : Fin 2) * 128 + 1 * (j 1).val; omega
  · show (V c main_v260 : S1x128.Idx → EReal) (((cfg11.win 1).blk t).view.emb (ix2 (0 : Fin 1) (j 1))) = _
    refine congrArg (V c main_v260 : S1x128.Idx → EReal) ?_
    funext a; apply Fin.ext
    match a with
    | ⟨0, _⟩ => show win11_1.index t (0 : Fin 2) * 1 + 1 * 0 = 0; omega
    | ⟨1, _⟩ => show win11_1.index t (1 : Fin 2) * 128 + 1 * (j 1).val = win11_3.index t (1 : Fin 2) * 128 + 1 * (j 1).val; omega

/-- What point t writes back to the second output is block t of the batch traces. -/
theorem flushed11_4_eq (c : Dev nD) (t : Fin cfg11.N) :
    (dat11 V c).flushed 4 t = ((cfg11.win 4).blk t).view.read (Elt Ideal) (traceG (V c main_v259) (V c main_v260) (V c main_v65)) := by
  show (cfg11.win 4).cut (grid11.coords t) ((dat11 V c).after 4 t) = _
  rw [after11_4]
  unfold out11_4
  rw [View.canon_unit_zero hz2]
  simp only [View.ld_unit_zero (S := S4096x128) hz2, View.ld_unit_zero (S := S1x128) hz2, View.ld_unit_zero (S := S128x128) hz2]
  obtain ⟨e0, e1, e2, e3, e4, e5, e6, e7, e8, e9⟩ := idx_facts11 t
  funext j
  refine (payt11 _ _ _ j).trans ?_
  show _ = traceG (V c main_v259) (V c main_v260) (V c main_v65) (((cfg11.win 4).blk t).view.emb j)
  unfold traceG
  refine Finset.sum_congr rfl fun p _ => Finset.sum_congr rfl fun q _ => ?_
  refine congrArg₂ (· * ·) (congrArg₂ (· + ·) ?_ ?_) ?_
  · show (V c main_v259 : S32768x128.Idx → EReal) (((cfg11.win 0).blk t).view.emb (ix2 ⟨(j 0).val * 128 + p.val, _⟩ q)) = _
    refine congrArg (V c main_v259 : S32768x128.Idx → EReal) ?_
    funext a; apply Fin.ext
    match a with
    | ⟨0, _⟩ => show win11_0.index t (0 : Fin 2) * 4096 + 1 * ((j 0).val * 128 + p.val) = (win11_4.index t (0 : Fin 2) * 32 + 1 * (j 0).val) * 128 + p.val; omega
    | ⟨1, _⟩ => show win11_0.index t (1 : Fin 2) * 128 + 1 * q.val = q.val; omega
  · show (V c main_v260 : S1x128.Idx → EReal) (((cfg11.win 1).blk t).view.emb (ix2 (0 : Fin 1) q)) = _
    refine congrArg (V c main_v260 : S1x128.Idx → EReal) ?_
    funext a; apply Fin.ext
    match a with
    | ⟨0, _⟩ => show win11_1.index t (0 : Fin 2) * 1 + 1 * 0 = 0; omega
    | ⟨1, _⟩ => show win11_1.index t (1 : Fin 2) * 128 + 1 * q.val = q.val; omega
  · show (V c main_v65 : S128x128.Idx → EReal) (((cfg11.win 2).blk t).view.emb (ix2 p q)) = _
    refine congrArg (V c main_v65 : S128x128.Idx → EReal) ?_
    funext a; apply Fin.ext
    match a with
    | ⟨0, _⟩ => show win11_2.index t (0 : Fin 2) * 128 + 1 * p.val = p.val; omega
    | ⟨1, _⟩ => show win11_2.index t (1 : Fin 2) * 128 + 1 * q.val = q.val; omega

/-- An index of the first output array is in point t's block iff each coordinate is in the block's range. -/
theorem mem_blk11_3 (t : Fin cfg11.N) (i : S32768x128.Idx) :
    i ∈ ((cfg11.win 3).blk t).view.set ↔ ∀ a : Fin 2, win11_3.index t a * S4096x128.size a ≤ (i a).val ∧ (i a).val < win11_3.index t a * S4096x128.size a + S4096x128.size a := by
  show i ∈ ((View.whole main_v261_0).slice (win11_3.rect t)).set ↔ _
  rw [View.set_slice_whole, Rect.mem_set_unit]
  exact Iff.rfl

/-- Row r of the first output is in the block of point r / 4096. -/
theorem covered11_3 (i : S32768x128.Idx) : ∃ t : Fin cfg11.N, (cfg11.win 3).flush t = true ∧ i ∈ ((cfg11.win 3).blk t).view.set := by
  have hi0 : (i 0).val < 32768 := (i 0).isLt
  have hi1 : (i 1).val < 128 := (i 1).isLt
  have hN : cfg11.N = 8 := N_11
  refine ⟨⟨(i 0).val / 4096, by rw [hN]; omega⟩, flush11_3 _, ?_⟩
  rw [mem_blk11_3]
  obtain ⟨e0, e1, e2, e3, e4, e5, e6, e7, e8, e9⟩ := idx_facts11 ⟨(i 0).val / 4096, by rw [hN]; omega⟩
  intro a
  match a with
  | ⟨0, _⟩ => show win11_3.index _ (0 : Fin 2) * 4096 ≤ (i 0).val ∧ (i 0).val < win11_3.index _ (0 : Fin 2) * 4096 + 4096; rw [e6]; show (i 0).val / 4096 * 4096 ≤ (i 0).val ∧ (i 0).val < (i 0).val / 4096 * 4096 + 4096; omega
  | ⟨1, _⟩ => show win11_3.index _ (1 : Fin 2) * 128 ≤ (i 1).val ∧ (i 1).val < win11_3.index _ (1 : Fin 2) * 128 + 128; rw [e7]; omega

/-- An index of the second output array is in point t's block iff each coordinate is in the block's range. -/
theorem mem_blk11_4 (t : Fin cfg11.N) (i : S256x128.Idx) :
    i ∈ ((cfg11.win 4).blk t).view.set ↔ ∀ a : Fin 2, win11_4.index t a * S32x128.size a ≤ (i a).val ∧ (i a).val < win11_4.index t a * S32x128.size a + S32x128.size a := by
  show i ∈ ((View.whole main_v261_1).slice (win11_4.rect t)).set ↔ _
  rw [View.set_slice_whole, Rect.mem_set_unit]
  exact Iff.rfl

/-- Batch r of the second output is in the block of point r / 32. -/
theorem covered11_4 (i : S256x128.Idx) : ∃ t : Fin cfg11.N, (cfg11.win 4).flush t = true ∧ i ∈ ((cfg11.win 4).blk t).view.set := by
  have hi0 : (i 0).val < 256 := (i 0).isLt
  have hi1 : (i 1).val < 128 := (i 1).isLt
  have hN : cfg11.N = 8 := N_11
  refine ⟨⟨(i 0).val / 32, by rw [hN]; omega⟩, flush11_4 _, ?_⟩
  rw [mem_blk11_4]
  obtain ⟨e0, e1, e2, e3, e4, e5, e6, e7, e8, e9⟩ := idx_facts11 ⟨(i 0).val / 32, by rw [hN]; omega⟩
  intro a
  match a with
  | ⟨0, _⟩ => show win11_4.index _ (0 : Fin 2) * 32 ≤ (i 0).val ∧ (i 0).val < win11_4.index _ (0 : Fin 2) * 32 + 32; rw [e8]; show (i 0).val / 32 * 32 ≤ (i 0).val ∧ (i 0).val < (i 0).val / 32 * 32 + 32; omega
  | ⟨1, _⟩ => show win11_4.index _ (1 : Fin 2) * 128 ≤ (i 1).val ∧ (i 1).val < win11_4.index _ (1 : Fin 2) * 128 + 128; rw [e9]; omega

/-- The first output array after the region: the array it finds plus the bias row. -/
theorem final11_3 (c : Dev nD) : (dat11 V c).arrAt 3 cfg11.N = biasG (V c main_v259) (V c main_v260) :=
  (dat11 V c).arrAt_eq_of_cover 3 _ (fun t _ => flushed11_3_eq V c t) covered11_3

/-- The second output array after the region: the batch traces of the biased array against the pattern. -/
theorem final11_4 (c : Dev nD) : (dat11 V c).arrAt 4 cfg11.N = traceG (V c main_v259) (V c main_v260) (V c main_v65) :=
  (dat11 V c).arrAt_eq_of_cover 4 _ (fun t _ => flushed11_4_eq V c t) covered11_4

end Cert.KernelIdeal.KV

end
-- ==== Proof.KFin12.lean ====
/-
  What weight-product region 12 leaves in its output array, as one function of the arrays it finds: entry (P, q) is the
  sum over k of row-block entry (P, k) times weight (k, q). Grid point t works on rows 4096·t … 4096·t + 4095; the weight
  block is the whole matrix at every point; the eight written blocks tile the 32768 rows.
-/
import proofs.«156722_j77687368450207_1_alg».proof.Proof.KReg12
import proofs.«156722_j77687368450207_1_alg».proof.Proof.KFin0
import proofs.«156722_j77687368450207_1_alg».proof.Proof.MathK
import proofs.«156722_j77687368450207_1_alg».proof.Proof.KSpec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product at an entry of the block. -/
theorem pay12 (x0 : Vec Ideal S4096x128 .f32) (x1 : Vec Ideal S128x128 .f32) (j : S4096x128.Idx) :
    Gen.k12_pay1 x0 x1 j = ∑ k : Fin 128, x0 (ix2 (j 0) k) * x1 (ix2 k (j 1)) := by
  rw [eq_ix2 j]; exact KM.matmul_zero_cast_apply x0 x1 _ _ _ _

/-- The index maps over the grid: the feature block and the output block are block t of their arrays, the weight block
    is block (0, 0). -/
theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- What point t writes back is block t of the product of the arrays the region finds. -/
theorem flushed12_2_eq (c : Dev nD) (t : Fin cfg12.N) :
    (dat12 V c).flushed 2 t = ((cfg12.win 2).blk t).view.read (Elt Ideal) (mmG (V c main_v261_0) (V c main_arg5)) := by
  show (cfg12.win 2).cut (grid12.coords t) ((dat12 V c).after 2 t) = _
  rw [after12_2]
  unfold out12_2
  rw [View.canon_unit_zero hz2]
  simp only [View.ld_unit_zero (S := S4096x128) hz2, View.ld_unit_zero (S := S128x128) hz2]
  obtain ⟨e0, e1, e2, e3, e4, e5⟩ := idx_facts12 t
  funext j
  refine (pay12 _ _ j).trans ?_
  show _ = mmG (V c main_v261_0) (V c main_arg5) (((cfg12.win 2).blk t).view.emb j)
  unfold mmG
  refine Finset.sum_congr rfl fun k _ => ?_
  refine congrArg₂ (· * ·) ?_ ?_
  · show (V c main_v261_0 : S32768x128.Idx → EReal) (((cfg12.win 0).blk t).view.emb (ix2 (j 0) k)) = _
    refine congrArg (V c main_v261_0 : S32768x128.Idx → EReal) ?_
    funext a; apply Fin.ext
    match a with
    | ⟨0, _⟩ => show win12_0.index t (0 : Fin 2) * 4096 + 1 * (j 0).val = win12_2.index t (0 : Fin 2) * 4096 + 1 * (j 0).val; omega
    | ⟨1, _⟩ => show win12_0.index t (1 : Fin 2) * 128 + 1 * k.val = k.val; omega
  · show (V c main_arg5 : S128x128.Idx → EReal) (((cfg12.win 1).blk t).view.emb (ix2 k (j 1))) = _
    refine congrArg (V c main_arg5 : S128x128.Idx → EReal) ?_
    funext a; apply Fin.ext
    match a with
    | ⟨0, _⟩ => show win12_1.index t (0 : Fin 2) * 128 + 1 * k.val = k.val; omega
    | ⟨1, _⟩ => show win12_1.index t (1 : Fin 2) * 128 + 1 * (j 1).val = win12_2.index t (1 : Fin 2) * 128 + 1 * (j 1).val; omega

/-- An index of the output array is in point t's block iff each coordinate is in the block's range. -/
theorem mem_blk12_2 (t : Fin cfg12.N) (i : S32768x128.Idx) :
    i ∈ ((cfg12.win 2).blk t).view.set ↔ ∀ a : Fin 2, win12_2.index t a * S4096x128.size a ≤ (i a).val ∧ (i a).val < win12_2.index t a * S4096x128.size a + S4096x128.size a := by
  show i ∈ ((View.whole main_v282).slice (win12_2.rect t)).set ↔ _
  rw [View.set_slice_whole, Rect.mem_set_unit]
  exact Iff.rfl

/-- Row r of the output is in the block of point r / 4096. -/
theorem covered12_2 (i : S32768x128.Idx) : ∃ t : Fin cfg12.N, (cfg12.win 2).flush t = true ∧ i ∈ ((cfg12.win 2).blk t).view.set := by
  have hi0 : (i 0).val < 32768 := (i 0).isLt
  have hi1 : (i 1).val < 128 := (i 1).isLt
  have hN : cfg12.N = 8 := N_12
  refine ⟨⟨(i 0).val / 4096, by rw [hN]; omega⟩, flush12_2 _, ?_⟩
  rw [mem_blk12_2]
  obtain ⟨e0, e1, e2, e3, e4, e5⟩ := idx_facts12 ⟨(i 0).val / 4096, by rw [hN]; omega⟩
  intro a
  match a with
  | ⟨0, _⟩ => show win12_2.index _ (0 : Fin 2) * 4096 ≤ (i 0).val ∧ (i 0).val < win12_2.index _ (0 : Fin 2) * 4096 + 4096; rw [e4]; show (i 0).val / 4096 * 4096 ≤ (i 0).val ∧ (i 0).val < (i 0).val / 4096 * 4096 + 4096; omega
  | ⟨1, _⟩ => show win12_2.index _ (1 : Fin 2) * 128 ≤ (i 1).val ∧ (i 1).val < win12_2.index _ (1 : Fin 2) * 128 + 128; rw [e5]; omega

/-- The output array after the region: the product of the arrays the region finds. -/
theorem final12_2 (c : Dev nD) : (dat12 V c).arrAt 2 cfg12.N = mmG (V c main_v261_0) (V c main_arg5) :=
  (dat12 V c).arrAt_eq_of_cover 2 _ (fun t _ => flushed12_2_eq V c t) covered12_2

end Cert.KernelIdeal.KV

end
-- ==== Proof.KFin13.lean ====
/-
  What bias-and-trace region 13 leaves in its two output arrays, as functions of the arrays it finds. First output: entry
  (P, q) is row-block entry (P, q) plus bias (0, q). Second output: entry (B, l) is, for the 128-row batch B, the double sum
  over i, j of (entry (128·B + i, j) + bias (0, j)) times pattern (i, j), the same in every lane l. Grid point t works on rows
  4096·t … 4096·t + 4095, that is batches 32·t … 32·t + 31; the bias row and the pattern are one block at every point; the
  eight written blocks tile each output.
-/
import proofs.«156722_j77687368450207_1_alg».proof.Proof.KReg13
import proofs.«156722_j77687368450207_1_alg».proof.Proof.KFin0
import proofs.«156722_j77687368450207_1_alg».proof.Proof.KSpec
import proofs.«156722_j77687368450207_1_alg».proof.Proof.MathK
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KF
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The bias step at entry (p, q) of the block. -/
theorem paybx13 (x0 : Vec Ideal S4096x128 .f32) (x1 : Vec Ideal S1x128 .f32) (p : Fin 4096) (q : Fin 128) :
    Gen.k13_pay1 x0 x1 (ix2 p q) = x0 (ix2 p q) + x1 (ix2 (0 : Fin 1) q) :=
  KM.bias_apply x0 x1 _ _ _ p q

theorem payb13 (x0 : Vec Ideal S4096x128 .f32) (x1 : Vec Ideal S1x128 .f32) (j : S4096x128.Idx) :
    Gen.k13_pay1 x0 x1 j = x0 (ix2 (j 0) (j 1)) + x1 (ix2 (0 : Fin 1) (j 1)) := by
  rw [eq_ix2 j]; exact paybx13 x0 x1 _ _

/-- The trace step at (s, l): the double sum, over batch s, of the biased rows times the pattern. -/
theorem paytx13 (x0 : Vec Ideal S4096x128 .f32) (x1 : Vec Ideal S1x128 .f32) (x2 : Vec Ideal S128x128 .f32)
    (s : Fin 32) (l : Fin 128) :
    Gen.k13_pay2 x0 x1 x2 (ix2 s l)
      = ∑ i : Fin 128, ∑ j : Fin 128,
          (x0 (ix2 ⟨s.val * 128 + i.val, by omega⟩ j) + x1 (ix2 (0 : Fin 1) j)) * x2 (ix2 i j) := by
  refine (KM.trace_apply (Gen.k13_pay1 x0 x1) x2 Gen.shapeCasts_S4096x128_S32x128x128 Gen.shapeCasts_S128x128_S128x128
    Gen.shapeCasts_S128x128_S1x128x128 Gen.broadcasts_S1x128x128_S32x128x128 Gen.reduces_S32x128x128_S32x128
    Gen.reduces_S32x128_S32 (.inl rfl) rfl Gen.shapeCasts_S32_S32x1 Gen.shapeCasts_S32x1_S32x1
    Gen.broadcasts_S32x1_S32x128 s l).trans ?_
  refine Finset.sum_congr rfl fun i _ => Finset.sum_congr rfl fun j _ => ?_
  rw [paybx13]

theorem payt13 (x0 : Vec Ideal S4096x128 .f32) (x1 : Vec Ideal S1x128 .f32) (x2 : Vec Ideal S128x128 .f32) (j : S32x128.Idx) :
    Gen.k13_pay2 x0 x1 x2 j
      = ∑ p : Fin 128, ∑ q : Fin 128,
          (x0 (ix2 ⟨(j 0).val * 128 + p.val, by have h : (j 0).val < 32 := (j 0).isLt; omega⟩ q) + x1 (ix2 (0 : Fin 1) q)) * x2 (ix2 p q) := by
  rw [eq_ix2 j]; exact paytx13 x0 x1 x2 _ _

/-- The index maps over the grid: the row block and both output blocks are block t of their arrays; the bias row and the
    pattern are block (0, 0). -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0 :=
  (by decide +kernel : ∀ t : Fin grid13.N, _)

/-- What point t writes back to the first output is block t of the biased array. -/
theorem flushed13_3_eq (c : Dev nD) (t : Fin cfg13.N) :
    (dat13 V c).flushed 3 t = ((cfg13.win 3).blk t).view.read (Elt Ideal) (biasG (V c main_v295) (V c main_v296)) := by
  show (cfg13.win 3).cut (grid13.coords t) ((dat13 V c).after 3 t) = _
  rw [after13_3]
  unfold out13_3
  rw [View.canon_unit_zero hz2]
  simp only [View.ld_unit_zero (S := S4096x128) hz2, View.ld_unit_zero (S := S1x128) hz2]
  obtain ⟨e0, e1, e2, e3, e4, e5, e6, e7, e8, e9⟩ := idx_facts13 t
  funext j
  refine (payb13 _ _ j).trans ?_
  show _ = biasG (V c main_v295) (V c main_v296) (((cfg13.win 3).blk t).view.emb j)
  unfold biasG
  refine congrArg₂ (· + ·) ?_ ?_
  · show (V c main_v295 : S32768x128.Idx → EReal) (((cfg13.win 0).blk t).view.emb (ix2 (j 0) (j 1))) = _
    refine congrArg (V c main_v295 : S32768x128.Idx → EReal) ?_
    funext a; apply Fin.ext
    match a with
    | ⟨0, _⟩ => show win13_0.index t (0 : Fin 2) * 4096 + 1 * (j 0).val = win13_3.index t (0 : Fin 2) * 4096 + 1 * (j 0).val; omega
    | ⟨1, _⟩ => show win13_0.index t (1 : Fin 2) * 128 + 1 * (j 1).val = win13_3.index t (1 : Fin 2) * 128 + 1 * (j 1).val; omega
  · show (V c main_v296 : S1x128.Idx → EReal) (((cfg13.win 1).blk t).view.emb (ix2 (0 : Fin 1) (j 1))) = _
    refine congrArg (V c main_v296 : S1x128.Idx → EReal) ?_
    funext a; apply Fin.ext
    match a with
    | ⟨0, _⟩ => show win13_1.index t (0 : Fin 2) * 1 + 1 * 0 = 0; omega
    | ⟨1, _⟩ => show win13_1.index t (1 : Fin 2) * 128 + 1 * (j 1).val = win13_3.index t (1 : Fin 2) * 128 + 1 * (j 1).val; omega

/-- What point t writes back to the second output is block t of the batch traces. -/
theorem flushed13_4_eq (c : Dev nD) (t : Fin cfg13.N) :
    (dat13 V c).flushed 4 t = ((cfg13.win 4).blk t).view.read (Elt Ideal) (traceG (V c main_v295) (V c main_v296) (V c main_v65)) := by
  show (cfg13.win 4).cut (grid13.coords t) ((dat13 V c).after 4 t) = _
  rw [after13_4]
  unfold out13_4
  rw [View.canon_unit_zero hz2]
  simp only [View.ld_unit_zero (S := S4096x128) hz2, View.ld_unit_zero (S := S1x128) hz2, View.ld_unit_zero (S := S128x128) hz2]
  obtain ⟨e0, e1, e2, e3, e4, e5, e6, e7, e8, e9⟩ := idx_facts13 t
  funext j
  refine (payt13 _ _ _ j).trans ?_
  show _ = traceG (V c main_v295) (V c main_v296) (V c main_v65) (((cfg13.win 4).blk t).view.emb j)
  unfold traceG
  refine Finset.sum_congr rfl fun p _ => Finset.sum_congr rfl fun q _ => ?_
  refine congrArg₂ (· * ·) (congrArg₂ (· + ·) ?_ ?_) ?_
  · show (V c main_v295 : S32768x128.Idx → EReal) (((cfg13.win 0).blk t).view.emb (ix2 ⟨(j 0).val * 128 + p.val, _⟩ q)) = _
    refine congrArg (V c main_v295 : S32768x128.Idx → EReal) ?_
    funext a; apply Fin.ext
    match a with
    | ⟨0, _⟩ => show win13_0.index t (0 : Fin 2) * 4096 + 1 * ((j 0).val * 128 + p.val) = (win13_4.index t (0 : Fin 2) * 32 + 1 * (j 0).val) * 128 + p.val; omega
    | ⟨1, _⟩ => show win13_0.index t (1 : Fin 2) * 128 + 1 * q.val = q.val; omega
  · show (V c main_v296 : S1x128.Idx → EReal) (((cfg13.win 1).blk t).view.emb (ix2 (0 : Fin 1) q)) = _
    refine congrArg (V c main_v296 : S1x128.Idx → EReal) ?_
    funext a; apply Fin.ext
    match a with
    | ⟨0, _⟩ => show win13_1.index t (0 : Fin 2) * 1 + 1 * 0 = 0; omega
    | ⟨1, _⟩ => show win13_1.index t (1 : Fin 2) * 128 + 1 * q.val = q.val; omega
  · show (V c main_v65 : S128x128.Idx → EReal) (((cfg13.win 2).blk t).view.emb (ix2 p q)) = _
    refine congrArg (V c main_v65 : S128x128.Idx → EReal) ?_
    funext a; apply Fin.ext
    match a with
    | ⟨0, _⟩ => show win13_2.index t (0 : Fin 2) * 128 + 1 * p.val = p.val; omega
    | ⟨1, _⟩ => show win13_2.index t (1 : Fin 2) * 128 + 1 * q.val = q.val; omega

/-- An index of the first output array is in point t's block iff each coordinate is in the block's range. -/
theorem mem_blk13_3 (t : Fin cfg13.N) (i : S32768x128.Idx) :
    i ∈ ((cfg13.win 3).blk t).view.set ↔ ∀ a : Fin 2, win13_3.index t a * S4096x128.size a ≤ (i a).val ∧ (i a).val < win13_3.index t a * S4096x128.size a + S4096x128.size a := by
  show i ∈ ((View.whole main_v297_0).slice (win13_3.rect t)).set ↔ _
  rw [View.set_slice_whole, Rect.mem_set_unit]
  exact Iff.rfl

/-- Row r of the first output is in the block of point r / 4096. -/
theorem covered13_3 (i : S32768x128.Idx) : ∃ t : Fin cfg13.N, (cfg13.win 3).flush t = true ∧ i ∈ ((cfg13.win 3).blk t).view.set := by
  have hi0 : (i 0).val < 32768 := (i 0).isLt
  have hi1 : (i 1).val < 128 := (i 1).isLt
  have hN : cfg13.N = 8 := N_13
  refine ⟨⟨(i 0).val / 4096, by rw [hN]; omega⟩, flush13_3 _, ?_⟩
  rw [mem_blk13_3]
  obtain ⟨e0, e1, e2, e3, e4, e5, e6, e7, e8, e9⟩ := idx_facts13 ⟨(i 0).val / 4096, by rw [hN]; omega⟩
  intro a
  match a with
  | ⟨0, _⟩ => show win13_3.index _ (0 : Fin 2) * 4096 ≤ (i 0).val ∧ (i 0).val < win13_3.index _ (0 : Fin 2) * 4096 + 4096; rw [e6]; show (i 0).val / 4096 * 4096 ≤ (i 0).val ∧ (i 0).val < (i 0).val / 4096 * 4096 + 4096; omega
  | ⟨1, _⟩ => show win13_3.index _ (1 : Fin 2) * 128 ≤ (i 1).val ∧ (i 1).val < win13_3.index _ (1 : Fin 2) * 128 + 128; rw [e7]; omega

/-- An index of the second output array is in point t's block iff each coordinate is in the block's range. -/
theorem mem_blk13_4 (t : Fin cfg13.N) (i : S256x128.Idx) :
    i ∈ ((cfg13.win 4).blk t).view.set ↔ ∀ a : Fin 2, win13_4.index t a * S32x128.size a ≤ (i a).val ∧ (i a).val < win13_4.index t a * S32x128.size a + S32x128.size a := by
  show i ∈ ((View.whole main_v297_1).slice (win13_4.rect t)).set ↔ _
  rw [View.set_slice_whole, Rect.mem_set_unit]
  exact Iff.rfl

/-- Batch r of the second output is in the block of point r / 32. -/
theorem covered13_4 (i : S256x128.Idx) : ∃ t : Fin cfg13.N, (cfg13.win 4).flush t = true ∧ i ∈ ((cfg13.win 4).blk t).view.set := by
  have hi0 : (i 0).val < 256 := (i 0).isLt
  have hi1 : (i 1).val < 128 := (i 1).isLt
  have hN : cfg13.N = 8 := N_13
  refine ⟨⟨(i 0).val / 32, by rw [hN]; omega⟩, flush13_4 _, ?_⟩
  rw [mem_blk13_4]
  obtain ⟨e0, e1, e2, e3, e4, e5, e6, e7, e8, e9⟩ := idx_facts13 ⟨(i 0).val / 32, by rw [hN]; omega⟩
  intro a
  match a with
  | ⟨0, _⟩ => show win13_4.index _ (0 : Fin 2) * 32 ≤ (i 0).val ∧ (i 0).val < win13_4.index _ (0 : Fin 2) * 32 + 32; rw [e8]; show (i 0).val / 32 * 32 ≤ (i 0).val ∧ (i 0).val < (i 0).val / 32 * 32 + 32; omega
  | ⟨1, _⟩ => show win13_4.index _ (1 : Fin 2) * 128 ≤ (i 1).val ∧ (i 1).val < win13_4.index _ (1 : Fin 2) * 128 + 128; rw [e9]; omega

/-- The first output array after the region: the array it finds plus the bias row. -/
theorem final13_3 (c : Dev nD) : (dat13 V c).arrAt 3 cfg13.N = biasG (V c main_v295) (V c main_v296) :=
  (dat13 V c).arrAt_eq_of_cover 3 _ (fun t _ => flushed13_3_eq V c t) covered13_3

/-- The second output array after the region: the batch traces of the biased array against the pattern. -/
theorem final13_4 (c : Dev nD) : (dat13 V c).arrAt 4 cfg13.N = traceG (V c main_v295) (V c main_v296) (V c main_v65) :=
  (dat13 V c).arrAt_eq_of_cover 4 _ (fun t _ => flushed13_4_eq V c t) covered13_4

end Cert.KernelIdeal.KV

end
-- ==== Proof.KOps.lean ====
/-
  The fold of the kernel program's buffer contents is the fold of one line of operations: at a region's exit the
  contents are those at its entry with the region's operation applied — the output array holds the region's function
  of the input arrays (the regions' closed forms), the input arrays are as entered, and no other buffer is touched.
-/
import proofs.«156722_j77687368450207_1_alg».proof.Proof.KRun
import proofs.«156722_j77687368450207_1_alg».proof.Proof.KOpsDefs
import proofs.«156722_j77687368450207_1_alg».proof.Proof.KFin0
import proofs.«156722_j77687368450207_1_alg».proof.Proof.KFin1
import proofs.«156722_j77687368450207_1_alg».proof.Proof.KFin2
import proofs.«156722_j77687368450207_1_alg».proof.Proof.KFin3
import proofs.«156722_j77687368450207_1_alg».proof.Proof.KFin4
import proofs.«156722_j77687368450207_1_alg».proof.Proof.KFin5
import proofs.«156722_j77687368450207_1_alg».proof.Proof.KFin6
import proofs.«156722_j77687368450207_1_alg».proof.Proof.KFin7
import proofs.«156722_j77687368450207_1_alg».proof.Proof.KFin8
import proofs.«156722_j77687368450207_1_alg».proof.Proof.KFin9
import proofs.«156722_j77687368450207_1_alg».proof.Proof.KFin10
import proofs.«156722_j77687368450207_1_alg».proof.Proof.KFin11
import proofs.«156722_j77687368450207_1_alg».proof.Proof.KFin12
import proofs.«156722_j77687368450207_1_alg».proof.Proof.KFin13

set_option maxRecDepth 16384

noncomputable section

namespace Cert.KernelIdeal.KV

open Cert.KernelIdeal Cert.KernelIdeal.Gen Cert.KernelIdeal.KF
open Idealize.ShloMosaic Idealize.ShloMosaic.TcCoe
open Idealize.SL.Sem

variable (m : (ℓ : Loc nD τ sig) → Buf (Elt Ideal) ℓ) (ρ : Dev nD → PrngReg)

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

theorem after_cons' (op : HloOp τ sig (Elt Ideal)) (l : List (HloOp τ sig (Elt Ideal))) (V : Valuation τ sig (Elt Ideal)) :
    StableHlo.after (op :: l) V = StableHlo.after l (op.result V) := rfl

/-- Region 0: the exit contents are the entry contents with the weight product written. -/
theorem W6_step (c : Dev nD) : W6 m ρ c = pmm0.result (W5 m ρ c) := by
  funext b
  by_cases hb : b = (Proc.devRef .tc main_v66 : DevRef τ sig)
  · subst hb
    rw [StableHlo.binary_result]
    exact (W6_arr m ρ c 2).trans (final0_2 (V5 m ρ) c)
  · rw [HloOp.result_of_not_mem _ _ (show b ∉ (pmm0 : HloOp τ sig (Elt Ideal)).writes from fun h => hb (Finset.mem_singleton.mp h))]
    by_cases h0 : b = (Proc.devRef .tc main_arg0 : DevRef τ sig)
    · subst h0
      exact (W6_arr m ρ c 0).trans (((dat0 (V5 m ρ) c).arrAt_in 0 rfl _).trans (A_eq0 (V5 m ρ) c 0))
    by_cases h1 : b = (Proc.devRef .tc main_arg5 : DevRef τ sig)
    · subst h1
      exact (W6_arr m ρ c 1).trans (((dat0 (V5 m ρ) c).arrAt_in 1 rfl _).trans (A_eq0 (V5 m ρ) c 1))
    unfold W6 Pipeline.withArrays
    rw [dif_neg]
    rintro ⟨w, rfl⟩
    match w with
    | ⟨0, _⟩ => exact h0 rfl
    | ⟨1, _⟩ => exact h1 rfl
    | ⟨2, _⟩ => exact hb rfl

/-- Region 1: the exit contents are the entry contents with the biased array and the blocks' sums written. -/
theorem W8_step (c : Dev nD) : W8 m ρ c = pt1.result (pb1.result (W7 m ρ c)) := by
  funext b
  by_cases hb4 : b = (Proc.devRef .tc main_v81_1 : DevRef τ sig)
  · subst hb4
    rw [StableHlo.ternary_result]
    refine ((W8_arr m ρ c 4).trans (final1_4 (V7 m ρ) c)).trans ?_
    rw [HloOp.result_of_not_mem _ _ (show (Proc.devRef .tc main_v79 : DevRef τ sig) ∉ (pb1 : HloOp τ sig (Elt Ideal)).writes from fun h => absurd (Proc.devRef_injective _ (Finset.mem_singleton.mp h)) (by decide)),
      HloOp.result_of_not_mem _ _ (show (Proc.devRef .tc main_v80 : DevRef τ sig) ∉ (pb1 : HloOp τ sig (Elt Ideal)).writes from fun h => absurd (Proc.devRef_injective _ (Finset.mem_singleton.mp h)) (by decide)),
      HloOp.result_of_not_mem _ _ (show (Proc.devRef .tc main_v65 : DevRef τ sig) ∉ (pb1 : HloOp τ sig (Elt Ideal)).writes from fun h => absurd (Proc.devRef_injective _ (Finset.mem_singleton.mp h)) (by decide))]
  · rw [HloOp.result_of_not_mem _ _ (show b ∉ (pt1 : HloOp τ sig (Elt Ideal)).writes from fun h => hb4 (Finset.mem_singleton.mp h))]
    by_cases hb3 : b = (Proc.devRef .tc main_v81_0 : DevRef τ sig)
    · subst hb3
      rw [StableHlo.binary_result]
      exact (W8_arr m ρ c 3).trans (final1_3 (V7 m ρ) c)
    rw [HloOp.result_of_not_mem _ _ (show b ∉ (pb1 : HloOp τ sig (Elt Ideal)).writes from fun h => hb3 (Finset.mem_singleton.mp h))]
    by_cases h0 : b = (Proc.devRef .tc main_v79 : DevRef τ sig)
    · subst h0
      exact (W8_arr m ρ c 0).trans (((dat1 (V7 m ρ) c).arrAt_in 0 rfl _).trans (A_eq1 (V7 m ρ) c 0))
    by_cases h1 : b = (Proc.devRef .tc main_v80 : DevRef τ sig)
    · subst h1
      exact (W8_arr m ρ c 1).trans (((dat1 (V7 m ρ) c).arrAt_in 1 rfl _).trans (A_eq1 (V7 m ρ) c 1))
    by_cases h2 : b = (Proc.devRef .tc main_v65 : DevRef τ sig)
    · subst h2
      exact (W8_arr m ρ c 2).trans (((dat1 (V7 m ρ) c).arrAt_in 2 rfl _).trans (A_eq1 (V7 m ρ) c 2))
    unfold W8 Pipeline.withArrays
    rw [dif_neg]
    rintro ⟨w, rfl⟩
    match w with
    | ⟨0, _⟩ => exact h0 rfl
    | ⟨1, _⟩ => exact h1 rfl
    | ⟨2, _⟩ => exact h2 rfl
    | ⟨3, _⟩ => exact hb3 rfl
    | ⟨4, _⟩ => exact hb4 rfl

/-- Walk step 1 as a whole. -/
theorem W10_eq (c : Dev nD) : W10 m ρ c = StableHlo.after Kit0 (W5 m ρ c) := by
  show StableHlo.after hostOps2_1 (StableHlo.after hostOps2 (W8 m ρ c)) = _
  rw [W8_step]
  show StableHlo.after hostOps2_1 (StableHlo.after hostOps2 (pt1.result (pb1.result (StableHlo.after hostOps1 (W6 m ρ c))))) = _
  rw [W6_step]
  simp only [Kit0, after_cons', after_app]

/-- Region 2: the exit contents are the entry contents with the weight product written. -/
theorem W11_step (c : Dev nD) : W11 m ρ c = pmm2.result (W10 m ρ c) := by
  funext b
  by_cases hb : b = (Proc.devRef .tc main_v102 : DevRef τ sig)
  · subst hb
    rw [StableHlo.binary_result]
    exact (W11_arr m ρ c 2).trans (final2_2 (V10 m ρ) c)
  · rw [HloOp.result_of_not_mem _ _ (show b ∉ (pmm2 : HloOp τ sig (Elt Ideal)).writes from fun h => hb (Finset.mem_singleton.mp h))]
    by_cases h0 : b = (Proc.devRef .tc main_v81_0 : DevRef τ sig)
    · subst h0
      exact (W11_arr m ρ c 0).trans (((dat2 (V10 m ρ) c).arrAt_in 0 rfl _).trans (A_eq2 (V10 m ρ) c 0))
    by_cases h1 : b = (Proc.devRef .tc main_arg5 : DevRef τ sig)
    · subst h1
      exact (W11_arr m ρ c 1).trans (((dat2 (V10 m ρ) c).arrAt_in 1 rfl _).trans (A_eq2 (V10 m ρ) c 1))
    unfold W11 Pipeline.withArrays
    rw [dif_neg]
    rintro ⟨w, rfl⟩
    match w with
    | ⟨0, _⟩ => exact h0 rfl
    | ⟨1, _⟩ => exact h1 rfl
    | ⟨2, _⟩ => exact hb rfl

/-- Region 3: the exit contents are the entry contents with the biased array and the blocks' sums written. -/
theorem W13_step (c : Dev nD) : W13 m ρ c = pt3.result (pb3.result (W12 m ρ c)) := by
  funext b
  by_cases hb4 : b = (Proc.devRef .tc main_v117_1 : DevRef τ sig)
  · subst hb4
    rw [StableHlo.ternary_result]
    refine ((W13_arr m ρ c 4).trans (final3_4 (V12 m ρ) c)).trans ?_
    rw [HloOp.result_of_not_mem _ _ (show (Proc.devRef .tc main_v115 : DevRef τ sig) ∉ (pb3 : HloOp τ sig (Elt Ideal)).writes from fun h => absurd (Proc.devRef_injective _ (Finset.mem_singleton.mp h)) (by decide)),
      HloOp.result_of_not_mem _ _ (show (Proc.devRef .tc main_v116 : DevRef τ sig) ∉ (pb3 : HloOp τ sig (Elt Ideal)).writes from fun h => absurd (Proc.devRef_injective _ (Finset.mem_singleton.mp h)) (by decide)),
      HloOp.result_of_not_mem _ _ (show (Proc.devRef .tc main_v65 : DevRef τ sig) ∉ (pb3 : HloOp τ sig (Elt Ideal)).writes from fun h => absurd (Proc.devRef_injective _ (Finset.mem_singleton.mp h)) (by decide))]
  · rw [HloOp.result_of_not_mem _ _ (show b ∉ (pt3 : HloOp τ sig (Elt Ideal)).writes from fun h => hb4 (Finset.mem_singleton.mp h))]
    by_cases hb3 : b = (Proc.devRef .tc main_v117_0 : DevRef τ sig)
    · subst hb3
      rw [StableHlo.binary_result]
      exact (W13_arr m ρ c 3).trans (final3_3 (V12 m ρ) c)
    rw [HloOp.result_of_not_mem _ _ (show b ∉ (pb3 : HloOp τ sig (Elt Ideal)).writes from fun h => hb3 (Finset.mem_singleton.mp h))]
    by_cases h0 : b = (Proc.devRef .tc main_v115 : DevRef τ sig)
    · subst h0
      exact (W13_arr m ρ c 0).trans (((dat3 (V12 m ρ) c).arrAt_in 0 rfl _).trans (A_eq3 (V12 m ρ) c 0))
    by_cases h1 : b = (Proc.devRef .tc main_v116 : DevRef τ sig)
    · subst h1
      exact (W13_arr m ρ c 1).trans (((dat3 (V12 m ρ) c).arrAt_in 1 rfl _).trans (A_eq3 (V12 m ρ) c 1))
    by_cases h2 : b = (Proc.devRef .tc main_v65 : DevRef τ sig)
    · subst h2
      exact (W13_arr m ρ c 2).trans (((dat3 (V12 m ρ) c).arrAt_in 2 rfl _).trans (A_eq3 (V12 m ρ) c 2))
    unfold W13 Pipeline.withArrays
    rw [dif_neg]
    rintro ⟨w, rfl⟩
    match w with
    | ⟨0, _⟩ => exact h0 rfl
    | ⟨1, _⟩ => exact h1 rfl
    | ⟨2, _⟩ => exact h2 rfl
    | ⟨3, _⟩ => exact hb3 rfl
    | ⟨4, _⟩ => exact hb4 rfl

/-- Walk step 2 as a whole. -/
theorem W15_eq (c : Dev nD) : W15 m ρ c = StableHlo.after Kit1 (W10 m ρ c) := by
  show StableHlo.after hostOps4_1 (StableHlo.after hostOps4 (W13 m ρ c)) = _
  rw [W13_step]
  show StableHlo.after hostOps4_1 (StableHlo.after hostOps4 (pt3.result (pb3.result (StableHlo.after hostOps3 (W11 m ρ c))))) = _
  rw [W11_step]
  simp only [Kit1, after_cons', after_app]

/-- Region 4: the exit contents are the entry contents with the weight product written. -/
theorem W16_step (c : Dev nD) : W16 m ρ c = pmm4.result (W15 m ρ c) := by
  funext b
  by_cases hb : b = (Proc.devRef .tc main_v138 : DevRef τ sig)
  · subst hb
    rw [StableHlo.binary_result]
    exact (W16_arr m ρ c 2).trans (final4_2 (V15 m ρ) c)
  · rw [HloOp.result_of_not_mem _ _ (show b ∉ (pmm4 : HloOp τ sig (Elt Ideal)).writes from fun h => hb (Finset.mem_singleton.mp h))]
    by_cases h0 : b = (Proc.devRef .tc main_v117_0 : DevRef τ sig)
    · subst h0
      exact (W16_arr m ρ c 0).trans (((dat4 (V15 m ρ) c).arrAt_in 0 rfl _).trans (A_eq4 (V15 m ρ) c 0))
    by_cases h1 : b = (Proc.devRef .tc main_arg5 : DevRef τ sig)
    · subst h1
      exact (W16_arr m ρ c 1).trans (((dat4 (V15 m ρ) c).arrAt_in 1 rfl _).trans (A_eq4 (V15 m ρ) c 1))
    unfold W16 Pipeline.withArrays
    rw [dif_neg]
    rintro ⟨w, rfl⟩
    match w with
    | ⟨0, _⟩ => exact h0 rfl
    | ⟨1, _⟩ => exact h1 rfl
    | ⟨2, _⟩ => exact hb rfl

/-- Region 5: the exit contents are the entry contents with the biased array and the blocks' sums written. -/
theorem W18_step (c : Dev nD) : W18 m ρ c = pt5.result (pb5.result (W17 m ρ c)) := by
  funext b
  by_cases hb4 : b = (Proc.devRef .tc main_v153_1 : DevRef τ sig)
  · subst hb4
    rw [StableHlo.ternary_result]
    refine ((W18_arr m ρ c 4).trans (final5_4 (V17 m ρ) c)).trans ?_
    rw [HloOp.result_of_not_mem _ _ (show (Proc.devRef .tc main_v151 : DevRef τ sig) ∉ (pb5 : HloOp τ sig (Elt Ideal)).writes from fun h => absurd (Proc.devRef_injective _ (Finset.mem_singleton.mp h)) (by decide)),
      HloOp.result_of_not_mem _ _ (show (Proc.devRef .tc main_v152 : DevRef τ sig) ∉ (pb5 : HloOp τ sig (Elt Ideal)).writes from fun h => absurd (Proc.devRef_injective _ (Finset.mem_singleton.mp h)) (by decide)),
      HloOp.result_of_not_mem _ _ (show (Proc.devRef .tc main_v65 : DevRef τ sig) ∉ (pb5 : HloOp τ sig (Elt Ideal)).writes from fun h => absurd (Proc.devRef_injective _ (Finset.mem_singleton.mp h)) (by decide))]
  · rw [HloOp.result_of_not_mem _ _ (show b ∉ (pt5 : HloOp τ sig (Elt Ideal)).writes from fun h => hb4 (Finset.mem_singleton.mp h))]
    by_cases hb3 : b = (Proc.devRef .tc main_v153_0 : DevRef τ sig)
    · subst hb3
      rw [StableHlo.binary_result]
      exact (W18_arr m ρ c 3).trans (final5_3 (V17 m ρ) c)
    rw [HloOp.result_of_not_mem _ _ (show b ∉ (pb5 : HloOp τ sig (Elt Ideal)).writes from fun h => hb3 (Finset.mem_singleton.mp h))]
    by_cases h0 : b = (Proc.devRef .tc main_v151 : DevRef τ sig)
    · subst h0
      exact (W18_arr m ρ c 0).trans (((dat5 (V17 m ρ) c).arrAt_in 0 rfl _).trans (A_eq5 (V17 m ρ) c 0))
    by_cases h1 : b = (Proc.devRef .tc main_v152 : DevRef τ sig)
    · subst h1
      exact (W18_arr m ρ c 1).trans (((dat5 (V17 m ρ) c).arrAt_in 1 rfl _).trans (A_eq5 (V17 m ρ) c 1))
    by_cases h2 : b = (Proc.devRef .tc main_v65 : DevRef τ sig)
    · subst h2
      exact (W18_arr m ρ c 2).trans (((dat5 (V17 m ρ) c).arrAt_in 2 rfl _).trans (A_eq5 (V17 m ρ) c 2))
    unfold W18 Pipeline.withArrays
    rw [dif_neg]
    rintro ⟨w, rfl⟩
    match w with
    | ⟨0, _⟩ => exact h0 rfl
    | ⟨1, _⟩ => exact h1 rfl
    | ⟨2, _⟩ => exact h2 rfl
    | ⟨3, _⟩ => exact hb3 rfl
    | ⟨4, _⟩ => exact hb4 rfl

/-- Walk step 3 as a whole. -/
theorem W20_eq (c : Dev nD) : W20 m ρ c = StableHlo.after Kit2 (W15 m ρ c) := by
  show StableHlo.after hostOps6_1 (StableHlo.after hostOps6 (W18 m ρ c)) = _
  rw [W18_step]
  show StableHlo.after hostOps6_1 (StableHlo.after hostOps6 (pt5.result (pb5.result (StableHlo.after hostOps5 (W16 m ρ c))))) = _
  rw [W16_step]
  simp only [Kit2, after_cons', after_app]

/-- Region 6: the exit contents are the entry contents with the weight product written. -/
theorem W21_step (c : Dev nD) : W21 m ρ c = pmm6.result (W20 m ρ c) := by
  funext b
  by_cases hb : b = (Proc.devRef .tc main_v174 : DevRef τ sig)
  · subst hb
    rw [StableHlo.binary_result]
    exact (W21_arr m ρ c 2).trans (final6_2 (V20 m ρ) c)
  · rw [HloOp.result_of_not_mem _ _ (show b ∉ (pmm6 : HloOp τ sig (Elt Ideal)).writes from fun h => hb (Finset.mem_singleton.mp h))]
    by_cases h0 : b = (Proc.devRef .tc main_v153_0 : DevRef τ sig)
    · subst h0
      exact (W21_arr m ρ c 0).trans (((dat6 (V20 m ρ) c).arrAt_in 0 rfl _).trans (A_eq6 (V20 m ρ) c 0))
    by_cases h1 : b = (Proc.devRef .tc main_arg5 : DevRef τ sig)
    · subst h1
      exact (W21_arr m ρ c 1).trans (((dat6 (V20 m ρ) c).arrAt_in 1 rfl _).trans (A_eq6 (V20 m ρ) c 1))
    unfold W21 Pipeline.withArrays
    rw [dif_neg]
    rintro ⟨w, rfl⟩
    match w with
    | ⟨0, _⟩ => exact h0 rfl
    | ⟨1, _⟩ => exact h1 rfl
    | ⟨2, _⟩ => exact hb rfl

/-- Region 7: the exit contents are the entry contents with the biased array and the blocks' sums written. -/
theorem W23_step (c : Dev nD) : W23 m ρ c = pt7.result (pb7.result (W22 m ρ c)) := by
  funext b
  by_cases hb4 : b = (Proc.devRef .tc main_v189_1 : DevRef τ sig)
  · subst hb4
    rw [StableHlo.ternary_result]
    refine ((W23_arr m ρ c 4).trans (final7_4 (V22 m ρ) c)).trans ?_
    rw [HloOp.result_of_not_mem _ _ (show (Proc.devRef .tc main_v187 : DevRef τ sig) ∉ (pb7 : HloOp τ sig (Elt Ideal)).writes from fun h => absurd (Proc.devRef_injective _ (Finset.mem_singleton.mp h)) (by decide)),
      HloOp.result_of_not_mem _ _ (show (Proc.devRef .tc main_v188 : DevRef τ sig) ∉ (pb7 : HloOp τ sig (Elt Ideal)).writes from fun h => absurd (Proc.devRef_injective _ (Finset.mem_singleton.mp h)) (by decide)),
      HloOp.result_of_not_mem _ _ (show (Proc.devRef .tc main_v65 : DevRef τ sig) ∉ (pb7 : HloOp τ sig (Elt Ideal)).writes from fun h => absurd (Proc.devRef_injective _ (Finset.mem_singleton.mp h)) (by decide))]
  · rw [HloOp.result_of_not_mem _ _ (show b ∉ (pt7 : HloOp τ sig (Elt Ideal)).writes from fun h => hb4 (Finset.mem_singleton.mp h))]
    by_cases hb3 : b = (Proc.devRef .tc main_v189_0 : DevRef τ sig)
    · subst hb3
      rw [StableHlo.binary_result]
      exact (W23_arr m ρ c 3).trans (final7_3 (V22 m ρ) c)
    rw [HloOp.result_of_not_mem _ _ (show b ∉ (pb7 : HloOp τ sig (Elt Ideal)).writes from fun h => hb3 (Finset.mem_singleton.mp h))]
    by_cases h0 : b = (Proc.devRef .tc main_v187 : DevRef τ sig)
    · subst h0
      exact (W23_arr m ρ c 0).trans (((dat7 (V22 m ρ) c).arrAt_in 0 rfl _).trans (A_eq7 (V22 m ρ) c 0))
    by_cases h1 : b = (Proc.devRef .tc main_v188 : DevRef τ sig)
    · subst h1
      exact (W23_arr m ρ c 1).trans (((dat7 (V22 m ρ) c).arrAt_in 1 rfl _).trans (A_eq7 (V22 m ρ) c 1))
    by_cases h2 : b = (Proc.devRef .tc main_v65 : DevRef τ sig)
    · subst h2
      exact (W23_arr m ρ c 2).trans (((dat7 (V22 m ρ) c).arrAt_in 2 rfl _).trans (A_eq7 (V22 m ρ) c 2))
    unfold W23 Pipeline.withArrays
    rw [dif_neg]
    rintro ⟨w, rfl⟩
    match w with
    | ⟨0, _⟩ => exact h0 rfl
    | ⟨1, _⟩ => exact h1 rfl
    | ⟨2, _⟩ => exact h2 rfl
    | ⟨3, _⟩ => exact hb3 rfl
    | ⟨4, _⟩ => exact hb4 rfl

/-- Walk step 4 as a whole. -/
theorem W25_eq (c : Dev nD) : W25 m ρ c = StableHlo.after Kit3 (W20 m ρ c) := by
  show StableHlo.after hostOps8_1 (StableHlo.after hostOps8 (W23 m ρ c)) = _
  rw [W23_step]
  show StableHlo.after hostOps8_1 (StableHlo.after hostOps8 (pt7.result (pb7.result (StableHlo.after hostOps7 (W21 m ρ c))))) = _
  rw [W21_step]
  simp only [Kit3, after_cons', after_app]

/-- Region 8: the exit contents are the entry contents with the weight product written. -/
theorem W26_step (c : Dev nD) : W26 m ρ c = pmm8.result (W25 m ρ c) := by
  funext b
  by_cases hb : b = (Proc.devRef .tc main_v210 : DevRef τ sig)
  · subst hb
    rw [StableHlo.binary_result]
    exact (W26_arr m ρ c 2).trans (final8_2 (V25 m ρ) c)
  · rw [HloOp.result_of_not_mem _ _ (show b ∉ (pmm8 : HloOp τ sig (Elt Ideal)).writes from fun h => hb (Finset.mem_singleton.mp h))]
    by_cases h0 : b = (Proc.devRef .tc main_v189_0 : DevRef τ sig)
    · subst h0
      exact (W26_arr m ρ c 0).trans (((dat8 (V25 m ρ) c).arrAt_in 0 rfl _).trans (A_eq8 (V25 m ρ) c 0))
    by_cases h1 : b = (Proc.devRef .tc main_arg5 : DevRef τ sig)
    · subst h1
      exact (W26_arr m ρ c 1).trans (((dat8 (V25 m ρ) c).arrAt_in 1 rfl _).trans (A_eq8 (V25 m ρ) c 1))
    unfold W26 Pipeline.withArrays
    rw [dif_neg]
    rintro ⟨w, rfl⟩
    match w with
    | ⟨0, _⟩ => exact h0 rfl
    | ⟨1, _⟩ => exact h1 rfl
    | ⟨2, _⟩ => exact hb rfl

/-- Region 9: the exit contents are the entry contents with the biased array and the blocks' sums written. -/
theorem W28_step (c : Dev nD) : W28 m ρ c = pt9.result (pb9.result (W27 m ρ c)) := by
  funext b
  by_cases hb4 : b = (Proc.devRef .tc main_v225_1 : DevRef τ sig)
  · subst hb4
    rw [StableHlo.ternary_result]
    refine ((W28_arr m ρ c 4).trans (final9_4 (V27 m ρ) c)).trans ?_
    rw [HloOp.result_of_not_mem _ _ (show (Proc.devRef .tc main_v223 : DevRef τ sig) ∉ (pb9 : HloOp τ sig (Elt Ideal)).writes from fun h => absurd (Proc.devRef_injective _ (Finset.mem_singleton.mp h)) (by decide)),
      HloOp.result_of_not_mem _ _ (show (Proc.devRef .tc main_v224 : DevRef τ sig) ∉ (pb9 : HloOp τ sig (Elt Ideal)).writes from fun h => absurd (Proc.devRef_injective _ (Finset.mem_singleton.mp h)) (by decide)),
      HloOp.result_of_not_mem _ _ (show (Proc.devRef .tc main_v65 : DevRef τ sig) ∉ (pb9 : HloOp τ sig (Elt Ideal)).writes from fun h => absurd (Proc.devRef_injective _ (Finset.mem_singleton.mp h)) (by decide))]
  · rw [HloOp.result_of_not_mem _ _ (show b ∉ (pt9 : HloOp τ sig (Elt Ideal)).writes from fun h => hb4 (Finset.mem_singleton.mp h))]
    by_cases hb3 : b = (Proc.devRef .tc main_v225_0 : DevRef τ sig)
    · subst hb3
      rw [StableHlo.binary_result]
      exact (W28_arr m ρ c 3).trans (final9_3 (V27 m ρ) c)
    rw [HloOp.result_of_not_mem _ _ (show b ∉ (pb9 : HloOp τ sig (Elt Ideal)).writes from fun h => hb3 (Finset.mem_singleton.mp h))]
    by_cases h0 : b = (Proc.devRef .tc main_v223 : DevRef τ sig)
    · subst h0
      exact (W28_arr m ρ c 0).trans (((dat9 (V27 m ρ) c).arrAt_in 0 rfl _).trans (A_eq9 (V27 m ρ) c 0))
    by_cases h1 : b = (Proc.devRef .tc main_v224 : DevRef τ sig)
    · subst h1
      exact (W28_arr m ρ c 1).trans (((dat9 (V27 m ρ) c).arrAt_in 1 rfl _).trans (A_eq9 (V27 m ρ) c 1))
    by_cases h2 : b = (Proc.devRef .tc main_v65 : DevRef τ sig)
    · subst h2
      exact (W28_arr m ρ c 2).trans (((dat9 (V27 m ρ) c).arrAt_in 2 rfl _).trans (A_eq9 (V27 m ρ) c 2))
    unfold W28 Pipeline.withArrays
    rw [dif_neg]
    rintro ⟨w, rfl⟩
    match w with
    | ⟨0, _⟩ => exact h0 rfl
    | ⟨1, _⟩ => exact h1 rfl
    | ⟨2, _⟩ => exact h2 rfl
    | ⟨3, _⟩ => exact hb3 rfl
    | ⟨4, _⟩ => exact hb4 rfl

/-- Walk step 5 as a whole. -/
theorem W30_eq (c : Dev nD) : W30 m ρ c = StableHlo.after Kit4 (W25 m ρ c) := by
  show StableHlo.after hostOps10_1 (StableHlo.after hostOps10 (W28 m ρ c)) = _
  rw [W28_step]
  show StableHlo.after hostOps10_1 (StableHlo.after hostOps10 (pt9.result (pb9.result (StableHlo.after hostOps9 (W26 m ρ c))))) = _
  rw [W26_step]
  simp only [Kit4, after_cons', after_app]

/-- Region 10: the exit contents are the entry contents with the weight product written. -/
theorem W31_step (c : Dev nD) : W31 m ρ c = pmm10.result (W30 m ρ c) := by
  funext b
  by_cases hb : b = (Proc.devRef .tc main_v246 : DevRef τ sig)
  · subst hb
    rw [StableHlo.binary_result]
    exact (W31_arr m ρ c 2).trans (final10_2 (V30 m ρ) c)
  · rw [HloOp.result_of_not_mem _ _ (show b ∉ (pmm10 : HloOp τ sig (Elt Ideal)).writes from fun h => hb (Finset.mem_singleton.mp h))]
    by_cases h0 : b = (Proc.devRef .tc main_v225_0 : DevRef τ sig)
    · subst h0
      exact (W31_arr m ρ c 0).trans (((dat10 (V30 m ρ) c).arrAt_in 0 rfl _).trans (A_eq10 (V30 m ρ) c 0))
    by_cases h1 : b = (Proc.devRef .tc main_arg5 : DevRef τ sig)
    · subst h1
      exact (W31_arr m ρ c 1).trans (((dat10 (V30 m ρ) c).arrAt_in 1 rfl _).trans (A_eq10 (V30 m ρ) c 1))
    unfold W31 Pipeline.withArrays
    rw [dif_neg]
    rintro ⟨w, rfl⟩
    match w with
    | ⟨0, _⟩ => exact h0 rfl
    | ⟨1, _⟩ => exact h1 rfl
    | ⟨2, _⟩ => exact hb rfl

/-- Region 11: the exit contents are the entry contents with the biased array and the blocks' sums written. -/
theorem W33_step (c : Dev nD) : W33 m ρ c = pt11.result (pb11.result (W32 m ρ c)) := by
  funext b
  by_cases hb4 : b = (Proc.devRef .tc main_v261_1 : DevRef τ sig)
  · subst hb4
    rw [StableHlo.ternary_result]
    refine ((W33_arr m ρ c 4).trans (final11_4 (V32 m ρ) c)).trans ?_
    rw [HloOp.result_of_not_mem _ _ (show (Proc.devRef .tc main_v259 : DevRef τ sig) ∉ (pb11 : HloOp τ sig (Elt Ideal)).writes from fun h => absurd (Proc.devRef_injective _ (Finset.mem_singleton.mp h)) (by decide)),
      HloOp.result_of_not_mem _ _ (show (Proc.devRef .tc main_v260 : DevRef τ sig) ∉ (pb11 : HloOp τ sig (Elt Ideal)).writes from fun h => absurd (Proc.devRef_injective _ (Finset.mem_singleton.mp h)) (by decide)),
      HloOp.result_of_not_mem _ _ (show (Proc.devRef .tc main_v65 : DevRef τ sig) ∉ (pb11 : HloOp τ sig (Elt Ideal)).writes from fun h => absurd (Proc.devRef_injective _ (Finset.mem_singleton.mp h)) (by decide))]
  · rw [HloOp.result_of_not_mem _ _ (show b ∉ (pt11 : HloOp τ sig (Elt Ideal)).writes from fun h => hb4 (Finset.mem_singleton.mp h))]
    by_cases hb3 : b = (Proc.devRef .tc main_v261_0 : DevRef τ sig)
    · subst hb3
      rw [StableHlo.binary_result]
      exact (W33_arr m ρ c 3).trans (final11_3 (V32 m ρ) c)
    rw [HloOp.result_of_not_mem _ _ (show b ∉ (pb11 : HloOp τ sig (Elt Ideal)).writes from fun h => hb3 (Finset.mem_singleton.mp h))]
    by_cases h0 : b = (Proc.devRef .tc main_v259 : DevRef τ sig)
    · subst h0
      exact (W33_arr m ρ c 0).trans (((dat11 (V32 m ρ) c).arrAt_in 0 rfl _).trans (A_eq11 (V32 m ρ) c 0))
    by_cases h1 : b = (Proc.devRef .tc main_v260 : DevRef τ sig)
    · subst h1
      exact (W33_arr m ρ c 1).trans (((dat11 (V32 m ρ) c).arrAt_in 1 rfl _).trans (A_eq11 (V32 m ρ) c 1))
    by_cases h2 : b = (Proc.devRef .tc main_v65 : DevRef τ sig)
    · subst h2
      exact (W33_arr m ρ c 2).trans (((dat11 (V32 m ρ) c).arrAt_in 2 rfl _).trans (A_eq11 (V32 m ρ) c 2))
    unfold W33 Pipeline.withArrays
    rw [dif_neg]
    rintro ⟨w, rfl⟩
    match w with
    | ⟨0, _⟩ => exact h0 rfl
    | ⟨1, _⟩ => exact h1 rfl
    | ⟨2, _⟩ => exact h2 rfl
    | ⟨3, _⟩ => exact hb3 rfl
    | ⟨4, _⟩ => exact hb4 rfl

/-- Walk step 6 as a whole. -/
theorem W35_eq (c : Dev nD) : W35 m ρ c = StableHlo.after Kit5 (W30 m ρ c) := by
  show StableHlo.after hostOps12_1 (StableHlo.after hostOps12 (W33 m ρ c)) = _
  rw [W33_step]
  show StableHlo.after hostOps12_1 (StableHlo.after hostOps12 (pt11.result (pb11.result (StableHlo.after hostOps11 (W31 m ρ c))))) = _
  rw [W31_step]
  simp only [Kit5, after_cons', after_app]

/-- Region 12: the exit contents are the entry contents with the weight product written. -/
theorem W36_step (c : Dev nD) : W36 m ρ c = pmm12.result (W35 m ρ c) := by
  funext b
  by_cases hb : b = (Proc.devRef .tc main_v282 : DevRef τ sig)
  · subst hb
    rw [StableHlo.binary_result]
    exact (W36_arr m ρ c 2).trans (final12_2 (V35 m ρ) c)
  · rw [HloOp.result_of_not_mem _ _ (show b ∉ (pmm12 : HloOp τ sig (Elt Ideal)).writes from fun h => hb (Finset.mem_singleton.mp h))]
    by_cases h0 : b = (Proc.devRef .tc main_v261_0 : DevRef τ sig)
    · subst h0
      exact (W36_arr m ρ c 0).trans (((dat12 (V35 m ρ) c).arrAt_in 0 rfl _).trans (A_eq12 (V35 m ρ) c 0))
    by_cases h1 : b = (Proc.devRef .tc main_arg5 : DevRef τ sig)
    · subst h1
      exact (W36_arr m ρ c 1).trans (((dat12 (V35 m ρ) c).arrAt_in 1 rfl _).trans (A_eq12 (V35 m ρ) c 1))
    unfold W36 Pipeline.withArrays
    rw [dif_neg]
    rintro ⟨w, rfl⟩
    match w with
    | ⟨0, _⟩ => exact h0 rfl
    | ⟨1, _⟩ => exact h1 rfl
    | ⟨2, _⟩ => exact hb rfl

/-- Region 13: the exit contents are the entry contents with the biased array and the blocks' sums written. -/
theorem W38_step (c : Dev nD) : W38 m ρ c = pt13.result (pb13.result (W37 m ρ c)) := by
  funext b
  by_cases hb4 : b = (Proc.devRef .tc main_v297_1 : DevRef τ sig)
  · subst hb4
    rw [StableHlo.ternary_result]
    refine ((W38_arr m ρ c 4).trans (final13_4 (V37 m ρ) c)).trans ?_
    rw [HloOp.result_of_not_mem _ _ (show (Proc.devRef .tc main_v295 : DevRef τ sig) ∉ (pb13 : HloOp τ sig (Elt Ideal)).writes from fun h => absurd (Proc.devRef_injective _ (Finset.mem_singleton.mp h)) (by decide)),
      HloOp.result_of_not_mem _ _ (show (Proc.devRef .tc main_v296 : DevRef τ sig) ∉ (pb13 : HloOp τ sig (Elt Ideal)).writes from fun h => absurd (Proc.devRef_injective _ (Finset.mem_singleton.mp h)) (by decide)),
      HloOp.result_of_not_mem _ _ (show (Proc.devRef .tc main_v65 : DevRef τ sig) ∉ (pb13 : HloOp τ sig (Elt Ideal)).writes from fun h => absurd (Proc.devRef_injective _ (Finset.mem_singleton.mp h)) (by decide))]
  · rw [HloOp.result_of_not_mem _ _ (show b ∉ (pt13 : HloOp τ sig (Elt Ideal)).writes from fun h => hb4 (Finset.mem_singleton.mp h))]
    by_cases hb3 : b = (Proc.devRef .tc main_v297_0 : DevRef τ sig)
    · subst hb3
      rw [StableHlo.binary_result]
      exact (W38_arr m ρ c 3).trans (final13_3 (V37 m ρ) c)
    rw [HloOp.result_of_not_mem _ _ (show b ∉ (pb13 : HloOp τ sig (Elt Ideal)).writes from fun h => hb3 (Finset.mem_singleton.mp h))]
    by_cases h0 : b = (Proc.devRef .tc main_v295 : DevRef τ sig)
    · subst h0
      exact (W38_arr m ρ c 0).trans (((dat13 (V37 m ρ) c).arrAt_in 0 rfl _).trans (A_eq13 (V37 m ρ) c 0))
    by_cases h1 : b = (Proc.devRef .tc main_v296 : DevRef τ sig)
    · subst h1
      exact (W38_arr m ρ c 1).trans (((dat13 (V37 m ρ) c).arrAt_in 1 rfl _).trans (A_eq13 (V37 m ρ) c 1))
    by_cases h2 : b = (Proc.devRef .tc main_v65 : DevRef τ sig)
    · subst h2
      exact (W38_arr m ρ c 2).trans (((dat13 (V37 m ρ) c).arrAt_in 2 rfl _).trans (A_eq13 (V37 m ρ) c 2))
    unfold W38 Pipeline.withArrays
    rw [dif_neg]
    rintro ⟨w, rfl⟩
    match w with
    | ⟨0, _⟩ => exact h0 rfl
    | ⟨1, _⟩ => exact h1 rfl
    | ⟨2, _⟩ => exact h2 rfl
    | ⟨3, _⟩ => exact hb3 rfl
    | ⟨4, _⟩ => exact hb4 rfl

/-- Walk step 7 as a whole. -/
theorem W40_eq (c : Dev nD) : W40 m ρ c = StableHlo.after Kit6 (W35 m ρ c) := by
  show StableHlo.after hostOps14_1 (StableHlo.after hostOps14 (W38 m ρ c)) = _
  rw [W38_step]
  show StableHlo.after hostOps14_1 (StableHlo.after hostOps14 (pt13.result (pb13.result (StableHlo.after hostOps13 (W36 m ρ c))))) = _
  rw [W36_step]
  simp only [Kit6, after_cons', after_app]

/-- The shared first part. -/
theorem W5_eq (c : Dev nD) : W5 m ρ c = StableHlo.after Kpro (W0 m ρ c) := by
  simp only [Kpro, after_app]
/-- The readout. -/
theorem W45_eq (c : Dev nD) : W45 m ρ c = StableHlo.after Ktail (W40 m ρ c) := by
  simp only [Ktail, after_app]

end Cert.KernelIdeal.KV

end
-- ==== Proof.Bridge.lean ====
/-
  The two programs end with the same result: the second program's contents after all its operations and the first
  program's contents at its last boundary hold the same values in the result arrays, when the two memories agree on
  the eleven arguments.
-/
import proofs.«156722_j77687368450207_1_alg».proof.Proof.BridgeCore
import proofs.«156722_j77687368450207_1_alg».proof.Proof.KOps

set_option maxRecDepth 8192
set_option maxHeartbeats 4000000

noncomputable section

namespace Cert.Proof.Br

open Idealize.ShloMosaic Idealize.ShloMosaic.TcCoe Idealize.SL.Sem Idealize.ShloMosaic.StableHlo

theorem bridge (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    after (Cert.ReferenceIdeal.RR.ops (F := Ideal)) (launchContents m' c) (Proc.devRef .tc Cert.ReferenceIdeal.main_v409)
      = Cert.KernelIdeal.KF.W45 m ρ c (Proc.devRef .tc Cert.KernelIdeal.main_v366) := by
  obtain ⟨b0, b1, b2, b3, b4, b5, b6, b7, b8, b9, b10⟩ := hagree c
  rw [Cert.ReferenceIdeal.RR.after_ops_eq_U, Cert.KernelIdeal.KV.W45_eq, Cert.KernelIdeal.KV.W40_eq, Cert.KernelIdeal.KV.W35_eq, Cert.KernelIdeal.KV.W30_eq, Cert.KernelIdeal.KV.W25_eq, Cert.KernelIdeal.KV.W20_eq, Cert.KernelIdeal.KV.W15_eq, Cert.KernelIdeal.KV.W10_eq, Cert.KernelIdeal.KV.W5_eq]
  exact (eq_of_heq (core (Cert.KernelIdeal.KF.W0 m ρ c) (Cert.ReferenceIdeal.RR.U0 m' c)
    (heq_of_eq b0.symm) (heq_of_eq b1.symm) (heq_of_eq b2.symm) (heq_of_eq b3.symm) (heq_of_eq b4.symm) (heq_of_eq b5.symm) (heq_of_eq b6.symm) (heq_of_eq b7.symm) (heq_of_eq b8.symm) (heq_of_eq b9.symm) (heq_of_eq b10.symm))).symm

end Cert.Proof.Br

end
-- ==== Proof.lean ====
/-
  The certificate of a seven-step graph walk: each step multiplies the node features of a 32768-node graph by a shared
  128×128 weight, sends every node's row along the edges (a gather of source rows, a scale by the symmetric degree
  normaliser, a scatter-add at the destination), adds a bias, and records for each of the 256 blocks of 128 nodes the
  trace of its 128×128 block; a 128-node companion graph goes through the same step beside it; the fourteen traces per
  step feed a small normalised two-layer readout. The kernel runs the weight product and the bias-plus-trace step as two
  pipelined regions per walk step (fourteen regions in all) among stretches of host operations; the reference is one
  line of host operations.

  Frames. The kernel program, at either instance, is the chain of its host stretches and regions (module KRun / BRun):
  every execution terminates and ends with every unscoped buffer at the last fold, and no step of the fold touches an
  argument array. The reference's run is its operations' fold from the launch memory.

  Values. At the ideal instance a change of float format is the identity, a matrix product into zeros is the exact sum
  over the contracted axis, and the identity-masked double sum that the kernel uses for a block's trace keeps exactly
  the diagonal (x·0 = 0 and x·1 = x on every extended real), which is what the reference's masked sum over both block
  axes keeps; every other operation of a walk step is the same host operation on both sides.
-/
import proofs.«156722_j77687368450207_1_alg».proof.Defs
import proofs.«156722_j77687368450207_1_alg».proof.Proof.Gen.Kernel
import proofs.«156722_j77687368450207_1_alg».proof.Proof.Gen.KernelIdeal
import proofs.«156722_j77687368450207_1_alg».proof.Proof.Gen.ReferenceIdeal
import proofs.«156722_j77687368450207_1_alg».proof.Proof.Gen.Pre_finite_inputs
import proofs.«156722_j77687368450207_1_alg».proof.Proof.KRun
import proofs.«156722_j77687368450207_1_alg».proof.Proof.BRun
import proofs.«156722_j77687368450207_1_alg».proof.Proof.RefRun
import proofs.«156722_j77687368450207_1_alg».proof.Proof.Assemble
import proofs.«156722_j77687368450207_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed: its run ends with every argument array as launched. -/
theorem frame_k : Cert.frame_Kernel := fun m ρ _ =>
  (θ_run Cert.Kernel.defs _ _).mono (fun r h c =>
    ⟨(h c _ (Cert.Kernel.KF.mem_uc Cert.Kernel.main_arg0 (by decide))).trans (Cert.Kernel.KF.W45_main_arg0 m ρ c),
     (h c _ (Cert.Kernel.KF.mem_uc Cert.Kernel.main_arg1 (by decide))).trans (Cert.Kernel.KF.W45_main_arg1 m ρ c),
     (h c _ (Cert.Kernel.KF.mem_uc Cert.Kernel.main_arg2 (by decide))).trans (Cert.Kernel.KF.W45_main_arg2 m ρ c),
     (h c _ (Cert.Kernel.KF.mem_uc Cert.Kernel.main_arg3 (by decide))).trans (Cert.Kernel.KF.W45_main_arg3 m ρ c),
     (h c _ (Cert.Kernel.KF.mem_uc Cert.Kernel.main_arg4 (by decide))).trans (Cert.Kernel.KF.W45_main_arg4 m ρ c),
     (h c _ (Cert.Kernel.KF.mem_uc Cert.Kernel.main_arg5 (by decide))).trans (Cert.Kernel.KF.W45_main_arg5 m ρ c),
     (h c _ (Cert.Kernel.KF.mem_uc Cert.Kernel.main_arg6 (by decide))).trans (Cert.Kernel.KF.W45_main_arg6 m ρ c),
     (h c _ (Cert.Kernel.KF.mem_uc Cert.Kernel.main_arg7 (by decide))).trans (Cert.Kernel.KF.W45_main_arg7 m ρ c),
     (h c _ (Cert.Kernel.KF.mem_uc Cert.Kernel.main_arg8 (by decide))).trans (Cert.Kernel.KF.W45_main_arg8 m ρ c),
     (h c _ (Cert.Kernel.KF.mem_uc Cert.Kernel.main_arg9 (by decide))).trans (Cert.Kernel.KF.W45_main_arg9 m ρ c),
     (h c _ (Cert.Kernel.KF.mem_uc Cert.Kernel.main_arg10 (by decide))).trans (Cert.Kernel.KF.W45_main_arg10 m ρ c)⟩)
    (Cert.Kernel.KF.run (F := Bits) m ρ)

/-- The idealized kernel program: the same chain read at the ideal instance. -/
theorem frame_ki : Cert.frame_KernelIdeal := fun m ρ _ =>
  (θ_run Cert.KernelIdeal.defs _ _).mono (fun r h c =>
    ⟨(h c _ (Cert.KernelIdeal.KF.mem_uc Cert.KernelIdeal.main_arg0 (by decide))).trans (Cert.KernelIdeal.KF.W45_main_arg0 m ρ c),
     (h c _ (Cert.KernelIdeal.KF.mem_uc Cert.KernelIdeal.main_arg1 (by decide))).trans (Cert.KernelIdeal.KF.W45_main_arg1 m ρ c),
     (h c _ (Cert.KernelIdeal.KF.mem_uc Cert.KernelIdeal.main_arg2 (by decide))).trans (Cert.KernelIdeal.KF.W45_main_arg2 m ρ c),
     (h c _ (Cert.KernelIdeal.KF.mem_uc Cert.KernelIdeal.main_arg3 (by decide))).trans (Cert.KernelIdeal.KF.W45_main_arg3 m ρ c),
     (h c _ (Cert.KernelIdeal.KF.mem_uc Cert.KernelIdeal.main_arg4 (by decide))).trans (Cert.KernelIdeal.KF.W45_main_arg4 m ρ c),
     (h c _ (Cert.KernelIdeal.KF.mem_uc Cert.KernelIdeal.main_arg5 (by decide))).trans (Cert.KernelIdeal.KF.W45_main_arg5 m ρ c),
     (h c _ (Cert.KernelIdeal.KF.mem_uc Cert.KernelIdeal.main_arg6 (by decide))).trans (Cert.KernelIdeal.KF.W45_main_arg6 m ρ c),
     (h c _ (Cert.KernelIdeal.KF.mem_uc Cert.KernelIdeal.main_arg7 (by decide))).trans (Cert.KernelIdeal.KF.W45_main_arg7 m ρ c),
     (h c _ (Cert.KernelIdeal.KF.mem_uc Cert.KernelIdeal.main_arg8 (by decide))).trans (Cert.KernelIdeal.KF.W45_main_arg8 m ρ c),
     (h c _ (Cert.KernelIdeal.KF.mem_uc Cert.KernelIdeal.main_arg9 (by decide))).trans (Cert.KernelIdeal.KF.W45_main_arg9 m ρ c),
     (h c _ (Cert.KernelIdeal.KF.mem_uc Cert.KernelIdeal.main_arg10 (by decide))).trans (Cert.KernelIdeal.KF.W45_main_arg10 m ρ c)⟩)
    (Cert.KernelIdeal.KF.run (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.RR.run (F := Ideal) m ρ)

theorem preserves : Cert.preserves_Kernel_KernelIdeal := trivial

/-- The two idealized programs end with equal results: the kernel program's last fold and the reference's fold hold the
    same array at the result buffer (module Bridge), and each run ends at its fold. -/
theorem algebraic :
    Cert.algebraic_KernelIdeal_ReferenceIdeal :=
  Cert.Proof.Asm.algebraic_of_bridge Cert.Proof.Br.bridge

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
